-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v321) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x14 : Shape := ⟨2, ![50000, 14]⟩
abbrev S50000x2 : Shape := ⟨2, ![50000, 2]⟩
abbrev S2x800000 : Shape := ⟨2, ![2, 800000]⟩
abbrev S50000 : Shape := ⟨1, ![50000]⟩
abbrev S16x64 : Shape := ⟨2, ![16, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x14 : S_.BroadcastsInDim S50000x14 (![] : Fin 0 → Fin S50000x14.rank)
  reducesTo_S50000x14_S_d0_1 : S50000x14.ReducesTo [0, 1] S_
  h_S_ : 0 < S_.numel
  bcast_S_S50000x2 : S_.BroadcastsInDim S50000x2 (![] : Fin 0 → Fin S50000x2.rank)
  reducesTo_S50000x2_S_d0_1 : S50000x2.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64 .f32) (main_arg10 : FVec F S64x1 .f32) (main_arg11 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S64x64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x14 .f32) (main_arg1 : FVec F S50000x2 .f32) (main_arg2 : IVec S2x800000 32) (main_arg3 : IVec S50000 32) (main_arg4 : FVec F S16x64 .f32) (main_arg5 : FVec F S64 .f32) (main_arg6 : FVec F S64x64 .f32) (main_arg7 : FVec F S64 .f32) (main_arg8 : FVec F S64x64 .f32) (main_arg9 : FVec F S64 .f32) (main_arg10 : FVec F S64x1 .f32) (main_arg11 : FVec F S1 .f32) : IVec S_ 1 :=
  let main_v0 : FVec F S50000x14 .f32 := Host.absf main_arg0
  let main_cst : FVec F S_ .f32 := constant S_ .f32 0x7F800000#32
  let main_v1 : FVec F S50000x14 .f32 := broadcastInDim S50000x14 ![] bcast_S_S50000x14 main_cst
  let main_v2 : IVec S50000x14 1 := cmpf .olt main_v0 main_v1
  let main_c : IVec S_ 1 := constantI S_ 1 1#1
  let main_v3 : IVec S_ 1 := (fun x v => Host.reduce IntOp.andi x v reducesTo_S50000x14_S_d0_1 h_S_) main_v2 main_c
  let main_v4 : FVec F S50000x2 .f32 := Host.absf main_arg1
  let main_cst_0 : FVec F S_ .f32 := constant S_ .f32 0x7F800000#32
  let main_v5 : FVec F S50000x2 .f32 := broadcastInDim S50000x2 ![] bcast_S_S50000x2 main_cst_0
  let main_v6 : IVec S50000x2 1 := cmpf .olt main_v4 main_v5
  let main_c_1 : IVec S_ 1 := constantI S_ 1 1#1
  let main_v7 : IVec S_ 1 := (fun x v => Host.reduce IntOp.andi x v reducesTo_S50000x2_S_d0_1 h_S_) main_v6 main_c_1
  let main_v8 : IVec S_ 1 := andi main_v3 main_v7
  let main_v9 : FVec F S16x64 .f32 := Host.absf main_arg4
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S50000x14 : Shape := ⟨2, ![50000, 14]⟩
abbrev S50000x2 : Shape := ⟨2, ![50000, 2]⟩
abbrev S2x800000 : Shape := ⟨2, ![2, 800000]⟩
abbrev S50000 : Shape := ⟨1, ![50000]⟩
abbrev S16x64 : Shape := ⟨2, ![16, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x16 : Shape := ⟨2, ![50000, 16]⟩
abbrev S1x64 : Shape := ⟨2, ![1, 64]⟩
abbrev S50000x64 : Shape := ⟨2, ![50000, 64]⟩
abbrev S2000x16 : Shape := ⟨2, ![2000, 16]⟩
abbrev S2000x64 : Shape := ⟨2, ![2000, 64]⟩
abbrev S2000x1 : Shape := ⟨2, ![2000, 1]⟩
abbrev S800000x64 : Shape := ⟨2, ![800000, 64]⟩
abbrev S1x1 : Shape := ⟨2, ![1, 1]⟩
abbrev S500x1 : Shape := ⟨2, ![500, 1]⟩
abbrev S500 : Shape := ⟨1, ![500]⟩

abbrev nBuf : Space → Nat
  | .hbm => 132
  | .vmem => 132
  | .smem => 0
  | _ => 0

abbrev hbmTy0_0 (i : Nat) : BufTy := match i % 128 with
  | 0 => ⟨S50000x14, .f32⟩
  | 1 => ⟨S50000x2, .f32⟩
  | 2 => ⟨S2x800000, .i32⟩
  | 3 => ⟨S50000, .i32⟩
  | 4 => ⟨S16x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S50000x1, .f32⟩
  | 27 => ⟨S50000x16, .f32⟩
  | 28 => ⟨S1x64, .f32⟩
  | 29 => ⟨S50000x64, .f32⟩
  | 30 => ⟨S50000x64, .bf16⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x64, .bf16⟩
  | 40 => ⟨S800000x64, .f32⟩
  | 41 => ⟨S_, .f32⟩
  | 42 => ⟨S50000x64, .f32⟩
  | 43 => ⟨S800000x1, .i32⟩
  | 44 => ⟨S50000x64, .f32⟩
  | 45 => ⟨S1x64, .f32⟩
  | 46 => ⟨S1x64, .f32⟩
  | 47 => ⟨S50000x64, .f32⟩
  | 48 => ⟨S50000x64, .f32⟩
  | 49 => ⟨S50000x64, .bf16⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x64, .bf16⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S1x64, .f32⟩
  | 65 => ⟨S1x64, .f32⟩
  | 66 => ⟨S50000x64, .f32⟩
  | 67 => ⟨S50000x64, .f32⟩
  | 68 => ⟨S50000x64, .bf16⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .bf16⟩
  | 78 => ⟨S800000x64, .f32⟩
  | 79 => ⟨S_, .f32⟩
  | 80 => ⟨S50000x64, .f32⟩
  | 81 => ⟨S800000x1, .i32⟩
  | 82 => ⟨S50000x64, .f32⟩
  | 83 => ⟨S1x64, .f32⟩
  | 84 => ⟨S1x64, .f32⟩
  | 85 => ⟨S50000x64, .f32⟩
  | 86 => ⟨S50000x64, .f32⟩
  | 87 => ⟨S50000x64, .bf16⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .bf16⟩
  | 97 => ⟨S800000x64, .f32⟩
  | 98 => ⟨S_, .f32⟩
  | 99 => ⟨S50000x64, .f32⟩
  | 100 => ⟨S800000x1, .i32⟩
  | 101 => ⟨S50000x64, .f32⟩
  | 102 => ⟨S1x64, .f32⟩
  | 103 => ⟨S1x64, .f32⟩
  | 104 => ⟨S50000x64, .f32⟩
  | 105 => ⟨S50000x64, .f32⟩
  | 106 => ⟨S50000x64, .bf16⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x64, .bf16⟩
  | 116 => ⟨S800000x64, .f32⟩
  | 117 => ⟨S_, .f32⟩
  | 118 => ⟨S50000x64, .f32⟩
  | 119 => ⟨S800000x1, .i32⟩
  | 120 => ⟨S50000x64, .f32⟩
  | 121 => ⟨S1x64, .f32⟩
  | 122 => ⟨S1x64, .f32⟩
  | 123 => ⟨S50000x64, .f32⟩
  | 124 => ⟨S50000x64, .f32⟩
  | 125 => ⟨S1x1, .f32⟩
  | 126 => ⟨S50000x1, .f32⟩
  | 127 => ⟨S_, .f32⟩
  | _ => ⟨S50000x14, .f32⟩

abbrev hbmTy0_1 (i : Nat) : BufTy := match i % 128 with
  | 0 => ⟨S500x1, .f32⟩
  | 1 => ⟨S50000x1, .i32⟩
  | 2 => ⟨S500x1, .f32⟩
  | 3 => ⟨S500, .f32⟩
  | _ => ⟨S50000x14, .f32⟩

abbrev hbmTy (i : Nat) : BufTy := match i / 128 with
  | 0 => hbmTy0_0 i
  | 1 => hbmTy0_1 i
  | _ => ⟨S50000x14, .f32⟩

abbrev vmemTy0_0 (i : Nat) : BufTy := match i % 128 with
  | 0 => ⟨S2000x16, .f32⟩
  | 1 => ⟨S2000x16, .f32⟩
  | 2 => ⟨S16x64, .f32⟩
  | 3 => ⟨S1x64, .f32⟩
  | 4 => ⟨S2000x64, .f32⟩
  | 5 => ⟨S2000x64, .f32⟩
  | 6 => ⟨S2000x64, .f32⟩
  | 7 => ⟨S2000x64, .f32⟩
  | 8 => ⟨S64x64, .f32⟩
  | 9 => ⟨S2000x1, .f32⟩
  | 10 => ⟨S2000x1, .f32⟩
  | 11 => ⟨S2000x64, .bf16⟩
  | 12 => ⟨S2000x64, .bf16⟩
  | 13 => ⟨S2000x64, .f32⟩
  | 14 => ⟨S2000x64, .f32⟩
  | 15 => ⟨S2000x64, .f32⟩
  | 16 => ⟨S2000x64, .f32⟩
  | 17 => ⟨S2000x64, .f32⟩
  | 18 => ⟨S2000x64, .f32⟩
  | 19 => ⟨S2000x64, .bf16⟩
  | 20 => ⟨S2000x64, .bf16⟩
  | 21 => ⟨S2000x1, .f32⟩
  | 22 => ⟨S2000x1, .f32⟩
  | 23 => ⟨S64x64, .f32⟩
  | 24 => ⟨S1x64, .f32⟩
  | 25 => ⟨S1x64, .f32⟩
  | 26 => ⟨S2000x64, .f32⟩
  | 27 => ⟨S2000x64, .f32⟩
  | 28 => ⟨S2000x64, .f32⟩
  | 29 => ⟨S2000x64, .f32⟩
  | 30 => ⟨S2000x64, .f32⟩
  | 31 => ⟨S2000x64, .f32⟩
  | 32 => ⟨S64x64, .f32⟩
  | 33 => ⟨S2000x1, .f32⟩
  | 34 => ⟨S2000x1, .f32⟩
  | 35 => ⟨S2000x64, .bf16⟩
  | 36 => ⟨S2000x64, .bf16⟩
  | 37 => ⟨S2000x64, .f32⟩
  | 38 => ⟨S2000x64, .f32⟩
  | 39 => ⟨S2000x64, .f32⟩
  | 40 => ⟨S2000x64, .f32⟩
  | 41 => ⟨S2000x64, .f32⟩
  | 42 => ⟨S2000x64, .f32⟩
  | 43 => ⟨S2000x64, .bf16⟩
  | 44 => ⟨S2000x64, .bf16⟩
  | 45 => ⟨S2000x1, .f32⟩
  | 46 => ⟨S2000x1, .f32⟩
  | 47 => ⟨S64x64, .f32⟩
  | 48 => ⟨S1x64, .f32⟩
  | 49 => ⟨S1x64, .f32⟩
  | 50 => ⟨S2000x64, .f32⟩
  | 51 => ⟨S2000x64, .f32⟩
  | 52 => ⟨S2000x64, .f32⟩
  | 53 => ⟨S2000x64, .f32⟩
  | 54 => ⟨S2000x64, .f32⟩
  | 55 => ⟨S2000x64, .f32⟩
  | 56 => ⟨S64x64, .f32⟩
  | 57 => ⟨S2000x1, .f32⟩
  | 58 => ⟨S2000x1, .f32⟩
  | 59 => ⟨S2000x64, .bf16⟩
  | 60 => ⟨S2000x64, .bf16⟩
  | 61 => ⟨S2000x64, .f32⟩
  | 62 => ⟨S2000x64, .f32⟩
  | 63 => ⟨S2000x64, .f32⟩
  | 64 => ⟨S2000x64, .f32⟩
  | 65 => ⟨S2000x64, .f32⟩
  | 66 => ⟨S2000x64, .f32⟩
  | 67 => ⟨S2000x64, .bf16⟩
  | 68 => ⟨S2000x64, .bf16⟩
  | 69 => ⟨S2000x1, .f32⟩
  | 70 => ⟨S2000x1, .f32⟩
  | 71 => ⟨S64x64, .f32⟩
  | 72 => ⟨S1x64, .f32⟩
  | 73 => ⟨S1x64, .f32⟩
  | 74 => ⟨S2000x64, .f32⟩
  | 75 => ⟨S2000x64, .f32⟩
  | 76 => ⟨S2000x64, .f32⟩
  | 77 => ⟨S2000x64, .f32⟩
  | 78 => ⟨S2000x64, .f32⟩
  | 79 => ⟨S2000x64, .f32⟩
  | 80 => ⟨S64x64, .f32⟩
  | 81 => ⟨S2000x1, .f32⟩
  | 82 => ⟨S2000x1, .f32⟩
  | 83 => ⟨S2000x64, .bf16⟩
  | 84 => ⟨S2000x64, .bf16⟩
  | 85 => ⟨S2000x64, .f32⟩
  | 86 => ⟨S2000x64, .f32⟩
  | 87 => ⟨S2000x64, .f32⟩
  | 88 => ⟨S2000x64, .f32⟩
  | 89 => ⟨S2000x64, .f32⟩
  | 90 => ⟨S2000x64, .f32⟩
  | 91 => ⟨S2000x64, .bf16⟩
  | 92 => ⟨S2000x64, .bf16⟩
  | 93 => ⟨S2000x1, .f32⟩
  | 94 => ⟨S2000x1, .f32⟩
  | 95 => ⟨S64x64, .f32⟩
  | 96 => ⟨S1x64, .f32⟩
  | 97 => ⟨S1x64, .f32⟩
  | 98 => ⟨S2000x64, .f32⟩
  | 99 => ⟨S2000x64, .f32⟩
  | 100 => ⟨S2000x64, .f32⟩
  | 101 => ⟨S2000x64, .f32⟩
  | 102 => ⟨S2000x64, .f32⟩
  | 103 => ⟨S2000x64, .f32⟩
  | 104 => ⟨S64x64, .f32⟩
  | 105 => ⟨S2000x1, .f32⟩
  | 106 => ⟨S2000x1, .f32⟩
  | 107 => ⟨S2000x64, .bf16⟩
  | 108 => ⟨S2000x64, .bf16⟩
  | 109 => ⟨S2000x64, .f32⟩
  | 110 => ⟨S2000x64, .f32⟩
  | 111 => ⟨S2000x64, .f32⟩
  | 112 => ⟨S2000x64, .f32⟩
  | 113 => ⟨S2000x64, .f32⟩
  | 114 => ⟨S2000x64, .f32⟩
  | 115 => ⟨S2000x64, .bf16⟩
  | 116 => ⟨S2000x64, .bf16⟩
  | 117 => ⟨S2000x1, .f32⟩
  | 118 => ⟨S2000x1, .f32⟩
  | 119 => ⟨S64x64, .f32⟩
  | 120 => ⟨S1x64, .f32⟩
  | 121 => ⟨S1x64, .f32⟩
  | 122 => ⟨S2000x64, .f32⟩
  | 123 => ⟨S2000x64, .f32⟩
  | 124 => ⟨S2000x64, .f32⟩
  | 125 => ⟨S2000x64, .f32⟩
  | 126 => ⟨S2000x64, .f32⟩
  | 127 => ⟨S2000x64, .f32⟩
  | _ => ⟨S50000x14, .f32⟩

abbrev vmemTy0_1 (i : Nat) : BufTy := match i % 128 with
  | 0 => ⟨S64x1, .f32⟩
  | 1 => ⟨S1x1, .f32⟩
  | 2 => ⟨S2000x1, .f32⟩
  | 3 => ⟨S2000x1, .f32⟩
  | _ => ⟨S50000x14, .f32⟩

abbrev vmemTy (i : Nat) : BufTy := match i / 128 with
  | 0 => vmemTy0_0 i
  | 1 => vmemTy0_1 i
  | _ => ⟨S50000x14, .f32⟩

abbrev bufTy : (tb : Table) → Fin (tcTables nBuf tb) → BufTy
  | .hbm, ⟨i, _⟩ => hbmTy i
  | .local _ .vmem, ⟨i, _⟩ => vmemTy i
  | _, _ => ⟨S50000x14, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29_0 : Ref sig .tc := ⟨.hbm, 47, rfl⟩
abbrev main_v29_1 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44_0 : Ref sig .tc := ⟨.hbm, 66, rfl⟩
abbrev main_v44_1 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59_0 : Ref sig .tc := ⟨.hbm, 85, rfl⟩
abbrev main_v59_1 : Ref sig .tc := ⟨.hbm, 86, rfl⟩
abbrev main_v60 : Ref sig .tc := ⟨.hbm, 87, rfl⟩
abbrev main_c_10 : Ref sig .tc := ⟨.hbm, 88, rfl⟩
abbrev main_v61 : Ref sig .tc := ⟨.hbm, 89, rfl⟩
abbrev main_v62 : Ref sig .tc := ⟨.hbm, 90, rfl⟩
abbrev main_c_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74_0 : Ref sig .tc := ⟨.hbm, 104, rfl⟩
abbrev main_v74_1 : Ref sig .tc := ⟨.hbm, 105, rfl⟩
abbrev main_v75 : Ref sig .tc := ⟨.hbm, 106, rfl⟩
abbrev main_c_13 : Ref sig .tc := ⟨.hbm, 107, rfl⟩
abbrev main_v76 : Ref sig .tc := ⟨.hbm, 108, rfl⟩
abbrev main_v77 : Ref sig .tc := ⟨.hbm, 109, rfl⟩
abbrev main_c_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_15 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89_0 : Ref sig .tc := ⟨.hbm, 123, rfl⟩
abbrev main_v89_1 : Ref sig .tc := ⟨.hbm, 124, rfl⟩
abbrev main_v90 : Ref sig .tc := ⟨.hbm, 125, rfl⟩
abbrev main_v91 : Ref sig .tc := ⟨.hbm, 126, rfl⟩
abbrev main_cst_16 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg8_1 : Ref sig .tc := ⟨.vmem, 27, rfl⟩
abbrev cc2_stg9_0 : Ref sig .tc := ⟨.vmem, 28, rfl⟩
abbrev cc2_stg9_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg3_1 : Ref sig .tc := ⟨.vmem, 44, rfl⟩
abbrev cc4_stg4_0 : Ref sig .tc := ⟨.vmem, 45, rfl⟩
abbrev cc4_stg4_1 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg7_0 : Ref sig .tc := ⟨.vmem, 49, rfl⟩
abbrev cc4_stg8_0 : Ref sig .tc := ⟨.vmem, 50, rfl⟩
abbrev cc4_stg8_1 : Ref sig .tc := ⟨.vmem, 51, rfl⟩
abbrev cc4_stg9_0 : Ref sig .tc := ⟨.vmem, 52, rfl⟩
abbrev cc4_stg9_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg2_1 : Ref sig .tc := ⟨.vmem, 58, rfl⟩
abbrev cc5_stg3_0 : Ref sig .tc := ⟨.vmem, 59, rfl⟩
abbrev cc5_stg3_1 : Ref sig .tc := ⟨.vmem, 60, rfl⟩
abbrev cc6_stg0_0 : Ref sig .tc := ⟨.vmem, 61, rfl⟩
abbrev cc6_stg0_1 : Ref sig .tc := ⟨.vmem, 62, rfl⟩
abbrev cc6_stg1_0 : Ref sig .tc := ⟨.vmem, 63, rfl⟩
abbrev cc6_stg1_1 : Ref sig .tc := ⟨.vmem, 64, rfl⟩
abbrev cc6_stg2_0 : Ref sig .tc := ⟨.vmem, 65, rfl⟩
abbrev cc6_stg2_1 : Ref sig .tc := ⟨.vmem, 66, rfl⟩
abbrev cc6_stg3_0 : Ref sig .tc := ⟨.vmem, 67, rfl⟩
abbrev cc6_stg3_1 : Ref sig .tc := ⟨.vmem, 68, rfl⟩
abbrev cc6_stg4_0 : Ref sig .tc := ⟨.vmem, 69, rfl⟩
abbrev cc6_stg4_1 : Ref sig .tc := ⟨.vmem, 70, rfl⟩
abbrev cc6_stg5_0 : Ref sig .tc := ⟨.vmem, 71, rfl⟩
abbrev cc6_stg6_0 : Ref sig .tc := ⟨.vmem, 72, rfl⟩
abbrev cc6_stg7_0 : Ref sig .tc := ⟨.vmem, 73, rfl⟩
abbrev cc6_stg8_0 : Ref sig .tc := ⟨.vmem, 74, rfl⟩
abbrev cc6_stg8_1 : Ref sig .tc := ⟨.vmem, 75, rfl⟩
abbrev cc6_stg9_0 : Ref sig .tc := ⟨.vmem, 76, rfl⟩
abbrev cc6_stg9_1 : Ref sig .tc := ⟨.vmem, 77, rfl⟩
abbrev cc7_stg0_0 : Ref sig .tc := ⟨.vmem, 78, rfl⟩
abbrev cc7_stg0_1 : Ref sig .tc := ⟨.vmem, 79, rfl⟩
abbrev cc7_stg1_0 : Ref sig .tc := ⟨.vmem, 80, rfl⟩
abbrev cc7_stg2_0 : Ref sig .tc := ⟨.vmem, 81, rfl⟩
abbrev cc7_stg2_1 : Ref sig .tc := ⟨.vmem, 82, rfl⟩
abbrev cc7_stg3_0 : Ref sig .tc := ⟨.vmem, 83, rfl⟩
abbrev cc7_stg3_1 : Ref sig .tc := ⟨.vmem, 84, rfl⟩
abbrev cc8_stg0_0 : Ref sig .tc := ⟨.vmem, 85, rfl⟩
abbrev cc8_stg0_1 : Ref sig .tc := ⟨.vmem, 86, rfl⟩
abbrev cc8_stg1_0 : Ref sig .tc := ⟨.vmem, 87, rfl⟩
abbrev cc8_stg1_1 : Ref sig .tc := ⟨.vmem, 88, rfl⟩
abbrev cc8_stg2_0 : Ref sig .tc := ⟨.vmem, 89, rfl⟩
abbrev cc8_stg2_1 : Ref sig .tc := ⟨.vmem, 90, rfl⟩
abbrev cc8_stg3_0 : Ref sig .tc := ⟨.vmem, 91, rfl⟩
abbrev cc8_stg3_1 : Ref sig .tc := ⟨.vmem, 92, rfl⟩
abbrev cc8_stg4_0 : Ref sig .tc := ⟨.vmem, 93, rfl⟩
abbrev cc8_stg4_1 : Ref sig .tc := ⟨.vmem, 94, rfl⟩
abbrev cc8_stg5_0 : Ref sig .tc := ⟨.vmem, 95, rfl⟩
abbrev cc8_stg6_0 : Ref sig .tc := ⟨.vmem, 96, rfl⟩
abbrev cc8_stg7_0 : Ref sig .tc := ⟨.vmem, 97, rfl⟩
abbrev cc8_stg8_0 : Ref sig .tc := ⟨.vmem, 98, rfl⟩
abbrev cc8_stg8_1 : Ref sig .tc := ⟨.vmem, 99, rfl⟩
abbrev cc8_stg9_0 : Ref sig .tc := ⟨.vmem, 100, rfl⟩
abbrev cc8_stg9_1 : Ref sig .tc := ⟨.vmem, 101, rfl⟩
abbrev cc9_stg0_0 : Ref sig .tc := ⟨.vmem, 102, rfl⟩
abbrev cc9_stg0_1 : Ref sig .tc := ⟨.vmem, 103, rfl⟩
abbrev cc9_stg1_0 : Ref sig .tc := ⟨.vmem, 104, rfl⟩
abbrev cc9_stg2_0 : Ref sig .tc := ⟨.vmem, 105, rfl⟩
abbrev cc9_stg2_1 : Ref sig .tc := ⟨.vmem, 106, rfl⟩
abbrev cc9_stg3_0 : Ref sig .tc := ⟨.vmem, 107, rfl⟩
abbrev cc9_stg3_1 : Ref sig .tc := ⟨.vmem, 108, rfl⟩
abbrev cc10_stg0_0 : Ref sig .tc := ⟨.vmem, 109, rfl⟩
abbrev cc10_stg0_1 : Ref sig .tc := ⟨.vmem, 110, rfl⟩
abbrev cc10_stg1_0 : Ref sig .tc := ⟨.vmem, 111, rfl⟩
abbrev cc10_stg1_1 : Ref sig .tc := ⟨.vmem, 112, rfl⟩
abbrev cc10_stg2_0 : Ref sig .tc := ⟨.vmem, 113, rfl⟩
abbrev cc10_stg2_1 : Ref sig .tc := ⟨.vmem, 114, rfl⟩
abbrev cc10_stg3_0 : Ref sig .tc := ⟨.vmem, 115, rfl⟩
abbrev cc10_stg3_1 : Ref sig .tc := ⟨.vmem, 116, rfl⟩
abbrev cc10_stg4_0 : Ref sig .tc := ⟨.vmem, 117, rfl⟩
abbrev cc10_stg4_1 : Ref sig .tc := ⟨.vmem, 118, rfl⟩
abbrev cc10_stg5_0 : Ref sig .tc := ⟨.vmem, 119, rfl⟩
abbrev cc10_stg6_0 : Ref sig .tc := ⟨.vmem, 120, rfl⟩
abbrev cc10_stg7_0 : Ref sig .tc := ⟨.vmem, 121, rfl⟩
abbrev cc10_stg8_0 : Ref sig .tc := ⟨.vmem, 122, rfl⟩
abbrev cc10_stg8_1 : Ref sig .tc := ⟨.vmem, 123, rfl⟩
abbrev cc10_stg9_0 : Ref sig .tc := ⟨.vmem, 124, rfl⟩
abbrev cc10_stg9_1 : Ref sig .tc := ⟨.vmem, 125, rfl⟩
abbrev cc11_stg0_0 : Ref sig .tc := ⟨.vmem, 126, rfl⟩
abbrev cc11_stg0_1 : Ref sig .tc := ⟨.vmem, 127, rfl⟩
abbrev cc11_stg1_0 : Ref sig .tc := ⟨.vmem, 128, rfl⟩
abbrev cc11_stg2_0 : Ref sig .tc := ⟨.vmem, 129, rfl⟩
abbrev cc11_stg3_0 : Ref sig .tc := ⟨.vmem, 130, rfl⟩
abbrev cc11_stg3_1 : Ref sig .tc := ⟨.vmem, 131, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem8_1 : DmaSem sig := 27
abbrev cc2_sem9_0 : DmaSem sig := 28
abbrev cc2_sem9_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc3_sem3_0 : DmaSem sig := 35
abbrev cc3_sem3_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem3_1 : DmaSem sig := 44
abbrev cc4_sem4_0 : DmaSem sig := 45
abbrev cc4_sem4_1 : DmaSem sig := 46
abbrev cc4_sem5_0 : DmaSem sig := 47
abbrev cc4_sem6_0 : DmaSem sig := 48
abbrev cc4_sem7_0 : DmaSem sig := 49
abbrev cc4_sem8_0 : DmaSem sig := 50
abbrev cc4_sem8_1 : DmaSem sig := 51
abbrev cc4_sem9_0 : DmaSem sig := 52
abbrev cc4_sem9_1 : DmaSem sig := 53
abbrev cc5_sem0_0 : DmaSem sig := 54
abbrev cc5_sem0_1 : DmaSem sig := 55
abbrev cc5_sem1_0 : DmaSem sig := 56
abbrev cc5_sem2_0 : DmaSem sig := 57
abbrev cc5_sem2_1 : DmaSem sig := 58
abbrev cc5_sem3_0 : DmaSem sig := 59
abbrev cc5_sem3_1 : DmaSem sig := 60
abbrev cc6_sem0_0 : DmaSem sig := 61
abbrev cc6_sem0_1 : DmaSem sig := 62
abbrev cc6_sem1_0 : DmaSem sig := 63
abbrev cc6_sem1_1 : DmaSem sig := 64
abbrev cc6_sem2_0 : DmaSem sig := 65
abbrev cc6_sem2_1 : DmaSem sig := 66
abbrev cc6_sem3_0 : DmaSem sig := 67
abbrev cc6_sem3_1 : DmaSem sig := 68
abbrev cc6_sem4_0 : DmaSem sig := 69
abbrev cc6_sem4_1 : DmaSem sig := 70
abbrev cc6_sem5_0 : DmaSem sig := 71
abbrev cc6_sem6_0 : DmaSem sig := 72
abbrev cc6_sem7_0 : DmaSem sig := 73
abbrev cc6_sem8_0 : DmaSem sig := 74
abbrev cc6_sem8_1 : DmaSem sig := 75
abbrev cc6_sem9_0 : DmaSem sig := 76
abbrev cc6_sem9_1 : DmaSem sig := 77
abbrev cc7_sem0_0 : DmaSem sig := 78
abbrev cc7_sem0_1 : DmaSem sig := 79
abbrev cc7_sem1_0 : DmaSem sig := 80
abbrev cc7_sem2_0 : DmaSem sig := 81
abbrev cc7_sem2_1 : DmaSem sig := 82
abbrev cc7_sem3_0 : DmaSem sig := 83
abbrev cc7_sem3_1 : DmaSem sig := 84
abbrev cc8_sem0_0 : DmaSem sig := 85
abbrev cc8_sem0_1 : DmaSem sig := 86
abbrev cc8_sem1_0 : DmaSem sig := 87
abbrev cc8_sem1_1 : DmaSem sig := 88
abbrev cc8_sem2_0 : DmaSem sig := 89
abbrev cc8_sem2_1 : DmaSem sig := 90
abbrev cc8_sem3_0 : DmaSem sig := 91
abbrev cc8_sem3_1 : DmaSem sig := 92
abbrev cc8_sem4_0 : DmaSem sig := 93
abbrev cc8_sem4_1 : DmaSem sig := 94
abbrev cc8_sem5_0 : DmaSem sig := 95
abbrev cc8_sem6_0 : DmaSem sig := 96
abbrev cc8_sem7_0 : DmaSem sig := 97
abbrev cc8_sem8_0 : DmaSem sig := 98
abbrev cc8_sem8_1 : DmaSem sig := 99
abbrev cc8_sem9_0 : DmaSem sig := 100
abbrev cc8_sem9_1 : DmaSem sig := 101
abbrev cc9_sem0_0 : DmaSem sig := 102
abbrev cc9_sem0_1 : DmaSem sig := 103
abbrev cc9_sem1_0 : DmaSem sig := 104
abbrev cc9_sem2_0 : DmaSem sig := 105
abbrev cc9_sem2_1 : DmaSem sig := 106
abbrev cc9_sem3_0 : DmaSem sig := 107
abbrev cc9_sem3_1 : DmaSem sig := 108
abbrev cc10_sem0_0 : DmaSem sig := 109
abbrev cc10_sem0_1 : DmaSem sig := 110
abbrev cc10_sem1_0 : DmaSem sig := 111
abbrev cc10_sem1_1 : DmaSem sig := 112
abbrev cc10_sem2_0 : DmaSem sig := 113
abbrev cc10_sem2_1 : DmaSem sig := 114
abbrev cc10_sem3_0 : DmaSem sig := 115
abbrev cc10_sem3_1 : DmaSem sig := 116
abbrev cc10_sem4_0 : DmaSem sig := 117
abbrev cc10_sem4_1 : DmaSem sig := 118
abbrev cc10_sem5_0 : DmaSem sig := 119
abbrev cc10_sem6_0 : DmaSem sig := 120
abbrev cc10_sem7_0 : DmaSem sig := 121
abbrev cc10_sem8_0 : DmaSem sig := 122
abbrev cc10_sem8_1 : DmaSem sig := 123
abbrev cc10_sem9_0 : DmaSem sig := 124
abbrev cc10_sem9_1 : DmaSem sig := 125
abbrev cc11_sem0_0 : DmaSem sig := 126
abbrev cc11_sem0_1 : DmaSem sig := 127
abbrev cc11_sem1_0 : DmaSem sig := 128
abbrev cc11_sem2_0 : DmaSem sig := 129
abbrev cc11_sem3_0 : DmaSem sig := 130
abbrev cc11_sem3_1 : DmaSem sig := 131

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x64 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2000x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S2000x64 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x64 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x64 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S2000x64 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S2000x64 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x64 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2000x64 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S2000x1 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S64x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x64 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 2 → Memref sig .tc .vmem S2000x64 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev stage8_9 : Fin 2 → Memref sig .tc .vmem S2000x64 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S2000x64 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_9 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S2000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S2000x64 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S2000x1 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S64x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S1x64 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 2 → Memref sig .tc .vmem S2000x64 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true]

abbrev stage10_9 : Fin 2 → Memref sig .tc .vmem S2000x64 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64x1 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x1 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2000x1 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  concatenates_S50000x14_S50000x2_S50000x16_d1 : Shape.Concatenates [S50000x14, S50000x2] S50000x16 1
  shapeCasts_S64_S1x64 : S64.ShapeCasts S1x64
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  bcast_S_S500x1 : S_.BroadcastsInDim S500x1 (![] : Fin 0 → Fin S500x1.rank)
  bcast_S50000_S50000x1_0 : S50000.BroadcastsInDim S50000x1 (![0] : Fin 1 → Fin S50000x1.rank)
  shapeCasts_S500x1_S500 : S500x1.ShapeCasts S500
  scatter_S50000_S800000x1_S800000_n_0_0_1_wf : ScatterDims.WF S50000 S800000x1 S800000 [] [0] [0] 1
  dot_S2000x16_S16x64_S2000x64_1_0_0_1_n_n_wf : DotDims.WF S2000x16 S16x64 S2000x64 [1] [0] [0] [1] [] []
  dot_S2000x64_S64x64_S2000x64_1_0_0_1_n_n_wf : DotDims.WF S2000x64 S64x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x1_S2000x1_1_0_0_1_n_n_wf : DotDims.WF S2000x64 S64x1 S2000x1 [1] [0] [0] [1] [] []
  scatter_S500x1_S50000x1_S50000x1_1_0_0_1_wf : ScatterDims.WF S500x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S50000x16.size a
  hwx0_0 : ∀ i : grid0.Coords, EltTy.bits .f32 = 32 ∨ (Rect.block (s := S50000x16) S2000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .bf16 = 32 ∨ (Rect.block (s := S50000x64) S2000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .bf16 = 32 ∨ (Rect.block (s := S50000x64) S2000x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S50000x1.size a
  hwx2_4 : ∀ i : grid2.Coords, EltTy.bits .f32 = 32 ∨ (Rect.block (s := S50000x1) S2000x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x64.size a ≤ S50000x64.size a
  hwx2_8 : ∀ i : grid2.Coords, EltTy.bits .f32 = 32 ∨ (Rect.block (s := S50000x64) S2000x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x64.size a ≤ S50000x64.size a
  hwx2_9 : ∀ i : grid2.Coords, EltTy.bits .f32 = 32 ∨ (Rect.block (s := S50000x64) S2000x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .bf16 = 32 ∨ (Rect.block (s := S50000x64) S2000x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S50000x64.size a
  hwx4_1 : ∀ i : grid4.Coords, EltTy.bits .f32 = 32 ∨ (Rect.block (s := S50000x64) S2000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .bf16 = 32 ∨ (Rect.block (s := S50000x64) S2000x64.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x1.size a ≤ S50000x1.size a
  hwx4_4 : ∀ i : grid4.Coords, EltTy.bits .f32 = 32 ∨ (Rect.block (s := S50000x1) S2000x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x64.size a ≤ S50000x64.size a
  hwx4_8 : ∀ i : grid4.Coords, EltTy.bits .f32 = 32 ∨ (Rect.block (s := S50000x64) S2000x64.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x64.size a ≤ S50000x64.size a
  hwx4_9 : ∀ i : grid4.Coords, EltTy.bits .f32 = 32 ∨ (Rect.block (s := S50000x64) S2000x64.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .bf16 = 32 ∨ (Rect.block (s := S50000x64) S2000x64.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S50000x64.size a
  hwx6_1 : ∀ i : grid6.Coords, EltTy.bits .f32 = 32 ∨ (Rect.block (s := S50000x64) S2000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S50000x64.size a
  hwx6_3 : ∀ i : grid6.Coords, EltTy.bits .bf16 = 32 ∨ (Rect.block (s := S50000x64) S2000x64.size (cc6_transform_3 i) (hinb6_3 i)).WholeWords (EltTy.packing .bf16)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x1.size a ≤ S50000x1.size a
  hwx6_4 : ∀ i : grid6.Coords, EltTy.bits .f32 = 32 ∨ (Rect.block (s := S50000x1) S2000x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S2000x64.size a ≤ S50000x64.size a
  hwx6_8 : ∀ i : grid6.Coords, EltTy.bits .f32 = 32 ∨ (Rect.block (s := S50000x64) S2000x64.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S2000x64.size a ≤ S50000x64.size a
  hwx6_9 : ∀ i : grid6.Coords, EltTy.bits .f32 = 32 ∨ (Rect.block (s := S50000x64) S2000x64.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .f32 = 32 ∨ (Rect.block (s := S50000x1) S2000x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x64.size a ≤ S50000x64.size a
  hwx7_3 : ∀ i : grid7.Coords, EltTy.bits .bf16 = 32 ∨ (Rect.block (s := S50000x64) S2000x64.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S50000x64.size a
  hwx8_0 : ∀ i : grid8.Coords, EltTy.bits .f32 = 32 ∨ (Rect.block (s := S50000x64) S2000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x64.size a ≤ S50000x64.size a
  hwx8_1 : ∀ i : grid8.Coords, EltTy.bits .f32 = 32 ∨ (Rect.block (s := S50000x64) S2000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x64.size a ≤ S50000x64.size a
  hwx8_2 : ∀ i : grid8.Coords, EltTy.bits .f32 = 32 ∨ (Rect.block (s := S50000x64) S2000x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x64.size a ≤ S50000x64.size a
  hwx8_3 : ∀ i : grid8.Coords, EltTy.bits .bf16 = 32 ∨ (Rect.block (s := S50000x64) S2000x64.size (cc8_transform_3 i) (hinb8_3 i)).WholeWords (EltTy.packing .bf16)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x1.size a ≤ S50000x1.size a
  hwx8_4 : ∀ i : grid8.Coords, EltTy.bits .f32 = 32 ∨ (Rect.block (s := S50000x1) S2000x1.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x64.size a ≤ S64x64.size a
  hwx8_5 : ∀ i : grid8.Coords, EltTy.bits .f32 = 32 ∨ (Rect.block (s := S64x64) S64x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x64.size a ≤ S1x64.size a
  hwx8_7 : ∀ i : grid8.Coords, EltTy.bits .f32 = 32 ∨ (Rect.block (s := S1x64) S1x64.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S2000x64.size a ≤ S50000x64.size a
  hwx8_8 : ∀ i : grid8.Coords, EltTy.bits .f32 = 32 ∨ (Rect.block (s := S50000x64) S2000x64.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S2000x64.size a ≤ S50000x64.size a
  hwx8_9 : ∀ i : grid8.Coords, EltTy.bits .f32 = 32 ∨ (Rect.block (s := S50000x64) S2000x64.size (cc8_transform_9 i) (hinb8_9 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x64.size a ≤ S50000x64.size a
  hwx9_0 : ∀ i : grid9.Coords, EltTy.bits .f32 = 32 ∨ (Rect.block (s := S50000x64) S2000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x1.size a ≤ S50000x1.size a
  hwx9_2 : ∀ i : grid9.Coords, EltTy.bits .f32 = 32 ∨ (Rect.block (s := S50000x1) S2000x1.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x64.size a ≤ S50000x64.size a
  hwx9_3 : ∀ i : grid9.Coords, EltTy.bits .bf16 = 32 ∨ (Rect.block (s := S50000x64) S2000x64.size (cc9_transform_3 i) (hinb9_3 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x64.size a ≤ S50000x64.size a
  hwx10_0 : ∀ i : grid10.Coords, EltTy.bits .f32 = 32 ∨ (Rect.block (s := S50000x64) S2000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x64.size a ≤ S50000x64.size a
  hwx10_1 : ∀ i : grid10.Coords, EltTy.bits .f32 = 32 ∨ (Rect.block (s := S50000x64) S2000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x64.size a ≤ S50000x64.size a
  hwx10_2 : ∀ i : grid10.Coords, EltTy.bits .f32 = 32 ∨ (Rect.block (s := S50000x64) S2000x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x64.size a ≤ S50000x64.size a
  hwx10_3 : ∀ i : grid10.Coords, EltTy.bits .bf16 = 32 ∨ (Rect.block (s := S50000x64) S2000x64.size (cc10_transform_3 i) (hinb10_3 i)).WholeWords (EltTy.packing .bf16)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S2000x1.size a ≤ S50000x1.size a
  hwx10_4 : ∀ i : grid10.Coords, EltTy.bits .f32 = 32 ∨ (Rect.block (s := S50000x1) S2000x1.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S64x64.size a ≤ S64x64.size a
  hwx10_5 : ∀ i : grid10.Coords, EltTy.bits .f32 = 32 ∨ (Rect.block (s := S64x64) S64x64.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x64.size a ≤ S1x64.size a
  hwx10_6 : ∀ i : grid10.Coords, EltTy.bits .f32 = 32 ∨ (Rect.block (s := S1x64) S1x64.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x64.size a ≤ S1x64.size a
  hwx10_7 : ∀ i : grid10.Coords, EltTy.bits .f32 = 32 ∨ (Rect.block (s := S1x64) S1x64.size (cc10_transform_7 i) (hinb10_7 i)).WholeWords (EltTy.packing .f32)
  hstage10_8 : ∀ j, (stage10_8 j).IsWhole
  nbuf10_8 : grid10.bufCount reads10_8 false = 2
  hreads10_8 : ∀ i i' : grid10.Coords, (∀ a, reads10_8 a = true → i a = i' a) → cc10_transform_8 i = cc10_transform_8 i'
  hinb10_8 : ∀ (i : grid10.Coords) a, (cc10_transform_8 i a + 1) * S2000x64.size a ≤ S50000x64.size a
  hwx10_8 : ∀ i : grid10.Coords, EltTy.bits .f32 = 32 ∨ (Rect.block (s := S50000x64) S2000x64.size (cc10_transform_8 i) (hinb10_8 i)).WholeWords (EltTy.packing .f32)
  hstage10_9 : ∀ j, (stage10_9 j).IsWhole
  nbuf10_9 : grid10.bufCount reads10_9 false = 2
  hreads10_9 : ∀ i i' : grid10.Coords, (∀ a, reads10_9 a = true → i a = i' a) → cc10_transform_9 i = cc10_transform_9 i'
  hinb10_9 : ∀ (i : grid10.Coords) a, (cc10_transform_9 i a + 1) * S2000x64.size a ≤ S50000x64.size a
  hwx10_9 : ∀ i : grid10.Coords, EltTy.bits .f32 = 32 ∨ (Rect.block (s := S50000x64) S2000x64.size (cc10_transform_9 i) (hinb10_9 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x64.size a ≤ S50000x64.size a
  hwx11_0 : ∀ i : grid11.Coords, EltTy.bits .f32 = 32 ∨ (Rect.block (s := S50000x64) S2000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x1.size a ≤ S64x1.size a
  hwx11_1 : ∀ i : grid11.Coords, EltTy.bits .f32 = 32 ∨ (Rect.block (s := S64x1) S64x1.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x1.size a ≤ S1x1.size a
  hwx11_2 : ∀ i : grid11.Coords, EltTy.bits .f32 = 32 ∨ (Rect.block (s := S1x1) S1x1.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x1.size a ≤ S50000x1.size a
  hwx11_3 : ∀ i : grid11.Coords, EltTy.bits .f32 = 32 ∨ (Rect.block (s := S50000x1) S2000x1.size (cc11_transform_3 i) (hinb11_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def scatter_S500x1_S50000x1_S50000x1_1_0_0_1 : ScatterDims S500x1 S50000x1 S50000x1 where
  updateWindowDims := [1]
  insertedWindowDims := [0]
  scatterDimsToOperandDims := [0]
  indexVectorDim := 1
  wf := scatter_S500x1_S50000x1_S50000x1_1_0_0_1_wf

abbrev win0_0 : Pipeline.Window sig grid0 :=
  Pipeline.Window.ofSpec (Memref.whole main_v12) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S2000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v11) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v28) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v29_0) S2000x64.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v29_1) S2000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v29_0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v29_0) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29_1) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v41) S2000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v30) S2000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v11) S2000x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_arg8) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v42) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v43) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v44_0) S2000x64.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v44_1) S2000x64.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v44_0) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v11) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v45) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v44_0) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v44_1) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v56) S2000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v45) S2000x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v11) S2000x1.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_arg8) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v57) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v58) S1x64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v59_0) S2000x64.size cc6_transform_8 reads6_8 true false 2 stage6_8 sem6_8
    hrank6 hreads6_8 hinb6_8 nbuf6_8 (Memref.isWhole_whole _) hwx6_8 hstage6_8

abbrev win6_9 : Pipeline.Window sig grid6 :=
  Pipeline.Window.ofSpec (Memref.whole main_v59_1) S2000x64.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v59_0) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg6) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v11) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v60) S2000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v59_0) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v59_1) S2000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v71) S2000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v60) S2000x64.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v11) S2000x1.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_arg8) S64x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v72) S1x64.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v73) S1x64.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v74_0) S2000x64.size cc8_transform_8 reads8_8 true false 2 stage8_8 sem8_8
    hrank8 hreads8_8 hinb8_8 nbuf8_8 (Memref.isWhole_whole _) hwx8_8 hstage8_8

abbrev win8_9 : Pipeline.Window sig grid8 :=
  Pipeline.Window.ofSpec (Memref.whole main_v74_1) S2000x64.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v74_0) S2000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg6) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v11) S2000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v75) S2000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v74_0) S2000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v74_1) S2000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v86) S2000x64.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v75) S2000x64.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_v11) S2000x1.size cc10_transform_4 reads10_4 false false 2 stage10_4 sem10_4
    hrank10 hreads10_4 hinb10_4 nbuf10_4 (Memref.isWhole_whole _) hwx10_4 hstage10_4

abbrev win10_5 : Pipeline.Window sig grid10 :=
  Pipeline.Window.ofSpec (Memref.whole main_arg8) S64x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v87) S1x64.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v88) S1x64.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v89_0) S2000x64.size cc10_transform_8 reads10_8 true false 2 stage10_8 sem10_8
    hrank10 hreads10_8 hinb10_8 nbuf10_8 (Memref.isWhole_whole _) hwx10_8 hstage10_8

abbrev win10_9 : Pipeline.Window sig grid10 :=
  Pipeline.Window.ofSpec (Memref.whole main_v89_1) S2000x64.size cc10_transform_9 reads10_9 true false 2 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev win11_0 : Pipeline.Window sig grid11 :=
  Pipeline.Window.ofSpec (Memref.whole main_v89_0) S2000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg10) S64x1.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v90) S1x1.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v91) S2000x1.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S50000x14 : Shape := ⟨2, ![50000, 14]⟩
abbrev S50000x2 : Shape := ⟨2, ![50000, 2]⟩
abbrev S2x800000 : Shape := ⟨2, ![2, 800000]⟩
abbrev S50000 : Shape := ⟨1, ![50000]⟩
abbrev S16x64 : Shape := ⟨2, ![16, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000x16 : Shape := ⟨2, ![50000, 16]⟩
abbrev S50000x64 : Shape := ⟨2, ![50000, 64]⟩
abbrev S1x64 : Shape := ⟨2, ![1, 64]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S50000x1 : Shape := ⟨2, ![50000, 1]⟩
abbrev S1x1 : Shape := ⟨2, ![1, 1]⟩
abbrev S500x1 : Shape := ⟨2, ![500, 1]⟩
abbrev S500 : Shape := ⟨1, ![500]⟩

abbrev nBuf : Space → Nat
  | .hbm => 430
  | .vmem => 0
  | .smem => 0
  | _ => 0

abbrev hbmTy0_0 (i : Nat) : BufTy := match i % 128 with
  | 0 => ⟨S50000x14, .f32⟩
  | 1 => ⟨S50000x2, .f32⟩
  | 2 => ⟨S2x800000, .i32⟩
  | 3 => ⟨S50000, .i32⟩
  | 4 => ⟨S16x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S50000x16, .f32⟩
  | 17 => ⟨S50000x64, .f32⟩
  | 18 => ⟨S1x64, .f32⟩
  | 19 => ⟨S50000x64, .f32⟩
  | 20 => ⟨S50000x64, .f32⟩
  | 21 => ⟨S50000, .i32⟩
  | 22 => ⟨S850000, .i32⟩
  | 23 => ⟨S850000, .i32⟩
  | 24 => ⟨S_, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S_, .f32⟩
  | 36 => ⟨S50000, .f32⟩
  | 37 => ⟨S50000, .f32⟩
  | 38 => ⟨S50000x64, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x64, .f32⟩
  | 67 => ⟨S850000x1, .f32⟩
  | 68 => ⟨S850000x64, .f32⟩
  | 69 => ⟨S850000x64, .f32⟩
  | 70 => ⟨S_, .f32⟩
  | 71 => ⟨S50000x64, .f32⟩
  | 72 => ⟨S850000x1, .i32⟩
  | 73 => ⟨S50000x64, .f32⟩
  | 74 => ⟨S1x64, .f32⟩
  | 75 => ⟨S50000x64, .f32⟩
  | 76 => ⟨S50000x64, .f32⟩
  | 77 => ⟨S50000x64, .f32⟩
  | 78 => ⟨S1x64, .f32⟩
  | 79 => ⟨S50000x64, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S50000x64, .f32⟩
  | 101 => ⟨S50000, .i32⟩
  | 102 => ⟨S850000, .i32⟩
  | 103 => ⟨S850000, .i32⟩
  | 104 => ⟨S_, .f32⟩
  | 105 => ⟨S850000, .f32⟩
  | 106 => ⟨S_, .f32⟩
  | 107 => ⟨S50000, .f32⟩
  | 108 => ⟨S850000x1, .i32⟩
  | 109 => ⟨S50000, .f32⟩
  | 110 => ⟨S_, .f32⟩
  | 111 => ⟨S50000, .f32⟩
  | 112 => ⟨S50000, .i1⟩
  | 113 => ⟨S50000, .f32⟩
  | 114 => ⟨S_, .f32⟩
  | 115 => ⟨S_, .f32⟩
  | 116 => ⟨S50000, .f32⟩
  | 117 => ⟨S50000, .f32⟩
  | 118 => ⟨S50000x64, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000, .f32⟩
  | _ => ⟨S50000x14, .f32⟩

abbrev hbmTy0_1 (i : Nat) : BufTy := match i % 128 with
  | 0 => ⟨S_, .i32⟩
  | 1 => ⟨S850000, .i32⟩
  | 2 => ⟨S850000, .i1⟩
  | 3 => ⟨S_, .i32⟩
  | 4 => ⟨S850000, .i32⟩
  | 5 => ⟨S850000, .i32⟩
  | 6 => ⟨S850000, .i32⟩
  | 7 => ⟨S850000x1, .i32⟩
  | 8 => ⟨S850000, .f32⟩
  | 9 => ⟨S850000, .f32⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S850000x64, .f32⟩
  | 19 => ⟨S850000x1, .f32⟩
  | 20 => ⟨S850000x64, .f32⟩
  | 21 => ⟨S850000x64, .f32⟩
  | 22 => ⟨S_, .f32⟩
  | 23 => ⟨S50000x64, .f32⟩
  | 24 => ⟨S850000x1, .i32⟩
  | 25 => ⟨S50000x64, .f32⟩
  | 26 => ⟨S1x64, .f32⟩
  | 27 => ⟨S50000x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S50000x64, .f32⟩
  | 34 => ⟨S_, .f32⟩
  | 35 => ⟨S50000x64, .f32⟩
  | 36 => ⟨S50000x64, .f32⟩
  | 37 => ⟨S_, .f32⟩
  | 38 => ⟨S50000x64, .f32⟩
  | 39 => ⟨S50000x64, .f32⟩
  | 40 => ⟨S50000x64, .f32⟩
  | 41 => ⟨S_, .f32⟩
  | 42 => ⟨S50000x64, .f32⟩
  | 43 => ⟨S50000x64, .f32⟩
  | 44 => ⟨S50000x64, .f32⟩
  | 45 => ⟨S_, .f32⟩
  | 46 => ⟨S50000x64, .f32⟩
  | 47 => ⟨S50000x64, .f32⟩
  | 48 => ⟨S50000x64, .f32⟩
  | 49 => ⟨S_, .f32⟩
  | 50 => ⟨S50000x64, .f32⟩
  | 51 => ⟨S50000x64, .f32⟩
  | 52 => ⟨S50000x64, .f32⟩
  | 53 => ⟨S50000, .i32⟩
  | 54 => ⟨S850000, .i32⟩
  | 55 => ⟨S850000, .i32⟩
  | 56 => ⟨S_, .f32⟩
  | 57 => ⟨S850000, .f32⟩
  | 58 => ⟨S_, .f32⟩
  | 59 => ⟨S50000, .f32⟩
  | 60 => ⟨S850000x1, .i32⟩
  | 61 => ⟨S50000, .f32⟩
  | 62 => ⟨S_, .f32⟩
  | 63 => ⟨S50000, .f32⟩
  | 64 => ⟨S50000, .i1⟩
  | 65 => ⟨S50000, .f32⟩
  | 66 => ⟨S_, .f32⟩
  | 67 => ⟨S_, .f32⟩
  | 68 => ⟨S50000, .f32⟩
  | 69 => ⟨S50000, .f32⟩
  | 70 => ⟨S50000x64, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000, .f32⟩
  | 89 => ⟨S850000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x64, .f32⟩
  | 99 => ⟨S850000x1, .f32⟩
  | 100 => ⟨S850000x64, .f32⟩
  | 101 => ⟨S850000x64, .f32⟩
  | 102 => ⟨S_, .f32⟩
  | 103 => ⟨S50000x64, .f32⟩
  | 104 => ⟨S850000x1, .i32⟩
  | 105 => ⟨S50000x64, .f32⟩
  | 106 => ⟨S1x64, .f32⟩
  | 107 => ⟨S50000x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S50000x64, .f32⟩
  | 114 => ⟨S_, .f32⟩
  | 115 => ⟨S50000x64, .f32⟩
  | 116 => ⟨S50000x64, .f32⟩
  | 117 => ⟨S_, .f32⟩
  | 118 => ⟨S50000x64, .f32⟩
  | 119 => ⟨S50000x64, .f32⟩
  | 120 => ⟨S50000x64, .f32⟩
  | 121 => ⟨S_, .f32⟩
  | 122 => ⟨S50000x64, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x14, .f32⟩

abbrev hbmTy0_2 (i : Nat) : BufTy := match i % 128 with
  | 0 => ⟨S50000x64, .f32⟩
  | 1 => ⟨S_, .f32⟩
  | 2 => ⟨S50000x64, .f32⟩
  | 3 => ⟨S50000x64, .f32⟩
  | 4 => ⟨S50000x64, .f32⟩
  | 5 => ⟨S50000, .i32⟩
  | 6 => ⟨S850000, .i32⟩
  | 7 => ⟨S850000, .i32⟩
  | 8 => ⟨S_, .f32⟩
  | 9 => ⟨S850000, .f32⟩
  | 10 => ⟨S_, .f32⟩
  | 11 => ⟨S50000, .f32⟩
  | 12 => ⟨S850000x1, .i32⟩
  | 13 => ⟨S50000, .f32⟩
  | 14 => ⟨S_, .f32⟩
  | 15 => ⟨S50000, .f32⟩
  | 16 => ⟨S50000, .i1⟩
  | 17 => ⟨S50000, .f32⟩
  | 18 => ⟨S_, .f32⟩
  | 19 => ⟨S_, .f32⟩
  | 20 => ⟨S50000, .f32⟩
  | 21 => ⟨S50000, .f32⟩
  | 22 => ⟨S50000x64, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x64, .f32⟩
  | 51 => ⟨S850000x1, .f32⟩
  | 52 => ⟨S850000x64, .f32⟩
  | 53 => ⟨S850000x64, .f32⟩
  | 54 => ⟨S_, .f32⟩
  | 55 => ⟨S50000x64, .f32⟩
  | 56 => ⟨S850000x1, .i32⟩
  | 57 => ⟨S50000x64, .f32⟩
  | 58 => ⟨S1x64, .f32⟩
  | 59 => ⟨S50000x64, .f32⟩
  | 60 => ⟨S50000x64, .f32⟩
  | 61 => ⟨S50000x64, .f32⟩
  | 62 => ⟨S1x64, .f32⟩
  | 63 => ⟨S50000x64, .f32⟩
  | 64 => ⟨S50000x64, .f32⟩
  | 65 => ⟨S50000x64, .f32⟩
  | 66 => ⟨S_, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S50000x64, .f32⟩
  | 77 => ⟨S_, .f32⟩
  | 78 => ⟨S50000x64, .f32⟩
  | 79 => ⟨S50000x64, .f32⟩
  | 80 => ⟨S50000x64, .f32⟩
  | 81 => ⟨S_, .f32⟩
  | 82 => ⟨S50000x64, .f32⟩
  | 83 => ⟨S50000x64, .f32⟩
  | 84 => ⟨S50000x64, .f32⟩
  | 85 => ⟨S50000, .i32⟩
  | 86 => ⟨S850000, .i32⟩
  | 87 => ⟨S850000, .i32⟩
  | 88 => ⟨S_, .f32⟩
  | 89 => ⟨S850000, .f32⟩
  | 90 => ⟨S_, .f32⟩
  | 91 => ⟨S50000, .f32⟩
  | 92 => ⟨S850000x1, .i32⟩
  | 93 => ⟨S50000, .f32⟩
  | 94 => ⟨S_, .f32⟩
  | 95 => ⟨S50000, .f32⟩
  | 96 => ⟨S50000, .i1⟩
  | 97 => ⟨S50000, .f32⟩
  | 98 => ⟨S_, .f32⟩
  | 99 => ⟨S_, .f32⟩
  | 100 => ⟨S50000, .f32⟩
  | 101 => ⟨S50000, .f32⟩
  | 102 => ⟨S50000x64, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000, .f32⟩
  | 121 => ⟨S850000, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x14, .f32⟩

abbrev hbmTy0_3 (i : Nat) : BufTy := match i % 128 with
  | 0 => ⟨S850000, .i32⟩
  | 1 => ⟨S850000x1, .i32⟩
  | 2 => ⟨S850000x64, .f32⟩
  | 3 => ⟨S850000x1, .f32⟩
  | 4 => ⟨S850000x64, .f32⟩
  | 5 => ⟨S850000x64, .f32⟩
  | 6 => ⟨S_, .f32⟩
  | 7 => ⟨S50000x64, .f32⟩
  | 8 => ⟨S850000x1, .i32⟩
  | 9 => ⟨S50000x64, .f32⟩
  | 10 => ⟨S1x64, .f32⟩
  | 11 => ⟨S50000x64, .f32⟩
  | 12 => ⟨S50000x64, .f32⟩
  | 13 => ⟨S50000x64, .f32⟩
  | 14 => ⟨S1x64, .f32⟩
  | 15 => ⟨S50000x64, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S_, .f32⟩
  | 22 => ⟨S50000x64, .f32⟩
  | 23 => ⟨S50000x64, .f32⟩
  | 24 => ⟨S50000x64, .f32⟩
  | 25 => ⟨S_, .f32⟩
  | 26 => ⟨S50000x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S50000x64, .f32⟩
  | 33 => ⟨S_, .f32⟩
  | 34 => ⟨S50000x64, .f32⟩
  | 35 => ⟨S50000x64, .f32⟩
  | 36 => ⟨S50000x64, .f32⟩
  | 37 => ⟨S50000x1, .f32⟩
  | 38 => ⟨S1x1, .f32⟩
  | 39 => ⟨S50000x1, .f32⟩
  | 40 => ⟨S50000x1, .f32⟩
  | 41 => ⟨S_, .f32⟩
  | 42 => ⟨S500x1, .f32⟩
  | 43 => ⟨S50000x1, .i32⟩
  | 44 => ⟨S500x1, .f32⟩
  | 45 => ⟨S500, .f32⟩
  | _ => ⟨S50000x14, .f32⟩

abbrev hbmTy (i : Nat) : BufTy := match i / 128 with
  | 0 => hbmTy0_0 i
  | 1 => hbmTy0_1 i
  | 2 => hbmTy0_2 i
  | 3 => hbmTy0_3 i
  | _ => ⟨S50000x14, .f32⟩

abbrev bufTy : (tb : Table) → Fin (tcTables nBuf tb) → BufTy
  | .hbm, ⟨i, _⟩ => hbmTy i
  | _, _ => ⟨S50000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_v57 : Ref sig .tc := ⟨.hbm, 84, rfl⟩
abbrev main_cst_9 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_13 : Ref sig .tc := ⟨.hbm, 104, rfl⟩
abbrev main_v73 : Ref sig .tc := ⟨.hbm, 105, rfl⟩
abbrev main_cst_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_16 : Ref sig .tc := ⟨.hbm, 114, rfl⟩
abbrev main_call2_v0 : Ref sig .tc := ⟨.hbm, 115, rfl⟩
abbrev main_call2_v1 : Ref sig .tc := ⟨.hbm, 116, rfl⟩
abbrev main_v80 : Ref sig .tc := ⟨.hbm, 117, rfl⟩
abbrev main_v81 : Ref sig .tc := ⟨.hbm, 118, rfl⟩
abbrev main_c_17 : Ref sig .tc := ⟨.hbm, 119, rfl⟩
abbrev main_v82 : Ref sig .tc := ⟨.hbm, 120, rfl⟩
abbrev main_v83 : Ref sig .tc := ⟨.hbm, 121, rfl⟩
abbrev main_c_18 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_19 : Ref sig .tc := ⟨.hbm, 128, rfl⟩
abbrev main_v89 : Ref sig .tc := ⟨.hbm, 129, rfl⟩
abbrev main_v90 : Ref sig .tc := ⟨.hbm, 130, rfl⟩
abbrev main_c_20 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_21 : Ref sig .tc := ⟨.hbm, 138, rfl⟩
abbrev main_v97 : Ref sig .tc := ⟨.hbm, 139, rfl⟩
abbrev main_v98 : Ref sig .tc := ⟨.hbm, 140, rfl⟩
abbrev main_c_22 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_23 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_call3_cst : Ref sig .tc := ⟨.hbm, 162, rfl⟩
abbrev main_call3_v0 : Ref sig .tc := ⟨.hbm, 163, rfl⟩
abbrev main_v118 : Ref sig .tc := ⟨.hbm, 164, rfl⟩
abbrev main_cst_24 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_25 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_26 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_27 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_28 : Ref sig .tc := ⟨.hbm, 184, rfl⟩
abbrev main_v134 : Ref sig .tc := ⟨.hbm, 185, rfl⟩
abbrev main_cst_29 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_30 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_31 : Ref sig .tc := ⟨.hbm, 194, rfl⟩
abbrev main_call4_v0 : Ref sig .tc := ⟨.hbm, 195, rfl⟩
abbrev main_call4_v1 : Ref sig .tc := ⟨.hbm, 196, rfl⟩
abbrev main_v141 : Ref sig .tc := ⟨.hbm, 197, rfl⟩
abbrev main_v142 : Ref sig .tc := ⟨.hbm, 198, rfl⟩
abbrev main_c_32 : Ref sig .tc := ⟨.hbm, 199, rfl⟩
abbrev main_v143 : Ref sig .tc := ⟨.hbm, 200, rfl⟩
abbrev main_v144 : Ref sig .tc := ⟨.hbm, 201, rfl⟩
abbrev main_c_33 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_c_34 : Ref sig .tc := ⟨.hbm, 208, rfl⟩
abbrev main_v150 : Ref sig .tc := ⟨.hbm, 209, rfl⟩
abbrev main_v151 : Ref sig .tc := ⟨.hbm, 210, rfl⟩
abbrev main_c_35 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_c_36 : Ref sig .tc := ⟨.hbm, 218, rfl⟩
abbrev main_v158 : Ref sig .tc := ⟨.hbm, 219, rfl⟩
abbrev main_v159 : Ref sig .tc := ⟨.hbm, 220, rfl⟩
abbrev main_c_37 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_cst_38 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_call5_cst : Ref sig .tc := ⟨.hbm, 242, rfl⟩
abbrev main_call5_v0 : Ref sig .tc := ⟨.hbm, 243, rfl⟩
abbrev main_v179 : Ref sig .tc := ⟨.hbm, 244, rfl⟩
abbrev main_cst_39 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_cst_40 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_cst_41 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_cst_42 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_cst_43 : Ref sig .tc := ⟨.hbm, 264, rfl⟩
abbrev main_v195 : Ref sig .tc := ⟨.hbm, 265, rfl⟩
abbrev main_cst_44 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_cst_45 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_cst_46 : Ref sig .tc := ⟨.hbm, 274, rfl⟩
abbrev main_call6_v0 : Ref sig .tc := ⟨.hbm, 275, rfl⟩
abbrev main_call6_v1 : Ref sig .tc := ⟨.hbm, 276, rfl⟩
abbrev main_v202 : Ref sig .tc := ⟨.hbm, 277, rfl⟩
abbrev main_v203 : Ref sig .tc := ⟨.hbm, 278, rfl⟩
abbrev main_c_47 : Ref sig .tc := ⟨.hbm, 279, rfl⟩
abbrev main_v204 : Ref sig .tc := ⟨.hbm, 280, rfl⟩
abbrev main_v205 : Ref sig .tc := ⟨.hbm, 281, rfl⟩
abbrev main_c_48 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_c_49 : Ref sig .tc := ⟨.hbm, 288, rfl⟩
abbrev main_v211 : Ref sig .tc := ⟨.hbm, 289, rfl⟩
abbrev main_v212 : Ref sig .tc := ⟨.hbm, 290, rfl⟩
abbrev main_c_50 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_c_51 : Ref sig .tc := ⟨.hbm, 298, rfl⟩
abbrev main_v219 : Ref sig .tc := ⟨.hbm, 299, rfl⟩
abbrev main_v220 : Ref sig .tc := ⟨.hbm, 300, rfl⟩
abbrev main_c_52 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_cst_53 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_call7_cst : Ref sig .tc := ⟨.hbm, 322, rfl⟩
abbrev main_call7_v0 : Ref sig .tc := ⟨.hbm, 323, rfl⟩
abbrev main_v240 : Ref sig .tc := ⟨.hbm, 324, rfl⟩
abbrev main_cst_54 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_cst_55 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_cst_56 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_cst_57 : Ref sig .tc := ⟨.hbm, 337, rfl⟩
abbrev main_v250 : Ref sig .tc := ⟨.hbm, 338, rfl⟩
abbrev main_v251 : Ref sig .tc := ⟨.hbm, 339, rfl⟩
abbrev main_v252 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩
abbrev main_cst_58 : Ref sig .tc := ⟨.hbm, 344, rfl⟩
abbrev main_v256 : Ref sig .tc := ⟨.hbm, 345, rfl⟩
abbrev main_cst_59 : Ref sig .tc := ⟨.hbm, 346, rfl⟩
abbrev main_v257 : Ref sig .tc := ⟨.hbm, 347, rfl⟩
abbrev main_v258 : Ref sig .tc := ⟨.hbm, 348, rfl⟩
abbrev main_v259 : Ref sig .tc := ⟨.hbm, 349, rfl⟩
abbrev main_cst_60 : Ref sig .tc := ⟨.hbm, 350, rfl⟩
abbrev main_v260 : Ref sig .tc := ⟨.hbm, 351, rfl⟩
abbrev main_v261 : Ref sig .tc := ⟨.hbm, 352, rfl⟩
abbrev main_v262 : Ref sig .tc := ⟨.hbm, 353, rfl⟩
abbrev main_cst_61 : Ref sig .tc := ⟨.hbm, 354, rfl⟩
abbrev main_call8_v0 : Ref sig .tc := ⟨.hbm, 355, rfl⟩
abbrev main_call8_v1 : Ref sig .tc := ⟨.hbm, 356, rfl⟩
abbrev main_v263 : Ref sig .tc := ⟨.hbm, 357, rfl⟩
abbrev main_v264 : Ref sig .tc := ⟨.hbm, 358, rfl⟩
abbrev main_c_62 : Ref sig .tc := ⟨.hbm, 359, rfl⟩
abbrev main_v265 : Ref sig .tc := ⟨.hbm, 360, rfl⟩
abbrev main_v266 : Ref sig .tc := ⟨.hbm, 361, rfl⟩
abbrev main_c_63 : Ref sig .tc := ⟨.hbm, 362, rfl⟩
abbrev main_v267 : Ref sig .tc := ⟨.hbm, 363, rfl⟩
abbrev main_v268 : Ref sig .tc := ⟨.hbm, 364, rfl⟩
abbrev main_v269 : Ref sig .tc := ⟨.hbm, 365, rfl⟩
abbrev main_v270 : Ref sig .tc := ⟨.hbm, 366, rfl⟩
abbrev main_v271 : Ref sig .tc := ⟨.hbm, 367, rfl⟩
abbrev main_c_64 : Ref sig .tc := ⟨.hbm, 368, rfl⟩
abbrev main_v272 : Ref sig .tc := ⟨.hbm, 369, rfl⟩
abbrev main_v273 : Ref sig .tc := ⟨.hbm, 370, rfl⟩
abbrev main_c_65 : Ref sig .tc := ⟨.hbm, 371, rfl⟩
abbrev main_v274 : Ref sig .tc := ⟨.hbm, 372, rfl⟩
abbrev main_v275 : Ref sig .tc := ⟨.hbm, 373, rfl⟩
abbrev main_v276 : Ref sig .tc := ⟨.hbm, 374, rfl⟩
abbrev main_v277 : Ref sig .tc := ⟨.hbm, 375, rfl⟩
abbrev main_v278 : Ref sig .tc := ⟨.hbm, 376, rfl⟩
abbrev main_v279 : Ref sig .tc := ⟨.hbm, 377, rfl⟩
abbrev main_c_66 : Ref sig .tc := ⟨.hbm, 378, rfl⟩
abbrev main_v280 : Ref sig .tc := ⟨.hbm, 379, rfl⟩
abbrev main_v281 : Ref sig .tc := ⟨.hbm, 380, rfl⟩
abbrev main_c_67 : Ref sig .tc := ⟨.hbm, 381, rfl⟩
abbrev main_v282 : Ref sig .tc := ⟨.hbm, 382, rfl⟩
abbrev main_v283 : Ref sig .tc := ⟨.hbm, 383, rfl⟩
abbrev main_v284 : Ref sig .tc := ⟨.hbm, 384, rfl⟩
abbrev main_v285 : Ref sig .tc := ⟨.hbm, 385, rfl⟩
abbrev main_v286 : Ref sig .tc := ⟨.hbm, 386, rfl⟩
abbrev main_v287 : Ref sig .tc := ⟨.hbm, 387, rfl⟩
abbrev main_v288 : Ref sig .tc := ⟨.hbm, 388, rfl⟩
abbrev main_v289 : Ref sig .tc := ⟨.hbm, 389, rfl⟩
abbrev main_cst_68 : Ref sig .tc := ⟨.hbm, 390, rfl⟩
abbrev main_v290 : Ref sig .tc := ⟨.hbm, 391, rfl⟩
abbrev main_v291 : Ref sig .tc := ⟨.hbm, 392, rfl⟩
abbrev main_v292 : Ref sig .tc := ⟨.hbm, 393, rfl⟩
abbrev main_v293 : Ref sig .tc := ⟨.hbm, 394, rfl⟩
abbrev main_v294 : Ref sig .tc := ⟨.hbm, 395, rfl⟩
abbrev main_v295 : Ref sig .tc := ⟨.hbm, 396, rfl⟩
abbrev main_v296 : Ref sig .tc := ⟨.hbm, 397, rfl⟩
abbrev main_v297 : Ref sig .tc := ⟨.hbm, 398, rfl⟩
abbrev main_v298 : Ref sig .tc := ⟨.hbm, 399, rfl⟩
abbrev main_v299 : Ref sig .tc := ⟨.hbm, 400, rfl⟩
abbrev main_v300 : Ref sig .tc := ⟨.hbm, 401, rfl⟩
abbrev main_call9_cst : Ref sig .tc := ⟨.hbm, 402, rfl⟩
abbrev main_call9_v0 : Ref sig .tc := ⟨.hbm, 403, rfl⟩
abbrev main_v301 : Ref sig .tc := ⟨.hbm, 404, rfl⟩
abbrev main_cst_69 : Ref sig .tc := ⟨.hbm, 405, rfl⟩
abbrev main_v302 : Ref sig .tc := ⟨.hbm, 406, rfl⟩
abbrev main_v303 : Ref sig .tc := ⟨.hbm, 407, rfl⟩
abbrev main_v304 : Ref sig .tc := ⟨.hbm, 408, rfl⟩
abbrev main_cst_70 : Ref sig .tc := ⟨.hbm, 409, rfl⟩
abbrev main_v305 : Ref sig .tc := ⟨.hbm, 410, rfl⟩
abbrev main_v306 : Ref sig .tc := ⟨.hbm, 411, rfl⟩
abbrev main_v307 : Ref sig .tc := ⟨.hbm, 412, rfl⟩
abbrev main_cst_71 : Ref sig .tc := ⟨.hbm, 413, rfl⟩
abbrev main_v308 : Ref sig .tc := ⟨.hbm, 414, rfl⟩
abbrev main_v309 : Ref sig .tc := ⟨.hbm, 415, rfl⟩
abbrev main_v310 : Ref sig .tc := ⟨.hbm, 416, rfl⟩
abbrev main_cst_72 : Ref sig .tc := ⟨.hbm, 417, rfl⟩
abbrev main_v311 : Ref sig .tc := ⟨.hbm, 418, rfl⟩
abbrev main_v312 : Ref sig .tc := ⟨.hbm, 419, rfl⟩
abbrev main_v313 : Ref sig .tc := ⟨.hbm, 420, rfl⟩
abbrev main_v314 : Ref sig .tc := ⟨.hbm, 421, rfl⟩
abbrev main_v315 : Ref sig .tc := ⟨.hbm, 422, rfl⟩
abbrev main_v316 : Ref sig .tc := ⟨.hbm, 423, rfl⟩
abbrev main_v317 : Ref sig .tc := ⟨.hbm, 424, rfl⟩
abbrev main_cst_73 : Ref sig .tc := ⟨.hbm, 425, rfl⟩
abbrev main_v318 : Ref sig .tc := ⟨.hbm, 426, rfl⟩
abbrev main_v319 : Ref sig .tc := ⟨.hbm, 427, rfl⟩
abbrev main_v320 : Ref sig .tc := ⟨.hbm, 428, rfl⟩
abbrev main_v321 : Ref sig .tc := ⟨.hbm, 429, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S50000x14_S50000x2_S50000x16_d1 : Shape.Concatenates [S50000x14, S50000x2] S50000x16 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S500x1 : S_.BroadcastsInDim S500x1 (![] : Fin 0 → Fin S500x1.rank)
  bcast_S50000_S50000x1_0 : S50000.BroadcastsInDim S50000x1 (![0] : Fin 1 → Fin S50000x1.rank)
  shapeCasts_S500x1_S500 : S500x1.ShapeCasts S500
  dot_S50000x16_S16x64_S50000x64_1_0_0_1_n_n_wf : DotDims.WF S50000x16 S16x64 S50000x64 [1] [0] [0] [1] [] []
  scatter_S50000_S850000x1_S850000_n_0_0_1_wf : ScatterDims.WF S50000 S850000x1 S850000 [] [0] [0] 1
  dot_S50000x64_S64x64_S50000x64_1_0_0_1_n_n_wf : DotDims.WF S50000x64 S64x64 S50000x64 [1] [0] [0] [1] [] []
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x1_S50000x1_1_0_0_1_n_n_wf : DotDims.WF S50000x64 S64x1 S50000x1 [1] [0] [0] [1] [] []
  scatter_S500x1_S50000x1_S50000x1_1_0_0_1_wf : ScatterDims.WF S500x1 S50000x1 S50000x1 [1] [0] [0] 1

variable [Facts₀]

def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def scatter_S500x1_S50000x1_S50000x1_1_0_0_1 : ScatterDims S500x1 S50000x1 S50000x1 where
  updateWindowDims := [1]
  insertedWindowDims := [0]
  scatterDimsToOperandDims := [0]
  indexVectorDim := 1
  wf := scatter_S500x1_S50000x1_S50000x1_1_0_0_1_wf

class Facts : Prop extends Facts₀ where

variable [Facts]
-- ==== Proof.K.R0.lean ====
/-
  Region 0: the encoder. At grid point t the body reads the row block t of the concatenated features (2000 rows of 16),
  the whole weight matrix and the bias row, and stores the block's product with the weights plus the bias row
  broadcast over the rows. The output buffer is loaded before the store; the value read is not used.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole output block, as a rectangle. -/
abbrev r0_out : Rect S2000x64 := Rect.unit (s := S2000x64) ![0, 0] S2000x64.size inb_S2000x64_S2000x64_0_0

/-- The output block after the body: its one store, of the whole block. -/
abbrev r0_0 : Rect S2000x16 := Rect.unit (s := S2000x16) ![0, 0] S2000x16.size inb_S2000x16_S2000x16_0_0
abbrev r0_1 : Rect S16x64 := Rect.unit (s := S16x64) ![0, 0] S16x64.size inb_S16x64_S16x64_0_0
abbrev r0_2 : Rect S1x64 := Rect.unit (s := S1x64) ![0, 0] S1x64.size inb_S1x64_S1x64_0_0

def out0_3 (x0 : Vec F S2000x16 .f32) (x1 : Vec F S16x64 .f32) (x2 : Vec F S1x64 .f32) : Vec F S2000x64 .f32 :=
  View.canon [⟨r0_out, k0_pay1 (View.ld x0 r0_0) (View.ld x1 r0_1) (View.ld x2 r0_2)⟩]

/-- The store covers the block. -/
theorem cover0_3 (p0 : Vec F S2000x64 .f32) (y : S2000x64.Idx) :
    ∃ pc ∈ ([⟨r0_out, p0⟩] : List (View.Piece (Elt F) S2000x64 .f32)), y ∈ pc.1.set :=
  View.cover_of_tiled [⟨r0_out, p0⟩] S2000x64.size (by rfl) y

set_option maxHeartbeats 1000000 in
/-- The body on whole staging memrefs: the inputs keep their contents, the output ends at `out0_3` of the inputs'. -/
theorem sound_kernel0 (c : Dev nD) (E : Set ℕ) (i : grid0.Coords)
    (arg1 : Memref sig .tc .vmem S2000x16 .f32) (harg1 : arg1.IsWhole) (arg2 : Memref sig .tc .vmem S16x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x16 .f32) (x1 : Vec F S16x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_bias_kernel i arg1 harg1 arg2 harg2 arg3 harg3 arg4 harg4) K := by
  simp only [cc0__linear_bias_kernel_eq_skeleton]; unfold cc0__linear_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1.lean ====
/-
  Region 1: a scaled matrix product. At grid point t the body reads the row block t of the node features (2000 rows
  of 64), the whole 64 x 64 weight matrix and the row block t of the per-node scale column (2000 rows of 1), and stores
  the block's product with the weights, each row multiplied by its scale, rounded to bf16. The output buffer is loaded
  before the store; the value read is not used.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's current staging buffer holds its block at every point, for any proof data whose array is
    the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight window's likewise: its block index is constant, so it is fetched at the first point only, and at
    every later point the buffer still holds the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The scale window's likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2000x64 := Rect.unit (s := S2000x64) ![0, 0] S2000x64.size inb_S2000x64_S2000x64_0_0
abbrev r1_1 : Rect S64x64 := Rect.unit (s := S64x64) ![0, 0] S64x64.size inb_S64x64_S64x64_0_0
abbrev r1_2 : Rect S2000x1 := Rect.unit (s := S2000x1) ![0, 0] S2000x1.size inb_S2000x1_S2000x1_0_0

/-! ## What the body leaves in the output window's buffer -/

/-- The output buffer after the body, from the input windows' blocks: its one store, over the whole buffer. -/
def out1_3 (x0 : Vec F S2000x64 .f32) (x1 : Vec F S64x64 .f32) (x2 : Vec F S2000x1 .f32) : Vec F S2000x64 .bf16 :=
  View.canon [⟨r1_0, k1_pay1 (View.ld x0 r1_0) (View.ld x1 r1_1) (View.ld x2 r1_2)⟩]

/-- The one store covers the buffer. -/
theorem cover1_3 (p0 : Vec F S2000x64 .bf16) (y : S2000x64.Idx) :
    ∃ pc ∈ ([⟨r1_0, p0⟩] : List (View.Piece (Elt F) S2000x64 .bf16)), y ∈ pc.1.set :=
  View.cover_of_tiled [⟨r1_0, p0⟩] S2000x64.size (by rfl) y

/-! ## The body's triple -/

set_option maxHeartbeats 1000000 in
/-- The body on whole staging buffers, the inputs' at read contents `x0 x1 x2` and the output's at anything, runs to
    the continuation holding the inputs' as they were and the output's at `out1_3 x0 x1 x2`. -/
theorem sound_kernel1 (c : Dev nD) (E : Set ℕ) (i : grid1.Coords) (arg1 : Memref sig .tc .vmem S2000x64 .f32) (harg1 : arg1.IsWhole) (arg2 : Memref sig .tc .vmem S64x64 .f32) (harg2 : arg2.IsWhole) (arg3 : Memref sig .tc .vmem S2000x1 .f32) (harg3 : arg3.IsWhole) (arg4 : Memref sig .tc .vmem S2000x64 .bf16) (harg4 : arg4.IsWhole)
    (x0 : Vec F S2000x64 .f32) (x1 : Vec F S64x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__matmul_scale_kernel i arg1 harg1 arg2 harg2 arg3 harg3 arg4 harg4) K := by
  simp only [cc1__matmul_scale_kernel_eq_skeleton]; unfold cc1__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.R2.lean ====
/- Region 2 of @main: custom_call 2, `cc2__update_kernel` (pipeline 2), at a parameter `V` — the TensorCore's
   buffer contents when the region is entered —: each window's block at a point (`iblk2`), what the body leaves
   in each output window's buffer (`out2_8`, `out2_9`), the body's triple (`sound_kernel2`), the proof data
   (`dat2`, at any shares `q` of the input arrays: windows 0 and 1 read one array, so their shares cannot both be
   full) and the body obligation (`body_obligation2`), at any `F`. -/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the block kept from the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved, so the block kept from the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its block index has not moved, so the block kept from the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): where the window is not
    fetched its block index has not moved, so the block kept from the point before is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): where the window is not
    fetched its block index has not moved, so the block kept from the point before is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): where the window is not
    fetched its block index has not moved, so the block kept from the point before is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s (`hA`) and whose body leaves the block in place (`hafter`): where the window is not
    fetched its block index has not moved, so the block kept from the point before is this point's. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s (`hA`) and whose body leaves the block in place (`hafter`): where the window is not
    fetched its block index has not moved, so the block kept from the point before is this point's. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2000x64 := Rect.unit (s := S2000x64) ![0, 0] S2000x64.size inb_S2000x64_S2000x64_0_0
abbrev r2_1 : Rect S2000x1 := Rect.unit (s := S2000x1) ![0, 0] S2000x1.size inb_S2000x1_S2000x1_0_0
abbrev r2_2 : Rect S64x64 := Rect.unit (s := S64x64) ![0, 0] S64x64.size inb_S64x64_S64x64_0_0
abbrev r2_3 : Rect S1x64 := Rect.unit (s := S1x64) ![0, 0] S1x64.size inb_S1x64_S1x64_0_0

/-! ## What the body leaves in each output window's buffer -/

/-- Window 8's staging buffer after the body, from the input windows' blocks: its one store, of the whole block
    (the new first state: the old one plus the new second state). -/
def out2_8 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r2_0, k2_pay2 (k2_pay3 (View.ld x0 r2_0)) (k2_pay4 (View.ld x1 r2_0)) (k2_pay5 (View.ld x0 r2_0) (View.ld x1 r2_0) (View.ld x2 r2_0) (View.ld x3 r2_0) (View.ld x4 r2_1) (View.ld x5 r2_2) (View.ld x6 r2_3) (View.ld x7 r2_3))⟩]

/-- Window 9's staging buffer after the body, from the input windows' blocks: its one store, of the whole block
    (the new second state: the old one plus the update). -/
def out2_9 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r2_0, k2_pay1 (k2_pay4 (View.ld x1 r2_0)) (k2_pay5 (View.ld x0 r2_0) (View.ld x1 r2_0) (View.ld x2 r2_0) (View.ld x3 r2_0) (View.ld x4 r2_1) (View.ld x5 r2_2) (View.ld x6 r2_3) (View.ld x7 r2_3))⟩]

/-- Window 8's store tiles the buffer, so it covers it. -/
theorem cover2_8 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-- Window 9's store tiles the buffer, so it covers it. -/
theorem cover2_9 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The body's triple -/

set_option maxHeartbeats 4000000 in
/-- The kernel body on whole staging memrefs, the inputs' at read contents `xW` and the outputs' at anything, runs to
    the continuation holding the inputs' as they were and each output's at `out2_W` of the inputs': the printed
    functions are their skeletons, run through the part's call. -/
theorem sound_kernel2 (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .bf16) (harg4 : arg4.IsWhole) (arg5 : Memref sig .tc .vmem S2000x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S2000x64 .f32) (harg10 : arg10.IsWhole)
    (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out2_8 x0 x1 x2 x3 x4 x5 x6 x7) ∗ owns (c : Thread nD τ) arg10 fullShare (out2_9 x0 x1 x2 x3 x4 x5 x6 x7)) -∗ K ⟨⟩))
      ⊢ wp frame (wpE (defs₀ (F := F)) Variants.none c none) E (cc2__update_kernel i arg1 harg1 arg2 harg2 arg3 harg3 arg4 harg4 arg5 harg5 arg6 harg6 arg7 harg7 arg8 harg8 arg9 harg9 arg10 harg10) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover2_8 _)
  iexists _; isplitr
  swap; · iexact H9
  ipureintro
  exact View.read_writes_eq_canon _ _ _ (cover2_9 _)

/-! ## The pipeline's proof data -/

/-- The proof data of pipeline 2 on core `c`, at shares `q` of the input arrays: the arrays as the region finds
    them (`V`); after the body at point `t` each input's buffer at its block and each output's at `out2_W` of the
    input blocks; the invariant the scoped rest and the generator register, untouched; nothing owed. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
    | ⟨9, _⟩ => out2_9 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q := q
  owed _ := 0

/-- The proof data's arrays are the region-entry contents. -/
theorem A_eq2 (q : Fin cfg2.W → PosShare TreeShare) (c : Dev nD) (w : Fin cfg2.W) : (dat2 V q c).A w = V c (Pipeline.arrRef spec2 w) := by
  dsimp only [dat2]

/-- What the body leaves, window by window. -/
theorem after2_0 (q : Fin cfg2.W → PosShare TreeShare) (c : Dev nD) (t : Fin cfg2.N) : (dat2 V q c).after 0 t = iblk2 V c 0 t := by dsimp only [dat2]
theorem after2_1 (q : Fin cfg2.W → PosShare TreeShare) (c : Dev nD) (t : Fin cfg2.N) : (dat2 V q c).after 1 t = iblk2 V c 1 t := by dsimp only [dat2]
theorem after2_2 (q : Fin cfg2.W → PosShare TreeShare) (c : Dev nD) (t : Fin cfg2.N) : (dat2 V q c).after 2 t = iblk2 V c 2 t := by dsimp only [dat2]
theorem after2_3 (q : Fin cfg2.W → PosShare TreeShare) (c : Dev nD) (t : Fin cfg2.N) : (dat2 V q c).after 3 t = iblk2 V c 3 t := by dsimp only [dat2]
theorem after2_4 (q : Fin cfg2.W → PosShare TreeShare) (c : Dev nD) (t : Fin cfg2.N) : (dat2 V q c).after 4 t = iblk2 V c 4 t := by dsimp only [dat2]
theorem after2_5 (q : Fin cfg2.W → PosShare TreeShare) (c : Dev nD) (t : Fin cfg2.N) : (dat2 V q c).after 5 t = iblk2 V c 5 t := by dsimp only [dat2]
theorem after2_6 (q : Fin cfg2.W → PosShare TreeShare) (c : Dev nD) (t : Fin cfg2.N) : (dat2 V q c).after 6 t = iblk2 V c 6 t := by dsimp only [dat2]
theorem after2_7 (q : Fin cfg2.W → PosShare TreeShare) (c : Dev nD) (t : Fin cfg2.N) : (dat2 V q c).after 7 t = iblk2 V c 7 t := by dsimp only [dat2]
theorem after2_8 (q : Fin cfg2.W → PosShare TreeShare) (c : Dev nD) (t : Fin cfg2.N) : (dat2 V q c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]
theorem after2_9 (q : Fin cfg2.W → PosShare TreeShare) (c : Dev nD) (t : Fin cfg2.N) : (dat2 V q c).after 9 t = out2_9 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not. -/
theorem before2_0 (q : Fin cfg2.W → PosShare TreeShare) (c : Dev nD) (t : Fin cfg2.N) (d) : (dat2 V q c).before 0 t d = iblk2 V c 0 t :=
  before2_0_of V (dat2 V q c) (A_eq2 V q c 0) (after2_0 V q c) t d
theorem before2_1 (q : Fin cfg2.W → PosShare TreeShare) (c : Dev nD) (t : Fin cfg2.N) (d) : (dat2 V q c).before 1 t d = iblk2 V c 1 t :=
  before2_1_of V (dat2 V q c) (A_eq2 V q c 1) (after2_1 V q c) t d
theorem before2_2 (q : Fin cfg2.W → PosShare TreeShare) (c : Dev nD) (t : Fin cfg2.N) (d) : (dat2 V q c).before 2 t d = iblk2 V c 2 t :=
  before2_2_of V (dat2 V q c) (A_eq2 V q c 2) (after2_2 V q c) t d
theorem before2_3 (q : Fin cfg2.W → PosShare TreeShare) (c : Dev nD) (t : Fin cfg2.N) (d) : (dat2 V q c).before 3 t d = iblk2 V c 3 t :=
  before2_3_of V (dat2 V q c) (A_eq2 V q c 3) (after2_3 V q c) t d
theorem before2_4 (q : Fin cfg2.W → PosShare TreeShare) (c : Dev nD) (t : Fin cfg2.N) (d) : (dat2 V q c).before 4 t d = iblk2 V c 4 t :=
  before2_4_of V (dat2 V q c) (A_eq2 V q c 4) (after2_4 V q c) t d
theorem before2_5 (q : Fin cfg2.W → PosShare TreeShare) (c : Dev nD) (t : Fin cfg2.N) (d) : (dat2 V q c).before 5 t d = iblk2 V c 5 t :=
  before2_5_of V (dat2 V q c) (A_eq2 V q c 5) (after2_5 V q c) t d
theorem before2_6 (q : Fin cfg2.W → PosShare TreeShare) (c : Dev nD) (t : Fin cfg2.N) (d) : (dat2 V q c).before 6 t d = iblk2 V c 6 t :=
  before2_6_of V (dat2 V q c) (A_eq2 V q c 6) (after2_6 V q c) t d
theorem before2_7 (q : Fin cfg2.W → PosShare TreeShare) (c : Dev nD) (t : Fin cfg2.N) (d) : (dat2 V q c).before 7 t d = iblk2 V c 7 t :=
  before2_7_of V (dat2 V q c) (A_eq2 V q c 7) (after2_7 V q c) t d

/-! ## The body obligation, at a generic point -/

/-- What the body is called with at point `t`, the windows one by one, -/
def bodyPre2 (q : Fin cfg2.W → PosShare TreeShare) (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d))
    ∗ (∃ d, owns (c : Thread nD τ) (st2_4 t) fullShare ((dat2 V q c).before 4 t d))
    ∗ (∃ d, owns (c : Thread nD τ) (st2_5 t) fullShare ((dat2 V q c).before 5 t d))
    ∗ (∃ d, owns (c : Thread nD τ) (st2_6 t) fullShare ((dat2 V q c).before 6 t d))
    ∗ (∃ d, owns (c : Thread nD τ) (st2_7 t) fullShare ((dat2 V q c).before 7 t d))
    ∗ (∃ d, owns (c : Thread nD τ) (st2_8 t) fullShare ((dat2 V q c).before 8 t d))
    ∗ (∃ d, owns (c : Thread nD τ) (st2_9 t) fullShare ((dat2 V q c).before 9 t d)))

/-- and what it returns. -/
def bodyPost2 (q : Fin cfg2.W → PosShare TreeShare) (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t)
    ∗ owns (c : Thread nD τ) (st2_4 t) fullShare ((dat2 V q c).after 4 t)
    ∗ owns (c : Thread nD τ) (st2_5 t) fullShare ((dat2 V q c).after 5 t)
    ∗ owns (c : Thread nD τ) (st2_6 t) fullShare ((dat2 V q c).after 6 t)
    ∗ owns (c : Thread nD τ) (st2_7 t) fullShare ((dat2 V q c).after 7 t)
    ∗ owns (c : Thread nD τ) (st2_8 t) fullShare ((dat2 V q c).after 8 t)
    ∗ owns (c : Thread nD τ) (st2_9 t) fullShare ((dat2 V q c).after 9 t))

/-- The body at any point: the inputs' memrefs hold their blocks (`before2_W`), so `sound_kernel2` applies; the
    invariant and the core's `owes` pass through unread. -/
theorem sound_body2 (q : Fin cfg2.W → PosShare TreeShare) (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3, before2_4, before2_5, before2_6, before2_7]
  rw [show (dat2 V q c).Φ t.succ = (dat2 V q c).Φ t.castSucc from rfl,
    show (dat2 V q c).owesAt () t.succ = (dat2 V q c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point and for every choice of shares. -/
theorem body_obligation2 (q : Fin cfg2.W → PosShare TreeShare) (c : Dev nD) : BodyObligation (dat2 (F := F) V q c) (defs₀ (F := F)) Variants.none () Set.univ := fun t => by
  rw [bigSep_W2, bigSep_W2]
  exact sound_body2 V q c t

end Cert.Kernel.Fr
-- ==== Proof.K.R3.lean ====
/-
  Region 3: a scaled matrix product. At grid point t the body reads the row block t of the node features (2000 rows
  of 64), the whole 64 x 64 weight matrix and the row block t of the per-node scale column (2000 rows of 1), and stores
  the block's product with the weights, each row multiplied by its scale, rounded to bf16. The output buffer is loaded
  before the store; the value read is not used.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The feature window's current staging buffer holds its block at every point, for any proof data whose array is
    the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The weight window's likewise: its block index is constant, so it is fetched at the first point only, and at
    every later point the buffer still holds the same block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The scale window's likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2000x64 := Rect.unit (s := S2000x64) ![0, 0] S2000x64.size inb_S2000x64_S2000x64_0_0
abbrev r3_1 : Rect S64x64 := Rect.unit (s := S64x64) ![0, 0] S64x64.size inb_S64x64_S64x64_0_0
abbrev r3_2 : Rect S2000x1 := Rect.unit (s := S2000x1) ![0, 0] S2000x1.size inb_S2000x1_S2000x1_0_0

/-! ## What the body leaves in the output window's buffer -/

/-- The output buffer after the body, from the input windows' blocks: its one store, over the whole buffer. -/
def out3_3 (x0 : Vec F S2000x64 .f32) (x1 : Vec F S64x64 .f32) (x2 : Vec F S2000x1 .f32) : Vec F S2000x64 .bf16 :=
  View.canon [⟨r3_0, k3_pay1 (View.ld x0 r3_0) (View.ld x1 r3_1) (View.ld x2 r3_2)⟩]

/-- The one store covers the buffer. -/
theorem cover3_3 (p0 : Vec F S2000x64 .bf16) (y : S2000x64.Idx) :
    ∃ pc ∈ ([⟨r3_0, p0⟩] : List (View.Piece (Elt F) S2000x64 .bf16)), y ∈ pc.1.set :=
  View.cover_of_tiled [⟨r3_0, p0⟩] S2000x64.size (by rfl) y

/-! ## The body's triple -/

set_option maxHeartbeats 1000000 in
/-- The body on whole staging buffers, the inputs' at read contents `x0 x1 x2` and the output's at anything, runs to
    the continuation holding the inputs' as they were and the output's at `out3_3 x0 x1 x2`. -/
theorem sound_kernel3 (c : Dev nD) (E : Set ℕ) (i : grid3.Coords) (arg1 : Memref sig .tc .vmem S2000x64 .f32) (harg1 : arg1.IsWhole) (arg2 : Memref sig .tc .vmem S64x64 .f32) (harg2 : arg2.IsWhole) (arg3 : Memref sig .tc .vmem S2000x1 .f32) (harg3 : arg3.IsWhole) (arg4 : Memref sig .tc .vmem S2000x64 .bf16) (harg4 : arg4.IsWhole)
    (x0 : Vec F S2000x64 .f32) (x1 : Vec F S64x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__matmul_scale_kernel i arg1 harg1 arg2 harg2 arg3 harg3 arg4 harg4) K := by
  simp only [cc3__matmul_scale_kernel_eq_skeleton]; unfold cc3__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them; after the body at point `t`
    each input's buffer at its block and the output's at `out3_3` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and
    what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.R4.lean ====
/- Region 4 of @main: custom_call 4, `cc4__update_kernel` (pipeline 4), at a parameter `V` — the TensorCore's
   buffer contents when the region is entered —: each window's block at a point (`iblk4`), what the body leaves
   in each output window's buffer (`out4_8`, `out4_9`), the body's triple (`sound_kernel4`), the proof data
   (`dat4`, at any shares `q` of the input arrays: windows 0 and 1 read one array, so their shares cannot both be
   full) and the body obligation (`body_obligation4`), at any `F`. -/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): where the window is not
    fetched its block index has not moved, so the block kept from the point before is this point's. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): where the window is not
    fetched its block index has not moved, so the block kept from the point before is this point's. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): where the window is not
    fetched its block index has not moved, so the block kept from the point before is this point's. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`): where the window is not
    fetched its block index has not moved, so the block kept from the point before is this point's. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s (`hA`) and whose body leaves the block in place (`hafter`): where the window is not
    fetched its block index has not moved, so the block kept from the point before is this point's. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s (`hA`) and whose body leaves the block in place (`hafter`): where the window is not
    fetched its block index has not moved, so the block kept from the point before is this point's. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s (`hA`) and whose body leaves the block in place (`hafter`): where the window is not
    fetched its block index has not moved, so the block kept from the point before is this point's. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not, for any proof
    data whose array is `V`'s (`hA`) and whose body leaves the block in place (`hafter`): where the window is not
    fetched its block index has not moved, so the block kept from the point before is this point's. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S2000x64 := Rect.unit (s := S2000x64) ![0, 0] S2000x64.size inb_S2000x64_S2000x64_0_0
abbrev r4_1 : Rect S2000x1 := Rect.unit (s := S2000x1) ![0, 0] S2000x1.size inb_S2000x1_S2000x1_0_0
abbrev r4_2 : Rect S64x64 := Rect.unit (s := S64x64) ![0, 0] S64x64.size inb_S64x64_S64x64_0_0
abbrev r4_3 : Rect S1x64 := Rect.unit (s := S1x64) ![0, 0] S1x64.size inb_S1x64_S1x64_0_0

/-! ## What the body leaves in each output window's buffer -/

/-- Window 8's staging buffer after the body, from the input windows' blocks: its one store, of the whole block
    (the new first state: the old one plus the new second state). -/
def out4_8 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r4_0, k4_pay2 (k4_pay3 (View.ld x0 r4_0)) (k4_pay4 (View.ld x1 r4_0)) (k4_pay5 (View.ld x0 r4_0) (View.ld x1 r4_0) (View.ld x2 r4_0) (View.ld x3 r4_0) (View.ld x4 r4_1) (View.ld x5 r4_2) (View.ld x6 r4_3) (View.ld x7 r4_3))⟩]

/-- Window 9's staging buffer after the body, from the input windows' blocks: its one store, of the whole block
    (the new second state: the old one plus the update). -/
def out4_9 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r4_0, k4_pay1 (k4_pay4 (View.ld x1 r4_0)) (k4_pay5 (View.ld x0 r4_0) (View.ld x1 r4_0) (View.ld x2 r4_0) (View.ld x3 r4_0) (View.ld x4 r4_1) (View.ld x5 r4_2) (View.ld x6 r4_3) (View.ld x7 r4_3))⟩]

/-- Window 8's store tiles the buffer, so it covers it. -/
theorem cover4_8 (p0 : Vec F S2000x64 .f32) (y : S2000x64.Idx) :
    ∃ pc ∈ ([⟨r4_0, p0⟩] : List (View.Piece (Elt F) S2000x64 .f32)), y ∈ pc.1.set :=
  View.cover_of_tiled [⟨r4_0, p0⟩] S2000x64.size (by rfl) y

/-- Window 9's store tiles the buffer, so it covers it. -/
theorem cover4_9 (p0 : Vec F S2000x64 .f32) (y : S2000x64.Idx) :
    ∃ pc ∈ ([⟨r4_0, p0⟩] : List (View.Piece (Elt F) S2000x64 .f32)), y ∈ pc.1.set :=
  View.cover_of_tiled [⟨r4_0, p0⟩] S2000x64.size (by rfl) y

/-! ## The body's triple -/

set_option maxHeartbeats 4000000 in
/-- The kernel body on whole staging memrefs, the inputs' at read contents `xW` and the outputs' at anything, runs to
    the continuation holding the inputs' as they were and each output's at `out4_W` of the inputs': the printed
    functions are their skeletons, run through the part's call. -/
theorem sound_kernel4 (c : Dev nD) (E : Set ℕ) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .bf16) (harg4 : arg4.IsWhole) (arg5 : Memref sig .tc .vmem S2000x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S2000x64 .f32) (harg10 : arg10.IsWhole)
    (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out4_8 x0 x1 x2 x3 x4 x5 x6 x7) ∗ owns (c : Thread nD τ) arg10 fullShare (out4_9 x0 x1 x2 x3 x4 x5 x6 x7)) -∗ K ⟨⟩))
      ⊢ wp frame (wpE (defs₀ (F := F)) Variants.none c none) E (cc4__update_kernel i arg1 harg1 arg2 harg2 arg3 harg3 arg4 harg4 arg5 harg5 arg6 harg6 arg7 harg7 arg8 harg8 arg9 harg9 arg10 harg10) K := by
  simp only [cc4__update_kernel_eq_skeleton]; unfold cc4__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover4_8 _)
  iexists _; isplitr
  swap; · iexact H9
  ipureintro
  exact View.read_writes_eq_canon _ _ _ (cover4_9 _)

/-! ## The pipeline's proof data -/

/-- The proof data of pipeline 4 on core `c`, at shares `q` of the input arrays: the arrays as the region finds
    them (`V`); after the body at point `t` each input's buffer at its block and each output's at `out4_W` of the
    input blocks; the invariant the scoped rest and the generator register, untouched; nothing owed. -/
def dat4 (q : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (iblk4 V c 1 t) (iblk4 V c 2 t) (iblk4 V c 3 t) (iblk4 V c 4 t) (iblk4 V c 5 t) (iblk4 V c 6 t) (iblk4 V c 7 t)
    | ⟨9, _⟩ => out4_9 (iblk4 V c 0 t) (iblk4 V c 1 t) (iblk4 V c 2 t) (iblk4 V c 3 t) (iblk4 V c 4 t) (iblk4 V c 5 t) (iblk4 V c 6 t) (iblk4 V c 7 t)
  Φ _ := Pipeline.ΦA spec4 c
  q := q
  owed _ := 0

/-- The proof data's arrays are the region-entry contents. -/
theorem A_eq4 (q : Fin cfg4.W → PosShare TreeShare) (c : Dev nD) (w : Fin cfg4.W) : (dat4 V q c).A w = V c (Pipeline.arrRef spec4 w) := by
  dsimp only [dat4]

/-- What the body leaves, window by window. -/
theorem after4_0 (q : Fin cfg4.W → PosShare TreeShare) (c : Dev nD) (t : Fin cfg4.N) : (dat4 V q c).after 0 t = iblk4 V c 0 t := by dsimp only [dat4]
theorem after4_1 (q : Fin cfg4.W → PosShare TreeShare) (c : Dev nD) (t : Fin cfg4.N) : (dat4 V q c).after 1 t = iblk4 V c 1 t := by dsimp only [dat4]
theorem after4_2 (q : Fin cfg4.W → PosShare TreeShare) (c : Dev nD) (t : Fin cfg4.N) : (dat4 V q c).after 2 t = iblk4 V c 2 t := by dsimp only [dat4]
theorem after4_3 (q : Fin cfg4.W → PosShare TreeShare) (c : Dev nD) (t : Fin cfg4.N) : (dat4 V q c).after 3 t = iblk4 V c 3 t := by dsimp only [dat4]
theorem after4_4 (q : Fin cfg4.W → PosShare TreeShare) (c : Dev nD) (t : Fin cfg4.N) : (dat4 V q c).after 4 t = iblk4 V c 4 t := by dsimp only [dat4]
theorem after4_5 (q : Fin cfg4.W → PosShare TreeShare) (c : Dev nD) (t : Fin cfg4.N) : (dat4 V q c).after 5 t = iblk4 V c 5 t := by dsimp only [dat4]
theorem after4_6 (q : Fin cfg4.W → PosShare TreeShare) (c : Dev nD) (t : Fin cfg4.N) : (dat4 V q c).after 6 t = iblk4 V c 6 t := by dsimp only [dat4]
theorem after4_7 (q : Fin cfg4.W → PosShare TreeShare) (c : Dev nD) (t : Fin cfg4.N) : (dat4 V q c).after 7 t = iblk4 V c 7 t := by dsimp only [dat4]
theorem after4_8 (q : Fin cfg4.W → PosShare TreeShare) (c : Dev nD) (t : Fin cfg4.N) : (dat4 V q c).after 8 t = out4_8 (iblk4 V c 0 t) (iblk4 V c 1 t) (iblk4 V c 2 t) (iblk4 V c 3 t) (iblk4 V c 4 t) (iblk4 V c 5 t) (iblk4 V c 6 t) (iblk4 V c 7 t) := by dsimp only [dat4]
theorem after4_9 (q : Fin cfg4.W → PosShare TreeShare) (c : Dev nD) (t : Fin cfg4.N) : (dat4 V q c).after 9 t = out4_9 (iblk4 V c 0 t) (iblk4 V c 1 t) (iblk4 V c 2 t) (iblk4 V c 3 t) (iblk4 V c 4 t) (iblk4 V c 5 t) (iblk4 V c 6 t) (iblk4 V c 7 t) := by dsimp only [dat4]

/-- Each input's current staging buffer holds its block at every point, fetched there or not. -/
theorem before4_0 (q : Fin cfg4.W → PosShare TreeShare) (c : Dev nD) (t : Fin cfg4.N) (d) : (dat4 V q c).before 0 t d = iblk4 V c 0 t :=
  before4_0_of V (dat4 V q c) (A_eq4 V q c 0) (after4_0 V q c) t d
theorem before4_1 (q : Fin cfg4.W → PosShare TreeShare) (c : Dev nD) (t : Fin cfg4.N) (d) : (dat4 V q c).before 1 t d = iblk4 V c 1 t :=
  before4_1_of V (dat4 V q c) (A_eq4 V q c 1) (after4_1 V q c) t d
theorem before4_2 (q : Fin cfg4.W → PosShare TreeShare) (c : Dev nD) (t : Fin cfg4.N) (d) : (dat4 V q c).before 2 t d = iblk4 V c 2 t :=
  before4_2_of V (dat4 V q c) (A_eq4 V q c 2) (after4_2 V q c) t d
theorem before4_3 (q : Fin cfg4.W → PosShare TreeShare) (c : Dev nD) (t : Fin cfg4.N) (d) : (dat4 V q c).before 3 t d = iblk4 V c 3 t :=
  before4_3_of V (dat4 V q c) (A_eq4 V q c 3) (after4_3 V q c) t d
theorem before4_4 (q : Fin cfg4.W → PosShare TreeShare) (c : Dev nD) (t : Fin cfg4.N) (d) : (dat4 V q c).before 4 t d = iblk4 V c 4 t :=
  before4_4_of V (dat4 V q c) (A_eq4 V q c 4) (after4_4 V q c) t d
theorem before4_5 (q : Fin cfg4.W → PosShare TreeShare) (c : Dev nD) (t : Fin cfg4.N) (d) : (dat4 V q c).before 5 t d = iblk4 V c 5 t :=
  before4_5_of V (dat4 V q c) (A_eq4 V q c 5) (after4_5 V q c) t d
theorem before4_6 (q : Fin cfg4.W → PosShare TreeShare) (c : Dev nD) (t : Fin cfg4.N) (d) : (dat4 V q c).before 6 t d = iblk4 V c 6 t :=
  before4_6_of V (dat4 V q c) (A_eq4 V q c 6) (after4_6 V q c) t d
theorem before4_7 (q : Fin cfg4.W → PosShare TreeShare) (c : Dev nD) (t : Fin cfg4.N) (d) : (dat4 V q c).before 7 t d = iblk4 V c 7 t :=
  before4_7_of V (dat4 V q c) (A_eq4 V q c 7) (after4_7 V q c) t d

/-! ## The body obligation, at a generic point -/

/-- What the body is called with at point `t`, the windows one by one, -/
def bodyPre4 (q : Fin cfg4.W → PosShare TreeShare) (c : Dev nD) (t : Fin cfg4.N) : sProp 𝕄 :=
  iprop((dat4 V q c).Φ t.castSucc ∗ (dat4 V q c).owesAt () t.castSucc
    ∗ (∃ d, owns (c : Thread nD τ) (st4_0 t) fullShare ((dat4 V q c).before 0 t d))
    ∗ (∃ d, owns (c : Thread nD τ) (st4_1 t) fullShare ((dat4 V q c).before 1 t d))
    ∗ (∃ d, owns (c : Thread nD τ) (st4_2 t) fullShare ((dat4 V q c).before 2 t d))
    ∗ (∃ d, owns (c : Thread nD τ) (st4_3 t) fullShare ((dat4 V q c).before 3 t d))
    ∗ (∃ d, owns (c : Thread nD τ) (st4_4 t) fullShare ((dat4 V q c).before 4 t d))
    ∗ (∃ d, owns (c : Thread nD τ) (st4_5 t) fullShare ((dat4 V q c).before 5 t d))
    ∗ (∃ d, owns (c : Thread nD τ) (st4_6 t) fullShare ((dat4 V q c).before 6 t d))
    ∗ (∃ d, owns (c : Thread nD τ) (st4_7 t) fullShare ((dat4 V q c).before 7 t d))
    ∗ (∃ d, owns (c : Thread nD τ) (st4_8 t) fullShare ((dat4 V q c).before 8 t d))
    ∗ (∃ d, owns (c : Thread nD τ) (st4_9 t) fullShare ((dat4 V q c).before 9 t d)))

/-- and what it returns. -/
def bodyPost4 (q : Fin cfg4.W → PosShare TreeShare) (c : Dev nD) (t : Fin cfg4.N) : sProp 𝕄 :=
  iprop((dat4 V q c).Φ t.succ ∗ (dat4 V q c).owesAt () t.succ
    ∗ owns (c : Thread nD τ) (st4_0 t) fullShare ((dat4 V q c).after 0 t)
    ∗ owns (c : Thread nD τ) (st4_1 t) fullShare ((dat4 V q c).after 1 t)
    ∗ owns (c : Thread nD τ) (st4_2 t) fullShare ((dat4 V q c).after 2 t)
    ∗ owns (c : Thread nD τ) (st4_3 t) fullShare ((dat4 V q c).after 3 t)
    ∗ owns (c : Thread nD τ) (st4_4 t) fullShare ((dat4 V q c).after 4 t)
    ∗ owns (c : Thread nD τ) (st4_5 t) fullShare ((dat4 V q c).after 5 t)
    ∗ owns (c : Thread nD τ) (st4_6 t) fullShare ((dat4 V q c).after 6 t)
    ∗ owns (c : Thread nD τ) (st4_7 t) fullShare ((dat4 V q c).after 7 t)
    ∗ owns (c : Thread nD τ) (st4_8 t) fullShare ((dat4 V q c).after 8 t)
    ∗ owns (c : Thread nD τ) (st4_9 t) fullShare ((dat4 V q c).after 9 t))

/-- The body at any point: the inputs' memrefs hold their blocks (`before4_W`), so `sound_kernel4` applies; the
    invariant and the core's `owes` pass through unread. -/
theorem sound_body4 (q : Fin cfg4.W → PosShare TreeShare) (c : Dev nD) (t : Fin cfg4.N) :
    bodyPre4 V q c t ⊢ wp frame (wpE (defs₀ (F := F)) Variants.none c none) Set.univ (bodyAt4 t) (fun _ => bodyPost4 V q c t) := by
  unfold bodyPre4 bodyPost4 bodyAt4
  simp only [before4_0, before4_1, before4_2, before4_3, before4_4, before4_5, before4_6, before4_7]
  rw [show (dat4 V q c).Φ t.succ = (dat4 V q c).Φ t.castSucc from rfl,
    show (dat4 V q c).owesAt () t.succ = (dat4 V q c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point and for every choice of shares. -/
theorem body_obligation4 (q : Fin cfg4.W → PosShare TreeShare) (c : Dev nD) : BodyObligation (dat4 (F := F) V q c) (defs₀ (F := F)) Variants.none () Set.univ := fun t => by
  rw [bigSep_W4, bigSep_W4]
  exact sound_body4 V q c t

end Cert.Kernel.Fr
-- ==== Proof.K.R5.lean ====
/-
  Region 5: a scaled matrix product. At grid point t the body reads the row block t of the node features (2000 rows
  of 64), the whole 64 x 64 weight matrix and the row block t of the per-node scale column (2000 rows of 1), and stores
  the block's product with the weights, each row multiplied by its scale, rounded to bf16. The output buffer is loaded
  before the store; the value read is not used.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The feature window's current staging buffer holds its block at every point, for any proof data whose array is
    the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The weight window's likewise: its block index is constant, so it is fetched at the first point only, and at
    every later point the buffer still holds the same block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The scale window's likewise. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S2000x64 := Rect.unit (s := S2000x64) ![0, 0] S2000x64.size inb_S2000x64_S2000x64_0_0
abbrev r5_1 : Rect S64x64 := Rect.unit (s := S64x64) ![0, 0] S64x64.size inb_S64x64_S64x64_0_0
abbrev r5_2 : Rect S2000x1 := Rect.unit (s := S2000x1) ![0, 0] S2000x1.size inb_S2000x1_S2000x1_0_0

/-! ## What the body leaves in the output window's buffer -/

/-- The output buffer after the body, from the input windows' blocks: its one store, over the whole buffer. -/
def out5_3 (x0 : Vec F S2000x64 .f32) (x1 : Vec F S64x64 .f32) (x2 : Vec F S2000x1 .f32) : Vec F S2000x64 .bf16 :=
  View.canon [⟨r5_0, k5_pay1 (View.ld x0 r5_0) (View.ld x1 r5_1) (View.ld x2 r5_2)⟩]

/-- The one store covers the buffer. -/
theorem cover5_3 (p0 : Vec F S2000x64 .bf16) (y : S2000x64.Idx) :
    ∃ pc ∈ ([⟨r5_0, p0⟩] : List (View.Piece (Elt F) S2000x64 .bf16)), y ∈ pc.1.set :=
  View.cover_of_tiled [⟨r5_0, p0⟩] S2000x64.size (by rfl) y

/-! ## The body's triple -/

set_option maxHeartbeats 1000000 in
/-- The body on whole staging buffers, the inputs' at read contents `x0 x1 x2` and the output's at anything, runs to
    the continuation holding the inputs' as they were and the output's at `out5_3 x0 x1 x2`. -/
theorem sound_kernel5 (c : Dev nD) (E : Set ℕ) (i : grid5.Coords) (arg1 : Memref sig .tc .vmem S2000x64 .f32) (harg1 : arg1.IsWhole) (arg2 : Memref sig .tc .vmem S64x64 .f32) (harg2 : arg2.IsWhole) (arg3 : Memref sig .tc .vmem S2000x1 .f32) (harg3 : arg3.IsWhole) (arg4 : Memref sig .tc .vmem S2000x64 .bf16) (harg4 : arg4.IsWhole)
    (x0 : Vec F S2000x64 .f32) (x1 : Vec F S64x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__matmul_scale_kernel i arg1 harg1 arg2 harg2 arg3 harg3 arg4 harg4) K := by
  simp only [cc5__matmul_scale_kernel_eq_skeleton]; unfold cc5__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them; after the body at point `t`
    each input's buffer at its block and the output's at `out5_3` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's triple applies; the invariant and
    what is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.K.R6.lean ====
/- Region 6 of @main: custom_call 6, `cc6__update_kernel` (pipeline 6), at a parameter `V` — the TensorCore's
   buffer contents when the region is entered —: each window's block at a point (`iblk6`), what the body leaves
   in each output window's buffer (`out6_8`, `out6_9`), the body's triple (`sound_kernel6`), the proof data
   (`dat6`, at any shares `q` of the input arrays: windows 0 and 1 read one array, so their shares cannot both be
   full) and the body obligation (`body_obligation6`), at any `F`. -/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): where the window is not
    fetched its block index has not moved, so the block kept from the point before is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s (`hA`) and whose body leaves the block in place (`hafter`): where the window is not
    fetched its block index has not moved, so the block kept from the point before is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s (`hA`) and whose body leaves the block in place (`hafter`): where the window is not
    fetched its block index has not moved, so the block kept from the point before is this point's. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s (`hA`) and whose body leaves the block in place (`hafter`): where the window is not
    fetched its block index has not moved, so the block kept from the point before is this point's. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s (`hA`) and whose body leaves the block in place (`hafter`): where the window is not
    fetched its block index has not moved, so the block kept from the point before is this point's. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof
    data whose array is `V`'s (`hA`) and whose body leaves the block in place (`hafter`): where the window is not
    fetched its block index has not moved, so the block kept from the point before is this point's. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not, for any proof
    data whose array is `V`'s (`hA`) and whose body leaves the block in place (`hafter`): where the window is not
    fetched its block index has not moved, so the block kept from the point before is this point's. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7's current staging buffer holds its block at every point, fetched there or not, for any proof
    data whose array is `V`'s (`hA`) and whose body leaves the block in place (`hafter`): where the window is not
    fetched its block index has not moved, so the block kept from the point before is this point's. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S2000x64 := Rect.unit (s := S2000x64) ![0, 0] S2000x64.size inb_S2000x64_S2000x64_0_0
abbrev r6_1 : Rect S2000x1 := Rect.unit (s := S2000x1) ![0, 0] S2000x1.size inb_S2000x1_S2000x1_0_0
abbrev r6_2 : Rect S64x64 := Rect.unit (s := S64x64) ![0, 0] S64x64.size inb_S64x64_S64x64_0_0
abbrev r6_3 : Rect S1x64 := Rect.unit (s := S1x64) ![0, 0] S1x64.size inb_S1x64_S1x64_0_0

/-! ## What the body leaves in each output window's buffer -/

/-- Window 8's staging buffer after the body, from the input windows' blocks: its one store, of the whole block
    (the new first state: the old one plus the new second state). -/
def out6_8 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r6_0, k6_pay2 (k6_pay3 (View.ld x0 r6_0)) (k6_pay4 (View.ld x1 r6_0)) (k6_pay5 (View.ld x0 r6_0) (View.ld x1 r6_0) (View.ld x2 r6_0) (View.ld x3 r6_0) (View.ld x4 r6_1) (View.ld x5 r6_2) (View.ld x6 r6_3) (View.ld x7 r6_3))⟩]

/-- Window 9's staging buffer after the body, from the input windows' blocks: its one store, of the whole block
    (the new second state: the old one plus the update). -/
def out6_9 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r6_0, k6_pay1 (k6_pay4 (View.ld x1 r6_0)) (k6_pay5 (View.ld x0 r6_0) (View.ld x1 r6_0) (View.ld x2 r6_0) (View.ld x3 r6_0) (View.ld x4 r6_1) (View.ld x5 r6_2) (View.ld x6 r6_3) (View.ld x7 r6_3))⟩]

/-- Window 8's store tiles the buffer, so it covers it. -/
theorem cover6_8 (p0 : Vec F S2000x64 .f32) (y : S2000x64.Idx) :
    ∃ pc ∈ ([⟨r6_0, p0⟩] : List (View.Piece (Elt F) S2000x64 .f32)), y ∈ pc.1.set :=
  View.cover_of_tiled [⟨r6_0, p0⟩] S2000x64.size (by rfl) y

/-- Window 9's store tiles the buffer, so it covers it. -/
theorem cover6_9 (p0 : Vec F S2000x64 .f32) (y : S2000x64.Idx) :
    ∃ pc ∈ ([⟨r6_0, p0⟩] : List (View.Piece (Elt F) S2000x64 .f32)), y ∈ pc.1.set :=
  View.cover_of_tiled [⟨r6_0, p0⟩] S2000x64.size (by rfl) y

/-! ## The body's triple -/

set_option maxHeartbeats 4000000 in
/-- The kernel body on whole staging memrefs, the inputs' at read contents `xW` and the outputs' at anything, runs to
    the continuation holding the inputs' as they were and each output's at `out6_W` of the inputs': the printed
    functions are their skeletons, run through the part's call. -/
theorem sound_kernel6 (c : Dev nD) (E : Set ℕ) (i : grid6.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .bf16) (harg4 : arg4.IsWhole) (arg5 : Memref sig .tc .vmem S2000x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S2000x64 .f32) (harg10 : arg10.IsWhole)
    (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out6_8 x0 x1 x2 x3 x4 x5 x6 x7) ∗ owns (c : Thread nD τ) arg10 fullShare (out6_9 x0 x1 x2 x3 x4 x5 x6 x7)) -∗ K ⟨⟩))
      ⊢ wp frame (wpE (defs₀ (F := F)) Variants.none c none) E (cc6__update_kernel i arg1 harg1 arg2 harg2 arg3 harg3 arg4 harg4 arg5 harg5 arg6 harg6 arg7 harg7 arg8 harg8 arg9 harg9 arg10 harg10) K := by
  simp only [cc6__update_kernel_eq_skeleton]; unfold cc6__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover6_8 _)
  iexists _; isplitr
  swap; · iexact H9
  ipureintro
  exact View.read_writes_eq_canon _ _ _ (cover6_9 _)

/-! ## The pipeline's proof data -/

/-- The proof data of pipeline 6 on core `c`, at shares `q` of the input arrays: the arrays as the region finds
    them (`V`); after the body at point `t` each input's buffer at its block and each output's at `out6_W` of the
    input blocks; the invariant the scoped rest and the generator register, untouched; nothing owed. -/
def dat6 (q : Fin cfg6.W → PosShare TreeShare) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 3 t) (iblk6 V c 4 t) (iblk6 V c 5 t) (iblk6 V c 6 t) (iblk6 V c 7 t)
    | ⟨9, _⟩ => out6_9 (iblk6 V c 0 t) (iblk6 V c 1 t) (iblk6 V c 2 t) (iblk6 V c 3 t) (iblk6 V c 4 t) (iblk6 V c 5 t) (iblk6 V c 6 t) (iblk6 V c 7 t)
  Φ _ := Pipeline.ΦA spec6 c
  q := q
  owed _ := 0

/-- The proof data's arrays are the region-entry contents. -/
theorem A_eq6 (q : Fin cfg6.W → PosShare TreeShare) (c : Dev nD) (w : Fin cfg6.W) : (dat6 V q c).A w = V c (Pipeline.arrRef spec6 w) := by
  dsimp only [dat6]

/-- What the body leaves, window by window. -/
theorem after6_0 (q : Fin cfg6.W → PosShare TreeShare) (c : Dev nD) (t : Fin cfg6.N) : (dat6 V q c).after 0 t = iblk6 V c 0 t := by dsimp only [dat6]
theorem after6_1 (q : Fin cfg6.W → PosShare TreeShare) (c : Dev nD) (t : Fin cfg6.N) : (dat6 V q c).after 1 t = iblk6 V c 1 t := by dsimp only [dat6]
theorem after6_2 (q : Fin cfg6.W → PosShare TreeShare) (c : Dev nD) (t : Fin cfg6.N) : (dat6 V q c).after 2 t = iblk6 V c 2 t := by dsimp only [dat6]
theorem after6_3 (q : Fin cfg6.W → PosShare TreeShare) (c : Dev nD) (t : Fin cfg6.N) : (dat6 V q c).after 3 t = iblk6 V c 3 t := by dsimp only [dat6]
theorem after6_4 (q : Fin cfg6.W → PosShare TreeShare) (c : Dev nD) (t : Fin cfg6.N) : (dat6 V q c).after 4 t = iblk6 V c 4 t := by dsimp only [dat6]
theorem after6_5 (q : Fin cfg6.W → PosShare TreeShare) (c : Dev nD) (t : Fin cfg6.N) : (dat6 V q c).after 5 t = iblk6 V c 5 t := by dsimp only [dat6]
theorem after6_6 (q : Fin cfg6.W → PosShare TreeShare) (c : Dev nD) (t : Fin cfg6.N) : (dat6 V q c).after 6 t = iblk6 V c 6 t := by dsimp only [dat6]
theorem after6_7 (q : Fin cfg6.W → PosShare TreeShare) (c : Dev nD) (t : Fin cfg6.N) : (dat6 V q c).after 7 t = iblk6 V c 7 t := by dsimp only [dat6]
theorem after6_8 (q : Fin cfg6.W → PosShare TreeShare) (c : Dev nD) (t : Fin cfg6.N) : (dat6 V q c).after 8 t = out6_8 (iblk6 V c 0 t) (iblk6 V c 1 t) (iblk6 V c 2 t) (iblk6 V c 3 t) (iblk6 V c 4 t) (iblk6 V c 5 t) (iblk6 V c 6 t) (iblk6 V c 7 t) := by dsimp only [dat6]
theorem after6_9 (q : Fin cfg6.W → PosShare TreeShare) (c : Dev nD) (t : Fin cfg6.N) : (dat6 V q c).after 9 t = out6_9 (iblk6 V c 0 t) (iblk6 V c 1 t) (iblk6 V c 2 t) (iblk6 V c 3 t) (iblk6 V c 4 t) (iblk6 V c 5 t) (iblk6 V c 6 t) (iblk6 V c 7 t) := by dsimp only [dat6]

/-- Each input's current staging buffer holds its block at every point, fetched there or not. -/
theorem before6_0 (q : Fin cfg6.W → PosShare TreeShare) (c : Dev nD) (t : Fin cfg6.N) (d) : (dat6 V q c).before 0 t d = iblk6 V c 0 t :=
  before6_0_of V (dat6 V q c) (A_eq6 V q c 0) (after6_0 V q c) t d
theorem before6_1 (q : Fin cfg6.W → PosShare TreeShare) (c : Dev nD) (t : Fin cfg6.N) (d) : (dat6 V q c).before 1 t d = iblk6 V c 1 t :=
  before6_1_of V (dat6 V q c) (A_eq6 V q c 1) (after6_1 V q c) t d
theorem before6_2 (q : Fin cfg6.W → PosShare TreeShare) (c : Dev nD) (t : Fin cfg6.N) (d) : (dat6 V q c).before 2 t d = iblk6 V c 2 t :=
  before6_2_of V (dat6 V q c) (A_eq6 V q c 2) (after6_2 V q c) t d
theorem before6_3 (q : Fin cfg6.W → PosShare TreeShare) (c : Dev nD) (t : Fin cfg6.N) (d) : (dat6 V q c).before 3 t d = iblk6 V c 3 t :=
  before6_3_of V (dat6 V q c) (A_eq6 V q c 3) (after6_3 V q c) t d
theorem before6_4 (q : Fin cfg6.W → PosShare TreeShare) (c : Dev nD) (t : Fin cfg6.N) (d) : (dat6 V q c).before 4 t d = iblk6 V c 4 t :=
  before6_4_of V (dat6 V q c) (A_eq6 V q c 4) (after6_4 V q c) t d
theorem before6_5 (q : Fin cfg6.W → PosShare TreeShare) (c : Dev nD) (t : Fin cfg6.N) (d) : (dat6 V q c).before 5 t d = iblk6 V c 5 t :=
  before6_5_of V (dat6 V q c) (A_eq6 V q c 5) (after6_5 V q c) t d
theorem before6_6 (q : Fin cfg6.W → PosShare TreeShare) (c : Dev nD) (t : Fin cfg6.N) (d) : (dat6 V q c).before 6 t d = iblk6 V c 6 t :=
  before6_6_of V (dat6 V q c) (A_eq6 V q c 6) (after6_6 V q c) t d
theorem before6_7 (q : Fin cfg6.W → PosShare TreeShare) (c : Dev nD) (t : Fin cfg6.N) (d) : (dat6 V q c).before 7 t d = iblk6 V c 7 t :=
  before6_7_of V (dat6 V q c) (A_eq6 V q c 7) (after6_7 V q c) t d

/-! ## The body obligation, at a generic point -/

/-- What the body is called with at point `t`, the windows one by one, -/
def bodyPre6 (q : Fin cfg6.W → PosShare TreeShare) (c : Dev nD) (t : Fin cfg6.N) : sProp 𝕄 :=
  iprop((dat6 V q c).Φ t.castSucc ∗ (dat6 V q c).owesAt () t.castSucc
    ∗ (∃ d, owns (c : Thread nD τ) (st6_0 t) fullShare ((dat6 V q c).before 0 t d))
    ∗ (∃ d, owns (c : Thread nD τ) (st6_1 t) fullShare ((dat6 V q c).before 1 t d))
    ∗ (∃ d, owns (c : Thread nD τ) (st6_2 t) fullShare ((dat6 V q c).before 2 t d))
    ∗ (∃ d, owns (c : Thread nD τ) (st6_3 t) fullShare ((dat6 V q c).before 3 t d))
    ∗ (∃ d, owns (c : Thread nD τ) (st6_4 t) fullShare ((dat6 V q c).before 4 t d))
    ∗ (∃ d, owns (c : Thread nD τ) (st6_5 t) fullShare ((dat6 V q c).before 5 t d))
    ∗ (∃ d, owns (c : Thread nD τ) (st6_6 t) fullShare ((dat6 V q c).before 6 t d))
    ∗ (∃ d, owns (c : Thread nD τ) (st6_7 t) fullShare ((dat6 V q c).before 7 t d))
    ∗ (∃ d, owns (c : Thread nD τ) (st6_8 t) fullShare ((dat6 V q c).before 8 t d))
    ∗ (∃ d, owns (c : Thread nD τ) (st6_9 t) fullShare ((dat6 V q c).before 9 t d)))

/-- and what it returns. -/
def bodyPost6 (q : Fin cfg6.W → PosShare TreeShare) (c : Dev nD) (t : Fin cfg6.N) : sProp 𝕄 :=
  iprop((dat6 V q c).Φ t.succ ∗ (dat6 V q c).owesAt () t.succ
    ∗ owns (c : Thread nD τ) (st6_0 t) fullShare ((dat6 V q c).after 0 t)
    ∗ owns (c : Thread nD τ) (st6_1 t) fullShare ((dat6 V q c).after 1 t)
    ∗ owns (c : Thread nD τ) (st6_2 t) fullShare ((dat6 V q c).after 2 t)
    ∗ owns (c : Thread nD τ) (st6_3 t) fullShare ((dat6 V q c).after 3 t)
    ∗ owns (c : Thread nD τ) (st6_4 t) fullShare ((dat6 V q c).after 4 t)
    ∗ owns (c : Thread nD τ) (st6_5 t) fullShare ((dat6 V q c).after 5 t)
    ∗ owns (c : Thread nD τ) (st6_6 t) fullShare ((dat6 V q c).after 6 t)
    ∗ owns (c : Thread nD τ) (st6_7 t) fullShare ((dat6 V q c).after 7 t)
    ∗ owns (c : Thread nD τ) (st6_8 t) fullShare ((dat6 V q c).after 8 t)
    ∗ owns (c : Thread nD τ) (st6_9 t) fullShare ((dat6 V q c).after 9 t))

/-- The body at any point: the inputs' memrefs hold their blocks (`before6_W`), so `sound_kernel6` applies; the
    invariant and the core's `owes` pass through unread. -/
theorem sound_body6 (q : Fin cfg6.W → PosShare TreeShare) (c : Dev nD) (t : Fin cfg6.N) :
    bodyPre6 V q c t ⊢ wp frame (wpE (defs₀ (F := F)) Variants.none c none) Set.univ (bodyAt6 t) (fun _ => bodyPost6 V q c t) := by
  unfold bodyPre6 bodyPost6 bodyAt6
  simp only [before6_0, before6_1, before6_2, before6_3, before6_4, before6_5, before6_6, before6_7]
  rw [show (dat6 V q c).Φ t.succ = (dat6 V q c).Φ t.castSucc from rfl,
    show (dat6 V q c).owesAt () t.succ = (dat6 V q c).owesAt () t.castSucc from rfl,
    after6_0, after6_1, after6_2, after6_3, after6_4, after6_5, after6_6, after6_7, after6_8, after6_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point and for every choice of shares. -/
theorem body_obligation6 (q : Fin cfg6.W → PosShare TreeShare) (c : Dev nD) : BodyObligation (dat6 (F := F) V q c) (defs₀ (F := F)) Variants.none () Set.univ := fun t => by
  rw [bigSep_W6, bigSep_W6]
  exact sound_body6 V q c t

end Cert.Kernel.Fr
-- ==== Proof.K.R7.lean ====
/-
  Region 7: a scaled matrix product. At grid point t the body reads the row block t of the node features (2000 rows
  of 64), the whole 64 x 64 weight matrix and the row block t of the per-node scale column (2000 rows of 1), and stores
  the block's product with the weights, each row multiplied by its scale, rounded to bf16. The output buffer is loaded
  before the store; the value read is not used.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The feature window's current staging buffer holds its block at every point, for any proof data whose array is
    the entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The weight window's likewise: its block index is constant, so it is fetched at the first point only, and at
    every later point the buffer still holds the same block. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- The scale window's likewise. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_0 : Rect S2000x64 := Rect.unit (s := S2000x64) ![0, 0] S2000x64.size inb_S2000x64_S2000x64_0_0
abbrev r7_1 : Rect S64x64 := Rect.unit (s := S64x64) ![0, 0] S64x64.size inb_S64x64_S64x64_0_0
abbrev r7_2 : Rect S2000x1 := Rect.unit (s := S2000x1) ![0, 0] S2000x1.size inb_S2000x1_S2000x1_0_0

/-! ## What the body leaves in the output window's buffer -/

/-- The output buffer after the body, from the input windows' blocks: its one store, over the whole buffer. -/
def out7_3 (x0 : Vec F S2000x64 .f32) (x1 : Vec F S64x64 .f32) (x2 : Vec F S2000x1 .f32) : Vec F S2000x64 .bf16 :=
  View.canon [⟨r7_0, k7_pay1 (View.ld x0 r7_0) (View.ld x1 r7_1) (View.ld x2 r7_2)⟩]

/-- The one store covers the buffer. -/
theorem cover7_3 (p0 : Vec F S2000x64 .bf16) (y : S2000x64.Idx) :
    ∃ pc ∈ ([⟨r7_0, p0⟩] : List (View.Piece (Elt F) S2000x64 .bf16)), y ∈ pc.1.set :=
  View.cover_of_tiled [⟨r7_0, p0⟩] S2000x64.size (by rfl) y

/-! ## The body's triple -/

set_option maxHeartbeats 1000000 in
/-- The body on whole staging buffers, the inputs' at read contents `x0 x1 x2` and the output's at anything, runs to
    the continuation holding the inputs' as they were and the output's at `out7_3 x0 x1 x2`. -/
theorem sound_kernel7 (c : Dev nD) (E : Set ℕ) (i : grid7.Coords) (arg1 : Memref sig .tc .vmem S2000x64 .f32) (harg1 : arg1.IsWhole) (arg2 : Memref sig .tc .vmem S64x64 .f32) (harg2 : arg2.IsWhole) (arg3 : Memref sig .tc .vmem S2000x1 .f32) (harg3 : arg3.IsWhole) (arg4 : Memref sig .tc .vmem S2000x64 .bf16) (harg4 : arg4.IsWhole)
    (x0 : Vec F S2000x64 .f32) (x1 : Vec F S64x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__matmul_scale_kernel i arg1 harg1 arg2 harg2 arg3 harg3 arg4 harg4) K := by
  simp only [cc7__matmul_scale_kernel_eq_skeleton]; unfold cc7__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them; after the body at point `t`
    each input's buffer at its block and the output's at `out7_3` of the input blocks; the invariant the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the body's triple applies; the invariant and
    what is owed pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Fr

end
-- ==== Proof.K.R8.lean ====
/- Region 8 of @main: custom_call 8, `cc8__update_kernel` (pipeline 8), at a parameter `V` — the TensorCore's
   buffer contents when the region is entered —: each window's block at a point (`iblk8`), what the body leaves
   in each output window's buffer (`out8_8`, `out8_9`), the body's triple (`sound_kernel8`), the proof data
   (`dat8`, at any shares `q` of the input arrays: windows 0 and 1 read one array, so their shares cannot both be
   full) and the body obligation (`body_obligation8`), at any `F`. -/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): where the window is not
    fetched its block index has not moved, so the block kept from the point before is this point's. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s (`hA`) and whose body leaves the block in place (`hafter`): where the window is not
    fetched its block index has not moved, so the block kept from the point before is this point's. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s (`hA`) and whose body leaves the block in place (`hafter`): where the window is not
    fetched its block index has not moved, so the block kept from the point before is this point's. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is `V`'s (`hA`) and whose body leaves the block in place (`hafter`): where the window is not
    fetched its block index has not moved, so the block kept from the point before is this point's. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is `V`'s (`hA`) and whose body leaves the block in place (`hafter`): where the window is not
    fetched its block index has not moved, so the block kept from the point before is this point's. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, fetched there or not, for any proof
    data whose array is `V`'s (`hA`) and whose body leaves the block in place (`hafter`): where the window is not
    fetched its block index has not moved, so the block kept from the point before is this point's. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's current staging buffer holds its block at every point, fetched there or not, for any proof
    data whose array is `V`'s (`hA`) and whose body leaves the block in place (`hafter`): where the window is not
    fetched its block index has not moved, so the block kept from the point before is this point's. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7's current staging buffer holds its block at every point, fetched there or not, for any proof
    data whose array is `V`'s (`hA`) and whose body leaves the block in place (`hafter`): where the window is not
    fetched its block index has not moved, so the block kept from the point before is this point's. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

abbrev r8_0 : Rect S2000x64 := Rect.unit (s := S2000x64) ![0, 0] S2000x64.size inb_S2000x64_S2000x64_0_0
abbrev r8_1 : Rect S2000x1 := Rect.unit (s := S2000x1) ![0, 0] S2000x1.size inb_S2000x1_S2000x1_0_0
abbrev r8_2 : Rect S64x64 := Rect.unit (s := S64x64) ![0, 0] S64x64.size inb_S64x64_S64x64_0_0
abbrev r8_3 : Rect S1x64 := Rect.unit (s := S1x64) ![0, 0] S1x64.size inb_S1x64_S1x64_0_0

/-! ## What the body leaves in each output window's buffer -/

/-- Window 8's staging buffer after the body, from the input windows' blocks: its one store, of the whole block
    (the new first state: the old one plus the new second state). -/
def out8_8 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r8_0, k8_pay2 (k8_pay3 (View.ld x0 r8_0)) (k8_pay4 (View.ld x1 r8_0)) (k8_pay5 (View.ld x0 r8_0) (View.ld x1 r8_0) (View.ld x2 r8_0) (View.ld x3 r8_0) (View.ld x4 r8_1) (View.ld x5 r8_2) (View.ld x6 r8_3) (View.ld x7 r8_3))⟩]

/-- Window 9's staging buffer after the body, from the input windows' blocks: its one store, of the whole block
    (the new second state: the old one plus the update). -/
def out8_9 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r8_0, k8_pay1 (k8_pay4 (View.ld x1 r8_0)) (k8_pay5 (View.ld x0 r8_0) (View.ld x1 r8_0) (View.ld x2 r8_0) (View.ld x3 r8_0) (View.ld x4 r8_1) (View.ld x5 r8_2) (View.ld x6 r8_3) (View.ld x7 r8_3))⟩]

/-- Window 8's store tiles the buffer, so it covers it. -/
theorem cover8_8 (p0 : Vec F S2000x64 .f32) (y : S2000x64.Idx) :
    ∃ pc ∈ ([⟨r8_0, p0⟩] : List (View.Piece (Elt F) S2000x64 .f32)), y ∈ pc.1.set :=
  View.cover_of_tiled [⟨r8_0, p0⟩] S2000x64.size (by rfl) y

/-- Window 9's store tiles the buffer, so it covers it. -/
theorem cover8_9 (p0 : Vec F S2000x64 .f32) (y : S2000x64.Idx) :
    ∃ pc ∈ ([⟨r8_0, p0⟩] : List (View.Piece (Elt F) S2000x64 .f32)), y ∈ pc.1.set :=
  View.cover_of_tiled [⟨r8_0, p0⟩] S2000x64.size (by rfl) y

/-! ## The body's triple -/

set_option maxHeartbeats 4000000 in
/-- The kernel body on whole staging memrefs, the inputs' at read contents `xW` and the outputs' at anything, runs to
    the continuation holding the inputs' as they were and each output's at `out8_W` of the inputs': the printed
    functions are their skeletons, run through the part's call. -/
theorem sound_kernel8 (c : Dev nD) (E : Set ℕ) (i : grid8.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .bf16) (harg4 : arg4.IsWhole) (arg5 : Memref sig .tc .vmem S2000x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S2000x64 .f32) (harg10 : arg10.IsWhole)
    (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out8_8 x0 x1 x2 x3 x4 x5 x6 x7) ∗ owns (c : Thread nD τ) arg10 fullShare (out8_9 x0 x1 x2 x3 x4 x5 x6 x7)) -∗ K ⟨⟩))
      ⊢ wp frame (wpE (defs₀ (F := F)) Variants.none c none) E (cc8__update_kernel i arg1 harg1 arg2 harg2 arg3 harg3 arg4 harg4 arg5 harg5 arg6 harg6 arg7 harg7 arg8 harg8 arg9 harg9 arg10 harg10) K := by
  simp only [cc8__update_kernel_eq_skeleton]; unfold cc8__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover8_8 _)
  iexists _; isplitr
  swap; · iexact H9
  ipureintro
  exact View.read_writes_eq_canon _ _ _ (cover8_9 _)

/-! ## The pipeline's proof data -/

/-- The proof data of pipeline 8 on core `c`, at shares `q` of the input arrays: the arrays as the region finds
    them (`V`); after the body at point `t` each input's buffer at its block and each output's at `out8_W` of the
    input blocks; the invariant the scoped rest and the generator register, untouched; nothing owed. -/
def dat8 (q : Fin cfg8.W → PosShare TreeShare) (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => out8_8 (iblk8 V c 0 t) (iblk8 V c 1 t) (iblk8 V c 2 t) (iblk8 V c 3 t) (iblk8 V c 4 t) (iblk8 V c 5 t) (iblk8 V c 6 t) (iblk8 V c 7 t)
    | ⟨9, _⟩ => out8_9 (iblk8 V c 0 t) (iblk8 V c 1 t) (iblk8 V c 2 t) (iblk8 V c 3 t) (iblk8 V c 4 t) (iblk8 V c 5 t) (iblk8 V c 6 t) (iblk8 V c 7 t)
  Φ _ := Pipeline.ΦA spec8 c
  q := q
  owed _ := 0

/-- The proof data's arrays are the region-entry contents. -/
theorem A_eq8 (q : Fin cfg8.W → PosShare TreeShare) (c : Dev nD) (w : Fin cfg8.W) : (dat8 V q c).A w = V c (Pipeline.arrRef spec8 w) := by
  dsimp only [dat8]

/-- What the body leaves, window by window. -/
theorem after8_0 (q : Fin cfg8.W → PosShare TreeShare) (c : Dev nD) (t : Fin cfg8.N) : (dat8 V q c).after 0 t = iblk8 V c 0 t := by dsimp only [dat8]
theorem after8_1 (q : Fin cfg8.W → PosShare TreeShare) (c : Dev nD) (t : Fin cfg8.N) : (dat8 V q c).after 1 t = iblk8 V c 1 t := by dsimp only [dat8]
theorem after8_2 (q : Fin cfg8.W → PosShare TreeShare) (c : Dev nD) (t : Fin cfg8.N) : (dat8 V q c).after 2 t = iblk8 V c 2 t := by dsimp only [dat8]
theorem after8_3 (q : Fin cfg8.W → PosShare TreeShare) (c : Dev nD) (t : Fin cfg8.N) : (dat8 V q c).after 3 t = iblk8 V c 3 t := by dsimp only [dat8]
theorem after8_4 (q : Fin cfg8.W → PosShare TreeShare) (c : Dev nD) (t : Fin cfg8.N) : (dat8 V q c).after 4 t = iblk8 V c 4 t := by dsimp only [dat8]
theorem after8_5 (q : Fin cfg8.W → PosShare TreeShare) (c : Dev nD) (t : Fin cfg8.N) : (dat8 V q c).after 5 t = iblk8 V c 5 t := by dsimp only [dat8]
theorem after8_6 (q : Fin cfg8.W → PosShare TreeShare) (c : Dev nD) (t : Fin cfg8.N) : (dat8 V q c).after 6 t = iblk8 V c 6 t := by dsimp only [dat8]
theorem after8_7 (q : Fin cfg8.W → PosShare TreeShare) (c : Dev nD) (t : Fin cfg8.N) : (dat8 V q c).after 7 t = iblk8 V c 7 t := by dsimp only [dat8]
theorem after8_8 (q : Fin cfg8.W → PosShare TreeShare) (c : Dev nD) (t : Fin cfg8.N) : (dat8 V q c).after 8 t = out8_8 (iblk8 V c 0 t) (iblk8 V c 1 t) (iblk8 V c 2 t) (iblk8 V c 3 t) (iblk8 V c 4 t) (iblk8 V c 5 t) (iblk8 V c 6 t) (iblk8 V c 7 t) := by dsimp only [dat8]
theorem after8_9 (q : Fin cfg8.W → PosShare TreeShare) (c : Dev nD) (t : Fin cfg8.N) : (dat8 V q c).after 9 t = out8_9 (iblk8 V c 0 t) (iblk8 V c 1 t) (iblk8 V c 2 t) (iblk8 V c 3 t) (iblk8 V c 4 t) (iblk8 V c 5 t) (iblk8 V c 6 t) (iblk8 V c 7 t) := by dsimp only [dat8]

/-- Each input's current staging buffer holds its block at every point, fetched there or not. -/
theorem before8_0 (q : Fin cfg8.W → PosShare TreeShare) (c : Dev nD) (t : Fin cfg8.N) (d) : (dat8 V q c).before 0 t d = iblk8 V c 0 t :=
  before8_0_of V (dat8 V q c) (A_eq8 V q c 0) (after8_0 V q c) t d
theorem before8_1 (q : Fin cfg8.W → PosShare TreeShare) (c : Dev nD) (t : Fin cfg8.N) (d) : (dat8 V q c).before 1 t d = iblk8 V c 1 t :=
  before8_1_of V (dat8 V q c) (A_eq8 V q c 1) (after8_1 V q c) t d
theorem before8_2 (q : Fin cfg8.W → PosShare TreeShare) (c : Dev nD) (t : Fin cfg8.N) (d) : (dat8 V q c).before 2 t d = iblk8 V c 2 t :=
  before8_2_of V (dat8 V q c) (A_eq8 V q c 2) (after8_2 V q c) t d
theorem before8_3 (q : Fin cfg8.W → PosShare TreeShare) (c : Dev nD) (t : Fin cfg8.N) (d) : (dat8 V q c).before 3 t d = iblk8 V c 3 t :=
  before8_3_of V (dat8 V q c) (A_eq8 V q c 3) (after8_3 V q c) t d
theorem before8_4 (q : Fin cfg8.W → PosShare TreeShare) (c : Dev nD) (t : Fin cfg8.N) (d) : (dat8 V q c).before 4 t d = iblk8 V c 4 t :=
  before8_4_of V (dat8 V q c) (A_eq8 V q c 4) (after8_4 V q c) t d
theorem before8_5 (q : Fin cfg8.W → PosShare TreeShare) (c : Dev nD) (t : Fin cfg8.N) (d) : (dat8 V q c).before 5 t d = iblk8 V c 5 t :=
  before8_5_of V (dat8 V q c) (A_eq8 V q c 5) (after8_5 V q c) t d
theorem before8_6 (q : Fin cfg8.W → PosShare TreeShare) (c : Dev nD) (t : Fin cfg8.N) (d) : (dat8 V q c).before 6 t d = iblk8 V c 6 t :=
  before8_6_of V (dat8 V q c) (A_eq8 V q c 6) (after8_6 V q c) t d
theorem before8_7 (q : Fin cfg8.W → PosShare TreeShare) (c : Dev nD) (t : Fin cfg8.N) (d) : (dat8 V q c).before 7 t d = iblk8 V c 7 t :=
  before8_7_of V (dat8 V q c) (A_eq8 V q c 7) (after8_7 V q c) t d

/-! ## The body obligation, at a generic point -/

/-- What the body is called with at point `t`, the windows one by one, -/
def bodyPre8 (q : Fin cfg8.W → PosShare TreeShare) (c : Dev nD) (t : Fin cfg8.N) : sProp 𝕄 :=
  iprop((dat8 V q c).Φ t.castSucc ∗ (dat8 V q c).owesAt () t.castSucc
    ∗ (∃ d, owns (c : Thread nD τ) (st8_0 t) fullShare ((dat8 V q c).before 0 t d))
    ∗ (∃ d, owns (c : Thread nD τ) (st8_1 t) fullShare ((dat8 V q c).before 1 t d))
    ∗ (∃ d, owns (c : Thread nD τ) (st8_2 t) fullShare ((dat8 V q c).before 2 t d))
    ∗ (∃ d, owns (c : Thread nD τ) (st8_3 t) fullShare ((dat8 V q c).before 3 t d))
    ∗ (∃ d, owns (c : Thread nD τ) (st8_4 t) fullShare ((dat8 V q c).before 4 t d))
    ∗ (∃ d, owns (c : Thread nD τ) (st8_5 t) fullShare ((dat8 V q c).before 5 t d))
    ∗ (∃ d, owns (c : Thread nD τ) (st8_6 t) fullShare ((dat8 V q c).before 6 t d))
    ∗ (∃ d, owns (c : Thread nD τ) (st8_7 t) fullShare ((dat8 V q c).before 7 t d))
    ∗ (∃ d, owns (c : Thread nD τ) (st8_8 t) fullShare ((dat8 V q c).before 8 t d))
    ∗ (∃ d, owns (c : Thread nD τ) (st8_9 t) fullShare ((dat8 V q c).before 9 t d)))

/-- and what it returns. -/
def bodyPost8 (q : Fin cfg8.W → PosShare TreeShare) (c : Dev nD) (t : Fin cfg8.N) : sProp 𝕄 :=
  iprop((dat8 V q c).Φ t.succ ∗ (dat8 V q c).owesAt () t.succ
    ∗ owns (c : Thread nD τ) (st8_0 t) fullShare ((dat8 V q c).after 0 t)
    ∗ owns (c : Thread nD τ) (st8_1 t) fullShare ((dat8 V q c).after 1 t)
    ∗ owns (c : Thread nD τ) (st8_2 t) fullShare ((dat8 V q c).after 2 t)
    ∗ owns (c : Thread nD τ) (st8_3 t) fullShare ((dat8 V q c).after 3 t)
    ∗ owns (c : Thread nD τ) (st8_4 t) fullShare ((dat8 V q c).after 4 t)
    ∗ owns (c : Thread nD τ) (st8_5 t) fullShare ((dat8 V q c).after 5 t)
    ∗ owns (c : Thread nD τ) (st8_6 t) fullShare ((dat8 V q c).after 6 t)
    ∗ owns (c : Thread nD τ) (st8_7 t) fullShare ((dat8 V q c).after 7 t)
    ∗ owns (c : Thread nD τ) (st8_8 t) fullShare ((dat8 V q c).after 8 t)
    ∗ owns (c : Thread nD τ) (st8_9 t) fullShare ((dat8 V q c).after 9 t))

/-- The body at any point: the inputs' memrefs hold their blocks (`before8_W`), so `sound_kernel8` applies; the
    invariant and the core's `owes` pass through unread. -/
theorem sound_body8 (q : Fin cfg8.W → PosShare TreeShare) (c : Dev nD) (t : Fin cfg8.N) :
    bodyPre8 V q c t ⊢ wp frame (wpE (defs₀ (F := F)) Variants.none c none) Set.univ (bodyAt8 t) (fun _ => bodyPost8 V q c t) := by
  unfold bodyPre8 bodyPost8 bodyAt8
  simp only [before8_0, before8_1, before8_2, before8_3, before8_4, before8_5, before8_6, before8_7]
  rw [show (dat8 V q c).Φ t.succ = (dat8 V q c).Φ t.castSucc from rfl,
    show (dat8 V q c).owesAt () t.succ = (dat8 V q c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point and for every choice of shares. -/
theorem body_obligation8 (q : Fin cfg8.W → PosShare TreeShare) (c : Dev nD) : BodyObligation (dat8 (F := F) V q c) (defs₀ (F := F)) Variants.none () Set.univ := fun t => by
  rw [bigSep_W8, bigSep_W8]
  exact sound_body8 V q c t

end Cert.Kernel.Fr
-- ==== Proof.K.R9.lean ====
/-
  Region 9: a scaled matrix product. At grid point t the body reads the row block t of the node features (2000 rows
  of 64), the whole 64 x 64 weight matrix and the row block t of the per-node scale column (2000 rows of 1), and stores
  the block's product with the weights, each row multiplied by its scale, rounded to bf16. The output buffer is loaded
  before the store; the value read is not used.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The feature window's current staging buffer holds its block at every point, for any proof data whose array is
    the entry contents and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The weight window's likewise: its block index is constant, so it is fetched at the first point only, and at
    every later point the buffer still holds the same block. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- The scale window's likewise. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

abbrev r9_0 : Rect S2000x64 := Rect.unit (s := S2000x64) ![0, 0] S2000x64.size inb_S2000x64_S2000x64_0_0
abbrev r9_1 : Rect S64x64 := Rect.unit (s := S64x64) ![0, 0] S64x64.size inb_S64x64_S64x64_0_0
abbrev r9_2 : Rect S2000x1 := Rect.unit (s := S2000x1) ![0, 0] S2000x1.size inb_S2000x1_S2000x1_0_0

/-! ## What the body leaves in the output window's buffer -/

/-- The output buffer after the body, from the input windows' blocks: its one store, over the whole buffer. -/
def out9_3 (x0 : Vec F S2000x64 .f32) (x1 : Vec F S64x64 .f32) (x2 : Vec F S2000x1 .f32) : Vec F S2000x64 .bf16 :=
  View.canon [⟨r9_0, k9_pay1 (View.ld x0 r9_0) (View.ld x1 r9_1) (View.ld x2 r9_2)⟩]

/-- The one store covers the buffer. -/
theorem cover9_3 (p0 : Vec F S2000x64 .bf16) (y : S2000x64.Idx) :
    ∃ pc ∈ ([⟨r9_0, p0⟩] : List (View.Piece (Elt F) S2000x64 .bf16)), y ∈ pc.1.set :=
  View.cover_of_tiled [⟨r9_0, p0⟩] S2000x64.size (by rfl) y

/-! ## The body's triple -/

set_option maxHeartbeats 1000000 in
/-- The body on whole staging buffers, the inputs' at read contents `x0 x1 x2` and the output's at anything, runs to
    the continuation holding the inputs' as they were and the output's at `out9_3 x0 x1 x2`. -/
theorem sound_kernel9 (c : Dev nD) (E : Set ℕ) (i : grid9.Coords) (arg1 : Memref sig .tc .vmem S2000x64 .f32) (harg1 : arg1.IsWhole) (arg2 : Memref sig .tc .vmem S64x64 .f32) (harg2 : arg2.IsWhole) (arg3 : Memref sig .tc .vmem S2000x1 .f32) (harg3 : arg3.IsWhole) (arg4 : Memref sig .tc .vmem S2000x64 .bf16) (harg4 : arg4.IsWhole)
    (x0 : Vec F S2000x64 .f32) (x1 : Vec F S64x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__matmul_scale_kernel i arg1 harg1 arg2 harg2 arg3 harg3 arg4 harg4) K := by
  simp only [cc9__matmul_scale_kernel_eq_skeleton]; unfold cc9__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the region finds them; after the body at point `t`
    each input's buffer at its block and the output's at `out9_3` of the input blocks; the invariant the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' buffers hold their blocks, so the body's triple applies; the invariant and
    what is owed pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Fr

end
-- ==== Proof.K.R10.lean ====
/- Region 10 of @main: custom_call 10, `cc10__update_kernel` (pipeline 10), at a parameter `V` — the TensorCore's
   buffer contents when the region is entered —: each window's block at a point (`iblk10`), what the body leaves
   in each output window's buffer (`out10_8`, `out10_9`), the body's triple (`sound_kernel10`), the proof data
   (`dat10`, at any shares `q` of the input arrays: windows 0 and 1 read one array, so their shares cannot both be
   full) and the body obligation (`body_obligation10`), at any `F`. -/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s (`hA`) and whose body leaves the block in place (`hafter`): where the window is not
    fetched its block index has not moved, so the block kept from the point before is this point's. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof
    data whose array is `V`'s (`hA`) and whose body leaves the block in place (`hafter`): where the window is not
    fetched its block index has not moved, so the block kept from the point before is this point's. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof
    data whose array is `V`'s (`hA`) and whose body leaves the block in place (`hafter`): where the window is not
    fetched its block index has not moved, so the block kept from the point before is this point's. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof
    data whose array is `V`'s (`hA`) and whose body leaves the block in place (`hafter`): where the window is not
    fetched its block index has not moved, so the block kept from the point before is this point's. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof
    data whose array is `V`'s (`hA`) and whose body leaves the block in place (`hafter`): where the window is not
    fetched its block index has not moved, so the block kept from the point before is this point's. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, fetched there or not, for any proof
    data whose array is `V`'s (`hA`) and whose body leaves the block in place (`hafter`): where the window is not
    fetched its block index has not moved, so the block kept from the point before is this point's. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- Input window 6's current staging buffer holds its block at every point, fetched there or not, for any proof
    data whose array is `V`'s (`hA`) and whose body leaves the block in place (`hafter`): where the window is not
    fetched its block index has not moved, so the block kept from the point before is this point's. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-- Input window 7's current staging buffer holds its block at every point, fetched there or not, for any proof
    data whose array is `V`'s (`hA`) and whose body leaves the block in place (`hafter`): where the window is not
    fetched its block index has not moved, so the block kept from the point before is this point's. -/
theorem before10_7_of {c : Dev nD} (dat : Dat τ (Elt F) Unit ℕ (UR sig nD τ) ℕ cfg10 c) (hA : dat.A 7 = V c (Pipeline.arrRef spec10 7))
    (hafter : ∀ t, dat.after 7 t = iblk10 V c 7 t) (t : Fin cfg10.N) (d) : dat.before 7 t d = iblk10 V c 7 t :=
  (dat.before_in_eq_fetched 7 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_0 : Rect S2000x64 := Rect.unit (s := S2000x64) ![0, 0] S2000x64.size inb_S2000x64_S2000x64_0_0
abbrev r10_1 : Rect S2000x1 := Rect.unit (s := S2000x1) ![0, 0] S2000x1.size inb_S2000x1_S2000x1_0_0
abbrev r10_2 : Rect S64x64 := Rect.unit (s := S64x64) ![0, 0] S64x64.size inb_S64x64_S64x64_0_0
abbrev r10_3 : Rect S1x64 := Rect.unit (s := S1x64) ![0, 0] S1x64.size inb_S1x64_S1x64_0_0

/-! ## What the body leaves in each output window's buffer -/

/-- Window 8's staging buffer after the body, from the input windows' blocks: its one store, of the whole block
    (the new first state: the old one plus the new second state). -/
def out10_8 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r10_0, k10_pay2 (k10_pay3 (View.ld x0 r10_0)) (k10_pay4 (View.ld x1 r10_0)) (k10_pay5 (View.ld x0 r10_0) (View.ld x1 r10_0) (View.ld x2 r10_0) (View.ld x3 r10_0) (View.ld x4 r10_1) (View.ld x5 r10_2) (View.ld x6 r10_3) (View.ld x7 r10_3))⟩]

/-- Window 9's staging buffer after the body, from the input windows' blocks: its one store, of the whole block
    (the new second state: the old one plus the update). -/
def out10_9 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r10_0, k10_pay1 (k10_pay4 (View.ld x1 r10_0)) (k10_pay5 (View.ld x0 r10_0) (View.ld x1 r10_0) (View.ld x2 r10_0) (View.ld x3 r10_0) (View.ld x4 r10_1) (View.ld x5 r10_2) (View.ld x6 r10_3) (View.ld x7 r10_3))⟩]

/-- Window 8's store tiles the buffer, so it covers it. -/
theorem cover10_8 (p0 : Vec F S2000x64 .f32) (y : S2000x64.Idx) :
    ∃ pc ∈ ([⟨r10_0, p0⟩] : List (View.Piece (Elt F) S2000x64 .f32)), y ∈ pc.1.set :=
  View.cover_of_tiled [⟨r10_0, p0⟩] S2000x64.size (by rfl) y

/-- Window 9's store tiles the buffer, so it covers it. -/
theorem cover10_9 (p0 : Vec F S2000x64 .f32) (y : S2000x64.Idx) :
    ∃ pc ∈ ([⟨r10_0, p0⟩] : List (View.Piece (Elt F) S2000x64 .f32)), y ∈ pc.1.set :=
  View.cover_of_tiled [⟨r10_0, p0⟩] S2000x64.size (by rfl) y

/-! ## The body's triple -/

set_option maxHeartbeats 4000000 in
/-- The kernel body on whole staging memrefs, the inputs' at read contents `xW` and the outputs' at anything, runs to
    the continuation holding the inputs' as they were and each output's at `out10_W` of the inputs': the printed
    functions are their skeletons, run through the part's call. -/
theorem sound_kernel10 (c : Dev nD) (E : Set ℕ) (i : grid10.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .bf16) (harg4 : arg4.IsWhole) (arg5 : Memref sig .tc .vmem S2000x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S2000x64 .f32) (harg10 : arg10.IsWhole)
    (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out10_8 x0 x1 x2 x3 x4 x5 x6 x7) ∗ owns (c : Thread nD τ) arg10 fullShare (out10_9 x0 x1 x2 x3 x4 x5 x6 x7)) -∗ K ⟨⟩))
      ⊢ wp frame (wpE (defs₀ (F := F)) Variants.none c none) E (cc10__update_kernel i arg1 harg1 arg2 harg2 arg3 harg3 arg4 harg4 arg5 harg5 arg6 harg6 arg7 harg7 arg8 harg8 arg9 harg9 arg10 harg10) K := by
  simp only [cc10__update_kernel_eq_skeleton]; unfold cc10__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover10_8 _)
  iexists _; isplitr
  swap; · iexact H9
  ipureintro
  exact View.read_writes_eq_canon _ _ _ (cover10_9 _)

/-! ## The pipeline's proof data -/

/-- The proof data of pipeline 10 on core `c`, at shares `q` of the input arrays: the arrays as the region finds
    them (`V`); after the body at point `t` each input's buffer at its block and each output's at `out10_W` of the
    input blocks; the invariant the scoped rest and the generator register, untouched; nothing owed. -/
def dat10 (q : Fin cfg10.W → PosShare TreeShare) (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => out10_8 (iblk10 V c 0 t) (iblk10 V c 1 t) (iblk10 V c 2 t) (iblk10 V c 3 t) (iblk10 V c 4 t) (iblk10 V c 5 t) (iblk10 V c 6 t) (iblk10 V c 7 t)
    | ⟨9, _⟩ => out10_9 (iblk10 V c 0 t) (iblk10 V c 1 t) (iblk10 V c 2 t) (iblk10 V c 3 t) (iblk10 V c 4 t) (iblk10 V c 5 t) (iblk10 V c 6 t) (iblk10 V c 7 t)
  Φ _ := Pipeline.ΦA spec10 c
  q := q
  owed _ := 0

/-- The proof data's arrays are the region-entry contents. -/
theorem A_eq10 (q : Fin cfg10.W → PosShare TreeShare) (c : Dev nD) (w : Fin cfg10.W) : (dat10 V q c).A w = V c (Pipeline.arrRef spec10 w) := by
  dsimp only [dat10]

/-- What the body leaves, window by window. -/
theorem after10_0 (q : Fin cfg10.W → PosShare TreeShare) (c : Dev nD) (t : Fin cfg10.N) : (dat10 V q c).after 0 t = iblk10 V c 0 t := by dsimp only [dat10]
theorem after10_1 (q : Fin cfg10.W → PosShare TreeShare) (c : Dev nD) (t : Fin cfg10.N) : (dat10 V q c).after 1 t = iblk10 V c 1 t := by dsimp only [dat10]
theorem after10_2 (q : Fin cfg10.W → PosShare TreeShare) (c : Dev nD) (t : Fin cfg10.N) : (dat10 V q c).after 2 t = iblk10 V c 2 t := by dsimp only [dat10]
theorem after10_3 (q : Fin cfg10.W → PosShare TreeShare) (c : Dev nD) (t : Fin cfg10.N) : (dat10 V q c).after 3 t = iblk10 V c 3 t := by dsimp only [dat10]
theorem after10_4 (q : Fin cfg10.W → PosShare TreeShare) (c : Dev nD) (t : Fin cfg10.N) : (dat10 V q c).after 4 t = iblk10 V c 4 t := by dsimp only [dat10]
theorem after10_5 (q : Fin cfg10.W → PosShare TreeShare) (c : Dev nD) (t : Fin cfg10.N) : (dat10 V q c).after 5 t = iblk10 V c 5 t := by dsimp only [dat10]
theorem after10_6 (q : Fin cfg10.W → PosShare TreeShare) (c : Dev nD) (t : Fin cfg10.N) : (dat10 V q c).after 6 t = iblk10 V c 6 t := by dsimp only [dat10]
theorem after10_7 (q : Fin cfg10.W → PosShare TreeShare) (c : Dev nD) (t : Fin cfg10.N) : (dat10 V q c).after 7 t = iblk10 V c 7 t := by dsimp only [dat10]
theorem after10_8 (q : Fin cfg10.W → PosShare TreeShare) (c : Dev nD) (t : Fin cfg10.N) : (dat10 V q c).after 8 t = out10_8 (iblk10 V c 0 t) (iblk10 V c 1 t) (iblk10 V c 2 t) (iblk10 V c 3 t) (iblk10 V c 4 t) (iblk10 V c 5 t) (iblk10 V c 6 t) (iblk10 V c 7 t) := by dsimp only [dat10]
theorem after10_9 (q : Fin cfg10.W → PosShare TreeShare) (c : Dev nD) (t : Fin cfg10.N) : (dat10 V q c).after 9 t = out10_9 (iblk10 V c 0 t) (iblk10 V c 1 t) (iblk10 V c 2 t) (iblk10 V c 3 t) (iblk10 V c 4 t) (iblk10 V c 5 t) (iblk10 V c 6 t) (iblk10 V c 7 t) := by dsimp only [dat10]

/-- Each input's current staging buffer holds its block at every point, fetched there or not. -/
theorem before10_0 (q : Fin cfg10.W → PosShare TreeShare) (c : Dev nD) (t : Fin cfg10.N) (d) : (dat10 V q c).before 0 t d = iblk10 V c 0 t :=
  before10_0_of V (dat10 V q c) (A_eq10 V q c 0) (after10_0 V q c) t d
theorem before10_1 (q : Fin cfg10.W → PosShare TreeShare) (c : Dev nD) (t : Fin cfg10.N) (d) : (dat10 V q c).before 1 t d = iblk10 V c 1 t :=
  before10_1_of V (dat10 V q c) (A_eq10 V q c 1) (after10_1 V q c) t d
theorem before10_2 (q : Fin cfg10.W → PosShare TreeShare) (c : Dev nD) (t : Fin cfg10.N) (d) : (dat10 V q c).before 2 t d = iblk10 V c 2 t :=
  before10_2_of V (dat10 V q c) (A_eq10 V q c 2) (after10_2 V q c) t d
theorem before10_3 (q : Fin cfg10.W → PosShare TreeShare) (c : Dev nD) (t : Fin cfg10.N) (d) : (dat10 V q c).before 3 t d = iblk10 V c 3 t :=
  before10_3_of V (dat10 V q c) (A_eq10 V q c 3) (after10_3 V q c) t d
theorem before10_4 (q : Fin cfg10.W → PosShare TreeShare) (c : Dev nD) (t : Fin cfg10.N) (d) : (dat10 V q c).before 4 t d = iblk10 V c 4 t :=
  before10_4_of V (dat10 V q c) (A_eq10 V q c 4) (after10_4 V q c) t d
theorem before10_5 (q : Fin cfg10.W → PosShare TreeShare) (c : Dev nD) (t : Fin cfg10.N) (d) : (dat10 V q c).before 5 t d = iblk10 V c 5 t :=
  before10_5_of V (dat10 V q c) (A_eq10 V q c 5) (after10_5 V q c) t d
theorem before10_6 (q : Fin cfg10.W → PosShare TreeShare) (c : Dev nD) (t : Fin cfg10.N) (d) : (dat10 V q c).before 6 t d = iblk10 V c 6 t :=
  before10_6_of V (dat10 V q c) (A_eq10 V q c 6) (after10_6 V q c) t d
theorem before10_7 (q : Fin cfg10.W → PosShare TreeShare) (c : Dev nD) (t : Fin cfg10.N) (d) : (dat10 V q c).before 7 t d = iblk10 V c 7 t :=
  before10_7_of V (dat10 V q c) (A_eq10 V q c 7) (after10_7 V q c) t d

/-! ## The body obligation, at a generic point -/

/-- What the body is called with at point `t`, the windows one by one, -/
def bodyPre10 (q : Fin cfg10.W → PosShare TreeShare) (c : Dev nD) (t : Fin cfg10.N) : sProp 𝕄 :=
  iprop((dat10 V q c).Φ t.castSucc ∗ (dat10 V q c).owesAt () t.castSucc
    ∗ (∃ d, owns (c : Thread nD τ) (st10_0 t) fullShare ((dat10 V q c).before 0 t d))
    ∗ (∃ d, owns (c : Thread nD τ) (st10_1 t) fullShare ((dat10 V q c).before 1 t d))
    ∗ (∃ d, owns (c : Thread nD τ) (st10_2 t) fullShare ((dat10 V q c).before 2 t d))
    ∗ (∃ d, owns (c : Thread nD τ) (st10_3 t) fullShare ((dat10 V q c).before 3 t d))
    ∗ (∃ d, owns (c : Thread nD τ) (st10_4 t) fullShare ((dat10 V q c).before 4 t d))
    ∗ (∃ d, owns (c : Thread nD τ) (st10_5 t) fullShare ((dat10 V q c).before 5 t d))
    ∗ (∃ d, owns (c : Thread nD τ) (st10_6 t) fullShare ((dat10 V q c).before 6 t d))
    ∗ (∃ d, owns (c : Thread nD τ) (st10_7 t) fullShare ((dat10 V q c).before 7 t d))
    ∗ (∃ d, owns (c : Thread nD τ) (st10_8 t) fullShare ((dat10 V q c).before 8 t d))
    ∗ (∃ d, owns (c : Thread nD τ) (st10_9 t) fullShare ((dat10 V q c).before 9 t d)))

/-- and what it returns. -/
def bodyPost10 (q : Fin cfg10.W → PosShare TreeShare) (c : Dev nD) (t : Fin cfg10.N) : sProp 𝕄 :=
  iprop((dat10 V q c).Φ t.succ ∗ (dat10 V q c).owesAt () t.succ
    ∗ owns (c : Thread nD τ) (st10_0 t) fullShare ((dat10 V q c).after 0 t)
    ∗ owns (c : Thread nD τ) (st10_1 t) fullShare ((dat10 V q c).after 1 t)
    ∗ owns (c : Thread nD τ) (st10_2 t) fullShare ((dat10 V q c).after 2 t)
    ∗ owns (c : Thread nD τ) (st10_3 t) fullShare ((dat10 V q c).after 3 t)
    ∗ owns (c : Thread nD τ) (st10_4 t) fullShare ((dat10 V q c).after 4 t)
    ∗ owns (c : Thread nD τ) (st10_5 t) fullShare ((dat10 V q c).after 5 t)
    ∗ owns (c : Thread nD τ) (st10_6 t) fullShare ((dat10 V q c).after 6 t)
    ∗ owns (c : Thread nD τ) (st10_7 t) fullShare ((dat10 V q c).after 7 t)
    ∗ owns (c : Thread nD τ) (st10_8 t) fullShare ((dat10 V q c).after 8 t)
    ∗ owns (c : Thread nD τ) (st10_9 t) fullShare ((dat10 V q c).after 9 t))

/-- The body at any point: the inputs' memrefs hold their blocks (`before10_W`), so `sound_kernel10` applies; the
    invariant and the core's `owes` pass through unread. -/
theorem sound_body10 (q : Fin cfg10.W → PosShare TreeShare) (c : Dev nD) (t : Fin cfg10.N) :
    bodyPre10 V q c t ⊢ wp frame (wpE (defs₀ (F := F)) Variants.none c none) Set.univ (bodyAt10 t) (fun _ => bodyPost10 V q c t) := by
  unfold bodyPre10 bodyPost10 bodyAt10
  simp only [before10_0, before10_1, before10_2, before10_3, before10_4, before10_5, before10_6, before10_7]
  rw [show (dat10 V q c).Φ t.succ = (dat10 V q c).Φ t.castSucc from rfl,
    show (dat10 V q c).owesAt () t.succ = (dat10 V q c).owesAt () t.castSucc from rfl,
    after10_0, after10_1, after10_2, after10_3, after10_4, after10_5, after10_6, after10_7, after10_8, after10_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel10 c Set.univ _ _ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) (iblk10 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point and for every choice of shares. -/
theorem body_obligation10 (q : Fin cfg10.W → PosShare TreeShare) (c : Dev nD) : BodyObligation (dat10 (F := F) V q c) (defs₀ (F := F)) Variants.none () Set.univ := fun t => by
  rw [bigSep_W10, bigSep_W10]
  exact sound_body10 V q c t

end Cert.Kernel.Fr
-- ==== Proof.K.R11.lean ====
/-
  Region 11: the decoder. At grid point t the body reads the row block t of the node states (2000 rows of 64),
  the whole weight matrix and the bias row, and stores the block's product with the weights plus the bias row
  broadcast over the rows. The output buffer is loaded before the store; the value read is not used.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- The whole output block, as a rectangle. -/
abbrev r11_out : Rect S2000x1 := Rect.unit (s := S2000x1) ![0, 0] S2000x1.size inb_S2000x1_S2000x1_0_0

/-- The output block after the body: its one store, of the whole block. -/
abbrev r11_0 : Rect S2000x64 := Rect.unit (s := S2000x64) ![0, 0] S2000x64.size inb_S2000x64_S2000x64_0_0
abbrev r11_1 : Rect S64x1 := Rect.unit (s := S64x1) ![0, 0] S64x1.size inb_S64x1_S64x1_0_0
abbrev r11_2 : Rect S1x1 := Rect.unit (s := S1x1) ![0, 0] S1x1.size inb_S1x1_S1x1_0_0

def out11_3 (x0 : Vec F S2000x64 .f32) (x1 : Vec F S64x1 .f32) (x2 : Vec F S1x1 .f32) : Vec F S2000x1 .f32 :=
  View.canon [⟨r11_out, k11_pay1 (View.ld x0 r11_0) (View.ld x1 r11_1) (View.ld x2 r11_2)⟩]

/-- The store covers the block. -/
theorem cover11_3 (p0 : Vec F S2000x1 .f32) (y : S2000x1.Idx) :
    ∃ pc ∈ ([⟨r11_out, p0⟩] : List (View.Piece (Elt F) S2000x1 .f32)), y ∈ pc.1.set :=
  View.cover_of_tiled [⟨r11_out, p0⟩] S2000x1.size (by rfl) y

set_option maxHeartbeats 1000000 in
/-- The body on whole staging memrefs: the inputs keep their contents, the output ends at `out11_3` of the inputs'. -/
theorem sound_kernel11 (c : Dev nD) (E : Set ℕ) (i : grid11.Coords)
    (arg1 : Memref sig .tc .vmem S2000x64 .f32) (harg1 : arg1.IsWhole) (arg2 : Memref sig .tc .vmem S64x1 .f32) (harg2 : arg2.IsWhole)
    (arg3 : Memref sig .tc .vmem S1x1 .f32) (harg3 : arg3.IsWhole) (arg4 : Memref sig .tc .vmem S2000x1 .f32) (harg4 : arg4.IsWhole)
    (x0 : Vec F S2000x64 .f32) (x1 : Vec F S64x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1 x2)) -∗ K ⟨⟩))
      ⊢ wp frame (wpE (defs₀ (F := F)) Variants.none c none) E (cc11__linear_bias_kernel i arg1 harg1 arg2 harg2 arg3 harg3 arg4 harg4) K := by
  simp only [cc11__linear_bias_kernel_eq_skeleton]; unfold cc11__linear_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-- The proof data of pipeline 0 on core `c`. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation11 (c : Dev nD) : BodyObligation (dat11 (F := F) V c) (defs₀ (F := F)) Variants.none () Set.univ := fun t => by
  rw [bigSep_W11, bigSep_W11]
  exact sound_body11 V c t

end Cert.Kernel.Fr

end
-- ==== Proof.K.Q2.lean ====
/-
  The shares region 2's windows hold their arrays at. Its first two input windows read one array, each at one half of
  the full share; every other window's array is held whole.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def q2 : Fin cfg2.W → PosShare TreeShare := fun w => match w.val with
  | 0 => fullShare.left
  | 1 => fullShare.right
  | _ => fullShare
theorem q2_0 : q2 (0 : Fin 10) = fullShare.left := rfl
theorem q2_1 : q2 (1 : Fin 10) = fullShare.right := rfl
theorem q2_2 : q2 (2 : Fin 10) = fullShare := rfl
theorem q2_3 : q2 (3 : Fin 10) = fullShare := rfl
theorem q2_4 : q2 (4 : Fin 10) = fullShare := rfl
theorem q2_5 : q2 (5 : Fin 10) = fullShare := rfl
theorem q2_6 : q2 (6 : Fin 10) = fullShare := rfl
theorem q2_7 : q2 (7 : Fin 10) = fullShare := rfl
theorem q2_8 : q2 (8 : Fin 10) = fullShare := rfl
theorem q2_9 : q2 (9 : Fin 10) = fullShare := rfl

end Cert.Kernel.Fr

end
-- ==== Proof.K.Wdefs.lean ====
/-
  The contents of every unscoped buffer at each boundary between two items of the main program: a fold from the launch
  memory through the host stretches (each operation's result written over its buffer) and the kernel regions (each
  region's arrays at what its write-backs leave, every other buffer kept).
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import proofs.«131582_j65292092834213_2_alg».proof.Proof.K.R0
import proofs.«131582_j65292092834213_2_alg».proof.Proof.K.R1
import proofs.«131582_j65292092834213_2_alg».proof.Proof.K.R2
import proofs.«131582_j65292092834213_2_alg».proof.Proof.K.R3
import proofs.«131582_j65292092834213_2_alg».proof.Proof.K.R4
import proofs.«131582_j65292092834213_2_alg».proof.Proof.K.R5
import proofs.«131582_j65292092834213_2_alg».proof.Proof.K.R6
import proofs.«131582_j65292092834213_2_alg».proof.Proof.K.R7
import proofs.«131582_j65292092834213_2_alg».proof.Proof.K.R8
import proofs.«131582_j65292092834213_2_alg».proof.Proof.K.R9
import proofs.«131582_j65292092834213_2_alg».proof.Proof.K.R10
import proofs.«131582_j65292092834213_2_alg».proof.Proof.K.R11
import proofs.«131582_j65292092834213_2_alg».proof.Proof.K.Q2
import proofs.«131582_j65292092834213_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The contents region 0 is entered from, read at the TensorCore's references. -/
abbrev Vw1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Vw1 m ρ) c).arrAt w cfg0.N
theorem W2_arr (c : Dev nD) (w : Fin cfg0.W) :
    W2 m ρ c (Proc.devRef .tc (Pipeline.arrRef spec0 w)) = (dat0 (Vw1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (dat0 (Vw1 m ρ) c).arrAt w cfg0.N = (fun c b => W2 m ρ c b : (c : Dev nD) → (b : Ref sig .tc) → Buf (Elt F) ((c : Thread nD τ).loc b)) c (Pipeline.arrRef spec0 w) :=
  (W2_arr m ρ c w).symm
theorem hrest0 (c : Dev nD) : ∀ b, b ∉ Finset.univ.image (Pipeline.arrRef spec0) → (fun c b => W2 m ρ c b : (c : Dev nD) → (b : Ref sig .tc) → Buf (Elt F) ((c : Thread nD τ).loc b)) c b = Vw1 m ρ c b :=
  fun b hb => W2_of_ne m ρ c b fun w e => hb (Finset.mem_image.mpr ⟨w, Finset.mem_univ _, e⟩)
/-- The contents region 1 is entered from, read at the TensorCore's references. -/
abbrev Vw2 : (c : Dev nD) → (b : Ref sig .tc) → Buf (Elt F) ((c : Thread nD τ).loc b) := fun c b => W2 m ρ c b
/-- At region 1's exit: its arrays at what the pipeline leaves, every other buffer as entered. -/
def W3 (c : Dev nD) : Valuation τ sig (Elt F) :=
  Pipeline.withArrays spec1 c (W2 m ρ c) fun w => (dat1 (Vw2 m ρ) c).arrAt w cfg1.N
theorem W3_arr (c : Dev nD) (w : Fin cfg1.W) :
    W3 m ρ c (Proc.devRef .tc (Pipeline.arrRef spec1 w)) = (dat1 (Vw2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem hF1 (c : Dev nD) (w : Fin cfg1.W) : (dat1 (Vw2 m ρ) c).arrAt w cfg1.N = (fun c b => W3 m ρ c b : (c : Dev nD) → (b : Ref sig .tc) → Buf (Elt F) ((c : Thread nD τ).loc b)) c (Pipeline.arrRef spec1 w) :=
  (W3_arr m ρ c w).symm
theorem hrest1 (c : Dev nD) : ∀ b, b ∉ Finset.univ.image (Pipeline.arrRef spec1) → (fun c b => W3 m ρ c b : (c : Dev nD) → (b : Ref sig .tc) → Buf (Elt F) ((c : Thread nD τ).loc b)) c b = Vw2 m ρ c b :=
  fun b hb => W3_of_ne m ρ c b fun w e => hb (Finset.mem_image.mpr ⟨w, Finset.mem_univ _, e⟩)
/-- After the host stretch `hostOps2`. -/
abbrev W4 : Dev nD → Valuation τ sig (Elt F) := fun c => StableHlo.after hostOps2 (W3 m ρ c)
/-- The contents region 2 is entered from, read at the TensorCore's references. -/
abbrev Vw4 : (c : Dev nD) → (b : Ref sig .tc) → Buf (Elt F) ((c : Thread nD τ).loc b) := fun c b => W4 m ρ c b
/-- At region 2's exit: the two output arrays at what the pipeline leaves, every other buffer as entered (the input
    windows' arrays, two of them one array, are not written). -/
def W5 (c : Dev nD) : Valuation τ sig (Elt F) :=
  Function.update (Function.update (W4 m ρ c) main_v29_0 ((dat2 (Vw4 m ρ) q2 c).arrAt 8 cfg2.N : Buf (Elt F) ((c : Thread nD τ).loc main_v29_0)))
    main_v29_1 ((dat2 (Vw4 m ρ) q2 c).arrAt 9 cfg2.N : Buf (Elt F) ((c : Thread nD τ).loc main_v29_1))
theorem W5_out0 (c : Dev nD) : W5 m ρ c (Proc.devRef .tc main_v29_0) = (dat2 (Vw4 m ρ) q2 c).arrAt 8 cfg2.N := by
  unfold W5
  rw [Function.update_of_ne (StableHlo.devRef_ne_of_ne (by decide) : (Proc.devRef .tc main_v29_0 : DevRef τ sig) ≠ Proc.devRef .tc main_v29_1), Function.update_self]
theorem W5_out1 (c : Dev nD) : W5 m ρ c (Proc.devRef .tc main_v29_1) = (dat2 (Vw4 m ρ) q2 c).arrAt 9 cfg2.N := by
  unfold W5; rw [Function.update_self]
theorem W5_of_ne (c : Dev nD) (b : Ref sig .tc) (h0 : b ≠ main_v29_0) (h1 : b ≠ main_v29_1) :
    W5 m ρ c (Proc.devRef .tc b) = W4 m ρ c (Proc.devRef .tc b) := by
  unfold W5
  rw [Function.update_of_ne (StableHlo.devRef_ne_of_ne h1 : (Proc.devRef .tc b : DevRef τ sig) ≠ Proc.devRef .tc main_v29_1),
    Function.update_of_ne (StableHlo.devRef_ne_of_ne h0 : (Proc.devRef .tc b : DevRef τ sig) ≠ Proc.devRef .tc main_v29_0)]
/-- The contents region 3 is entered from, read at the TensorCore's references. -/
abbrev Vw5 : (c : Dev nD) → (b : Ref sig .tc) → Buf (Elt F) ((c : Thread nD τ).loc b) := fun c b => W5 m ρ c b
/-- At region 3's exit: its arrays at what the pipeline leaves, every other buffer as entered. -/
def W6 (c : Dev nD) : Valuation τ sig (Elt F) :=
  Pipeline.withArrays spec3 c (W5 m ρ c) fun w => (dat3 (Vw5 m ρ) c).arrAt w cfg3.N
theorem W6_arr (c : Dev nD) (w : Fin cfg3.W) :
    W6 m ρ c (Proc.devRef .tc (Pipeline.arrRef spec3 w)) = (dat3 (Vw5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
theorem hF3 (c : Dev nD) (w : Fin cfg3.W) : (dat3 (Vw5 m ρ) c).arrAt w cfg3.N = (fun c b => W6 m ρ c b : (c : Dev nD) → (b : Ref sig .tc) → Buf (Elt F) ((c : Thread nD τ).loc b)) c (Pipeline.arrRef spec3 w) :=
  (W6_arr m ρ c w).symm
theorem hrest3 (c : Dev nD) : ∀ b, b ∉ Finset.univ.image (Pipeline.arrRef spec3) → (fun c b => W6 m ρ c b : (c : Dev nD) → (b : Ref sig .tc) → Buf (Elt F) ((c : Thread nD τ).loc b)) c b = Vw5 m ρ c b :=
  fun b hb => W6_of_ne m ρ c b fun w e => hb (Finset.mem_image.mpr ⟨w, Finset.mem_univ _, e⟩)
/-- After the host stretch `hostOps4`. -/
abbrev W7 : Dev nD → Valuation τ sig (Elt F) := fun c => StableHlo.after hostOps4 (W6 m ρ c)
/-- The contents region 4 is entered from, read at the TensorCore's references. -/
abbrev Vw7 : (c : Dev nD) → (b : Ref sig .tc) → Buf (Elt F) ((c : Thread nD τ).loc b) := fun c b => W7 m ρ c b
/-- At region 4's exit: its arrays at what the pipeline leaves, every other buffer as entered. -/
def W8 (c : Dev nD) : Valuation τ sig (Elt F) :=
  Pipeline.withArrays spec4 c (W7 m ρ c) fun w => (dat4 (Vw7 m ρ) (fun _ => fullShare) c).arrAt w cfg4.N
theorem W8_arr (c : Dev nD) (w : Fin cfg4.W) :
    W8 m ρ c (Proc.devRef .tc (Pipeline.arrRef spec4 w)) = (dat4 (Vw7 m ρ) (fun _ => fullShare) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
theorem hF4 (c : Dev nD) (w : Fin cfg4.W) : (dat4 (Vw7 m ρ) (fun _ => fullShare) c).arrAt w cfg4.N = (fun c b => W8 m ρ c b : (c : Dev nD) → (b : Ref sig .tc) → Buf (Elt F) ((c : Thread nD τ).loc b)) c (Pipeline.arrRef spec4 w) :=
  (W8_arr m ρ c w).symm
theorem hrest4 (c : Dev nD) : ∀ b, b ∉ Finset.univ.image (Pipeline.arrRef spec4) → (fun c b => W8 m ρ c b : (c : Dev nD) → (b : Ref sig .tc) → Buf (Elt F) ((c : Thread nD τ).loc b)) c b = Vw7 m ρ c b :=
  fun b hb => W8_of_ne m ρ c b fun w e => hb (Finset.mem_image.mpr ⟨w, Finset.mem_univ _, e⟩)
/-- The contents region 5 is entered from, read at the TensorCore's references. -/
abbrev Vw8 : (c : Dev nD) → (b : Ref sig .tc) → Buf (Elt F) ((c : Thread nD τ).loc b) := fun c b => W8 m ρ c b
/-- At region 5's exit: its arrays at what the pipeline leaves, every other buffer as entered. -/
def W9 (c : Dev nD) : Valuation τ sig (Elt F) :=
  Pipeline.withArrays spec5 c (W8 m ρ c) fun w => (dat5 (Vw8 m ρ) c).arrAt w cfg5.N
theorem W9_arr (c : Dev nD) (w : Fin cfg5.W) :
    W9 m ρ c (Proc.devRef .tc (Pipeline.arrRef spec5 w)) = (dat5 (Vw8 m ρ) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
theorem hF5 (c : Dev nD) (w : Fin cfg5.W) : (dat5 (Vw8 m ρ) c).arrAt w cfg5.N = (fun c b => W9 m ρ c b : (c : Dev nD) → (b : Ref sig .tc) → Buf (Elt F) ((c : Thread nD τ).loc b)) c (Pipeline.arrRef spec5 w) :=
  (W9_arr m ρ c w).symm
theorem hrest5 (c : Dev nD) : ∀ b, b ∉ Finset.univ.image (Pipeline.arrRef spec5) → (fun c b => W9 m ρ c b : (c : Dev nD) → (b : Ref sig .tc) → Buf (Elt F) ((c : Thread nD τ).loc b)) c b = Vw8 m ρ c b :=
  fun b hb => W9_of_ne m ρ c b fun w e => hb (Finset.mem_image.mpr ⟨w, Finset.mem_univ _, e⟩)
/-- After the host stretch `hostOps6`. -/
abbrev W10 : Dev nD → Valuation τ sig (Elt F) := fun c => StableHlo.after hostOps6 (W9 m ρ c)
/-- The contents region 6 is entered from, read at the TensorCore's references. -/
abbrev Vw10 : (c : Dev nD) → (b : Ref sig .tc) → Buf (Elt F) ((c : Thread nD τ).loc b) := fun c b => W10 m ρ c b
/-- At region 6's exit: its arrays at what the pipeline leaves, every other buffer as entered. -/
def W11 (c : Dev nD) : Valuation τ sig (Elt F) :=
  Pipeline.withArrays spec6 c (W10 m ρ c) fun w => (dat6 (Vw10 m ρ) (fun _ => fullShare) c).arrAt w cfg6.N
theorem W11_arr (c : Dev nD) (w : Fin cfg6.W) :
    W11 m ρ c (Proc.devRef .tc (Pipeline.arrRef spec6 w)) = (dat6 (Vw10 m ρ) (fun _ => fullShare) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb
theorem hF6 (c : Dev nD) (w : Fin cfg6.W) : (dat6 (Vw10 m ρ) (fun _ => fullShare) c).arrAt w cfg6.N = (fun c b => W11 m ρ c b : (c : Dev nD) → (b : Ref sig .tc) → Buf (Elt F) ((c : Thread nD τ).loc b)) c (Pipeline.arrRef spec6 w) :=
  (W11_arr m ρ c w).symm
theorem hrest6 (c : Dev nD) : ∀ b, b ∉ Finset.univ.image (Pipeline.arrRef spec6) → (fun c b => W11 m ρ c b : (c : Dev nD) → (b : Ref sig .tc) → Buf (Elt F) ((c : Thread nD τ).loc b)) c b = Vw10 m ρ c b :=
  fun b hb => W11_of_ne m ρ c b fun w e => hb (Finset.mem_image.mpr ⟨w, Finset.mem_univ _, e⟩)
/-- The contents region 7 is entered from, read at the TensorCore's references. -/
abbrev Vw11 : (c : Dev nD) → (b : Ref sig .tc) → Buf (Elt F) ((c : Thread nD τ).loc b) := fun c b => W11 m ρ c b
/-- At region 7's exit: its arrays at what the pipeline leaves, every other buffer as entered. -/
def W12 (c : Dev nD) : Valuation τ sig (Elt F) :=
  Pipeline.withArrays spec7 c (W11 m ρ c) fun w => (dat7 (Vw11 m ρ) c).arrAt w cfg7.N
theorem W12_arr (c : Dev nD) (w : Fin cfg7.W) :
    W12 m ρ c (Proc.devRef .tc (Pipeline.arrRef spec7 w)) = (dat7 (Vw11 m ρ) c).arrAt w cfg7.N := by
  unfold W12; exact Pipeline.withArrays_arr spec7 launch7.win.arr_inj c _ _ w
theorem W12_of_ne (c : Dev nD) (b : Ref sig .tc) (hb : ∀ w, Pipeline.arrRef spec7 w ≠ b) :
    W12 m ρ c (Proc.devRef .tc b) = W11 m ρ c (Proc.devRef .tc b) := by
  unfold W12; exact Pipeline.withArrays_of_ne spec7 c _ _ b hb
theorem hF7 (c : Dev nD) (w : Fin cfg7.W) : (dat7 (Vw11 m ρ) c).arrAt w cfg7.N = (fun c b => W12 m ρ c b : (c : Dev nD) → (b : Ref sig .tc) → Buf (Elt F) ((c : Thread nD τ).loc b)) c (Pipeline.arrRef spec7 w) :=
  (W12_arr m ρ c w).symm
theorem hrest7 (c : Dev nD) : ∀ b, b ∉ Finset.univ.image (Pipeline.arrRef spec7) → (fun c b => W12 m ρ c b : (c : Dev nD) → (b : Ref sig .tc) → Buf (Elt F) ((c : Thread nD τ).loc b)) c b = Vw11 m ρ c b :=
  fun b hb => W12_of_ne m ρ c b fun w e => hb (Finset.mem_image.mpr ⟨w, Finset.mem_univ _, e⟩)
/-- After the host stretch `hostOps8`. -/
abbrev W13 : Dev nD → Valuation τ sig (Elt F) := fun c => StableHlo.after hostOps8 (W12 m ρ c)
/-- The contents region 8 is entered from, read at the TensorCore's references. -/
abbrev Vw13 : (c : Dev nD) → (b : Ref sig .tc) → Buf (Elt F) ((c : Thread nD τ).loc b) := fun c b => W13 m ρ c b
/-- At region 8's exit: its arrays at what the pipeline leaves, every other buffer as entered. -/
def W14 (c : Dev nD) : Valuation τ sig (Elt F) :=
  Pipeline.withArrays spec8 c (W13 m ρ c) fun w => (dat8 (Vw13 m ρ) (fun _ => fullShare) c).arrAt w cfg8.N
theorem W14_arr (c : Dev nD) (w : Fin cfg8.W) :
    W14 m ρ c (Proc.devRef .tc (Pipeline.arrRef spec8 w)) = (dat8 (Vw13 m ρ) (fun _ => fullShare) c).arrAt w cfg8.N := by
  unfold W14; exact Pipeline.withArrays_arr spec8 launch8.win.arr_inj c _ _ w
theorem W14_of_ne (c : Dev nD) (b : Ref sig .tc) (hb : ∀ w, Pipeline.arrRef spec8 w ≠ b) :
    W14 m ρ c (Proc.devRef .tc b) = W13 m ρ c (Proc.devRef .tc b) := by
  unfold W14; exact Pipeline.withArrays_of_ne spec8 c _ _ b hb
theorem hF8 (c : Dev nD) (w : Fin cfg8.W) : (dat8 (Vw13 m ρ) (fun _ => fullShare) c).arrAt w cfg8.N = (fun c b => W14 m ρ c b : (c : Dev nD) → (b : Ref sig .tc) → Buf (Elt F) ((c : Thread nD τ).loc b)) c (Pipeline.arrRef spec8 w) :=
  (W14_arr m ρ c w).symm
theorem hrest8 (c : Dev nD) : ∀ b, b ∉ Finset.univ.image (Pipeline.arrRef spec8) → (fun c b => W14 m ρ c b : (c : Dev nD) → (b : Ref sig .tc) → Buf (Elt F) ((c : Thread nD τ).loc b)) c b = Vw13 m ρ c b :=
  fun b hb => W14_of_ne m ρ c b fun w e => hb (Finset.mem_image.mpr ⟨w, Finset.mem_univ _, e⟩)
/-- The contents region 9 is entered from, read at the TensorCore's references. -/
abbrev Vw14 : (c : Dev nD) → (b : Ref sig .tc) → Buf (Elt F) ((c : Thread nD τ).loc b) := fun c b => W14 m ρ c b
/-- At region 9's exit: its arrays at what the pipeline leaves, every other buffer as entered. -/
def W15 (c : Dev nD) : Valuation τ sig (Elt F) :=
  Pipeline.withArrays spec9 c (W14 m ρ c) fun w => (dat9 (Vw14 m ρ) c).arrAt w cfg9.N
theorem W15_arr (c : Dev nD) (w : Fin cfg9.W) :
    W15 m ρ c (Proc.devRef .tc (Pipeline.arrRef spec9 w)) = (dat9 (Vw14 m ρ) c).arrAt w cfg9.N := by
  unfold W15; exact Pipeline.withArrays_arr spec9 launch9.win.arr_inj c _ _ w
theorem W15_of_ne (c : Dev nD) (b : Ref sig .tc) (hb : ∀ w, Pipeline.arrRef spec9 w ≠ b) :
    W15 m ρ c (Proc.devRef .tc b) = W14 m ρ c (Proc.devRef .tc b) := by
  unfold W15; exact Pipeline.withArrays_of_ne spec9 c _ _ b hb
theorem hF9 (c : Dev nD) (w : Fin cfg9.W) : (dat9 (Vw14 m ρ) c).arrAt w cfg9.N = (fun c b => W15 m ρ c b : (c : Dev nD) → (b : Ref sig .tc) → Buf (Elt F) ((c : Thread nD τ).loc b)) c (Pipeline.arrRef spec9 w) :=
  (W15_arr m ρ c w).symm
theorem hrest9 (c : Dev nD) : ∀ b, b ∉ Finset.univ.image (Pipeline.arrRef spec9) → (fun c b => W15 m ρ c b : (c : Dev nD) → (b : Ref sig .tc) → Buf (Elt F) ((c : Thread nD τ).loc b)) c b = Vw14 m ρ c b :=
  fun b hb => W15_of_ne m ρ c b fun w e => hb (Finset.mem_image.mpr ⟨w, Finset.mem_univ _, e⟩)
/-- After the host stretch `hostOps10`. -/
abbrev W16 : Dev nD → Valuation τ sig (Elt F) := fun c => StableHlo.after hostOps10 (W15 m ρ c)
/-- The contents region 10 is entered from, read at the TensorCore's references. -/
abbrev Vw16 : (c : Dev nD) → (b : Ref sig .tc) → Buf (Elt F) ((c : Thread nD τ).loc b) := fun c b => W16 m ρ c b
/-- At region 10's exit: its arrays at what the pipeline leaves, every other buffer as entered. -/
def W17 (c : Dev nD) : Valuation τ sig (Elt F) :=
  Pipeline.withArrays spec10 c (W16 m ρ c) fun w => (dat10 (Vw16 m ρ) (fun _ => fullShare) c).arrAt w cfg10.N
theorem W17_arr (c : Dev nD) (w : Fin cfg10.W) :
    W17 m ρ c (Proc.devRef .tc (Pipeline.arrRef spec10 w)) = (dat10 (Vw16 m ρ) (fun _ => fullShare) c).arrAt w cfg10.N := by
  unfold W17; exact Pipeline.withArrays_arr spec10 launch10.win.arr_inj c _ _ w
theorem W17_of_ne (c : Dev nD) (b : Ref sig .tc) (hb : ∀ w, Pipeline.arrRef spec10 w ≠ b) :
    W17 m ρ c (Proc.devRef .tc b) = W16 m ρ c (Proc.devRef .tc b) := by
  unfold W17; exact Pipeline.withArrays_of_ne spec10 c _ _ b hb
theorem hF10 (c : Dev nD) (w : Fin cfg10.W) : (dat10 (Vw16 m ρ) (fun _ => fullShare) c).arrAt w cfg10.N = (fun c b => W17 m ρ c b : (c : Dev nD) → (b : Ref sig .tc) → Buf (Elt F) ((c : Thread nD τ).loc b)) c (Pipeline.arrRef spec10 w) :=
  (W17_arr m ρ c w).symm
theorem hrest10 (c : Dev nD) : ∀ b, b ∉ Finset.univ.image (Pipeline.arrRef spec10) → (fun c b => W17 m ρ c b : (c : Dev nD) → (b : Ref sig .tc) → Buf (Elt F) ((c : Thread nD τ).loc b)) c b = Vw16 m ρ c b :=
  fun b hb => W17_of_ne m ρ c b fun w e => hb (Finset.mem_image.mpr ⟨w, Finset.mem_univ _, e⟩)
/-- After the host stretch `hostOps11`. -/
abbrev W18 : Dev nD → Valuation τ sig (Elt F) := fun c => StableHlo.after hostOps11 (W17 m ρ c)
/-- The contents region 11 is entered from, read at the TensorCore's references. -/
abbrev Vw18 : (c : Dev nD) → (b : Ref sig .tc) → Buf (Elt F) ((c : Thread nD τ).loc b) := fun c b => W18 m ρ c b
/-- At region 11's exit: its arrays at what the pipeline leaves, every other buffer as entered. -/
def W19 (c : Dev nD) : Valuation τ sig (Elt F) :=
  Pipeline.withArrays spec11 c (W18 m ρ c) fun w => (dat11 (Vw18 m ρ) c).arrAt w cfg11.N
theorem W19_arr (c : Dev nD) (w : Fin cfg11.W) :
    W19 m ρ c (Proc.devRef .tc (Pipeline.arrRef spec11 w)) = (dat11 (Vw18 m ρ) c).arrAt w cfg11.N := by
  unfold W19; exact Pipeline.withArrays_arr spec11 launch11.win.arr_inj c _ _ w
theorem W19_of_ne (c : Dev nD) (b : Ref sig .tc) (hb : ∀ w, Pipeline.arrRef spec11 w ≠ b) :
    W19 m ρ c (Proc.devRef .tc b) = W18 m ρ c (Proc.devRef .tc b) := by
  unfold W19; exact Pipeline.withArrays_of_ne spec11 c _ _ b hb
theorem hF11 (c : Dev nD) (w : Fin cfg11.W) : (dat11 (Vw18 m ρ) c).arrAt w cfg11.N = (fun c b => W19 m ρ c b : (c : Dev nD) → (b : Ref sig .tc) → Buf (Elt F) ((c : Thread nD τ).loc b)) c (Pipeline.arrRef spec11 w) :=
  (W19_arr m ρ c w).symm
theorem hrest11 (c : Dev nD) : ∀ b, b ∉ Finset.univ.image (Pipeline.arrRef spec11) → (fun c b => W19 m ρ c b : (c : Dev nD) → (b : Ref sig .tc) → Buf (Elt F) ((c : Thread nD τ).loc b)) c b = Vw18 m ρ c b :=
  fun b hb => W19_of_ne m ρ c b fun w e => hb (Finset.mem_image.mpr ⟨w, Finset.mem_univ _, e⟩)
/-- After the host stretch `hostOps12`. -/
abbrev W20 : Dev nD → Valuation τ sig (Elt F) := fun c => StableHlo.after hostOps12 (W19 m ρ c)

/-- Every pipeline's proof data, each at its region's entry contents. -/
def pdats : (p : Fin 12) → (c : Dev nD) → Dat τ (Elt F) Unit ℕ (UR sig nD τ) ℕ (Pipeline.pin (pcfgs (F := F)) adm p) c
  | ⟨0, _⟩ => fun c => dat0 (Vw1 m ρ) c
  | ⟨1, _⟩ => fun c => dat1 (Vw2 m ρ) c
  | ⟨2, _⟩ => fun c => dat2 (Vw4 m ρ) q2 c
  | ⟨3, _⟩ => fun c => dat3 (Vw5 m ρ) c
  | ⟨4, _⟩ => fun c => dat4 (Vw7 m ρ) (fun _ => fullShare) c
  | ⟨5, _⟩ => fun c => dat5 (Vw8 m ρ) c
  | ⟨6, _⟩ => fun c => dat6 (Vw10 m ρ) (fun _ => fullShare) c
  | ⟨7, _⟩ => fun c => dat7 (Vw11 m ρ) c
  | ⟨8, _⟩ => fun c => dat8 (Vw13 m ρ) (fun _ => fullShare) c
  | ⟨9, _⟩ => fun c => dat9 (Vw14 m ρ) c
  | ⟨10, _⟩ => fun c => dat10 (Vw16 m ρ) (fun _ => fullShare) c
  | ⟨11, _⟩ => fun c => dat11 (Vw18 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Fr

end
-- ==== Proof.K.Seg0.lean ====
/-
  Region 0 as a segment of the main program: entered with every unscoped buffer at the contents before it, left with
  them at the contents after it; its arrays are split out of the buffers at entry and put back at exit.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import proofs.«131582_j65292092834213_2_alg».proof.Proof.K.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vw1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vw1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vw1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vw1 m ρ c) ((fun c b => W2 m ρ c b : (c : Dev nD) → (b : Ref sig .tc) → Buf (Elt F) ((c : Thread nD τ).loc b)) c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg1.lean ====
/-
  Region 1 as a segment of the main program: entered with every unscoped buffer at the contents before it, left with
  them at the contents after it; its arrays are split out of the buffers at entry and put back at exit.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import proofs.«131582_j65292092834213_2_alg».proof.Proof.K.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vw2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vw2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vw2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vw2 m ρ c) ((fun c b => W3 m ρ c b : (c : Dev nD) → (b : Ref sig .tc) → Buf (Elt F) ((c : Thread nD τ).loc b)) c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Share2a.lean ====
/-
  Region 2 reads one array through two input windows (the first layer's two node-state operands are the same array).
  The nine distinct buffers behind its ten windows, each held whole at the full share, are the region's arrays with the
  shared buffer split into two halves of the full share, one per window; and back, when both halves hold the same contents.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import proofs.«131582_j65292092834213_2_alg».proof.Proof.K.Q2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Windows 0 and 1 name one array. -/
theorem arr01 : Pipeline.arrRef spec2 (0 : Fin 10) = Pipeline.arrRef spec2 (1 : Fin 10) := by decide

/-- The distinct arrays of region 2's windows: window 0's (also window 1's) and those of windows 2 to 9. -/
theorem image_arr2 : Finset.univ.image (Pipeline.arrRef spec2)
    = ({Pipeline.arrRef spec2 (0 : Fin 10), Pipeline.arrRef spec2 (2 : Fin 10), Pipeline.arrRef spec2 (3 : Fin 10), Pipeline.arrRef spec2 (4 : Fin 10), Pipeline.arrRef spec2 (5 : Fin 10), Pipeline.arrRef spec2 (6 : Fin 10), Pipeline.arrRef spec2 (7 : Fin 10), Pipeline.arrRef spec2 (8 : Fin 10), Pipeline.arrRef spec2 (9 : Fin 10)} : Finset (Ref sig .tc)) := by decide

/-- The nine buffers conjoined one by one. -/
theorem bigSep_arr2 {M : Type} [URA M] (Φ : Ref sig .tc → sProp M) :
    bigSep ({Pipeline.arrRef spec2 (0 : Fin 10), Pipeline.arrRef spec2 (2 : Fin 10), Pipeline.arrRef spec2 (3 : Fin 10), Pipeline.arrRef spec2 (4 : Fin 10), Pipeline.arrRef spec2 (5 : Fin 10), Pipeline.arrRef spec2 (6 : Fin 10), Pipeline.arrRef spec2 (7 : Fin 10), Pipeline.arrRef spec2 (8 : Fin 10), Pipeline.arrRef spec2 (9 : Fin 10)} : Finset (Ref sig .tc)) Φ
      = iprop(Φ (Pipeline.arrRef spec2 (0 : Fin 10)) ∗ Φ (Pipeline.arrRef spec2 (2 : Fin 10)) ∗ Φ (Pipeline.arrRef spec2 (3 : Fin 10)) ∗ Φ (Pipeline.arrRef spec2 (4 : Fin 10)) ∗ Φ (Pipeline.arrRef spec2 (5 : Fin 10)) ∗ Φ (Pipeline.arrRef spec2 (6 : Fin 10)) ∗ Φ (Pipeline.arrRef spec2 (7 : Fin 10)) ∗ Φ (Pipeline.arrRef spec2 (8 : Fin 10)) ∗ Φ (Pipeline.arrRef spec2 (9 : Fin 10))) := by
  rw [bigSep_insert (by decide), bigSep_insert (by decide), bigSep_insert (by decide), bigSep_insert (by decide),
    bigSep_insert (by decide), bigSep_insert (by decide), bigSep_insert (by decide), bigSep_insert (by decide), bigSep_singleton]
  rfl

end Cert.Kernel.Fr

end
-- ==== Proof.K.Share2.lean ====
/-
  Region 2's arrays from the buffers behind them and back: the buffer two windows share is split into two halves of the
  full share at entry and joined at exit; every other window's array is its buffer whole.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import proofs.«131582_j65292092834213_2_alg».proof.Proof.K.Share2a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (dat : Dat τ (Elt F) Unit ℕ (UR sig nD τ) ℕ cfg2 c)

/-- A window's array at contents `G`, as the points-to of its buffer. -/
theorem arr_pt2 (w : Fin cfg2.W) (G : Buf (Elt F) ((cfg2.win w).arr.view.loc (c.tc : Thread nD τ))) (q : PosShare TreeShare) :
    (((cfg2.win w).arr.view.loc (c.tc : Thread nD τ)) ↦[(cfg2.win w).arr.view.set]{q} G : sProp 𝕄)
      = (((c.tc : Thread nD τ).loc (Pipeline.arrRef spec2 w)) ↦{q} G : sProp 𝕄) := by
  rw [(arr_whole2 w).set_eq_univ]

/-- One window's array, at a valuation's contents and at the share `q2` names, is the points-to of its buffer there. -/
theorem win_pt2 (hshare : ∀ w, dat.share w = q2 w) (V : (b : Ref sig .tc) → Buf (Elt F) ((c.tc : Thread nD τ).loc b))
    (G : (w : Fin cfg2.W) → Buf (Elt F) ((cfg2.win w).arr.view.loc (c.tc : Thread nD τ))) (hG : ∀ w, G w = V (Pipeline.arrRef spec2 w))
    (w : Fin cfg2.W) :
    (((cfg2.win w).arr.view.loc (c.tc : Thread nD τ)) ↦[(cfg2.win w).arr.view.set]{dat.share w} G w : sProp 𝕄)
      = (((c.tc : Thread nD τ).loc (Pipeline.arrRef spec2 w)) ↦{q2 w} V (Pipeline.arrRef spec2 w) : sProp 𝕄) := by
  rw [arr_pt2, hshare, hG]

/-- The second half of the shared buffer, named through window 0 or through window 1. -/
theorem half01 (V : (b : Ref sig .tc) → Buf (Elt F) ((c.tc : Thread nD τ).loc b)) :
    (((c.tc : Thread nD τ).loc (Pipeline.arrRef spec2 (0 : Fin 10))) ↦{fullShare.right} V (Pipeline.arrRef spec2 (0 : Fin 10)) : sProp 𝕄)
      = (((c.tc : Thread nD τ).loc (Pipeline.arrRef spec2 (1 : Fin 10))) ↦{fullShare.right} V (Pipeline.arrRef spec2 (1 : Fin 10)) : sProp 𝕄) :=
  congrArg (fun b => (((c.tc : Thread nD τ).loc b) ↦{fullShare.right} V b : sProp 𝕄)) arr01

/-- The region's arrays, window by window, as points-tos of the buffers at the shares `q2` names. -/
theorem arrays_eq2 (hshare : ∀ w, dat.share w = q2 w) (V : (b : Ref sig .tc) → Buf (Elt F) ((c.tc : Thread nD τ).loc b))
    (G : (w : Fin cfg2.W) → Buf (Elt F) ((cfg2.win w).arr.view.loc (c.tc : Thread nD τ))) (hG : ∀ w, G w = V (Pipeline.arrRef spec2 w)) :
    dat.arrays G = iprop((((c.tc : Thread nD τ).loc (Pipeline.arrRef spec2 (0 : Fin 10))) ↦{q2 (0 : Fin 10)} V (Pipeline.arrRef spec2 (0 : Fin 10)) : sProp 𝕄)
      ∗ (((c.tc : Thread nD τ).loc (Pipeline.arrRef spec2 (1 : Fin 10))) ↦{q2 (1 : Fin 10)} V (Pipeline.arrRef spec2 (1 : Fin 10)) : sProp 𝕄)
      ∗ (((c.tc : Thread nD τ).loc (Pipeline.arrRef spec2 (2 : Fin 10))) ↦{q2 (2 : Fin 10)} V (Pipeline.arrRef spec2 (2 : Fin 10)) : sProp 𝕄)
      ∗ (((c.tc : Thread nD τ).loc (Pipeline.arrRef spec2 (3 : Fin 10))) ↦{q2 (3 : Fin 10)} V (Pipeline.arrRef spec2 (3 : Fin 10)) : sProp 𝕄)
      ∗ (((c.tc : Thread nD τ).loc (Pipeline.arrRef spec2 (4 : Fin 10))) ↦{q2 (4 : Fin 10)} V (Pipeline.arrRef spec2 (4 : Fin 10)) : sProp 𝕄)
      ∗ (((c.tc : Thread nD τ).loc (Pipeline.arrRef spec2 (5 : Fin 10))) ↦{q2 (5 : Fin 10)} V (Pipeline.arrRef spec2 (5 : Fin 10)) : sProp 𝕄)
      ∗ (((c.tc : Thread nD τ).loc (Pipeline.arrRef spec2 (6 : Fin 10))) ↦{q2 (6 : Fin 10)} V (Pipeline.arrRef spec2 (6 : Fin 10)) : sProp 𝕄)
      ∗ (((c.tc : Thread nD τ).loc (Pipeline.arrRef spec2 (7 : Fin 10))) ↦{q2 (7 : Fin 10)} V (Pipeline.arrRef spec2 (7 : Fin 10)) : sProp 𝕄)
      ∗ (((c.tc : Thread nD τ).loc (Pipeline.arrRef spec2 (8 : Fin 10))) ↦{q2 (8 : Fin 10)} V (Pipeline.arrRef spec2 (8 : Fin 10)) : sProp 𝕄)
      ∗ (((c.tc : Thread nD τ).loc (Pipeline.arrRef spec2 (9 : Fin 10))) ↦{q2 (9 : Fin 10)} V (Pipeline.arrRef spec2 (9 : Fin 10)) : sProp 𝕄)) := by
  unfold Pipeline.Dat.arrays
  rw [bigSep_W2]
  exact congr (congrArg _ (win_pt2 c dat hshare V G hG (0 : Fin 10))) (congr (congrArg _ (win_pt2 c dat hshare V G hG (1 : Fin 10))) (congr (congrArg _ (win_pt2 c dat hshare V G hG (2 : Fin 10))) (congr (congrArg _ (win_pt2 c dat hshare V G hG (3 : Fin 10))) (congr (congrArg _ (win_pt2 c dat hshare V G hG (4 : Fin 10))) (congr (congrArg _ (win_pt2 c dat hshare V G hG (5 : Fin 10))) (congr (congrArg _ (win_pt2 c dat hshare V G hG (6 : Fin 10))) (congr (congrArg _ (win_pt2 c dat hshare V G hG (7 : Fin 10))) (congr (congrArg _ (win_pt2 c dat hshare V G hG (8 : Fin 10))) (win_pt2 c dat hshare V G hG (9 : Fin 10))))))))))

/-- The buffers behind the arrays, one by one. -/
theorem arrBufs_eq2 (V : (b : Ref sig .tc) → Buf (Elt F) ((c.tc : Thread nD τ).loc b)) :
    (Pipeline.arrBufs spec2 c V : sProp 𝕄) = iprop((((c.tc : Thread nD τ).loc (Pipeline.arrRef spec2 (0 : Fin 10))) ↦{fullShare} V (Pipeline.arrRef spec2 (0 : Fin 10)) : sProp 𝕄)
      ∗ (((c.tc : Thread nD τ).loc (Pipeline.arrRef spec2 (2 : Fin 10))) ↦{fullShare} V (Pipeline.arrRef spec2 (2 : Fin 10)) : sProp 𝕄)
      ∗ (((c.tc : Thread nD τ).loc (Pipeline.arrRef spec2 (3 : Fin 10))) ↦{fullShare} V (Pipeline.arrRef spec2 (3 : Fin 10)) : sProp 𝕄)
      ∗ (((c.tc : Thread nD τ).loc (Pipeline.arrRef spec2 (4 : Fin 10))) ↦{fullShare} V (Pipeline.arrRef spec2 (4 : Fin 10)) : sProp 𝕄)
      ∗ (((c.tc : Thread nD τ).loc (Pipeline.arrRef spec2 (5 : Fin 10))) ↦{fullShare} V (Pipeline.arrRef spec2 (5 : Fin 10)) : sProp 𝕄)
      ∗ (((c.tc : Thread nD τ).loc (Pipeline.arrRef spec2 (6 : Fin 10))) ↦{fullShare} V (Pipeline.arrRef spec2 (6 : Fin 10)) : sProp 𝕄)
      ∗ (((c.tc : Thread nD τ).loc (Pipeline.arrRef spec2 (7 : Fin 10))) ↦{fullShare} V (Pipeline.arrRef spec2 (7 : Fin 10)) : sProp 𝕄)
      ∗ (((c.tc : Thread nD τ).loc (Pipeline.arrRef spec2 (8 : Fin 10))) ↦{fullShare} V (Pipeline.arrRef spec2 (8 : Fin 10)) : sProp 𝕄)
      ∗ (((c.tc : Thread nD τ).loc (Pipeline.arrRef spec2 (9 : Fin 10))) ↦{fullShare} V (Pipeline.arrRef spec2 (9 : Fin 10)) : sProp 𝕄)) := by
  unfold Pipeline.arrBufs
  rw [image_arr2, bigSep_arr2]

set_option maxHeartbeats 4000000 in
/-- ENTRY: the buffers behind the arrays, whole at the full share at `V`, are the arrays at `V`, the shared buffer split. -/
theorem arrays_of_arrBufs2 (hshare : ∀ w, dat.share w = q2 w)
    (V : (b : Ref sig .tc) → Buf (Elt F) ((c.tc : Thread nD τ).loc b))
    (G : (w : Fin cfg2.W) → Buf (Elt F) ((cfg2.win w).arr.view.loc (c.tc : Thread nD τ))) (hG : ∀ w, G w = V (Pipeline.arrRef spec2 w)) :
    (Pipeline.arrBufs spec2 c V : sProp 𝕄) ⊢ dat.arrays G := by
  rw [arrBufs_eq2, arrays_eq2 c dat hshare V G hG, q2_0, q2_1, q2_2, q2_3, q2_4, q2_5, q2_6, q2_7, q2_8, q2_9]
  iintro ⟨H0, H2, H3, H4, H5, H6, H7, H8, H9⟩
  ihave Hs := (pointsTo_share (PosShare.mem_left_op_right fullShare)).1 $$ H0
  icases Hs with ⟨Ha, Hb⟩
  isplitl [Ha]; · iexact Ha
  isplitl [Hb]; · iapply (Entails.of_eq (half01 c V)); iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
/-- EXIT: the arrays at `G`, where `G` reads a valuation `V'` at each window's array, are the buffers behind them
    whole at the full share at `V'`: the two halves of the shared buffer hold the same contents and join. -/
theorem arrBufs_of_arrays2 (hshare : ∀ w, dat.share w = q2 w)
    (V' : (b : Ref sig .tc) → Buf (Elt F) ((c.tc : Thread nD τ).loc b))
    (G : (w : Fin cfg2.W) → Buf (Elt F) ((cfg2.win w).arr.view.loc (c.tc : Thread nD τ))) (hG : ∀ w, G w = V' (Pipeline.arrRef spec2 w)) :
    dat.arrays G ⊢ (Pipeline.arrBufs spec2 c V' : sProp 𝕄) := by
  rw [arrBufs_eq2, arrays_eq2 c dat hshare V' G hG, q2_0, q2_1, q2_2, q2_3, q2_4, q2_5, q2_6, q2_7, q2_8, q2_9]
  iintro ⟨Ha, Hb, H2, H3, H4, H5, H6, H7, H8, H9⟩
  isplitl [Ha Hb]
  · iapply (pointsTo_share (PosShare.mem_left_op_right fullShare)).2
    isplitl [Ha]; · iexact Ha
    iapply (Entails.of_eq (half01 c V').symm); iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Kernel.Fr

end
-- ==== Proof.K.Seg2.lean ====
/-
  Region 2 as a segment of the main program. Its first two input windows read one array, so at entry that buffer is split
  into two halves of the full share and at exit the halves, still holding the entry contents, are joined again; the two
  output arrays are the only buffers whose contents change.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import proofs.«131582_j65292092834213_2_alg».proof.Proof.K.Wdefs
import proofs.«131582_j65292092834213_2_alg».proof.Proof.K.Share2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares of region 2's proof data are the stated ones: an output's array at the full share, an input's at its own. -/
theorem share2 (V : (c : Dev nD) → (b : Ref sig .tc) → Buf (Elt F) ((c : Thread nD τ).loc b)) (c : Dev nD) (w : Fin cfg2.W) :
    (dat2 V q2 c).share w = q2 w := by
  unfold Pipeline.Dat.share
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl

set_option maxHeartbeats 4000000 in
/-- At region 2's exit each window's array holds what the pipeline leaves: an input's its entry contents. -/
theorem hF2 (c : Dev nD) (w : Fin cfg2.W) :
    (dat2 (Vw4 m ρ) q2 c).arrAt w cfg2.N = (fun c b => W5 m ρ c b : (c : Dev nD) → (b : Ref sig .tc) → Buf (Elt F) ((c : Thread nD τ).loc b)) c (Pipeline.arrRef spec2 w) := by
  match w with
  | ⟨0, _⟩ => exact (((dat2 (Vw4 m ρ) q2 c).arrAt_in 0 rfl _).trans (A_eq2 (Vw4 m ρ) q2 c 0)).trans (W5_of_ne m ρ c main_v14 (by decide) (by decide)).symm
  | ⟨1, _⟩ => exact (((dat2 (Vw4 m ρ) q2 c).arrAt_in 1 rfl _).trans (A_eq2 (Vw4 m ρ) q2 c 1)).trans (W5_of_ne m ρ c main_v14 (by decide) (by decide)).symm
  | ⟨2, _⟩ => exact (((dat2 (Vw4 m ρ) q2 c).arrAt_in 2 rfl _).trans (A_eq2 (Vw4 m ρ) q2 c 2)).trans (W5_of_ne m ρ c main_v26 (by decide) (by decide)).symm
  | ⟨3, _⟩ => exact (((dat2 (Vw4 m ρ) q2 c).arrAt_in 3 rfl _).trans (A_eq2 (Vw4 m ρ) q2 c 3)).trans (W5_of_ne m ρ c main_v15 (by decide) (by decide)).symm
  | ⟨4, _⟩ => exact (((dat2 (Vw4 m ρ) q2 c).arrAt_in 4 rfl _).trans (A_eq2 (Vw4 m ρ) q2 c 4)).trans (W5_of_ne m ρ c main_v11 (by decide) (by decide)).symm
  | ⟨5, _⟩ => exact (((dat2 (Vw4 m ρ) q2 c).arrAt_in 5 rfl _).trans (A_eq2 (Vw4 m ρ) q2 c 5)).trans (W5_of_ne m ρ c main_arg8 (by decide) (by decide)).symm
  | ⟨6, _⟩ => exact (((dat2 (Vw4 m ρ) q2 c).arrAt_in 6 rfl _).trans (A_eq2 (Vw4 m ρ) q2 c 6)).trans (W5_of_ne m ρ c main_v27 (by decide) (by decide)).symm
  | ⟨7, _⟩ => exact (((dat2 (Vw4 m ρ) q2 c).arrAt_in 7 rfl _).trans (A_eq2 (Vw4 m ρ) q2 c 7)).trans (W5_of_ne m ρ c main_v28 (by decide) (by decide)).symm
  | ⟨8, _⟩ => exact (W5_out0 m ρ c).symm
  | ⟨9, _⟩ => exact (W5_out1 m ρ c).symm

/-- Off region 2's arrays nothing changes. -/
theorem hrest2 (c : Dev nD) (b : Ref sig .tc) (hb : b ∉ Finset.univ.image (Pipeline.arrRef spec2)) :
    (fun c b => W5 m ρ c b : (c : Dev nD) → (b : Ref sig .tc) → Buf (Elt F) ((c : Thread nD τ).loc b)) c b = Vw4 m ρ c b :=
  W5_of_ne m ρ c b (fun h => hb (h ▸ Finset.mem_image.mpr ⟨8, Finset.mem_univ _, rfl⟩))
    (fun h => hb (h ▸ Finset.mem_image.mpr ⟨9, Finset.mem_univ _, rfl⟩))

set_option backward.isDefEq.respectTransparency.types false in
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (Vw4 m ρ) q2 c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (Vw4 m ρ c)
  hentry c := by
    rw [Pipeline.ownSems0_none]
    have hsplit : (unscopedBufs c (Vw4 m ρ c) : sProp 𝕄)
        ⊢ iprop((pdats m ρ 2 c).arrays ((pdats m ρ 2 c).arrAt · 0) ∗ Pipeline.unscopedRest spec2 c (Vw4 m ρ c)) := by
      rw [Pipeline.unscopedBufs_split₀ cfgs 2 winFacts₀2.arr_unscoped c (Vw4 m ρ c)]
      exact sep_mono (arrays_of_arrBufs2 c (pdats m ρ 2 c) (share2 (Vw4 m ρ) c) (Vw4 m ρ c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest spec2 c (Vw4 m ρ c))
        ⊢ (unscopedBufs c ((fun c b => W5 m ρ c b : (c : Dev nD) → (b : Ref sig .tc) → Buf (Elt F) ((c : Thread nD τ).loc b)) c) : sProp 𝕄) := by
      rw [Pipeline.unscopedBufs_split₀ cfgs 2 winFacts₀2.arr_unscoped c ((fun c b => W5 m ρ c b : (c : Dev nD) → (b : Ref sig .tc) → Buf (Elt F) ((c : Thread nD τ).loc b)) c)]
      refine sep_mono (arrBufs_of_arrays2 c (pdats m ρ 2 c) (share2 (Vw4 m ρ) c) ((fun c b => W5 m ρ c b : (c : Dev nD) → (b : Ref sig .tc) → Buf (Elt F) ((c : Thread nD τ).loc b)) c) _ (hF2 m ρ c)) (Entails.of_eq ?_)
      unfold Pipeline.unscopedRest
      exact bigSep_congr fun b hb => by rw [hrest2 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg3.lean ====
/-
  Region 3 as a segment of the main program: entered with every unscoped buffer at the contents before it, left with
  them at the contents after it; its arrays are split out of the buffers at entry and put back at exit.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import proofs.«131582_j65292092834213_2_alg».proof.Proof.K.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vw5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (Vw5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vw5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vw5 m ρ c) ((fun c b => W6 m ρ c b : (c : Dev nD) → (b : Ref sig .tc) → Buf (Elt F) ((c : Thread nD τ).loc b)) c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg4.lean ====
/-
  Region 4 as a segment of the main program: entered with every unscoped buffer at the contents before it, left with
  them at the contents after it; its arrays are split out of the buffers at entry and put back at exit.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import proofs.«131582_j65292092834213_2_alg».proof.Proof.K.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vw7 m ρ) (fun _ => fullShare) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (Vw7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vw7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vw7 m ρ c) ((fun c b => W8 m ρ c b : (c : Dev nD) → (b : Ref sig .tc) → Buf (Elt F) ((c : Thread nD τ).loc b)) c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg5.lean ====
/-
  Region 5 as a segment of the main program: entered with every unscoped buffer at the contents before it, left with
  them at the contents after it; its arrays are split out of the buffers at entry and put back at exit.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import proofs.«131582_j65292092834213_2_alg».proof.Proof.K.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vw8 m ρ) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec5 c (Vw8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vw8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vw8 m ρ c) ((fun c b => W9 m ρ c b : (c : Dev nD) → (b : Ref sig .tc) → Buf (Elt F) ((c : Thread nD τ).loc b)) c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg6.lean ====
/-
  Region 6 as a segment of the main program: entered with every unscoped buffer at the contents before it, left with
  them at the contents after it; its arrays are split out of the buffers at entry and put back at exit.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import proofs.«131582_j65292092834213_2_alg».proof.Proof.K.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vw10 m ρ) (fun _ => fullShare) c).loose
  hwaits := Pipeline.hwaits_of_owed_zero _ _ _ _ L lv 6 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec6 c (Vw10 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vw10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vw10 m ρ c) ((fun c b => W11 m ρ c b : (c : Dev nD) → (b : Ref sig .tc) → Buf (Elt F) ((c : Thread nD τ).loc b)) c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg7.lean ====
/-
  Region 7 as a segment of the main program: entered with every unscoped buffer at the contents before it, left with
  them at the contents after it; its arrays are split out of the buffers at entry and put back at exit.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import proofs.«131582_j65292092834213_2_alg».proof.Proof.K.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vw11 m ρ) c).loose
  hwaits := Pipeline.hwaits_of_owed_zero _ _ _ _ L lv 7 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec7 c (Vw11 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (Vw11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (Vw11 m ρ c) ((fun c b => W12 m ρ c b : (c : Dev nD) → (b : Ref sig .tc) → Buf (Elt F) ((c : Thread nD τ).loc b)) c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg8.lean ====
/-
  Region 8 as a segment of the main program: entered with every unscoped buffer at the contents before it, left with
  them at the contents after it; its arrays are split out of the buffers at entry and put back at exit.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import proofs.«131582_j65292092834213_2_alg».proof.Proof.K.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vw13 m ρ) (fun _ => fullShare) c).loose
  hwaits := Pipeline.hwaits_of_owed_zero _ _ _ _ L lv 8 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec8 c (Vw13 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (Vw13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (Vw13 m ρ c) ((fun c b => W14 m ρ c b : (c : Dev nD) → (b : Ref sig .tc) → Buf (Elt F) ((c : Thread nD τ).loc b)) c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg9.lean ====
/-
  Region 9 as a segment of the main program: entered with every unscoped buffer at the contents before it, left with
  them at the contents after it; its arrays are split out of the buffers at entry and put back at exit.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import proofs.«131582_j65292092834213_2_alg».proof.Proof.K.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vw14 m ρ) c).loose
  hwaits := Pipeline.hwaits_of_owed_zero _ _ _ _ L lv 9 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec9 c (Vw14 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (Vw14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (Vw14 m ρ c) ((fun c b => W15 m ρ c b : (c : Dev nD) → (b : Ref sig .tc) → Buf (Elt F) ((c : Thread nD τ).loc b)) c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg10.lean ====
/-
  Region 10 as a segment of the main program: entered with every unscoped buffer at the contents before it, left with
  them at the contents after it; its arrays are split out of the buffers at entry and put back at exit.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import proofs.«131582_j65292092834213_2_alg».proof.Proof.K.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vw16 m ρ) (fun _ => fullShare) c).loose
  hwaits := Pipeline.hwaits_of_owed_zero _ _ _ _ L lv 10 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec10 c (Vw16 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (Vw16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (Vw16 m ρ c) ((fun c b => W17 m ρ c b : (c : Dev nD) → (b : Ref sig .tc) → Buf (Elt F) ((c : Thread nD τ).loc b)) c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg11.lean ====
/-
  Region 11 as a segment of the main program: entered with every unscoped buffer at the contents before it, left with
  them at the contents after it; its arrays are split out of the buffers at entry and put back at exit.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import proofs.«131582_j65292092834213_2_alg».proof.Proof.K.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vw18 m ρ) c).loose
  hwaits := Pipeline.hwaits_of_owed_zero _ _ _ _ L lv 11 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec11 c (Vw18 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (Vw18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (Vw18 m ρ c) ((fun c b => W19 m ρ c b : (c : Dev nD) → (b : Ref sig .tc) → Buf (Elt F) ((c : Thread nD τ).loc b)) c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Main.lean ====
/-
  The whole main program as a run of its twenty items, and what every unscoped buffer holds at the end: the last
  boundary's contents. Each argument array is walked back through the fold to its launch contents.
-/
import proofs.«131582_j65292092834213_2_alg».proof.Proof.Gen.Kernel.Launch
import proofs.«131582_j65292092834213_2_alg».proof.Proof.Gen.Kernel.Skeleton
import proofs.«131582_j65292092834213_2_alg».proof.Proof.Gen.Kernel.Points
import proofs.«131582_j65292092834213_2_alg».proof.Proof.K.Seg0
import proofs.«131582_j65292092834213_2_alg».proof.Proof.K.Seg1
import proofs.«131582_j65292092834213_2_alg».proof.Proof.K.Seg2
import proofs.«131582_j65292092834213_2_alg».proof.Proof.K.Seg3
import proofs.«131582_j65292092834213_2_alg».proof.Proof.K.Seg4
import proofs.«131582_j65292092834213_2_alg».proof.Proof.K.Seg5
import proofs.«131582_j65292092834213_2_alg».proof.Proof.K.Seg6
import proofs.«131582_j65292092834213_2_alg».proof.Proof.K.Seg7
import proofs.«131582_j65292092834213_2_alg».proof.Proof.K.Seg8
import proofs.«131582_j65292092834213_2_alg».proof.Proof.K.Seg9
import proofs.«131582_j65292092834213_2_alg».proof.Proof.K.Seg10
import proofs.«131582_j65292092834213_2_alg».proof.Proof.K.Seg11
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W20_main_arg0 (c : Dev nD) : W20 m ρ c (Proc.devRef .tc main_arg0) = m ((c : Thread nD τ).loc main_arg0) :=
  calc W20 m ρ c (Proc.devRef .tc main_arg0)
    _ = W19 m ρ c (Proc.devRef .tc main_arg0) := StableHlo.after_of_writes_sub hostOps12 _ hostOps12_writes (by decide : main_arg0 ∉ hostOps12_W)
    _ = W18 m ρ c (Proc.devRef .tc main_arg0) := W19_of_ne m ρ c main_arg0 (by decide)
    _ = W17 m ρ c (Proc.devRef .tc main_arg0) := StableHlo.after_of_writes_sub hostOps11 _ hostOps11_writes (by decide : main_arg0 ∉ hostOps11_W)
    _ = W16 m ρ c (Proc.devRef .tc main_arg0) := W17_of_ne m ρ c main_arg0 (by decide)
    _ = W15 m ρ c (Proc.devRef .tc main_arg0) := StableHlo.after_of_writes_sub hostOps10 _ hostOps10_writes (by decide : main_arg0 ∉ hostOps10_W)
    _ = W14 m ρ c (Proc.devRef .tc main_arg0) := W15_of_ne m ρ c main_arg0 (by decide)
    _ = W13 m ρ c (Proc.devRef .tc main_arg0) := W14_of_ne m ρ c main_arg0 (by decide)
    _ = W12 m ρ c (Proc.devRef .tc main_arg0) := StableHlo.after_of_writes_sub hostOps8 _ hostOps8_writes (by decide : main_arg0 ∉ hostOps8_W)
    _ = W11 m ρ c (Proc.devRef .tc main_arg0) := W12_of_ne m ρ c main_arg0 (by decide)
    _ = W10 m ρ c (Proc.devRef .tc main_arg0) := W11_of_ne m ρ c main_arg0 (by decide)
    _ = W9 m ρ c (Proc.devRef .tc main_arg0) := StableHlo.after_of_writes_sub hostOps6 _ hostOps6_writes (by decide : main_arg0 ∉ hostOps6_W)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := StableHlo.after_of_writes_sub hostOps4 _ hostOps4_writes (by decide : main_arg0 ∉ hostOps4_W)
    _ = W5 m ρ c (Proc.devRef .tc main_arg0) := W6_of_ne m ρ c main_arg0 (by decide)
    _ = W4 m ρ c (Proc.devRef .tc main_arg0) := W5_of_ne m ρ c main_arg0 (by decide) (by decide)
    _ = W3 m ρ c (Proc.devRef .tc main_arg0) := StableHlo.after_of_writes_sub hostOps2 _ hostOps2_writes (by decide : main_arg0 ∉ hostOps2_W)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W20_main_arg1 (c : Dev nD) : W20 m ρ c (Proc.devRef .tc main_arg1) = m ((c : Thread nD τ).loc main_arg1) :=
  calc W20 m ρ c (Proc.devRef .tc main_arg1)
    _ = W19 m ρ c (Proc.devRef .tc main_arg1) := StableHlo.after_of_writes_sub hostOps12 _ hostOps12_writes (by decide : main_arg1 ∉ hostOps12_W)
    _ = W18 m ρ c (Proc.devRef .tc main_arg1) := W19_of_ne m ρ c main_arg1 (by decide)
    _ = W17 m ρ c (Proc.devRef .tc main_arg1) := StableHlo.after_of_writes_sub hostOps11 _ hostOps11_writes (by decide : main_arg1 ∉ hostOps11_W)
    _ = W16 m ρ c (Proc.devRef .tc main_arg1) := W17_of_ne m ρ c main_arg1 (by decide)
    _ = W15 m ρ c (Proc.devRef .tc main_arg1) := StableHlo.after_of_writes_sub hostOps10 _ hostOps10_writes (by decide : main_arg1 ∉ hostOps10_W)
    _ = W14 m ρ c (Proc.devRef .tc main_arg1) := W15_of_ne m ρ c main_arg1 (by decide)
    _ = W13 m ρ c (Proc.devRef .tc main_arg1) := W14_of_ne m ρ c main_arg1 (by decide)
    _ = W12 m ρ c (Proc.devRef .tc main_arg1) := StableHlo.after_of_writes_sub hostOps8 _ hostOps8_writes (by decide : main_arg1 ∉ hostOps8_W)
    _ = W11 m ρ c (Proc.devRef .tc main_arg1) := W12_of_ne m ρ c main_arg1 (by decide)
    _ = W10 m ρ c (Proc.devRef .tc main_arg1) := W11_of_ne m ρ c main_arg1 (by decide)
    _ = W9 m ρ c (Proc.devRef .tc main_arg1) := StableHlo.after_of_writes_sub hostOps6 _ hostOps6_writes (by decide : main_arg1 ∉ hostOps6_W)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := StableHlo.after_of_writes_sub hostOps4 _ hostOps4_writes (by decide : main_arg1 ∉ hostOps4_W)
    _ = W5 m ρ c (Proc.devRef .tc main_arg1) := W6_of_ne m ρ c main_arg1 (by decide)
    _ = W4 m ρ c (Proc.devRef .tc main_arg1) := W5_of_ne m ρ c main_arg1 (by decide) (by decide)
    _ = W3 m ρ c (Proc.devRef .tc main_arg1) := StableHlo.after_of_writes_sub hostOps2 _ hostOps2_writes (by decide : main_arg1 ∉ hostOps2_W)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W20_main_arg2 (c : Dev nD) : W20 m ρ c (Proc.devRef .tc main_arg2) = m ((c : Thread nD τ).loc main_arg2) :=
  calc W20 m ρ c (Proc.devRef .tc main_arg2)
    _ = W19 m ρ c (Proc.devRef .tc main_arg2) := StableHlo.after_of_writes_sub hostOps12 _ hostOps12_writes (by decide : main_arg2 ∉ hostOps12_W)
    _ = W18 m ρ c (Proc.devRef .tc main_arg2) := W19_of_ne m ρ c main_arg2 (by decide)
    _ = W17 m ρ c (Proc.devRef .tc main_arg2) := StableHlo.after_of_writes_sub hostOps11 _ hostOps11_writes (by decide : main_arg2 ∉ hostOps11_W)
    _ = W16 m ρ c (Proc.devRef .tc main_arg2) := W17_of_ne m ρ c main_arg2 (by decide)
    _ = W15 m ρ c (Proc.devRef .tc main_arg2) := StableHlo.after_of_writes_sub hostOps10 _ hostOps10_writes (by decide : main_arg2 ∉ hostOps10_W)
    _ = W14 m ρ c (Proc.devRef .tc main_arg2) := W15_of_ne m ρ c main_arg2 (by decide)
    _ = W13 m ρ c (Proc.devRef .tc main_arg2) := W14_of_ne m ρ c main_arg2 (by decide)
    _ = W12 m ρ c (Proc.devRef .tc main_arg2) := StableHlo.after_of_writes_sub hostOps8 _ hostOps8_writes (by decide : main_arg2 ∉ hostOps8_W)
    _ = W11 m ρ c (Proc.devRef .tc main_arg2) := W12_of_ne m ρ c main_arg2 (by decide)
    _ = W10 m ρ c (Proc.devRef .tc main_arg2) := W11_of_ne m ρ c main_arg2 (by decide)
    _ = W9 m ρ c (Proc.devRef .tc main_arg2) := StableHlo.after_of_writes_sub hostOps6 _ hostOps6_writes (by decide : main_arg2 ∉ hostOps6_W)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := StableHlo.after_of_writes_sub hostOps4 _ hostOps4_writes (by decide : main_arg2 ∉ hostOps4_W)
    _ = W5 m ρ c (Proc.devRef .tc main_arg2) := W6_of_ne m ρ c main_arg2 (by decide)
    _ = W4 m ρ c (Proc.devRef .tc main_arg2) := W5_of_ne m ρ c main_arg2 (by decide) (by decide)
    _ = W3 m ρ c (Proc.devRef .tc main_arg2) := StableHlo.after_of_writes_sub hostOps2 _ hostOps2_writes (by decide : main_arg2 ∉ hostOps2_W)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W20_main_arg3 (c : Dev nD) : W20 m ρ c (Proc.devRef .tc main_arg3) = m ((c : Thread nD τ).loc main_arg3) :=
  calc W20 m ρ c (Proc.devRef .tc main_arg3)
    _ = W19 m ρ c (Proc.devRef .tc main_arg3) := StableHlo.after_of_writes_sub hostOps12 _ hostOps12_writes (by decide : main_arg3 ∉ hostOps12_W)
    _ = W18 m ρ c (Proc.devRef .tc main_arg3) := W19_of_ne m ρ c main_arg3 (by decide)
    _ = W17 m ρ c (Proc.devRef .tc main_arg3) := StableHlo.after_of_writes_sub hostOps11 _ hostOps11_writes (by decide : main_arg3 ∉ hostOps11_W)
    _ = W16 m ρ c (Proc.devRef .tc main_arg3) := W17_of_ne m ρ c main_arg3 (by decide)
    _ = W15 m ρ c (Proc.devRef .tc main_arg3) := StableHlo.after_of_writes_sub hostOps10 _ hostOps10_writes (by decide : main_arg3 ∉ hostOps10_W)
    _ = W14 m ρ c (Proc.devRef .tc main_arg3) := W15_of_ne m ρ c main_arg3 (by decide)
    _ = W13 m ρ c (Proc.devRef .tc main_arg3) := W14_of_ne m ρ c main_arg3 (by decide)
    _ = W12 m ρ c (Proc.devRef .tc main_arg3) := StableHlo.after_of_writes_sub hostOps8 _ hostOps8_writes (by decide : main_arg3 ∉ hostOps8_W)
    _ = W11 m ρ c (Proc.devRef .tc main_arg3) := W12_of_ne m ρ c main_arg3 (by decide)
    _ = W10 m ρ c (Proc.devRef .tc main_arg3) := W11_of_ne m ρ c main_arg3 (by decide)
    _ = W9 m ρ c (Proc.devRef .tc main_arg3) := StableHlo.after_of_writes_sub hostOps6 _ hostOps6_writes (by decide : main_arg3 ∉ hostOps6_W)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := StableHlo.after_of_writes_sub hostOps4 _ hostOps4_writes (by decide : main_arg3 ∉ hostOps4_W)
    _ = W5 m ρ c (Proc.devRef .tc main_arg3) := W6_of_ne m ρ c main_arg3 (by decide)
    _ = W4 m ρ c (Proc.devRef .tc main_arg3) := W5_of_ne m ρ c main_arg3 (by decide) (by decide)
    _ = W3 m ρ c (Proc.devRef .tc main_arg3) := StableHlo.after_of_writes_sub hostOps2 _ hostOps2_writes (by decide : main_arg3 ∉ hostOps2_W)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W20_main_arg4 (c : Dev nD) : W20 m ρ c (Proc.devRef .tc main_arg4) = m ((c : Thread nD τ).loc main_arg4) :=
  calc W20 m ρ c (Proc.devRef .tc main_arg4)
    _ = W19 m ρ c (Proc.devRef .tc main_arg4) := StableHlo.after_of_writes_sub hostOps12 _ hostOps12_writes (by decide : main_arg4 ∉ hostOps12_W)
    _ = W18 m ρ c (Proc.devRef .tc main_arg4) := W19_of_ne m ρ c main_arg4 (by decide)
    _ = W17 m ρ c (Proc.devRef .tc main_arg4) := StableHlo.after_of_writes_sub hostOps11 _ hostOps11_writes (by decide : main_arg4 ∉ hostOps11_W)
    _ = W16 m ρ c (Proc.devRef .tc main_arg4) := W17_of_ne m ρ c main_arg4 (by decide)
    _ = W15 m ρ c (Proc.devRef .tc main_arg4) := StableHlo.after_of_writes_sub hostOps10 _ hostOps10_writes (by decide : main_arg4 ∉ hostOps10_W)
    _ = W14 m ρ c (Proc.devRef .tc main_arg4) := W15_of_ne m ρ c main_arg4 (by decide)
    _ = W13 m ρ c (Proc.devRef .tc main_arg4) := W14_of_ne m ρ c main_arg4 (by decide)
    _ = W12 m ρ c (Proc.devRef .tc main_arg4) := StableHlo.after_of_writes_sub hostOps8 _ hostOps8_writes (by decide : main_arg4 ∉ hostOps8_W)
    _ = W11 m ρ c (Proc.devRef .tc main_arg4) := W12_of_ne m ρ c main_arg4 (by decide)
    _ = W10 m ρ c (Proc.devRef .tc main_arg4) := W11_of_ne m ρ c main_arg4 (by decide)
    _ = W9 m ρ c (Proc.devRef .tc main_arg4) := StableHlo.after_of_writes_sub hostOps6 _ hostOps6_writes (by decide : main_arg4 ∉ hostOps6_W)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := StableHlo.after_of_writes_sub hostOps4 _ hostOps4_writes (by decide : main_arg4 ∉ hostOps4_W)
    _ = W5 m ρ c (Proc.devRef .tc main_arg4) := W6_of_ne m ρ c main_arg4 (by decide)
    _ = W4 m ρ c (Proc.devRef .tc main_arg4) := W5_of_ne m ρ c main_arg4 (by decide) (by decide)
    _ = W3 m ρ c (Proc.devRef .tc main_arg4) := StableHlo.after_of_writes_sub hostOps2 _ hostOps2_writes (by decide : main_arg4 ∉ hostOps2_W)
    _ = W2 m ρ c (Proc.devRef .tc main_arg4) := W3_of_ne m ρ c main_arg4 (by decide)
    _ = W1 m ρ c (Proc.devRef .tc main_arg4) := (W2_arr m ρ c 1).trans (((dat0 (Vw1 m ρ) c).arrAt_in 1 rfl _).trans (A_eq0 (Vw1 m ρ) c 1))
    _ = W0 m ρ c (Proc.devRef .tc main_arg4) := StableHlo.after_of_writes_sub hostOps0 _ hostOps0_writes (by decide : main_arg4 ∉ hostOps0_W)
    _ = m ((c : Thread nD τ).loc main_arg4) := rfl

theorem W20_main_arg5 (c : Dev nD) : W20 m ρ c (Proc.devRef .tc main_arg5) = m ((c : Thread nD τ).loc main_arg5) :=
  calc W20 m ρ c (Proc.devRef .tc main_arg5)
    _ = W19 m ρ c (Proc.devRef .tc main_arg5) := StableHlo.after_of_writes_sub hostOps12 _ hostOps12_writes (by decide : main_arg5 ∉ hostOps12_W)
    _ = W18 m ρ c (Proc.devRef .tc main_arg5) := W19_of_ne m ρ c main_arg5 (by decide)
    _ = W17 m ρ c (Proc.devRef .tc main_arg5) := StableHlo.after_of_writes_sub hostOps11 _ hostOps11_writes (by decide : main_arg5 ∉ hostOps11_W)
    _ = W16 m ρ c (Proc.devRef .tc main_arg5) := W17_of_ne m ρ c main_arg5 (by decide)
    _ = W15 m ρ c (Proc.devRef .tc main_arg5) := StableHlo.after_of_writes_sub hostOps10 _ hostOps10_writes (by decide : main_arg5 ∉ hostOps10_W)
    _ = W14 m ρ c (Proc.devRef .tc main_arg5) := W15_of_ne m ρ c main_arg5 (by decide)
    _ = W13 m ρ c (Proc.devRef .tc main_arg5) := W14_of_ne m ρ c main_arg5 (by decide)
    _ = W12 m ρ c (Proc.devRef .tc main_arg5) := StableHlo.after_of_writes_sub hostOps8 _ hostOps8_writes (by decide : main_arg5 ∉ hostOps8_W)
    _ = W11 m ρ c (Proc.devRef .tc main_arg5) := W12_of_ne m ρ c main_arg5 (by decide)
    _ = W10 m ρ c (Proc.devRef .tc main_arg5) := W11_of_ne m ρ c main_arg5 (by decide)
    _ = W9 m ρ c (Proc.devRef .tc main_arg5) := StableHlo.after_of_writes_sub hostOps6 _ hostOps6_writes (by decide : main_arg5 ∉ hostOps6_W)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := StableHlo.after_of_writes_sub hostOps4 _ hostOps4_writes (by decide : main_arg5 ∉ hostOps4_W)
    _ = W5 m ρ c (Proc.devRef .tc main_arg5) := W6_of_ne m ρ c main_arg5 (by decide)
    _ = W4 m ρ c (Proc.devRef .tc main_arg5) := W5_of_ne m ρ c main_arg5 (by decide) (by decide)
    _ = W3 m ρ c (Proc.devRef .tc main_arg5) := StableHlo.after_of_writes_sub hostOps2 _ hostOps2_writes (by decide : main_arg5 ∉ hostOps2_W)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W20_main_arg6 (c : Dev nD) : W20 m ρ c (Proc.devRef .tc main_arg6) = m ((c : Thread nD τ).loc main_arg6) :=
  calc W20 m ρ c (Proc.devRef .tc main_arg6)
    _ = W19 m ρ c (Proc.devRef .tc main_arg6) := StableHlo.after_of_writes_sub hostOps12 _ hostOps12_writes (by decide : main_arg6 ∉ hostOps12_W)
    _ = W18 m ρ c (Proc.devRef .tc main_arg6) := W19_of_ne m ρ c main_arg6 (by decide)
    _ = W17 m ρ c (Proc.devRef .tc main_arg6) := StableHlo.after_of_writes_sub hostOps11 _ hostOps11_writes (by decide : main_arg6 ∉ hostOps11_W)
    _ = W16 m ρ c (Proc.devRef .tc main_arg6) := W17_of_ne m ρ c main_arg6 (by decide)
    _ = W15 m ρ c (Proc.devRef .tc main_arg6) := StableHlo.after_of_writes_sub hostOps10 _ hostOps10_writes (by decide : main_arg6 ∉ hostOps10_W)
    _ = W14 m ρ c (Proc.devRef .tc main_arg6) := (W15_arr m ρ c 1).trans (((dat9 (Vw14 m ρ) c).arrAt_in 1 rfl _).trans (A_eq9 (Vw14 m ρ) c 1))
    _ = W13 m ρ c (Proc.devRef .tc main_arg6) := W14_of_ne m ρ c main_arg6 (by decide)
    _ = W12 m ρ c (Proc.devRef .tc main_arg6) := StableHlo.after_of_writes_sub hostOps8 _ hostOps8_writes (by decide : main_arg6 ∉ hostOps8_W)
    _ = W11 m ρ c (Proc.devRef .tc main_arg6) := (W12_arr m ρ c 1).trans (((dat7 (Vw11 m ρ) c).arrAt_in 1 rfl _).trans (A_eq7 (Vw11 m ρ) c 1))
    _ = W10 m ρ c (Proc.devRef .tc main_arg6) := W11_of_ne m ρ c main_arg6 (by decide)
    _ = W9 m ρ c (Proc.devRef .tc main_arg6) := StableHlo.after_of_writes_sub hostOps6 _ hostOps6_writes (by decide : main_arg6 ∉ hostOps6_W)
    _ = W8 m ρ c (Proc.devRef .tc main_arg6) := (W9_arr m ρ c 1).trans (((dat5 (Vw8 m ρ) c).arrAt_in 1 rfl _).trans (A_eq5 (Vw8 m ρ) c 1))
    _ = W7 m ρ c (Proc.devRef .tc main_arg6) := W8_of_ne m ρ c main_arg6 (by decide)
    _ = W6 m ρ c (Proc.devRef .tc main_arg6) := StableHlo.after_of_writes_sub hostOps4 _ hostOps4_writes (by decide : main_arg6 ∉ hostOps4_W)
    _ = W5 m ρ c (Proc.devRef .tc main_arg6) := (W6_arr m ρ c 1).trans (((dat3 (Vw5 m ρ) c).arrAt_in 1 rfl _).trans (A_eq3 (Vw5 m ρ) c 1))
    _ = W4 m ρ c (Proc.devRef .tc main_arg6) := W5_of_ne m ρ c main_arg6 (by decide) (by decide)
    _ = W3 m ρ c (Proc.devRef .tc main_arg6) := StableHlo.after_of_writes_sub hostOps2 _ hostOps2_writes (by decide : main_arg6 ∉ hostOps2_W)
    _ = W2 m ρ c (Proc.devRef .tc main_arg6) := (W3_arr m ρ c 1).trans (((dat1 (Vw2 m ρ) c).arrAt_in 1 rfl _).trans (A_eq1 (Vw2 m ρ) c 1))
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W20_main_arg7 (c : Dev nD) : W20 m ρ c (Proc.devRef .tc main_arg7) = m ((c : Thread nD τ).loc main_arg7) :=
  calc W20 m ρ c (Proc.devRef .tc main_arg7)
    _ = W19 m ρ c (Proc.devRef .tc main_arg7) := StableHlo.after_of_writes_sub hostOps12 _ hostOps12_writes (by decide : main_arg7 ∉ hostOps12_W)
    _ = W18 m ρ c (Proc.devRef .tc main_arg7) := W19_of_ne m ρ c main_arg7 (by decide)
    _ = W17 m ρ c (Proc.devRef .tc main_arg7) := StableHlo.after_of_writes_sub hostOps11 _ hostOps11_writes (by decide : main_arg7 ∉ hostOps11_W)
    _ = W16 m ρ c (Proc.devRef .tc main_arg7) := W17_of_ne m ρ c main_arg7 (by decide)
    _ = W15 m ρ c (Proc.devRef .tc main_arg7) := StableHlo.after_of_writes_sub hostOps10 _ hostOps10_writes (by decide : main_arg7 ∉ hostOps10_W)
    _ = W14 m ρ c (Proc.devRef .tc main_arg7) := W15_of_ne m ρ c main_arg7 (by decide)
    _ = W13 m ρ c (Proc.devRef .tc main_arg7) := W14_of_ne m ρ c main_arg7 (by decide)
    _ = W12 m ρ c (Proc.devRef .tc main_arg7) := StableHlo.after_of_writes_sub hostOps8 _ hostOps8_writes (by decide : main_arg7 ∉ hostOps8_W)
    _ = W11 m ρ c (Proc.devRef .tc main_arg7) := W12_of_ne m ρ c main_arg7 (by decide)
    _ = W10 m ρ c (Proc.devRef .tc main_arg7) := W11_of_ne m ρ c main_arg7 (by decide)
    _ = W9 m ρ c (Proc.devRef .tc main_arg7) := StableHlo.after_of_writes_sub hostOps6 _ hostOps6_writes (by decide : main_arg7 ∉ hostOps6_W)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_writes_sub hostOps4 _ hostOps4_writes (by decide : main_arg7 ∉ hostOps4_W)
    _ = W5 m ρ c (Proc.devRef .tc main_arg7) := W6_of_ne m ρ c main_arg7 (by decide)
    _ = W4 m ρ c (Proc.devRef .tc main_arg7) := W5_of_ne m ρ c main_arg7 (by decide) (by decide)
    _ = W3 m ρ c (Proc.devRef .tc main_arg7) := StableHlo.after_of_writes_sub hostOps2 _ hostOps2_writes (by decide : main_arg7 ∉ hostOps2_W)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

theorem W20_main_arg8 (c : Dev nD) : W20 m ρ c (Proc.devRef .tc main_arg8) = m ((c : Thread nD τ).loc main_arg8) :=
  calc W20 m ρ c (Proc.devRef .tc main_arg8)
    _ = W19 m ρ c (Proc.devRef .tc main_arg8) := StableHlo.after_of_writes_sub hostOps12 _ hostOps12_writes (by decide : main_arg8 ∉ hostOps12_W)
    _ = W18 m ρ c (Proc.devRef .tc main_arg8) := W19_of_ne m ρ c main_arg8 (by decide)
    _ = W17 m ρ c (Proc.devRef .tc main_arg8) := StableHlo.after_of_writes_sub hostOps11 _ hostOps11_writes (by decide : main_arg8 ∉ hostOps11_W)
    _ = W16 m ρ c (Proc.devRef .tc main_arg8) := (W17_arr m ρ c 5).trans (((dat10 (Vw16 m ρ) (fun _ => fullShare) c).arrAt_in 5 rfl _).trans (A_eq10 (Vw16 m ρ) (fun _ => fullShare) c 5))
    _ = W15 m ρ c (Proc.devRef .tc main_arg8) := StableHlo.after_of_writes_sub hostOps10 _ hostOps10_writes (by decide : main_arg8 ∉ hostOps10_W)
    _ = W14 m ρ c (Proc.devRef .tc main_arg8) := W15_of_ne m ρ c main_arg8 (by decide)
    _ = W13 m ρ c (Proc.devRef .tc main_arg8) := (W14_arr m ρ c 5).trans (((dat8 (Vw13 m ρ) (fun _ => fullShare) c).arrAt_in 5 rfl _).trans (A_eq8 (Vw13 m ρ) (fun _ => fullShare) c 5))
    _ = W12 m ρ c (Proc.devRef .tc main_arg8) := StableHlo.after_of_writes_sub hostOps8 _ hostOps8_writes (by decide : main_arg8 ∉ hostOps8_W)
    _ = W11 m ρ c (Proc.devRef .tc main_arg8) := W12_of_ne m ρ c main_arg8 (by decide)
    _ = W10 m ρ c (Proc.devRef .tc main_arg8) := (W11_arr m ρ c 5).trans (((dat6 (Vw10 m ρ) (fun _ => fullShare) c).arrAt_in 5 rfl _).trans (A_eq6 (Vw10 m ρ) (fun _ => fullShare) c 5))
    _ = W9 m ρ c (Proc.devRef .tc main_arg8) := StableHlo.after_of_writes_sub hostOps6 _ hostOps6_writes (by decide : main_arg8 ∉ hostOps6_W)
    _ = W8 m ρ c (Proc.devRef .tc main_arg8) := W9_of_ne m ρ c main_arg8 (by decide)
    _ = W7 m ρ c (Proc.devRef .tc main_arg8) := (W8_arr m ρ c 5).trans (((dat4 (Vw7 m ρ) (fun _ => fullShare) c).arrAt_in 5 rfl _).trans (A_eq4 (Vw7 m ρ) (fun _ => fullShare) c 5))
    _ = W6 m ρ c (Proc.devRef .tc main_arg8) := StableHlo.after_of_writes_sub hostOps4 _ hostOps4_writes (by decide : main_arg8 ∉ hostOps4_W)
    _ = W5 m ρ c (Proc.devRef .tc main_arg8) := W6_of_ne m ρ c main_arg8 (by decide)
    _ = W4 m ρ c (Proc.devRef .tc main_arg8) := W5_of_ne m ρ c main_arg8 (by decide) (by decide)
    _ = W3 m ρ c (Proc.devRef .tc main_arg8) := StableHlo.after_of_writes_sub hostOps2 _ hostOps2_writes (by decide : main_arg8 ∉ hostOps2_W)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

theorem W20_main_arg9 (c : Dev nD) : W20 m ρ c (Proc.devRef .tc main_arg9) = m ((c : Thread nD τ).loc main_arg9) :=
  calc W20 m ρ c (Proc.devRef .tc main_arg9)
    _ = W19 m ρ c (Proc.devRef .tc main_arg9) := StableHlo.after_of_writes_sub hostOps12 _ hostOps12_writes (by decide : main_arg9 ∉ hostOps12_W)
    _ = W18 m ρ c (Proc.devRef .tc main_arg9) := W19_of_ne m ρ c main_arg9 (by decide)
    _ = W17 m ρ c (Proc.devRef .tc main_arg9) := StableHlo.after_of_writes_sub hostOps11 _ hostOps11_writes (by decide : main_arg9 ∉ hostOps11_W)
    _ = W16 m ρ c (Proc.devRef .tc main_arg9) := W17_of_ne m ρ c main_arg9 (by decide)
    _ = W15 m ρ c (Proc.devRef .tc main_arg9) := StableHlo.after_of_writes_sub hostOps10 _ hostOps10_writes (by decide : main_arg9 ∉ hostOps10_W)
    _ = W14 m ρ c (Proc.devRef .tc main_arg9) := W15_of_ne m ρ c main_arg9 (by decide)
    _ = W13 m ρ c (Proc.devRef .tc main_arg9) := W14_of_ne m ρ c main_arg9 (by decide)
    _ = W12 m ρ c (Proc.devRef .tc main_arg9) := StableHlo.after_of_writes_sub hostOps8 _ hostOps8_writes (by decide : main_arg9 ∉ hostOps8_W)
    _ = W11 m ρ c (Proc.devRef .tc main_arg9) := W12_of_ne m ρ c main_arg9 (by decide)
    _ = W10 m ρ c (Proc.devRef .tc main_arg9) := W11_of_ne m ρ c main_arg9 (by decide)
    _ = W9 m ρ c (Proc.devRef .tc main_arg9) := StableHlo.after_of_writes_sub hostOps6 _ hostOps6_writes (by decide : main_arg9 ∉ hostOps6_W)
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := StableHlo.after_of_writes_sub hostOps4 _ hostOps4_writes (by decide : main_arg9 ∉ hostOps4_W)
    _ = W5 m ρ c (Proc.devRef .tc main_arg9) := W6_of_ne m ρ c main_arg9 (by decide)
    _ = W4 m ρ c (Proc.devRef .tc main_arg9) := W5_of_ne m ρ c main_arg9 (by decide) (by decide)
    _ = W3 m ρ c (Proc.devRef .tc main_arg9) := StableHlo.after_of_writes_sub hostOps2 _ hostOps2_writes (by decide : main_arg9 ∉ hostOps2_W)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

theorem W20_main_arg10 (c : Dev nD) : W20 m ρ c (Proc.devRef .tc main_arg10) = m ((c : Thread nD τ).loc main_arg10) :=
  calc W20 m ρ c (Proc.devRef .tc main_arg10)
    _ = W19 m ρ c (Proc.devRef .tc main_arg10) := StableHlo.after_of_writes_sub hostOps12 _ hostOps12_writes (by decide : main_arg10 ∉ hostOps12_W)
    _ = W18 m ρ c (Proc.devRef .tc main_arg10) := (W19_arr m ρ c 1).trans (((dat11 (Vw18 m ρ) c).arrAt_in 1 rfl _).trans (A_eq11 (Vw18 m ρ) c 1))
    _ = W17 m ρ c (Proc.devRef .tc main_arg10) := StableHlo.after_of_writes_sub hostOps11 _ hostOps11_writes (by decide : main_arg10 ∉ hostOps11_W)
    _ = W16 m ρ c (Proc.devRef .tc main_arg10) := W17_of_ne m ρ c main_arg10 (by decide)
    _ = W15 m ρ c (Proc.devRef .tc main_arg10) := StableHlo.after_of_writes_sub hostOps10 _ hostOps10_writes (by decide : main_arg10 ∉ hostOps10_W)
    _ = W14 m ρ c (Proc.devRef .tc main_arg10) := W15_of_ne m ρ c main_arg10 (by decide)
    _ = W13 m ρ c (Proc.devRef .tc main_arg10) := W14_of_ne m ρ c main_arg10 (by decide)
    _ = W12 m ρ c (Proc.devRef .tc main_arg10) := StableHlo.after_of_writes_sub hostOps8 _ hostOps8_writes (by decide : main_arg10 ∉ hostOps8_W)
    _ = W11 m ρ c (Proc.devRef .tc main_arg10) := W12_of_ne m ρ c main_arg10 (by decide)
    _ = W10 m ρ c (Proc.devRef .tc main_arg10) := W11_of_ne m ρ c main_arg10 (by decide)
    _ = W9 m ρ c (Proc.devRef .tc main_arg10) := StableHlo.after_of_writes_sub hostOps6 _ hostOps6_writes (by decide : main_arg10 ∉ hostOps6_W)
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := StableHlo.after_of_writes_sub hostOps4 _ hostOps4_writes (by decide : main_arg10 ∉ hostOps4_W)
    _ = W5 m ρ c (Proc.devRef .tc main_arg10) := W6_of_ne m ρ c main_arg10 (by decide)
    _ = W4 m ρ c (Proc.devRef .tc main_arg10) := W5_of_ne m ρ c main_arg10 (by decide) (by decide)
    _ = W3 m ρ c (Proc.devRef .tc main_arg10) := StableHlo.after_of_writes_sub hostOps2 _ hostOps2_writes (by decide : main_arg10 ∉ hostOps2_W)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

theorem W20_main_arg11 (c : Dev nD) : W20 m ρ c (Proc.devRef .tc main_arg11) = m ((c : Thread nD τ).loc main_arg11) :=
  calc W20 m ρ c (Proc.devRef .tc main_arg11)
    _ = W19 m ρ c (Proc.devRef .tc main_arg11) := StableHlo.after_of_writes_sub hostOps12 _ hostOps12_writes (by decide : main_arg11 ∉ hostOps12_W)
    _ = W18 m ρ c (Proc.devRef .tc main_arg11) := W19_of_ne m ρ c main_arg11 (by decide)
    _ = W17 m ρ c (Proc.devRef .tc main_arg11) := StableHlo.after_of_writes_sub hostOps11 _ hostOps11_writes (by decide : main_arg11 ∉ hostOps11_W)
    _ = W16 m ρ c (Proc.devRef .tc main_arg11) := W17_of_ne m ρ c main_arg11 (by decide)
    _ = W15 m ρ c (Proc.devRef .tc main_arg11) := StableHlo.after_of_writes_sub hostOps10 _ hostOps10_writes (by decide : main_arg11 ∉ hostOps10_W)
    _ = W14 m ρ c (Proc.devRef .tc main_arg11) := W15_of_ne m ρ c main_arg11 (by decide)
    _ = W13 m ρ c (Proc.devRef .tc main_arg11) := W14_of_ne m ρ c main_arg11 (by decide)
    _ = W12 m ρ c (Proc.devRef .tc main_arg11) := StableHlo.after_of_writes_sub hostOps8 _ hostOps8_writes (by decide : main_arg11 ∉ hostOps8_W)
    _ = W11 m ρ c (Proc.devRef .tc main_arg11) := W12_of_ne m ρ c main_arg11 (by decide)
    _ = W10 m ρ c (Proc.devRef .tc main_arg11) := W11_of_ne m ρ c main_arg11 (by decide)
    _ = W9 m ρ c (Proc.devRef .tc main_arg11) := StableHlo.after_of_writes_sub hostOps6 _ hostOps6_writes (by decide : main_arg11 ∉ hostOps6_W)
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := StableHlo.after_of_writes_sub hostOps4 _ hostOps4_writes (by decide : main_arg11 ∉ hostOps4_W)
    _ = W5 m ρ c (Proc.devRef .tc main_arg11) := W6_of_ne m ρ c main_arg11 (by decide)
    _ = W4 m ρ c (Proc.devRef .tc main_arg11) := W5_of_ne m ρ c main_arg11 (by decide) (by decide)
    _ = W3 m ρ c (Proc.devRef .tc main_arg11) := StableHlo.after_of_writes_sub hostOps2 _ hostOps2_writes (by decide : main_arg11 ∉ hostOps2_W)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

/-- The main program's twenty items in order. -/
abbrev allSegs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .host (hseg hostOps4 hostOps4_sub hostOps4_fresh (W6 m ρ)),
    .region (reg4 m ρ),
    .region (reg5 m ρ),
    .host (hseg hostOps6 hostOps6_sub hostOps6_fresh (W9 m ρ)),
    .region (reg6 m ρ),
    .region (reg7 m ρ),
    .host (hseg hostOps8 hostOps8_sub hostOps8_fresh (W12 m ρ)),
    .region (reg8 m ρ),
    .region (reg9 m ρ),
    .host (hseg hostOps10 hostOps10_sub hostOps10_fresh (W15 m ρ)),
    .region (reg10 m ρ),
    .host (hseg hostOps11 hostOps11_sub hostOps11_fresh (W17 m ρ)),
    .region (reg11 m ρ),
    .host (hseg hostOps12 hostOps12_sub hostOps12_fresh (W19 m ρ)) ]

theorem main_run (c : Dev nD) : main (F := F) c = Pipeline.Seg.run (allSegs m ρ) := (main_chain c).trans (by chain_rfl)

abbrev Tₙ (c : Dev nD) : sProp 𝕄 := iprop(StableHlo.held (c : Thread nD τ) (Pipeline.ucRefs τ sig) (W20 m ρ c) ∗ ∃ r, prngReg c r)

set_option backward.isDefEq.respectTransparency.types false in
/-- Every weakly fair execution of the main program from `m` terminates without a fault, and in every final state each
    unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (allSegs m ρ)
    (fun c Q => by rw [main_run m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W20 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun r h c => ⟨(h c _ (mem_uc main_arg0 (by decide))).trans (W20_main_arg0 m ρ c),
    (h c _ (mem_uc main_arg1 (by decide))).trans (W20_main_arg1 m ρ c),
    (h c _ (mem_uc main_arg2 (by decide))).trans (W20_main_arg2 m ρ c),
    (h c _ (mem_uc main_arg3 (by decide))).trans (W20_main_arg3 m ρ c),
    (h c _ (mem_uc main_arg4 (by decide))).trans (W20_main_arg4 m ρ c),
    (h c _ (mem_uc main_arg5 (by decide))).trans (W20_main_arg5 m ρ c),
    (h c _ (mem_uc main_arg6 (by decide))).trans (W20_main_arg6 m ρ c),
    (h c _ (mem_uc main_arg7 (by decide))).trans (W20_main_arg7 m ρ c),
    (h c _ (mem_uc main_arg8 (by decide))).trans (W20_main_arg8 m ρ c),
    (h c _ (mem_uc main_arg9 (by decide))).trans (W20_main_arg9 m ρ c),
    (h c _ (mem_uc main_arg10 (by decide))).trans (W20_main_arg10 m ρ c),
    (h c _ (mem_uc main_arg11 (by decide))).trans (W20_main_arg11 m ρ c)⟩) (run_all m ρ)

end Cert.Kernel.Fr

end
-- ==== Proof.KI.R0.lean ====
/-
  Region 0: the encoder. At grid point t the body reads the row block t of the concatenated features (2000 rows of 16),
  the whole weight matrix and the bias row, and stores the block's product with the weights plus the bias row
  broadcast over the rows. The output buffer is loaded before the store; the value read is not used.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole output block, as a rectangle. -/
abbrev r0_out : Rect S2000x64 := Rect.unit (s := S2000x64) ![0, 0] S2000x64.size inb_S2000x64_S2000x64_0_0

/-- The output block after the body: its one store, of the whole block. -/
abbrev r0_0 : Rect S2000x16 := Rect.unit (s := S2000x16) ![0, 0] S2000x16.size inb_S2000x16_S2000x16_0_0
abbrev r0_1 : Rect S16x64 := Rect.unit (s := S16x64) ![0, 0] S16x64.size inb_S16x64_S16x64_0_0
abbrev r0_2 : Rect S1x64 := Rect.unit (s := S1x64) ![0, 0] S1x64.size inb_S1x64_S1x64_0_0

def out0_3 (x0 : Vec F S2000x16 .f32) (x1 : Vec F S16x64 .f32) (x2 : Vec F S1x64 .f32) : Vec F S2000x64 .f32 :=
  View.canon [⟨r0_out, k0_pay1 (View.ld x0 r0_0) (View.ld x1 r0_1) (View.ld x2 r0_2)⟩]

/-- The store covers the block. -/
theorem cover0_3 (p0 : Vec F S2000x64 .f32) (y : S2000x64.Idx) :
    ∃ pc ∈ ([⟨r0_out, p0⟩] : List (View.Piece (Elt F) S2000x64 .f32)), y ∈ pc.1.set :=
  View.cover_of_tiled [⟨r0_out, p0⟩] S2000x64.size (by rfl) y

set_option maxHeartbeats 1000000 in
/-- The body on whole staging memrefs: the inputs keep their contents, the output ends at `out0_3` of the inputs'. -/
theorem sound_kernel0 (c : Dev nD) (E : Set ℕ) (i : grid0.Coords)
    (arg1 : Memref sig .tc .vmem S2000x16 .f32) (harg1 : arg1.IsWhole) (arg2 : Memref sig .tc .vmem S16x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x16 .f32) (x1 : Vec F S16x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_bias_kernel i arg1 harg1 arg2 harg2 arg3 harg3 arg4 harg4) K := by
  simp only [cc0__linear_bias_kernel_eq_skeleton]; unfold cc0__linear_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1.lean ====
/-
  Region 1: a scaled matrix product. At grid point t the body reads the row block t of the node features (2000 rows
  of 64), the whole 64 x 64 weight matrix and the row block t of the per-node scale column (2000 rows of 1), and stores
  the block's product with the weights, each row multiplied by its scale, rounded to bf16. The output buffer is loaded
  before the store; the value read is not used.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's current staging buffer holds its block at every point, for any proof data whose array is
    the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight window's likewise: its block index is constant, so it is fetched at the first point only, and at
    every later point the buffer still holds the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The scale window's likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2000x64 := Rect.unit (s := S2000x64) ![0, 0] S2000x64.size inb_S2000x64_S2000x64_0_0
abbrev r1_1 : Rect S64x64 := Rect.unit (s := S64x64) ![0, 0] S64x64.size inb_S64x64_S64x64_0_0
abbrev r1_2 : Rect S2000x1 := Rect.unit (s := S2000x1) ![0, 0] S2000x1.size inb_S2000x1_S2000x1_0_0

/-! ## What the body leaves in the output window's buffer -/

/-- The output buffer after the body, from the input windows' blocks: its one store, over the whole buffer. -/
def out1_3 (x0 : Vec F S2000x64 .f32) (x1 : Vec F S64x64 .f32) (x2 : Vec F S2000x1 .f32) : Vec F S2000x64 .bf16 :=
  View.canon [⟨r1_0, k1_pay1 (View.ld x0 r1_0) (View.ld x1 r1_1) (View.ld x2 r1_2)⟩]

/-- The one store covers the buffer. -/
theorem cover1_3 (p0 : Vec F S2000x64 .bf16) (y : S2000x64.Idx) :
    ∃ pc ∈ ([⟨r1_0, p0⟩] : List (View.Piece (Elt F) S2000x64 .bf16)), y ∈ pc.1.set :=
  View.cover_of_tiled [⟨r1_0, p0⟩] S2000x64.size (by rfl) y

/-! ## The body's triple -/

set_option maxHeartbeats 1000000 in
/-- The body on whole staging buffers, the inputs' at read contents `x0 x1 x2` and the output's at anything, runs to
    the continuation holding the inputs' as they were and the output's at `out1_3 x0 x1 x2`. -/
theorem sound_kernel1 (c : Dev nD) (E : Set ℕ) (i : grid1.Coords) (arg1 : Memref sig .tc .vmem S2000x64 .f32) (harg1 : arg1.IsWhole) (arg2 : Memref sig .tc .vmem S64x64 .f32) (harg2 : arg2.IsWhole) (arg3 : Memref sig .tc .vmem S2000x1 .f32) (harg3 : arg3.IsWhole) (arg4 : Memref sig .tc .vmem S2000x64 .bf16) (harg4 : arg4.IsWhole)
    (x0 : Vec F S2000x64 .f32) (x1 : Vec F S64x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__matmul_scale_kernel i arg1 harg1 arg2 harg2 arg3 harg3 arg4 harg4) K := by
  simp only [cc1__matmul_scale_kernel_eq_skeleton]; unfold cc1__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.R2.lean ====
/- Region 2 of @main: custom_call 2, `cc2__update_kernel` (pipeline 2), at a parameter `V` — the TensorCore's
   buffer contents when the region is entered —: each window's block at a point (`iblk2`), what the body leaves
   in each output window's buffer (`out2_8`, `out2_9`), the body's triple (`sound_kernel2`), the proof data
   (`dat2`, at any shares `q` of the input arrays: windows 0 and 1 read one array, so their shares cannot both be
   full) and the body obligation (`body_obligation2`), at any `F`. -/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the block kept from the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved, so the block kept from the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its block index has not moved, so the block kept from the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): where the window is not
    fetched its block index has not moved, so the block kept from the point before is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): where the window is not
    fetched its block index has not moved, so the block kept from the point before is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): where the window is not
    fetched its block index has not moved, so the block kept from the point before is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s (`hA`) and whose body leaves the block in place (`hafter`): where the window is not
    fetched its block index has not moved, so the block kept from the point before is this point's. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s (`hA`) and whose body leaves the block in place (`hafter`): where the window is not
    fetched its block index has not moved, so the block kept from the point before is this point's. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2000x64 := Rect.unit (s := S2000x64) ![0, 0] S2000x64.size inb_S2000x64_S2000x64_0_0
abbrev r2_1 : Rect S2000x1 := Rect.unit (s := S2000x1) ![0, 0] S2000x1.size inb_S2000x1_S2000x1_0_0
abbrev r2_2 : Rect S64x64 := Rect.unit (s := S64x64) ![0, 0] S64x64.size inb_S64x64_S64x64_0_0
abbrev r2_3 : Rect S1x64 := Rect.unit (s := S1x64) ![0, 0] S1x64.size inb_S1x64_S1x64_0_0

/-! ## What the body leaves in each output window's buffer -/

/-- Window 8's staging buffer after the body, from the input windows' blocks: its one store, of the whole block
    (the new first state: the old one plus the new second state). -/
def out2_8 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r2_0, k2_pay2 (k2_pay3 (View.ld x0 r2_0)) (k2_pay4 (View.ld x1 r2_0)) (k2_pay5 (View.ld x0 r2_0) (View.ld x1 r2_0) (View.ld x2 r2_0) (View.ld x3 r2_0) (View.ld x4 r2_1) (View.ld x5 r2_2) (View.ld x6 r2_3) (View.ld x7 r2_3))⟩]

/-- Window 9's staging buffer after the body, from the input windows' blocks: its one store, of the whole block
    (the new second state: the old one plus the update). -/
def out2_9 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r2_0, k2_pay1 (k2_pay4 (View.ld x1 r2_0)) (k2_pay5 (View.ld x0 r2_0) (View.ld x1 r2_0) (View.ld x2 r2_0) (View.ld x3 r2_0) (View.ld x4 r2_1) (View.ld x5 r2_2) (View.ld x6 r2_3) (View.ld x7 r2_3))⟩]

/-- Window 8's store tiles the buffer, so it covers it. -/
theorem cover2_8 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-- Window 9's store tiles the buffer, so it covers it. -/
theorem cover2_9 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The body's triple -/

set_option maxHeartbeats 4000000 in
/-- The kernel body on whole staging memrefs, the inputs' at read contents `xW` and the outputs' at anything, runs to
    the continuation holding the inputs' as they were and each output's at `out2_W` of the inputs': the printed
    functions are their skeletons, run through the part's call. -/
theorem sound_kernel2 (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .bf16) (harg4 : arg4.IsWhole) (arg5 : Memref sig .tc .vmem S2000x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S2000x64 .f32) (harg10 : arg10.IsWhole)
    (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out2_8 x0 x1 x2 x3 x4 x5 x6 x7) ∗ owns (c : Thread nD τ) arg10 fullShare (out2_9 x0 x1 x2 x3 x4 x5 x6 x7)) -∗ K ⟨⟩))
      ⊢ wp frame (wpE (defs₀ (F := F)) Variants.none c none) E (cc2__update_kernel i arg1 harg1 arg2 harg2 arg3 harg3 arg4 harg4 arg5 harg5 arg6 harg6 arg7 harg7 arg8 harg8 arg9 harg9 arg10 harg10) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover2_8 _)
  iexists _; isplitr
  swap; · iexact H9
  ipureintro
  exact View.read_writes_eq_canon _ _ _ (cover2_9 _)

/-! ## The pipeline's proof data -/

/-- The proof data of pipeline 2 on core `c`, at shares `q` of the input arrays: the arrays as the region finds
    them (`V`); after the body at point `t` each input's buffer at its block and each output's at `out2_W` of the
    input blocks; the invariant the scoped rest and the generator register, untouched; nothing owed. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
    | ⟨9, _⟩ => out2_9 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q := q
  owed _ := 0

/-- The proof data's arrays are the region-entry contents. -/
theorem A_eq2 (q : Fin cfg2.W → PosShare TreeShare) (c : Dev nD) (w : Fin cfg2.W) : (dat2 V q c).A w = V c (Pipeline.arrRef spec2 w) := by
  dsimp only [dat2]

/-- What the body leaves, window by window. -/
theorem after2_0 (q : Fin cfg2.W → PosShare TreeShare) (c : Dev nD) (t : Fin cfg2.N) : (dat2 V q c).after 0 t = iblk2 V c 0 t := by dsimp only [dat2]
theorem after2_1 (q : Fin cfg2.W → PosShare TreeShare) (c : Dev nD) (t : Fin cfg2.N) : (dat2 V q c).after 1 t = iblk2 V c 1 t := by dsimp only [dat2]
theorem after2_2 (q : Fin cfg2.W → PosShare TreeShare) (c : Dev nD) (t : Fin cfg2.N) : (dat2 V q c).after 2 t = iblk2 V c 2 t := by dsimp only [dat2]
theorem after2_3 (q : Fin cfg2.W → PosShare TreeShare) (c : Dev nD) (t : Fin cfg2.N) : (dat2 V q c).after 3 t = iblk2 V c 3 t := by dsimp only [dat2]
theorem after2_4 (q : Fin cfg2.W → PosShare TreeShare) (c : Dev nD) (t : Fin cfg2.N) : (dat2 V q c).after 4 t = iblk2 V c 4 t := by dsimp only [dat2]
theorem after2_5 (q : Fin cfg2.W → PosShare TreeShare) (c : Dev nD) (t : Fin cfg2.N) : (dat2 V q c).after 5 t = iblk2 V c 5 t := by dsimp only [dat2]
theorem after2_6 (q : Fin cfg2.W → PosShare TreeShare) (c : Dev nD) (t : Fin cfg2.N) : (dat2 V q c).after 6 t = iblk2 V c 6 t := by dsimp only [dat2]
theorem after2_7 (q : Fin cfg2.W → PosShare TreeShare) (c : Dev nD) (t : Fin cfg2.N) : (dat2 V q c).after 7 t = iblk2 V c 7 t := by dsimp only [dat2]
theorem after2_8 (q : Fin cfg2.W → PosShare TreeShare) (c : Dev nD) (t : Fin cfg2.N) : (dat2 V q c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]
theorem after2_9 (q : Fin cfg2.W → PosShare TreeShare) (c : Dev nD) (t : Fin cfg2.N) : (dat2 V q c).after 9 t = out2_9 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not. -/
theorem before2_0 (q : Fin cfg2.W → PosShare TreeShare) (c : Dev nD) (t : Fin cfg2.N) (d) : (dat2 V q c).before 0 t d = iblk2 V c 0 t :=
  before2_0_of V (dat2 V q c) (A_eq2 V q c 0) (after2_0 V q c) t d
theorem before2_1 (q : Fin cfg2.W → PosShare TreeShare) (c : Dev nD) (t : Fin cfg2.N) (d) : (dat2 V q c).before 1 t d = iblk2 V c 1 t :=
  before2_1_of V (dat2 V q c) (A_eq2 V q c 1) (after2_1 V q c) t d
theorem before2_2 (q : Fin cfg2.W → PosShare TreeShare) (c : Dev nD) (t : Fin cfg2.N) (d) : (dat2 V q c).before 2 t d = iblk2 V c 2 t :=
  before2_2_of V (dat2 V q c) (A_eq2 V q c 2) (after2_2 V q c) t d
theorem before2_3 (q : Fin cfg2.W → PosShare TreeShare) (c : Dev nD) (t : Fin cfg2.N) (d) : (dat2 V q c).before 3 t d = iblk2 V c 3 t :=
  before2_3_of V (dat2 V q c) (A_eq2 V q c 3) (after2_3 V q c) t d
theorem before2_4 (q : Fin cfg2.W → PosShare TreeShare) (c : Dev nD) (t : Fin cfg2.N) (d) : (dat2 V q c).before 4 t d = iblk2 V c 4 t :=
  before2_4_of V (dat2 V q c) (A_eq2 V q c 4) (after2_4 V q c) t d
theorem before2_5 (q : Fin cfg2.W → PosShare TreeShare) (c : Dev nD) (t : Fin cfg2.N) (d) : (dat2 V q c).before 5 t d = iblk2 V c 5 t :=
  before2_5_of V (dat2 V q c) (A_eq2 V q c 5) (after2_5 V q c) t d
theorem before2_6 (q : Fin cfg2.W → PosShare TreeShare) (c : Dev nD) (t : Fin cfg2.N) (d) : (dat2 V q c).before 6 t d = iblk2 V c 6 t :=
  before2_6_of V (dat2 V q c) (A_eq2 V q c 6) (after2_6 V q c) t d
theorem before2_7 (q : Fin cfg2.W → PosShare TreeShare) (c : Dev nD) (t : Fin cfg2.N) (d) : (dat2 V q c).before 7 t d = iblk2 V c 7 t :=
  before2_7_of V (dat2 V q c) (A_eq2 V q c 7) (after2_7 V q c) t d

/-! ## The body obligation, at a generic point -/

/-- What the body is called with at point `t`, the windows one by one, -/
def bodyPre2 (q : Fin cfg2.W → PosShare TreeShare) (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d))
    ∗ (∃ d, owns (c : Thread nD τ) (st2_4 t) fullShare ((dat2 V q c).before 4 t d))
    ∗ (∃ d, owns (c : Thread nD τ) (st2_5 t) fullShare ((dat2 V q c).before 5 t d))
    ∗ (∃ d, owns (c : Thread nD τ) (st2_6 t) fullShare ((dat2 V q c).before 6 t d))
    ∗ (∃ d, owns (c : Thread nD τ) (st2_7 t) fullShare ((dat2 V q c).before 7 t d))
    ∗ (∃ d, owns (c : Thread nD τ) (st2_8 t) fullShare ((dat2 V q c).before 8 t d))
    ∗ (∃ d, owns (c : Thread nD τ) (st2_9 t) fullShare ((dat2 V q c).before 9 t d)))

/-- and what it returns. -/
def bodyPost2 (q : Fin cfg2.W → PosShare TreeShare) (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t)
    ∗ owns (c : Thread nD τ) (st2_4 t) fullShare ((dat2 V q c).after 4 t)
    ∗ owns (c : Thread nD τ) (st2_5 t) fullShare ((dat2 V q c).after 5 t)
    ∗ owns (c : Thread nD τ) (st2_6 t) fullShare ((dat2 V q c).after 6 t)
    ∗ owns (c : Thread nD τ) (st2_7 t) fullShare ((dat2 V q c).after 7 t)
    ∗ owns (c : Thread nD τ) (st2_8 t) fullShare ((dat2 V q c).after 8 t)
    ∗ owns (c : Thread nD τ) (st2_9 t) fullShare ((dat2 V q c).after 9 t))

/-- The body at any point: the inputs' memrefs hold their blocks (`before2_W`), so `sound_kernel2` applies; the
    invariant and the core's `owes` pass through unread. -/
theorem sound_body2 (q : Fin cfg2.W → PosShare TreeShare) (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3, before2_4, before2_5, before2_6, before2_7]
  rw [show (dat2 V q c).Φ t.succ = (dat2 V q c).Φ t.castSucc from rfl,
    show (dat2 V q c).owesAt () t.succ = (dat2 V q c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point and for every choice of shares. -/
theorem body_obligation2 (q : Fin cfg2.W → PosShare TreeShare) (c : Dev nD) : BodyObligation (dat2 (F := F) V q c) (defs₀ (F := F)) Variants.none () Set.univ := fun t => by
  rw [bigSep_W2, bigSep_W2]
  exact sound_body2 V q c t

end Cert.KernelIdeal.Fr
-- ==== Proof.KI.R3.lean ====
/-
  Region 3: a scaled matrix product. At grid point t the body reads the row block t of the node features (2000 rows
  of 64), the whole 64 x 64 weight matrix and the row block t of the per-node scale column (2000 rows of 1), and stores
  the block's product with the weights, each row multiplied by its scale, rounded to bf16. The output buffer is loaded
  before the store; the value read is not used.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The feature window's current staging buffer holds its block at every point, for any proof data whose array is
    the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The weight window's likewise: its block index is constant, so it is fetched at the first point only, and at
    every later point the buffer still holds the same block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The scale window's likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2000x64 := Rect.unit (s := S2000x64) ![0, 0] S2000x64.size inb_S2000x64_S2000x64_0_0
abbrev r3_1 : Rect S64x64 := Rect.unit (s := S64x64) ![0, 0] S64x64.size inb_S64x64_S64x64_0_0
abbrev r3_2 : Rect S2000x1 := Rect.unit (s := S2000x1) ![0, 0] S2000x1.size inb_S2000x1_S2000x1_0_0

/-! ## What the body leaves in the output window's buffer -/

/-- The output buffer after the body, from the input windows' blocks: its one store, over the whole buffer. -/
def out3_3 (x0 : Vec F S2000x64 .f32) (x1 : Vec F S64x64 .f32) (x2 : Vec F S2000x1 .f32) : Vec F S2000x64 .bf16 :=
  View.canon [⟨r3_0, k3_pay1 (View.ld x0 r3_0) (View.ld x1 r3_1) (View.ld x2 r3_2)⟩]

/-- The one store covers the buffer. -/
theorem cover3_3 (p0 : Vec F S2000x64 .bf16) (y : S2000x64.Idx) :
    ∃ pc ∈ ([⟨r3_0, p0⟩] : List (View.Piece (Elt F) S2000x64 .bf16)), y ∈ pc.1.set :=
  View.cover_of_tiled [⟨r3_0, p0⟩] S2000x64.size (by rfl) y

/-! ## The body's triple -/

set_option maxHeartbeats 1000000 in
/-- The body on whole staging buffers, the inputs' at read contents `x0 x1 x2` and the output's at anything, runs to
    the continuation holding the inputs' as they were and the output's at `out3_3 x0 x1 x2`. -/
theorem sound_kernel3 (c : Dev nD) (E : Set ℕ) (i : grid3.Coords) (arg1 : Memref sig .tc .vmem S2000x64 .f32) (harg1 : arg1.IsWhole) (arg2 : Memref sig .tc .vmem S64x64 .f32) (harg2 : arg2.IsWhole) (arg3 : Memref sig .tc .vmem S2000x1 .f32) (harg3 : arg3.IsWhole) (arg4 : Memref sig .tc .vmem S2000x64 .bf16) (harg4 : arg4.IsWhole)
    (x0 : Vec F S2000x64 .f32) (x1 : Vec F S64x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__matmul_scale_kernel i arg1 harg1 arg2 harg2 arg3 harg3 arg4 harg4) K := by
  simp only [cc3__matmul_scale_kernel_eq_skeleton]; unfold cc3__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them; after the body at point `t`
    each input's buffer at its block and the output's at `out3_3` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and
    what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.R4.lean ====
/- Region 4 of @main: custom_call 4, `cc4__update_kernel` (pipeline 4), at a parameter `V` — the TensorCore's
   buffer contents when the region is entered —: each window's block at a point (`iblk4`), what the body leaves
   in each output window's buffer (`out4_8`, `out4_9`), the body's triple (`sound_kernel4`), the proof data
   (`dat4`, at any shares `q` of the input arrays: windows 0 and 1 read one array, so their shares cannot both be
   full) and the body obligation (`body_obligation4`), at any `F`. -/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): where the window is not
    fetched its block index has not moved, so the block kept from the point before is this point's. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): where the window is not
    fetched its block index has not moved, so the block kept from the point before is this point's. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): where the window is not
    fetched its block index has not moved, so the block kept from the point before is this point's. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`): where the window is not
    fetched its block index has not moved, so the block kept from the point before is this point's. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s (`hA`) and whose body leaves the block in place (`hafter`): where the window is not
    fetched its block index has not moved, so the block kept from the point before is this point's. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s (`hA`) and whose body leaves the block in place (`hafter`): where the window is not
    fetched its block index has not moved, so the block kept from the point before is this point's. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s (`hA`) and whose body leaves the block in place (`hafter`): where the window is not
    fetched its block index has not moved, so the block kept from the point before is this point's. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not, for any proof
    data whose array is `V`'s (`hA`) and whose body leaves the block in place (`hafter`): where the window is not
    fetched its block index has not moved, so the block kept from the point before is this point's. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S2000x64 := Rect.unit (s := S2000x64) ![0, 0] S2000x64.size inb_S2000x64_S2000x64_0_0
abbrev r4_1 : Rect S2000x1 := Rect.unit (s := S2000x1) ![0, 0] S2000x1.size inb_S2000x1_S2000x1_0_0
abbrev r4_2 : Rect S64x64 := Rect.unit (s := S64x64) ![0, 0] S64x64.size inb_S64x64_S64x64_0_0
abbrev r4_3 : Rect S1x64 := Rect.unit (s := S1x64) ![0, 0] S1x64.size inb_S1x64_S1x64_0_0

/-! ## What the body leaves in each output window's buffer -/

/-- Window 8's staging buffer after the body, from the input windows' blocks: its one store, of the whole block
    (the new first state: the old one plus the new second state). -/
def out4_8 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r4_0, k4_pay2 (k4_pay3 (View.ld x0 r4_0)) (k4_pay4 (View.ld x1 r4_0)) (k4_pay5 (View.ld x0 r4_0) (View.ld x1 r4_0) (View.ld x2 r4_0) (View.ld x3 r4_0) (View.ld x4 r4_1) (View.ld x5 r4_2) (View.ld x6 r4_3) (View.ld x7 r4_3))⟩]

/-- Window 9's staging buffer after the body, from the input windows' blocks: its one store, of the whole block
    (the new second state: the old one plus the update). -/
def out4_9 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r4_0, k4_pay1 (k4_pay4 (View.ld x1 r4_0)) (k4_pay5 (View.ld x0 r4_0) (View.ld x1 r4_0) (View.ld x2 r4_0) (View.ld x3 r4_0) (View.ld x4 r4_1) (View.ld x5 r4_2) (View.ld x6 r4_3) (View.ld x7 r4_3))⟩]

/-- Window 8's store tiles the buffer, so it covers it. -/
theorem cover4_8 (p0 : Vec F S2000x64 .f32) (y : S2000x64.Idx) :
    ∃ pc ∈ ([⟨r4_0, p0⟩] : List (View.Piece (Elt F) S2000x64 .f32)), y ∈ pc.1.set :=
  View.cover_of_tiled [⟨r4_0, p0⟩] S2000x64.size (by rfl) y

/-- Window 9's store tiles the buffer, so it covers it. -/
theorem cover4_9 (p0 : Vec F S2000x64 .f32) (y : S2000x64.Idx) :
    ∃ pc ∈ ([⟨r4_0, p0⟩] : List (View.Piece (Elt F) S2000x64 .f32)), y ∈ pc.1.set :=
  View.cover_of_tiled [⟨r4_0, p0⟩] S2000x64.size (by rfl) y

/-! ## The body's triple -/

set_option maxHeartbeats 4000000 in
/-- The kernel body on whole staging memrefs, the inputs' at read contents `xW` and the outputs' at anything, runs to
    the continuation holding the inputs' as they were and each output's at `out4_W` of the inputs': the printed
    functions are their skeletons, run through the part's call. -/
theorem sound_kernel4 (c : Dev nD) (E : Set ℕ) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .bf16) (harg4 : arg4.IsWhole) (arg5 : Memref sig .tc .vmem S2000x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S2000x64 .f32) (harg10 : arg10.IsWhole)
    (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out4_8 x0 x1 x2 x3 x4 x5 x6 x7) ∗ owns (c : Thread nD τ) arg10 fullShare (out4_9 x0 x1 x2 x3 x4 x5 x6 x7)) -∗ K ⟨⟩))
      ⊢ wp frame (wpE (defs₀ (F := F)) Variants.none c none) E (cc4__update_kernel i arg1 harg1 arg2 harg2 arg3 harg3 arg4 harg4 arg5 harg5 arg6 harg6 arg7 harg7 arg8 harg8 arg9 harg9 arg10 harg10) K := by
  simp only [cc4__update_kernel_eq_skeleton]; unfold cc4__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover4_8 _)
  iexists _; isplitr
  swap; · iexact H9
  ipureintro
  exact View.read_writes_eq_canon _ _ _ (cover4_9 _)

/-! ## The pipeline's proof data -/

/-- The proof data of pipeline 4 on core `c`, at shares `q` of the input arrays: the arrays as the region finds
    them (`V`); after the body at point `t` each input's buffer at its block and each output's at `out4_W` of the
    input blocks; the invariant the scoped rest and the generator register, untouched; nothing owed. -/
def dat4 (q : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (iblk4 V c 1 t) (iblk4 V c 2 t) (iblk4 V c 3 t) (iblk4 V c 4 t) (iblk4 V c 5 t) (iblk4 V c 6 t) (iblk4 V c 7 t)
    | ⟨9, _⟩ => out4_9 (iblk4 V c 0 t) (iblk4 V c 1 t) (iblk4 V c 2 t) (iblk4 V c 3 t) (iblk4 V c 4 t) (iblk4 V c 5 t) (iblk4 V c 6 t) (iblk4 V c 7 t)
  Φ _ := Pipeline.ΦA spec4 c
  q := q
  owed _ := 0

/-- The proof data's arrays are the region-entry contents. -/
theorem A_eq4 (q : Fin cfg4.W → PosShare TreeShare) (c : Dev nD) (w : Fin cfg4.W) : (dat4 V q c).A w = V c (Pipeline.arrRef spec4 w) := by
  dsimp only [dat4]

/-- What the body leaves, window by window. -/
theorem after4_0 (q : Fin cfg4.W → PosShare TreeShare) (c : Dev nD) (t : Fin cfg4.N) : (dat4 V q c).after 0 t = iblk4 V c 0 t := by dsimp only [dat4]
theorem after4_1 (q : Fin cfg4.W → PosShare TreeShare) (c : Dev nD) (t : Fin cfg4.N) : (dat4 V q c).after 1 t = iblk4 V c 1 t := by dsimp only [dat4]
theorem after4_2 (q : Fin cfg4.W → PosShare TreeShare) (c : Dev nD) (t : Fin cfg4.N) : (dat4 V q c).after 2 t = iblk4 V c 2 t := by dsimp only [dat4]
theorem after4_3 (q : Fin cfg4.W → PosShare TreeShare) (c : Dev nD) (t : Fin cfg4.N) : (dat4 V q c).after 3 t = iblk4 V c 3 t := by dsimp only [dat4]
theorem after4_4 (q : Fin cfg4.W → PosShare TreeShare) (c : Dev nD) (t : Fin cfg4.N) : (dat4 V q c).after 4 t = iblk4 V c 4 t := by dsimp only [dat4]
theorem after4_5 (q : Fin cfg4.W → PosShare TreeShare) (c : Dev nD) (t : Fin cfg4.N) : (dat4 V q c).after 5 t = iblk4 V c 5 t := by dsimp only [dat4]
theorem after4_6 (q : Fin cfg4.W → PosShare TreeShare) (c : Dev nD) (t : Fin cfg4.N) : (dat4 V q c).after 6 t = iblk4 V c 6 t := by dsimp only [dat4]
theorem after4_7 (q : Fin cfg4.W → PosShare TreeShare) (c : Dev nD) (t : Fin cfg4.N) : (dat4 V q c).after 7 t = iblk4 V c 7 t := by dsimp only [dat4]
theorem after4_8 (q : Fin cfg4.W → PosShare TreeShare) (c : Dev nD) (t : Fin cfg4.N) : (dat4 V q c).after 8 t = out4_8 (iblk4 V c 0 t) (iblk4 V c 1 t) (iblk4 V c 2 t) (iblk4 V c 3 t) (iblk4 V c 4 t) (iblk4 V c 5 t) (iblk4 V c 6 t) (iblk4 V c 7 t) := by dsimp only [dat4]
theorem after4_9 (q : Fin cfg4.W → PosShare TreeShare) (c : Dev nD) (t : Fin cfg4.N) : (dat4 V q c).after 9 t = out4_9 (iblk4 V c 0 t) (iblk4 V c 1 t) (iblk4 V c 2 t) (iblk4 V c 3 t) (iblk4 V c 4 t) (iblk4 V c 5 t) (iblk4 V c 6 t) (iblk4 V c 7 t) := by dsimp only [dat4]

/-- Each input's current staging buffer holds its block at every point, fetched there or not. -/
theorem before4_0 (q : Fin cfg4.W → PosShare TreeShare) (c : Dev nD) (t : Fin cfg4.N) (d) : (dat4 V q c).before 0 t d = iblk4 V c 0 t :=
  before4_0_of V (dat4 V q c) (A_eq4 V q c 0) (after4_0 V q c) t d
theorem before4_1 (q : Fin cfg4.W → PosShare TreeShare) (c : Dev nD) (t : Fin cfg4.N) (d) : (dat4 V q c).before 1 t d = iblk4 V c 1 t :=
  before4_1_of V (dat4 V q c) (A_eq4 V q c 1) (after4_1 V q c) t d
theorem before4_2 (q : Fin cfg4.W → PosShare TreeShare) (c : Dev nD) (t : Fin cfg4.N) (d) : (dat4 V q c).before 2 t d = iblk4 V c 2 t :=
  before4_2_of V (dat4 V q c) (A_eq4 V q c 2) (after4_2 V q c) t d
theorem before4_3 (q : Fin cfg4.W → PosShare TreeShare) (c : Dev nD) (t : Fin cfg4.N) (d) : (dat4 V q c).before 3 t d = iblk4 V c 3 t :=
  before4_3_of V (dat4 V q c) (A_eq4 V q c 3) (after4_3 V q c) t d
theorem before4_4 (q : Fin cfg4.W → PosShare TreeShare) (c : Dev nD) (t : Fin cfg4.N) (d) : (dat4 V q c).before 4 t d = iblk4 V c 4 t :=
  before4_4_of V (dat4 V q c) (A_eq4 V q c 4) (after4_4 V q c) t d
theorem before4_5 (q : Fin cfg4.W → PosShare TreeShare) (c : Dev nD) (t : Fin cfg4.N) (d) : (dat4 V q c).before 5 t d = iblk4 V c 5 t :=
  before4_5_of V (dat4 V q c) (A_eq4 V q c 5) (after4_5 V q c) t d
theorem before4_6 (q : Fin cfg4.W → PosShare TreeShare) (c : Dev nD) (t : Fin cfg4.N) (d) : (dat4 V q c).before 6 t d = iblk4 V c 6 t :=
  before4_6_of V (dat4 V q c) (A_eq4 V q c 6) (after4_6 V q c) t d
theorem before4_7 (q : Fin cfg4.W → PosShare TreeShare) (c : Dev nD) (t : Fin cfg4.N) (d) : (dat4 V q c).before 7 t d = iblk4 V c 7 t :=
  before4_7_of V (dat4 V q c) (A_eq4 V q c 7) (after4_7 V q c) t d

/-! ## The body obligation, at a generic point -/

/-- What the body is called with at point `t`, the windows one by one, -/
def bodyPre4 (q : Fin cfg4.W → PosShare TreeShare) (c : Dev nD) (t : Fin cfg4.N) : sProp 𝕄 :=
  iprop((dat4 V q c).Φ t.castSucc ∗ (dat4 V q c).owesAt () t.castSucc
    ∗ (∃ d, owns (c : Thread nD τ) (st4_0 t) fullShare ((dat4 V q c).before 0 t d))
    ∗ (∃ d, owns (c : Thread nD τ) (st4_1 t) fullShare ((dat4 V q c).before 1 t d))
    ∗ (∃ d, owns (c : Thread nD τ) (st4_2 t) fullShare ((dat4 V q c).before 2 t d))
    ∗ (∃ d, owns (c : Thread nD τ) (st4_3 t) fullShare ((dat4 V q c).before 3 t d))
    ∗ (∃ d, owns (c : Thread nD τ) (st4_4 t) fullShare ((dat4 V q c).before 4 t d))
    ∗ (∃ d, owns (c : Thread nD τ) (st4_5 t) fullShare ((dat4 V q c).before 5 t d))
    ∗ (∃ d, owns (c : Thread nD τ) (st4_6 t) fullShare ((dat4 V q c).before 6 t d))
    ∗ (∃ d, owns (c : Thread nD τ) (st4_7 t) fullShare ((dat4 V q c).before 7 t d))
    ∗ (∃ d, owns (c : Thread nD τ) (st4_8 t) fullShare ((dat4 V q c).before 8 t d))
    ∗ (∃ d, owns (c : Thread nD τ) (st4_9 t) fullShare ((dat4 V q c).before 9 t d)))

/-- and what it returns. -/
def bodyPost4 (q : Fin cfg4.W → PosShare TreeShare) (c : Dev nD) (t : Fin cfg4.N) : sProp 𝕄 :=
  iprop((dat4 V q c).Φ t.succ ∗ (dat4 V q c).owesAt () t.succ
    ∗ owns (c : Thread nD τ) (st4_0 t) fullShare ((dat4 V q c).after 0 t)
    ∗ owns (c : Thread nD τ) (st4_1 t) fullShare ((dat4 V q c).after 1 t)
    ∗ owns (c : Thread nD τ) (st4_2 t) fullShare ((dat4 V q c).after 2 t)
    ∗ owns (c : Thread nD τ) (st4_3 t) fullShare ((dat4 V q c).after 3 t)
    ∗ owns (c : Thread nD τ) (st4_4 t) fullShare ((dat4 V q c).after 4 t)
    ∗ owns (c : Thread nD τ) (st4_5 t) fullShare ((dat4 V q c).after 5 t)
    ∗ owns (c : Thread nD τ) (st4_6 t) fullShare ((dat4 V q c).after 6 t)
    ∗ owns (c : Thread nD τ) (st4_7 t) fullShare ((dat4 V q c).after 7 t)
    ∗ owns (c : Thread nD τ) (st4_8 t) fullShare ((dat4 V q c).after 8 t)
    ∗ owns (c : Thread nD τ) (st4_9 t) fullShare ((dat4 V q c).after 9 t))

/-- The body at any point: the inputs' memrefs hold their blocks (`before4_W`), so `sound_kernel4` applies; the
    invariant and the core's `owes` pass through unread. -/
theorem sound_body4 (q : Fin cfg4.W → PosShare TreeShare) (c : Dev nD) (t : Fin cfg4.N) :
    bodyPre4 V q c t ⊢ wp frame (wpE (defs₀ (F := F)) Variants.none c none) Set.univ (bodyAt4 t) (fun _ => bodyPost4 V q c t) := by
  unfold bodyPre4 bodyPost4 bodyAt4
  simp only [before4_0, before4_1, before4_2, before4_3, before4_4, before4_5, before4_6, before4_7]
  rw [show (dat4 V q c).Φ t.succ = (dat4 V q c).Φ t.castSucc from rfl,
    show (dat4 V q c).owesAt () t.succ = (dat4 V q c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point and for every choice of shares. -/
theorem body_obligation4 (q : Fin cfg4.W → PosShare TreeShare) (c : Dev nD) : BodyObligation (dat4 (F := F) V q c) (defs₀ (F := F)) Variants.none () Set.univ := fun t => by
  rw [bigSep_W4, bigSep_W4]
  exact sound_body4 V q c t

end Cert.KernelIdeal.Fr
-- ==== Proof.KI.R5.lean ====
/-
  Region 5: a scaled matrix product. At grid point t the body reads the row block t of the node features (2000 rows
  of 64), the whole 64 x 64 weight matrix and the row block t of the per-node scale column (2000 rows of 1), and stores
  the block's product with the weights, each row multiplied by its scale, rounded to bf16. The output buffer is loaded
  before the store; the value read is not used.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The feature window's current staging buffer holds its block at every point, for any proof data whose array is
    the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The weight window's likewise: its block index is constant, so it is fetched at the first point only, and at
    every later point the buffer still holds the same block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The scale window's likewise. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S2000x64 := Rect.unit (s := S2000x64) ![0, 0] S2000x64.size inb_S2000x64_S2000x64_0_0
abbrev r5_1 : Rect S64x64 := Rect.unit (s := S64x64) ![0, 0] S64x64.size inb_S64x64_S64x64_0_0
abbrev r5_2 : Rect S2000x1 := Rect.unit (s := S2000x1) ![0, 0] S2000x1.size inb_S2000x1_S2000x1_0_0

/-! ## What the body leaves in the output window's buffer -/

/-- The output buffer after the body, from the input windows' blocks: its one store, over the whole buffer. -/
def out5_3 (x0 : Vec F S2000x64 .f32) (x1 : Vec F S64x64 .f32) (x2 : Vec F S2000x1 .f32) : Vec F S2000x64 .bf16 :=
  View.canon [⟨r5_0, k5_pay1 (View.ld x0 r5_0) (View.ld x1 r5_1) (View.ld x2 r5_2)⟩]

/-- The one store covers the buffer. -/
theorem cover5_3 (p0 : Vec F S2000x64 .bf16) (y : S2000x64.Idx) :
    ∃ pc ∈ ([⟨r5_0, p0⟩] : List (View.Piece (Elt F) S2000x64 .bf16)), y ∈ pc.1.set :=
  View.cover_of_tiled [⟨r5_0, p0⟩] S2000x64.size (by rfl) y

/-! ## The body's triple -/

set_option maxHeartbeats 1000000 in
/-- The body on whole staging buffers, the inputs' at read contents `x0 x1 x2` and the output's at anything, runs to
    the continuation holding the inputs' as they were and the output's at `out5_3 x0 x1 x2`. -/
theorem sound_kernel5 (c : Dev nD) (E : Set ℕ) (i : grid5.Coords) (arg1 : Memref sig .tc .vmem S2000x64 .f32) (harg1 : arg1.IsWhole) (arg2 : Memref sig .tc .vmem S64x64 .f32) (harg2 : arg2.IsWhole) (arg3 : Memref sig .tc .vmem S2000x1 .f32) (harg3 : arg3.IsWhole) (arg4 : Memref sig .tc .vmem S2000x64 .bf16) (harg4 : arg4.IsWhole)
    (x0 : Vec F S2000x64 .f32) (x1 : Vec F S64x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__matmul_scale_kernel i arg1 harg1 arg2 harg2 arg3 harg3 arg4 harg4) K := by
  simp only [cc5__matmul_scale_kernel_eq_skeleton]; unfold cc5__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them; after the body at point `t`
    each input's buffer at its block and the output's at `out5_3` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's triple applies; the invariant and
    what is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.R6.lean ====
/- Region 6 of @main: custom_call 6, `cc6__update_kernel` (pipeline 6), at a parameter `V` — the TensorCore's
   buffer contents when the region is entered —: each window's block at a point (`iblk6`), what the body leaves
   in each output window's buffer (`out6_8`, `out6_9`), the body's triple (`sound_kernel6`), the proof data
   (`dat6`, at any shares `q` of the input arrays: windows 0 and 1 read one array, so their shares cannot both be
   full) and the body obligation (`body_obligation6`), at any `F`. -/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): where the window is not
    fetched its block index has not moved, so the block kept from the point before is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s (`hA`) and whose body leaves the block in place (`hafter`): where the window is not
    fetched its block index has not moved, so the block kept from the point before is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s (`hA`) and whose body leaves the block in place (`hafter`): where the window is not
    fetched its block index has not moved, so the block kept from the point before is this point's. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s (`hA`) and whose body leaves the block in place (`hafter`): where the window is not
    fetched its block index has not moved, so the block kept from the point before is this point's. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s (`hA`) and whose body leaves the block in place (`hafter`): where the window is not
    fetched its block index has not moved, so the block kept from the point before is this point's. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof
    data whose array is `V`'s (`hA`) and whose body leaves the block in place (`hafter`): where the window is not
    fetched its block index has not moved, so the block kept from the point before is this point's. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not, for any proof
    data whose array is `V`'s (`hA`) and whose body leaves the block in place (`hafter`): where the window is not
    fetched its block index has not moved, so the block kept from the point before is this point's. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7's current staging buffer holds its block at every point, fetched there or not, for any proof
    data whose array is `V`'s (`hA`) and whose body leaves the block in place (`hafter`): where the window is not
    fetched its block index has not moved, so the block kept from the point before is this point's. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S2000x64 := Rect.unit (s := S2000x64) ![0, 0] S2000x64.size inb_S2000x64_S2000x64_0_0
abbrev r6_1 : Rect S2000x1 := Rect.unit (s := S2000x1) ![0, 0] S2000x1.size inb_S2000x1_S2000x1_0_0
abbrev r6_2 : Rect S64x64 := Rect.unit (s := S64x64) ![0, 0] S64x64.size inb_S64x64_S64x64_0_0
abbrev r6_3 : Rect S1x64 := Rect.unit (s := S1x64) ![0, 0] S1x64.size inb_S1x64_S1x64_0_0

/-! ## What the body leaves in each output window's buffer -/

/-- Window 8's staging buffer after the body, from the input windows' blocks: its one store, of the whole block
    (the new first state: the old one plus the new second state). -/
def out6_8 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r6_0, k6_pay2 (k6_pay3 (View.ld x0 r6_0)) (k6_pay4 (View.ld x1 r6_0)) (k6_pay5 (View.ld x0 r6_0) (View.ld x1 r6_0) (View.ld x2 r6_0) (View.ld x3 r6_0) (View.ld x4 r6_1) (View.ld x5 r6_2) (View.ld x6 r6_3) (View.ld x7 r6_3))⟩]

/-- Window 9's staging buffer after the body, from the input windows' blocks: its one store, of the whole block
    (the new second state: the old one plus the update). -/
def out6_9 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r6_0, k6_pay1 (k6_pay4 (View.ld x1 r6_0)) (k6_pay5 (View.ld x0 r6_0) (View.ld x1 r6_0) (View.ld x2 r6_0) (View.ld x3 r6_0) (View.ld x4 r6_1) (View.ld x5 r6_2) (View.ld x6 r6_3) (View.ld x7 r6_3))⟩]

/-- Window 8's store tiles the buffer, so it covers it. -/
theorem cover6_8 (p0 : Vec F S2000x64 .f32) (y : S2000x64.Idx) :
    ∃ pc ∈ ([⟨r6_0, p0⟩] : List (View.Piece (Elt F) S2000x64 .f32)), y ∈ pc.1.set :=
  View.cover_of_tiled [⟨r6_0, p0⟩] S2000x64.size (by rfl) y

/-- Window 9's store tiles the buffer, so it covers it. -/
theorem cover6_9 (p0 : Vec F S2000x64 .f32) (y : S2000x64.Idx) :
    ∃ pc ∈ ([⟨r6_0, p0⟩] : List (View.Piece (Elt F) S2000x64 .f32)), y ∈ pc.1.set :=
  View.cover_of_tiled [⟨r6_0, p0⟩] S2000x64.size (by rfl) y

/-! ## The body's triple -/

set_option maxHeartbeats 4000000 in
/-- The kernel body on whole staging memrefs, the inputs' at read contents `xW` and the outputs' at anything, runs to
    the continuation holding the inputs' as they were and each output's at `out6_W` of the inputs': the printed
    functions are their skeletons, run through the part's call. -/
theorem sound_kernel6 (c : Dev nD) (E : Set ℕ) (i : grid6.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .bf16) (harg4 : arg4.IsWhole) (arg5 : Memref sig .tc .vmem S2000x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S2000x64 .f32) (harg10 : arg10.IsWhole)
    (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out6_8 x0 x1 x2 x3 x4 x5 x6 x7) ∗ owns (c : Thread nD τ) arg10 fullShare (out6_9 x0 x1 x2 x3 x4 x5 x6 x7)) -∗ K ⟨⟩))
      ⊢ wp frame (wpE (defs₀ (F := F)) Variants.none c none) E (cc6__update_kernel i arg1 harg1 arg2 harg2 arg3 harg3 arg4 harg4 arg5 harg5 arg6 harg6 arg7 harg7 arg8 harg8 arg9 harg9 arg10 harg10) K := by
  simp only [cc6__update_kernel_eq_skeleton]; unfold cc6__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover6_8 _)
  iexists _; isplitr
  swap; · iexact H9
  ipureintro
  exact View.read_writes_eq_canon _ _ _ (cover6_9 _)

/-! ## The pipeline's proof data -/

/-- The proof data of pipeline 6 on core `c`, at shares `q` of the input arrays: the arrays as the region finds
    them (`V`); after the body at point `t` each input's buffer at its block and each output's at `out6_W` of the
    input blocks; the invariant the scoped rest and the generator register, untouched; nothing owed. -/
def dat6 (q : Fin cfg6.W → PosShare TreeShare) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 3 t) (iblk6 V c 4 t) (iblk6 V c 5 t) (iblk6 V c 6 t) (iblk6 V c 7 t)
    | ⟨9, _⟩ => out6_9 (iblk6 V c 0 t) (iblk6 V c 1 t) (iblk6 V c 2 t) (iblk6 V c 3 t) (iblk6 V c 4 t) (iblk6 V c 5 t) (iblk6 V c 6 t) (iblk6 V c 7 t)
  Φ _ := Pipeline.ΦA spec6 c
  q := q
  owed _ := 0

/-- The proof data's arrays are the region-entry contents. -/
theorem A_eq6 (q : Fin cfg6.W → PosShare TreeShare) (c : Dev nD) (w : Fin cfg6.W) : (dat6 V q c).A w = V c (Pipeline.arrRef spec6 w) := by
  dsimp only [dat6]

/-- What the body leaves, window by window. -/
theorem after6_0 (q : Fin cfg6.W → PosShare TreeShare) (c : Dev nD) (t : Fin cfg6.N) : (dat6 V q c).after 0 t = iblk6 V c 0 t := by dsimp only [dat6]
theorem after6_1 (q : Fin cfg6.W → PosShare TreeShare) (c : Dev nD) (t : Fin cfg6.N) : (dat6 V q c).after 1 t = iblk6 V c 1 t := by dsimp only [dat6]
theorem after6_2 (q : Fin cfg6.W → PosShare TreeShare) (c : Dev nD) (t : Fin cfg6.N) : (dat6 V q c).after 2 t = iblk6 V c 2 t := by dsimp only [dat6]
theorem after6_3 (q : Fin cfg6.W → PosShare TreeShare) (c : Dev nD) (t : Fin cfg6.N) : (dat6 V q c).after 3 t = iblk6 V c 3 t := by dsimp only [dat6]
theorem after6_4 (q : Fin cfg6.W → PosShare TreeShare) (c : Dev nD) (t : Fin cfg6.N) : (dat6 V q c).after 4 t = iblk6 V c 4 t := by dsimp only [dat6]
theorem after6_5 (q : Fin cfg6.W → PosShare TreeShare) (c : Dev nD) (t : Fin cfg6.N) : (dat6 V q c).after 5 t = iblk6 V c 5 t := by dsimp only [dat6]
theorem after6_6 (q : Fin cfg6.W → PosShare TreeShare) (c : Dev nD) (t : Fin cfg6.N) : (dat6 V q c).after 6 t = iblk6 V c 6 t := by dsimp only [dat6]
theorem after6_7 (q : Fin cfg6.W → PosShare TreeShare) (c : Dev nD) (t : Fin cfg6.N) : (dat6 V q c).after 7 t = iblk6 V c 7 t := by dsimp only [dat6]
theorem after6_8 (q : Fin cfg6.W → PosShare TreeShare) (c : Dev nD) (t : Fin cfg6.N) : (dat6 V q c).after 8 t = out6_8 (iblk6 V c 0 t) (iblk6 V c 1 t) (iblk6 V c 2 t) (iblk6 V c 3 t) (iblk6 V c 4 t) (iblk6 V c 5 t) (iblk6 V c 6 t) (iblk6 V c 7 t) := by dsimp only [dat6]
theorem after6_9 (q : Fin cfg6.W → PosShare TreeShare) (c : Dev nD) (t : Fin cfg6.N) : (dat6 V q c).after 9 t = out6_9 (iblk6 V c 0 t) (iblk6 V c 1 t) (iblk6 V c 2 t) (iblk6 V c 3 t) (iblk6 V c 4 t) (iblk6 V c 5 t) (iblk6 V c 6 t) (iblk6 V c 7 t) := by dsimp only [dat6]

/-- Each input's current staging buffer holds its block at every point, fetched there or not. -/
theorem before6_0 (q : Fin cfg6.W → PosShare TreeShare) (c : Dev nD) (t : Fin cfg6.N) (d) : (dat6 V q c).before 0 t d = iblk6 V c 0 t :=
  before6_0_of V (dat6 V q c) (A_eq6 V q c 0) (after6_0 V q c) t d
theorem before6_1 (q : Fin cfg6.W → PosShare TreeShare) (c : Dev nD) (t : Fin cfg6.N) (d) : (dat6 V q c).before 1 t d = iblk6 V c 1 t :=
  before6_1_of V (dat6 V q c) (A_eq6 V q c 1) (after6_1 V q c) t d
theorem before6_2 (q : Fin cfg6.W → PosShare TreeShare) (c : Dev nD) (t : Fin cfg6.N) (d) : (dat6 V q c).before 2 t d = iblk6 V c 2 t :=
  before6_2_of V (dat6 V q c) (A_eq6 V q c 2) (after6_2 V q c) t d
theorem before6_3 (q : Fin cfg6.W → PosShare TreeShare) (c : Dev nD) (t : Fin cfg6.N) (d) : (dat6 V q c).before 3 t d = iblk6 V c 3 t :=
  before6_3_of V (dat6 V q c) (A_eq6 V q c 3) (after6_3 V q c) t d
theorem before6_4 (q : Fin cfg6.W → PosShare TreeShare) (c : Dev nD) (t : Fin cfg6.N) (d) : (dat6 V q c).before 4 t d = iblk6 V c 4 t :=
  before6_4_of V (dat6 V q c) (A_eq6 V q c 4) (after6_4 V q c) t d
theorem before6_5 (q : Fin cfg6.W → PosShare TreeShare) (c : Dev nD) (t : Fin cfg6.N) (d) : (dat6 V q c).before 5 t d = iblk6 V c 5 t :=
  before6_5_of V (dat6 V q c) (A_eq6 V q c 5) (after6_5 V q c) t d
theorem before6_6 (q : Fin cfg6.W → PosShare TreeShare) (c : Dev nD) (t : Fin cfg6.N) (d) : (dat6 V q c).before 6 t d = iblk6 V c 6 t :=
  before6_6_of V (dat6 V q c) (A_eq6 V q c 6) (after6_6 V q c) t d
theorem before6_7 (q : Fin cfg6.W → PosShare TreeShare) (c : Dev nD) (t : Fin cfg6.N) (d) : (dat6 V q c).before 7 t d = iblk6 V c 7 t :=
  before6_7_of V (dat6 V q c) (A_eq6 V q c 7) (after6_7 V q c) t d

/-! ## The body obligation, at a generic point -/

/-- What the body is called with at point `t`, the windows one by one, -/
def bodyPre6 (q : Fin cfg6.W → PosShare TreeShare) (c : Dev nD) (t : Fin cfg6.N) : sProp 𝕄 :=
  iprop((dat6 V q c).Φ t.castSucc ∗ (dat6 V q c).owesAt () t.castSucc
    ∗ (∃ d, owns (c : Thread nD τ) (st6_0 t) fullShare ((dat6 V q c).before 0 t d))
    ∗ (∃ d, owns (c : Thread nD τ) (st6_1 t) fullShare ((dat6 V q c).before 1 t d))
    ∗ (∃ d, owns (c : Thread nD τ) (st6_2 t) fullShare ((dat6 V q c).before 2 t d))
    ∗ (∃ d, owns (c : Thread nD τ) (st6_3 t) fullShare ((dat6 V q c).before 3 t d))
    ∗ (∃ d, owns (c : Thread nD τ) (st6_4 t) fullShare ((dat6 V q c).before 4 t d))
    ∗ (∃ d, owns (c : Thread nD τ) (st6_5 t) fullShare ((dat6 V q c).before 5 t d))
    ∗ (∃ d, owns (c : Thread nD τ) (st6_6 t) fullShare ((dat6 V q c).before 6 t d))
    ∗ (∃ d, owns (c : Thread nD τ) (st6_7 t) fullShare ((dat6 V q c).before 7 t d))
    ∗ (∃ d, owns (c : Thread nD τ) (st6_8 t) fullShare ((dat6 V q c).before 8 t d))
    ∗ (∃ d, owns (c : Thread nD τ) (st6_9 t) fullShare ((dat6 V q c).before 9 t d)))

/-- and what it returns. -/
def bodyPost6 (q : Fin cfg6.W → PosShare TreeShare) (c : Dev nD) (t : Fin cfg6.N) : sProp 𝕄 :=
  iprop((dat6 V q c).Φ t.succ ∗ (dat6 V q c).owesAt () t.succ
    ∗ owns (c : Thread nD τ) (st6_0 t) fullShare ((dat6 V q c).after 0 t)
    ∗ owns (c : Thread nD τ) (st6_1 t) fullShare ((dat6 V q c).after 1 t)
    ∗ owns (c : Thread nD τ) (st6_2 t) fullShare ((dat6 V q c).after 2 t)
    ∗ owns (c : Thread nD τ) (st6_3 t) fullShare ((dat6 V q c).after 3 t)
    ∗ owns (c : Thread nD τ) (st6_4 t) fullShare ((dat6 V q c).after 4 t)
    ∗ owns (c : Thread nD τ) (st6_5 t) fullShare ((dat6 V q c).after 5 t)
    ∗ owns (c : Thread nD τ) (st6_6 t) fullShare ((dat6 V q c).after 6 t)
    ∗ owns (c : Thread nD τ) (st6_7 t) fullShare ((dat6 V q c).after 7 t)
    ∗ owns (c : Thread nD τ) (st6_8 t) fullShare ((dat6 V q c).after 8 t)
    ∗ owns (c : Thread nD τ) (st6_9 t) fullShare ((dat6 V q c).after 9 t))

/-- The body at any point: the inputs' memrefs hold their blocks (`before6_W`), so `sound_kernel6` applies; the
    invariant and the core's `owes` pass through unread. -/
theorem sound_body6 (q : Fin cfg6.W → PosShare TreeShare) (c : Dev nD) (t : Fin cfg6.N) :
    bodyPre6 V q c t ⊢ wp frame (wpE (defs₀ (F := F)) Variants.none c none) Set.univ (bodyAt6 t) (fun _ => bodyPost6 V q c t) := by
  unfold bodyPre6 bodyPost6 bodyAt6
  simp only [before6_0, before6_1, before6_2, before6_3, before6_4, before6_5, before6_6, before6_7]
  rw [show (dat6 V q c).Φ t.succ = (dat6 V q c).Φ t.castSucc from rfl,
    show (dat6 V q c).owesAt () t.succ = (dat6 V q c).owesAt () t.castSucc from rfl,
    after6_0, after6_1, after6_2, after6_3, after6_4, after6_5, after6_6, after6_7, after6_8, after6_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point and for every choice of shares. -/
theorem body_obligation6 (q : Fin cfg6.W → PosShare TreeShare) (c : Dev nD) : BodyObligation (dat6 (F := F) V q c) (defs₀ (F := F)) Variants.none () Set.univ := fun t => by
  rw [bigSep_W6, bigSep_W6]
  exact sound_body6 V q c t

end Cert.KernelIdeal.Fr
-- ==== Proof.KI.R7.lean ====
/-
  Region 7: a scaled matrix product. At grid point t the body reads the row block t of the node features (2000 rows
  of 64), the whole 64 x 64 weight matrix and the row block t of the per-node scale column (2000 rows of 1), and stores
  the block's product with the weights, each row multiplied by its scale, rounded to bf16. The output buffer is loaded
  before the store; the value read is not used.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The feature window's current staging buffer holds its block at every point, for any proof data whose array is
    the entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The weight window's likewise: its block index is constant, so it is fetched at the first point only, and at
    every later point the buffer still holds the same block. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- The scale window's likewise. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_0 : Rect S2000x64 := Rect.unit (s := S2000x64) ![0, 0] S2000x64.size inb_S2000x64_S2000x64_0_0
abbrev r7_1 : Rect S64x64 := Rect.unit (s := S64x64) ![0, 0] S64x64.size inb_S64x64_S64x64_0_0
abbrev r7_2 : Rect S2000x1 := Rect.unit (s := S2000x1) ![0, 0] S2000x1.size inb_S2000x1_S2000x1_0_0

/-! ## What the body leaves in the output window's buffer -/

/-- The output buffer after the body, from the input windows' blocks: its one store, over the whole buffer. -/
def out7_3 (x0 : Vec F S2000x64 .f32) (x1 : Vec F S64x64 .f32) (x2 : Vec F S2000x1 .f32) : Vec F S2000x64 .bf16 :=
  View.canon [⟨r7_0, k7_pay1 (View.ld x0 r7_0) (View.ld x1 r7_1) (View.ld x2 r7_2)⟩]

/-- The one store covers the buffer. -/
theorem cover7_3 (p0 : Vec F S2000x64 .bf16) (y : S2000x64.Idx) :
    ∃ pc ∈ ([⟨r7_0, p0⟩] : List (View.Piece (Elt F) S2000x64 .bf16)), y ∈ pc.1.set :=
  View.cover_of_tiled [⟨r7_0, p0⟩] S2000x64.size (by rfl) y

/-! ## The body's triple -/

set_option maxHeartbeats 1000000 in
/-- The body on whole staging buffers, the inputs' at read contents `x0 x1 x2` and the output's at anything, runs to
    the continuation holding the inputs' as they were and the output's at `out7_3 x0 x1 x2`. -/
theorem sound_kernel7 (c : Dev nD) (E : Set ℕ) (i : grid7.Coords) (arg1 : Memref sig .tc .vmem S2000x64 .f32) (harg1 : arg1.IsWhole) (arg2 : Memref sig .tc .vmem S64x64 .f32) (harg2 : arg2.IsWhole) (arg3 : Memref sig .tc .vmem S2000x1 .f32) (harg3 : arg3.IsWhole) (arg4 : Memref sig .tc .vmem S2000x64 .bf16) (harg4 : arg4.IsWhole)
    (x0 : Vec F S2000x64 .f32) (x1 : Vec F S64x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__matmul_scale_kernel i arg1 harg1 arg2 harg2 arg3 harg3 arg4 harg4) K := by
  simp only [cc7__matmul_scale_kernel_eq_skeleton]; unfold cc7__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them; after the body at point `t`
    each input's buffer at its block and the output's at `out7_3` of the input blocks; the invariant the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the body's triple applies; the invariant and
    what is owed pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Fr

end
-- ==== Proof.KI.R8.lean ====
/- Region 8 of @main: custom_call 8, `cc8__update_kernel` (pipeline 8), at a parameter `V` — the TensorCore's
   buffer contents when the region is entered —: each window's block at a point (`iblk8`), what the body leaves
   in each output window's buffer (`out8_8`, `out8_9`), the body's triple (`sound_kernel8`), the proof data
   (`dat8`, at any shares `q` of the input arrays: windows 0 and 1 read one array, so their shares cannot both be
   full) and the body obligation (`body_obligation8`), at any `F`. -/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): where the window is not
    fetched its block index has not moved, so the block kept from the point before is this point's. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s (`hA`) and whose body leaves the block in place (`hafter`): where the window is not
    fetched its block index has not moved, so the block kept from the point before is this point's. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s (`hA`) and whose body leaves the block in place (`hafter`): where the window is not
    fetched its block index has not moved, so the block kept from the point before is this point's. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is `V`'s (`hA`) and whose body leaves the block in place (`hafter`): where the window is not
    fetched its block index has not moved, so the block kept from the point before is this point's. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is `V`'s (`hA`) and whose body leaves the block in place (`hafter`): where the window is not
    fetched its block index has not moved, so the block kept from the point before is this point's. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, fetched there or not, for any proof
    data whose array is `V`'s (`hA`) and whose body leaves the block in place (`hafter`): where the window is not
    fetched its block index has not moved, so the block kept from the point before is this point's. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's current staging buffer holds its block at every point, fetched there or not, for any proof
    data whose array is `V`'s (`hA`) and whose body leaves the block in place (`hafter`): where the window is not
    fetched its block index has not moved, so the block kept from the point before is this point's. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7's current staging buffer holds its block at every point, fetched there or not, for any proof
    data whose array is `V`'s (`hA`) and whose body leaves the block in place (`hafter`): where the window is not
    fetched its block index has not moved, so the block kept from the point before is this point's. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

abbrev r8_0 : Rect S2000x64 := Rect.unit (s := S2000x64) ![0, 0] S2000x64.size inb_S2000x64_S2000x64_0_0
abbrev r8_1 : Rect S2000x1 := Rect.unit (s := S2000x1) ![0, 0] S2000x1.size inb_S2000x1_S2000x1_0_0
abbrev r8_2 : Rect S64x64 := Rect.unit (s := S64x64) ![0, 0] S64x64.size inb_S64x64_S64x64_0_0
abbrev r8_3 : Rect S1x64 := Rect.unit (s := S1x64) ![0, 0] S1x64.size inb_S1x64_S1x64_0_0

/-! ## What the body leaves in each output window's buffer -/

/-- Window 8's staging buffer after the body, from the input windows' blocks: its one store, of the whole block
    (the new first state: the old one plus the new second state). -/
def out8_8 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r8_0, k8_pay2 (k8_pay3 (View.ld x0 r8_0)) (k8_pay4 (View.ld x1 r8_0)) (k8_pay5 (View.ld x0 r8_0) (View.ld x1 r8_0) (View.ld x2 r8_0) (View.ld x3 r8_0) (View.ld x4 r8_1) (View.ld x5 r8_2) (View.ld x6 r8_3) (View.ld x7 r8_3))⟩]

/-- Window 9's staging buffer after the body, from the input windows' blocks: its one store, of the whole block
    (the new second state: the old one plus the update). -/
def out8_9 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r8_0, k8_pay1 (k8_pay4 (View.ld x1 r8_0)) (k8_pay5 (View.ld x0 r8_0) (View.ld x1 r8_0) (View.ld x2 r8_0) (View.ld x3 r8_0) (View.ld x4 r8_1) (View.ld x5 r8_2) (View.ld x6 r8_3) (View.ld x7 r8_3))⟩]

/-- Window 8's store tiles the buffer, so it covers it. -/
theorem cover8_8 (p0 : Vec F S2000x64 .f32) (y : S2000x64.Idx) :
    ∃ pc ∈ ([⟨r8_0, p0⟩] : List (View.Piece (Elt F) S2000x64 .f32)), y ∈ pc.1.set :=
  View.cover_of_tiled [⟨r8_0, p0⟩] S2000x64.size (by rfl) y

/-- Window 9's store tiles the buffer, so it covers it. -/
theorem cover8_9 (p0 : Vec F S2000x64 .f32) (y : S2000x64.Idx) :
    ∃ pc ∈ ([⟨r8_0, p0⟩] : List (View.Piece (Elt F) S2000x64 .f32)), y ∈ pc.1.set :=
  View.cover_of_tiled [⟨r8_0, p0⟩] S2000x64.size (by rfl) y

/-! ## The body's triple -/

set_option maxHeartbeats 4000000 in
/-- The kernel body on whole staging memrefs, the inputs' at read contents `xW` and the outputs' at anything, runs to
    the continuation holding the inputs' as they were and each output's at `out8_W` of the inputs': the printed
    functions are their skeletons, run through the part's call. -/
theorem sound_kernel8 (c : Dev nD) (E : Set ℕ) (i : grid8.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .bf16) (harg4 : arg4.IsWhole) (arg5 : Memref sig .tc .vmem S2000x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S2000x64 .f32) (harg10 : arg10.IsWhole)
    (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out8_8 x0 x1 x2 x3 x4 x5 x6 x7) ∗ owns (c : Thread nD τ) arg10 fullShare (out8_9 x0 x1 x2 x3 x4 x5 x6 x7)) -∗ K ⟨⟩))
      ⊢ wp frame (wpE (defs₀ (F := F)) Variants.none c none) E (cc8__update_kernel i arg1 harg1 arg2 harg2 arg3 harg3 arg4 harg4 arg5 harg5 arg6 harg6 arg7 harg7 arg8 harg8 arg9 harg9 arg10 harg10) K := by
  simp only [cc8__update_kernel_eq_skeleton]; unfold cc8__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover8_8 _)
  iexists _; isplitr
  swap; · iexact H9
  ipureintro
  exact View.read_writes_eq_canon _ _ _ (cover8_9 _)

/-! ## The pipeline's proof data -/

/-- The proof data of pipeline 8 on core `c`, at shares `q` of the input arrays: the arrays as the region finds
    them (`V`); after the body at point `t` each input's buffer at its block and each output's at `out8_W` of the
    input blocks; the invariant the scoped rest and the generator register, untouched; nothing owed. -/
def dat8 (q : Fin cfg8.W → PosShare TreeShare) (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => out8_8 (iblk8 V c 0 t) (iblk8 V c 1 t) (iblk8 V c 2 t) (iblk8 V c 3 t) (iblk8 V c 4 t) (iblk8 V c 5 t) (iblk8 V c 6 t) (iblk8 V c 7 t)
    | ⟨9, _⟩ => out8_9 (iblk8 V c 0 t) (iblk8 V c 1 t) (iblk8 V c 2 t) (iblk8 V c 3 t) (iblk8 V c 4 t) (iblk8 V c 5 t) (iblk8 V c 6 t) (iblk8 V c 7 t)
  Φ _ := Pipeline.ΦA spec8 c
  q := q
  owed _ := 0

/-- The proof data's arrays are the region-entry contents. -/
theorem A_eq8 (q : Fin cfg8.W → PosShare TreeShare) (c : Dev nD) (w : Fin cfg8.W) : (dat8 V q c).A w = V c (Pipeline.arrRef spec8 w) := by
  dsimp only [dat8]

/-- What the body leaves, window by window. -/
theorem after8_0 (q : Fin cfg8.W → PosShare TreeShare) (c : Dev nD) (t : Fin cfg8.N) : (dat8 V q c).after 0 t = iblk8 V c 0 t := by dsimp only [dat8]
theorem after8_1 (q : Fin cfg8.W → PosShare TreeShare) (c : Dev nD) (t : Fin cfg8.N) : (dat8 V q c).after 1 t = iblk8 V c 1 t := by dsimp only [dat8]
theorem after8_2 (q : Fin cfg8.W → PosShare TreeShare) (c : Dev nD) (t : Fin cfg8.N) : (dat8 V q c).after 2 t = iblk8 V c 2 t := by dsimp only [dat8]
theorem after8_3 (q : Fin cfg8.W → PosShare TreeShare) (c : Dev nD) (t : Fin cfg8.N) : (dat8 V q c).after 3 t = iblk8 V c 3 t := by dsimp only [dat8]
theorem after8_4 (q : Fin cfg8.W → PosShare TreeShare) (c : Dev nD) (t : Fin cfg8.N) : (dat8 V q c).after 4 t = iblk8 V c 4 t := by dsimp only [dat8]
theorem after8_5 (q : Fin cfg8.W → PosShare TreeShare) (c : Dev nD) (t : Fin cfg8.N) : (dat8 V q c).after 5 t = iblk8 V c 5 t := by dsimp only [dat8]
theorem after8_6 (q : Fin cfg8.W → PosShare TreeShare) (c : Dev nD) (t : Fin cfg8.N) : (dat8 V q c).after 6 t = iblk8 V c 6 t := by dsimp only [dat8]
theorem after8_7 (q : Fin cfg8.W → PosShare TreeShare) (c : Dev nD) (t : Fin cfg8.N) : (dat8 V q c).after 7 t = iblk8 V c 7 t := by dsimp only [dat8]
theorem after8_8 (q : Fin cfg8.W → PosShare TreeShare) (c : Dev nD) (t : Fin cfg8.N) : (dat8 V q c).after 8 t = out8_8 (iblk8 V c 0 t) (iblk8 V c 1 t) (iblk8 V c 2 t) (iblk8 V c 3 t) (iblk8 V c 4 t) (iblk8 V c 5 t) (iblk8 V c 6 t) (iblk8 V c 7 t) := by dsimp only [dat8]
theorem after8_9 (q : Fin cfg8.W → PosShare TreeShare) (c : Dev nD) (t : Fin cfg8.N) : (dat8 V q c).after 9 t = out8_9 (iblk8 V c 0 t) (iblk8 V c 1 t) (iblk8 V c 2 t) (iblk8 V c 3 t) (iblk8 V c 4 t) (iblk8 V c 5 t) (iblk8 V c 6 t) (iblk8 V c 7 t) := by dsimp only [dat8]

/-- Each input's current staging buffer holds its block at every point, fetched there or not. -/
theorem before8_0 (q : Fin cfg8.W → PosShare TreeShare) (c : Dev nD) (t : Fin cfg8.N) (d) : (dat8 V q c).before 0 t d = iblk8 V c 0 t :=
  before8_0_of V (dat8 V q c) (A_eq8 V q c 0) (after8_0 V q c) t d
theorem before8_1 (q : Fin cfg8.W → PosShare TreeShare) (c : Dev nD) (t : Fin cfg8.N) (d) : (dat8 V q c).before 1 t d = iblk8 V c 1 t :=
  before8_1_of V (dat8 V q c) (A_eq8 V q c 1) (after8_1 V q c) t d
theorem before8_2 (q : Fin cfg8.W → PosShare TreeShare) (c : Dev nD) (t : Fin cfg8.N) (d) : (dat8 V q c).before 2 t d = iblk8 V c 2 t :=
  before8_2_of V (dat8 V q c) (A_eq8 V q c 2) (after8_2 V q c) t d
theorem before8_3 (q : Fin cfg8.W → PosShare TreeShare) (c : Dev nD) (t : Fin cfg8.N) (d) : (dat8 V q c).before 3 t d = iblk8 V c 3 t :=
  before8_3_of V (dat8 V q c) (A_eq8 V q c 3) (after8_3 V q c) t d
theorem before8_4 (q : Fin cfg8.W → PosShare TreeShare) (c : Dev nD) (t : Fin cfg8.N) (d) : (dat8 V q c).before 4 t d = iblk8 V c 4 t :=
  before8_4_of V (dat8 V q c) (A_eq8 V q c 4) (after8_4 V q c) t d
theorem before8_5 (q : Fin cfg8.W → PosShare TreeShare) (c : Dev nD) (t : Fin cfg8.N) (d) : (dat8 V q c).before 5 t d = iblk8 V c 5 t :=
  before8_5_of V (dat8 V q c) (A_eq8 V q c 5) (after8_5 V q c) t d
theorem before8_6 (q : Fin cfg8.W → PosShare TreeShare) (c : Dev nD) (t : Fin cfg8.N) (d) : (dat8 V q c).before 6 t d = iblk8 V c 6 t :=
  before8_6_of V (dat8 V q c) (A_eq8 V q c 6) (after8_6 V q c) t d
theorem before8_7 (q : Fin cfg8.W → PosShare TreeShare) (c : Dev nD) (t : Fin cfg8.N) (d) : (dat8 V q c).before 7 t d = iblk8 V c 7 t :=
  before8_7_of V (dat8 V q c) (A_eq8 V q c 7) (after8_7 V q c) t d

/-! ## The body obligation, at a generic point -/

/-- What the body is called with at point `t`, the windows one by one, -/
def bodyPre8 (q : Fin cfg8.W → PosShare TreeShare) (c : Dev nD) (t : Fin cfg8.N) : sProp 𝕄 :=
  iprop((dat8 V q c).Φ t.castSucc ∗ (dat8 V q c).owesAt () t.castSucc
    ∗ (∃ d, owns (c : Thread nD τ) (st8_0 t) fullShare ((dat8 V q c).before 0 t d))
    ∗ (∃ d, owns (c : Thread nD τ) (st8_1 t) fullShare ((dat8 V q c).before 1 t d))
    ∗ (∃ d, owns (c : Thread nD τ) (st8_2 t) fullShare ((dat8 V q c).before 2 t d))
    ∗ (∃ d, owns (c : Thread nD τ) (st8_3 t) fullShare ((dat8 V q c).before 3 t d))
    ∗ (∃ d, owns (c : Thread nD τ) (st8_4 t) fullShare ((dat8 V q c).before 4 t d))
    ∗ (∃ d, owns (c : Thread nD τ) (st8_5 t) fullShare ((dat8 V q c).before 5 t d))
    ∗ (∃ d, owns (c : Thread nD τ) (st8_6 t) fullShare ((dat8 V q c).before 6 t d))
    ∗ (∃ d, owns (c : Thread nD τ) (st8_7 t) fullShare ((dat8 V q c).before 7 t d))
    ∗ (∃ d, owns (c : Thread nD τ) (st8_8 t) fullShare ((dat8 V q c).before 8 t d))
    ∗ (∃ d, owns (c : Thread nD τ) (st8_9 t) fullShare ((dat8 V q c).before 9 t d)))

/-- and what it returns. -/
def bodyPost8 (q : Fin cfg8.W → PosShare TreeShare) (c : Dev nD) (t : Fin cfg8.N) : sProp 𝕄 :=
  iprop((dat8 V q c).Φ t.succ ∗ (dat8 V q c).owesAt () t.succ
    ∗ owns (c : Thread nD τ) (st8_0 t) fullShare ((dat8 V q c).after 0 t)
    ∗ owns (c : Thread nD τ) (st8_1 t) fullShare ((dat8 V q c).after 1 t)
    ∗ owns (c : Thread nD τ) (st8_2 t) fullShare ((dat8 V q c).after 2 t)
    ∗ owns (c : Thread nD τ) (st8_3 t) fullShare ((dat8 V q c).after 3 t)
    ∗ owns (c : Thread nD τ) (st8_4 t) fullShare ((dat8 V q c).after 4 t)
    ∗ owns (c : Thread nD τ) (st8_5 t) fullShare ((dat8 V q c).after 5 t)
    ∗ owns (c : Thread nD τ) (st8_6 t) fullShare ((dat8 V q c).after 6 t)
    ∗ owns (c : Thread nD τ) (st8_7 t) fullShare ((dat8 V q c).after 7 t)
    ∗ owns (c : Thread nD τ) (st8_8 t) fullShare ((dat8 V q c).after 8 t)
    ∗ owns (c : Thread nD τ) (st8_9 t) fullShare ((dat8 V q c).after 9 t))

/-- The body at any point: the inputs' memrefs hold their blocks (`before8_W`), so `sound_kernel8` applies; the
    invariant and the core's `owes` pass through unread. -/
theorem sound_body8 (q : Fin cfg8.W → PosShare TreeShare) (c : Dev nD) (t : Fin cfg8.N) :
    bodyPre8 V q c t ⊢ wp frame (wpE (defs₀ (F := F)) Variants.none c none) Set.univ (bodyAt8 t) (fun _ => bodyPost8 V q c t) := by
  unfold bodyPre8 bodyPost8 bodyAt8
  simp only [before8_0, before8_1, before8_2, before8_3, before8_4, before8_5, before8_6, before8_7]
  rw [show (dat8 V q c).Φ t.succ = (dat8 V q c).Φ t.castSucc from rfl,
    show (dat8 V q c).owesAt () t.succ = (dat8 V q c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point and for every choice of shares. -/
theorem body_obligation8 (q : Fin cfg8.W → PosShare TreeShare) (c : Dev nD) : BodyObligation (dat8 (F := F) V q c) (defs₀ (F := F)) Variants.none () Set.univ := fun t => by
  rw [bigSep_W8, bigSep_W8]
  exact sound_body8 V q c t

end Cert.KernelIdeal.Fr
-- ==== Proof.KI.R9.lean ====
/-
  Region 9: a scaled matrix product. At grid point t the body reads the row block t of the node features (2000 rows
  of 64), the whole 64 x 64 weight matrix and the row block t of the per-node scale column (2000 rows of 1), and stores
  the block's product with the weights, each row multiplied by its scale, rounded to bf16. The output buffer is loaded
  before the store; the value read is not used.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The feature window's current staging buffer holds its block at every point, for any proof data whose array is
    the entry contents and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The weight window's likewise: its block index is constant, so it is fetched at the first point only, and at
    every later point the buffer still holds the same block. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- The scale window's likewise. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

abbrev r9_0 : Rect S2000x64 := Rect.unit (s := S2000x64) ![0, 0] S2000x64.size inb_S2000x64_S2000x64_0_0
abbrev r9_1 : Rect S64x64 := Rect.unit (s := S64x64) ![0, 0] S64x64.size inb_S64x64_S64x64_0_0
abbrev r9_2 : Rect S2000x1 := Rect.unit (s := S2000x1) ![0, 0] S2000x1.size inb_S2000x1_S2000x1_0_0

/-! ## What the body leaves in the output window's buffer -/

/-- The output buffer after the body, from the input windows' blocks: its one store, over the whole buffer. -/
def out9_3 (x0 : Vec F S2000x64 .f32) (x1 : Vec F S64x64 .f32) (x2 : Vec F S2000x1 .f32) : Vec F S2000x64 .bf16 :=
  View.canon [⟨r9_0, k9_pay1 (View.ld x0 r9_0) (View.ld x1 r9_1) (View.ld x2 r9_2)⟩]

/-- The one store covers the buffer. -/
theorem cover9_3 (p0 : Vec F S2000x64 .bf16) (y : S2000x64.Idx) :
    ∃ pc ∈ ([⟨r9_0, p0⟩] : List (View.Piece (Elt F) S2000x64 .bf16)), y ∈ pc.1.set :=
  View.cover_of_tiled [⟨r9_0, p0⟩] S2000x64.size (by rfl) y

/-! ## The body's triple -/

set_option maxHeartbeats 1000000 in
/-- The body on whole staging buffers, the inputs' at read contents `x0 x1 x2` and the output's at anything, runs to
    the continuation holding the inputs' as they were and the output's at `out9_3 x0 x1 x2`. -/
theorem sound_kernel9 (c : Dev nD) (E : Set ℕ) (i : grid9.Coords) (arg1 : Memref sig .tc .vmem S2000x64 .f32) (harg1 : arg1.IsWhole) (arg2 : Memref sig .tc .vmem S64x64 .f32) (harg2 : arg2.IsWhole) (arg3 : Memref sig .tc .vmem S2000x1 .f32) (harg3 : arg3.IsWhole) (arg4 : Memref sig .tc .vmem S2000x64 .bf16) (harg4 : arg4.IsWhole)
    (x0 : Vec F S2000x64 .f32) (x1 : Vec F S64x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__matmul_scale_kernel i arg1 harg1 arg2 harg2 arg3 harg3 arg4 harg4) K := by
  simp only [cc9__matmul_scale_kernel_eq_skeleton]; unfold cc9__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the region finds them; after the body at point `t`
    each input's buffer at its block and the output's at `out9_3` of the input blocks; the invariant the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' buffers hold their blocks, so the body's triple applies; the invariant and
    what is owed pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Fr

end
-- ==== Proof.KI.R10.lean ====
/- Region 10 of @main: custom_call 10, `cc10__update_kernel` (pipeline 10), at a parameter `V` — the TensorCore's
   buffer contents when the region is entered —: each window's block at a point (`iblk10`), what the body leaves
   in each output window's buffer (`out10_8`, `out10_9`), the body's triple (`sound_kernel10`), the proof data
   (`dat10`, at any shares `q` of the input arrays: windows 0 and 1 read one array, so their shares cannot both be
   full) and the body obligation (`body_obligation10`), at any `F`. -/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s (`hA`) and whose body leaves the block in place (`hafter`): where the window is not
    fetched its block index has not moved, so the block kept from the point before is this point's. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof
    data whose array is `V`'s (`hA`) and whose body leaves the block in place (`hafter`): where the window is not
    fetched its block index has not moved, so the block kept from the point before is this point's. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof
    data whose array is `V`'s (`hA`) and whose body leaves the block in place (`hafter`): where the window is not
    fetched its block index has not moved, so the block kept from the point before is this point's. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof
    data whose array is `V`'s (`hA`) and whose body leaves the block in place (`hafter`): where the window is not
    fetched its block index has not moved, so the block kept from the point before is this point's. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof
    data whose array is `V`'s (`hA`) and whose body leaves the block in place (`hafter`): where the window is not
    fetched its block index has not moved, so the block kept from the point before is this point's. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, fetched there or not, for any proof
    data whose array is `V`'s (`hA`) and whose body leaves the block in place (`hafter`): where the window is not
    fetched its block index has not moved, so the block kept from the point before is this point's. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- Input window 6's current staging buffer holds its block at every point, fetched there or not, for any proof
    data whose array is `V`'s (`hA`) and whose body leaves the block in place (`hafter`): where the window is not
    fetched its block index has not moved, so the block kept from the point before is this point's. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-- Input window 7's current staging buffer holds its block at every point, fetched there or not, for any proof
    data whose array is `V`'s (`hA`) and whose body leaves the block in place (`hafter`): where the window is not
    fetched its block index has not moved, so the block kept from the point before is this point's. -/
theorem before10_7_of {c : Dev nD} (dat : Dat τ (Elt F) Unit ℕ (UR sig nD τ) ℕ cfg10 c) (hA : dat.A 7 = V c (Pipeline.arrRef spec10 7))
    (hafter : ∀ t, dat.after 7 t = iblk10 V c 7 t) (t : Fin cfg10.N) (d) : dat.before 7 t d = iblk10 V c 7 t :=
  (dat.before_in_eq_fetched 7 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_0 : Rect S2000x64 := Rect.unit (s := S2000x64) ![0, 0] S2000x64.size inb_S2000x64_S2000x64_0_0
abbrev r10_1 : Rect S2000x1 := Rect.unit (s := S2000x1) ![0, 0] S2000x1.size inb_S2000x1_S2000x1_0_0
abbrev r10_2 : Rect S64x64 := Rect.unit (s := S64x64) ![0, 0] S64x64.size inb_S64x64_S64x64_0_0
abbrev r10_3 : Rect S1x64 := Rect.unit (s := S1x64) ![0, 0] S1x64.size inb_S1x64_S1x64_0_0

/-! ## What the body leaves in each output window's buffer -/

/-- Window 8's staging buffer after the body, from the input windows' blocks: its one store, of the whole block
    (the new first state: the old one plus the new second state). -/
def out10_8 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r10_0, k10_pay2 (k10_pay3 (View.ld x0 r10_0)) (k10_pay4 (View.ld x1 r10_0)) (k10_pay5 (View.ld x0 r10_0) (View.ld x1 r10_0) (View.ld x2 r10_0) (View.ld x3 r10_0) (View.ld x4 r10_1) (View.ld x5 r10_2) (View.ld x6 r10_3) (View.ld x7 r10_3))⟩]

/-- Window 9's staging buffer after the body, from the input windows' blocks: its one store, of the whole block
    (the new second state: the old one plus the update). -/
def out10_9 (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) : Vec F S2000x64 .f32 :=
  View.canon [⟨r10_0, k10_pay1 (k10_pay4 (View.ld x1 r10_0)) (k10_pay5 (View.ld x0 r10_0) (View.ld x1 r10_0) (View.ld x2 r10_0) (View.ld x3 r10_0) (View.ld x4 r10_1) (View.ld x5 r10_2) (View.ld x6 r10_3) (View.ld x7 r10_3))⟩]

/-- Window 8's store tiles the buffer, so it covers it. -/
theorem cover10_8 (p0 : Vec F S2000x64 .f32) (y : S2000x64.Idx) :
    ∃ pc ∈ ([⟨r10_0, p0⟩] : List (View.Piece (Elt F) S2000x64 .f32)), y ∈ pc.1.set :=
  View.cover_of_tiled [⟨r10_0, p0⟩] S2000x64.size (by rfl) y

/-- Window 9's store tiles the buffer, so it covers it. -/
theorem cover10_9 (p0 : Vec F S2000x64 .f32) (y : S2000x64.Idx) :
    ∃ pc ∈ ([⟨r10_0, p0⟩] : List (View.Piece (Elt F) S2000x64 .f32)), y ∈ pc.1.set :=
  View.cover_of_tiled [⟨r10_0, p0⟩] S2000x64.size (by rfl) y

/-! ## The body's triple -/

set_option maxHeartbeats 4000000 in
/-- The kernel body on whole staging memrefs, the inputs' at read contents `xW` and the outputs' at anything, runs to
    the continuation holding the inputs' as they were and each output's at `out10_W` of the inputs': the printed
    functions are their skeletons, run through the part's call. -/
theorem sound_kernel10 (c : Dev nD) (E : Set ℕ) (i : grid10.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .bf16) (harg4 : arg4.IsWhole) (arg5 : Memref sig .tc .vmem S2000x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S2000x64 .f32) (harg9 : arg9.IsWhole) (arg10 : Memref sig .tc .vmem S2000x64 .f32) (harg10 : arg10.IsWhole)
    (x0 : Vec F S2000x64 .f32) (x1 : Vec F S2000x64 .f32) (x2 : Vec F S2000x64 .f32) (x3 : Vec F S2000x64 .bf16) (x4 : Vec F S2000x1 .f32) (x5 : Vec F S64x64 .f32) (x6 : Vec F S1x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out10_8 x0 x1 x2 x3 x4 x5 x6 x7) ∗ owns (c : Thread nD τ) arg10 fullShare (out10_9 x0 x1 x2 x3 x4 x5 x6 x7)) -∗ K ⟨⟩))
      ⊢ wp frame (wpE (defs₀ (F := F)) Variants.none c none) E (cc10__update_kernel i arg1 harg1 arg2 harg2 arg3 harg3 arg4 harg4 arg5 harg5 arg6 harg6 arg7 harg7 arg8 harg8 arg9 harg9 arg10 harg10) K := by
  simp only [cc10__update_kernel_eq_skeleton]; unfold cc10__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover10_8 _)
  iexists _; isplitr
  swap; · iexact H9
  ipureintro
  exact View.read_writes_eq_canon _ _ _ (cover10_9 _)

/-! ## The pipeline's proof data -/

/-- The proof data of pipeline 10 on core `c`, at shares `q` of the input arrays: the arrays as the region finds
    them (`V`); after the body at point `t` each input's buffer at its block and each output's at `out10_W` of the
    input blocks; the invariant the scoped rest and the generator register, untouched; nothing owed. -/
def dat10 (q : Fin cfg10.W → PosShare TreeShare) (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => out10_8 (iblk10 V c 0 t) (iblk10 V c 1 t) (iblk10 V c 2 t) (iblk10 V c 3 t) (iblk10 V c 4 t) (iblk10 V c 5 t) (iblk10 V c 6 t) (iblk10 V c 7 t)
    | ⟨9, _⟩ => out10_9 (iblk10 V c 0 t) (iblk10 V c 1 t) (iblk10 V c 2 t) (iblk10 V c 3 t) (iblk10 V c 4 t) (iblk10 V c 5 t) (iblk10 V c 6 t) (iblk10 V c 7 t)
  Φ _ := Pipeline.ΦA spec10 c
  q := q
  owed _ := 0

/-- The proof data's arrays are the region-entry contents. -/
theorem A_eq10 (q : Fin cfg10.W → PosShare TreeShare) (c : Dev nD) (w : Fin cfg10.W) : (dat10 V q c).A w = V c (Pipeline.arrRef spec10 w) := by
  dsimp only [dat10]

/-- What the body leaves, window by window. -/
theorem after10_0 (q : Fin cfg10.W → PosShare TreeShare) (c : Dev nD) (t : Fin cfg10.N) : (dat10 V q c).after 0 t = iblk10 V c 0 t := by dsimp only [dat10]
theorem after10_1 (q : Fin cfg10.W → PosShare TreeShare) (c : Dev nD) (t : Fin cfg10.N) : (dat10 V q c).after 1 t = iblk10 V c 1 t := by dsimp only [dat10]
theorem after10_2 (q : Fin cfg10.W → PosShare TreeShare) (c : Dev nD) (t : Fin cfg10.N) : (dat10 V q c).after 2 t = iblk10 V c 2 t := by dsimp only [dat10]
theorem after10_3 (q : Fin cfg10.W → PosShare TreeShare) (c : Dev nD) (t : Fin cfg10.N) : (dat10 V q c).after 3 t = iblk10 V c 3 t := by dsimp only [dat10]
theorem after10_4 (q : Fin cfg10.W → PosShare TreeShare) (c : Dev nD) (t : Fin cfg10.N) : (dat10 V q c).after 4 t = iblk10 V c 4 t := by dsimp only [dat10]
theorem after10_5 (q : Fin cfg10.W → PosShare TreeShare) (c : Dev nD) (t : Fin cfg10.N) : (dat10 V q c).after 5 t = iblk10 V c 5 t := by dsimp only [dat10]
theorem after10_6 (q : Fin cfg10.W → PosShare TreeShare) (c : Dev nD) (t : Fin cfg10.N) : (dat10 V q c).after 6 t = iblk10 V c 6 t := by dsimp only [dat10]
theorem after10_7 (q : Fin cfg10.W → PosShare TreeShare) (c : Dev nD) (t : Fin cfg10.N) : (dat10 V q c).after 7 t = iblk10 V c 7 t := by dsimp only [dat10]
theorem after10_8 (q : Fin cfg10.W → PosShare TreeShare) (c : Dev nD) (t : Fin cfg10.N) : (dat10 V q c).after 8 t = out10_8 (iblk10 V c 0 t) (iblk10 V c 1 t) (iblk10 V c 2 t) (iblk10 V c 3 t) (iblk10 V c 4 t) (iblk10 V c 5 t) (iblk10 V c 6 t) (iblk10 V c 7 t) := by dsimp only [dat10]
theorem after10_9 (q : Fin cfg10.W → PosShare TreeShare) (c : Dev nD) (t : Fin cfg10.N) : (dat10 V q c).after 9 t = out10_9 (iblk10 V c 0 t) (iblk10 V c 1 t) (iblk10 V c 2 t) (iblk10 V c 3 t) (iblk10 V c 4 t) (iblk10 V c 5 t) (iblk10 V c 6 t) (iblk10 V c 7 t) := by dsimp only [dat10]

/-- Each input's current staging buffer holds its block at every point, fetched there or not. -/
theorem before10_0 (q : Fin cfg10.W → PosShare TreeShare) (c : Dev nD) (t : Fin cfg10.N) (d) : (dat10 V q c).before 0 t d = iblk10 V c 0 t :=
  before10_0_of V (dat10 V q c) (A_eq10 V q c 0) (after10_0 V q c) t d
theorem before10_1 (q : Fin cfg10.W → PosShare TreeShare) (c : Dev nD) (t : Fin cfg10.N) (d) : (dat10 V q c).before 1 t d = iblk10 V c 1 t :=
  before10_1_of V (dat10 V q c) (A_eq10 V q c 1) (after10_1 V q c) t d
theorem before10_2 (q : Fin cfg10.W → PosShare TreeShare) (c : Dev nD) (t : Fin cfg10.N) (d) : (dat10 V q c).before 2 t d = iblk10 V c 2 t :=
  before10_2_of V (dat10 V q c) (A_eq10 V q c 2) (after10_2 V q c) t d
theorem before10_3 (q : Fin cfg10.W → PosShare TreeShare) (c : Dev nD) (t : Fin cfg10.N) (d) : (dat10 V q c).before 3 t d = iblk10 V c 3 t :=
  before10_3_of V (dat10 V q c) (A_eq10 V q c 3) (after10_3 V q c) t d
theorem before10_4 (q : Fin cfg10.W → PosShare TreeShare) (c : Dev nD) (t : Fin cfg10.N) (d) : (dat10 V q c).before 4 t d = iblk10 V c 4 t :=
  before10_4_of V (dat10 V q c) (A_eq10 V q c 4) (after10_4 V q c) t d
theorem before10_5 (q : Fin cfg10.W → PosShare TreeShare) (c : Dev nD) (t : Fin cfg10.N) (d) : (dat10 V q c).before 5 t d = iblk10 V c 5 t :=
  before10_5_of V (dat10 V q c) (A_eq10 V q c 5) (after10_5 V q c) t d
theorem before10_6 (q : Fin cfg10.W → PosShare TreeShare) (c : Dev nD) (t : Fin cfg10.N) (d) : (dat10 V q c).before 6 t d = iblk10 V c 6 t :=
  before10_6_of V (dat10 V q c) (A_eq10 V q c 6) (after10_6 V q c) t d
theorem before10_7 (q : Fin cfg10.W → PosShare TreeShare) (c : Dev nD) (t : Fin cfg10.N) (d) : (dat10 V q c).before 7 t d = iblk10 V c 7 t :=
  before10_7_of V (dat10 V q c) (A_eq10 V q c 7) (after10_7 V q c) t d

/-! ## The body obligation, at a generic point -/

/-- What the body is called with at point `t`, the windows one by one, -/
def bodyPre10 (q : Fin cfg10.W → PosShare TreeShare) (c : Dev nD) (t : Fin cfg10.N) : sProp 𝕄 :=
  iprop((dat10 V q c).Φ t.castSucc ∗ (dat10 V q c).owesAt () t.castSucc
    ∗ (∃ d, owns (c : Thread nD τ) (st10_0 t) fullShare ((dat10 V q c).before 0 t d))
    ∗ (∃ d, owns (c : Thread nD τ) (st10_1 t) fullShare ((dat10 V q c).before 1 t d))
    ∗ (∃ d, owns (c : Thread nD τ) (st10_2 t) fullShare ((dat10 V q c).before 2 t d))
    ∗ (∃ d, owns (c : Thread nD τ) (st10_3 t) fullShare ((dat10 V q c).before 3 t d))
    ∗ (∃ d, owns (c : Thread nD τ) (st10_4 t) fullShare ((dat10 V q c).before 4 t d))
    ∗ (∃ d, owns (c : Thread nD τ) (st10_5 t) fullShare ((dat10 V q c).before 5 t d))
    ∗ (∃ d, owns (c : Thread nD τ) (st10_6 t) fullShare ((dat10 V q c).before 6 t d))
    ∗ (∃ d, owns (c : Thread nD τ) (st10_7 t) fullShare ((dat10 V q c).before 7 t d))
    ∗ (∃ d, owns (c : Thread nD τ) (st10_8 t) fullShare ((dat10 V q c).before 8 t d))
    ∗ (∃ d, owns (c : Thread nD τ) (st10_9 t) fullShare ((dat10 V q c).before 9 t d)))

/-- and what it returns. -/
def bodyPost10 (q : Fin cfg10.W → PosShare TreeShare) (c : Dev nD) (t : Fin cfg10.N) : sProp 𝕄 :=
  iprop((dat10 V q c).Φ t.succ ∗ (dat10 V q c).owesAt () t.succ
    ∗ owns (c : Thread nD τ) (st10_0 t) fullShare ((dat10 V q c).after 0 t)
    ∗ owns (c : Thread nD τ) (st10_1 t) fullShare ((dat10 V q c).after 1 t)
    ∗ owns (c : Thread nD τ) (st10_2 t) fullShare ((dat10 V q c).after 2 t)
    ∗ owns (c : Thread nD τ) (st10_3 t) fullShare ((dat10 V q c).after 3 t)
    ∗ owns (c : Thread nD τ) (st10_4 t) fullShare ((dat10 V q c).after 4 t)
    ∗ owns (c : Thread nD τ) (st10_5 t) fullShare ((dat10 V q c).after 5 t)
    ∗ owns (c : Thread nD τ) (st10_6 t) fullShare ((dat10 V q c).after 6 t)
    ∗ owns (c : Thread nD τ) (st10_7 t) fullShare ((dat10 V q c).after 7 t)
    ∗ owns (c : Thread nD τ) (st10_8 t) fullShare ((dat10 V q c).after 8 t)
    ∗ owns (c : Thread nD τ) (st10_9 t) fullShare ((dat10 V q c).after 9 t))

/-- The body at any point: the inputs' memrefs hold their blocks (`before10_W`), so `sound_kernel10` applies; the
    invariant and the core's `owes` pass through unread. -/
theorem sound_body10 (q : Fin cfg10.W → PosShare TreeShare) (c : Dev nD) (t : Fin cfg10.N) :
    bodyPre10 V q c t ⊢ wp frame (wpE (defs₀ (F := F)) Variants.none c none) Set.univ (bodyAt10 t) (fun _ => bodyPost10 V q c t) := by
  unfold bodyPre10 bodyPost10 bodyAt10
  simp only [before10_0, before10_1, before10_2, before10_3, before10_4, before10_5, before10_6, before10_7]
  rw [show (dat10 V q c).Φ t.succ = (dat10 V q c).Φ t.castSucc from rfl,
    show (dat10 V q c).owesAt () t.succ = (dat10 V q c).owesAt () t.castSucc from rfl,
    after10_0, after10_1, after10_2, after10_3, after10_4, after10_5, after10_6, after10_7, after10_8, after10_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel10 c Set.univ _ _ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) (iblk10 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point and for every choice of shares. -/
theorem body_obligation10 (q : Fin cfg10.W → PosShare TreeShare) (c : Dev nD) : BodyObligation (dat10 (F := F) V q c) (defs₀ (F := F)) Variants.none () Set.univ := fun t => by
  rw [bigSep_W10, bigSep_W10]
  exact sound_body10 V q c t

end Cert.KernelIdeal.Fr
-- ==== Proof.KI.R11.lean ====
/-
  Region 11: the decoder. At grid point t the body reads the row block t of the node states (2000 rows of 64),
  the whole weight matrix and the bias row, and stores the block's product with the weights plus the bias row
  broadcast over the rows. The output buffer is loaded before the store; the value read is not used.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- The whole output block, as a rectangle. -/
abbrev r11_out : Rect S2000x1 := Rect.unit (s := S2000x1) ![0, 0] S2000x1.size inb_S2000x1_S2000x1_0_0

/-- The output block after the body: its one store, of the whole block. -/
abbrev r11_0 : Rect S2000x64 := Rect.unit (s := S2000x64) ![0, 0] S2000x64.size inb_S2000x64_S2000x64_0_0
abbrev r11_1 : Rect S64x1 := Rect.unit (s := S64x1) ![0, 0] S64x1.size inb_S64x1_S64x1_0_0
abbrev r11_2 : Rect S1x1 := Rect.unit (s := S1x1) ![0, 0] S1x1.size inb_S1x1_S1x1_0_0

def out11_3 (x0 : Vec F S2000x64 .f32) (x1 : Vec F S64x1 .f32) (x2 : Vec F S1x1 .f32) : Vec F S2000x1 .f32 :=
  View.canon [⟨r11_out, k11_pay1 (View.ld x0 r11_0) (View.ld x1 r11_1) (View.ld x2 r11_2)⟩]

/-- The store covers the block. -/
theorem cover11_3 (p0 : Vec F S2000x1 .f32) (y : S2000x1.Idx) :
    ∃ pc ∈ ([⟨r11_out, p0⟩] : List (View.Piece (Elt F) S2000x1 .f32)), y ∈ pc.1.set :=
  View.cover_of_tiled [⟨r11_out, p0⟩] S2000x1.size (by rfl) y

set_option maxHeartbeats 1000000 in
/-- The body on whole staging memrefs: the inputs keep their contents, the output ends at `out11_3` of the inputs'. -/
theorem sound_kernel11 (c : Dev nD) (E : Set ℕ) (i : grid11.Coords)
    (arg1 : Memref sig .tc .vmem S2000x64 .f32) (harg1 : arg1.IsWhole) (arg2 : Memref sig .tc .vmem S64x1 .f32) (harg2 : arg2.IsWhole)
    (arg3 : Memref sig .tc .vmem S1x1 .f32) (harg3 : arg3.IsWhole) (arg4 : Memref sig .tc .vmem S2000x1 .f32) (harg4 : arg4.IsWhole)
    (x0 : Vec F S2000x64 .f32) (x1 : Vec F S64x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1 x2)) -∗ K ⟨⟩))
      ⊢ wp frame (wpE (defs₀ (F := F)) Variants.none c none) E (cc11__linear_bias_kernel i arg1 harg1 arg2 harg2 arg3 harg3 arg4 harg4) K := by
  simp only [cc11__linear_bias_kernel_eq_skeleton]; unfold cc11__linear_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-- The proof data of pipeline 0 on core `c`. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation11 (c : Dev nD) : BodyObligation (dat11 (F := F) V c) (defs₀ (F := F)) Variants.none () Set.univ := fun t => by
  rw [bigSep_W11, bigSep_W11]
  exact sound_body11 V c t

end Cert.KernelIdeal.Fr

end
-- ==== Proof.KI.Q2.lean ====
/-
  The shares region 2's windows hold their arrays at. Its first two input windows read one array, each at one half of
  the full share; every other window's array is held whole.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def q2 : Fin cfg2.W → PosShare TreeShare := fun w => match w.val with
  | 0 => fullShare.left
  | 1 => fullShare.right
  | _ => fullShare
theorem q2_0 : q2 (0 : Fin 10) = fullShare.left := rfl
theorem q2_1 : q2 (1 : Fin 10) = fullShare.right := rfl
theorem q2_2 : q2 (2 : Fin 10) = fullShare := rfl
theorem q2_3 : q2 (3 : Fin 10) = fullShare := rfl
theorem q2_4 : q2 (4 : Fin 10) = fullShare := rfl
theorem q2_5 : q2 (5 : Fin 10) = fullShare := rfl
theorem q2_6 : q2 (6 : Fin 10) = fullShare := rfl
theorem q2_7 : q2 (7 : Fin 10) = fullShare := rfl
theorem q2_8 : q2 (8 : Fin 10) = fullShare := rfl
theorem q2_9 : q2 (9 : Fin 10) = fullShare := rfl

end Cert.KernelIdeal.Fr

end
-- ==== Proof.KI.Wdefs.lean ====
/-
  The contents of every unscoped buffer at each boundary between two items of the main program: a fold from the launch
  memory through the host stretches (each operation's result written over its buffer) and the kernel regions (each
  region's arrays at what its write-backs leave, every other buffer kept).
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.R0
import proofs.«131582_j65292092834213_2_alg».proof.Proof.KI.R1
import proofs.«131582_j65292092834213_2_alg».proof.Proof.KI.R2
import proofs.«131582_j65292092834213_2_alg».proof.Proof.KI.R3
import proofs.«131582_j65292092834213_2_alg».proof.Proof.KI.R4
import proofs.«131582_j65292092834213_2_alg».proof.Proof.KI.R5
import proofs.«131582_j65292092834213_2_alg».proof.Proof.KI.R6
import proofs.«131582_j65292092834213_2_alg».proof.Proof.KI.R7
import proofs.«131582_j65292092834213_2_alg».proof.Proof.KI.R8
import proofs.«131582_j65292092834213_2_alg».proof.Proof.KI.R9
import proofs.«131582_j65292092834213_2_alg».proof.Proof.KI.R10
import proofs.«131582_j65292092834213_2_alg».proof.Proof.KI.R11
import proofs.«131582_j65292092834213_2_alg».proof.Proof.KI.Q2
import proofs.«131582_j65292092834213_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The contents region 0 is entered from, read at the TensorCore's references. -/
abbrev Vw1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Vw1 m ρ) c).arrAt w cfg0.N
theorem W2_arr (c : Dev nD) (w : Fin cfg0.W) :
    W2 m ρ c (Proc.devRef .tc (Pipeline.arrRef spec0 w)) = (dat0 (Vw1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (dat0 (Vw1 m ρ) c).arrAt w cfg0.N = (fun c b => W2 m ρ c b : (c : Dev nD) → (b : Ref sig .tc) → Buf (Elt F) ((c : Thread nD τ).loc b)) c (Pipeline.arrRef spec0 w) :=
  (W2_arr m ρ c w).symm
theorem hrest0 (c : Dev nD) : ∀ b, b ∉ Finset.univ.image (Pipeline.arrRef spec0) → (fun c b => W2 m ρ c b : (c : Dev nD) → (b : Ref sig .tc) → Buf (Elt F) ((c : Thread nD τ).loc b)) c b = Vw1 m ρ c b :=
  fun b hb => W2_of_ne m ρ c b fun w e => hb (Finset.mem_image.mpr ⟨w, Finset.mem_univ _, e⟩)
/-- The contents region 1 is entered from, read at the TensorCore's references. -/
abbrev Vw2 : (c : Dev nD) → (b : Ref sig .tc) → Buf (Elt F) ((c : Thread nD τ).loc b) := fun c b => W2 m ρ c b
/-- At region 1's exit: its arrays at what the pipeline leaves, every other buffer as entered. -/
def W3 (c : Dev nD) : Valuation τ sig (Elt F) :=
  Pipeline.withArrays spec1 c (W2 m ρ c) fun w => (dat1 (Vw2 m ρ) c).arrAt w cfg1.N
theorem W3_arr (c : Dev nD) (w : Fin cfg1.W) :
    W3 m ρ c (Proc.devRef .tc (Pipeline.arrRef spec1 w)) = (dat1 (Vw2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem hF1 (c : Dev nD) (w : Fin cfg1.W) : (dat1 (Vw2 m ρ) c).arrAt w cfg1.N = (fun c b => W3 m ρ c b : (c : Dev nD) → (b : Ref sig .tc) → Buf (Elt F) ((c : Thread nD τ).loc b)) c (Pipeline.arrRef spec1 w) :=
  (W3_arr m ρ c w).symm
theorem hrest1 (c : Dev nD) : ∀ b, b ∉ Finset.univ.image (Pipeline.arrRef spec1) → (fun c b => W3 m ρ c b : (c : Dev nD) → (b : Ref sig .tc) → Buf (Elt F) ((c : Thread nD τ).loc b)) c b = Vw2 m ρ c b :=
  fun b hb => W3_of_ne m ρ c b fun w e => hb (Finset.mem_image.mpr ⟨w, Finset.mem_univ _, e⟩)
/-- After the host stretch `hostOps2`. -/
abbrev W4 : Dev nD → Valuation τ sig (Elt F) := fun c => StableHlo.after hostOps2 (W3 m ρ c)
/-- The contents region 2 is entered from, read at the TensorCore's references. -/
abbrev Vw4 : (c : Dev nD) → (b : Ref sig .tc) → Buf (Elt F) ((c : Thread nD τ).loc b) := fun c b => W4 m ρ c b
/-- At region 2's exit: the two output arrays at what the pipeline leaves, every other buffer as entered (the input
    windows' arrays, two of them one array, are not written). -/
def W5 (c : Dev nD) : Valuation τ sig (Elt F) :=
  Function.update (Function.update (W4 m ρ c) main_v29_0 ((dat2 (Vw4 m ρ) q2 c).arrAt 8 cfg2.N : Buf (Elt F) ((c : Thread nD τ).loc main_v29_0)))
    main_v29_1 ((dat2 (Vw4 m ρ) q2 c).arrAt 9 cfg2.N : Buf (Elt F) ((c : Thread nD τ).loc main_v29_1))
theorem W5_out0 (c : Dev nD) : W5 m ρ c (Proc.devRef .tc main_v29_0) = (dat2 (Vw4 m ρ) q2 c).arrAt 8 cfg2.N := by
  unfold W5
  rw [Function.update_of_ne (StableHlo.devRef_ne_of_ne (by decide) : (Proc.devRef .tc main_v29_0 : DevRef τ sig) ≠ Proc.devRef .tc main_v29_1), Function.update_self]
theorem W5_out1 (c : Dev nD) : W5 m ρ c (Proc.devRef .tc main_v29_1) = (dat2 (Vw4 m ρ) q2 c).arrAt 9 cfg2.N := by
  unfold W5; rw [Function.update_self]
theorem W5_of_ne (c : Dev nD) (b : Ref sig .tc) (h0 : b ≠ main_v29_0) (h1 : b ≠ main_v29_1) :
    W5 m ρ c (Proc.devRef .tc b) = W4 m ρ c (Proc.devRef .tc b) := by
  unfold W5
  rw [Function.update_of_ne (StableHlo.devRef_ne_of_ne h1 : (Proc.devRef .tc b : DevRef τ sig) ≠ Proc.devRef .tc main_v29_1),
    Function.update_of_ne (StableHlo.devRef_ne_of_ne h0 : (Proc.devRef .tc b : DevRef τ sig) ≠ Proc.devRef .tc main_v29_0)]
/-- The contents region 3 is entered from, read at the TensorCore's references. -/
abbrev Vw5 : (c : Dev nD) → (b : Ref sig .tc) → Buf (Elt F) ((c : Thread nD τ).loc b) := fun c b => W5 m ρ c b
/-- At region 3's exit: its arrays at what the pipeline leaves, every other buffer as entered. -/
def W6 (c : Dev nD) : Valuation τ sig (Elt F) :=
  Pipeline.withArrays spec3 c (W5 m ρ c) fun w => (dat3 (Vw5 m ρ) c).arrAt w cfg3.N
theorem W6_arr (c : Dev nD) (w : Fin cfg3.W) :
    W6 m ρ c (Proc.devRef .tc (Pipeline.arrRef spec3 w)) = (dat3 (Vw5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
theorem hF3 (c : Dev nD) (w : Fin cfg3.W) : (dat3 (Vw5 m ρ) c).arrAt w cfg3.N = (fun c b => W6 m ρ c b : (c : Dev nD) → (b : Ref sig .tc) → Buf (Elt F) ((c : Thread nD τ).loc b)) c (Pipeline.arrRef spec3 w) :=
  (W6_arr m ρ c w).symm
theorem hrest3 (c : Dev nD) : ∀ b, b ∉ Finset.univ.image (Pipeline.arrRef spec3) → (fun c b => W6 m ρ c b : (c : Dev nD) → (b : Ref sig .tc) → Buf (Elt F) ((c : Thread nD τ).loc b)) c b = Vw5 m ρ c b :=
  fun b hb => W6_of_ne m ρ c b fun w e => hb (Finset.mem_image.mpr ⟨w, Finset.mem_univ _, e⟩)
/-- After the host stretch `hostOps4`. -/
abbrev W7 : Dev nD → Valuation τ sig (Elt F) := fun c => StableHlo.after hostOps4 (W6 m ρ c)
/-- The contents region 4 is entered from, read at the TensorCore's references. -/
abbrev Vw7 : (c : Dev nD) → (b : Ref sig .tc) → Buf (Elt F) ((c : Thread nD τ).loc b) := fun c b => W7 m ρ c b
/-- At region 4's exit: its arrays at what the pipeline leaves, every other buffer as entered. -/
def W8 (c : Dev nD) : Valuation τ sig (Elt F) :=
  Pipeline.withArrays spec4 c (W7 m ρ c) fun w => (dat4 (Vw7 m ρ) (fun _ => fullShare) c).arrAt w cfg4.N
theorem W8_arr (c : Dev nD) (w : Fin cfg4.W) :
    W8 m ρ c (Proc.devRef .tc (Pipeline.arrRef spec4 w)) = (dat4 (Vw7 m ρ) (fun _ => fullShare) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
theorem hF4 (c : Dev nD) (w : Fin cfg4.W) : (dat4 (Vw7 m ρ) (fun _ => fullShare) c).arrAt w cfg4.N = (fun c b => W8 m ρ c b : (c : Dev nD) → (b : Ref sig .tc) → Buf (Elt F) ((c : Thread nD τ).loc b)) c (Pipeline.arrRef spec4 w) :=
  (W8_arr m ρ c w).symm
theorem hrest4 (c : Dev nD) : ∀ b, b ∉ Finset.univ.image (Pipeline.arrRef spec4) → (fun c b => W8 m ρ c b : (c : Dev nD) → (b : Ref sig .tc) → Buf (Elt F) ((c : Thread nD τ).loc b)) c b = Vw7 m ρ c b :=
  fun b hb => W8_of_ne m ρ c b fun w e => hb (Finset.mem_image.mpr ⟨w, Finset.mem_univ _, e⟩)
/-- The contents region 5 is entered from, read at the TensorCore's references. -/
abbrev Vw8 : (c : Dev nD) → (b : Ref sig .tc) → Buf (Elt F) ((c : Thread nD τ).loc b) := fun c b => W8 m ρ c b
/-- At region 5's exit: its arrays at what the pipeline leaves, every other buffer as entered. -/
def W9 (c : Dev nD) : Valuation τ sig (Elt F) :=
  Pipeline.withArrays spec5 c (W8 m ρ c) fun w => (dat5 (Vw8 m ρ) c).arrAt w cfg5.N
theorem W9_arr (c : Dev nD) (w : Fin cfg5.W) :
    W9 m ρ c (Proc.devRef .tc (Pipeline.arrRef spec5 w)) = (dat5 (Vw8 m ρ) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
theorem hF5 (c : Dev nD) (w : Fin cfg5.W) : (dat5 (Vw8 m ρ) c).arrAt w cfg5.N = (fun c b => W9 m ρ c b : (c : Dev nD) → (b : Ref sig .tc) → Buf (Elt F) ((c : Thread nD τ).loc b)) c (Pipeline.arrRef spec5 w) :=
  (W9_arr m ρ c w).symm
theorem hrest5 (c : Dev nD) : ∀ b, b ∉ Finset.univ.image (Pipeline.arrRef spec5) → (fun c b => W9 m ρ c b : (c : Dev nD) → (b : Ref sig .tc) → Buf (Elt F) ((c : Thread nD τ).loc b)) c b = Vw8 m ρ c b :=
  fun b hb => W9_of_ne m ρ c b fun w e => hb (Finset.mem_image.mpr ⟨w, Finset.mem_univ _, e⟩)
/-- After the host stretch `hostOps6`. -/
abbrev W10 : Dev nD → Valuation τ sig (Elt F) := fun c => StableHlo.after hostOps6 (W9 m ρ c)
/-- The contents region 6 is entered from, read at the TensorCore's references. -/
abbrev Vw10 : (c : Dev nD) → (b : Ref sig .tc) → Buf (Elt F) ((c : Thread nD τ).loc b) := fun c b => W10 m ρ c b
/-- At region 6's exit: its arrays at what the pipeline leaves, every other buffer as entered. -/
def W11 (c : Dev nD) : Valuation τ sig (Elt F) :=
  Pipeline.withArrays spec6 c (W10 m ρ c) fun w => (dat6 (Vw10 m ρ) (fun _ => fullShare) c).arrAt w cfg6.N
theorem W11_arr (c : Dev nD) (w : Fin cfg6.W) :
    W11 m ρ c (Proc.devRef .tc (Pipeline.arrRef spec6 w)) = (dat6 (Vw10 m ρ) (fun _ => fullShare) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb
theorem hF6 (c : Dev nD) (w : Fin cfg6.W) : (dat6 (Vw10 m ρ) (fun _ => fullShare) c).arrAt w cfg6.N = (fun c b => W11 m ρ c b : (c : Dev nD) → (b : Ref sig .tc) → Buf (Elt F) ((c : Thread nD τ).loc b)) c (Pipeline.arrRef spec6 w) :=
  (W11_arr m ρ c w).symm
theorem hrest6 (c : Dev nD) : ∀ b, b ∉ Finset.univ.image (Pipeline.arrRef spec6) → (fun c b => W11 m ρ c b : (c : Dev nD) → (b : Ref sig .tc) → Buf (Elt F) ((c : Thread nD τ).loc b)) c b = Vw10 m ρ c b :=
  fun b hb => W11_of_ne m ρ c b fun w e => hb (Finset.mem_image.mpr ⟨w, Finset.mem_univ _, e⟩)
/-- The contents region 7 is entered from, read at the TensorCore's references. -/
abbrev Vw11 : (c : Dev nD) → (b : Ref sig .tc) → Buf (Elt F) ((c : Thread nD τ).loc b) := fun c b => W11 m ρ c b
/-- At region 7's exit: its arrays at what the pipeline leaves, every other buffer as entered. -/
def W12 (c : Dev nD) : Valuation τ sig (Elt F) :=
  Pipeline.withArrays spec7 c (W11 m ρ c) fun w => (dat7 (Vw11 m ρ) c).arrAt w cfg7.N
theorem W12_arr (c : Dev nD) (w : Fin cfg7.W) :
    W12 m ρ c (Proc.devRef .tc (Pipeline.arrRef spec7 w)) = (dat7 (Vw11 m ρ) c).arrAt w cfg7.N := by
  unfold W12; exact Pipeline.withArrays_arr spec7 launch7.win.arr_inj c _ _ w
theorem W12_of_ne (c : Dev nD) (b : Ref sig .tc) (hb : ∀ w, Pipeline.arrRef spec7 w ≠ b) :
    W12 m ρ c (Proc.devRef .tc b) = W11 m ρ c (Proc.devRef .tc b) := by
  unfold W12; exact Pipeline.withArrays_of_ne spec7 c _ _ b hb
theorem hF7 (c : Dev nD) (w : Fin cfg7.W) : (dat7 (Vw11 m ρ) c).arrAt w cfg7.N = (fun c b => W12 m ρ c b : (c : Dev nD) → (b : Ref sig .tc) → Buf (Elt F) ((c : Thread nD τ).loc b)) c (Pipeline.arrRef spec7 w) :=
  (W12_arr m ρ c w).symm
theorem hrest7 (c : Dev nD) : ∀ b, b ∉ Finset.univ.image (Pipeline.arrRef spec7) → (fun c b => W12 m ρ c b : (c : Dev nD) → (b : Ref sig .tc) → Buf (Elt F) ((c : Thread nD τ).loc b)) c b = Vw11 m ρ c b :=
  fun b hb => W12_of_ne m ρ c b fun w e => hb (Finset.mem_image.mpr ⟨w, Finset.mem_univ _, e⟩)
/-- After the host stretch `hostOps8`. -/
abbrev W13 : Dev nD → Valuation τ sig (Elt F) := fun c => StableHlo.after hostOps8 (W12 m ρ c)
/-- The contents region 8 is entered from, read at the TensorCore's references. -/
abbrev Vw13 : (c : Dev nD) → (b : Ref sig .tc) → Buf (Elt F) ((c : Thread nD τ).loc b) := fun c b => W13 m ρ c b
/-- At region 8's exit: its arrays at what the pipeline leaves, every other buffer as entered. -/
def W14 (c : Dev nD) : Valuation τ sig (Elt F) :=
  Pipeline.withArrays spec8 c (W13 m ρ c) fun w => (dat8 (Vw13 m ρ) (fun _ => fullShare) c).arrAt w cfg8.N
theorem W14_arr (c : Dev nD) (w : Fin cfg8.W) :
    W14 m ρ c (Proc.devRef .tc (Pipeline.arrRef spec8 w)) = (dat8 (Vw13 m ρ) (fun _ => fullShare) c).arrAt w cfg8.N := by
  unfold W14; exact Pipeline.withArrays_arr spec8 launch8.win.arr_inj c _ _ w
theorem W14_of_ne (c : Dev nD) (b : Ref sig .tc) (hb : ∀ w, Pipeline.arrRef spec8 w ≠ b) :
    W14 m ρ c (Proc.devRef .tc b) = W13 m ρ c (Proc.devRef .tc b) := by
  unfold W14; exact Pipeline.withArrays_of_ne spec8 c _ _ b hb
theorem hF8 (c : Dev nD) (w : Fin cfg8.W) : (dat8 (Vw13 m ρ) (fun _ => fullShare) c).arrAt w cfg8.N = (fun c b => W14 m ρ c b : (c : Dev nD) → (b : Ref sig .tc) → Buf (Elt F) ((c : Thread nD τ).loc b)) c (Pipeline.arrRef spec8 w) :=
  (W14_arr m ρ c w).symm
theorem hrest8 (c : Dev nD) : ∀ b, b ∉ Finset.univ.image (Pipeline.arrRef spec8) → (fun c b => W14 m ρ c b : (c : Dev nD) → (b : Ref sig .tc) → Buf (Elt F) ((c : Thread nD τ).loc b)) c b = Vw13 m ρ c b :=
  fun b hb => W14_of_ne m ρ c b fun w e => hb (Finset.mem_image.mpr ⟨w, Finset.mem_univ _, e⟩)
/-- The contents region 9 is entered from, read at the TensorCore's references. -/
abbrev Vw14 : (c : Dev nD) → (b : Ref sig .tc) → Buf (Elt F) ((c : Thread nD τ).loc b) := fun c b => W14 m ρ c b
/-- At region 9's exit: its arrays at what the pipeline leaves, every other buffer as entered. -/
def W15 (c : Dev nD) : Valuation τ sig (Elt F) :=
  Pipeline.withArrays spec9 c (W14 m ρ c) fun w => (dat9 (Vw14 m ρ) c).arrAt w cfg9.N
theorem W15_arr (c : Dev nD) (w : Fin cfg9.W) :
    W15 m ρ c (Proc.devRef .tc (Pipeline.arrRef spec9 w)) = (dat9 (Vw14 m ρ) c).arrAt w cfg9.N := by
  unfold W15; exact Pipeline.withArrays_arr spec9 launch9.win.arr_inj c _ _ w
theorem W15_of_ne (c : Dev nD) (b : Ref sig .tc) (hb : ∀ w, Pipeline.arrRef spec9 w ≠ b) :
    W15 m ρ c (Proc.devRef .tc b) = W14 m ρ c (Proc.devRef .tc b) := by
  unfold W15; exact Pipeline.withArrays_of_ne spec9 c _ _ b hb
theorem hF9 (c : Dev nD) (w : Fin cfg9.W) : (dat9 (Vw14 m ρ) c).arrAt w cfg9.N = (fun c b => W15 m ρ c b : (c : Dev nD) → (b : Ref sig .tc) → Buf (Elt F) ((c : Thread nD τ).loc b)) c (Pipeline.arrRef spec9 w) :=
  (W15_arr m ρ c w).symm
theorem hrest9 (c : Dev nD) : ∀ b, b ∉ Finset.univ.image (Pipeline.arrRef spec9) → (fun c b => W15 m ρ c b : (c : Dev nD) → (b : Ref sig .tc) → Buf (Elt F) ((c : Thread nD τ).loc b)) c b = Vw14 m ρ c b :=
  fun b hb => W15_of_ne m ρ c b fun w e => hb (Finset.mem_image.mpr ⟨w, Finset.mem_univ _, e⟩)
/-- After the host stretch `hostOps10`. -/
abbrev W16 : Dev nD → Valuation τ sig (Elt F) := fun c => StableHlo.after hostOps10 (W15 m ρ c)
/-- The contents region 10 is entered from, read at the TensorCore's references. -/
abbrev Vw16 : (c : Dev nD) → (b : Ref sig .tc) → Buf (Elt F) ((c : Thread nD τ).loc b) := fun c b => W16 m ρ c b
/-- At region 10's exit: its arrays at what the pipeline leaves, every other buffer as entered. -/
def W17 (c : Dev nD) : Valuation τ sig (Elt F) :=
  Pipeline.withArrays spec10 c (W16 m ρ c) fun w => (dat10 (Vw16 m ρ) (fun _ => fullShare) c).arrAt w cfg10.N
theorem W17_arr (c : Dev nD) (w : Fin cfg10.W) :
    W17 m ρ c (Proc.devRef .tc (Pipeline.arrRef spec10 w)) = (dat10 (Vw16 m ρ) (fun _ => fullShare) c).arrAt w cfg10.N := by
  unfold W17; exact Pipeline.withArrays_arr spec10 launch10.win.arr_inj c _ _ w
theorem W17_of_ne (c : Dev nD) (b : Ref sig .tc) (hb : ∀ w, Pipeline.arrRef spec10 w ≠ b) :
    W17 m ρ c (Proc.devRef .tc b) = W16 m ρ c (Proc.devRef .tc b) := by
  unfold W17; exact Pipeline.withArrays_of_ne spec10 c _ _ b hb
theorem hF10 (c : Dev nD) (w : Fin cfg10.W) : (dat10 (Vw16 m ρ) (fun _ => fullShare) c).arrAt w cfg10.N = (fun c b => W17 m ρ c b : (c : Dev nD) → (b : Ref sig .tc) → Buf (Elt F) ((c : Thread nD τ).loc b)) c (Pipeline.arrRef spec10 w) :=
  (W17_arr m ρ c w).symm
theorem hrest10 (c : Dev nD) : ∀ b, b ∉ Finset.univ.image (Pipeline.arrRef spec10) → (fun c b => W17 m ρ c b : (c : Dev nD) → (b : Ref sig .tc) → Buf (Elt F) ((c : Thread nD τ).loc b)) c b = Vw16 m ρ c b :=
  fun b hb => W17_of_ne m ρ c b fun w e => hb (Finset.mem_image.mpr ⟨w, Finset.mem_univ _, e⟩)
/-- After the host stretch `hostOps11`. -/
abbrev W18 : Dev nD → Valuation τ sig (Elt F) := fun c => StableHlo.after hostOps11 (W17 m ρ c)
/-- The contents region 11 is entered from, read at the TensorCore's references. -/
abbrev Vw18 : (c : Dev nD) → (b : Ref sig .tc) → Buf (Elt F) ((c : Thread nD τ).loc b) := fun c b => W18 m ρ c b
/-- At region 11's exit: its arrays at what the pipeline leaves, every other buffer as entered. -/
def W19 (c : Dev nD) : Valuation τ sig (Elt F) :=
  Pipeline.withArrays spec11 c (W18 m ρ c) fun w => (dat11 (Vw18 m ρ) c).arrAt w cfg11.N
theorem W19_arr (c : Dev nD) (w : Fin cfg11.W) :
    W19 m ρ c (Proc.devRef .tc (Pipeline.arrRef spec11 w)) = (dat11 (Vw18 m ρ) c).arrAt w cfg11.N := by
  unfold W19; exact Pipeline.withArrays_arr spec11 launch11.win.arr_inj c _ _ w
theorem W19_of_ne (c : Dev nD) (b : Ref sig .tc) (hb : ∀ w, Pipeline.arrRef spec11 w ≠ b) :
    W19 m ρ c (Proc.devRef .tc b) = W18 m ρ c (Proc.devRef .tc b) := by
  unfold W19; exact Pipeline.withArrays_of_ne spec11 c _ _ b hb
theorem hF11 (c : Dev nD) (w : Fin cfg11.W) : (dat11 (Vw18 m ρ) c).arrAt w cfg11.N = (fun c b => W19 m ρ c b : (c : Dev nD) → (b : Ref sig .tc) → Buf (Elt F) ((c : Thread nD τ).loc b)) c (Pipeline.arrRef spec11 w) :=
  (W19_arr m ρ c w).symm
theorem hrest11 (c : Dev nD) : ∀ b, b ∉ Finset.univ.image (Pipeline.arrRef spec11) → (fun c b => W19 m ρ c b : (c : Dev nD) → (b : Ref sig .tc) → Buf (Elt F) ((c : Thread nD τ).loc b)) c b = Vw18 m ρ c b :=
  fun b hb => W19_of_ne m ρ c b fun w e => hb (Finset.mem_image.mpr ⟨w, Finset.mem_univ _, e⟩)
/-- After the host stretch `hostOps12`. -/
abbrev W20 : Dev nD → Valuation τ sig (Elt F) := fun c => StableHlo.after hostOps12 (W19 m ρ c)

/-- Every pipeline's proof data, each at its region's entry contents. -/
def pdats : (p : Fin 12) → (c : Dev nD) → Dat τ (Elt F) Unit ℕ (UR sig nD τ) ℕ (Pipeline.pin (pcfgs (F := F)) adm p) c
  | ⟨0, _⟩ => fun c => dat0 (Vw1 m ρ) c
  | ⟨1, _⟩ => fun c => dat1 (Vw2 m ρ) c
  | ⟨2, _⟩ => fun c => dat2 (Vw4 m ρ) q2 c
  | ⟨3, _⟩ => fun c => dat3 (Vw5 m ρ) c
  | ⟨4, _⟩ => fun c => dat4 (Vw7 m ρ) (fun _ => fullShare) c
  | ⟨5, _⟩ => fun c => dat5 (Vw8 m ρ) c
  | ⟨6, _⟩ => fun c => dat6 (Vw10 m ρ) (fun _ => fullShare) c
  | ⟨7, _⟩ => fun c => dat7 (Vw11 m ρ) c
  | ⟨8, _⟩ => fun c => dat8 (Vw13 m ρ) (fun _ => fullShare) c
  | ⟨9, _⟩ => fun c => dat9 (Vw14 m ρ) c
  | ⟨10, _⟩ => fun c => dat10 (Vw16 m ρ) (fun _ => fullShare) c
  | ⟨11, _⟩ => fun c => dat11 (Vw18 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Fr

end
-- ==== Proof.KI.Seg0.lean ====
/-
  Region 0 as a segment of the main program: entered with every unscoped buffer at the contents before it, left with
  them at the contents after it; its arrays are split out of the buffers at entry and put back at exit.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vw1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vw1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vw1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vw1 m ρ c) ((fun c b => W2 m ρ c b : (c : Dev nD) → (b : Ref sig .tc) → Buf (Elt F) ((c : Thread nD τ).loc b)) c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg1.lean ====
/-
  Region 1 as a segment of the main program: entered with every unscoped buffer at the contents before it, left with
  them at the contents after it; its arrays are split out of the buffers at entry and put back at exit.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vw2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vw2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vw2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vw2 m ρ c) ((fun c b => W3 m ρ c b : (c : Dev nD) → (b : Ref sig .tc) → Buf (Elt F) ((c : Thread nD τ).loc b)) c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Share2a.lean ====
/-
  Region 2 reads one array through two input windows (the first layer's two node-state operands are the same array).
  The nine distinct buffers behind its ten windows, each held whole at the full share, are the region's arrays with the
  shared buffer split into two halves of the full share, one per window; and back, when both halves hold the same contents.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.Q2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Windows 0 and 1 name one array. -/
theorem arr01 : Pipeline.arrRef spec2 (0 : Fin 10) = Pipeline.arrRef spec2 (1 : Fin 10) := by decide

/-- The distinct arrays of region 2's windows: window 0's (also window 1's) and those of windows 2 to 9. -/
theorem image_arr2 : Finset.univ.image (Pipeline.arrRef spec2)
    = ({Pipeline.arrRef spec2 (0 : Fin 10), Pipeline.arrRef spec2 (2 : Fin 10), Pipeline.arrRef spec2 (3 : Fin 10), Pipeline.arrRef spec2 (4 : Fin 10), Pipeline.arrRef spec2 (5 : Fin 10), Pipeline.arrRef spec2 (6 : Fin 10), Pipeline.arrRef spec2 (7 : Fin 10), Pipeline.arrRef spec2 (8 : Fin 10), Pipeline.arrRef spec2 (9 : Fin 10)} : Finset (Ref sig .tc)) := by decide

/-- The nine buffers conjoined one by one. -/
theorem bigSep_arr2 {M : Type} [URA M] (Φ : Ref sig .tc → sProp M) :
    bigSep ({Pipeline.arrRef spec2 (0 : Fin 10), Pipeline.arrRef spec2 (2 : Fin 10), Pipeline.arrRef spec2 (3 : Fin 10), Pipeline.arrRef spec2 (4 : Fin 10), Pipeline.arrRef spec2 (5 : Fin 10), Pipeline.arrRef spec2 (6 : Fin 10), Pipeline.arrRef spec2 (7 : Fin 10), Pipeline.arrRef spec2 (8 : Fin 10), Pipeline.arrRef spec2 (9 : Fin 10)} : Finset (Ref sig .tc)) Φ
      = iprop(Φ (Pipeline.arrRef spec2 (0 : Fin 10)) ∗ Φ (Pipeline.arrRef spec2 (2 : Fin 10)) ∗ Φ (Pipeline.arrRef spec2 (3 : Fin 10)) ∗ Φ (Pipeline.arrRef spec2 (4 : Fin 10)) ∗ Φ (Pipeline.arrRef spec2 (5 : Fin 10)) ∗ Φ (Pipeline.arrRef spec2 (6 : Fin 10)) ∗ Φ (Pipeline.arrRef spec2 (7 : Fin 10)) ∗ Φ (Pipeline.arrRef spec2 (8 : Fin 10)) ∗ Φ (Pipeline.arrRef spec2 (9 : Fin 10))) := by
  rw [bigSep_insert (by decide), bigSep_insert (by decide), bigSep_insert (by decide), bigSep_insert (by decide),
    bigSep_insert (by decide), bigSep_insert (by decide), bigSep_insert (by decide), bigSep_insert (by decide), bigSep_singleton]
  rfl

end Cert.KernelIdeal.Fr

end
-- ==== Proof.KI.Share2.lean ====
/-
  Region 2's arrays from the buffers behind them and back: the buffer two windows share is split into two halves of the
  full share at entry and joined at exit; every other window's array is its buffer whole.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.Share2a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (dat : Dat τ (Elt F) Unit ℕ (UR sig nD τ) ℕ cfg2 c)

/-- A window's array at contents `G`, as the points-to of its buffer. -/
theorem arr_pt2 (w : Fin cfg2.W) (G : Buf (Elt F) ((cfg2.win w).arr.view.loc (c.tc : Thread nD τ))) (q : PosShare TreeShare) :
    (((cfg2.win w).arr.view.loc (c.tc : Thread nD τ)) ↦[(cfg2.win w).arr.view.set]{q} G : sProp 𝕄)
      = (((c.tc : Thread nD τ).loc (Pipeline.arrRef spec2 w)) ↦{q} G : sProp 𝕄) := by
  rw [(arr_whole2 w).set_eq_univ]

/-- One window's array, at a valuation's contents and at the share `q2` names, is the points-to of its buffer there. -/
theorem win_pt2 (hshare : ∀ w, dat.share w = q2 w) (V : (b : Ref sig .tc) → Buf (Elt F) ((c.tc : Thread nD τ).loc b))
    (G : (w : Fin cfg2.W) → Buf (Elt F) ((cfg2.win w).arr.view.loc (c.tc : Thread nD τ))) (hG : ∀ w, G w = V (Pipeline.arrRef spec2 w))
    (w : Fin cfg2.W) :
    (((cfg2.win w).arr.view.loc (c.tc : Thread nD τ)) ↦[(cfg2.win w).arr.view.set]{dat.share w} G w : sProp 𝕄)
      = (((c.tc : Thread nD τ).loc (Pipeline.arrRef spec2 w)) ↦{q2 w} V (Pipeline.arrRef spec2 w) : sProp 𝕄) := by
  rw [arr_pt2, hshare, hG]

/-- The second half of the shared buffer, named through window 0 or through window 1. -/
theorem half01 (V : (b : Ref sig .tc) → Buf (Elt F) ((c.tc : Thread nD τ).loc b)) :
    (((c.tc : Thread nD τ).loc (Pipeline.arrRef spec2 (0 : Fin 10))) ↦{fullShare.right} V (Pipeline.arrRef spec2 (0 : Fin 10)) : sProp 𝕄)
      = (((c.tc : Thread nD τ).loc (Pipeline.arrRef spec2 (1 : Fin 10))) ↦{fullShare.right} V (Pipeline.arrRef spec2 (1 : Fin 10)) : sProp 𝕄) :=
  congrArg (fun b => (((c.tc : Thread nD τ).loc b) ↦{fullShare.right} V b : sProp 𝕄)) arr01

/-- The region's arrays, window by window, as points-tos of the buffers at the shares `q2` names. -/
theorem arrays_eq2 (hshare : ∀ w, dat.share w = q2 w) (V : (b : Ref sig .tc) → Buf (Elt F) ((c.tc : Thread nD τ).loc b))
    (G : (w : Fin cfg2.W) → Buf (Elt F) ((cfg2.win w).arr.view.loc (c.tc : Thread nD τ))) (hG : ∀ w, G w = V (Pipeline.arrRef spec2 w)) :
    dat.arrays G = iprop((((c.tc : Thread nD τ).loc (Pipeline.arrRef spec2 (0 : Fin 10))) ↦{q2 (0 : Fin 10)} V (Pipeline.arrRef spec2 (0 : Fin 10)) : sProp 𝕄)
      ∗ (((c.tc : Thread nD τ).loc (Pipeline.arrRef spec2 (1 : Fin 10))) ↦{q2 (1 : Fin 10)} V (Pipeline.arrRef spec2 (1 : Fin 10)) : sProp 𝕄)
      ∗ (((c.tc : Thread nD τ).loc (Pipeline.arrRef spec2 (2 : Fin 10))) ↦{q2 (2 : Fin 10)} V (Pipeline.arrRef spec2 (2 : Fin 10)) : sProp 𝕄)
      ∗ (((c.tc : Thread nD τ).loc (Pipeline.arrRef spec2 (3 : Fin 10))) ↦{q2 (3 : Fin 10)} V (Pipeline.arrRef spec2 (3 : Fin 10)) : sProp 𝕄)
      ∗ (((c.tc : Thread nD τ).loc (Pipeline.arrRef spec2 (4 : Fin 10))) ↦{q2 (4 : Fin 10)} V (Pipeline.arrRef spec2 (4 : Fin 10)) : sProp 𝕄)
      ∗ (((c.tc : Thread nD τ).loc (Pipeline.arrRef spec2 (5 : Fin 10))) ↦{q2 (5 : Fin 10)} V (Pipeline.arrRef spec2 (5 : Fin 10)) : sProp 𝕄)
      ∗ (((c.tc : Thread nD τ).loc (Pipeline.arrRef spec2 (6 : Fin 10))) ↦{q2 (6 : Fin 10)} V (Pipeline.arrRef spec2 (6 : Fin 10)) : sProp 𝕄)
      ∗ (((c.tc : Thread nD τ).loc (Pipeline.arrRef spec2 (7 : Fin 10))) ↦{q2 (7 : Fin 10)} V (Pipeline.arrRef spec2 (7 : Fin 10)) : sProp 𝕄)
      ∗ (((c.tc : Thread nD τ).loc (Pipeline.arrRef spec2 (8 : Fin 10))) ↦{q2 (8 : Fin 10)} V (Pipeline.arrRef spec2 (8 : Fin 10)) : sProp 𝕄)
      ∗ (((c.tc : Thread nD τ).loc (Pipeline.arrRef spec2 (9 : Fin 10))) ↦{q2 (9 : Fin 10)} V (Pipeline.arrRef spec2 (9 : Fin 10)) : sProp 𝕄)) := by
  unfold Pipeline.Dat.arrays
  rw [bigSep_W2]
  exact congr (congrArg _ (win_pt2 c dat hshare V G hG (0 : Fin 10))) (congr (congrArg _ (win_pt2 c dat hshare V G hG (1 : Fin 10))) (congr (congrArg _ (win_pt2 c dat hshare V G hG (2 : Fin 10))) (congr (congrArg _ (win_pt2 c dat hshare V G hG (3 : Fin 10))) (congr (congrArg _ (win_pt2 c dat hshare V G hG (4 : Fin 10))) (congr (congrArg _ (win_pt2 c dat hshare V G hG (5 : Fin 10))) (congr (congrArg _ (win_pt2 c dat hshare V G hG (6 : Fin 10))) (congr (congrArg _ (win_pt2 c dat hshare V G hG (7 : Fin 10))) (congr (congrArg _ (win_pt2 c dat hshare V G hG (8 : Fin 10))) (win_pt2 c dat hshare V G hG (9 : Fin 10))))))))))

/-- The buffers behind the arrays, one by one. -/
theorem arrBufs_eq2 (V : (b : Ref sig .tc) → Buf (Elt F) ((c.tc : Thread nD τ).loc b)) :
    (Pipeline.arrBufs spec2 c V : sProp 𝕄) = iprop((((c.tc : Thread nD τ).loc (Pipeline.arrRef spec2 (0 : Fin 10))) ↦{fullShare} V (Pipeline.arrRef spec2 (0 : Fin 10)) : sProp 𝕄)
      ∗ (((c.tc : Thread nD τ).loc (Pipeline.arrRef spec2 (2 : Fin 10))) ↦{fullShare} V (Pipeline.arrRef spec2 (2 : Fin 10)) : sProp 𝕄)
      ∗ (((c.tc : Thread nD τ).loc (Pipeline.arrRef spec2 (3 : Fin 10))) ↦{fullShare} V (Pipeline.arrRef spec2 (3 : Fin 10)) : sProp 𝕄)
      ∗ (((c.tc : Thread nD τ).loc (Pipeline.arrRef spec2 (4 : Fin 10))) ↦{fullShare} V (Pipeline.arrRef spec2 (4 : Fin 10)) : sProp 𝕄)
      ∗ (((c.tc : Thread nD τ).loc (Pipeline.arrRef spec2 (5 : Fin 10))) ↦{fullShare} V (Pipeline.arrRef spec2 (5 : Fin 10)) : sProp 𝕄)
      ∗ (((c.tc : Thread nD τ).loc (Pipeline.arrRef spec2 (6 : Fin 10))) ↦{fullShare} V (Pipeline.arrRef spec2 (6 : Fin 10)) : sProp 𝕄)
      ∗ (((c.tc : Thread nD τ).loc (Pipeline.arrRef spec2 (7 : Fin 10))) ↦{fullShare} V (Pipeline.arrRef spec2 (7 : Fin 10)) : sProp 𝕄)
      ∗ (((c.tc : Thread nD τ).loc (Pipeline.arrRef spec2 (8 : Fin 10))) ↦{fullShare} V (Pipeline.arrRef spec2 (8 : Fin 10)) : sProp 𝕄)
      ∗ (((c.tc : Thread nD τ).loc (Pipeline.arrRef spec2 (9 : Fin 10))) ↦{fullShare} V (Pipeline.arrRef spec2 (9 : Fin 10)) : sProp 𝕄)) := by
  unfold Pipeline.arrBufs
  rw [image_arr2, bigSep_arr2]

set_option maxHeartbeats 4000000 in
/-- ENTRY: the buffers behind the arrays, whole at the full share at `V`, are the arrays at `V`, the shared buffer split. -/
theorem arrays_of_arrBufs2 (hshare : ∀ w, dat.share w = q2 w)
    (V : (b : Ref sig .tc) → Buf (Elt F) ((c.tc : Thread nD τ).loc b))
    (G : (w : Fin cfg2.W) → Buf (Elt F) ((cfg2.win w).arr.view.loc (c.tc : Thread nD τ))) (hG : ∀ w, G w = V (Pipeline.arrRef spec2 w)) :
    (Pipeline.arrBufs spec2 c V : sProp 𝕄) ⊢ dat.arrays G := by
  rw [arrBufs_eq2, arrays_eq2 c dat hshare V G hG, q2_0, q2_1, q2_2, q2_3, q2_4, q2_5, q2_6, q2_7, q2_8, q2_9]
  iintro ⟨H0, H2, H3, H4, H5, H6, H7, H8, H9⟩
  ihave Hs := (pointsTo_share (PosShare.mem_left_op_right fullShare)).1 $$ H0
  icases Hs with ⟨Ha, Hb⟩
  isplitl [Ha]; · iexact Ha
  isplitl [Hb]; · iapply (Entails.of_eq (half01 c V)); iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
/-- EXIT: the arrays at `G`, where `G` reads a valuation `V'` at each window's array, are the buffers behind them
    whole at the full share at `V'`: the two halves of the shared buffer hold the same contents and join. -/
theorem arrBufs_of_arrays2 (hshare : ∀ w, dat.share w = q2 w)
    (V' : (b : Ref sig .tc) → Buf (Elt F) ((c.tc : Thread nD τ).loc b))
    (G : (w : Fin cfg2.W) → Buf (Elt F) ((cfg2.win w).arr.view.loc (c.tc : Thread nD τ))) (hG : ∀ w, G w = V' (Pipeline.arrRef spec2 w)) :
    dat.arrays G ⊢ (Pipeline.arrBufs spec2 c V' : sProp 𝕄) := by
  rw [arrBufs_eq2, arrays_eq2 c dat hshare V' G hG, q2_0, q2_1, q2_2, q2_3, q2_4, q2_5, q2_6, q2_7, q2_8, q2_9]
  iintro ⟨Ha, Hb, H2, H3, H4, H5, H6, H7, H8, H9⟩
  isplitl [Ha Hb]
  · iapply (pointsTo_share (PosShare.mem_left_op_right fullShare)).2
    isplitl [Ha]; · iexact Ha
    iapply (Entails.of_eq (half01 c V').symm); iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Fr

end
-- ==== Proof.KI.Seg2.lean ====
/-
  Region 2 as a segment of the main program. Its first two input windows read one array, so at entry that buffer is split
  into two halves of the full share and at exit the halves, still holding the entry contents, are joined again; the two
  output arrays are the only buffers whose contents change.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.Wdefs
import proofs.«131582_j65292092834213_2_alg».proof.Proof.KI.Share2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares of region 2's proof data are the stated ones: an output's array at the full share, an input's at its own. -/
theorem share2 (V : (c : Dev nD) → (b : Ref sig .tc) → Buf (Elt F) ((c : Thread nD τ).loc b)) (c : Dev nD) (w : Fin cfg2.W) :
    (dat2 V q2 c).share w = q2 w := by
  unfold Pipeline.Dat.share
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl

set_option maxHeartbeats 4000000 in
/-- At region 2's exit each window's array holds what the pipeline leaves: an input's its entry contents. -/
theorem hF2 (c : Dev nD) (w : Fin cfg2.W) :
    (dat2 (Vw4 m ρ) q2 c).arrAt w cfg2.N = (fun c b => W5 m ρ c b : (c : Dev nD) → (b : Ref sig .tc) → Buf (Elt F) ((c : Thread nD τ).loc b)) c (Pipeline.arrRef spec2 w) := by
  match w with
  | ⟨0, _⟩ => exact (((dat2 (Vw4 m ρ) q2 c).arrAt_in 0 rfl _).trans (A_eq2 (Vw4 m ρ) q2 c 0)).trans (W5_of_ne m ρ c main_v14 (by decide) (by decide)).symm
  | ⟨1, _⟩ => exact (((dat2 (Vw4 m ρ) q2 c).arrAt_in 1 rfl _).trans (A_eq2 (Vw4 m ρ) q2 c 1)).trans (W5_of_ne m ρ c main_v14 (by decide) (by decide)).symm
  | ⟨2, _⟩ => exact (((dat2 (Vw4 m ρ) q2 c).arrAt_in 2 rfl _).trans (A_eq2 (Vw4 m ρ) q2 c 2)).trans (W5_of_ne m ρ c main_v26 (by decide) (by decide)).symm
  | ⟨3, _⟩ => exact (((dat2 (Vw4 m ρ) q2 c).arrAt_in 3 rfl _).trans (A_eq2 (Vw4 m ρ) q2 c 3)).trans (W5_of_ne m ρ c main_v15 (by decide) (by decide)).symm
  | ⟨4, _⟩ => exact (((dat2 (Vw4 m ρ) q2 c).arrAt_in 4 rfl _).trans (A_eq2 (Vw4 m ρ) q2 c 4)).trans (W5_of_ne m ρ c main_v11 (by decide) (by decide)).symm
  | ⟨5, _⟩ => exact (((dat2 (Vw4 m ρ) q2 c).arrAt_in 5 rfl _).trans (A_eq2 (Vw4 m ρ) q2 c 5)).trans (W5_of_ne m ρ c main_arg8 (by decide) (by decide)).symm
  | ⟨6, _⟩ => exact (((dat2 (Vw4 m ρ) q2 c).arrAt_in 6 rfl _).trans (A_eq2 (Vw4 m ρ) q2 c 6)).trans (W5_of_ne m ρ c main_v27 (by decide) (by decide)).symm
  | ⟨7, _⟩ => exact (((dat2 (Vw4 m ρ) q2 c).arrAt_in 7 rfl _).trans (A_eq2 (Vw4 m ρ) q2 c 7)).trans (W5_of_ne m ρ c main_v28 (by decide) (by decide)).symm
  | ⟨8, _⟩ => exact (W5_out0 m ρ c).symm
  | ⟨9, _⟩ => exact (W5_out1 m ρ c).symm

/-- Off region 2's arrays nothing changes. -/
theorem hrest2 (c : Dev nD) (b : Ref sig .tc) (hb : b ∉ Finset.univ.image (Pipeline.arrRef spec2)) :
    (fun c b => W5 m ρ c b : (c : Dev nD) → (b : Ref sig .tc) → Buf (Elt F) ((c : Thread nD τ).loc b)) c b = Vw4 m ρ c b :=
  W5_of_ne m ρ c b (fun h => hb (h ▸ Finset.mem_image.mpr ⟨8, Finset.mem_univ _, rfl⟩))
    (fun h => hb (h ▸ Finset.mem_image.mpr ⟨9, Finset.mem_univ _, rfl⟩))

set_option backward.isDefEq.respectTransparency.types false in
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (Vw4 m ρ) q2 c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (Vw4 m ρ c)
  hentry c := by
    rw [Pipeline.ownSems0_none]
    have hsplit : (unscopedBufs c (Vw4 m ρ c) : sProp 𝕄)
        ⊢ iprop((pdats m ρ 2 c).arrays ((pdats m ρ 2 c).arrAt · 0) ∗ Pipeline.unscopedRest spec2 c (Vw4 m ρ c)) := by
      rw [Pipeline.unscopedBufs_split₀ cfgs 2 winFacts₀2.arr_unscoped c (Vw4 m ρ c)]
      exact sep_mono (arrays_of_arrBufs2 c (pdats m ρ 2 c) (share2 (Vw4 m ρ) c) (Vw4 m ρ c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest spec2 c (Vw4 m ρ c))
        ⊢ (unscopedBufs c ((fun c b => W5 m ρ c b : (c : Dev nD) → (b : Ref sig .tc) → Buf (Elt F) ((c : Thread nD τ).loc b)) c) : sProp 𝕄) := by
      rw [Pipeline.unscopedBufs_split₀ cfgs 2 winFacts₀2.arr_unscoped c ((fun c b => W5 m ρ c b : (c : Dev nD) → (b : Ref sig .tc) → Buf (Elt F) ((c : Thread nD τ).loc b)) c)]
      refine sep_mono (arrBufs_of_arrays2 c (pdats m ρ 2 c) (share2 (Vw4 m ρ) c) ((fun c b => W5 m ρ c b : (c : Dev nD) → (b : Ref sig .tc) → Buf (Elt F) ((c : Thread nD τ).loc b)) c) _ (hF2 m ρ c)) (Entails.of_eq ?_)
      unfold Pipeline.unscopedRest
      exact bigSep_congr fun b hb => by rw [hrest2 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg3.lean ====
/-
  Region 3 as a segment of the main program: entered with every unscoped buffer at the contents before it, left with
  them at the contents after it; its arrays are split out of the buffers at entry and put back at exit.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vw5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (Vw5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vw5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vw5 m ρ c) ((fun c b => W6 m ρ c b : (c : Dev nD) → (b : Ref sig .tc) → Buf (Elt F) ((c : Thread nD τ).loc b)) c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg4.lean ====
/-
  Region 4 as a segment of the main program: entered with every unscoped buffer at the contents before it, left with
  them at the contents after it; its arrays are split out of the buffers at entry and put back at exit.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vw7 m ρ) (fun _ => fullShare) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (Vw7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vw7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vw7 m ρ c) ((fun c b => W8 m ρ c b : (c : Dev nD) → (b : Ref sig .tc) → Buf (Elt F) ((c : Thread nD τ).loc b)) c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg5.lean ====
/-
  Region 5 as a segment of the main program: entered with every unscoped buffer at the contents before it, left with
  them at the contents after it; its arrays are split out of the buffers at entry and put back at exit.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vw8 m ρ) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec5 c (Vw8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vw8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vw8 m ρ c) ((fun c b => W9 m ρ c b : (c : Dev nD) → (b : Ref sig .tc) → Buf (Elt F) ((c : Thread nD τ).loc b)) c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg6.lean ====
/-
  Region 6 as a segment of the main program: entered with every unscoped buffer at the contents before it, left with
  them at the contents after it; its arrays are split out of the buffers at entry and put back at exit.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vw10 m ρ) (fun _ => fullShare) c).loose
  hwaits := Pipeline.hwaits_of_owed_zero _ _ _ _ L lv 6 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec6 c (Vw10 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vw10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vw10 m ρ c) ((fun c b => W11 m ρ c b : (c : Dev nD) → (b : Ref sig .tc) → Buf (Elt F) ((c : Thread nD τ).loc b)) c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg7.lean ====
/-
  Region 7 as a segment of the main program: entered with every unscoped buffer at the contents before it, left with
  them at the contents after it; its arrays are split out of the buffers at entry and put back at exit.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vw11 m ρ) c).loose
  hwaits := Pipeline.hwaits_of_owed_zero _ _ _ _ L lv 7 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec7 c (Vw11 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (Vw11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (Vw11 m ρ c) ((fun c b => W12 m ρ c b : (c : Dev nD) → (b : Ref sig .tc) → Buf (Elt F) ((c : Thread nD τ).loc b)) c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg8.lean ====
/-
  Region 8 as a segment of the main program: entered with every unscoped buffer at the contents before it, left with
  them at the contents after it; its arrays are split out of the buffers at entry and put back at exit.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vw13 m ρ) (fun _ => fullShare) c).loose
  hwaits := Pipeline.hwaits_of_owed_zero _ _ _ _ L lv 8 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec8 c (Vw13 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (Vw13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (Vw13 m ρ c) ((fun c b => W14 m ρ c b : (c : Dev nD) → (b : Ref sig .tc) → Buf (Elt F) ((c : Thread nD τ).loc b)) c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg9.lean ====
/-
  Region 9 as a segment of the main program: entered with every unscoped buffer at the contents before it, left with
  them at the contents after it; its arrays are split out of the buffers at entry and put back at exit.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vw14 m ρ) c).loose
  hwaits := Pipeline.hwaits_of_owed_zero _ _ _ _ L lv 9 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec9 c (Vw14 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (Vw14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (Vw14 m ρ c) ((fun c b => W15 m ρ c b : (c : Dev nD) → (b : Ref sig .tc) → Buf (Elt F) ((c : Thread nD τ).loc b)) c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg10.lean ====
/-
  Region 10 as a segment of the main program: entered with every unscoped buffer at the contents before it, left with
  them at the contents after it; its arrays are split out of the buffers at entry and put back at exit.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vw16 m ρ) (fun _ => fullShare) c).loose
  hwaits := Pipeline.hwaits_of_owed_zero _ _ _ _ L lv 10 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec10 c (Vw16 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (Vw16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (Vw16 m ρ c) ((fun c b => W17 m ρ c b : (c : Dev nD) → (b : Ref sig .tc) → Buf (Elt F) ((c : Thread nD τ).loc b)) c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg11.lean ====
/-
  Region 11 as a segment of the main program: entered with every unscoped buffer at the contents before it, left with
  them at the contents after it; its arrays are split out of the buffers at entry and put back at exit.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.Wdefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vw18 m ρ) c).loose
  hwaits := Pipeline.hwaits_of_owed_zero _ _ _ _ L lv 11 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec11 c (Vw18 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (Vw18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (Vw18 m ρ c) ((fun c b => W19 m ρ c b : (c : Dev nD) → (b : Ref sig .tc) → Buf (Elt F) ((c : Thread nD τ).loc b)) c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Main.lean ====
/-
  The whole main program as a run of its twenty items, and what every unscoped buffer holds at the end: the last
  boundary's contents. Each argument array is walked back through the fold to its launch contents.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.Seg0
import proofs.«131582_j65292092834213_2_alg».proof.Proof.KI.Seg1
import proofs.«131582_j65292092834213_2_alg».proof.Proof.KI.Seg2
import proofs.«131582_j65292092834213_2_alg».proof.Proof.KI.Seg3
import proofs.«131582_j65292092834213_2_alg».proof.Proof.KI.Seg4
import proofs.«131582_j65292092834213_2_alg».proof.Proof.KI.Seg5
import proofs.«131582_j65292092834213_2_alg».proof.Proof.KI.Seg6
import proofs.«131582_j65292092834213_2_alg».proof.Proof.KI.Seg7
import proofs.«131582_j65292092834213_2_alg».proof.Proof.KI.Seg8
import proofs.«131582_j65292092834213_2_alg».proof.Proof.KI.Seg9
import proofs.«131582_j65292092834213_2_alg».proof.Proof.KI.Seg10
import proofs.«131582_j65292092834213_2_alg».proof.Proof.KI.Seg11
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W20_main_arg0 (c : Dev nD) : W20 m ρ c (Proc.devRef .tc main_arg0) = m ((c : Thread nD τ).loc main_arg0) :=
  calc W20 m ρ c (Proc.devRef .tc main_arg0)
    _ = W19 m ρ c (Proc.devRef .tc main_arg0) := StableHlo.after_of_writes_sub hostOps12 _ hostOps12_writes (by decide : main_arg0 ∉ hostOps12_W)
    _ = W18 m ρ c (Proc.devRef .tc main_arg0) := W19_of_ne m ρ c main_arg0 (by decide)
    _ = W17 m ρ c (Proc.devRef .tc main_arg0) := StableHlo.after_of_writes_sub hostOps11 _ hostOps11_writes (by decide : main_arg0 ∉ hostOps11_W)
    _ = W16 m ρ c (Proc.devRef .tc main_arg0) := W17_of_ne m ρ c main_arg0 (by decide)
    _ = W15 m ρ c (Proc.devRef .tc main_arg0) := StableHlo.after_of_writes_sub hostOps10 _ hostOps10_writes (by decide : main_arg0 ∉ hostOps10_W)
    _ = W14 m ρ c (Proc.devRef .tc main_arg0) := W15_of_ne m ρ c main_arg0 (by decide)
    _ = W13 m ρ c (Proc.devRef .tc main_arg0) := W14_of_ne m ρ c main_arg0 (by decide)
    _ = W12 m ρ c (Proc.devRef .tc main_arg0) := StableHlo.after_of_writes_sub hostOps8 _ hostOps8_writes (by decide : main_arg0 ∉ hostOps8_W)
    _ = W11 m ρ c (Proc.devRef .tc main_arg0) := W12_of_ne m ρ c main_arg0 (by decide)
    _ = W10 m ρ c (Proc.devRef .tc main_arg0) := W11_of_ne m ρ c main_arg0 (by decide)
    _ = W9 m ρ c (Proc.devRef .tc main_arg0) := StableHlo.after_of_writes_sub hostOps6 _ hostOps6_writes (by decide : main_arg0 ∉ hostOps6_W)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := StableHlo.after_of_writes_sub hostOps4 _ hostOps4_writes (by decide : main_arg0 ∉ hostOps4_W)
    _ = W5 m ρ c (Proc.devRef .tc main_arg0) := W6_of_ne m ρ c main_arg0 (by decide)
    _ = W4 m ρ c (Proc.devRef .tc main_arg0) := W5_of_ne m ρ c main_arg0 (by decide) (by decide)
    _ = W3 m ρ c (Proc.devRef .tc main_arg0) := StableHlo.after_of_writes_sub hostOps2 _ hostOps2_writes (by decide : main_arg0 ∉ hostOps2_W)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W20_main_arg1 (c : Dev nD) : W20 m ρ c (Proc.devRef .tc main_arg1) = m ((c : Thread nD τ).loc main_arg1) :=
  calc W20 m ρ c (Proc.devRef .tc main_arg1)
    _ = W19 m ρ c (Proc.devRef .tc main_arg1) := StableHlo.after_of_writes_sub hostOps12 _ hostOps12_writes (by decide : main_arg1 ∉ hostOps12_W)
    _ = W18 m ρ c (Proc.devRef .tc main_arg1) := W19_of_ne m ρ c main_arg1 (by decide)
    _ = W17 m ρ c (Proc.devRef .tc main_arg1) := StableHlo.after_of_writes_sub hostOps11 _ hostOps11_writes (by decide : main_arg1 ∉ hostOps11_W)
    _ = W16 m ρ c (Proc.devRef .tc main_arg1) := W17_of_ne m ρ c main_arg1 (by decide)
    _ = W15 m ρ c (Proc.devRef .tc main_arg1) := StableHlo.after_of_writes_sub hostOps10 _ hostOps10_writes (by decide : main_arg1 ∉ hostOps10_W)
    _ = W14 m ρ c (Proc.devRef .tc main_arg1) := W15_of_ne m ρ c main_arg1 (by decide)
    _ = W13 m ρ c (Proc.devRef .tc main_arg1) := W14_of_ne m ρ c main_arg1 (by decide)
    _ = W12 m ρ c (Proc.devRef .tc main_arg1) := StableHlo.after_of_writes_sub hostOps8 _ hostOps8_writes (by decide : main_arg1 ∉ hostOps8_W)
    _ = W11 m ρ c (Proc.devRef .tc main_arg1) := W12_of_ne m ρ c main_arg1 (by decide)
    _ = W10 m ρ c (Proc.devRef .tc main_arg1) := W11_of_ne m ρ c main_arg1 (by decide)
    _ = W9 m ρ c (Proc.devRef .tc main_arg1) := StableHlo.after_of_writes_sub hostOps6 _ hostOps6_writes (by decide : main_arg1 ∉ hostOps6_W)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := StableHlo.after_of_writes_sub hostOps4 _ hostOps4_writes (by decide : main_arg1 ∉ hostOps4_W)
    _ = W5 m ρ c (Proc.devRef .tc main_arg1) := W6_of_ne m ρ c main_arg1 (by decide)
    _ = W4 m ρ c (Proc.devRef .tc main_arg1) := W5_of_ne m ρ c main_arg1 (by decide) (by decide)
    _ = W3 m ρ c (Proc.devRef .tc main_arg1) := StableHlo.after_of_writes_sub hostOps2 _ hostOps2_writes (by decide : main_arg1 ∉ hostOps2_W)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W20_main_arg2 (c : Dev nD) : W20 m ρ c (Proc.devRef .tc main_arg2) = m ((c : Thread nD τ).loc main_arg2) :=
  calc W20 m ρ c (Proc.devRef .tc main_arg2)
    _ = W19 m ρ c (Proc.devRef .tc main_arg2) := StableHlo.after_of_writes_sub hostOps12 _ hostOps12_writes (by decide : main_arg2 ∉ hostOps12_W)
    _ = W18 m ρ c (Proc.devRef .tc main_arg2) := W19_of_ne m ρ c main_arg2 (by decide)
    _ = W17 m ρ c (Proc.devRef .tc main_arg2) := StableHlo.after_of_writes_sub hostOps11 _ hostOps11_writes (by decide : main_arg2 ∉ hostOps11_W)
    _ = W16 m ρ c (Proc.devRef .tc main_arg2) := W17_of_ne m ρ c main_arg2 (by decide)
    _ = W15 m ρ c (Proc.devRef .tc main_arg2) := StableHlo.after_of_writes_sub hostOps10 _ hostOps10_writes (by decide : main_arg2 ∉ hostOps10_W)
    _ = W14 m ρ c (Proc.devRef .tc main_arg2) := W15_of_ne m ρ c main_arg2 (by decide)
    _ = W13 m ρ c (Proc.devRef .tc main_arg2) := W14_of_ne m ρ c main_arg2 (by decide)
    _ = W12 m ρ c (Proc.devRef .tc main_arg2) := StableHlo.after_of_writes_sub hostOps8 _ hostOps8_writes (by decide : main_arg2 ∉ hostOps8_W)
    _ = W11 m ρ c (Proc.devRef .tc main_arg2) := W12_of_ne m ρ c main_arg2 (by decide)
    _ = W10 m ρ c (Proc.devRef .tc main_arg2) := W11_of_ne m ρ c main_arg2 (by decide)
    _ = W9 m ρ c (Proc.devRef .tc main_arg2) := StableHlo.after_of_writes_sub hostOps6 _ hostOps6_writes (by decide : main_arg2 ∉ hostOps6_W)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := StableHlo.after_of_writes_sub hostOps4 _ hostOps4_writes (by decide : main_arg2 ∉ hostOps4_W)
    _ = W5 m ρ c (Proc.devRef .tc main_arg2) := W6_of_ne m ρ c main_arg2 (by decide)
    _ = W4 m ρ c (Proc.devRef .tc main_arg2) := W5_of_ne m ρ c main_arg2 (by decide) (by decide)
    _ = W3 m ρ c (Proc.devRef .tc main_arg2) := StableHlo.after_of_writes_sub hostOps2 _ hostOps2_writes (by decide : main_arg2 ∉ hostOps2_W)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W20_main_arg3 (c : Dev nD) : W20 m ρ c (Proc.devRef .tc main_arg3) = m ((c : Thread nD τ).loc main_arg3) :=
  calc W20 m ρ c (Proc.devRef .tc main_arg3)
    _ = W19 m ρ c (Proc.devRef .tc main_arg3) := StableHlo.after_of_writes_sub hostOps12 _ hostOps12_writes (by decide : main_arg3 ∉ hostOps12_W)
    _ = W18 m ρ c (Proc.devRef .tc main_arg3) := W19_of_ne m ρ c main_arg3 (by decide)
    _ = W17 m ρ c (Proc.devRef .tc main_arg3) := StableHlo.after_of_writes_sub hostOps11 _ hostOps11_writes (by decide : main_arg3 ∉ hostOps11_W)
    _ = W16 m ρ c (Proc.devRef .tc main_arg3) := W17_of_ne m ρ c main_arg3 (by decide)
    _ = W15 m ρ c (Proc.devRef .tc main_arg3) := StableHlo.after_of_writes_sub hostOps10 _ hostOps10_writes (by decide : main_arg3 ∉ hostOps10_W)
    _ = W14 m ρ c (Proc.devRef .tc main_arg3) := W15_of_ne m ρ c main_arg3 (by decide)
    _ = W13 m ρ c (Proc.devRef .tc main_arg3) := W14_of_ne m ρ c main_arg3 (by decide)
    _ = W12 m ρ c (Proc.devRef .tc main_arg3) := StableHlo.after_of_writes_sub hostOps8 _ hostOps8_writes (by decide : main_arg3 ∉ hostOps8_W)
    _ = W11 m ρ c (Proc.devRef .tc main_arg3) := W12_of_ne m ρ c main_arg3 (by decide)
    _ = W10 m ρ c (Proc.devRef .tc main_arg3) := W11_of_ne m ρ c main_arg3 (by decide)
    _ = W9 m ρ c (Proc.devRef .tc main_arg3) := StableHlo.after_of_writes_sub hostOps6 _ hostOps6_writes (by decide : main_arg3 ∉ hostOps6_W)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := StableHlo.after_of_writes_sub hostOps4 _ hostOps4_writes (by decide : main_arg3 ∉ hostOps4_W)
    _ = W5 m ρ c (Proc.devRef .tc main_arg3) := W6_of_ne m ρ c main_arg3 (by decide)
    _ = W4 m ρ c (Proc.devRef .tc main_arg3) := W5_of_ne m ρ c main_arg3 (by decide) (by decide)
    _ = W3 m ρ c (Proc.devRef .tc main_arg3) := StableHlo.after_of_writes_sub hostOps2 _ hostOps2_writes (by decide : main_arg3 ∉ hostOps2_W)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W20_main_arg4 (c : Dev nD) : W20 m ρ c (Proc.devRef .tc main_arg4) = m ((c : Thread nD τ).loc main_arg4) :=
  calc W20 m ρ c (Proc.devRef .tc main_arg4)
    _ = W19 m ρ c (Proc.devRef .tc main_arg4) := StableHlo.after_of_writes_sub hostOps12 _ hostOps12_writes (by decide : main_arg4 ∉ hostOps12_W)
    _ = W18 m ρ c (Proc.devRef .tc main_arg4) := W19_of_ne m ρ c main_arg4 (by decide)
    _ = W17 m ρ c (Proc.devRef .tc main_arg4) := StableHlo.after_of_writes_sub hostOps11 _ hostOps11_writes (by decide : main_arg4 ∉ hostOps11_W)
    _ = W16 m ρ c (Proc.devRef .tc main_arg4) := W17_of_ne m ρ c main_arg4 (by decide)
    _ = W15 m ρ c (Proc.devRef .tc main_arg4) := StableHlo.after_of_writes_sub hostOps10 _ hostOps10_writes (by decide : main_arg4 ∉ hostOps10_W)
    _ = W14 m ρ c (Proc.devRef .tc main_arg4) := W15_of_ne m ρ c main_arg4 (by decide)
    _ = W13 m ρ c (Proc.devRef .tc main_arg4) := W14_of_ne m ρ c main_arg4 (by decide)
    _ = W12 m ρ c (Proc.devRef .tc main_arg4) := StableHlo.after_of_writes_sub hostOps8 _ hostOps8_writes (by decide : main_arg4 ∉ hostOps8_W)
    _ = W11 m ρ c (Proc.devRef .tc main_arg4) := W12_of_ne m ρ c main_arg4 (by decide)
    _ = W10 m ρ c (Proc.devRef .tc main_arg4) := W11_of_ne m ρ c main_arg4 (by decide)
    _ = W9 m ρ c (Proc.devRef .tc main_arg4) := StableHlo.after_of_writes_sub hostOps6 _ hostOps6_writes (by decide : main_arg4 ∉ hostOps6_W)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := StableHlo.after_of_writes_sub hostOps4 _ hostOps4_writes (by decide : main_arg4 ∉ hostOps4_W)
    _ = W5 m ρ c (Proc.devRef .tc main_arg4) := W6_of_ne m ρ c main_arg4 (by decide)
    _ = W4 m ρ c (Proc.devRef .tc main_arg4) := W5_of_ne m ρ c main_arg4 (by decide) (by decide)
    _ = W3 m ρ c (Proc.devRef .tc main_arg4) := StableHlo.after_of_writes_sub hostOps2 _ hostOps2_writes (by decide : main_arg4 ∉ hostOps2_W)
    _ = W2 m ρ c (Proc.devRef .tc main_arg4) := W3_of_ne m ρ c main_arg4 (by decide)
    _ = W1 m ρ c (Proc.devRef .tc main_arg4) := (W2_arr m ρ c 1).trans (((dat0 (Vw1 m ρ) c).arrAt_in 1 rfl _).trans (A_eq0 (Vw1 m ρ) c 1))
    _ = W0 m ρ c (Proc.devRef .tc main_arg4) := StableHlo.after_of_writes_sub hostOps0 _ hostOps0_writes (by decide : main_arg4 ∉ hostOps0_W)
    _ = m ((c : Thread nD τ).loc main_arg4) := rfl

theorem W20_main_arg5 (c : Dev nD) : W20 m ρ c (Proc.devRef .tc main_arg5) = m ((c : Thread nD τ).loc main_arg5) :=
  calc W20 m ρ c (Proc.devRef .tc main_arg5)
    _ = W19 m ρ c (Proc.devRef .tc main_arg5) := StableHlo.after_of_writes_sub hostOps12 _ hostOps12_writes (by decide : main_arg5 ∉ hostOps12_W)
    _ = W18 m ρ c (Proc.devRef .tc main_arg5) := W19_of_ne m ρ c main_arg5 (by decide)
    _ = W17 m ρ c (Proc.devRef .tc main_arg5) := StableHlo.after_of_writes_sub hostOps11 _ hostOps11_writes (by decide : main_arg5 ∉ hostOps11_W)
    _ = W16 m ρ c (Proc.devRef .tc main_arg5) := W17_of_ne m ρ c main_arg5 (by decide)
    _ = W15 m ρ c (Proc.devRef .tc main_arg5) := StableHlo.after_of_writes_sub hostOps10 _ hostOps10_writes (by decide : main_arg5 ∉ hostOps10_W)
    _ = W14 m ρ c (Proc.devRef .tc main_arg5) := W15_of_ne m ρ c main_arg5 (by decide)
    _ = W13 m ρ c (Proc.devRef .tc main_arg5) := W14_of_ne m ρ c main_arg5 (by decide)
    _ = W12 m ρ c (Proc.devRef .tc main_arg5) := StableHlo.after_of_writes_sub hostOps8 _ hostOps8_writes (by decide : main_arg5 ∉ hostOps8_W)
    _ = W11 m ρ c (Proc.devRef .tc main_arg5) := W12_of_ne m ρ c main_arg5 (by decide)
    _ = W10 m ρ c (Proc.devRef .tc main_arg5) := W11_of_ne m ρ c main_arg5 (by decide)
    _ = W9 m ρ c (Proc.devRef .tc main_arg5) := StableHlo.after_of_writes_sub hostOps6 _ hostOps6_writes (by decide : main_arg5 ∉ hostOps6_W)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := StableHlo.after_of_writes_sub hostOps4 _ hostOps4_writes (by decide : main_arg5 ∉ hostOps4_W)
    _ = W5 m ρ c (Proc.devRef .tc main_arg5) := W6_of_ne m ρ c main_arg5 (by decide)
    _ = W4 m ρ c (Proc.devRef .tc main_arg5) := W5_of_ne m ρ c main_arg5 (by decide) (by decide)
    _ = W3 m ρ c (Proc.devRef .tc main_arg5) := StableHlo.after_of_writes_sub hostOps2 _ hostOps2_writes (by decide : main_arg5 ∉ hostOps2_W)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W20_main_arg6 (c : Dev nD) : W20 m ρ c (Proc.devRef .tc main_arg6) = m ((c : Thread nD τ).loc main_arg6) :=
  calc W20 m ρ c (Proc.devRef .tc main_arg6)
    _ = W19 m ρ c (Proc.devRef .tc main_arg6) := StableHlo.after_of_writes_sub hostOps12 _ hostOps12_writes (by decide : main_arg6 ∉ hostOps12_W)
    _ = W18 m ρ c (Proc.devRef .tc main_arg6) := W19_of_ne m ρ c main_arg6 (by decide)
    _ = W17 m ρ c (Proc.devRef .tc main_arg6) := StableHlo.after_of_writes_sub hostOps11 _ hostOps11_writes (by decide : main_arg6 ∉ hostOps11_W)
    _ = W16 m ρ c (Proc.devRef .tc main_arg6) := W17_of_ne m ρ c main_arg6 (by decide)
    _ = W15 m ρ c (Proc.devRef .tc main_arg6) := StableHlo.after_of_writes_sub hostOps10 _ hostOps10_writes (by decide : main_arg6 ∉ hostOps10_W)
    _ = W14 m ρ c (Proc.devRef .tc main_arg6) := (W15_arr m ρ c 1).trans (((dat9 (Vw14 m ρ) c).arrAt_in 1 rfl _).trans (A_eq9 (Vw14 m ρ) c 1))
    _ = W13 m ρ c (Proc.devRef .tc main_arg6) := W14_of_ne m ρ c main_arg6 (by decide)
    _ = W12 m ρ c (Proc.devRef .tc main_arg6) := StableHlo.after_of_writes_sub hostOps8 _ hostOps8_writes (by decide : main_arg6 ∉ hostOps8_W)
    _ = W11 m ρ c (Proc.devRef .tc main_arg6) := (W12_arr m ρ c 1).trans (((dat7 (Vw11 m ρ) c).arrAt_in 1 rfl _).trans (A_eq7 (Vw11 m ρ) c 1))
    _ = W10 m ρ c (Proc.devRef .tc main_arg6) := W11_of_ne m ρ c main_arg6 (by decide)
    _ = W9 m ρ c (Proc.devRef .tc main_arg6) := StableHlo.after_of_writes_sub hostOps6 _ hostOps6_writes (by decide : main_arg6 ∉ hostOps6_W)
    _ = W8 m ρ c (Proc.devRef .tc main_arg6) := (W9_arr m ρ c 1).trans (((dat5 (Vw8 m ρ) c).arrAt_in 1 rfl _).trans (A_eq5 (Vw8 m ρ) c 1))
    _ = W7 m ρ c (Proc.devRef .tc main_arg6) := W8_of_ne m ρ c main_arg6 (by decide)
    _ = W6 m ρ c (Proc.devRef .tc main_arg6) := StableHlo.after_of_writes_sub hostOps4 _ hostOps4_writes (by decide : main_arg6 ∉ hostOps4_W)
    _ = W5 m ρ c (Proc.devRef .tc main_arg6) := (W6_arr m ρ c 1).trans (((dat3 (Vw5 m ρ) c).arrAt_in 1 rfl _).trans (A_eq3 (Vw5 m ρ) c 1))
    _ = W4 m ρ c (Proc.devRef .tc main_arg6) := W5_of_ne m ρ c main_arg6 (by decide) (by decide)
    _ = W3 m ρ c (Proc.devRef .tc main_arg6) := StableHlo.after_of_writes_sub hostOps2 _ hostOps2_writes (by decide : main_arg6 ∉ hostOps2_W)
    _ = W2 m ρ c (Proc.devRef .tc main_arg6) := (W3_arr m ρ c 1).trans (((dat1 (Vw2 m ρ) c).arrAt_in 1 rfl _).trans (A_eq1 (Vw2 m ρ) c 1))
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W20_main_arg7 (c : Dev nD) : W20 m ρ c (Proc.devRef .tc main_arg7) = m ((c : Thread nD τ).loc main_arg7) :=
  calc W20 m ρ c (Proc.devRef .tc main_arg7)
    _ = W19 m ρ c (Proc.devRef .tc main_arg7) := StableHlo.after_of_writes_sub hostOps12 _ hostOps12_writes (by decide : main_arg7 ∉ hostOps12_W)
    _ = W18 m ρ c (Proc.devRef .tc main_arg7) := W19_of_ne m ρ c main_arg7 (by decide)
    _ = W17 m ρ c (Proc.devRef .tc main_arg7) := StableHlo.after_of_writes_sub hostOps11 _ hostOps11_writes (by decide : main_arg7 ∉ hostOps11_W)
    _ = W16 m ρ c (Proc.devRef .tc main_arg7) := W17_of_ne m ρ c main_arg7 (by decide)
    _ = W15 m ρ c (Proc.devRef .tc main_arg7) := StableHlo.after_of_writes_sub hostOps10 _ hostOps10_writes (by decide : main_arg7 ∉ hostOps10_W)
    _ = W14 m ρ c (Proc.devRef .tc main_arg7) := W15_of_ne m ρ c main_arg7 (by decide)
    _ = W13 m ρ c (Proc.devRef .tc main_arg7) := W14_of_ne m ρ c main_arg7 (by decide)
    _ = W12 m ρ c (Proc.devRef .tc main_arg7) := StableHlo.after_of_writes_sub hostOps8 _ hostOps8_writes (by decide : main_arg7 ∉ hostOps8_W)
    _ = W11 m ρ c (Proc.devRef .tc main_arg7) := W12_of_ne m ρ c main_arg7 (by decide)
    _ = W10 m ρ c (Proc.devRef .tc main_arg7) := W11_of_ne m ρ c main_arg7 (by decide)
    _ = W9 m ρ c (Proc.devRef .tc main_arg7) := StableHlo.after_of_writes_sub hostOps6 _ hostOps6_writes (by decide : main_arg7 ∉ hostOps6_W)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_writes_sub hostOps4 _ hostOps4_writes (by decide : main_arg7 ∉ hostOps4_W)
    _ = W5 m ρ c (Proc.devRef .tc main_arg7) := W6_of_ne m ρ c main_arg7 (by decide)
    _ = W4 m ρ c (Proc.devRef .tc main_arg7) := W5_of_ne m ρ c main_arg7 (by decide) (by decide)
    _ = W3 m ρ c (Proc.devRef .tc main_arg7) := StableHlo.after_of_writes_sub hostOps2 _ hostOps2_writes (by decide : main_arg7 ∉ hostOps2_W)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

theorem W20_main_arg8 (c : Dev nD) : W20 m ρ c (Proc.devRef .tc main_arg8) = m ((c : Thread nD τ).loc main_arg8) :=
  calc W20 m ρ c (Proc.devRef .tc main_arg8)
    _ = W19 m ρ c (Proc.devRef .tc main_arg8) := StableHlo.after_of_writes_sub hostOps12 _ hostOps12_writes (by decide : main_arg8 ∉ hostOps12_W)
    _ = W18 m ρ c (Proc.devRef .tc main_arg8) := W19_of_ne m ρ c main_arg8 (by decide)
    _ = W17 m ρ c (Proc.devRef .tc main_arg8) := StableHlo.after_of_writes_sub hostOps11 _ hostOps11_writes (by decide : main_arg8 ∉ hostOps11_W)
    _ = W16 m ρ c (Proc.devRef .tc main_arg8) := (W17_arr m ρ c 5).trans (((dat10 (Vw16 m ρ) (fun _ => fullShare) c).arrAt_in 5 rfl _).trans (A_eq10 (Vw16 m ρ) (fun _ => fullShare) c 5))
    _ = W15 m ρ c (Proc.devRef .tc main_arg8) := StableHlo.after_of_writes_sub hostOps10 _ hostOps10_writes (by decide : main_arg8 ∉ hostOps10_W)
    _ = W14 m ρ c (Proc.devRef .tc main_arg8) := W15_of_ne m ρ c main_arg8 (by decide)
    _ = W13 m ρ c (Proc.devRef .tc main_arg8) := (W14_arr m ρ c 5).trans (((dat8 (Vw13 m ρ) (fun _ => fullShare) c).arrAt_in 5 rfl _).trans (A_eq8 (Vw13 m ρ) (fun _ => fullShare) c 5))
    _ = W12 m ρ c (Proc.devRef .tc main_arg8) := StableHlo.after_of_writes_sub hostOps8 _ hostOps8_writes (by decide : main_arg8 ∉ hostOps8_W)
    _ = W11 m ρ c (Proc.devRef .tc main_arg8) := W12_of_ne m ρ c main_arg8 (by decide)
    _ = W10 m ρ c (Proc.devRef .tc main_arg8) := (W11_arr m ρ c 5).trans (((dat6 (Vw10 m ρ) (fun _ => fullShare) c).arrAt_in 5 rfl _).trans (A_eq6 (Vw10 m ρ) (fun _ => fullShare) c 5))
    _ = W9 m ρ c (Proc.devRef .tc main_arg8) := StableHlo.after_of_writes_sub hostOps6 _ hostOps6_writes (by decide : main_arg8 ∉ hostOps6_W)
    _ = W8 m ρ c (Proc.devRef .tc main_arg8) := W9_of_ne m ρ c main_arg8 (by decide)
    _ = W7 m ρ c (Proc.devRef .tc main_arg8) := (W8_arr m ρ c 5).trans (((dat4 (Vw7 m ρ) (fun _ => fullShare) c).arrAt_in 5 rfl _).trans (A_eq4 (Vw7 m ρ) (fun _ => fullShare) c 5))
    _ = W6 m ρ c (Proc.devRef .tc main_arg8) := StableHlo.after_of_writes_sub hostOps4 _ hostOps4_writes (by decide : main_arg8 ∉ hostOps4_W)
    _ = W5 m ρ c (Proc.devRef .tc main_arg8) := W6_of_ne m ρ c main_arg8 (by decide)
    _ = W4 m ρ c (Proc.devRef .tc main_arg8) := W5_of_ne m ρ c main_arg8 (by decide) (by decide)
    _ = W3 m ρ c (Proc.devRef .tc main_arg8) := StableHlo.after_of_writes_sub hostOps2 _ hostOps2_writes (by decide : main_arg8 ∉ hostOps2_W)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

theorem W20_main_arg9 (c : Dev nD) : W20 m ρ c (Proc.devRef .tc main_arg9) = m ((c : Thread nD τ).loc main_arg9) :=
  calc W20 m ρ c (Proc.devRef .tc main_arg9)
    _ = W19 m ρ c (Proc.devRef .tc main_arg9) := StableHlo.after_of_writes_sub hostOps12 _ hostOps12_writes (by decide : main_arg9 ∉ hostOps12_W)
    _ = W18 m ρ c (Proc.devRef .tc main_arg9) := W19_of_ne m ρ c main_arg9 (by decide)
    _ = W17 m ρ c (Proc.devRef .tc main_arg9) := StableHlo.after_of_writes_sub hostOps11 _ hostOps11_writes (by decide : main_arg9 ∉ hostOps11_W)
    _ = W16 m ρ c (Proc.devRef .tc main_arg9) := W17_of_ne m ρ c main_arg9 (by decide)
    _ = W15 m ρ c (Proc.devRef .tc main_arg9) := StableHlo.after_of_writes_sub hostOps10 _ hostOps10_writes (by decide : main_arg9 ∉ hostOps10_W)
    _ = W14 m ρ c (Proc.devRef .tc main_arg9) := W15_of_ne m ρ c main_arg9 (by decide)
    _ = W13 m ρ c (Proc.devRef .tc main_arg9) := W14_of_ne m ρ c main_arg9 (by decide)
    _ = W12 m ρ c (Proc.devRef .tc main_arg9) := StableHlo.after_of_writes_sub hostOps8 _ hostOps8_writes (by decide : main_arg9 ∉ hostOps8_W)
    _ = W11 m ρ c (Proc.devRef .tc main_arg9) := W12_of_ne m ρ c main_arg9 (by decide)
    _ = W10 m ρ c (Proc.devRef .tc main_arg9) := W11_of_ne m ρ c main_arg9 (by decide)
    _ = W9 m ρ c (Proc.devRef .tc main_arg9) := StableHlo.after_of_writes_sub hostOps6 _ hostOps6_writes (by decide : main_arg9 ∉ hostOps6_W)
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := StableHlo.after_of_writes_sub hostOps4 _ hostOps4_writes (by decide : main_arg9 ∉ hostOps4_W)
    _ = W5 m ρ c (Proc.devRef .tc main_arg9) := W6_of_ne m ρ c main_arg9 (by decide)
    _ = W4 m ρ c (Proc.devRef .tc main_arg9) := W5_of_ne m ρ c main_arg9 (by decide) (by decide)
    _ = W3 m ρ c (Proc.devRef .tc main_arg9) := StableHlo.after_of_writes_sub hostOps2 _ hostOps2_writes (by decide : main_arg9 ∉ hostOps2_W)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

theorem W20_main_arg10 (c : Dev nD) : W20 m ρ c (Proc.devRef .tc main_arg10) = m ((c : Thread nD τ).loc main_arg10) :=
  calc W20 m ρ c (Proc.devRef .tc main_arg10)
    _ = W19 m ρ c (Proc.devRef .tc main_arg10) := StableHlo.after_of_writes_sub hostOps12 _ hostOps12_writes (by decide : main_arg10 ∉ hostOps12_W)
    _ = W18 m ρ c (Proc.devRef .tc main_arg10) := (W19_arr m ρ c 1).trans (((dat11 (Vw18 m ρ) c).arrAt_in 1 rfl _).trans (A_eq11 (Vw18 m ρ) c 1))
    _ = W17 m ρ c (Proc.devRef .tc main_arg10) := StableHlo.after_of_writes_sub hostOps11 _ hostOps11_writes (by decide : main_arg10 ∉ hostOps11_W)
    _ = W16 m ρ c (Proc.devRef .tc main_arg10) := W17_of_ne m ρ c main_arg10 (by decide)
    _ = W15 m ρ c (Proc.devRef .tc main_arg10) := StableHlo.after_of_writes_sub hostOps10 _ hostOps10_writes (by decide : main_arg10 ∉ hostOps10_W)
    _ = W14 m ρ c (Proc.devRef .tc main_arg10) := W15_of_ne m ρ c main_arg10 (by decide)
    _ = W13 m ρ c (Proc.devRef .tc main_arg10) := W14_of_ne m ρ c main_arg10 (by decide)
    _ = W12 m ρ c (Proc.devRef .tc main_arg10) := StableHlo.after_of_writes_sub hostOps8 _ hostOps8_writes (by decide : main_arg10 ∉ hostOps8_W)
    _ = W11 m ρ c (Proc.devRef .tc main_arg10) := W12_of_ne m ρ c main_arg10 (by decide)
    _ = W10 m ρ c (Proc.devRef .tc main_arg10) := W11_of_ne m ρ c main_arg10 (by decide)
    _ = W9 m ρ c (Proc.devRef .tc main_arg10) := StableHlo.after_of_writes_sub hostOps6 _ hostOps6_writes (by decide : main_arg10 ∉ hostOps6_W)
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := StableHlo.after_of_writes_sub hostOps4 _ hostOps4_writes (by decide : main_arg10 ∉ hostOps4_W)
    _ = W5 m ρ c (Proc.devRef .tc main_arg10) := W6_of_ne m ρ c main_arg10 (by decide)
    _ = W4 m ρ c (Proc.devRef .tc main_arg10) := W5_of_ne m ρ c main_arg10 (by decide) (by decide)
    _ = W3 m ρ c (Proc.devRef .tc main_arg10) := StableHlo.after_of_writes_sub hostOps2 _ hostOps2_writes (by decide : main_arg10 ∉ hostOps2_W)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

theorem W20_main_arg11 (c : Dev nD) : W20 m ρ c (Proc.devRef .tc main_arg11) = m ((c : Thread nD τ).loc main_arg11) :=
  calc W20 m ρ c (Proc.devRef .tc main_arg11)
    _ = W19 m ρ c (Proc.devRef .tc main_arg11) := StableHlo.after_of_writes_sub hostOps12 _ hostOps12_writes (by decide : main_arg11 ∉ hostOps12_W)
    _ = W18 m ρ c (Proc.devRef .tc main_arg11) := W19_of_ne m ρ c main_arg11 (by decide)
    _ = W17 m ρ c (Proc.devRef .tc main_arg11) := StableHlo.after_of_writes_sub hostOps11 _ hostOps11_writes (by decide : main_arg11 ∉ hostOps11_W)
    _ = W16 m ρ c (Proc.devRef .tc main_arg11) := W17_of_ne m ρ c main_arg11 (by decide)
    _ = W15 m ρ c (Proc.devRef .tc main_arg11) := StableHlo.after_of_writes_sub hostOps10 _ hostOps10_writes (by decide : main_arg11 ∉ hostOps10_W)
    _ = W14 m ρ c (Proc.devRef .tc main_arg11) := W15_of_ne m ρ c main_arg11 (by decide)
    _ = W13 m ρ c (Proc.devRef .tc main_arg11) := W14_of_ne m ρ c main_arg11 (by decide)
    _ = W12 m ρ c (Proc.devRef .tc main_arg11) := StableHlo.after_of_writes_sub hostOps8 _ hostOps8_writes (by decide : main_arg11 ∉ hostOps8_W)
    _ = W11 m ρ c (Proc.devRef .tc main_arg11) := W12_of_ne m ρ c main_arg11 (by decide)
    _ = W10 m ρ c (Proc.devRef .tc main_arg11) := W11_of_ne m ρ c main_arg11 (by decide)
    _ = W9 m ρ c (Proc.devRef .tc main_arg11) := StableHlo.after_of_writes_sub hostOps6 _ hostOps6_writes (by decide : main_arg11 ∉ hostOps6_W)
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := StableHlo.after_of_writes_sub hostOps4 _ hostOps4_writes (by decide : main_arg11 ∉ hostOps4_W)
    _ = W5 m ρ c (Proc.devRef .tc main_arg11) := W6_of_ne m ρ c main_arg11 (by decide)
    _ = W4 m ρ c (Proc.devRef .tc main_arg11) := W5_of_ne m ρ c main_arg11 (by decide) (by decide)
    _ = W3 m ρ c (Proc.devRef .tc main_arg11) := StableHlo.after_of_writes_sub hostOps2 _ hostOps2_writes (by decide : main_arg11 ∉ hostOps2_W)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

/-- The main program's twenty items in order. -/
abbrev allSegs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .host (hseg hostOps4 hostOps4_sub hostOps4_fresh (W6 m ρ)),
    .region (reg4 m ρ),
    .region (reg5 m ρ),
    .host (hseg hostOps6 hostOps6_sub hostOps6_fresh (W9 m ρ)),
    .region (reg6 m ρ),
    .region (reg7 m ρ),
    .host (hseg hostOps8 hostOps8_sub hostOps8_fresh (W12 m ρ)),
    .region (reg8 m ρ),
    .region (reg9 m ρ),
    .host (hseg hostOps10 hostOps10_sub hostOps10_fresh (W15 m ρ)),
    .region (reg10 m ρ),
    .host (hseg hostOps11 hostOps11_sub hostOps11_fresh (W17 m ρ)),
    .region (reg11 m ρ),
    .host (hseg hostOps12 hostOps12_sub hostOps12_fresh (W19 m ρ)) ]

theorem main_run (c : Dev nD) : main (F := F) c = Pipeline.Seg.run (allSegs m ρ) := (main_chain c).trans (by chain_rfl)

abbrev Tₙ (c : Dev nD) : sProp 𝕄 := iprop(StableHlo.held (c : Thread nD τ) (Pipeline.ucRefs τ sig) (W20 m ρ c) ∗ ∃ r, prngReg c r)

set_option backward.isDefEq.respectTransparency.types false in
/-- Every weakly fair execution of the main program from `m` terminates without a fault, and in every final state each
    unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (allSegs m ρ)
    (fun c Q => by rw [main_run m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W20 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun r h c => ⟨(h c _ (mem_uc main_arg0 (by decide))).trans (W20_main_arg0 m ρ c),
    (h c _ (mem_uc main_arg1 (by decide))).trans (W20_main_arg1 m ρ c),
    (h c _ (mem_uc main_arg2 (by decide))).trans (W20_main_arg2 m ρ c),
    (h c _ (mem_uc main_arg3 (by decide))).trans (W20_main_arg3 m ρ c),
    (h c _ (mem_uc main_arg4 (by decide))).trans (W20_main_arg4 m ρ c),
    (h c _ (mem_uc main_arg5 (by decide))).trans (W20_main_arg5 m ρ c),
    (h c _ (mem_uc main_arg6 (by decide))).trans (W20_main_arg6 m ρ c),
    (h c _ (mem_uc main_arg7 (by decide))).trans (W20_main_arg7 m ρ c),
    (h c _ (mem_uc main_arg8 (by decide))).trans (W20_main_arg8 m ρ c),
    (h c _ (mem_uc main_arg9 (by decide))).trans (W20_main_arg9 m ρ c),
    (h c _ (mem_uc main_arg10 (by decide))).trans (W20_main_arg10 m ρ c),
    (h c _ (mem_uc main_arg11 (by decide))).trans (W20_main_arg11 m ρ c)⟩) (run_all m ρ)

end Cert.KernelIdeal.Fr

end
-- ==== Proof.RefRunC.lean ====
/-
  The reference program's run, the operations cut at the layer boundaries. The 418 operations are six consecutive
  chunks (the encoder with the first layer, the second to fifth layers, the decoder); the line is their concatenation.
  Every operation touches TensorCore references only and allocates nothing, and each chunk writes a listed set of
  references, none of them an argument: so every weakly fair execution terminates with every buffer at the fold of the
  operations over its launch contents, and the twelve arguments keep their launch contents.
-/
import proofs.«131582_j65292092834213_2_alg».proof.Proof.Gen.ReferenceIdeal
import Idealize.ShloMosaic.Lib.StableHlo.Run

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-! ## The reference's operations, cut at the layer boundaries -/

set_option maxHeartbeats 0 in
set_option maxRecDepth 8192 in
abbrev opsA : List (HloOp τ sig (Elt F)) :=
  [ unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg1 main_v4 ((fun a b => concatenate S50000x16 1 [⟨S50000x14, a⟩, ⟨S50000x2, b⟩] concatenates_S50000x14_S50000x2_S50000x16_d1) : (⟨S50000x14, .f32⟩ : BufTy).Contents (Elt F) → (⟨S50000x2, .f32⟩ : BufTy).Contents (Elt F) → (⟨S50000x16, .f32⟩ : BufTy).Contents (Elt F)),
    binary main_v4 main_arg4 main_v5 ((fun l r => Host.dotGeneral dot_S50000x16_S16x64_S50000x64_1_0_0_1_n_n none l r) : (⟨S50000x16, .f32⟩ : BufTy).Contents (Elt F) → (⟨S16x64, .f32⟩ : BufTy).Contents (Elt F) → (⟨S50000x64, .f32⟩ : BufTy).Contents (Elt F)),
    unary main_arg5 main_v6 (broadcastInDim S1x64 ![1] bcast_S64_S1x64_1 : (⟨S64, .f32⟩ : BufTy).Contents (Elt F) → (⟨S1x64, .f32⟩ : BufTy).Contents (Elt F)),
    unary main_v6 main_v7 (broadcastInDim S50000x64 ![0, 1] bcast_S1x64_S50000x64_0_1 : (⟨S1x64, .f32⟩ : BufTy).Contents (Elt F) → (⟨S50000x64, .f32⟩ : BufTy).Contents (Elt F)),
    binary main_v5 main_v7 main_v8 (addf : (⟨S50000x64, .f32⟩ : BufTy).Contents (Elt F) → (⟨S50000x64, .f32⟩ : BufTy).Contents (Elt F) → (⟨S50000x64, .f32⟩ : BufTy).Contents (Elt F)),
    nullary main_v9 (iotaInDim S50000 32 0),
    binary main_v1 main_v9 main_v10 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v9 main_v11 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v12 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v13 (broadcastInDim S50000 ![] bcast_S_S50000 : (⟨S_, .f32⟩ : BufTy).Contents (Elt F) → (⟨S50000, .f32⟩ : BufTy).Contents (Elt F)),
    unary main_v11 main_v14 (broadcastInDim S850000x1 ![0] bcast_S850000_S850000x1_0 : (⟨S850000, .i32⟩ : BufTy).Contents (Elt F) → (⟨S850000x1, .i32⟩ : BufTy).Contents (Elt F)),
    ternary main_v13 main_v14 main_v12 main_v15 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v16 (broadcastInDim S50000 ![] bcast_S_S50000 : (⟨S_, .f32⟩ : BufTy).Contents (Elt F) → (⟨S50000, .f32⟩ : BufTy).Contents (Elt F)),
    binary main_v15 main_v16 main_v17 (cmpf .ogt : (⟨S50000, .f32⟩ : BufTy).Contents (Elt F) → (⟨S50000, .f32⟩ : BufTy).Contents (Elt F) → (⟨S50000, .i1⟩ : BufTy).Contents (Elt F)),
    unary main_v15 main_v18 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v17) (TRef.of (T := ⟨S50000, .f32⟩) main_v18) (TRef.of (T := ⟨S50000, .f32⟩) main_call0_v1) (TRef.of (T := ⟨S50000, .f32⟩) main_v19) select,
    binary main_v8 main_arg6 main_v20 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c (constantI S_ 32 0#32),
    unary main_c main_v21 (broadcastInDim S850000 ![] bcast_S_S850000 : (⟨S_, .i32⟩ : BufTy).Contents (Elt F) → (⟨S850000, .i32⟩ : BufTy).Contents (Elt F)),
    binary main_v10 main_v21 main_v22 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v23 (broadcastInDim S850000 ![] bcast_S_S850000 : (⟨S_, .i32⟩ : BufTy).Contents (Elt F) → (⟨S850000, .i32⟩ : BufTy).Contents (Elt F)),
    binary main_v10 main_v23 main_v24 (addi : (⟨S850000, .i32⟩ : BufTy).Contents (Elt F) → (⟨S850000, .i32⟩ : BufTy).Contents (Elt F) → (⟨S850000, .i32⟩ : BufTy).Contents (Elt F)),
    ternary main_v22 main_v24 main_v10 main_v25 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v25 main_v26 (broadcastInDim S850000x1 ![0] bcast_S850000_S850000x1_0 : (⟨S850000, .i32⟩ : BufTy).Contents (Elt F) → (⟨S850000x1, .i32⟩ : BufTy).Contents (Elt F)),
    binary main_v19 main_v26 main_v27 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v28 (broadcastInDim S850000 ![] bcast_S_S850000 : (⟨S_, .i32⟩ : BufTy).Contents (Elt F) → (⟨S850000, .i32⟩ : BufTy).Contents (Elt F)),
    binary main_v11 main_v28 main_v29 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v30 (broadcastInDim S850000 ![] bcast_S_S850000 : (⟨S_, .i32⟩ : BufTy).Contents (Elt F) → (⟨S850000, .i32⟩ : BufTy).Contents (Elt F)),
    binary main_v11 main_v30 main_v31 (addi : (⟨S850000, .i32⟩ : BufTy).Contents (Elt F) → (⟨S850000, .i32⟩ : BufTy).Contents (Elt F) → (⟨S850000, .i32⟩ : BufTy).Contents (Elt F)),
    ternary main_v29 main_v31 main_v11 main_v32 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v32 main_v33 (broadcastInDim S850000x1 ![0] bcast_S850000_S850000x1_0 : (⟨S850000, .i32⟩ : BufTy).Contents (Elt F) → (⟨S850000x1, .i32⟩ : BufTy).Contents (Elt F)),
    binary main_v19 main_v33 main_v34 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v27 main_v34 main_v35 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v36 (broadcastInDim S850000 ![] bcast_S_S850000 : (⟨S_, .i32⟩ : BufTy).Contents (Elt F) → (⟨S850000, .i32⟩ : BufTy).Contents (Elt F)),
    binary main_v10 main_v36 main_v37 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v38 (broadcastInDim S850000 ![] bcast_S_S850000 : (⟨S_, .i32⟩ : BufTy).Contents (Elt F) → (⟨S850000, .i32⟩ : BufTy).Contents (Elt F)),
    binary main_v10 main_v38 main_v39 (addi : (⟨S850000, .i32⟩ : BufTy).Contents (Elt F) → (⟨S850000, .i32⟩ : BufTy).Contents (Elt F) → (⟨S850000, .i32⟩ : BufTy).Contents (Elt F)),
    ternary main_v37 main_v39 main_v10 main_v40 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v40 main_v41 (broadcastInDim S850000x1 ![0] bcast_S850000_S850000x1_0 : (⟨S850000, .i32⟩ : BufTy).Contents (Elt F) → (⟨S850000x1, .i32⟩ : BufTy).Contents (Elt F)),
    binary main_v20 main_v41 main_v42 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v35 main_v43 (broadcastInDim S850000x1 ![0] bcast_S850000_S850000x1_0 : (⟨S850000, .f32⟩ : BufTy).Contents (Elt F) → (⟨S850000x1, .f32⟩ : BufTy).Contents (Elt F)),
    unary main_v43 main_v44 (broadcastInDim S850000x64 ![0, 1] bcast_S850000x1_S850000x64_0_1 : (⟨S850000x1, .f32⟩ : BufTy).Contents (Elt F) → (⟨S850000x64, .f32⟩ : BufTy).Contents (Elt F)),
    binary main_v42 main_v44 main_v45 (mulf : (⟨S850000x64, .f32⟩ : BufTy).Contents (Elt F) → (⟨S850000x64, .f32⟩ : BufTy).Contents (Elt F) → (⟨S850000x64, .f32⟩ : BufTy).Contents (Elt F)),
    nullary main_cst_8 (constant S_ .f32 0x00000000#32),
    unary main_cst_8 main_v46 (broadcastInDim S50000x64 ![] bcast_S_S50000x64 : (⟨S_, .f32⟩ : BufTy).Contents (Elt F) → (⟨S50000x64, .f32⟩ : BufTy).Contents (Elt F)),
    unary main_v11 main_v47 (broadcastInDim S850000x1 ![0] bcast_S850000_S850000x1_0 : (⟨S850000, .i32⟩ : BufTy).Contents (Elt F) → (⟨S850000x1, .i32⟩ : BufTy).Contents (Elt F)),
    ternary main_v46 main_v47 main_v45 main_v48 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg7 main_v49 (broadcastInDim S1x64 ![1] bcast_S64_S1x64_1 : (⟨S64, .f32⟩ : BufTy).Contents (Elt F) → (⟨S1x64, .f32⟩ : BufTy).Contents (Elt F)),
    unary main_v49 main_v50 (broadcastInDim S50000x64 ![0, 1] bcast_S1x64_S50000x64_0_1 : (⟨S1x64, .f32⟩ : BufTy).Contents (Elt F) → (⟨S50000x64, .f32⟩ : BufTy).Contents (Elt F)),
    binary main_v48 main_v50 main_v51 (addf : (⟨S50000x64, .f32⟩ : BufTy).Contents (Elt F) → (⟨S50000x64, .f32⟩ : BufTy).Contents (Elt F) → (⟨S50000x64, .f32⟩ : BufTy).Contents (Elt F)),
    binary main_v8 main_arg8 main_v52 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v53 (broadcastInDim S1x64 ![1] bcast_S64_S1x64_1 : (⟨S64, .f32⟩ : BufTy).Contents (Elt F) → (⟨S1x64, .f32⟩ : BufTy).Contents (Elt F)),
    unary main_v53 main_v54 (broadcastInDim S50000x64 ![0, 1] bcast_S1x64_S50000x64_0_1 : (⟨S1x64, .f32⟩ : BufTy).Contents (Elt F) → (⟨S50000x64, .f32⟩ : BufTy).Contents (Elt F)),
    binary main_v52 main_v54 main_v55 (addf : (⟨S50000x64, .f32⟩ : BufTy).Contents (Elt F) → (⟨S50000x64, .f32⟩ : BufTy).Contents (Elt F) → (⟨S50000x64, .f32⟩ : BufTy).Contents (Elt F)),
    binary main_v51 main_v55 main_v56 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v56) (TRef.of (T := ⟨S50000x64, .f32⟩) main_call1_v0) (TRef.of (T := ⟨S50000x64, .f32⟩) main_v57) maximumf,
    nullary main_cst_9 (constant S_ .f32 0x3F800000#32),
    unary main_cst_9 main_v58 (broadcastInDim S50000x64 ![] bcast_S_S50000x64 : (⟨S_, .f32⟩ : BufTy).Contents (Elt F) → (⟨S50000x64, .f32⟩ : BufTy).Contents (Elt F)),
    binary main_v58 main_v8 main_v59 (mulf : (⟨S50000x64, .f32⟩ : BufTy).Contents (Elt F) → (⟨S50000x64, .f32⟩ : BufTy).Contents (Elt F) → (⟨S50000x64, .f32⟩ : BufTy).Contents (Elt F)),
    binary main_v57 main_v59 main_v60 (subf : (⟨S50000x64, .f32⟩ : BufTy).Contents (Elt F) → (⟨S50000x64, .f32⟩ : BufTy).Contents (Elt F) → (⟨S50000x64, .f32⟩ : BufTy).Contents (Elt F)),
    nullary main_cst_10 (constant S_ .f32 0x3F800000#32),
    unary main_cst_10 main_v61 (broadcastInDim S50000x64 ![] bcast_S_S50000x64 : (⟨S_, .f32⟩ : BufTy).Contents (Elt F) → (⟨S50000x64, .f32⟩ : BufTy).Contents (Elt F)),
    binary main_v61 main_v8 main_v62 (mulf : (⟨S50000x64, .f32⟩ : BufTy).Contents (Elt F) → (⟨S50000x64, .f32⟩ : BufTy).Contents (Elt F) → (⟨S50000x64, .f32⟩ : BufTy).Contents (Elt F)),
    binary main_v60 main_v62 main_v63 (subf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x3F800000#32),
    unary main_cst_11 main_v64 (broadcastInDim S50000x64 ![] bcast_S_S50000x64 : (⟨S_, .f32⟩ : BufTy).Contents (Elt F) → (⟨S50000x64, .f32⟩ : BufTy).Contents (Elt F)),
    binary main_v64 main_v63 main_v65 (mulf : (⟨S50000x64, .f32⟩ : BufTy).Contents (Elt F) → (⟨S50000x64, .f32⟩ : BufTy).Contents (Elt F) → (⟨S50000x64, .f32⟩ : BufTy).Contents (Elt F)),
    binary main_v8 main_v65 main_v66 (addf : (⟨S50000x64, .f32⟩ : BufTy).Contents (Elt F) → (⟨S50000x64, .f32⟩ : BufTy).Contents (Elt F) → (⟨S50000x64, .f32⟩ : BufTy).Contents (Elt F)),
    nullary main_cst_12 (constant S_ .f32 0x3F800000#32),
    unary main_cst_12 main_v67 (broadcastInDim S50000x64 ![] bcast_S_S50000x64 : (⟨S_, .f32⟩ : BufTy).Contents (Elt F) → (⟨S50000x64, .f32⟩ : BufTy).Contents (Elt F)),
    binary main_v67 main_v66 main_v68 (mulf : (⟨S50000x64, .f32⟩ : BufTy).Contents (Elt F) → (⟨S50000x64, .f32⟩ : BufTy).Contents (Elt F) → (⟨S50000x64, .f32⟩ : BufTy).Contents (Elt F)),
    binary main_v8 main_v68 main_v69 (addf : (⟨S50000x64, .f32⟩ : BufTy).Contents (Elt F) → (⟨S50000x64, .f32⟩ : BufTy).Contents (Elt F) → (⟨S50000x64, .f32⟩ : BufTy).Contents (Elt F)) ]

set_option maxHeartbeats 0 in
set_option maxRecDepth 8192 in
abbrev opsB : List (HloOp τ sig (Elt F)) :=
  [ nullary main_v70 (iotaInDim S50000 32 0),
    binary main_v1 main_v70 main_v71 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v70 main_v72 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_13 (constant S_ .f32 0x3F800000#32),
    unary main_cst_13 main_v73 (broadcastInDim S850000 ![] bcast_S_S850000 : (⟨S_, .f32⟩ : BufTy).Contents (Elt F) → (⟨S850000, .f32⟩ : BufTy).Contents (Elt F)),
    nullary main_cst_14 (constant S_ .f32 0x00000000#32),
    unary main_cst_14 main_v74 (broadcastInDim S50000 ![] bcast_S_S50000 : (⟨S_, .f32⟩ : BufTy).Contents (Elt F) → (⟨S50000, .f32⟩ : BufTy).Contents (Elt F)),
    unary main_v72 main_v75 (broadcastInDim S850000x1 ![0] bcast_S850000_S850000x1_0 : (⟨S850000, .i32⟩ : BufTy).Contents (Elt F) → (⟨S850000x1, .i32⟩ : BufTy).Contents (Elt F)),
    ternary main_v74 main_v75 main_v73 main_v76 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_15 (constant S_ .f32 0x00000000#32),
    unary main_cst_15 main_v77 (broadcastInDim S50000 ![] bcast_S_S50000 : (⟨S_, .f32⟩ : BufTy).Contents (Elt F) → (⟨S50000, .f32⟩ : BufTy).Contents (Elt F)),
    binary main_v76 main_v77 main_v78 (cmpf .ogt : (⟨S50000, .f32⟩ : BufTy).Contents (Elt F) → (⟨S50000, .f32⟩ : BufTy).Contents (Elt F) → (⟨S50000, .i1⟩ : BufTy).Contents (Elt F)),
    unary main_v76 main_v79 (Host.rsqrt : (⟨S50000, .f32⟩ : BufTy).Contents (Elt F) → (⟨S50000, .f32⟩ : BufTy).Contents (Elt F)),
    nullary main_cst_16 (constant S_ .f32 0x00000000#32),
    TRef.unary (TRef.of (T := ⟨S_, .f32⟩) main_cst_16) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v78) (TRef.of (T := ⟨S50000, .f32⟩) main_v79) (TRef.of (T := ⟨S50000, .f32⟩) main_call2_v1) (TRef.of (T := ⟨S50000, .f32⟩) main_v80) select,
    binary main_v69 main_arg6 main_v81 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_17 (constantI S_ 32 0#32),
    unary main_c_17 main_v82 (broadcastInDim S850000 ![] bcast_S_S850000 : (⟨S_, .i32⟩ : BufTy).Contents (Elt F) → (⟨S850000, .i32⟩ : BufTy).Contents (Elt F)),
    binary main_v71 main_v82 main_v83 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v84 (broadcastInDim S850000 ![] bcast_S_S850000 : (⟨S_, .i32⟩ : BufTy).Contents (Elt F) → (⟨S850000, .i32⟩ : BufTy).Contents (Elt F)),
    binary main_v71 main_v84 main_v85 (addi : (⟨S850000, .i32⟩ : BufTy).Contents (Elt F) → (⟨S850000, .i32⟩ : BufTy).Contents (Elt F) → (⟨S850000, .i32⟩ : BufTy).Contents (Elt F)),
    ternary main_v83 main_v85 main_v71 main_v86 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v86 main_v87 (broadcastInDim S850000x1 ![0] bcast_S850000_S850000x1_0 : (⟨S850000, .i32⟩ : BufTy).Contents (Elt F) → (⟨S850000x1, .i32⟩ : BufTy).Contents (Elt F)),
    binary main_v80 main_v87 main_v88 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_19 (constantI S_ 32 0#32),
    unary main_c_19 main_v89 (broadcastInDim S850000 ![] bcast_S_S850000 : (⟨S_, .i32⟩ : BufTy).Contents (Elt F) → (⟨S850000, .i32⟩ : BufTy).Contents (Elt F)),
    binary main_v72 main_v89 main_v90 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v91 (broadcastInDim S850000 ![] bcast_S_S850000 : (⟨S_, .i32⟩ : BufTy).Contents (Elt F) → (⟨S850000, .i32⟩ : BufTy).Contents (Elt F)),
    binary main_v72 main_v91 main_v92 (addi : (⟨S850000, .i32⟩ : BufTy).Contents (Elt F) → (⟨S850000, .i32⟩ : BufTy).Contents (Elt F) → (⟨S850000, .i32⟩ : BufTy).Contents (Elt F)),
    ternary main_v90 main_v92 main_v72 main_v93 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v93 main_v94 (broadcastInDim S850000x1 ![0] bcast_S850000_S850000x1_0 : (⟨S850000, .i32⟩ : BufTy).Contents (Elt F) → (⟨S850000x1, .i32⟩ : BufTy).Contents (Elt F)),
    binary main_v80 main_v94 main_v95 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v88 main_v95 main_v96 (mulf : (⟨S850000, .f32⟩ : BufTy).Contents (Elt F) → (⟨S850000, .f32⟩ : BufTy).Contents (Elt F) → (⟨S850000, .f32⟩ : BufTy).Contents (Elt F)),
    nullary main_c_21 (constantI S_ 32 0#32),
    unary main_c_21 main_v97 (broadcastInDim S850000 ![] bcast_S_S850000 : (⟨S_, .i32⟩ : BufTy).Contents (Elt F) → (⟨S850000, .i32⟩ : BufTy).Contents (Elt F)),
    binary main_v71 main_v97 main_v98 (cmpi .slt : (⟨S850000, .i32⟩ : BufTy).Contents (Elt F) → (⟨S850000, .i32⟩ : BufTy).Contents (Elt F) → (⟨S850000, .i1⟩ : BufTy).Contents (Elt F)),
    nullary main_c_22 (constantI S_ 32 50000#32),
    unary main_c_22 main_v99 (broadcastInDim S850000 ![] bcast_S_S850000 : (⟨S_, .i32⟩ : BufTy).Contents (Elt F) → (⟨S850000, .i32⟩ : BufTy).Contents (Elt F)),
    binary main_v71 main_v99 main_v100 (addi : (⟨S850000, .i32⟩ : BufTy).Contents (Elt F) → (⟨S850000, .i32⟩ : BufTy).Contents (Elt F) → (⟨S850000, .i32⟩ : BufTy).Contents (Elt F)),
    ternary main_v98 main_v100 main_v71 main_v101 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v101 main_v102 (broadcastInDim S850000x1 ![0] bcast_S850000_S850000x1_0 : (⟨S850000, .i32⟩ : BufTy).Contents (Elt F) → (⟨S850000x1, .i32⟩ : BufTy).Contents (Elt F)),
    binary main_v81 main_v102 main_v103 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v96 main_v104 (broadcastInDim S850000x1 ![0] bcast_S850000_S850000x1_0 : (⟨S850000, .f32⟩ : BufTy).Contents (Elt F) → (⟨S850000x1, .f32⟩ : BufTy).Contents (Elt F)),
    unary main_v104 main_v105 (broadcastInDim S850000x64 ![0, 1] bcast_S850000x1_S850000x64_0_1 : (⟨S850000x1, .f32⟩ : BufTy).Contents (Elt F) → (⟨S850000x64, .f32⟩ : BufTy).Contents (Elt F)),
    binary main_v103 main_v105 main_v106 (mulf : (⟨S850000x64, .f32⟩ : BufTy).Contents (Elt F) → (⟨S850000x64, .f32⟩ : BufTy).Contents (Elt F) → (⟨S850000x64, .f32⟩ : BufTy).Contents (Elt F)),
    nullary main_cst_23 (constant S_ .f32 0x00000000#32),
    unary main_cst_23 main_v107 (broadcastInDim S50000x64 ![] bcast_S_S50000x64 : (⟨S_, .f32⟩ : BufTy).Contents (Elt F) → (⟨S50000x64, .f32⟩ : BufTy).Contents (Elt F)),
    unary main_v72 main_v108 (broadcastInDim S850000x1 ![0] bcast_S850000_S850000x1_0 : (⟨S850000, .i32⟩ : BufTy).Contents (Elt F) → (⟨S850000x1, .i32⟩ : BufTy).Contents (Elt F)),
    ternary main_v107 main_v108 main_v106 main_v109 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg7 main_v110 (broadcastInDim S1x64 ![1] bcast_S64_S1x64_1 : (⟨S64, .f32⟩ : BufTy).Contents (Elt F) → (⟨S1x64, .f32⟩ : BufTy).Contents (Elt F)),
    unary main_v110 main_v111 (broadcastInDim S50000x64 ![0, 1] bcast_S1x64_S50000x64_0_1 : (⟨S1x64, .f32⟩ : BufTy).Contents (Elt F) → (⟨S50000x64, .f32⟩ : BufTy).Contents (Elt F)),
    binary main_v109 main_v111 main_v112 (addf : (⟨S50000x64, .f32⟩ : BufTy).Contents (Elt F) → (⟨S50000x64, .f32⟩ : BufTy).Contents (Elt F) → (⟨S50000x64, .f32⟩ : BufTy).Contents (Elt F)),
    binary main_v69 main_arg8 main_v113 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v114 (broadcastInDim S1x64 ![1] bcast_S64_S1x64_1 : (⟨S64, .f32⟩ : BufTy).Contents (Elt F) → (⟨S1x64, .f32⟩ : BufTy).Contents (Elt F)),
    unary main_v114 main_v115 (broadcastInDim S50000x64 ![0, 1] bcast_S1x64_S50000x64_0_1 : (⟨S1x64, .f32⟩ : BufTy).Contents (Elt F) → (⟨S50000x64, .f32⟩ : BufTy).Contents (Elt F)),
    binary main_v113 main_v115 main_v116 (addf : (⟨S50000x64, .f32⟩ : BufTy).Contents (Elt F) → (⟨S50000x64, .f32⟩ : BufTy).Contents (Elt F) → (⟨S50000x64, .f32⟩ : BufTy).Contents (Elt F)),
    binary main_v112 main_v116 main_v117 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v117) (TRef.of (T := ⟨S50000x64, .f32⟩) main_call3_v0) (TRef.of (T := ⟨S50000x64, .f32⟩) main_v118) maximumf,
    nullary main_cst_24 (constant S_ .f32 0x3F800000#32),
    unary main_cst_24 main_v119 (broadcastInDim S50000x64 ![] bcast_S_S50000x64 : (⟨S_, .f32⟩ : BufTy).Contents (Elt F) → (⟨S50000x64, .f32⟩ : BufTy).Contents (Elt F)),
    binary main_v119 main_v66 main_v120 (mulf : (⟨S50000x64, .f32⟩ : BufTy).Contents (Elt F) → (⟨S50000x64, .f32⟩ : BufTy).Contents (Elt F) → (⟨S50000x64, .f32⟩ : BufTy).Contents (Elt F)),
    binary main_v118 main_v120 main_v121 (subf : (⟨S50000x64, .f32⟩ : BufTy).Contents (Elt F) → (⟨S50000x64, .f32⟩ : BufTy).Contents (Elt F) → (⟨S50000x64, .f32⟩ : BufTy).Contents (Elt F)),
    nullary main_cst_25 (constant S_ .f32 0x3F800000#32),
    unary main_cst_25 main_v122 (broadcastInDim S50000x64 ![] bcast_S_S50000x64 : (⟨S_, .f32⟩ : BufTy).Contents (Elt F) → (⟨S50000x64, .f32⟩ : BufTy).Contents (Elt F)),
    binary main_v122 main_v69 main_v123 (mulf : (⟨S50000x64, .f32⟩ : BufTy).Contents (Elt F) → (⟨S50000x64, .f32⟩ : BufTy).Contents (Elt F) → (⟨S50000x64, .f32⟩ : BufTy).Contents (Elt F)),
    binary main_v121 main_v123 main_v124 (subf : (⟨S50000x64, .f32⟩ : BufTy).Contents (Elt F) → (⟨S50000x64, .f32⟩ : BufTy).Contents (Elt F) → (⟨S50000x64, .f32⟩ : BufTy).Contents (Elt F)),
    nullary main_cst_26 (constant S_ .f32 0x3F800000#32),
    unary main_cst_26 main_v125 (broadcastInDim S50000x64 ![] bcast_S_S50000x64 : (⟨S_, .f32⟩ : BufTy).Contents (Elt F) → (⟨S50000x64, .f32⟩ : BufTy).Contents (Elt F)),
    binary main_v125 main_v124 main_v126 (mulf : (⟨S50000x64, .f32⟩ : BufTy).Contents (Elt F) → (⟨S50000x64, .f32⟩ : BufTy).Contents (Elt F) → (⟨S50000x64, .f32⟩ : BufTy).Contents (Elt F)),
    binary main_v66 main_v126 main_v127 (addf : (⟨S50000x64, .f32⟩ : BufTy).Contents (Elt F) → (⟨S50000x64, .f32⟩ : BufTy).Contents (Elt F) → (⟨S50000x64, .f32⟩ : BufTy).Contents (Elt F)),
    nullary main_cst_27 (constant S_ .f32 0x3F800000#32),
    unary main_cst_27 main_v128 (broadcastInDim S50000x64 ![] bcast_S_S50000x64 : (⟨S_, .f32⟩ : BufTy).Contents (Elt F) → (⟨S50000x64, .f32⟩ : BufTy).Contents (Elt F)),
    binary main_v128 main_v127 main_v129 (mulf : (⟨S50000x64, .f32⟩ : BufTy).Contents (Elt F) → (⟨S50000x64, .f32⟩ : BufTy).Contents (Elt F) → (⟨S50000x64, .f32⟩ : BufTy).Contents (Elt F)),
    binary main_v69 main_v129 main_v130 (addf : (⟨S50000x64, .f32⟩ : BufTy).Contents (Elt F) → (⟨S50000x64, .f32⟩ : BufTy).Contents (Elt F) → (⟨S50000x64, .f32⟩ : BufTy).Contents (Elt F)) ]

set_option maxHeartbeats 0 in
set_option maxRecDepth 8192 in
abbrev opsC : List (HloOp τ sig (Elt F)) :=
  [ nullary main_v131 (iotaInDim S50000 32 0),
    binary main_v1 main_v131 main_v132 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v131 main_v133 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_28 (constant S_ .f32 0x3F800000#32),
    unary main_cst_28 main_v134 (broadcastInDim S850000 ![] bcast_S_S850000 : (⟨S_, .f32⟩ : BufTy).Contents (Elt F) → (⟨S850000, .f32⟩ : BufTy).Contents (Elt F)),
    nullary main_cst_29 (constant S_ .f32 0x00000000#32),
    unary main_cst_29 main_v135 (broadcastInDim S50000 ![] bcast_S_S50000 : (⟨S_, .f32⟩ : BufTy).Contents (Elt F) → (⟨S50000, .f32⟩ : BufTy).Contents (Elt F)),
    unary main_v133 main_v136 (broadcastInDim S850000x1 ![0] bcast_S850000_S850000x1_0 : (⟨S850000, .i32⟩ : BufTy).Contents (Elt F) → (⟨S850000x1, .i32⟩ : BufTy).Contents (Elt F)),
    ternary main_v135 main_v136 main_v134 main_v137 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_30 (constant S_ .f32 0x00000000#32),
    unary main_cst_30 main_v138 (broadcastInDim S50000 ![] bcast_S_S50000 : (⟨S_, .f32⟩ : BufTy).Contents (Elt F) → (⟨S50000, .f32⟩ : BufTy).Contents (Elt F)),
    binary main_v137 main_v138 main_v139 (cmpf .ogt : (⟨S50000, .f32⟩ : BufTy).Contents (Elt F) → (⟨S50000, .f32⟩ : BufTy).Contents (Elt F) → (⟨S50000, .i1⟩ : BufTy).Contents (Elt F)),
    unary main_v137 main_v140 (Host.rsqrt : (⟨S50000, .f32⟩ : BufTy).Contents (Elt F) → (⟨S50000, .f32⟩ : BufTy).Contents (Elt F)),
    nullary main_cst_31 (constant S_ .f32 0x00000000#32),
    TRef.unary (TRef.of (T := ⟨S_, .f32⟩) main_cst_31) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v139) (TRef.of (T := ⟨S50000, .f32⟩) main_v140) (TRef.of (T := ⟨S50000, .f32⟩) main_call4_v1) (TRef.of (T := ⟨S50000, .f32⟩) main_v141) select,
    binary main_v130 main_arg6 main_v142 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_32 (constantI S_ 32 0#32),
    unary main_c_32 main_v143 (broadcastInDim S850000 ![] bcast_S_S850000 : (⟨S_, .i32⟩ : BufTy).Contents (Elt F) → (⟨S850000, .i32⟩ : BufTy).Contents (Elt F)),
    binary main_v132 main_v143 main_v144 (cmpi .slt : (⟨S850000, .i32⟩ : BufTy).Contents (Elt F) → (⟨S850000, .i32⟩ : BufTy).Contents (Elt F) → (⟨S850000, .i1⟩ : BufTy).Contents (Elt F)),
    nullary main_c_33 (constantI S_ 32 50000#32),
    unary main_c_33 main_v145 (broadcastInDim S850000 ![] bcast_S_S850000 : (⟨S_, .i32⟩ : BufTy).Contents (Elt F) → (⟨S850000, .i32⟩ : BufTy).Contents (Elt F)),
    binary main_v132 main_v145 main_v146 (addi : (⟨S850000, .i32⟩ : BufTy).Contents (Elt F) → (⟨S850000, .i32⟩ : BufTy).Contents (Elt F) → (⟨S850000, .i32⟩ : BufTy).Contents (Elt F)),
    ternary main_v144 main_v146 main_v132 main_v147 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v147 main_v148 (broadcastInDim S850000x1 ![0] bcast_S850000_S850000x1_0 : (⟨S850000, .i32⟩ : BufTy).Contents (Elt F) → (⟨S850000x1, .i32⟩ : BufTy).Contents (Elt F)),
    binary main_v141 main_v148 main_v149 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_34 (constantI S_ 32 0#32),
    unary main_c_34 main_v150 (broadcastInDim S850000 ![] bcast_S_S850000 : (⟨S_, .i32⟩ : BufTy).Contents (Elt F) → (⟨S850000, .i32⟩ : BufTy).Contents (Elt F)),
    binary main_v133 main_v150 main_v151 (cmpi .slt : (⟨S850000, .i32⟩ : BufTy).Contents (Elt F) → (⟨S850000, .i32⟩ : BufTy).Contents (Elt F) → (⟨S850000, .i1⟩ : BufTy).Contents (Elt F)),
    nullary main_c_35 (constantI S_ 32 50000#32),
    unary main_c_35 main_v152 (broadcastInDim S850000 ![] bcast_S_S850000 : (⟨S_, .i32⟩ : BufTy).Contents (Elt F) → (⟨S850000, .i32⟩ : BufTy).Contents (Elt F)),
    binary main_v133 main_v152 main_v153 (addi : (⟨S850000, .i32⟩ : BufTy).Contents (Elt F) → (⟨S850000, .i32⟩ : BufTy).Contents (Elt F) → (⟨S850000, .i32⟩ : BufTy).Contents (Elt F)),
    ternary main_v151 main_v153 main_v133 main_v154 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v154 main_v155 (broadcastInDim S850000x1 ![0] bcast_S850000_S850000x1_0 : (⟨S850000, .i32⟩ : BufTy).Contents (Elt F) → (⟨S850000x1, .i32⟩ : BufTy).Contents (Elt F)),
    binary main_v141 main_v155 main_v156 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v149 main_v156 main_v157 (mulf : (⟨S850000, .f32⟩ : BufTy).Contents (Elt F) → (⟨S850000, .f32⟩ : BufTy).Contents (Elt F) → (⟨S850000, .f32⟩ : BufTy).Contents (Elt F)),
    nullary main_c_36 (constantI S_ 32 0#32),
    unary main_c_36 main_v158 (broadcastInDim S850000 ![] bcast_S_S850000 : (⟨S_, .i32⟩ : BufTy).Contents (Elt F) → (⟨S850000, .i32⟩ : BufTy).Contents (Elt F)),
    binary main_v132 main_v158 main_v159 (cmpi .slt : (⟨S850000, .i32⟩ : BufTy).Contents (Elt F) → (⟨S850000, .i32⟩ : BufTy).Contents (Elt F) → (⟨S850000, .i1⟩ : BufTy).Contents (Elt F)),
    nullary main_c_37 (constantI S_ 32 50000#32),
    unary main_c_37 main_v160 (broadcastInDim S850000 ![] bcast_S_S850000 : (⟨S_, .i32⟩ : BufTy).Contents (Elt F) → (⟨S850000, .i32⟩ : BufTy).Contents (Elt F)),
    binary main_v132 main_v160 main_v161 (addi : (⟨S850000, .i32⟩ : BufTy).Contents (Elt F) → (⟨S850000, .i32⟩ : BufTy).Contents (Elt F) → (⟨S850000, .i32⟩ : BufTy).Contents (Elt F)),
    ternary main_v159 main_v161 main_v132 main_v162 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v162 main_v163 (broadcastInDim S850000x1 ![0] bcast_S850000_S850000x1_0 : (⟨S850000, .i32⟩ : BufTy).Contents (Elt F) → (⟨S850000x1, .i32⟩ : BufTy).Contents (Elt F)),
    binary main_v142 main_v163 main_v164 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v157 main_v165 (broadcastInDim S850000x1 ![0] bcast_S850000_S850000x1_0 : (⟨S850000, .f32⟩ : BufTy).Contents (Elt F) → (⟨S850000x1, .f32⟩ : BufTy).Contents (Elt F)),
    unary main_v165 main_v166 (broadcastInDim S850000x64 ![0, 1] bcast_S850000x1_S850000x64_0_1 : (⟨S850000x1, .f32⟩ : BufTy).Contents (Elt F) → (⟨S850000x64, .f32⟩ : BufTy).Contents (Elt F)),
    binary main_v164 main_v166 main_v167 (mulf : (⟨S850000x64, .f32⟩ : BufTy).Contents (Elt F) → (⟨S850000x64, .f32⟩ : BufTy).Contents (Elt F) → (⟨S850000x64, .f32⟩ : BufTy).Contents (Elt F)),
    nullary main_cst_38 (constant S_ .f32 0x00000000#32),
    unary main_cst_38 main_v168 (broadcastInDim S50000x64 ![] bcast_S_S50000x64 : (⟨S_, .f32⟩ : BufTy).Contents (Elt F) → (⟨S50000x64, .f32⟩ : BufTy).Contents (Elt F)),
    unary main_v133 main_v169 (broadcastInDim S850000x1 ![0] bcast_S850000_S850000x1_0 : (⟨S850000, .i32⟩ : BufTy).Contents (Elt F) → (⟨S850000x1, .i32⟩ : BufTy).Contents (Elt F)),
    ternary main_v168 main_v169 main_v167 main_v170 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg7 main_v171 (broadcastInDim S1x64 ![1] bcast_S64_S1x64_1 : (⟨S64, .f32⟩ : BufTy).Contents (Elt F) → (⟨S1x64, .f32⟩ : BufTy).Contents (Elt F)),
    unary main_v171 main_v172 (broadcastInDim S50000x64 ![0, 1] bcast_S1x64_S50000x64_0_1 : (⟨S1x64, .f32⟩ : BufTy).Contents (Elt F) → (⟨S50000x64, .f32⟩ : BufTy).Contents (Elt F)),
    binary main_v170 main_v172 main_v173 (addf : (⟨S50000x64, .f32⟩ : BufTy).Contents (Elt F) → (⟨S50000x64, .f32⟩ : BufTy).Contents (Elt F) → (⟨S50000x64, .f32⟩ : BufTy).Contents (Elt F)),
    binary main_v130 main_arg8 main_v174 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v175 (broadcastInDim S1x64 ![1] bcast_S64_S1x64_1 : (⟨S64, .f32⟩ : BufTy).Contents (Elt F) → (⟨S1x64, .f32⟩ : BufTy).Contents (Elt F)),
    unary main_v175 main_v176 (broadcastInDim S50000x64 ![0, 1] bcast_S1x64_S50000x64_0_1 : (⟨S1x64, .f32⟩ : BufTy).Contents (Elt F) → (⟨S50000x64, .f32⟩ : BufTy).Contents (Elt F)),
    binary main_v174 main_v176 main_v177 (addf : (⟨S50000x64, .f32⟩ : BufTy).Contents (Elt F) → (⟨S50000x64, .f32⟩ : BufTy).Contents (Elt F) → (⟨S50000x64, .f32⟩ : BufTy).Contents (Elt F)),
    binary main_v173 main_v177 main_v178 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x64, .f32⟩) main_call5_v0) (broadcastInDim S50000x64 ![] bcast_S_S50000x64),
    TRef.binary (TRef.of (T := ⟨S50000x64, .f32⟩) main_v178) (TRef.of (T := ⟨S50000x64, .f32⟩) main_call5_v0) (TRef.of (T := ⟨S50000x64, .f32⟩) main_v179) maximumf,
    nullary main_cst_39 (constant S_ .f32 0x3F800000#32),
    unary main_cst_39 main_v180 (broadcastInDim S50000x64 ![] bcast_S_S50000x64 : (⟨S_, .f32⟩ : BufTy).Contents (Elt F) → (⟨S50000x64, .f32⟩ : BufTy).Contents (Elt F)),
    binary main_v180 main_v127 main_v181 (mulf : (⟨S50000x64, .f32⟩ : BufTy).Contents (Elt F) → (⟨S50000x64, .f32⟩ : BufTy).Contents (Elt F) → (⟨S50000x64, .f32⟩ : BufTy).Contents (Elt F)),
    binary main_v179 main_v181 main_v182 (subf : (⟨S50000x64, .f32⟩ : BufTy).Contents (Elt F) → (⟨S50000x64, .f32⟩ : BufTy).Contents (Elt F) → (⟨S50000x64, .f32⟩ : BufTy).Contents (Elt F)),
    nullary main_cst_40 (constant S_ .f32 0x3F800000#32),
    unary main_cst_40 main_v183 (broadcastInDim S50000x64 ![] bcast_S_S50000x64 : (⟨S_, .f32⟩ : BufTy).Contents (Elt F) → (⟨S50000x64, .f32⟩ : BufTy).Contents (Elt F)),
    binary main_v183 main_v130 main_v184 (mulf : (⟨S50000x64, .f32⟩ : BufTy).Contents (Elt F) → (⟨S50000x64, .f32⟩ : BufTy).Contents (Elt F) → (⟨S50000x64, .f32⟩ : BufTy).Contents (Elt F)),
    binary main_v182 main_v184 main_v185 (subf : (⟨S50000x64, .f32⟩ : BufTy).Contents (Elt F) → (⟨S50000x64, .f32⟩ : BufTy).Contents (Elt F) → (⟨S50000x64, .f32⟩ : BufTy).Contents (Elt F)),
    nullary main_cst_41 (constant S_ .f32 0x3F800000#32),
    unary main_cst_41 main_v186 (broadcastInDim S50000x64 ![] bcast_S_S50000x64 : (⟨S_, .f32⟩ : BufTy).Contents (Elt F) → (⟨S50000x64, .f32⟩ : BufTy).Contents (Elt F)),
    binary main_v186 main_v185 main_v187 (mulf : (⟨S50000x64, .f32⟩ : BufTy).Contents (Elt F) → (⟨S50000x64, .f32⟩ : BufTy).Contents (Elt F) → (⟨S50000x64, .f32⟩ : BufTy).Contents (Elt F)),
    binary main_v127 main_v187 main_v188 (addf : (⟨S50000x64, .f32⟩ : BufTy).Contents (Elt F) → (⟨S50000x64, .f32⟩ : BufTy).Contents (Elt F) → (⟨S50000x64, .f32⟩ : BufTy).Contents (Elt F)),
    nullary main_cst_42 (constant S_ .f32 0x3F800000#32),
    unary main_cst_42 main_v189 (broadcastInDim S50000x64 ![] bcast_S_S50000x64 : (⟨S_, .f32⟩ : BufTy).Contents (Elt F) → (⟨S50000x64, .f32⟩ : BufTy).Contents (Elt F)),
    binary main_v189 main_v188 main_v190 (mulf : (⟨S50000x64, .f32⟩ : BufTy).Contents (Elt F) → (⟨S50000x64, .f32⟩ : BufTy).Contents (Elt F) → (⟨S50000x64, .f32⟩ : BufTy).Contents (Elt F)),
    binary main_v130 main_v190 main_v191 (addf : (⟨S50000x64, .f32⟩ : BufTy).Contents (Elt F) → (⟨S50000x64, .f32⟩ : BufTy).Contents (Elt F) → (⟨S50000x64, .f32⟩ : BufTy).Contents (Elt F)) ]

set_option maxHeartbeats 0 in
set_option maxRecDepth 8192 in
abbrev opsD : List (HloOp τ sig (Elt F)) :=
  [ nullary main_v192 (iotaInDim S50000 32 0),
    binary main_v1 main_v192 main_v193 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v192 main_v194 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_43 (constant S_ .f32 0x3F800000#32),
    unary main_cst_43 main_v195 (broadcastInDim S850000 ![] bcast_S_S850000 : (⟨S_, .f32⟩ : BufTy).Contents (Elt F) → (⟨S850000, .f32⟩ : BufTy).Contents (Elt F)),
    nullary main_cst_44 (constant S_ .f32 0x00000000#32),
    unary main_cst_44 main_v196 (broadcastInDim S50000 ![] bcast_S_S50000 : (⟨S_, .f32⟩ : BufTy).Contents (Elt F) → (⟨S50000, .f32⟩ : BufTy).Contents (Elt F)),
    unary main_v194 main_v197 (broadcastInDim S850000x1 ![0] bcast_S850000_S850000x1_0 : (⟨S850000, .i32⟩ : BufTy).Contents (Elt F) → (⟨S850000x1, .i32⟩ : BufTy).Contents (Elt F)),
    ternary main_v196 main_v197 main_v195 main_v198 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_45 (constant S_ .f32 0x00000000#32),
    unary main_cst_45 main_v199 (broadcastInDim S50000 ![] bcast_S_S50000 : (⟨S_, .f32⟩ : BufTy).Contents (Elt F) → (⟨S50000, .f32⟩ : BufTy).Contents (Elt F)),
    binary main_v198 main_v199 main_v200 (cmpf .ogt : (⟨S50000, .f32⟩ : BufTy).Contents (Elt F) → (⟨S50000, .f32⟩ : BufTy).Contents (Elt F) → (⟨S50000, .i1⟩ : BufTy).Contents (Elt F)),
    unary main_v198 main_v201 (Host.rsqrt : (⟨S50000, .f32⟩ : BufTy).Contents (Elt F) → (⟨S50000, .f32⟩ : BufTy).Contents (Elt F)),
    nullary main_cst_46 (constant S_ .f32 0x00000000#32),
    TRef.unary (TRef.of (T := ⟨S_, .f32⟩) main_cst_46) (TRef.of (T := ⟨S_, .f32⟩) main_call6_v0) id,
    TRef.unary (TRef.of (T := ⟨S_, .f32⟩) main_call6_v0) (TRef.of (T := ⟨S50000, .f32⟩) main_call6_v1) (broadcastInDim S50000 ![] bcast_S_S50000),
    TRef.ternary (TRef.of (T := ⟨S50000, .i1⟩) main_v200) (TRef.of (T := ⟨S50000, .f32⟩) main_v201) (TRef.of (T := ⟨S50000, .f32⟩) main_call6_v1) (TRef.of (T := ⟨S50000, .f32⟩) main_v202) select,
    binary main_v191 main_arg6 main_v203 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_47 (constantI S_ 32 0#32),
    unary main_c_47 main_v204 (broadcastInDim S850000 ![] bcast_S_S850000 : (⟨S_, .i32⟩ : BufTy).Contents (Elt F) → (⟨S850000, .i32⟩ : BufTy).Contents (Elt F)),
    binary main_v193 main_v204 main_v205 (cmpi .slt : (⟨S850000, .i32⟩ : BufTy).Contents (Elt F) → (⟨S850000, .i32⟩ : BufTy).Contents (Elt F) → (⟨S850000, .i1⟩ : BufTy).Contents (Elt F)),
    nullary main_c_48 (constantI S_ 32 50000#32),
    unary main_c_48 main_v206 (broadcastInDim S850000 ![] bcast_S_S850000 : (⟨S_, .i32⟩ : BufTy).Contents (Elt F) → (⟨S850000, .i32⟩ : BufTy).Contents (Elt F)),
    binary main_v193 main_v206 main_v207 (addi : (⟨S850000, .i32⟩ : BufTy).Contents (Elt F) → (⟨S850000, .i32⟩ : BufTy).Contents (Elt F) → (⟨S850000, .i32⟩ : BufTy).Contents (Elt F)),
    ternary main_v205 main_v207 main_v193 main_v208 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v208 main_v209 (broadcastInDim S850000x1 ![0] bcast_S850000_S850000x1_0 : (⟨S850000, .i32⟩ : BufTy).Contents (Elt F) → (⟨S850000x1, .i32⟩ : BufTy).Contents (Elt F)),
    binary main_v202 main_v209 main_v210 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_49 (constantI S_ 32 0#32),
    unary main_c_49 main_v211 (broadcastInDim S850000 ![] bcast_S_S850000 : (⟨S_, .i32⟩ : BufTy).Contents (Elt F) → (⟨S850000, .i32⟩ : BufTy).Contents (Elt F)),
    binary main_v194 main_v211 main_v212 (cmpi .slt : (⟨S850000, .i32⟩ : BufTy).Contents (Elt F) → (⟨S850000, .i32⟩ : BufTy).Contents (Elt F) → (⟨S850000, .i1⟩ : BufTy).Contents (Elt F)),
    nullary main_c_50 (constantI S_ 32 50000#32),
    unary main_c_50 main_v213 (broadcastInDim S850000 ![] bcast_S_S850000 : (⟨S_, .i32⟩ : BufTy).Contents (Elt F) → (⟨S850000, .i32⟩ : BufTy).Contents (Elt F)),
    binary main_v194 main_v213 main_v214 (addi : (⟨S850000, .i32⟩ : BufTy).Contents (Elt F) → (⟨S850000, .i32⟩ : BufTy).Contents (Elt F) → (⟨S850000, .i32⟩ : BufTy).Contents (Elt F)),
    ternary main_v212 main_v214 main_v194 main_v215 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v215 main_v216 (broadcastInDim S850000x1 ![0] bcast_S850000_S850000x1_0 : (⟨S850000, .i32⟩ : BufTy).Contents (Elt F) → (⟨S850000x1, .i32⟩ : BufTy).Contents (Elt F)),
    binary main_v202 main_v216 main_v217 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v210 main_v217 main_v218 (mulf : (⟨S850000, .f32⟩ : BufTy).Contents (Elt F) → (⟨S850000, .f32⟩ : BufTy).Contents (Elt F) → (⟨S850000, .f32⟩ : BufTy).Contents (Elt F)),
    nullary main_c_51 (constantI S_ 32 0#32),
    unary main_c_51 main_v219 (broadcastInDim S850000 ![] bcast_S_S850000 : (⟨S_, .i32⟩ : BufTy).Contents (Elt F) → (⟨S850000, .i32⟩ : BufTy).Contents (Elt F)),
    binary main_v193 main_v219 main_v220 (cmpi .slt : (⟨S850000, .i32⟩ : BufTy).Contents (Elt F) → (⟨S850000, .i32⟩ : BufTy).Contents (Elt F) → (⟨S850000, .i1⟩ : BufTy).Contents (Elt F)),
    nullary main_c_52 (constantI S_ 32 50000#32),
    unary main_c_52 main_v221 (broadcastInDim S850000 ![] bcast_S_S850000 : (⟨S_, .i32⟩ : BufTy).Contents (Elt F) → (⟨S850000, .i32⟩ : BufTy).Contents (Elt F)),
    binary main_v193 main_v221 main_v222 (addi : (⟨S850000, .i32⟩ : BufTy).Contents (Elt F) → (⟨S850000, .i32⟩ : BufTy).Contents (Elt F) → (⟨S850000, .i32⟩ : BufTy).Contents (Elt F)),
    ternary main_v220 main_v222 main_v193 main_v223 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v223 main_v224 (broadcastInDim S850000x1 ![0] bcast_S850000_S850000x1_0 : (⟨S850000, .i32⟩ : BufTy).Contents (Elt F) → (⟨S850000x1, .i32⟩ : BufTy).Contents (Elt F)),
    binary main_v203 main_v224 main_v225 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v218 main_v226 (broadcastInDim S850000x1 ![0] bcast_S850000_S850000x1_0 : (⟨S850000, .f32⟩ : BufTy).Contents (Elt F) → (⟨S850000x1, .f32⟩ : BufTy).Contents (Elt F)),
    unary main_v226 main_v227 (broadcastInDim S850000x64 ![0, 1] bcast_S850000x1_S850000x64_0_1 : (⟨S850000x1, .f32⟩ : BufTy).Contents (Elt F) → (⟨S850000x64, .f32⟩ : BufTy).Contents (Elt F)),
    binary main_v225 main_v227 main_v228 (mulf : (⟨S850000x64, .f32⟩ : BufTy).Contents (Elt F) → (⟨S850000x64, .f32⟩ : BufTy).Contents (Elt F) → (⟨S850000x64, .f32⟩ : BufTy).Contents (Elt F)),
    nullary main_cst_53 (constant S_ .f32 0x00000000#32),
    unary main_cst_53 main_v229 (broadcastInDim S50000x64 ![] bcast_S_S50000x64 : (⟨S_, .f32⟩ : BufTy).Contents (Elt F) → (⟨S50000x64, .f32⟩ : BufTy).Contents (Elt F)),
    unary main_v194 main_v230 (broadcastInDim S850000x1 ![0] bcast_S850000_S850000x1_0 : (⟨S850000, .i32⟩ : BufTy).Contents (Elt F) → (⟨S850000x1, .i32⟩ : BufTy).Contents (Elt F)),
    ternary main_v229 main_v230 main_v228 main_v231 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg7 main_v232 (broadcastInDim S1x64 ![1] bcast_S64_S1x64_1 : (⟨S64, .f32⟩ : BufTy).Contents (Elt F) → (⟨S1x64, .f32⟩ : BufTy).Contents (Elt F)),
    unary main_v232 main_v233 (broadcastInDim S50000x64 ![0, 1] bcast_S1x64_S50000x64_0_1 : (⟨S1x64, .f32⟩ : BufTy).Contents (Elt F) → (⟨S50000x64, .f32⟩ : BufTy).Contents (Elt F)),
    binary main_v231 main_v233 main_v234 (addf : (⟨S50000x64, .f32⟩ : BufTy).Contents (Elt F) → (⟨S50000x64, .f32⟩ : BufTy).Contents (Elt F) → (⟨S50000x64, .f32⟩ : BufTy).Contents (Elt F)),
    binary main_v191 main_arg8 main_v235 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v236 (broadcastInDim S1x64 ![1] bcast_S64_S1x64_1 : (⟨S64, .f32⟩ : BufTy).Contents (Elt F) → (⟨S1x64, .f32⟩ : BufTy).Contents (Elt F)),
    unary main_v236 main_v237 (broadcastInDim S50000x64 ![0, 1] bcast_S1x64_S50000x64_0_1 : (⟨S1x64, .f32⟩ : BufTy).Contents (Elt F) → (⟨S50000x64, .f32⟩ : BufTy).Contents (Elt F)),
    binary main_v235 main_v237 main_v238 (addf : (⟨S50000x64, .f32⟩ : BufTy).Contents (Elt F) → (⟨S50000x64, .f32⟩ : BufTy).Contents (Elt F) → (⟨S50000x64, .f32⟩ : BufTy).Contents (Elt F)),
    binary main_v234 main_v238 main_v239 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x64, .f32⟩) main_call7_v0) (broadcastInDim S50000x64 ![] bcast_S_S50000x64),
    TRef.binary (TRef.of (T := ⟨S50000x64, .f32⟩) main_v239) (TRef.of (T := ⟨S50000x64, .f32⟩) main_call7_v0) (TRef.of (T := ⟨S50000x64, .f32⟩) main_v240) maximumf,
    nullary main_cst_54 (constant S_ .f32 0x3F800000#32),
    unary main_cst_54 main_v241 (broadcastInDim S50000x64 ![] bcast_S_S50000x64 : (⟨S_, .f32⟩ : BufTy).Contents (Elt F) → (⟨S50000x64, .f32⟩ : BufTy).Contents (Elt F)),
    binary main_v241 main_v188 main_v242 (mulf : (⟨S50000x64, .f32⟩ : BufTy).Contents (Elt F) → (⟨S50000x64, .f32⟩ : BufTy).Contents (Elt F) → (⟨S50000x64, .f32⟩ : BufTy).Contents (Elt F)),
    binary main_v240 main_v242 main_v243 (subf : (⟨S50000x64, .f32⟩ : BufTy).Contents (Elt F) → (⟨S50000x64, .f32⟩ : BufTy).Contents (Elt F) → (⟨S50000x64, .f32⟩ : BufTy).Contents (Elt F)),
    nullary main_cst_55 (constant S_ .f32 0x3F800000#32),
    unary main_cst_55 main_v244 (broadcastInDim S50000x64 ![] bcast_S_S50000x64 : (⟨S_, .f32⟩ : BufTy).Contents (Elt F) → (⟨S50000x64, .f32⟩ : BufTy).Contents (Elt F)),
    binary main_v244 main_v191 main_v245 (mulf : (⟨S50000x64, .f32⟩ : BufTy).Contents (Elt F) → (⟨S50000x64, .f32⟩ : BufTy).Contents (Elt F) → (⟨S50000x64, .f32⟩ : BufTy).Contents (Elt F)),
    binary main_v243 main_v245 main_v246 (subf : (⟨S50000x64, .f32⟩ : BufTy).Contents (Elt F) → (⟨S50000x64, .f32⟩ : BufTy).Contents (Elt F) → (⟨S50000x64, .f32⟩ : BufTy).Contents (Elt F)),
    nullary main_cst_56 (constant S_ .f32 0x3F800000#32),
    unary main_cst_56 main_v247 (broadcastInDim S50000x64 ![] bcast_S_S50000x64 : (⟨S_, .f32⟩ : BufTy).Contents (Elt F) → (⟨S50000x64, .f32⟩ : BufTy).Contents (Elt F)),
    binary main_v247 main_v246 main_v248 (mulf : (⟨S50000x64, .f32⟩ : BufTy).Contents (Elt F) → (⟨S50000x64, .f32⟩ : BufTy).Contents (Elt F) → (⟨S50000x64, .f32⟩ : BufTy).Contents (Elt F)),
    binary main_v188 main_v248 main_v249 (addf : (⟨S50000x64, .f32⟩ : BufTy).Contents (Elt F) → (⟨S50000x64, .f32⟩ : BufTy).Contents (Elt F) → (⟨S50000x64, .f32⟩ : BufTy).Contents (Elt F)),
    nullary main_cst_57 (constant S_ .f32 0x3F800000#32),
    unary main_cst_57 main_v250 (broadcastInDim S50000x64 ![] bcast_S_S50000x64 : (⟨S_, .f32⟩ : BufTy).Contents (Elt F) → (⟨S50000x64, .f32⟩ : BufTy).Contents (Elt F)),
    binary main_v250 main_v249 main_v251 (mulf : (⟨S50000x64, .f32⟩ : BufTy).Contents (Elt F) → (⟨S50000x64, .f32⟩ : BufTy).Contents (Elt F) → (⟨S50000x64, .f32⟩ : BufTy).Contents (Elt F)),
    binary main_v191 main_v251 main_v252 (addf : (⟨S50000x64, .f32⟩ : BufTy).Contents (Elt F) → (⟨S50000x64, .f32⟩ : BufTy).Contents (Elt F) → (⟨S50000x64, .f32⟩ : BufTy).Contents (Elt F)) ]

set_option maxHeartbeats 0 in
set_option maxRecDepth 8192 in
abbrev opsE : List (HloOp τ sig (Elt F)) :=
  [ nullary main_v253 (iotaInDim S50000 32 0),
    binary main_v1 main_v253 main_v254 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v253 main_v255 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_58 (constant S_ .f32 0x3F800000#32),
    unary main_cst_58 main_v256 (broadcastInDim S850000 ![] bcast_S_S850000 : (⟨S_, .f32⟩ : BufTy).Contents (Elt F) → (⟨S850000, .f32⟩ : BufTy).Contents (Elt F)),
    nullary main_cst_59 (constant S_ .f32 0x00000000#32),
    unary main_cst_59 main_v257 (broadcastInDim S50000 ![] bcast_S_S50000 : (⟨S_, .f32⟩ : BufTy).Contents (Elt F) → (⟨S50000, .f32⟩ : BufTy).Contents (Elt F)),
    unary main_v255 main_v258 (broadcastInDim S850000x1 ![0] bcast_S850000_S850000x1_0 : (⟨S850000, .i32⟩ : BufTy).Contents (Elt F) → (⟨S850000x1, .i32⟩ : BufTy).Contents (Elt F)),
    ternary main_v257 main_v258 main_v256 main_v259 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_60 (constant S_ .f32 0x00000000#32),
    unary main_cst_60 main_v260 (broadcastInDim S50000 ![] bcast_S_S50000 : (⟨S_, .f32⟩ : BufTy).Contents (Elt F) → (⟨S50000, .f32⟩ : BufTy).Contents (Elt F)),
    binary main_v259 main_v260 main_v261 (cmpf .ogt : (⟨S50000, .f32⟩ : BufTy).Contents (Elt F) → (⟨S50000, .f32⟩ : BufTy).Contents (Elt F) → (⟨S50000, .i1⟩ : BufTy).Contents (Elt F)),
    unary main_v259 main_v262 (Host.rsqrt : (⟨S50000, .f32⟩ : BufTy).Contents (Elt F) → (⟨S50000, .f32⟩ : BufTy).Contents (Elt F)),
    nullary main_cst_61 (constant S_ .f32 0x00000000#32),
    TRef.unary (TRef.of (T := ⟨S_, .f32⟩) main_cst_61) (TRef.of (T := ⟨S_, .f32⟩) main_call8_v0) id,
    TRef.unary (TRef.of (T := ⟨S_, .f32⟩) main_call8_v0) (TRef.of (T := ⟨S50000, .f32⟩) main_call8_v1) (broadcastInDim S50000 ![] bcast_S_S50000),
    TRef.ternary (TRef.of (T := ⟨S50000, .i1⟩) main_v261) (TRef.of (T := ⟨S50000, .f32⟩) main_v262) (TRef.of (T := ⟨S50000, .f32⟩) main_call8_v1) (TRef.of (T := ⟨S50000, .f32⟩) main_v263) select,
    binary main_v252 main_arg6 main_v264 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_62 (constantI S_ 32 0#32),
    unary main_c_62 main_v265 (broadcastInDim S850000 ![] bcast_S_S850000 : (⟨S_, .i32⟩ : BufTy).Contents (Elt F) → (⟨S850000, .i32⟩ : BufTy).Contents (Elt F)),
    binary main_v254 main_v265 main_v266 (cmpi .slt : (⟨S850000, .i32⟩ : BufTy).Contents (Elt F) → (⟨S850000, .i32⟩ : BufTy).Contents (Elt F) → (⟨S850000, .i1⟩ : BufTy).Contents (Elt F)),
    nullary main_c_63 (constantI S_ 32 50000#32),
    unary main_c_63 main_v267 (broadcastInDim S850000 ![] bcast_S_S850000 : (⟨S_, .i32⟩ : BufTy).Contents (Elt F) → (⟨S850000, .i32⟩ : BufTy).Contents (Elt F)),
    binary main_v254 main_v267 main_v268 (addi : (⟨S850000, .i32⟩ : BufTy).Contents (Elt F) → (⟨S850000, .i32⟩ : BufTy).Contents (Elt F) → (⟨S850000, .i32⟩ : BufTy).Contents (Elt F)),
    ternary main_v266 main_v268 main_v254 main_v269 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v269 main_v270 (broadcastInDim S850000x1 ![0] bcast_S850000_S850000x1_0 : (⟨S850000, .i32⟩ : BufTy).Contents (Elt F) → (⟨S850000x1, .i32⟩ : BufTy).Contents (Elt F)),
    binary main_v263 main_v270 main_v271 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_64 (constantI S_ 32 0#32),
    unary main_c_64 main_v272 (broadcastInDim S850000 ![] bcast_S_S850000 : (⟨S_, .i32⟩ : BufTy).Contents (Elt F) → (⟨S850000, .i32⟩ : BufTy).Contents (Elt F)),
    binary main_v255 main_v272 main_v273 (cmpi .slt : (⟨S850000, .i32⟩ : BufTy).Contents (Elt F) → (⟨S850000, .i32⟩ : BufTy).Contents (Elt F) → (⟨S850000, .i1⟩ : BufTy).Contents (Elt F)),
    nullary main_c_65 (constantI S_ 32 50000#32),
    unary main_c_65 main_v274 (broadcastInDim S850000 ![] bcast_S_S850000 : (⟨S_, .i32⟩ : BufTy).Contents (Elt F) → (⟨S850000, .i32⟩ : BufTy).Contents (Elt F)),
    binary main_v255 main_v274 main_v275 (addi : (⟨S850000, .i32⟩ : BufTy).Contents (Elt F) → (⟨S850000, .i32⟩ : BufTy).Contents (Elt F) → (⟨S850000, .i32⟩ : BufTy).Contents (Elt F)),
    ternary main_v273 main_v275 main_v255 main_v276 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v276 main_v277 (broadcastInDim S850000x1 ![0] bcast_S850000_S850000x1_0 : (⟨S850000, .i32⟩ : BufTy).Contents (Elt F) → (⟨S850000x1, .i32⟩ : BufTy).Contents (Elt F)),
    binary main_v263 main_v277 main_v278 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v271 main_v278 main_v279 (mulf : (⟨S850000, .f32⟩ : BufTy).Contents (Elt F) → (⟨S850000, .f32⟩ : BufTy).Contents (Elt F) → (⟨S850000, .f32⟩ : BufTy).Contents (Elt F)),
    nullary main_c_66 (constantI S_ 32 0#32),
    unary main_c_66 main_v280 (broadcastInDim S850000 ![] bcast_S_S850000 : (⟨S_, .i32⟩ : BufTy).Contents (Elt F) → (⟨S850000, .i32⟩ : BufTy).Contents (Elt F)),
    binary main_v254 main_v280 main_v281 (cmpi .slt : (⟨S850000, .i32⟩ : BufTy).Contents (Elt F) → (⟨S850000, .i32⟩ : BufTy).Contents (Elt F) → (⟨S850000, .i1⟩ : BufTy).Contents (Elt F)),
    nullary main_c_67 (constantI S_ 32 50000#32),
    unary main_c_67 main_v282 (broadcastInDim S850000 ![] bcast_S_S850000 : (⟨S_, .i32⟩ : BufTy).Contents (Elt F) → (⟨S850000, .i32⟩ : BufTy).Contents (Elt F)),
    binary main_v254 main_v282 main_v283 (addi : (⟨S850000, .i32⟩ : BufTy).Contents (Elt F) → (⟨S850000, .i32⟩ : BufTy).Contents (Elt F) → (⟨S850000, .i32⟩ : BufTy).Contents (Elt F)),
    ternary main_v281 main_v283 main_v254 main_v284 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v284 main_v285 (broadcastInDim S850000x1 ![0] bcast_S850000_S850000x1_0 : (⟨S850000, .i32⟩ : BufTy).Contents (Elt F) → (⟨S850000x1, .i32⟩ : BufTy).Contents (Elt F)),
    binary main_v264 main_v285 main_v286 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v279 main_v287 (broadcastInDim S850000x1 ![0] bcast_S850000_S850000x1_0 : (⟨S850000, .f32⟩ : BufTy).Contents (Elt F) → (⟨S850000x1, .f32⟩ : BufTy).Contents (Elt F)),
    unary main_v287 main_v288 (broadcastInDim S850000x64 ![0, 1] bcast_S850000x1_S850000x64_0_1 : (⟨S850000x1, .f32⟩ : BufTy).Contents (Elt F) → (⟨S850000x64, .f32⟩ : BufTy).Contents (Elt F)),
    binary main_v286 main_v288 main_v289 (mulf : (⟨S850000x64, .f32⟩ : BufTy).Contents (Elt F) → (⟨S850000x64, .f32⟩ : BufTy).Contents (Elt F) → (⟨S850000x64, .f32⟩ : BufTy).Contents (Elt F)),
    nullary main_cst_68 (constant S_ .f32 0x00000000#32),
    unary main_cst_68 main_v290 (broadcastInDim S50000x64 ![] bcast_S_S50000x64 : (⟨S_, .f32⟩ : BufTy).Contents (Elt F) → (⟨S50000x64, .f32⟩ : BufTy).Contents (Elt F)),
    unary main_v255 main_v291 (broadcastInDim S850000x1 ![0] bcast_S850000_S850000x1_0 : (⟨S850000, .i32⟩ : BufTy).Contents (Elt F) → (⟨S850000x1, .i32⟩ : BufTy).Contents (Elt F)),
    ternary main_v290 main_v291 main_v289 main_v292 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg7 main_v293 (broadcastInDim S1x64 ![1] bcast_S64_S1x64_1 : (⟨S64, .f32⟩ : BufTy).Contents (Elt F) → (⟨S1x64, .f32⟩ : BufTy).Contents (Elt F)),
    unary main_v293 main_v294 (broadcastInDim S50000x64 ![0, 1] bcast_S1x64_S50000x64_0_1 : (⟨S1x64, .f32⟩ : BufTy).Contents (Elt F) → (⟨S50000x64, .f32⟩ : BufTy).Contents (Elt F)),
    binary main_v292 main_v294 main_v295 (addf : (⟨S50000x64, .f32⟩ : BufTy).Contents (Elt F) → (⟨S50000x64, .f32⟩ : BufTy).Contents (Elt F) → (⟨S50000x64, .f32⟩ : BufTy).Contents (Elt F)),
    binary main_v252 main_arg8 main_v296 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v297 (broadcastInDim S1x64 ![1] bcast_S64_S1x64_1 : (⟨S64, .f32⟩ : BufTy).Contents (Elt F) → (⟨S1x64, .f32⟩ : BufTy).Contents (Elt F)),
    unary main_v297 main_v298 (broadcastInDim S50000x64 ![0, 1] bcast_S1x64_S50000x64_0_1 : (⟨S1x64, .f32⟩ : BufTy).Contents (Elt F) → (⟨S50000x64, .f32⟩ : BufTy).Contents (Elt F)),
    binary main_v296 main_v298 main_v299 (addf : (⟨S50000x64, .f32⟩ : BufTy).Contents (Elt F) → (⟨S50000x64, .f32⟩ : BufTy).Contents (Elt F) → (⟨S50000x64, .f32⟩ : BufTy).Contents (Elt F)),
    binary main_v295 main_v299 main_v300 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S50000x64, .f32⟩) main_call9_v0) (broadcastInDim S50000x64 ![] bcast_S_S50000x64),
    TRef.binary (TRef.of (T := ⟨S50000x64, .f32⟩) main_v300) (TRef.of (T := ⟨S50000x64, .f32⟩) main_call9_v0) (TRef.of (T := ⟨S50000x64, .f32⟩) main_v301) maximumf,
    nullary main_cst_69 (constant S_ .f32 0x3F800000#32),
    unary main_cst_69 main_v302 (broadcastInDim S50000x64 ![] bcast_S_S50000x64 : (⟨S_, .f32⟩ : BufTy).Contents (Elt F) → (⟨S50000x64, .f32⟩ : BufTy).Contents (Elt F)),
    binary main_v302 main_v249 main_v303 (mulf : (⟨S50000x64, .f32⟩ : BufTy).Contents (Elt F) → (⟨S50000x64, .f32⟩ : BufTy).Contents (Elt F) → (⟨S50000x64, .f32⟩ : BufTy).Contents (Elt F)),
    binary main_v301 main_v303 main_v304 (subf : (⟨S50000x64, .f32⟩ : BufTy).Contents (Elt F) → (⟨S50000x64, .f32⟩ : BufTy).Contents (Elt F) → (⟨S50000x64, .f32⟩ : BufTy).Contents (Elt F)),
    nullary main_cst_70 (constant S_ .f32 0x3F800000#32),
    unary main_cst_70 main_v305 (broadcastInDim S50000x64 ![] bcast_S_S50000x64 : (⟨S_, .f32⟩ : BufTy).Contents (Elt F) → (⟨S50000x64, .f32⟩ : BufTy).Contents (Elt F)),
    binary main_v305 main_v252 main_v306 (mulf : (⟨S50000x64, .f32⟩ : BufTy).Contents (Elt F) → (⟨S50000x64, .f32⟩ : BufTy).Contents (Elt F) → (⟨S50000x64, .f32⟩ : BufTy).Contents (Elt F)),
    binary main_v304 main_v306 main_v307 (subf : (⟨S50000x64, .f32⟩ : BufTy).Contents (Elt F) → (⟨S50000x64, .f32⟩ : BufTy).Contents (Elt F) → (⟨S50000x64, .f32⟩ : BufTy).Contents (Elt F)),
    nullary main_cst_71 (constant S_ .f32 0x3F800000#32),
    unary main_cst_71 main_v308 (broadcastInDim S50000x64 ![] bcast_S_S50000x64 : (⟨S_, .f32⟩ : BufTy).Contents (Elt F) → (⟨S50000x64, .f32⟩ : BufTy).Contents (Elt F)),
    binary main_v308 main_v307 main_v309 (mulf : (⟨S50000x64, .f32⟩ : BufTy).Contents (Elt F) → (⟨S50000x64, .f32⟩ : BufTy).Contents (Elt F) → (⟨S50000x64, .f32⟩ : BufTy).Contents (Elt F)),
    binary main_v249 main_v309 main_v310 (addf : (⟨S50000x64, .f32⟩ : BufTy).Contents (Elt F) → (⟨S50000x64, .f32⟩ : BufTy).Contents (Elt F) → (⟨S50000x64, .f32⟩ : BufTy).Contents (Elt F)),
    nullary main_cst_72 (constant S_ .f32 0x3F800000#32),
    unary main_cst_72 main_v311 (broadcastInDim S50000x64 ![] bcast_S_S50000x64 : (⟨S_, .f32⟩ : BufTy).Contents (Elt F) → (⟨S50000x64, .f32⟩ : BufTy).Contents (Elt F)),
    binary main_v311 main_v310 main_v312 (mulf : (⟨S50000x64, .f32⟩ : BufTy).Contents (Elt F) → (⟨S50000x64, .f32⟩ : BufTy).Contents (Elt F) → (⟨S50000x64, .f32⟩ : BufTy).Contents (Elt F)),
    binary main_v252 main_v312 main_v313 (addf : (⟨S50000x64, .f32⟩ : BufTy).Contents (Elt F) → (⟨S50000x64, .f32⟩ : BufTy).Contents (Elt F) → (⟨S50000x64, .f32⟩ : BufTy).Contents (Elt F)) ]

set_option maxHeartbeats 0 in
set_option maxRecDepth 8192 in
abbrev opsZ : List (HloOp τ sig (Elt F)) :=
  [ binary main_v313 main_arg10 main_v314 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    unary main_arg11 main_v315 (broadcastInDim S1x1 ![1] bcast_S1_S1x1_1 : (⟨S1, .f32⟩ : BufTy).Contents (Elt F) → (⟨S1x1, .f32⟩ : BufTy).Contents (Elt F)),
    unary main_v315 main_v316 (broadcastInDim S50000x1 ![0, 1] bcast_S1x1_S50000x1_0_1 : (⟨S1x1, .f32⟩ : BufTy).Contents (Elt F) → (⟨S50000x1, .f32⟩ : BufTy).Contents (Elt F)),
    binary main_v314 main_v316 main_v317 (addf : (⟨S50000x1, .f32⟩ : BufTy).Contents (Elt F) → (⟨S50000x1, .f32⟩ : BufTy).Contents (Elt F) → (⟨S50000x1, .f32⟩ : BufTy).Contents (Elt F)),
    nullary main_cst_73 (constant S_ .f32 0x00000000#32),
    unary main_cst_73 main_v318 (broadcastInDim S500x1 ![] bcast_S_S500x1 : (⟨S_, .f32⟩ : BufTy).Contents (Elt F) → (⟨S500x1, .f32⟩ : BufTy).Contents (Elt F)),
    unary main_arg3 main_v319 (broadcastInDim S50000x1 ![0] bcast_S50000_S50000x1_0 : (⟨S50000, .i32⟩ : BufTy).Contents (Elt F) → (⟨S50000x1, .i32⟩ : BufTy).Contents (Elt F)),
    ternary main_v318 main_v319 main_v317 main_v320 ((fun x i u => Host.scatterAdd scatter_S500x1_S50000x1_S50000x1_1_0_0_1 x i u) : (⟨S500x1, .f32⟩ : BufTy).Contents (Elt F) → (⟨S50000x1, .i32⟩ : BufTy).Contents (Elt F) → (⟨S50000x1, .f32⟩ : BufTy).Contents (Elt F) → (⟨S500x1, .f32⟩ : BufTy).Contents (Elt F)),
    reshape main_v320 main_v321 rfl shapeCasts_S500x1_S500 ]

/-- @main's 418 operations, in order. -/
abbrev ops : List (HloOp τ sig (Elt F)) := opsA ++ (opsB ++ (opsC ++ (opsD ++ (opsE ++ opsZ))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and allocates nothing -/

set_option maxHeartbeats 0 in
set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., binary_bufs_sub .., binary_bufs_sub .., unary_bufs_sub .., unary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub ..⟩
set_option maxHeartbeats 0 in
set_option maxRecDepth 8192 in
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxHeartbeats 0 in
set_option maxRecDepth 8192 in
theorem opsB_sub : (opsB : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub ..⟩
set_option maxHeartbeats 0 in
set_option maxRecDepth 8192 in
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxHeartbeats 0 in
set_option maxRecDepth 8192 in
theorem opsC_sub : (opsC : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub ..⟩
set_option maxHeartbeats 0 in
set_option maxRecDepth 8192 in
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxHeartbeats 0 in
set_option maxRecDepth 8192 in
theorem opsD_sub : (opsD : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub ..⟩
set_option maxHeartbeats 0 in
set_option maxRecDepth 8192 in
theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxHeartbeats 0 in
set_option maxRecDepth 8192 in
theorem opsE_sub : (opsE : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub ..⟩
set_option maxHeartbeats 0 in
set_option maxRecDepth 8192 in
theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxHeartbeats 0 in
set_option maxRecDepth 8192 in
theorem opsZ_sub : (opsZ : List (HloOp τ sig (Elt F))).Forall fun op => op.bufs ⊆ tcRefs τ sig :=
  ⟨binary_bufs_sub .., unary_bufs_sub .., unary_bufs_sub .., binary_bufs_sub .., nullary_bufs_sub .., unary_bufs_sub .., unary_bufs_sub .., ternary_bufs_sub .., reshape_bufs_sub ..⟩
set_option maxHeartbeats 0 in
set_option maxRecDepth 8192 in
theorem opsZ_fresh : (opsZ : List (HloOp τ sig (Elt F))).Forall fun op => op.fresh = ∅ :=
  ⟨rfl, rfl, rfl, rfl, rfl, rfl, rfl, rfl, rfl⟩

/-- A property of every operation of each chunk is one of every operation of the line. -/
theorem forall_ops {P : HloOp τ sig (Elt F) → Prop} (hA : (opsA (F := F)).Forall P) (hB : (opsB (F := F)).Forall P) (hC : (opsC (F := F)).Forall P)
    (hD : (opsD (F := F)).Forall P) (hE : (opsE (F := F)).Forall P) (hZ : (opsZ (F := F)).Forall P) : ∀ op ∈ (ops (F := F)), P op := by
  intro op h
  rcases List.mem_append.mp h with h | h
  · exact List.forall_iff_forall_mem.mp hA op h
  rcases List.mem_append.mp h with h | h
  · exact List.forall_iff_forall_mem.mp hB op h
  rcases List.mem_append.mp h with h | h
  · exact List.forall_iff_forall_mem.mp hC op h
  rcases List.mem_append.mp h with h | h
  · exact List.forall_iff_forall_mem.mp hD op h
  rcases List.mem_append.mp h with h | h
  · exact List.forall_iff_forall_mem.mp hE op h
  · exact List.forall_iff_forall_mem.mp hZ op h

theorem ops_sub : (ops : List (HloOp τ sig (Elt F))).Forall fun op => op.bufs ⊆ tcRefs τ sig :=
  List.forall_iff_forall_mem.mpr (forall_ops opsA_sub opsB_sub opsC_sub opsD_sub opsE_sub opsZ_sub)
theorem ops_fresh : ∀ op ∈ (ops : List (HloOp τ sig (Elt F))), op.fresh = ∅ :=
  forall_ops opsA_fresh opsB_fresh opsC_fresh opsD_fresh opsE_fresh opsZ_fresh

/-! ## What each chunk writes -/

/-- The fold over two lines run one after the other. -/
theorem after_concat : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_concat l₁ l₂]

/-- An operation whose one written buffer is a reference of the list writes inside the list. -/
theorem writes_sub_of_mem {W : List (Ref sig .tc)} (y : Ref sig .tc) {op : HloOp τ sig (Elt F)} (h : op.writes = {Proc.devRef .tc y}) (hy : y ∈ W) :
    op.writes ⊆ (W.map (Proc.devRef (τ := τ) .tc)).toFinset := by
  rw [h, Finset.singleton_subset_iff, List.mem_toFinset]; exact List.mem_map_of_mem hy

/-- The references chunk A's operations write. -/
abbrev WA : List (Ref sig .tc) := [main_v0, main_v1, main_v2, main_v3, main_v4, main_v5, main_v6, main_v7, main_v8, main_v9, main_v10, main_v11, main_cst, main_v12, main_cst_0, main_v13, main_v14, main_v15, main_cst_1, main_v16, main_v17, main_v18, main_cst_2, main_call0_v0, main_call0_v1, main_v19, main_v20, main_c, main_v21, main_v22, main_c_3, main_v23, main_v24, main_v25, main_v26, main_v27, main_c_4, main_v28, main_v29, main_c_5, main_v30, main_v31, main_v32, main_v33, main_v34, main_v35, main_c_6, main_v36, main_v37, main_c_7, main_v38, main_v39, main_v40, main_v41, main_v42, main_v43, main_v44, main_v45, main_cst_8, main_v46, main_v47, main_v48, main_v49, main_v50, main_v51, main_v52, main_v53, main_v54, main_v55, main_v56, main_call1_cst, main_call1_v0, main_v57, main_cst_9, main_v58, main_v59, main_v60, main_cst_10, main_v61, main_v62, main_v63, main_cst_11, main_v64, main_v65, main_v66, main_cst_12, main_v67, main_v68, main_v69]
set_option maxHeartbeats 0 in
set_option maxRecDepth 8192 in
theorem opsA_writes : (opsA : List (HloOp τ sig (Elt F))).Forall fun op => op.writes ⊆ (WA.map (Proc.devRef (τ := τ) .tc)).toFinset :=
  ⟨writes_sub_of_mem main_v0 rfl (by decide),
   writes_sub_of_mem main_v1 rfl (by decide),
   writes_sub_of_mem main_v2 rfl (by decide),
   writes_sub_of_mem main_v3 rfl (by decide),
   writes_sub_of_mem main_v4 rfl (by decide),
   writes_sub_of_mem main_v5 rfl (by decide),
   writes_sub_of_mem main_v6 rfl (by decide),
   writes_sub_of_mem main_v7 rfl (by decide),
   writes_sub_of_mem main_v8 rfl (by decide),
   writes_sub_of_mem main_v9 rfl (by decide),
   writes_sub_of_mem main_v10 rfl (by decide),
   writes_sub_of_mem main_v11 rfl (by decide),
   writes_sub_of_mem main_cst rfl (by decide),
   writes_sub_of_mem main_v12 rfl (by decide),
   writes_sub_of_mem main_cst_0 rfl (by decide),
   writes_sub_of_mem main_v13 rfl (by decide),
   writes_sub_of_mem main_v14 rfl (by decide),
   writes_sub_of_mem main_v15 rfl (by decide),
   writes_sub_of_mem main_cst_1 rfl (by decide),
   writes_sub_of_mem main_v16 rfl (by decide),
   writes_sub_of_mem main_v17 rfl (by decide),
   writes_sub_of_mem main_v18 rfl (by decide),
   writes_sub_of_mem main_cst_2 rfl (by decide),
   writes_sub_of_mem main_call0_v0 rfl (by decide),
   writes_sub_of_mem main_call0_v1 rfl (by decide),
   writes_sub_of_mem main_v19 rfl (by decide),
   writes_sub_of_mem main_v20 rfl (by decide),
   writes_sub_of_mem main_c rfl (by decide),
   writes_sub_of_mem main_v21 rfl (by decide),
   writes_sub_of_mem main_v22 rfl (by decide),
   writes_sub_of_mem main_c_3 rfl (by decide),
   writes_sub_of_mem main_v23 rfl (by decide),
   writes_sub_of_mem main_v24 rfl (by decide),
   writes_sub_of_mem main_v25 rfl (by decide),
   writes_sub_of_mem main_v26 rfl (by decide),
   writes_sub_of_mem main_v27 rfl (by decide),
   writes_sub_of_mem main_c_4 rfl (by decide),
   writes_sub_of_mem main_v28 rfl (by decide),
   writes_sub_of_mem main_v29 rfl (by decide),
   writes_sub_of_mem main_c_5 rfl (by decide),
   writes_sub_of_mem main_v30 rfl (by decide),
   writes_sub_of_mem main_v31 rfl (by decide),
   writes_sub_of_mem main_v32 rfl (by decide),
   writes_sub_of_mem main_v33 rfl (by decide),
   writes_sub_of_mem main_v34 rfl (by decide),
   writes_sub_of_mem main_v35 rfl (by decide),
   writes_sub_of_mem main_c_6 rfl (by decide),
   writes_sub_of_mem main_v36 rfl (by decide),
   writes_sub_of_mem main_v37 rfl (by decide),
   writes_sub_of_mem main_c_7 rfl (by decide),
   writes_sub_of_mem main_v38 rfl (by decide),
   writes_sub_of_mem main_v39 rfl (by decide),
   writes_sub_of_mem main_v40 rfl (by decide),
   writes_sub_of_mem main_v41 rfl (by decide),
   writes_sub_of_mem main_v42 rfl (by decide),
   writes_sub_of_mem main_v43 rfl (by decide),
   writes_sub_of_mem main_v44 rfl (by decide),
   writes_sub_of_mem main_v45 rfl (by decide),
   writes_sub_of_mem main_cst_8 rfl (by decide),
   writes_sub_of_mem main_v46 rfl (by decide),
   writes_sub_of_mem main_v47 rfl (by decide),
   writes_sub_of_mem main_v48 rfl (by decide),
   writes_sub_of_mem main_v49 rfl (by decide),
   writes_sub_of_mem main_v50 rfl (by decide),
   writes_sub_of_mem main_v51 rfl (by decide),
   writes_sub_of_mem main_v52 rfl (by decide),
   writes_sub_of_mem main_v53 rfl (by decide),
   writes_sub_of_mem main_v54 rfl (by decide),
   writes_sub_of_mem main_v55 rfl (by decide),
   writes_sub_of_mem main_v56 rfl (by decide),
   writes_sub_of_mem main_call1_cst rfl (by decide),
   writes_sub_of_mem main_call1_v0 rfl (by decide),
   writes_sub_of_mem main_v57 rfl (by decide),
   writes_sub_of_mem main_cst_9 rfl (by decide),
   writes_sub_of_mem main_v58 rfl (by decide),
   writes_sub_of_mem main_v59 rfl (by decide),
   writes_sub_of_mem main_v60 rfl (by decide),
   writes_sub_of_mem main_cst_10 rfl (by decide),
   writes_sub_of_mem main_v61 rfl (by decide),
   writes_sub_of_mem main_v62 rfl (by decide),
   writes_sub_of_mem main_v63 rfl (by decide),
   writes_sub_of_mem main_cst_11 rfl (by decide),
   writes_sub_of_mem main_v64 rfl (by decide),
   writes_sub_of_mem main_v65 rfl (by decide),
   writes_sub_of_mem main_v66 rfl (by decide),
   writes_sub_of_mem main_cst_12 rfl (by decide),
   writes_sub_of_mem main_v67 rfl (by decide),
   writes_sub_of_mem main_v68 rfl (by decide),
   writes_sub_of_mem main_v69 rfl (by decide)⟩
/-- The references chunk B's operations write. -/
abbrev WB : List (Ref sig .tc) := [main_v70, main_v71, main_v72, main_cst_13, main_v73, main_cst_14, main_v74, main_v75, main_v76, main_cst_15, main_v77, main_v78, main_v79, main_cst_16, main_call2_v0, main_call2_v1, main_v80, main_v81, main_c_17, main_v82, main_v83, main_c_18, main_v84, main_v85, main_v86, main_v87, main_v88, main_c_19, main_v89, main_v90, main_c_20, main_v91, main_v92, main_v93, main_v94, main_v95, main_v96, main_c_21, main_v97, main_v98, main_c_22, main_v99, main_v100, main_v101, main_v102, main_v103, main_v104, main_v105, main_v106, main_cst_23, main_v107, main_v108, main_v109, main_v110, main_v111, main_v112, main_v113, main_v114, main_v115, main_v116, main_v117, main_call3_cst, main_call3_v0, main_v118, main_cst_24, main_v119, main_v120, main_v121, main_cst_25, main_v122, main_v123, main_v124, main_cst_26, main_v125, main_v126, main_v127, main_cst_27, main_v128, main_v129, main_v130]
set_option maxHeartbeats 0 in
set_option maxRecDepth 8192 in
theorem opsB_writes : (opsB : List (HloOp τ sig (Elt F))).Forall fun op => op.writes ⊆ (WB.map (Proc.devRef (τ := τ) .tc)).toFinset :=
  ⟨writes_sub_of_mem main_v70 rfl (by decide),
   writes_sub_of_mem main_v71 rfl (by decide),
   writes_sub_of_mem main_v72 rfl (by decide),
   writes_sub_of_mem main_cst_13 rfl (by decide),
   writes_sub_of_mem main_v73 rfl (by decide),
   writes_sub_of_mem main_cst_14 rfl (by decide),
   writes_sub_of_mem main_v74 rfl (by decide),
   writes_sub_of_mem main_v75 rfl (by decide),
   writes_sub_of_mem main_v76 rfl (by decide),
   writes_sub_of_mem main_cst_15 rfl (by decide),
   writes_sub_of_mem main_v77 rfl (by decide),
   writes_sub_of_mem main_v78 rfl (by decide),
   writes_sub_of_mem main_v79 rfl (by decide),
   writes_sub_of_mem main_cst_16 rfl (by decide),
   writes_sub_of_mem main_call2_v0 rfl (by decide),
   writes_sub_of_mem main_call2_v1 rfl (by decide),
   writes_sub_of_mem main_v80 rfl (by decide),
   writes_sub_of_mem main_v81 rfl (by decide),
   writes_sub_of_mem main_c_17 rfl (by decide),
   writes_sub_of_mem main_v82 rfl (by decide),
   writes_sub_of_mem main_v83 rfl (by decide),
   writes_sub_of_mem main_c_18 rfl (by decide),
   writes_sub_of_mem main_v84 rfl (by decide),
   writes_sub_of_mem main_v85 rfl (by decide),
   writes_sub_of_mem main_v86 rfl (by decide),
   writes_sub_of_mem main_v87 rfl (by decide),
   writes_sub_of_mem main_v88 rfl (by decide),
   writes_sub_of_mem main_c_19 rfl (by decide),
   writes_sub_of_mem main_v89 rfl (by decide),
   writes_sub_of_mem main_v90 rfl (by decide),
   writes_sub_of_mem main_c_20 rfl (by decide),
   writes_sub_of_mem main_v91 rfl (by decide),
   writes_sub_of_mem main_v92 rfl (by decide),
   writes_sub_of_mem main_v93 rfl (by decide),
   writes_sub_of_mem main_v94 rfl (by decide),
   writes_sub_of_mem main_v95 rfl (by decide),
   writes_sub_of_mem main_v96 rfl (by decide),
   writes_sub_of_mem main_c_21 rfl (by decide),
   writes_sub_of_mem main_v97 rfl (by decide),
   writes_sub_of_mem main_v98 rfl (by decide),
   writes_sub_of_mem main_c_22 rfl (by decide),
   writes_sub_of_mem main_v99 rfl (by decide),
   writes_sub_of_mem main_v100 rfl (by decide),
   writes_sub_of_mem main_v101 rfl (by decide),
   writes_sub_of_mem main_v102 rfl (by decide),
   writes_sub_of_mem main_v103 rfl (by decide),
   writes_sub_of_mem main_v104 rfl (by decide),
   writes_sub_of_mem main_v105 rfl (by decide),
   writes_sub_of_mem main_v106 rfl (by decide),
   writes_sub_of_mem main_cst_23 rfl (by decide),
   writes_sub_of_mem main_v107 rfl (by decide),
   writes_sub_of_mem main_v108 rfl (by decide),
   writes_sub_of_mem main_v109 rfl (by decide),
   writes_sub_of_mem main_v110 rfl (by decide),
   writes_sub_of_mem main_v111 rfl (by decide),
   writes_sub_of_mem main_v112 rfl (by decide),
   writes_sub_of_mem main_v113 rfl (by decide),
   writes_sub_of_mem main_v114 rfl (by decide),
   writes_sub_of_mem main_v115 rfl (by decide),
   writes_sub_of_mem main_v116 rfl (by decide),
   writes_sub_of_mem main_v117 rfl (by decide),
   writes_sub_of_mem main_call3_cst rfl (by decide),
   writes_sub_of_mem main_call3_v0 rfl (by decide),
   writes_sub_of_mem main_v118 rfl (by decide),
   writes_sub_of_mem main_cst_24 rfl (by decide),
   writes_sub_of_mem main_v119 rfl (by decide),
   writes_sub_of_mem main_v120 rfl (by decide),
   writes_sub_of_mem main_v121 rfl (by decide),
   writes_sub_of_mem main_cst_25 rfl (by decide),
   writes_sub_of_mem main_v122 rfl (by decide),
   writes_sub_of_mem main_v123 rfl (by decide),
   writes_sub_of_mem main_v124 rfl (by decide),
   writes_sub_of_mem main_cst_26 rfl (by decide),
   writes_sub_of_mem main_v125 rfl (by decide),
   writes_sub_of_mem main_v126 rfl (by decide),
   writes_sub_of_mem main_v127 rfl (by decide),
   writes_sub_of_mem main_cst_27 rfl (by decide),
   writes_sub_of_mem main_v128 rfl (by decide),
   writes_sub_of_mem main_v129 rfl (by decide),
   writes_sub_of_mem main_v130 rfl (by decide)⟩
/-- The references chunk C's operations write. -/
abbrev WC : List (Ref sig .tc) := [main_v131, main_v132, main_v133, main_cst_28, main_v134, main_cst_29, main_v135, main_v136, main_v137, main_cst_30, main_v138, main_v139, main_v140, main_cst_31, main_call4_v0, main_call4_v1, main_v141, main_v142, main_c_32, main_v143, main_v144, main_c_33, main_v145, main_v146, main_v147, main_v148, main_v149, main_c_34, main_v150, main_v151, main_c_35, main_v152, main_v153, main_v154, main_v155, main_v156, main_v157, main_c_36, main_v158, main_v159, main_c_37, main_v160, main_v161, main_v162, main_v163, main_v164, main_v165, main_v166, main_v167, main_cst_38, main_v168, main_v169, main_v170, main_v171, main_v172, main_v173, main_v174, main_v175, main_v176, main_v177, main_v178, main_call5_cst, main_call5_v0, main_v179, main_cst_39, main_v180, main_v181, main_v182, main_cst_40, main_v183, main_v184, main_v185, main_cst_41, main_v186, main_v187, main_v188, main_cst_42, main_v189, main_v190, main_v191]
set_option maxHeartbeats 0 in
set_option maxRecDepth 8192 in
theorem opsC_writes : (opsC : List (HloOp τ sig (Elt F))).Forall fun op => op.writes ⊆ (WC.map (Proc.devRef (τ := τ) .tc)).toFinset :=
  ⟨writes_sub_of_mem main_v131 rfl (by decide),
   writes_sub_of_mem main_v132 rfl (by decide),
   writes_sub_of_mem main_v133 rfl (by decide),
   writes_sub_of_mem main_cst_28 rfl (by decide),
   writes_sub_of_mem main_v134 rfl (by decide),
   writes_sub_of_mem main_cst_29 rfl (by decide),
   writes_sub_of_mem main_v135 rfl (by decide),
   writes_sub_of_mem main_v136 rfl (by decide),
   writes_sub_of_mem main_v137 rfl (by decide),
   writes_sub_of_mem main_cst_30 rfl (by decide),
   writes_sub_of_mem main_v138 rfl (by decide),
   writes_sub_of_mem main_v139 rfl (by decide),
   writes_sub_of_mem main_v140 rfl (by decide),
   writes_sub_of_mem main_cst_31 rfl (by decide),
   writes_sub_of_mem main_call4_v0 rfl (by decide),
   writes_sub_of_mem main_call4_v1 rfl (by decide),
   writes_sub_of_mem main_v141 rfl (by decide),
   writes_sub_of_mem main_v142 rfl (by decide),
   writes_sub_of_mem main_c_32 rfl (by decide),
   writes_sub_of_mem main_v143 rfl (by decide),
   writes_sub_of_mem main_v144 rfl (by decide),
   writes_sub_of_mem main_c_33 rfl (by decide),
   writes_sub_of_mem main_v145 rfl (by decide),
   writes_sub_of_mem main_v146 rfl (by decide),
   writes_sub_of_mem main_v147 rfl (by decide),
   writes_sub_of_mem main_v148 rfl (by decide),
   writes_sub_of_mem main_v149 rfl (by decide),
   writes_sub_of_mem main_c_34 rfl (by decide),
   writes_sub_of_mem main_v150 rfl (by decide),
   writes_sub_of_mem main_v151 rfl (by decide),
   writes_sub_of_mem main_c_35 rfl (by decide),
   writes_sub_of_mem main_v152 rfl (by decide),
   writes_sub_of_mem main_v153 rfl (by decide),
   writes_sub_of_mem main_v154 rfl (by decide),
   writes_sub_of_mem main_v155 rfl (by decide),
   writes_sub_of_mem main_v156 rfl (by decide),
   writes_sub_of_mem main_v157 rfl (by decide),
   writes_sub_of_mem main_c_36 rfl (by decide),
   writes_sub_of_mem main_v158 rfl (by decide),
   writes_sub_of_mem main_v159 rfl (by decide),
   writes_sub_of_mem main_c_37 rfl (by decide),
   writes_sub_of_mem main_v160 rfl (by decide),
   writes_sub_of_mem main_v161 rfl (by decide),
   writes_sub_of_mem main_v162 rfl (by decide),
   writes_sub_of_mem main_v163 rfl (by decide),
   writes_sub_of_mem main_v164 rfl (by decide),
   writes_sub_of_mem main_v165 rfl (by decide),
   writes_sub_of_mem main_v166 rfl (by decide),
   writes_sub_of_mem main_v167 rfl (by decide),
   writes_sub_of_mem main_cst_38 rfl (by decide),
   writes_sub_of_mem main_v168 rfl (by decide),
   writes_sub_of_mem main_v169 rfl (by decide),
   writes_sub_of_mem main_v170 rfl (by decide),
   writes_sub_of_mem main_v171 rfl (by decide),
   writes_sub_of_mem main_v172 rfl (by decide),
   writes_sub_of_mem main_v173 rfl (by decide),
   writes_sub_of_mem main_v174 rfl (by decide),
   writes_sub_of_mem main_v175 rfl (by decide),
   writes_sub_of_mem main_v176 rfl (by decide),
   writes_sub_of_mem main_v177 rfl (by decide),
   writes_sub_of_mem main_v178 rfl (by decide),
   writes_sub_of_mem main_call5_cst rfl (by decide),
   writes_sub_of_mem main_call5_v0 rfl (by decide),
   writes_sub_of_mem main_v179 rfl (by decide),
   writes_sub_of_mem main_cst_39 rfl (by decide),
   writes_sub_of_mem main_v180 rfl (by decide),
   writes_sub_of_mem main_v181 rfl (by decide),
   writes_sub_of_mem main_v182 rfl (by decide),
   writes_sub_of_mem main_cst_40 rfl (by decide),
   writes_sub_of_mem main_v183 rfl (by decide),
   writes_sub_of_mem main_v184 rfl (by decide),
   writes_sub_of_mem main_v185 rfl (by decide),
   writes_sub_of_mem main_cst_41 rfl (by decide),
   writes_sub_of_mem main_v186 rfl (by decide),
   writes_sub_of_mem main_v187 rfl (by decide),
   writes_sub_of_mem main_v188 rfl (by decide),
   writes_sub_of_mem main_cst_42 rfl (by decide),
   writes_sub_of_mem main_v189 rfl (by decide),
   writes_sub_of_mem main_v190 rfl (by decide),
   writes_sub_of_mem main_v191 rfl (by decide)⟩
/-- The references chunk D's operations write. -/
abbrev WD : List (Ref sig .tc) := [main_v192, main_v193, main_v194, main_cst_43, main_v195, main_cst_44, main_v196, main_v197, main_v198, main_cst_45, main_v199, main_v200, main_v201, main_cst_46, main_call6_v0, main_call6_v1, main_v202, main_v203, main_c_47, main_v204, main_v205, main_c_48, main_v206, main_v207, main_v208, main_v209, main_v210, main_c_49, main_v211, main_v212, main_c_50, main_v213, main_v214, main_v215, main_v216, main_v217, main_v218, main_c_51, main_v219, main_v220, main_c_52, main_v221, main_v222, main_v223, main_v224, main_v225, main_v226, main_v227, main_v228, main_cst_53, main_v229, main_v230, main_v231, main_v232, main_v233, main_v234, main_v235, main_v236, main_v237, main_v238, main_v239, main_call7_cst, main_call7_v0, main_v240, main_cst_54, main_v241, main_v242, main_v243, main_cst_55, main_v244, main_v245, main_v246, main_cst_56, main_v247, main_v248, main_v249, main_cst_57, main_v250, main_v251, main_v252]
set_option maxHeartbeats 0 in
set_option maxRecDepth 8192 in
theorem opsD_writes : (opsD : List (HloOp τ sig (Elt F))).Forall fun op => op.writes ⊆ (WD.map (Proc.devRef (τ := τ) .tc)).toFinset :=
  ⟨writes_sub_of_mem main_v192 rfl (by decide),
   writes_sub_of_mem main_v193 rfl (by decide),
   writes_sub_of_mem main_v194 rfl (by decide),
   writes_sub_of_mem main_cst_43 rfl (by decide),
   writes_sub_of_mem main_v195 rfl (by decide),
   writes_sub_of_mem main_cst_44 rfl (by decide),
   writes_sub_of_mem main_v196 rfl (by decide),
   writes_sub_of_mem main_v197 rfl (by decide),
   writes_sub_of_mem main_v198 rfl (by decide),
   writes_sub_of_mem main_cst_45 rfl (by decide),
   writes_sub_of_mem main_v199 rfl (by decide),
   writes_sub_of_mem main_v200 rfl (by decide),
   writes_sub_of_mem main_v201 rfl (by decide),
   writes_sub_of_mem main_cst_46 rfl (by decide),
   writes_sub_of_mem main_call6_v0 rfl (by decide),
   writes_sub_of_mem main_call6_v1 rfl (by decide),
   writes_sub_of_mem main_v202 rfl (by decide),
   writes_sub_of_mem main_v203 rfl (by decide),
   writes_sub_of_mem main_c_47 rfl (by decide),
   writes_sub_of_mem main_v204 rfl (by decide),
   writes_sub_of_mem main_v205 rfl (by decide),
   writes_sub_of_mem main_c_48 rfl (by decide),
   writes_sub_of_mem main_v206 rfl (by decide),
   writes_sub_of_mem main_v207 rfl (by decide),
   writes_sub_of_mem main_v208 rfl (by decide),
   writes_sub_of_mem main_v209 rfl (by decide),
   writes_sub_of_mem main_v210 rfl (by decide),
   writes_sub_of_mem main_c_49 rfl (by decide),
   writes_sub_of_mem main_v211 rfl (by decide),
   writes_sub_of_mem main_v212 rfl (by decide),
   writes_sub_of_mem main_c_50 rfl (by decide),
   writes_sub_of_mem main_v213 rfl (by decide),
   writes_sub_of_mem main_v214 rfl (by decide),
   writes_sub_of_mem main_v215 rfl (by decide),
   writes_sub_of_mem main_v216 rfl (by decide),
   writes_sub_of_mem main_v217 rfl (by decide),
   writes_sub_of_mem main_v218 rfl (by decide),
   writes_sub_of_mem main_c_51 rfl (by decide),
   writes_sub_of_mem main_v219 rfl (by decide),
   writes_sub_of_mem main_v220 rfl (by decide),
   writes_sub_of_mem main_c_52 rfl (by decide),
   writes_sub_of_mem main_v221 rfl (by decide),
   writes_sub_of_mem main_v222 rfl (by decide),
   writes_sub_of_mem main_v223 rfl (by decide),
   writes_sub_of_mem main_v224 rfl (by decide),
   writes_sub_of_mem main_v225 rfl (by decide),
   writes_sub_of_mem main_v226 rfl (by decide),
   writes_sub_of_mem main_v227 rfl (by decide),
   writes_sub_of_mem main_v228 rfl (by decide),
   writes_sub_of_mem main_cst_53 rfl (by decide),
   writes_sub_of_mem main_v229 rfl (by decide),
   writes_sub_of_mem main_v230 rfl (by decide),
   writes_sub_of_mem main_v231 rfl (by decide),
   writes_sub_of_mem main_v232 rfl (by decide),
   writes_sub_of_mem main_v233 rfl (by decide),
   writes_sub_of_mem main_v234 rfl (by decide),
   writes_sub_of_mem main_v235 rfl (by decide),
   writes_sub_of_mem main_v236 rfl (by decide),
   writes_sub_of_mem main_v237 rfl (by decide),
   writes_sub_of_mem main_v238 rfl (by decide),
   writes_sub_of_mem main_v239 rfl (by decide),
   writes_sub_of_mem main_call7_cst rfl (by decide),
   writes_sub_of_mem main_call7_v0 rfl (by decide),
   writes_sub_of_mem main_v240 rfl (by decide),
   writes_sub_of_mem main_cst_54 rfl (by decide),
   writes_sub_of_mem main_v241 rfl (by decide),
   writes_sub_of_mem main_v242 rfl (by decide),
   writes_sub_of_mem main_v243 rfl (by decide),
   writes_sub_of_mem main_cst_55 rfl (by decide),
   writes_sub_of_mem main_v244 rfl (by decide),
   writes_sub_of_mem main_v245 rfl (by decide),
   writes_sub_of_mem main_v246 rfl (by decide),
   writes_sub_of_mem main_cst_56 rfl (by decide),
   writes_sub_of_mem main_v247 rfl (by decide),
   writes_sub_of_mem main_v248 rfl (by decide),
   writes_sub_of_mem main_v249 rfl (by decide),
   writes_sub_of_mem main_cst_57 rfl (by decide),
   writes_sub_of_mem main_v250 rfl (by decide),
   writes_sub_of_mem main_v251 rfl (by decide),
   writes_sub_of_mem main_v252 rfl (by decide)⟩
/-- The references chunk E's operations write. -/
abbrev WE : List (Ref sig .tc) := [main_v253, main_v254, main_v255, main_cst_58, main_v256, main_cst_59, main_v257, main_v258, main_v259, main_cst_60, main_v260, main_v261, main_v262, main_cst_61, main_call8_v0, main_call8_v1, main_v263, main_v264, main_c_62, main_v265, main_v266, main_c_63, main_v267, main_v268, main_v269, main_v270, main_v271, main_c_64, main_v272, main_v273, main_c_65, main_v274, main_v275, main_v276, main_v277, main_v278, main_v279, main_c_66, main_v280, main_v281, main_c_67, main_v282, main_v283, main_v284, main_v285, main_v286, main_v287, main_v288, main_v289, main_cst_68, main_v290, main_v291, main_v292, main_v293, main_v294, main_v295, main_v296, main_v297, main_v298, main_v299, main_v300, main_call9_cst, main_call9_v0, main_v301, main_cst_69, main_v302, main_v303, main_v304, main_cst_70, main_v305, main_v306, main_v307, main_cst_71, main_v308, main_v309, main_v310, main_cst_72, main_v311, main_v312, main_v313]
set_option maxHeartbeats 0 in
set_option maxRecDepth 8192 in
theorem opsE_writes : (opsE : List (HloOp τ sig (Elt F))).Forall fun op => op.writes ⊆ (WE.map (Proc.devRef (τ := τ) .tc)).toFinset :=
  ⟨writes_sub_of_mem main_v253 rfl (by decide),
   writes_sub_of_mem main_v254 rfl (by decide),
   writes_sub_of_mem main_v255 rfl (by decide),
   writes_sub_of_mem main_cst_58 rfl (by decide),
   writes_sub_of_mem main_v256 rfl (by decide),
   writes_sub_of_mem main_cst_59 rfl (by decide),
   writes_sub_of_mem main_v257 rfl (by decide),
   writes_sub_of_mem main_v258 rfl (by decide),
   writes_sub_of_mem main_v259 rfl (by decide),
   writes_sub_of_mem main_cst_60 rfl (by decide),
   writes_sub_of_mem main_v260 rfl (by decide),
   writes_sub_of_mem main_v261 rfl (by decide),
   writes_sub_of_mem main_v262 rfl (by decide),
   writes_sub_of_mem main_cst_61 rfl (by decide),
   writes_sub_of_mem main_call8_v0 rfl (by decide),
   writes_sub_of_mem main_call8_v1 rfl (by decide),
   writes_sub_of_mem main_v263 rfl (by decide),
   writes_sub_of_mem main_v264 rfl (by decide),
   writes_sub_of_mem main_c_62 rfl (by decide),
   writes_sub_of_mem main_v265 rfl (by decide),
   writes_sub_of_mem main_v266 rfl (by decide),
   writes_sub_of_mem main_c_63 rfl (by decide),
   writes_sub_of_mem main_v267 rfl (by decide),
   writes_sub_of_mem main_v268 rfl (by decide),
   writes_sub_of_mem main_v269 rfl (by decide),
   writes_sub_of_mem main_v270 rfl (by decide),
   writes_sub_of_mem main_v271 rfl (by decide),
   writes_sub_of_mem main_c_64 rfl (by decide),
   writes_sub_of_mem main_v272 rfl (by decide),
   writes_sub_of_mem main_v273 rfl (by decide),
   writes_sub_of_mem main_c_65 rfl (by decide),
   writes_sub_of_mem main_v274 rfl (by decide),
   writes_sub_of_mem main_v275 rfl (by decide),
   writes_sub_of_mem main_v276 rfl (by decide),
   writes_sub_of_mem main_v277 rfl (by decide),
   writes_sub_of_mem main_v278 rfl (by decide),
   writes_sub_of_mem main_v279 rfl (by decide),
   writes_sub_of_mem main_c_66 rfl (by decide),
   writes_sub_of_mem main_v280 rfl (by decide),
   writes_sub_of_mem main_v281 rfl (by decide),
   writes_sub_of_mem main_c_67 rfl (by decide),
   writes_sub_of_mem main_v282 rfl (by decide),
   writes_sub_of_mem main_v283 rfl (by decide),
   writes_sub_of_mem main_v284 rfl (by decide),
   writes_sub_of_mem main_v285 rfl (by decide),
   writes_sub_of_mem main_v286 rfl (by decide),
   writes_sub_of_mem main_v287 rfl (by decide),
   writes_sub_of_mem main_v288 rfl (by decide),
   writes_sub_of_mem main_v289 rfl (by decide),
   writes_sub_of_mem main_cst_68 rfl (by decide),
   writes_sub_of_mem main_v290 rfl (by decide),
   writes_sub_of_mem main_v291 rfl (by decide),
   writes_sub_of_mem main_v292 rfl (by decide),
   writes_sub_of_mem main_v293 rfl (by decide),
   writes_sub_of_mem main_v294 rfl (by decide),
   writes_sub_of_mem main_v295 rfl (by decide),
   writes_sub_of_mem main_v296 rfl (by decide),
   writes_sub_of_mem main_v297 rfl (by decide),
   writes_sub_of_mem main_v298 rfl (by decide),
   writes_sub_of_mem main_v299 rfl (by decide),
   writes_sub_of_mem main_v300 rfl (by decide),
   writes_sub_of_mem main_call9_cst rfl (by decide),
   writes_sub_of_mem main_call9_v0 rfl (by decide),
   writes_sub_of_mem main_v301 rfl (by decide),
   writes_sub_of_mem main_cst_69 rfl (by decide),
   writes_sub_of_mem main_v302 rfl (by decide),
   writes_sub_of_mem main_v303 rfl (by decide),
   writes_sub_of_mem main_v304 rfl (by decide),
   writes_sub_of_mem main_cst_70 rfl (by decide),
   writes_sub_of_mem main_v305 rfl (by decide),
   writes_sub_of_mem main_v306 rfl (by decide),
   writes_sub_of_mem main_v307 rfl (by decide),
   writes_sub_of_mem main_cst_71 rfl (by decide),
   writes_sub_of_mem main_v308 rfl (by decide),
   writes_sub_of_mem main_v309 rfl (by decide),
   writes_sub_of_mem main_v310 rfl (by decide),
   writes_sub_of_mem main_cst_72 rfl (by decide),
   writes_sub_of_mem main_v311 rfl (by decide),
   writes_sub_of_mem main_v312 rfl (by decide),
   writes_sub_of_mem main_v313 rfl (by decide)⟩
/-- The references chunk Z's operations write. -/
abbrev WZ : List (Ref sig .tc) := [main_v314, main_v315, main_v316, main_v317, main_cst_73, main_v318, main_v319, main_v320, main_v321]
set_option maxHeartbeats 0 in
set_option maxRecDepth 8192 in
theorem opsZ_writes : (opsZ : List (HloOp τ sig (Elt F))).Forall fun op => op.writes ⊆ (WZ.map (Proc.devRef (τ := τ) .tc)).toFinset :=
  ⟨writes_sub_of_mem main_v314 rfl (by decide),
   writes_sub_of_mem main_v315 rfl (by decide),
   writes_sub_of_mem main_v316 rfl (by decide),
   writes_sub_of_mem main_v317 rfl (by decide),
   writes_sub_of_mem main_cst_73 rfl (by decide),
   writes_sub_of_mem main_v318 rfl (by decide),
   writes_sub_of_mem main_v319 rfl (by decide),
   writes_sub_of_mem main_v320 rfl (by decide),
   writes_sub_of_mem main_v321 rfl (by decide)⟩

/-- A reference no chunk writes keeps its contents through the whole line. -/
theorem after_ops_of (V : Valuation τ sig (Elt F)) (r : Ref sig .tc) (hA : r ∉ WA) (hB : r ∉ WB) (hC : r ∉ WC) (hD : r ∉ WD) (hE : r ∉ WE) (hZ : r ∉ WZ) :
    after (ops (F := F)) V (Proc.devRef .tc r) = V (Proc.devRef .tc r) := by
  show after (opsA ++ (opsB ++ (opsC ++ (opsD ++ (opsE ++ opsZ))))) V (Proc.devRef .tc r) = _
  rw [after_concat, after_concat, after_concat, after_concat, after_concat,
    after_of_writes_sub opsZ _ opsZ_writes hZ, after_of_writes_sub opsE _ opsE_writes hE, after_of_writes_sub opsD _ opsD_writes hD,
    after_of_writes_sub opsC _ opsC_writes hC, after_of_writes_sub opsB _ opsB_writes hB, after_of_writes_sub opsA _ opsA_writes hA]

/-- No argument of @main is written. -/
theorem arg_kept (V : Valuation τ sig (Elt F)) (r : Ref sig .tc)
    (h : r ∈ ([main_arg0, main_arg1, main_arg2, main_arg3, main_arg4, main_arg5, main_arg6, main_arg7, main_arg8, main_arg9, main_arg10, main_arg11] : List (Ref sig .tc))) :
    after (ops (F := F)) V (Proc.devRef .tc r) = V (Proc.devRef .tc r) := by
  simp only [List.mem_cons, List.not_mem_nil, or_false] at h
  rcases h with rfl | rfl | rfl | rfl | rfl | rfl | rfl | rfl | rfl | rfl | rfl | rfl <;>
    exact after_ops_of V _ (by decide) (by decide) (by decide) (by decide) (by decide) (by decide)

/-! ## The run: the arguments are unchanged -/

/-- Every weakly fair execution of @main terminates with every TensorCore buffer at the fold of the operations over its
    launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

/-- and with the twelve arguments unchanged. -/
theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_arg0).trans (arg_kept _ main_arg0 (by decide)),
      (h c main_arg1).trans (arg_kept _ main_arg1 (by decide)),
      (h c main_arg2).trans (arg_kept _ main_arg2 (by decide)),
      (h c main_arg3).trans (arg_kept _ main_arg3 (by decide)),
      (h c main_arg4).trans (arg_kept _ main_arg4 (by decide)),
      (h c main_arg5).trans (arg_kept _ main_arg5 (by decide)),
      (h c main_arg6).trans (arg_kept _ main_arg6 (by decide)),
      (h c main_arg7).trans (arg_kept _ main_arg7 (by decide)),
      (h c main_arg8).trans (arg_kept _ main_arg8 (by decide)),
      (h c main_arg9).trans (arg_kept _ main_arg9 (by decide)),
      (h c main_arg10).trans (arg_kept _ main_arg10 (by decide)),
      (h c main_arg11).trans (arg_kept _ main_arg11 (by decide))⟩)
    (run_after m ρ)

end Cert.ReferenceIdeal.RunC

end
-- ==== Proof.RefSpecDefs.lean ====
/-
  THE REFERENCE AS PLAIN MATHEMATICS, index by index, over the extended reals and the literal shapes.

  A graph of 50000 nodes and 800000 directed edges `(src e, dst e)`, given as the two rows of an integer array
  `ei : [2, 800000]`. Every layer first appends one self-loop per node: edge `800000 + v` goes from `v` to `v`
  (`src2`, `dst2`, 850000 edges). An edge's endpoint is used in two ways:

  * as the TARGET of an accumulation it is read as a signed integer and NOT clamped: an endpoint outside
    `[0, 50000)` adds to no node;
  * as the SOURCE of a read it is first normalised (a negative value has 50000 added, in 32-bit arithmetic) and then
    read signed and clamped into `[0, 49999]` (`rowOf`).

  One layer, for node features `X, Y : [50000, 64]`:

      deg v       = 0 + ∑ e, [dst2 e = v] · 1                      the in-degree, self-loop included
      dinv v      = if 0 < deg v then rsqrt (deg v) else 0
      hW (v, j)   = ∑ c, X (v, c) · W (c, j)
      norm e      = dinv (rowOf (src2 e)) · dinv (rowOf (dst2 e))
      msg (e, j)  = hW (rowOf (src2 e), j) · norm e
      agg (v, j)  = (0 + ∑ e, [dst2 e = v] · msg (e, j)) + b j
      out (v, j)  = max (agg (v, j) + (∑ c, X (v, c) · Wr (c, j) + br j)) 0
      Y' (v, j)   = Y (v, j) + 1 · ((out (v, j) − 1 · Y (v, j)) − 1 · X (v, j))
      X' (v, j)   = X (v, j) + 1 · Y' (v, j)

  where `1` is the single-precision word of one, kept as that word (`one32`) and never evaluated. Before the layers
  `X = Y = enc`, the 14 + 2 input columns times the encoder matrix plus its bias; after them each node's features are
  contracted with the decoder column plus its bias, and the results are summed per graph of the batch (`refOut`).
  Sums of extended reals are taken in the commutative monoid `EReal`; no finiteness is assumed anywhere.
-/
import Idealize.ShloMosaic.PureOps.Ideal
import Idealize.ShloMosaic.Lib.ValueIdx

noncomputable section

open scoped BigOperators

namespace Cert.ReferenceIdeal.RefValue

open Idealize.ShloMosaic Idealize.ShloMosaic.ValueIdx

/-- The single-precision word of one, as the extended real it denotes. -/
abbrev one32 : EReal := Ideal.ofBits .f32 0x3F800000#32

/-! ## The edge list with self-loops -/

/-- Sources: edge `r < 800000` has source `ei (0, r)`; edge `800000 + v` is node `v`'s self-loop. -/
def src2 (ei : IVec ⟨2, ![2, 800000]⟩ 32) (r : Fin 850000) : BitVec 32 :=
  if h : r.val < 800000 then ei (ix2 (0 : Fin 2) (⟨r.val, h⟩ : Fin 800000)) else BitVec.ofNat 32 (r.val - 800000)

/-- Targets: edge `r < 800000` has target `ei (1, r)`; edge `800000 + v` is node `v`'s self-loop. -/
def dst2 (ei : IVec ⟨2, ![2, 800000]⟩ 32) (r : Fin 850000) : BitVec 32 :=
  if h : r.val < 800000 then ei (ix2 (1 : Fin 2) (⟨r.val, h⟩ : Fin 800000)) else BitVec.ofNat 32 (r.val - 800000)

/-- An endpoint normalised for reading: a negative value has 50000 added (32-bit arithmetic). -/
def normIdx (b : BitVec 32) : BitVec 32 := if b.toInt < 0 then b + 50000#32 else b

/-- The node an endpoint READS: normalised, then read signed and clamped into `[0, 49999]`. -/
def rowOf (b : BitVec 32) : Fin 50000 := ⟨min (normIdx b).toInt.toNat 49999, by omega⟩

/-! ## One layer -/

/-- The in-degree with self-loops: the number of edges whose target, read signed, is `v`. -/
def refDeg (ei : IVec ⟨2, ![2, 800000]⟩ 32) (v : Fin 50000) : EReal :=
  0 + ∑ r : Fin 850000, (if (dst2 ei r).toInt = (v.val : Int) then one32 else 0)

/-- The inverse square root of the degree, and `0` where the degree is not positive. -/
def refDinv (ei : IVec ⟨2, ![2, 800000]⟩ 32) (v : Fin 50000) : EReal :=
  if 0 < refDeg ei v then Ideal.rsqrt (refDeg ei v) else 0

/-- A `[50000, 64]` array times a `[64, 64]` matrix, at `(v, j)`. -/
def refMatmul (X : FVec Ideal ⟨2, ![50000, 64]⟩ .f32) (W : FVec Ideal ⟨2, ![64, 64]⟩ .f32) (v : Fin 50000) (j : Fin 64) :
    EReal :=
  ∑ c : Fin 64, X (ix2 v c) * W (ix2 c j)

/-- The symmetric normalisation of edge `r`: the product of its two endpoints' inverse square root degrees. -/
def refNorm (ei : IVec ⟨2, ![2, 800000]⟩ 32) (r : Fin 850000) : EReal :=
  refDinv ei (rowOf (src2 ei r)) * refDinv ei (rowOf (dst2 ei r))

/-- The message along edge `r`, column `j`: the transformed features of its source, normalised. -/
def refMsg (ei : IVec ⟨2, ![2, 800000]⟩ 32) (X : FVec Ideal ⟨2, ![50000, 64]⟩ .f32) (W : FVec Ideal ⟨2, ![64, 64]⟩ .f32)
    (r : Fin 850000) (j : Fin 64) : EReal :=
  refMatmul X W (rowOf (src2 ei r)) j * refNorm ei r

/-- The aggregation at node `v`, column `j`: the messages of the edges whose target is `v`, plus the bias. -/
def refAgg (ei : IVec ⟨2, ![2, 800000]⟩ 32) (X : FVec Ideal ⟨2, ![50000, 64]⟩ .f32) (W : FVec Ideal ⟨2, ![64, 64]⟩ .f32)
    (b : FVec Ideal ⟨1, ![64]⟩ .f32) (v : Fin 50000) (j : Fin 64) : EReal :=
  (0 + ∑ r : Fin 850000, (if (dst2 ei r).toInt = (v.val : Int) then refMsg ei X W r j else 0)) + b (ix1 j)

/-- The layer's nonlinearity: the aggregation plus the residual map of `X`, cut off below at `0`. -/
def refRelu (ei : IVec ⟨2, ![2, 800000]⟩ 32) (X : FVec Ideal ⟨2, ![50000, 64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32) (v : Fin 50000) (j : Fin 64) : EReal :=
  max (refAgg ei X W b v j + (refMatmul X Wr v j + br (ix1 j))) 0

/-- The layer's new `Y`. -/
def refLayerY (ei : IVec ⟨2, ![2, 800000]⟩ 32) (X Y : FVec Ideal ⟨2, ![50000, 64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32) :
    FVec Ideal ⟨2, ![50000, 64]⟩ .f32 :=
  fun i => Y i + one32 * ((refRelu ei X W b Wr br (i 0) (i 1) - one32 * Y i) - one32 * X i)

/-- The layer's new `X`. -/
def refLayerX (ei : IVec ⟨2, ![2, 800000]⟩ 32) (X Y : FVec Ideal ⟨2, ![50000, 64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32) :
    FVec Ideal ⟨2, ![50000, 64]⟩ .f32 :=
  fun i => X i + one32 * refLayerY ei X Y W b Wr br i

/-! ## Before and after the layers -/

/-- The encoder: the 14 columns of `x` and the 2 of `pos` side by side, times the `[16, 64]` matrix, plus the bias. -/
def refEnc (x : FVec Ideal ⟨2, ![50000, 14]⟩ .f32) (pos : FVec Ideal ⟨2, ![50000, 2]⟩ .f32)
    (We : FVec Ideal ⟨2, ![16, 64]⟩ .f32) (be : FVec Ideal ⟨1, ![64]⟩ .f32) : FVec Ideal ⟨2, ![50000, 64]⟩ .f32 :=
  fun i => (∑ c : Fin 16,
      (if h : c.val < 14 then x (ix2 (i 0) (⟨c.val, h⟩ : Fin 14))
        else pos (ix2 (i 0) (⟨c.val - 14, by omega⟩ : Fin 2))) * We (ix2 c (i 1))) + be (ix1 (i 1))

/-- The decoder and the per-graph sum: graph `g`'s value is the sum, over the nodes whose batch number (read signed)
    is `g`, of the node's features contracted with the decoder column plus its bias. -/
def refOut (X : FVec Ideal ⟨2, ![50000, 64]⟩ .f32) (Wd : FVec Ideal ⟨2, ![64, 1]⟩ .f32) (bd : FVec Ideal ⟨1, ![1]⟩ .f32)
    (batch : IVec ⟨1, ![50000]⟩ 32) : FVec Ideal ⟨1, ![500]⟩ .f32 :=
  fun g => 0 + ∑ v : Fin 50000, (if (batch (ix1 v)).toInt = ((g 0).val : Int)
    then (∑ c : Fin 64, X (ix2 v c) * Wd (ix2 c (0 : Fin 1))) + bd (ix1 (0 : Fin 1)) else 0)

end Cert.ReferenceIdeal.RefValue

end
-- ==== Proof.LibGcnNormalize.lean ====
/-
  The symmetric normalization of a graph convolution, folded.

  A graph convolution with self-loops aggregates, at a node `i`, the messages `h (src e) * (r (src e) * r (dst e))`
  of every edge `e` that lands on `i`, the edges being the real edges followed by one loop `n → n` per node, and
  `r n` the reciprocal square root of the node's degree (its incoming real edges plus its own loop). The factor
  `r i` is the same on every edge that lands on `i`, and the loop on `i` contributes `h i * (r i * r i)`, so the
  aggregate is `r i * ((the sum over the real edges landing on i of h (src e) * r (src e)) + h i * r i)`.

  Everything here is over the extended reals, where multiplication does not distribute over addition in general
  (an infinite factor against terms of opposite infinite signs); it does when the factor is a nonnegative REAL number,
  which a reciprocal square root of a degree that counts the self-loop (so is at least one) always is. The file has
  three parts: the fold over abstract finite index types and over `Fin`-indexed concatenated edge lists; the degree
  as a real number at least one; and the reciprocal square root of such a degree, with the units `0 + x`, `1 * x`,
  `x * 1` as the ideal float operations spell them.
-/
import Mathlib.Data.EReal.Basic
import Mathlib.Data.EReal.Operations
import Idealize.ShloMosaic.PureOps.Ideal
import Idealize.ShloMosaic.PureOps.Ideal.Laws

open scoped BigOperators

namespace GcnNormalize

/-! ## A nonnegative real factor distributes over sums of extended reals -/

/-- A nonnegative real factor distributes over the sum of two extended reals, whatever they are (infinite, or of
    opposite signs): the factor is finite and not negative, so no `⊤ + ⊥` is created or destroyed. -/
theorem coe_mul_add {c : ℝ} (hc : 0 ≤ c) (y z : EReal) :
    (c : EReal) * (y + z) = (c : EReal) * y + (c : EReal) * z :=
  EReal.left_distrib_of_nonneg_of_ne_top (EReal.coe_nonneg.mpr hc) (EReal.coe_ne_top c) y z

/-- The same with the factor on the right. -/
theorem add_mul_coe {c : ℝ} (hc : 0 ≤ c) (y z : EReal) :
    (y + z) * (c : EReal) = y * (c : EReal) + z * (c : EReal) :=
  EReal.right_distrib_of_nonneg_of_ne_top (EReal.coe_nonneg.mpr hc) (EReal.coe_ne_top c) y z

/-- A nonnegative real factor distributes over a finite sum of extended reals, term by term. -/
theorem coe_mul_sum {ι : Type*} {c : ℝ} (hc : 0 ≤ c) (s : Finset ι) (f : ι → EReal) :
    (c : EReal) * ∑ k ∈ s, f k = ∑ k ∈ s, (c : EReal) * f k := by
  classical
  induction s using Finset.induction_on with
  | empty => simp
  | insert a s ha ih => rw [Finset.sum_insert ha, Finset.sum_insert ha, coe_mul_add hc, ih]

/-- The same with the factor on the right. -/
theorem sum_mul_coe {ι : Type*} {c : ℝ} (hc : 0 ≤ c) (s : Finset ι) (f : ι → EReal) :
    (∑ k ∈ s, f k) * (c : EReal) = ∑ k ∈ s, f k * (c : EReal) := by
  rw [mul_comm, coe_mul_sum hc]
  exact Finset.sum_congr rfl fun k _ => mul_comm _ _

/-! ## The fold over abstract finite index types -/

/-- THE FOLD. `E` indexes the real edges, `N` the nodes; `hit e i` says that edge `e` lands on node `i`, `s e` is
    the edge's source, `h` the node features (one column of them) and `r` the nodes' normalization factors,
    nonnegative reals. The factor of the destination times (the real edges' scaled messages summed, plus the node's
    own scaled feature) is the sum of the fully normalized messages of the real edges plus the fully normalized
    self-loop message. -/
theorem agg_fold {E N : Type*} [Fintype E] (hit : E → N → Prop) [∀ e n, Decidable (hit e n)]
    (s : E → N) (h : N → EReal) (r : N → ℝ) (hr : ∀ n, 0 ≤ r n) (i : N) :
    (r i : EReal) * ((∑ e, if hit e i then h (s e) * (r (s e) : EReal) else 0) + h i * (r i : EReal))
      = (∑ e, if hit e i then h (s e) * ((r (s e) : EReal) * (r i : EReal)) else 0)
        + h i * ((r i : EReal) * (r i : EReal)) := by
  rw [coe_mul_add (hr i), coe_mul_sum (hr i)]
  congr 1
  · refine Finset.sum_congr rfl fun e _ => ?_
    rw [mul_ite, mul_zero, mul_comm (r i : EReal), mul_assoc]
  · rw [mul_comm (r i : EReal), mul_assoc]

/-- The fold where the reference reads the destination's factor through the edge's own destination index `d e`
    (a gather by the destination list), which is `i` on every edge that lands on `i`. -/
theorem agg_fold_dst {E N : Type*} [Fintype E] (hit : E → N → Prop) [∀ e n, Decidable (hit e n)]
    (s d : E → N) (h : N → EReal) (r : N → ℝ) (hr : ∀ n, 0 ≤ r n) (i : N) (hd : ∀ e, hit e i → d e = i) :
    (r i : EReal) * ((∑ e, if hit e i then h (s e) * (r (s e) : EReal) else 0) + h i * (r i : EReal))
      = (∑ e, if hit e i then h (s e) * ((r (s e) : EReal) * (r (d e) : EReal)) else 0)
        + h i * ((r i : EReal) * (r i : EReal)) := by
  rw [agg_fold hit s h r hr i]
  congr 1
  refine Finset.sum_congr rfl fun e _ => ?_
  by_cases he : hit e i
  · rw [if_pos he, if_pos he, hd e he]
  · rw [if_neg he, if_neg he]

/-! ## The same over concatenated index lists

The reference lists the real edges first and one loop per node after them, so its sums run over `Fin c` with
`c = a + b` (`a` real edges, `b` nodes). An accumulating scatter read at node `i` keeps the rows whose index, a signed
integer read from a bit vector, is `i`; on the loop rows that index is the node's own number, so the row of node `n`
is kept exactly when `n = i`. -/

/-- A sum over `Fin c` with `c = a + b` is the sum over the first `a` indices plus the sum over the last `b`. -/
theorem sum_fin_concat {M : Type*} [AddCommMonoid M] {a b c : ℕ} (hc : c = a + b) (f : Fin c → M) :
    ∑ k : Fin c, f k
      = (∑ e : Fin a, f ⟨e.val, by have := e.isLt; omega⟩)
        + ∑ n : Fin b, f ⟨a + n.val, by have := n.isLt; omega⟩ := by
  subst hc
  rw [Fin.sum_univ_add]
  rfl

/-- A sum that keeps only the term of one index is that term (the loop rows read at a node). -/
theorem sum_ite_eq_self {ι M : Type*} [Fintype ι] [DecidableEq ι] [AddCommMonoid M] (i : ι) (g : ι → M) :
    (∑ n : ι, if n = i then g n else 0) = g i := by
  rw [Finset.sum_ite_eq' Finset.univ i g, if_pos (Finset.mem_univ i)]

/-- The fold with the self-loops as a second sum: the right side is the reference's aggregate, real edges and loops,
    before the two lists are laid end to end. -/
theorem agg_fold_loops {E N : Type*} [Fintype E] [Fintype N] [DecidableEq N] (hit : E → N → Prop)
    [∀ e n, Decidable (hit e n)] (s d : E → N) (h : N → EReal) (r : N → ℝ) (hr : ∀ n, 0 ≤ r n) (i : N)
    (hd : ∀ e, hit e i → d e = i) :
    (r i : EReal) * ((∑ e, if hit e i then h (s e) * (r (s e) : EReal) else 0) + h i * (r i : EReal))
      = (∑ e, if hit e i then h (s e) * ((r (s e) : EReal) * (r (d e) : EReal)) else 0)
        + ∑ n : N, if n = i then h n * ((r n : EReal) * (r n : EReal)) else 0 := by
  rw [agg_fold_dst hit s d h r hr i hd, sum_ite_eq_self i fun n => h n * ((r n : EReal) * (r n : EReal))]

/-- THE FOLD OVER THE CONCATENATED LIST. `ids e` is the destination of real edge `e` as the scatter reads it (a signed
    integer in a bit vector; the edge lands on `i` when it equals `i`'s number), `s e` and `d e` the nodes its source and
    destination gathers read (`d e = i` whenever the edge lands on `i`). `f` is the reference's list of `c = a + b`
    masked messages: on the first `a` rows the real edges' (`hedge`), on the last `b` rows the loops', row `a + n` being
    node `n`'s and kept exactly when `n = i` (`hloop`). The kernel's folded form equals the sum of that whole list. -/
theorem agg_fold_concat {a b c : ℕ} (hc : c = a + b) {w : ℕ} (ids : Fin a → BitVec w) (s d : Fin a → Fin b)
    (h : Fin b → EReal) (r : Fin b → ℝ) (hr : ∀ n, 0 ≤ r n) (i : Fin b)
    (hd : ∀ e, (ids e).toInt = (i.val : ℤ) → d e = i) (f : Fin c → EReal)
    (hedge : ∀ (k : Fin c) (e : Fin a), k.val = e.val →
      f k = if (ids e).toInt = (i.val : ℤ) then h (s e) * ((r (s e) : EReal) * (r (d e) : EReal)) else 0)
    (hloop : ∀ (k : Fin c) (n : Fin b), k.val = a + n.val →
      f k = if n = i then h n * ((r n : EReal) * (r n : EReal)) else 0) :
    (r i : EReal) * ((∑ e : Fin a, if (ids e).toInt = (i.val : ℤ) then h (s e) * (r (s e) : EReal) else 0)
        + h i * (r i : EReal))
      = ∑ k : Fin c, f k := by
  rw [sum_fin_concat hc f,
    agg_fold_loops (fun (e : Fin a) (n : Fin b) => (ids e).toInt = (n.val : ℤ)) s d h r hr i hd]
  congr 1
  · exact Finset.sum_congr rfl fun e _ => (hedge _ e rfl).symm
  · exact Finset.sum_congr rfl fun n _ => (hloop _ n rfl).symm

/-- The same with the list spelled by cases on `Fin (a + b)`: the real edges' masked messages on the first `a` indices,
    the loops' on the last `b`. -/
theorem agg_fold_addCases {a b : ℕ} {w : ℕ} (ids : Fin a → BitVec w) (s d : Fin a → Fin b)
    (h : Fin b → EReal) (r : Fin b → ℝ) (hr : ∀ n, 0 ≤ r n) (i : Fin b)
    (hd : ∀ e, (ids e).toInt = (i.val : ℤ) → d e = i) :
    (r i : EReal) * ((∑ e : Fin a, if (ids e).toInt = (i.val : ℤ) then h (s e) * (r (s e) : EReal) else 0)
        + h i * (r i : EReal))
      = ∑ k : Fin (a + b), Fin.addCases (motive := fun _ => EReal)
          (fun e : Fin a => if (ids e).toInt = (i.val : ℤ) then h (s e) * ((r (s e) : EReal) * (r (d e) : EReal)) else 0)
          (fun n : Fin b => if n = i then h n * ((r n : EReal) * (r n : EReal)) else 0) k := by
  refine agg_fold_concat rfl ids s d h r hr i hd _ (fun k e hk => ?_) (fun k n hk => ?_)
  · rw [show k = Fin.castAdd b e from Fin.ext hk, Fin.addCases_left]
  · rw [show k = Fin.natAdd a n from Fin.ext hk, Fin.addCases_right]

/-- A node's own number, written into a 32-bit word and read back as a signed integer, is that number (node counts
    are far below `2 ^ 31`). -/
theorem toInt_ofNat_of_lt {n : ℕ} (hn : n < 2 ^ 31) : (BitVec.ofNat 32 n).toInt = (n : ℤ) := by
  rw [BitVec.toInt_eq_toNat_cond, BitVec.toNat_ofNat, Nat.mod_eq_of_lt (by omega), if_pos (by omega)]

/-- So the loop row of node `n` lands on node `i` exactly when `n = i`. -/
theorem loop_hits_iff {b : ℕ} (hb : b ≤ 2 ^ 31) (n i : Fin b) :
    (BitVec.ofNat 32 n.val).toInt = (i.val : ℤ) ↔ n = i := by
  rw [toInt_ofNat_of_lt (lt_of_lt_of_le n.isLt hb)]
  constructor
  · intro hni; exact Fin.ext (by exact_mod_cast hni)
  · intro hni; rw [hni]

/-! ## The degree, a real number at least one

A node's degree is the number of list rows that land on it: a sum of ones. Counting the node's own loop it is the
number of incoming real edges plus one — a real number, at least one, whatever the edge list. -/

open Idealize.ShloMosaic

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum of ones over the indices that satisfy `p` is the number of those indices, a natural number read as a real. -/
theorem sum_ite_one {ι : Type*} [Fintype ι] (p : ι → Prop) [DecidablePred p] :
    (∑ e, if p e then (1 : EReal) else 0) = (((Finset.univ.filter p).card : ℝ) : EReal) := by
  have hterm : ∀ e, (if p e then (1 : EReal) else 0) = (((if p e then 1 else 0 : ℝ)) : EReal) := fun e => by
    by_cases he : p e
    · rw [if_pos he, if_pos he, EReal.coe_one]
    · rw [if_neg he, if_neg he, EReal.coe_zero]
  rw [Finset.sum_congr rfl fun e _ => hterm e, ← coe_sum, Finset.sum_boole]

/-- The degree that counts the self-loop — the real edges' ones summed, plus one — is the real number
    `(number of incoming real edges) + 1`. -/
theorem deg_eq_coe {ι : Type*} [Fintype ι] (p : ι → Prop) [DecidablePred p] :
    (∑ e, if p e then (1 : EReal) else 0) + 1 = ((((Finset.univ.filter p).card : ℝ) + 1 : ℝ) : EReal) := by
  rw [sum_ite_one, EReal.coe_add, EReal.coe_one]

/-- A count plus one is at least one, -/
theorem one_le_count_add_one (n : ℕ) : (1 : ℝ) ≤ (n : ℝ) + 1 := by
  have := Nat.cast_nonneg (α := ℝ) n
  linarith

/-- hence positive. -/
theorem count_add_one_pos (n : ℕ) : (0 : ℝ) < (n : ℝ) + 1 :=
  lt_of_lt_of_le one_pos (one_le_count_add_one n)

/-- The degree that counts the self-loop is at least one -/
theorem one_le_deg {ι : Type*} [Fintype ι] (p : ι → Prop) [DecidablePred p] :
    (1 : EReal) ≤ (∑ e, if p e then (1 : EReal) else 0) + 1 := by
  rw [deg_eq_coe, ← EReal.coe_one, EReal.coe_le_coe_iff]
  exact one_le_count_add_one _

/-- and so above zero. -/
theorem deg_pos {ι : Type*} [Fintype ι] (p : ι → Prop) [DecidablePred p] :
    (0 : EReal) < (∑ e, if p e then (1 : EReal) else 0) + 1 :=
  lt_of_lt_of_le one_pos (one_le_deg p)

/-- THE DEGREE OVER THE CONCATENATED LIST. `g` is the reference's list of `c = a + b` masked ones: on the first `a`
    rows a one where the real edge lands on `i`, on the last `b` rows a one on node `i`'s own row only. Its sum is the
    real edges' count plus one: the loop rows contribute exactly one. -/
theorem deg_concat {a b c : ℕ} (hc : c = a + b) {w : ℕ} (ids : Fin a → BitVec w) (i : Fin b) (g : Fin c → EReal)
    (hedge : ∀ (k : Fin c) (e : Fin a), k.val = e.val → g k = if (ids e).toInt = (i.val : ℤ) then 1 else 0)
    (hloop : ∀ (k : Fin c) (n : Fin b), k.val = a + n.val → g k = if n = i then 1 else 0) :
    ∑ k : Fin c, g k = (∑ e : Fin a, if (ids e).toInt = (i.val : ℤ) then (1 : EReal) else 0) + 1 := by
  rw [sum_fin_concat hc g]
  congr 1
  · exact Finset.sum_congr rfl fun e _ => hedge _ e rfl
  · rw [Finset.sum_congr rfl fun n _ => hloop _ n rfl]
    exact sum_ite_eq_self i fun _ => (1 : EReal)

/-! ## The reciprocal square root of such a degree

On the extended reals the reciprocal square root sends a positive real `x` to the real `1 / √x`, zero to `⊤`, `⊤` to
zero and everything negative to `⊥`. A degree that counts the self-loop is a positive real, so its reciprocal square
root is a nonnegative (indeed positive) real, and a guard "where the degree is positive, else zero" changes nothing. -/

/-- The reciprocal square root of a positive real is the real `(√x)⁻¹`. -/
theorem rsqrt_coe_of_pos {x : ℝ} (hx : 0 < x) : Ideal.rsqrt (x : EReal) = (((Real.sqrt x)⁻¹ : ℝ) : EReal) := by
  rw [Ideal.rsqrt_coe, if_neg (not_lt.mpr hx.le), if_neg hx.ne']

/-- That real is not negative, -/
theorem inv_sqrt_nonneg (x : ℝ) : 0 ≤ (Real.sqrt x)⁻¹ := inv_nonneg.mpr (Real.sqrt_nonneg x)

/-- and positive when `x` is. -/
theorem inv_sqrt_pos {x : ℝ} (hx : 0 < x) : 0 < (Real.sqrt x)⁻¹ := inv_pos.mpr (Real.sqrt_pos.mpr hx)

/-- The normalization factor of a node with `n` incoming real edges, as a real number: `1 / √(n + 1)`. -/
noncomputable def dinvReal (n : ℕ) : ℝ := (Real.sqrt ((n : ℝ) + 1))⁻¹

/-- It is not negative, -/
theorem dinvReal_nonneg (n : ℕ) : 0 ≤ dinvReal n := inv_sqrt_nonneg _

/-- indeed positive, -/
theorem dinvReal_pos (n : ℕ) : 0 < dinvReal n := inv_sqrt_pos (count_add_one_pos n)

/-- and at most one. -/
theorem dinvReal_le_one (n : ℕ) : dinvReal n ≤ 1 := by
  unfold dinvReal
  rw [inv_le_one_iff₀]
  right
  rw [Real.one_le_sqrt]
  exact one_le_count_add_one n

/-- THE FACTOR IS A NONNEGATIVE REAL: the reciprocal square root of the degree that counts the self-loop is the
    coercion of `dinvReal` of the number of incoming real edges. -/
theorem rsqrt_deg {ι : Type*} [Fintype ι] (p : ι → Prop) [DecidablePred p] :
    Ideal.rsqrt ((∑ e, if p e then (1 : EReal) else 0) + 1) = ((dinvReal (Finset.univ.filter p).card : ℝ) : EReal) := by
  rw [deg_eq_coe, rsqrt_coe_of_pos (count_add_one_pos _)]
  rfl

/-- Comparing "greater than zero" at a positive extended real answers true (the one-bit word `1`), -/
theorem cmp_ogt_zero_of_pos {d : EReal} (hd : 0 < d) : Ideal.cmp .ogt d 0 = 1#1 := by
  simp [Ideal.cmp, hd]

/-- so a guarded reciprocal square root, "where `d > 0` the reciprocal square root of `d`, else `z`", is the unguarded
    one at every positive `d`. -/
theorem select_rsqrt_of_pos {d : EReal} (hd : 0 < d) (z : EReal) :
    Scalar.select (Ideal.cmp .ogt d 0) (Ideal.rsqrt d) z = Ideal.rsqrt d := by
  rw [cmp_ogt_zero_of_pos hd]
  rfl

/-- The same as the float operations at `f32` spell it: comparison against the zero pattern, the host's reciprocal
    square root, the zero pattern as the other branch. -/
theorem where_rsqrt_of_pos {d : Ideal .f32} (hd : (0 : EReal) < d) :
    Scalar.select (FloatOps.cmpf .ogt d (FloatOps.ofBits (F := Ideal) .f32 0x00000000#32))
        (FloatOps.hostUnary .rsqrt d) (FloatOps.ofBits (F := Ideal) .f32 0x00000000#32)
      = Ideal.rsqrt d := by
  rw [Ideal.cmpf_def, Ideal.ofBits_def, Ideal.ofBits_zero_f32, Ideal.hostUnary_rsqrt_def]
  exact select_rsqrt_of_pos hd 0

/-- THE TWO FACTORS AGREE. The reference's factor at node `i` — the guarded reciprocal square root of the degree
    summed over the concatenated list — is the kernel's: the unguarded reciprocal square root of the real edges' count
    plus one. -/
theorem dinv_concat {a b c : ℕ} (hc : c = a + b) {w : ℕ} (ids : Fin a → BitVec w) (i : Fin b) (g : Fin c → EReal)
    (hedge : ∀ (k : Fin c) (e : Fin a), k.val = e.val → g k = if (ids e).toInt = (i.val : ℤ) then 1 else 0)
    (hloop : ∀ (k : Fin c) (n : Fin b), k.val = a + n.val → g k = if n = i then 1 else 0) (z : EReal) :
    Scalar.select (Ideal.cmp .ogt (∑ k : Fin c, g k) 0) (Ideal.rsqrt (∑ k : Fin c, g k)) z
      = Ideal.rsqrt ((∑ e : Fin a, if (ids e).toInt = (i.val : ℤ) then (1 : EReal) else 0) + 1) := by
  rw [deg_concat hc ids i g hedge hloop]
  exact select_rsqrt_of_pos (deg_pos _) z

/-! ## Units, as the float operations spell them

The reference multiplies by step and damping constants that are all `1.0` and starts its scatter sums from `0.0`.
On the extended reals `0 + x = x`, `1 * x = x` and `x * 1 = x` for every `x`, infinite or not. -/

/-- The `f32` pattern of `1.0` denotes the extended real one. -/
theorem ofBits_one_f32 : Ideal.ofBits .f32 0x3F800000#32 = 1 := IdealRules.sign_bit.ideal_onePat .f32

/-- The `f32` pattern of `0.0` denotes zero. -/
theorem ofBits_zero_f32 : Ideal.ofBits .f32 0x00000000#32 = 0 := Ideal.ofBits_zero_f32

/-- Adding to the zero pattern changes nothing, -/
theorem zero_addf (x : Ideal .f32) : FloatOps.addf (FloatOps.ofBits (F := Ideal) .f32 0x00000000#32) x = x := by
  rw [Ideal.addf_def, Ideal.ofBits_def, ofBits_zero_f32, zero_add]

/-- on either side. -/
theorem addf_zero (x : Ideal .f32) : FloatOps.addf x (FloatOps.ofBits (F := Ideal) .f32 0x00000000#32) = x := by
  rw [Ideal.addf_def, Ideal.ofBits_def, ofBits_zero_f32, add_zero]

/-- Multiplying by the pattern of `1.0` changes nothing, -/
theorem one_mulf (x : Ideal .f32) : FloatOps.mulf (FloatOps.ofBits (F := Ideal) .f32 0x3F800000#32) x = x := by
  rw [Ideal.mulf_def, Ideal.ofBits_def, ofBits_one_f32, one_mul]

/-- on either side. -/
theorem mulf_one (x : Ideal .f32) : FloatOps.mulf x (FloatOps.ofBits (F := Ideal) .f32 0x3F800000#32) = x := by
  rw [Ideal.mulf_def, Ideal.ofBits_def, ofBits_one_f32, mul_one]

/-! ## The fold with the factors as the programs compute them

The two programs hold the normalization factors as extended reals — reciprocal square roots of degrees — not as real
numbers. The statements below take the factors in that form: any family of extended reals each of which is a
nonnegative real, and then the reciprocal square roots of the degrees that count the self-loop. -/

/-- The fold over the concatenated list for factors `dinv n` given as extended reals, each the coercion of a
    nonnegative real (`hreal`). The other arguments are those of `agg_fold_concat`. -/
theorem agg_fold_concat_ereal {a b c : ℕ} (hc : c = a + b) {w : ℕ} (ids : Fin a → BitVec w) (s d : Fin a → Fin b)
    (h : Fin b → EReal) (dinv : Fin b → EReal) (hreal : ∀ n, ∃ x : ℝ, 0 ≤ x ∧ dinv n = (x : EReal)) (i : Fin b)
    (hd : ∀ e, (ids e).toInt = (i.val : ℤ) → d e = i) (f : Fin c → EReal)
    (hedge : ∀ (k : Fin c) (e : Fin a), k.val = e.val →
      f k = if (ids e).toInt = (i.val : ℤ) then h (s e) * (dinv (s e) * dinv (d e)) else 0)
    (hloop : ∀ (k : Fin c) (n : Fin b), k.val = a + n.val →
      f k = if n = i then h n * (dinv n * dinv n) else 0) :
    dinv i * ((∑ e : Fin a, if (ids e).toInt = (i.val : ℤ) then h (s e) * dinv (s e) else 0) + h i * dinv i)
      = ∑ k : Fin c, f k := by
  choose r hr0 hrd using hreal
  obtain rfl : dinv = fun n => (r n : EReal) := funext hrd
  exact agg_fold_concat hc ids s d h r hr0 i hd f hedge hloop

/-- The degree that counts the self-loop, at node `n`, from the real edges' destinations `ids`: the number of real
    edges landing on `n`, as a sum of ones, plus one. -/
noncomputable def deg {a b : ℕ} {w : ℕ} (ids : Fin a → BitVec w) (n : Fin b) : EReal :=
  (∑ e : Fin a, if (ids e).toInt = (n.val : ℤ) then (1 : EReal) else 0) + 1

/-- Its reciprocal square root is the coercion of a nonnegative real. -/
theorem rsqrt_deg_real {a b : ℕ} {w : ℕ} (ids : Fin a → BitVec w) (n : Fin b) :
    ∃ x : ℝ, 0 ≤ x ∧ Ideal.rsqrt (deg ids n) = (x : EReal) :=
  ⟨_, dinvReal_nonneg _, rsqrt_deg _⟩

/-- THE FOLD, END TO END. With every factor the reciprocal square root of the node's degree (real edges landing on it,
    plus one), the kernel's folded aggregate at node `i` — the factor of `i` times (the real edges' scaled messages
    summed, plus `i`'s own scaled feature) — is the sum of the reference's concatenated list of masked, fully
    normalized messages. -/
theorem agg_fold_concat_rsqrt {a b c : ℕ} (hc : c = a + b) {w : ℕ} (ids : Fin a → BitVec w) (s d : Fin a → Fin b)
    (h : Fin b → EReal) (dinv : Fin b → EReal) (hdinv : ∀ n, dinv n = Ideal.rsqrt (deg ids n)) (i : Fin b)
    (hd : ∀ e, (ids e).toInt = (i.val : ℤ) → d e = i) (f : Fin c → EReal)
    (hedge : ∀ (k : Fin c) (e : Fin a), k.val = e.val →
      f k = if (ids e).toInt = (i.val : ℤ) then h (s e) * (dinv (s e) * dinv (d e)) else 0)
    (hloop : ∀ (k : Fin c) (n : Fin b), k.val = a + n.val →
      f k = if n = i then h n * (dinv n * dinv n) else 0) :
    dinv i * ((∑ e : Fin a, if (ids e).toInt = (i.val : ℤ) then h (s e) * dinv (s e) else 0) + h i * dinv i)
      = ∑ k : Fin c, f k :=
  agg_fold_concat_ereal hc ids s d h dinv (fun n => by rw [hdinv n]; exact rsqrt_deg_real ids n) i hd f hedge hloop

/-- The reference's degree at node `i`, summed over its concatenated list of masked ones, is `deg ids i`. -/
theorem deg_concat_eq_deg {a b c : ℕ} (hc : c = a + b) {w : ℕ} (ids : Fin a → BitVec w) (i : Fin b) (g : Fin c → EReal)
    (hedge : ∀ (k : Fin c) (e : Fin a), k.val = e.val → g k = if (ids e).toInt = (i.val : ℤ) then 1 else 0)
    (hloop : ∀ (k : Fin c) (n : Fin b), k.val = a + n.val → g k = if n = i then 1 else 0) :
    ∑ k : Fin c, g k = deg ids i :=
  deg_concat hc ids i g hedge hloop

/-- The degree is positive, -/
theorem deg_pos' {a b : ℕ} {w : ℕ} (ids : Fin a → BitVec w) (n : Fin b) : (0 : EReal) < deg ids n := deg_pos _

/-- so the reference's guarded factor at a node is the unguarded reciprocal square root of `deg`. -/
theorem where_rsqrt_deg {a b : ℕ} {w : ℕ} (ids : Fin a → BitVec w) (n : Fin b) (z : EReal) :
    Scalar.select (Ideal.cmp .ogt (deg ids n) 0) (Ideal.rsqrt (deg ids n)) z = Ideal.rsqrt (deg ids n) :=
  select_rsqrt_of_pos (deg_pos' ids n) z

end GcnNormalize
-- ==== Proof.Bridge.lean ====
/-
  THE KERNEL'S LAYER AS PLAIN MATHEMATICS, and its equality with the reference's.

  The kernel never lists the self-loops and never multiplies an edge's message by the edge's normalisation. It counts
  a node's degree over the 800000 real edges and adds one; scales each node's transformed features once by the node's
  own factor (`kHws`); sums those scaled rows over the real edges landing on a node (`kAggRaw`); and, at the node, adds
  the node's own scaled row and multiplies by the node's factor. The reference (RefSpecDefs) sums, over the 850000
  edges with self-loops, the transformed source row times the product of the two endpoints' factors, each factor
  guarded by "the degree is positive".

  The two agree entry by entry, on the extended reals and with no finiteness assumed: the degree counts the self-loop,
  so it is a real number at least one, its reciprocal square root is a nonnegative real — and a nonnegative real
  factor distributes over any sum of extended reals —, the guard is always taken, a real edge that lands on a node
  reads that node's factor through its destination, and node `n`'s loop row lands on `n` alone.
-/
import proofs.«131582_j65292092834213_2_alg».proof.Proof.RefSpecDefs
import proofs.«131582_j65292092834213_2_alg».proof.Proof.LibGcnNormalize

noncomputable section

open scoped BigOperators

namespace Cert.Bridge

open Idealize.ShloMosaic Idealize.ShloMosaic.ValueIdx
open Cert.ReferenceIdeal.RefValue

/-! ## The kernel's layer, index by index -/

/-- The destination word of real edge `e`. -/
abbrev dstW (ei : IVec ⟨2, ![2, 800000]⟩ 32) (e : Fin 800000) : BitVec 32 := ei (ix2 (1 : Fin 2) e)

/-- The source word of real edge `e`. -/
abbrev srcW (ei : IVec ⟨2, ![2, 800000]⟩ 32) (e : Fin 800000) : BitVec 32 := ei (ix2 (0 : Fin 2) e)

/-- The kernel's degree of node `v`: ones summed over the real edges whose destination, read signed, is `v`, into
    zero; plus one for the self-loop. -/
def kDeg (ei : IVec ⟨2, ![2, 800000]⟩ 32) (v : Fin 50000) : EReal :=
  (0 + ∑ e : Fin 800000, (if (dstW ei e).toInt = (v.val : ℤ) then one32 else 0)) + one32

/-- The kernel's normalisation factor: the reciprocal square root of that degree, unguarded. -/
def kDinv (ei : IVec ⟨2, ![2, 800000]⟩ 32) (v : Fin 50000) : EReal := Ideal.rsqrt (kDeg ei v)

/-- Node `s`'s transformed features, scaled once by the node's own factor. -/
def kHws (ei : IVec ⟨2, ![2, 800000]⟩ 32) (X : FVec Ideal ⟨2, ![50000, 64]⟩ .f32) (W : FVec Ideal ⟨2, ![64, 64]⟩ .f32)
    (s : Fin 50000) (j : Fin 64) : EReal :=
  refMatmul X W s j * kDinv ei s

/-- The scaled rows of the real edges' sources (each source read as `rowOf` reads an endpoint), summed into zero over
    the real edges whose destination is `v`. -/
def kAggRaw (ei : IVec ⟨2, ![2, 800000]⟩ 32) (X : FVec Ideal ⟨2, ![50000, 64]⟩ .f32) (W : FVec Ideal ⟨2, ![64, 64]⟩ .f32)
    (v : Fin 50000) (j : Fin 64) : EReal :=
  0 + ∑ e : Fin 800000, (if (dstW ei e).toInt = (v.val : ℤ) then kHws ei X W (rowOf (srcW ei e)) j else 0)

/-- The kernel's new `Y`, in the order its body computes: the node's factor times (the real edges' sum plus the node's
    own scaled row); plus the convolution's bias; plus the residual map of `X` with its bias; cut off below at zero;
    then the step. -/
def kLayerY (ei : IVec ⟨2, ![2, 800000]⟩ 32) (X Y : FVec Ideal ⟨2, ![50000, 64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32) :
    FVec Ideal ⟨2, ![50000, 64]⟩ .f32 :=
  fun i => Y i + one32 * ((max (((kDinv ei (i 0) * (kAggRaw ei X W (i 0) (i 1) + kHws ei X W (i 0) (i 1))) + b (ix1 (i 1)))
      + (refMatmul X Wr (i 0) (i 1) + br (ix1 (i 1)))) 0 - one32 * Y i) - one32 * X i)

/-- The kernel's new `X`. -/
def kLayerX (ei : IVec ⟨2, ![2, 800000]⟩ 32) (X Y : FVec Ideal ⟨2, ![50000, 64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32) :
    FVec Ideal ⟨2, ![50000, 64]⟩ .f32 :=
  fun i => X i + one32 * kLayerY ei X Y W b Wr br i

/-! ## The reference's edge list on its two halves, and what an endpoint reads -/

/-- The list has 800000 real edges followed by 50000 loops. -/
theorem edges_split : (850000 : ℕ) = 800000 + 50000 := by norm_num

/-- On the first 800000 rows the reference's sources are the real edges', -/
theorem src2_edge (ei : IVec ⟨2, ![2, 800000]⟩ 32) (k : Fin 850000) (e : Fin 800000) (hk : k.val = e.val) :
    src2 ei k = srcW ei e := by
  have he := e.isLt
  unfold src2
  rw [dif_pos (by omega : k.val < 800000)]
  exact congrArg (fun x => ei (ix2 (0 : Fin 2) x)) (Fin.ext hk)

/-- and so are its destinations. -/
theorem dst2_edge (ei : IVec ⟨2, ![2, 800000]⟩ 32) (k : Fin 850000) (e : Fin 800000) (hk : k.val = e.val) :
    dst2 ei k = dstW ei e := by
  have he := e.isLt
  unfold dst2
  rw [dif_pos (by omega : k.val < 800000)]
  exact congrArg (fun x => ei (ix2 (1 : Fin 2) x)) (Fin.ext hk)

/-- Row `800000 + n` is node `n`'s loop: its source is the node's own number, -/
theorem src2_loop (ei : IVec ⟨2, ![2, 800000]⟩ 32) (k : Fin 850000) (n : Fin 50000) (hk : k.val = 800000 + n.val) :
    src2 ei k = BitVec.ofNat 32 n.val := by
  unfold src2
  rw [dif_neg (by omega : ¬ k.val < 800000)]
  exact congrArg (BitVec.ofNat 32) (by omega)

/-- and so is its destination. -/
theorem dst2_loop (ei : IVec ⟨2, ![2, 800000]⟩ 32) (k : Fin 850000) (n : Fin 50000) (hk : k.val = 800000 + n.val) :
    dst2 ei k = BitVec.ofNat 32 n.val := by
  unfold dst2
  rw [dif_neg (by omega : ¬ k.val < 800000)]
  exact congrArg (BitVec.ofNat 32) (by omega)

/-- An endpoint word whose signed value is node `v`'s number reads node `v`: the normalisation leaves a nonnegative
    value alone and the clamp leaves a value below 50000 alone. -/
theorem rowOf_of_toInt_eq (w : BitVec 32) (v : Fin 50000) (h : w.toInt = (v.val : ℤ)) : rowOf w = v := by
  have hv := v.isLt
  have hn : normIdx w = w := by
    unfold normIdx
    rw [if_neg (by omega)]
  have ht : w.toInt.toNat = v.val := by rw [h]; exact Int.toNat_natCast _
  apply Fin.ext
  show min (normIdx w).toInt.toNat 49999 = v.val
  rw [hn, ht]
  omega

/-- In particular a node's own number, as a word, reads that node. -/
theorem rowOf_ofNat (n : Fin 50000) : rowOf (BitVec.ofNat 32 n.val) = n :=
  rowOf_of_toInt_eq _ n (GcnNormalize.toInt_ofNat_of_lt (by have := n.isLt; omega))

/-! ## The degree and the factor -/

/-- The single-precision word of one denotes the extended real one. -/
theorem one32_eq : one32 = 1 := GcnNormalize.ofBits_one_f32

/-- The kernel's degree is the number of real edges landing on the node, plus one. -/
theorem kDeg_eq_deg (ei : IVec ⟨2, ![2, 800000]⟩ 32) (v : Fin 50000) : kDeg ei v = GcnNormalize.deg (dstW ei) v := by
  unfold kDeg GcnNormalize.deg
  rw [zero_add, one32_eq]

/-- So is the reference's: the loop rows contribute exactly one. -/
theorem refDeg_eq_deg (ei : IVec ⟨2, ![2, 800000]⟩ 32) (v : Fin 50000) : refDeg ei v = GcnNormalize.deg (dstW ei) v := by
  unfold refDeg
  rw [zero_add, one32_eq]
  refine GcnNormalize.deg_concat_eq_deg edges_split (dstW ei) v
    (fun r => if (dst2 ei r).toInt = (v.val : ℤ) then 1 else 0) (fun k e hk => ?_) (fun k n hk => ?_)
  · show (if (dst2 ei k).toInt = (v.val : ℤ) then (1 : EReal) else 0) = _
    rw [dst2_edge ei k e hk]
  · show (if (dst2 ei k).toInt = (v.val : ℤ) then (1 : EReal) else 0) = _
    rw [dst2_loop ei k n hk]
    exact if_congr (GcnNormalize.loop_hits_iff (by norm_num) n v) rfl rfl

/-- The reference's guarded factor is the kernel's unguarded one, at every node. -/
theorem refDinv_eq (ei : IVec ⟨2, ![2, 800000]⟩ 32) : refDinv ei = kDinv ei := by
  funext v
  unfold refDinv kDinv
  rw [refDeg_eq_deg, kDeg_eq_deg, if_pos (GcnNormalize.deg_pos' (dstW ei) v)]

/-! ## The aggregation -/

/-- THE FOLD for this graph: the kernel's folded aggregate at `(v, j)` is the reference's sum over the 850000 edges
    with self-loops. -/
theorem fold_eq (ei : IVec ⟨2, ![2, 800000]⟩ 32) (X : FVec Ideal ⟨2, ![50000, 64]⟩ .f32) (W : FVec Ideal ⟨2, ![64, 64]⟩ .f32)
    (v : Fin 50000) (j : Fin 64) :
    kDinv ei v * (kAggRaw ei X W v j + kHws ei X W v j)
      = 0 + ∑ r : Fin 850000, (if (dst2 ei r).toInt = (v.val : ℤ) then refMsg ei X W r j else 0) := by
  rw [zero_add]
  unfold kAggRaw kHws
  rw [zero_add]
  refine GcnNormalize.agg_fold_concat_rsqrt edges_split (dstW ei) (fun e => rowOf (srcW ei e)) (fun e => rowOf (dstW ei e))
    (fun n => refMatmul X W n j) (kDinv ei) (fun n => by unfold kDinv; rw [kDeg_eq_deg]) v
    (fun e he => rowOf_of_toInt_eq _ v he)
    (fun r => if (dst2 ei r).toInt = (v.val : ℤ) then refMsg ei X W r j else 0) (fun k e hk => ?_) (fun k n hk => ?_)
  · show (if (dst2 ei k).toInt = (v.val : ℤ) then refMsg ei X W k j else 0) = _
    unfold refMsg refNorm
    rw [src2_edge ei k e hk, dst2_edge ei k e hk, refDinv_eq]
  · show (if (dst2 ei k).toInt = (v.val : ℤ) then refMsg ei X W k j else 0) = _
    unfold refMsg refNorm
    rw [src2_loop ei k n hk, dst2_loop ei k n hk, rowOf_ofNat, refDinv_eq]
    exact if_congr (GcnNormalize.loop_hits_iff (by norm_num) n v) rfl rfl

/-! ## The layer -/

/-- THE KERNEL'S NEW `Y` IS THE REFERENCE'S. -/
theorem kLayerY_eq (ei : IVec ⟨2, ![2, 800000]⟩ 32) (X Y : FVec Ideal ⟨2, ![50000, 64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32) :
    kLayerY ei X Y W b Wr br = refLayerY ei X Y W b Wr br := by
  funext i
  obtain ⟨v, j, rfl⟩ : ∃ (v : Fin 50000) (j : Fin 64), i = ix2 v j := ⟨i 0, i 1, eq_ix2 i⟩
  show Y (ix2 v j) + one32 * ((max (((kDinv ei v * (kAggRaw ei X W v j + kHws ei X W v j)) + b (ix1 j))
      + (refMatmul X Wr v j + br (ix1 j))) 0 - one32 * Y (ix2 v j)) - one32 * X (ix2 v j))
    = Y (ix2 v j) + one32 * ((refRelu ei X W b Wr br v j - one32 * Y (ix2 v j)) - one32 * X (ix2 v j))
  rw [fold_eq]
  rfl

/-- THE KERNEL'S NEW `X` IS THE REFERENCE'S. -/
theorem kLayerX_eq (ei : IVec ⟨2, ![2, 800000]⟩ 32) (X Y : FVec Ideal ⟨2, ![50000, 64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32) :
    kLayerX ei X Y W b Wr br = refLayerX ei X Y W b Wr br := by
  funext i
  show X i + one32 * kLayerY ei X Y W b Wr br i = X i + one32 * refLayerY ei X Y W b Wr br i
  rw [kLayerY_eq]

end Cert.Bridge

end
-- ==== Proof.LibScatterGather1D.lean ====
/-
  THE ONE-AXIS GATHER AND ACCUMULATING SCATTER READ AT AN INDEX.

  `x[ids]` for a flat array `x` of shape `[n]` and integer indices `ids` of shape `[N, 1]` lowers to a
  `stablehlo.gather` with no offset axis, collapsed_slice_dims `[0]`, start_index_map `[0]`, index_vector_dim `1`
  and slice sizes `[1]`: result element `r` is the element of `x` whose number is the start index `ids[r, 0]`.
  `zeros[n].at[ids].add(u)` for updates `u` of shape `[N]` lowers to a `stablehlo.scatter` with an `add` body, no
  update window axis, inserted_window_dims `[0]`, scatter_dims_to_operand_dims `[0]` and index_vector_dim `1`:
  update element `r` is placed at element `ids[r, 0]` of the operand.

  The mathematics. The gather reads the start index as a SIGNED integer and CLAMPS it into `[0, n − 1]`: a negative
  index reads element `0` and an index at least `n` reads element `n − 1` (`gather1_apply`); an index already in
  `[0, n)` reads that element (`gather1_apply_of_lt`, `gather1_apply_of_eq`). This holds for any element type: a
  gather only moves elements. The scatter reads the index signed and does NOT clamp it: update `r` lands on element
  `ids[r, 0]` when `0 ≤ ids[r, 0] < n` and is dropped otherwise (`resultIdx?_1d`). Over the extended reals the
  scatter's value at `k` is the operand's element plus the sum of the updates that land there,

      x k + ∑ r : Fin N, (if ids[r, 0] = k then u r else 0)

  (`scatterAdd1_apply`): an update whose index is out of range equals no `k : Fin n`, so it contributes `0` to every
  element, which is exactly "dropped". Addition of extended reals is commutative and associative, so the sum is one
  value whatever the order of accumulation; no finiteness hypothesis is needed.
-/
import Idealize.ShloMosaic.Lib.ValueIdx

noncomputable section

open scoped BigOperators

namespace Cert.Lib.ScatterGather1D

open Idealize.ShloMosaic Idealize.ShloMosaic.ValueIdx

/-! ## A sum over a rank-1 index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The gather -/

/-- The dimension numbers of the one-axis gather: operand `[n]`, start indices `[N, 1]`, result `[N]`; no offset
    axis, collapsed slice axis `0`, the one index component names operand axis `0`, the index vector lies along axis
    `1` of the indices, and a slice is one element. Their well-formedness `wf` is a fact about the literal shapes. -/
abbrev gather1Dims (n N : Nat)
    (wf : GatherDims.WF ⟨1, ![n]⟩ ⟨2, ![N, 1]⟩ ⟨1, ![N]⟩ [] [0] [] [0] [] 1 ![1]) :
    GatherDims ⟨1, ![n]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

section
variable {α : Type} {n N w : Nat}
  (wf : GatherDims.WF ⟨1, ![n]⟩ ⟨2, ![N, 1]⟩ ⟨1, ![N]⟩ [] [0] [] [0] [] 1 ![1])

/-- THE ONE-AXIS GATHER READ AT `r`: the operand at the start index `ids[r, 0]`, read signed and clamped into
    `[0, n − 1]`. -/
theorem gather1_apply (hn : 0 < n) (x : (⟨1, ![n]⟩ : Shape).Idx → α) (idx : IVec ⟨2, ![N, 1]⟩ w) (r : Fin N) :
    Host.gather (gather1Dims n N wf) x idx (ix1 r) =
      x (ix1 ⟨min (idx (ix2 r 0)).toInt.toNat (n - 1), by omega⟩) := by
  unfold Host.gather
  congr 1
  funext a
  obtain rfl : a = 0 := Subsingleton.elim _ _
  refine Fin.ext ?_
  show (gather1Dims n N wf).start (ix1 r) idx 0 + (gather1Dims n N wf).batchCoord (ix1 r) 0 +
    (gather1Dims n N wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims n N wf).startIndexMap from List.mem_singleton.mpr rfl)]
  have hsi : (gather1Dims n N wf).siIdx (ix1 r) ⟨List.idxOf (0 : Fin 1) (gather1Dims n N wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- An index already in `[0, n)` is not moved by the clamp: the gather reads that element. -/
theorem gather1_apply_of_lt (x : (⟨1, ![n]⟩ : Shape).Idx → α) (idx : IVec ⟨2, ![N, 1]⟩ w) (r : Fin N)
    (h0 : 0 ≤ (idx (ix2 r 0)).toInt) (hlt : (idx (ix2 r 0)).toInt < n) :
    Host.gather (gather1Dims n N wf) x idx (ix1 r) = x (ix1 ⟨(idx (ix2 r 0)).toInt.toNat, by omega⟩) := by
  rw [gather1_apply wf (by omega) x idx r]
  congr 2
  exact Fin.ext (by show min (idx (ix2 r 0)).toInt.toNat (n - 1) = (idx (ix2 r 0)).toInt.toNat; omega)

/-- The same with the element named: when the index `ids[r, 0]` is `k : Fin n`, the gather reads element `k`. -/
theorem gather1_apply_of_eq (x : (⟨1, ![n]⟩ : Shape).Idx → α) (idx : IVec ⟨2, ![N, 1]⟩ w) (r : Fin N) (k : Fin n)
    (hk : (idx (ix2 r 0)).toInt = (k.val : Int)) :
    Host.gather (gather1Dims n N wf) x idx (ix1 r) = x (ix1 k) := by
  rw [gather1_apply wf k.pos x idx r]
  congr 2
  exact Fin.ext (by show min (idx (ix2 r 0)).toInt.toNat (n - 1) = k.val; have := k.isLt; omega)

end

/-! The same three statements for any record `d` that IS those dimension numbers (`hd`: by `rfl` for a program's
    literal record with those fields). -/

theorem gather1_apply_rec {α : Type} {n N w : Nat}
    {wf : GatherDims.WF ⟨1, ![n]⟩ ⟨2, ![N, 1]⟩ ⟨1, ![N]⟩ [] [0] [] [0] [] 1 ![1]}
    (d : GatherDims ⟨1, ![n]⟩ ⟨2, ![N, 1]⟩ ⟨1, ![N]⟩) (hd : d = gather1Dims n N wf) (hn : 0 < n)
    (x : (⟨1, ![n]⟩ : Shape).Idx → α) (idx : IVec ⟨2, ![N, 1]⟩ w) (r : Fin N) :
    Host.gather d x idx (ix1 r) = x (ix1 ⟨min (idx (ix2 r 0)).toInt.toNat (n - 1), by omega⟩) := by
  subst hd
  exact gather1_apply wf hn x idx r

theorem gather1_apply_of_lt_rec {α : Type} {n N w : Nat}
    {wf : GatherDims.WF ⟨1, ![n]⟩ ⟨2, ![N, 1]⟩ ⟨1, ![N]⟩ [] [0] [] [0] [] 1 ![1]}
    (d : GatherDims ⟨1, ![n]⟩ ⟨2, ![N, 1]⟩ ⟨1, ![N]⟩) (hd : d = gather1Dims n N wf)
    (x : (⟨1, ![n]⟩ : Shape).Idx → α) (idx : IVec ⟨2, ![N, 1]⟩ w) (r : Fin N)
    (h0 : 0 ≤ (idx (ix2 r 0)).toInt) (hlt : (idx (ix2 r 0)).toInt < n) :
    Host.gather d x idx (ix1 r) = x (ix1 ⟨(idx (ix2 r 0)).toInt.toNat, by omega⟩) := by
  subst hd
  exact gather1_apply_of_lt wf x idx r h0 hlt

theorem gather1_apply_of_eq_rec {α : Type} {n N w : Nat}
    {wf : GatherDims.WF ⟨1, ![n]⟩ ⟨2, ![N, 1]⟩ ⟨1, ![N]⟩ [] [0] [] [0] [] 1 ![1]}
    (d : GatherDims ⟨1, ![n]⟩ ⟨2, ![N, 1]⟩ ⟨1, ![N]⟩) (hd : d = gather1Dims n N wf)
    (x : (⟨1, ![n]⟩ : Shape).Idx → α) (idx : IVec ⟨2, ![N, 1]⟩ w) (r : Fin N) (k : Fin n)
    (hk : (idx (ix2 r 0)).toInt = (k.val : Int)) :
    Host.gather d x idx (ix1 r) = x (ix1 k) := by
  subst hd
  exact gather1_apply_of_eq wf x idx r k hk

/-! ## The accumulating scatter -/

/-- The dimension numbers of the one-axis scatter: operand `[n]`, scatter indices `[N, 1]`, updates `[N]`; no update
    window axis, inserted window axis `0`, the one index component names operand axis `0`, and the index vector lies
    along axis `1` of the indices. Their well-formedness `wf` is a fact about the literal shapes. -/
abbrev scatter1Dims (n N : Nat) (wf : ScatterDims.WF ⟨1, ![n]⟩ ⟨2, ![N, 1]⟩ ⟨1, ![N]⟩ [] [0] [0] 1) :
    ScatterDims ⟨1, ![n]⟩ ⟨2, ![N, 1]⟩ ⟨1, ![N]⟩ where
  updateWindowDims := []
  insertedWindowDims := [0]
  scatterDimsToOperandDims := [0]
  indexVectorDim := 1
  wf := wf

section
variable {n N w : Nat} (wf : ScatterDims.WF ⟨1, ![n]⟩ ⟨2, ![N, 1]⟩ ⟨1, ![N]⟩ [] [0] [0] 1)

/-- The window of update `r` starts at the index `ids[r, 0]`, read signed. -/
theorem scatter1_start0 (idx : IVec ⟨2, ![N, 1]⟩ w) (r : Fin N) :
    (scatter1Dims n N wf).start (ix1 r) idx 0 = (idx (ix2 r 0)).toInt := by
  unfold ScatterDims.start
  rw [dif_pos (show (0 : Fin 1) ∈ (scatter1Dims n N wf).scatterDimsToOperandDims from List.mem_singleton.mpr rfl)]
  congr 2
  funext b
  refine Fin.ext ?_
  match b with
  | ⟨0, _⟩ => rfl
  | ⟨1, _⟩ => rfl

/-- The operand's one axis is an inserted window axis: the window coordinate there is `0`. -/
theorem scatter1_window0 (r : Fin N) : (scatter1Dims n N wf).window (ix1 r) 0 = 0 := by
  unfold ScatterDims.window
  have h0 : (0 : Fin 1) ∉ (scatter1Dims n N wf).sKept := by
    show (0 : Fin 1) ∉ List.filter (fun x => decide (x ∉ [(0 : Fin 1)])) (List.finRange 1)
    decide
  rw [dif_neg h0]

/-- WHERE AN UPDATE LANDS: update element `r` lands on operand element `ids[r, 0]` when the index, read as a signed
    integer, is in `[0, n)`; it is dropped (`none`) when the index is negative or at least `n`. The index is not
    clamped. -/
theorem resultIdx?_1d (idx : IVec ⟨2, ![N, 1]⟩ w) (r : Fin N) :
    (scatter1Dims n N wf).resultIdx? (ix1 r) idx =
      if h : 0 ≤ (idx (ix2 r 0)).toInt ∧ (idx (ix2 r 0)).toInt < n then
        some (ix1 ⟨(idx (ix2 r 0)).toInt.toNat, by omega⟩) else none := by
  unfold ScatterDims.resultIdx?
  by_cases h : 0 ≤ (idx (ix2 r 0)).toInt ∧ (idx (ix2 r 0)).toInt < n
  · have hall : ∀ a : Fin 1,
        0 ≤ (scatter1Dims n N wf).start (ix1 r) idx a + ((scatter1Dims n N wf).window (ix1 r) a : Int) ∧
        (scatter1Dims n N wf).start (ix1 r) idx a + ((scatter1Dims n N wf).window (ix1 r) a : Int)
          < (Shape.size ⟨1, ![n]⟩ a : Nat) := by
      intro a
      obtain rfl : a = 0 := Subsingleton.elim _ _
      show 0 ≤ (scatter1Dims n N wf).start (ix1 r) idx 0 + ((scatter1Dims n N wf).window (ix1 r) 0 : Int) ∧
        (scatter1Dims n N wf).start (ix1 r) idx 0 + ((scatter1Dims n N wf).window (ix1 r) 0 : Int) < (n : Int)
      rw [scatter1_start0, scatter1_window0]; simpa using h
    rw [dif_pos hall, dif_pos h]
    congr 1
    funext a
    obtain rfl : a = 0 := Subsingleton.elim _ _
    refine Fin.ext ?_
    show ((scatter1Dims n N wf).start (ix1 r) idx 0 + ((scatter1Dims n N wf).window (ix1 r) 0 : Int)).toNat = _
    rw [scatter1_start0, scatter1_window0]
    show ((idx (ix2 r 0)).toInt + ((0 : Nat) : Int)).toNat = (idx (ix2 r 0)).toInt.toNat
    rw [Int.natCast_zero, Int.add_zero]
  · rw [dif_neg h, dif_neg]
    intro hall
    apply h
    have := hall 0
    rw [scatter1_start0, scatter1_window0] at this
    simpa using this

/-- Update element `r` lands on operand element `k` exactly when its index is `k`. -/
theorem resultIdx?_1d_eq_some (idx : IVec ⟨2, ![N, 1]⟩ w) (r : Fin N) (k : Fin n) :
    (scatter1Dims n N wf).resultIdx? (ix1 r) idx = some (ix1 k) ↔ (idx (ix2 r 0)).toInt = (k.val : Int) := by
  rw [resultIdx?_1d]
  constructor
  · intro h
    split at h
    · rename_i hr
      have h' := Option.some.inj h
      have h0 := congrFun h' 0
      have h0v : (idx (ix2 r 0)).toInt.toNat = k.val := congrArg Fin.val h0
      omega
    · exact absurd h (by simp)
  · intro hk
    have hr : 0 ≤ (idx (ix2 r 0)).toInt ∧ (idx (ix2 r 0)).toInt < n := by have := k.isLt; omega
    rw [dif_pos hr]
    congr 2
    exact Fin.ext (by show (idx (ix2 r 0)).toInt.toNat = k.val; omega)

/-- THE ONE-AXIS ACCUMULATING SCATTER READ AT `k`, over the extended reals: the operand's element plus the sum over
    the updates `r` whose index `ids[r, 0]` (a signed integer) is `k` of the update element `u r`. An update whose
    index is negative or at least `n` equals no `k` and so contributes to no element. -/
theorem scatterAdd1_apply {φ : FTy} (x : FVec Ideal ⟨1, ![n]⟩ φ) (idx : IVec ⟨2, ![N, 1]⟩ w)
    (upd : FVec Ideal ⟨1, ![N]⟩ φ) (k : Fin n) :
    Host.scatterAdd (scatter1Dims n N wf) x idx upd (ix1 k) =
      x (ix1 k) + ∑ r : Fin N, (if (idx (ix2 r 0)).toInt = (k.val : Int) then upd (ix1 r) else 0) := by
  unfold Host.scatterAdd
  rw [Ideal.hostScatterAdd_def]
  unfold Ideal.hostScatterAdd
  congr 1
  rw [Finset.sum_filter, sum_idx1]
  refine Finset.sum_congr rfl fun r _ => ?_
  simp only [resultIdx?_1d_eq_some]

end

/-- The same for any record `d` that IS those dimension numbers (`hd`: by `rfl` for a program's literal record whose
    four fields are `[]`, `[0]`, `[0]`, `1`). -/
theorem scatterAdd1_apply_rec {n N w : Nat}
    {wf : ScatterDims.WF ⟨1, ![n]⟩ ⟨2, ![N, 1]⟩ ⟨1, ![N]⟩ [] [0] [0] 1} {φ : FTy}
    (d : ScatterDims ⟨1, ![n]⟩ ⟨2, ![N, 1]⟩ ⟨1, ![N]⟩) (hd : d = scatter1Dims n N wf)
    (x : FVec Ideal ⟨1, ![n]⟩ φ) (idx : IVec ⟨2, ![N, 1]⟩ w) (upd : FVec Ideal ⟨1, ![N]⟩ φ) (k : Fin n) :
    Host.scatterAdd d x idx upd (ix1 k) =
      x (ix1 k) + ∑ r : Fin N, (if (idx (ix2 r 0)).toInt = (k.val : Int) then upd (ix1 r) else 0) := by
  subst hd
  exact scatterAdd1_apply wf x idx upd k

end Cert.Lib.ScatterGather1D

end
-- ==== Proof.LibGatherRows.lean ====
/-
  THE ROW GATHER READ AT AN INDEX.

  `x[ids]` for `x` of shape `[n, c]` and integer row indices `ids` of shape `[N, 1]` lowers to a `stablehlo.gather`
  with offset_dims `[1]`, collapsed_slice_dims `[0]`, start_index_map `[0]`, index_vector_dim `1` and slice sizes
  `[1, c]`: result row `r` is the whole row of `x` whose number is the start index `ids[r, 0]`.

  The mathematics. StableHLO's gather reads the start index as a SIGNED integer and CLAMPS it so that the slice fits:
  here into `[0, n − 1]`. A negative index reads row `0` and an index at least `n` reads row `n − 1`
  (`gather_rows_apply`); an index already in `[0, n)` reads that row (`gather_rows_apply_of_lt`,
  `gather_rows_apply_of_eq`). The statements hold for any element type: a gather only moves elements.
-/
import Idealize.ShloMosaic.Lib.ValueIdx

noncomputable section

namespace Cert.KernelIdeal.Hand

open Idealize.ShloMosaic Idealize.ShloMosaic.ValueIdx

/-- The dimension numbers of the row gather: operand `[n, c]`, start indices `[N, 1]`, result `[N, c]`; offset axis
    `1`, collapsed slice axis `0`, the one index component names operand axis `0`, the index vector lies along axis `1`
    of the indices, and a slice is one row (`[1, c]`). Their well-formedness `wf` is a fact about the literal shapes. -/
abbrev gatherRowsDims (n N c : Nat)
    (wf : GatherDims.WF ⟨2, ![n, c]⟩ ⟨2, ![N, 1]⟩ ⟨2, ![N, c]⟩ [1] [0] [] [0] [] 1 ![1, c]) :
    GatherDims ⟨2, ![n, c]⟩ ⟨2, ![N, 1]⟩ ⟨2, ![N, c]⟩ where
  offsetDims := [1]
  collapsedSliceDims := [0]
  operandBatchingDims := []
  startIndicesBatchingDims := []
  startIndexMap := [0]
  indexVectorDim := 1
  sliceSizes := ![1, c]
  wf := wf

section
variable {α : Type} {n N c w : Nat}
  (wf : GatherDims.WF ⟨2, ![n, c]⟩ ⟨2, ![N, 1]⟩ ⟨2, ![N, c]⟩ [1] [0] [] [0] [] 1 ![1, c])

/-- On the row axis the slice of result element `(r, j)` starts at the row index `ids[r, 0]`, read signed and clamped
    into `[0, n − 1]`. -/
theorem gatherRows_start0 (idx : IVec ⟨2, ![N, 1]⟩ w) (r : Fin N) (j : Fin c) :
    (gatherRowsDims n N c wf).start (ix2 r j) idx 0 = min (idx (ix2 r 0)).toInt.toNat (n - 1) := by
  unfold GatherDims.start
  rw [dif_pos (show (0 : Fin 2) ∈ (gatherRowsDims n N c wf).startIndexMap from List.mem_singleton.mpr rfl)]
  have hsi : (gatherRowsDims n N c wf).siIdx (ix2 r j) ⟨List.idxOf (0 : Fin 2) (gatherRowsDims n N c wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- On the column axis the slice starts at `0`: no index component names that axis. -/
theorem gatherRows_start1 (idx : IVec ⟨2, ![N, 1]⟩ w) (r : Fin N) (j : Fin c) :
    (gatherRowsDims n N c wf).start (ix2 r j) idx 1 = 0 := by
  unfold GatherDims.start
  rw [dif_neg (show (1 : Fin 2) ∉ [(0 : Fin 2)] by decide)]

/-- The row axis is collapsed: the offset coordinate there is `0`. -/
theorem gatherRows_offCoord0 (r : Fin N) (j : Fin c) : (gatherRowsDims n N c wf).offCoord (ix2 r j) 0 = 0 :=
  GatherDims.offCoord_eq_zero _ _ _ (fun h => ((GatherDims.mem_sKept _ _).mp h).1 (List.mem_singleton.mpr rfl))

/-- On the column axis the offset coordinate of result element `(r, j)` is `j`. -/
theorem gatherRows_offCoord1 (r : Fin N) (j : Fin c) : (gatherRowsDims n N c wf).offCoord (ix2 r j) 1 = j.val := by
  unfold GatherDims.offCoord
  have h1 : (1 : Fin 2) ∈ (gatherRowsDims n N c wf).sKept :=
    (GatherDims.mem_sKept _ _).mpr ⟨show (1 : Fin 2) ∉ [(0 : Fin 2)] by decide, List.not_mem_nil⟩
  rw [dif_pos h1]
  rfl

/-- THE ROW GATHER READ AT `(r, j)`: the operand at row `ids[r, 0]`, read signed and clamped into `[0, n − 1]`,
    column `j`. -/
theorem gather_rows_apply (hn : 0 < n) (x : (⟨2, ![n, c]⟩ : Shape).Idx → α) (idx : IVec ⟨2, ![N, 1]⟩ w)
    (r : Fin N) (j : Fin c) :
    Host.gather (gatherRowsDims n N c wf) x idx (ix2 r j) =
      x (ix2 ⟨min (idx (ix2 r 0)).toInt.toNat (n - 1), by omega⟩ j) := by
  unfold Host.gather
  congr 1
  funext a
  refine Fin.ext ?_
  match a with
  | ⟨0, _⟩ =>
    show (gatherRowsDims n N c wf).start (ix2 r j) idx 0 + (gatherRowsDims n N c wf).batchCoord (ix2 r j) 0 +
      (gatherRowsDims n N c wf).offCoord (ix2 r j) 0 = min (idx (ix2 r 0)).toInt.toNat (n - 1)
    rw [GatherDims.batchCoord_eq_zero _ _ _ List.not_mem_nil, gatherRows_offCoord0, gatherRows_start0]
    omega
  | ⟨1, _⟩ =>
    show (gatherRowsDims n N c wf).start (ix2 r j) idx 1 + (gatherRowsDims n N c wf).batchCoord (ix2 r j) 1 +
      (gatherRowsDims n N c wf).offCoord (ix2 r j) 1 = j.val
    rw [GatherDims.batchCoord_eq_zero _ _ _ List.not_mem_nil, gatherRows_offCoord1, gatherRows_start1]
    omega

/-- A row index already in `[0, n)` is not moved by the clamp: the gather reads that row. -/
theorem gather_rows_apply_of_lt (x : (⟨2, ![n, c]⟩ : Shape).Idx → α) (idx : IVec ⟨2, ![N, 1]⟩ w)
    (r : Fin N) (j : Fin c) (h0 : 0 ≤ (idx (ix2 r 0)).toInt) (hlt : (idx (ix2 r 0)).toInt < n) :
    Host.gather (gatherRowsDims n N c wf) x idx (ix2 r j) =
      x (ix2 ⟨(idx (ix2 r 0)).toInt.toNat, by omega⟩ j) := by
  rw [gather_rows_apply wf (by omega) x idx r j]
  congr 2
  exact Fin.ext (by show min (idx (ix2 r 0)).toInt.toNat (n - 1) = (idx (ix2 r 0)).toInt.toNat; omega)

/-- The same with the row named: when the row index `ids[r, 0]` is `k : Fin n`, the gather reads row `k`. -/
theorem gather_rows_apply_of_eq (x : (⟨2, ![n, c]⟩ : Shape).Idx → α) (idx : IVec ⟨2, ![N, 1]⟩ w)
    (r : Fin N) (j : Fin c) (k : Fin n) (hk : (idx (ix2 r 0)).toInt = (k.val : Int)) :
    Host.gather (gatherRowsDims n N c wf) x idx (ix2 r j) = x (ix2 k j) := by
  rw [gather_rows_apply wf k.pos x idx r j]
  congr 2
  exact Fin.ext (by show min (idx (ix2 r 0)).toInt.toNat (n - 1) = k.val; have := k.isLt; omega)

end

/-! The same three statements for any record `d` that IS those dimension numbers (`hd`: by `rfl` for a program's
    literal record with those fields). -/

theorem gather_rows_apply_rec {α : Type} {n N c w : Nat}
    {wf : GatherDims.WF ⟨2, ![n, c]⟩ ⟨2, ![N, 1]⟩ ⟨2, ![N, c]⟩ [1] [0] [] [0] [] 1 ![1, c]}
    (d : GatherDims ⟨2, ![n, c]⟩ ⟨2, ![N, 1]⟩ ⟨2, ![N, c]⟩) (hd : d = gatherRowsDims n N c wf) (hn : 0 < n)
    (x : (⟨2, ![n, c]⟩ : Shape).Idx → α) (idx : IVec ⟨2, ![N, 1]⟩ w) (r : Fin N) (j : Fin c) :
    Host.gather d x idx (ix2 r j) = x (ix2 ⟨min (idx (ix2 r 0)).toInt.toNat (n - 1), by omega⟩ j) := by
  subst hd
  exact gather_rows_apply wf hn x idx r j

theorem gather_rows_apply_of_lt_rec {α : Type} {n N c w : Nat}
    {wf : GatherDims.WF ⟨2, ![n, c]⟩ ⟨2, ![N, 1]⟩ ⟨2, ![N, c]⟩ [1] [0] [] [0] [] 1 ![1, c]}
    (d : GatherDims ⟨2, ![n, c]⟩ ⟨2, ![N, 1]⟩ ⟨2, ![N, c]⟩) (hd : d = gatherRowsDims n N c wf)
    (x : (⟨2, ![n, c]⟩ : Shape).Idx → α) (idx : IVec ⟨2, ![N, 1]⟩ w) (r : Fin N) (j : Fin c)
    (h0 : 0 ≤ (idx (ix2 r 0)).toInt) (hlt : (idx (ix2 r 0)).toInt < n) :
    Host.gather d x idx (ix2 r j) = x (ix2 ⟨(idx (ix2 r 0)).toInt.toNat, by omega⟩ j) := by
  subst hd
  exact gather_rows_apply_of_lt wf x idx r j h0 hlt

theorem gather_rows_apply_of_eq_rec {α : Type} {n N c w : Nat}
    {wf : GatherDims.WF ⟨2, ![n, c]⟩ ⟨2, ![N, 1]⟩ ⟨2, ![N, c]⟩ [1] [0] [] [0] [] 1 ![1, c]}
    (d : GatherDims ⟨2, ![n, c]⟩ ⟨2, ![N, 1]⟩ ⟨2, ![N, c]⟩) (hd : d = gatherRowsDims n N c wf)
    (x : (⟨2, ![n, c]⟩ : Shape).Idx → α) (idx : IVec ⟨2, ![N, 1]⟩ w) (r : Fin N) (j : Fin c) (k : Fin n)
    (hk : (idx (ix2 r 0)).toInt = (k.val : Int)) :
    Host.gather d x idx (ix2 r j) = x (ix2 k j) := by
  subst hd
  exact gather_rows_apply_of_eq wf x idx r j k hk

end Cert.KernelIdeal.Hand

end
-- ==== Proof.LibScatterAddRows.lean ====
/-
  THE ROW-WISE ACCUMULATING SCATTER READ AT AN INDEX, at the ideal instance (the extended reals).

  `jax.ops.segment_sum(u, ids, num_segments = n)` lowers to a `stablehlo.scatter` with an `add` body whose operand
  `x` has shape `[n, c]` (zeros, for a segment sum), whose scatter indices `ids` have shape `[N, 1]` and whose updates
  `u` have shape `[N, c]`, with update_window_dims `[1]`, inserted_window_dims `[0]`, scatter_dims_to_operand_dims `[0]`
  and index_vector_dim `1`: update row `r` is a window one row high, placed at row `ids[r, 0]` of the operand.

  The mathematics. The row index `ids[r, 0]` is read as a SIGNED integer and is NOT clamped: the update element
  `(r, b)` lands on operand element `(ids[r, 0], b)` when `0 ≤ ids[r, 0] < n`, and is dropped when the row index is
  negative or at least `n` (`resultIdx?_rows`). At the ideal instance the scatter's value at `(k, j)` is the operand's
  element plus the sum of the update elements that land there, so it is

      x (k, j) + ∑ r : Fin N, (if ids[r, 0] = k then u (r, j) else 0)

  (`scatterAdd_rows_apply`): a row whose index is out of range equals no `k : Fin n`, so it contributes `0` to every
  element, which is exactly "dropped". Addition of extended reals is commutative and associative, so the sum is one
  value whatever the order of accumulation; no finiteness hypothesis is needed.
-/
import Idealize.ShloMosaic.Lib.ValueIdx

noncomputable section

open scoped BigOperators

namespace Cert.KernelIdeal.Hand

open Idealize.ShloMosaic Idealize.ShloMosaic.ValueIdx

/-- The dimension numbers of the row-wise scatter: operand `[n, c]`, scatter indices `[N, 1]`, updates `[N, c]`;
    update window axis `1`, inserted window axis `0`, the one index component names operand axis `0`, and the index
    vector lies along axis `1` of the indices. Their well-formedness `wf` is a fact about the literal shapes. -/
abbrev scatterRowsDims (n N c : Nat) (wf : ScatterDims.WF ⟨2, ![n, c]⟩ ⟨2, ![N, 1]⟩ ⟨2, ![N, c]⟩ [1] [0] [0] 1) :
    ScatterDims ⟨2, ![n, c]⟩ ⟨2, ![N, 1]⟩ ⟨2, ![N, c]⟩ where
  updateWindowDims := [1]
  insertedWindowDims := [0]
  scatterDimsToOperandDims := [0]
  indexVectorDim := 1
  wf := wf

section
variable {n N c w : Nat} (wf : ScatterDims.WF ⟨2, ![n, c]⟩ ⟨2, ![N, 1]⟩ ⟨2, ![N, c]⟩ [1] [0] [0] 1)

/-- On the row axis the window of update `(r, j)` starts at the row index `ids[r, 0]`, read signed. -/
theorem scatterRows_start0 (idx : IVec ⟨2, ![N, 1]⟩ w) (r : Fin N) (j : Fin c) :
    (scatterRowsDims n N c wf).start (ix2 r j) idx 0 = (idx (ix2 r 0)).toInt := by
  unfold ScatterDims.start
  rw [dif_pos (show (0 : Fin 2) ∈ (scatterRowsDims n N c wf).scatterDimsToOperandDims from List.mem_singleton.mpr rfl)]
  congr 2
  funext b
  refine Fin.ext ?_
  match b with
  | ⟨0, _⟩ => rfl
  | ⟨1, _⟩ => rfl

/-- On the column axis the window starts at `0`: no index component names that axis. -/
theorem scatterRows_start1 (idx : IVec ⟨2, ![N, 1]⟩ w) (r : Fin N) (j : Fin c) :
    (scatterRowsDims n N c wf).start (ix2 r j) idx 1 = 0 := by
  unfold ScatterDims.start
  rw [dif_neg (show (1 : Fin 2) ∉ [(0 : Fin 2)] by decide)]

/-- The row axis is an inserted window axis: the window coordinate there is `0`. -/
theorem scatterRows_window0 (r : Fin N) (j : Fin c) : (scatterRowsDims n N c wf).window (ix2 r j) 0 = 0 := by
  unfold ScatterDims.window
  have h0 : (0 : Fin 2) ∉ (scatterRowsDims n N c wf).sKept := by
    show (0 : Fin 2) ∉ List.filter (fun x => decide (x ∉ [(0 : Fin 2)])) (List.finRange 2)
    decide
  rw [dif_neg h0]

/-- On the column axis the window coordinate of update `(r, j)` is `j`. -/
theorem scatterRows_window1 (r : Fin N) (j : Fin c) : (scatterRowsDims n N c wf).window (ix2 r j) 1 = j.val := by
  unfold ScatterDims.window
  have h1 : (1 : Fin 2) ∈ (scatterRowsDims n N c wf).sKept := by
    show (1 : Fin 2) ∈ List.filter (fun x => decide (x ∉ [(0 : Fin 2)])) (List.finRange 2)
    decide
  rw [dif_pos h1]
  rfl

/-- WHERE AN UPDATE LANDS: update element `(r, j)` lands on operand element `(ids[r, 0], j)` when the row index, read
    as a signed integer, is in `[0, n)`; it is dropped (`none`) when the row index is negative or at least `n`. The
    row index is not clamped. -/
theorem resultIdx?_rows (idx : IVec ⟨2, ![N, 1]⟩ w) (r : Fin N) (j : Fin c) :
    (scatterRowsDims n N c wf).resultIdx? (ix2 r j) idx =
      if h : 0 ≤ (idx (ix2 r 0)).toInt ∧ (idx (ix2 r 0)).toInt < n then
        some (ix2 ⟨(idx (ix2 r 0)).toInt.toNat, by omega⟩ j) else none := by
  unfold ScatterDims.resultIdx?
  by_cases h : 0 ≤ (idx (ix2 r 0)).toInt ∧ (idx (ix2 r 0)).toInt < n
  · have hall : ∀ a : Fin 2,
        0 ≤ (scatterRowsDims n N c wf).start (ix2 r j) idx a + ((scatterRowsDims n N c wf).window (ix2 r j) a : Int) ∧
        (scatterRowsDims n N c wf).start (ix2 r j) idx a + ((scatterRowsDims n N c wf).window (ix2 r j) a : Int)
          < (Shape.size ⟨2, ![n, c]⟩ a : Nat) := by
      intro a
      match a with
      | ⟨0, _⟩ =>
        show 0 ≤ (scatterRowsDims n N c wf).start (ix2 r j) idx 0 + ((scatterRowsDims n N c wf).window (ix2 r j) 0 : Int) ∧
          (scatterRowsDims n N c wf).start (ix2 r j) idx 0 + ((scatterRowsDims n N c wf).window (ix2 r j) 0 : Int) < (n : Int)
        rw [scatterRows_start0, scatterRows_window0]; simpa using h
      | ⟨1, _⟩ =>
        show 0 ≤ (scatterRowsDims n N c wf).start (ix2 r j) idx 1 + ((scatterRowsDims n N c wf).window (ix2 r j) 1 : Int) ∧
          (scatterRowsDims n N c wf).start (ix2 r j) idx 1 + ((scatterRowsDims n N c wf).window (ix2 r j) 1 : Int) < (c : Int)
        rw [scatterRows_start1, scatterRows_window1]; have := j.isLt; omega
    rw [dif_pos hall, dif_pos h]
    congr 1
    funext a
    refine Fin.ext ?_
    match a with
    | ⟨0, _⟩ =>
      show ((scatterRowsDims n N c wf).start (ix2 r j) idx 0 + ((scatterRowsDims n N c wf).window (ix2 r j) 0 : Int)).toNat = _
      rw [scatterRows_start0, scatterRows_window0]; simp
    | ⟨1, _⟩ =>
      show ((scatterRowsDims n N c wf).start (ix2 r j) idx 1 + ((scatterRowsDims n N c wf).window (ix2 r j) 1 : Int)).toNat = _
      rw [scatterRows_start1, scatterRows_window1]; simp
  · rw [dif_neg h, dif_neg]
    intro hall
    apply h
    have := hall 0
    rw [scatterRows_start0, scatterRows_window0] at this
    simpa using this

/-- Update element `(r, b)` lands on operand element `(k, j)` exactly when its row index is `k` and `b = j`. -/
theorem resultIdx?_rows_eq_some (idx : IVec ⟨2, ![N, 1]⟩ w) (r : Fin N) (b : Fin c) (k : Fin n) (j : Fin c) :
    (scatterRowsDims n N c wf).resultIdx? (ix2 r b) idx = some (ix2 k j) ↔
      (idx (ix2 r 0)).toInt = (k.val : Int) ∧ b = j := by
  rw [resultIdx?_rows]
  constructor
  · intro h
    split at h
    · rename_i hr
      have h' := Option.some.inj h
      have h0 := congrFun h' 0
      have h1 := congrFun h' 1
      have h0v : (idx (ix2 r 0)).toInt.toNat = k.val := congrArg Fin.val h0
      exact ⟨by omega, h1⟩
    · exact absurd h (by simp)
  · rintro ⟨hk, rfl⟩
    have hr : 0 ≤ (idx (ix2 r 0)).toInt ∧ (idx (ix2 r 0)).toInt < n := by have := k.isLt; omega
    rw [dif_pos hr]
    congr 2
    exact Fin.ext (by show (idx (ix2 r 0)).toInt.toNat = k.val; omega)

/-- THE ROW-WISE ACCUMULATING SCATTER READ AT `(k, j)`, at the ideal instance: the operand's element plus the sum
    over the update rows `r` whose row index `ids[r, 0]` (a signed integer) is `k` of the update element `u (r, j)`.
    A row whose index is negative or at least `n` equals no `k` and so contributes to no element. -/
theorem scatterAdd_rows_apply {φ : FTy} (x : FVec Ideal ⟨2, ![n, c]⟩ φ) (idx : IVec ⟨2, ![N, 1]⟩ w)
    (upd : FVec Ideal ⟨2, ![N, c]⟩ φ) (k : Fin n) (j : Fin c) :
    Host.scatterAdd (scatterRowsDims n N c wf) x idx upd (ix2 k j) =
      x (ix2 k j) + ∑ r : Fin N, (if (idx (ix2 r 0)).toInt = (k.val : Int) then upd (ix2 r j) else 0) := by
  unfold Host.scatterAdd
  rw [Ideal.hostScatterAdd_def]
  unfold Ideal.hostScatterAdd
  congr 1
  rw [Finset.sum_filter, sum_idx2]
  refine Finset.sum_congr rfl fun r _ => ?_
  simp only [resultIdx?_rows_eq_some]
  by_cases hk : (idx (ix2 r 0)).toInt = (k.val : Int)
  · simp only [hk, true_and, if_true]
    rw [Finset.sum_ite_eq' Finset.univ j (fun b => upd (ix2 r b)), if_pos (Finset.mem_univ j)]
  · simp only [hk, false_and, if_false]
    exact Finset.sum_const_zero

end

/-- The same for any record `d` that IS those dimension numbers (`hd`: by `rfl` for a program's literal record whose
    four fields are `[1]`, `[0]`, `[0]`, `1`). -/
theorem scatterAdd_rows_apply_rec {n N c w : Nat}
    {wf : ScatterDims.WF ⟨2, ![n, c]⟩ ⟨2, ![N, 1]⟩ ⟨2, ![N, c]⟩ [1] [0] [0] 1} {φ : FTy}
    (d : ScatterDims ⟨2, ![n, c]⟩ ⟨2, ![N, 1]⟩ ⟨2, ![N, c]⟩) (hd : d = scatterRowsDims n N c wf)
    (x : FVec Ideal ⟨2, ![n, c]⟩ φ) (idx : IVec ⟨2, ![N, 1]⟩ w) (upd : FVec Ideal ⟨2, ![N, c]⟩ φ) (k : Fin n) (j : Fin c) :
    Host.scatterAdd d x idx upd (ix2 k j) =
      x (ix2 k j) + ∑ r : Fin N, (if (idx (ix2 r 0)).toInt = (k.val : Int) then upd (ix2 r j) else 0) := by
  subst hd
  exact scatterAdd_rows_apply wf x idx upd k j

end Cert.KernelIdeal.Hand

end
-- ==== Proof.RefSpecOps.lean ====
/-
  THE OPERATIONS THE REFERENCE'S LAYER IS MADE OF, read at an index, over variables of the literal shapes.

  Each statement takes the arrays an operation is applied to as VARIABLES, with hypotheses saying what they hold at
  an index, and concludes what the operation's result holds at an index in the vocabulary of the specification
  (`src2`, `dst2`, `normIdx`, `rowOf`, `refDeg`, …). Nothing here mentions a program.

  * `normIdx_select`: "if `b < 0` (signed) then `b + 50000` else `b`", as a compare, an add and a select on words.
  * `concat_edges_apply`: 800000 entries followed by 50000 entries, at position `r`: the first piece at `r` when
    `r < 800000`, else the second piece at `r − 800000`. With the node numbers `0, 1, …` as second piece this is the
    edge list with self-loops (`concat_src2`, `concat_dst2`).
  * `deg_apply`: ones accumulated at the edges' targets into zeros is the in-degree.
  * `gather_node_apply` / `gather_row_apply`: a per-node value (resp. a node's row) read at an edge's normalised
    endpoint is the value at `rowOf` of the endpoint: the clamp of the read is the clamp in `rowOf`.
  * `agg_apply`: rows accumulated at the edges' targets into zeros, at `(v, j)`: `0` plus the sum over the edges whose
    target is `v` of the row's entry `j`.
  * `dinv_select`: "`d > 0` selects `rsqrt d`, else `0`" on one extended real.
  * `out_scatter_apply`: one-column rows accumulated at the nodes' graph numbers into zeros: the per-graph sum.
  * `concat_cols_apply`: 14 columns followed by 2 columns, at `(v, c)`.
-/
import proofs.«131582_j65292092834213_2_alg».proof.Proof.RefSpecDefs
import proofs.«131582_j65292092834213_2_alg».proof.Proof.LibScatterGather1D
import proofs.«131582_j65292092834213_2_alg».proof.Proof.LibGatherRows
import proofs.«131582_j65292092834213_2_alg».proof.Proof.LibScatterAddRows
import Idealize.ShloMosaic.Lib.Pipeline.Value

noncomputable section

open scoped BigOperators

namespace Cert.ReferenceIdeal.RefValue

open Idealize.ShloMosaic Idealize.ShloMosaic.ValueIdx Cert.Lib.ScatterGather1D Cert.KernelIdeal.Hand

/-! ## The index normalisation -/

/-- A signed compare with zero, an add of 50000 and a select compute `normIdx`. -/
theorem normIdx_select (b : BitVec 32) :
    Scalar.select (IntOp.cmpi .slt b 0#32) (IntOp.addi b 50000#32) b = normIdx b := by
  unfold Scalar.select IntOp.cmpi IntOp.addi normIdx
  by_cases h : b.toInt < 0
  · have hs : b.slt 0#32 = true := by
      show decide (b.toInt < (0#32 : BitVec 32).toInt) = true
      rw [BitVec.toInt_zero]; exact decide_eq_true h
    rw [if_pos h]
    show (if BitVec.ofBool (b.slt 0#32) = 1 then b + 50000#32 else b) = b + 50000#32
    rw [hs]; rfl
  · have hs : b.slt 0#32 = false := by
      show decide (b.toInt < (0#32 : BitVec 32).toInt) = false
      rw [BitVec.toInt_zero]; exact decide_eq_false h
    rw [if_neg h]
    show (if BitVec.ofBool (b.slt 0#32) = 1 then b + 50000#32 else b) = b
    rw [hs]; rfl

/-! ## The edge list with self-loops as a concatenation -/

/-- 800000 entries followed by 50000 entries, at position `r`. -/
theorem concat_edges_apply {α : Type} (a : (⟨1, ![800000]⟩ : Shape).Idx → α) (b : (⟨1, ![50000]⟩ : Shape).Idx → α)
    (h : Shape.Concatenates [(⟨1, ![800000]⟩ : Shape), (⟨1, ![50000]⟩ : Shape)] (⟨1, ![850000]⟩ : Shape) (0 : Fin 1))
    (r : Fin 850000) :
    concatenate (⟨1, ![850000]⟩ : Shape) (0 : Fin 1) [⟨(⟨1, ![800000]⟩ : Shape), a⟩, ⟨(⟨1, ![50000]⟩ : Shape), b⟩] h (ix1 r) =
      if hlt : r.val < 800000 then a (ix1 (⟨r.val, hlt⟩ : Fin 800000))
      else b (ix1 (⟨r.val - 800000, by have := r.isLt; omega⟩ : Fin 50000)) := by
  by_cases hlt : r.val < 800000
  · rw [dif_pos hlt]
    refine concatenate_pair_apply_left (0 : Fin 1) a b h (ix1 r) rfl (ix1 (⟨r.val, hlt⟩ : Fin 800000)) fun c => ?_
    obtain rfl : c = (0 : Fin 1) := Subsingleton.elim _ _
    rfl
  · rw [dif_neg hlt]
    refine concatenate_pair_apply_right (0 : Fin 1) a b h (ix1 r) rfl rfl
      (ix1 (⟨r.val - 800000, by have := r.isLt; omega⟩ : Fin 50000)) (fun c hc => ?_) ?_
    · exact absurd (Subsingleton.elim (α := Fin 1) _ _) hc
    · show (r.val - 800000) + 800000 = r.val
      omega

/-- The sources: row `0` of the edge array followed by the node numbers. -/
theorem concat_src2 (ei : IVec ⟨2, ![2, 800000]⟩ 32) (a : IVec ⟨1, ![800000]⟩ 32) (b : IVec ⟨1, ![50000]⟩ 32)
    (h : Shape.Concatenates [(⟨1, ![800000]⟩ : Shape), (⟨1, ![50000]⟩ : Shape)] (⟨1, ![850000]⟩ : Shape) (0 : Fin 1))
    (ha : ∀ e : Fin 800000, a (ix1 e) = ei (ix2 (0 : Fin 2) e))
    (hb : ∀ v : Fin 50000, b (ix1 v) = BitVec.ofNat 32 v.val) (r : Fin 850000) :
    concatenate (⟨1, ![850000]⟩ : Shape) (0 : Fin 1) [⟨(⟨1, ![800000]⟩ : Shape), a⟩, ⟨(⟨1, ![50000]⟩ : Shape), b⟩] h (ix1 r) =
      src2 ei r := by
  rw [concat_edges_apply a b h r]
  unfold src2
  by_cases hlt : r.val < 800000
  · rw [dif_pos hlt, dif_pos hlt, ha]
  · rw [dif_neg hlt, dif_neg hlt, hb]

/-- The targets: row `1` of the edge array followed by the node numbers. -/
theorem concat_dst2 (ei : IVec ⟨2, ![2, 800000]⟩ 32) (a : IVec ⟨1, ![800000]⟩ 32) (b : IVec ⟨1, ![50000]⟩ 32)
    (h : Shape.Concatenates [(⟨1, ![800000]⟩ : Shape), (⟨1, ![50000]⟩ : Shape)] (⟨1, ![850000]⟩ : Shape) (0 : Fin 1))
    (ha : ∀ e : Fin 800000, a (ix1 e) = ei (ix2 (1 : Fin 2) e))
    (hb : ∀ v : Fin 50000, b (ix1 v) = BitVec.ofNat 32 v.val) (r : Fin 850000) :
    concatenate (⟨1, ![850000]⟩ : Shape) (0 : Fin 1) [⟨(⟨1, ![800000]⟩ : Shape), a⟩, ⟨(⟨1, ![50000]⟩ : Shape), b⟩] h (ix1 r) =
      dst2 ei r := by
  rw [concat_edges_apply a b h r]
  unfold dst2
  by_cases hlt : r.val < 800000
  · rw [dif_pos hlt, dif_pos hlt, ha]
  · rw [dif_neg hlt, dif_neg hlt, hb]

/-! ## The degree -/

/-- Ones accumulated at the edges' targets into zeros: the in-degree with self-loops. -/
theorem deg_apply (ei : IVec ⟨2, ![2, 800000]⟩ 32)
    (wf : ScatterDims.WF ⟨1, ![50000]⟩ ⟨2, ![850000, 1]⟩ ⟨1, ![850000]⟩ [] [0] [0] 1)
    (x : FVec Ideal ⟨1, ![50000]⟩ .f32) (idx : IVec ⟨2, ![850000, 1]⟩ 32) (upd : FVec Ideal ⟨1, ![850000]⟩ .f32)
    (hx : ∀ v : Fin 50000, x (ix1 v) = 0) (hidx : ∀ r : Fin 850000, idx (ix2 r (0 : Fin 1)) = dst2 ei r)
    (hu : ∀ r : Fin 850000, upd (ix1 r) = one32) (v : Fin 50000) :
    Host.scatterAdd (scatter1Dims 50000 850000 wf) x idx upd (ix1 v) = refDeg ei v := by
  rw [scatterAdd1_apply wf x idx upd v, hx]
  unfold refDeg
  refine congrArg (fun s => (0 : EReal) + s) (Finset.sum_congr rfl fun r _ => ?_)
  rw [hidx, hu]

/-! ## Reading at an edge's endpoint -/

/-- A per-node value read at an edge's normalised endpoint `normIdx b`: the value at `rowOf b`. -/
theorem gather_node_apply {α : Type}
    (wf : GatherDims.WF ⟨1, ![50000]⟩ ⟨2, ![850000, 1]⟩ ⟨1, ![850000]⟩ [] [0] [] [0] [] 1 ![1])
    (x : (⟨1, ![50000]⟩ : Shape).Idx → α) (idx : IVec ⟨2, ![850000, 1]⟩ 32) (r : Fin 850000) (b : BitVec 32)
    (hidx : idx (ix2 r (0 : Fin 1)) = normIdx b) :
    Host.gather (gather1Dims 50000 850000 wf) x idx (ix1 r) = x (ix1 (rowOf b)) := by
  rw [gather1_apply wf (by omega) x idx r]
  refine congrArg (fun k : Fin 50000 => x (ix1 k)) (Fin.ext ?_)
  show min (idx (ix2 r (0 : Fin 1))).toInt.toNat (50000 - 1) = min (normIdx b).toInt.toNat 49999
  rw [hidx]

/-- A node's row read at an edge's normalised endpoint `normIdx b`: row `rowOf b`. -/
theorem gather_row_apply {α : Type}
    (wf : GatherDims.WF ⟨2, ![50000, 64]⟩ ⟨2, ![850000, 1]⟩ ⟨2, ![850000, 64]⟩ [1] [0] [] [0] [] 1 ![1, 64])
    (x : (⟨2, ![50000, 64]⟩ : Shape).Idx → α) (idx : IVec ⟨2, ![850000, 1]⟩ 32) (r : Fin 850000) (j : Fin 64)
    (b : BitVec 32) (hidx : idx (ix2 r (0 : Fin 1)) = normIdx b) :
    Host.gather (gatherRowsDims 50000 850000 64 wf) x idx (ix2 r j) = x (ix2 (rowOf b) j) := by
  rw [gather_rows_apply wf (by omega) x idx r j]
  refine congrArg (fun k : Fin 50000 => x (ix2 k j)) (Fin.ext ?_)
  show min (idx (ix2 r (0 : Fin 1))).toInt.toNat (50000 - 1) = min (normIdx b).toInt.toNat 49999
  rw [hidx]

/-! ## The aggregation -/

/-- Rows accumulated at the edges' targets into zeros, at `(v, j)`. -/
theorem agg_apply (ei : IVec ⟨2, ![2, 800000]⟩ 32)
    (wf : ScatterDims.WF ⟨2, ![50000, 64]⟩ ⟨2, ![850000, 1]⟩ ⟨2, ![850000, 64]⟩ [1] [0] [0] 1)
    (x : FVec Ideal ⟨2, ![50000, 64]⟩ .f32) (idx : IVec ⟨2, ![850000, 1]⟩ 32) (upd : FVec Ideal ⟨2, ![850000, 64]⟩ .f32)
    (hx : ∀ (v : Fin 50000) (j : Fin 64), x (ix2 v j) = 0)
    (hidx : ∀ r : Fin 850000, idx (ix2 r (0 : Fin 1)) = dst2 ei r) (v : Fin 50000) (j : Fin 64) :
    Host.scatterAdd (scatterRowsDims 50000 850000 64 wf) x idx upd (ix2 v j) =
      0 + ∑ r : Fin 850000, (if (dst2 ei r).toInt = (v.val : Int) then upd (ix2 r j) else 0) := by
  rw [scatterAdd_rows_apply wf x idx upd v j, hx]
  refine congrArg (fun s => (0 : EReal) + s) (Finset.sum_congr rfl fun r _ => ?_)
  rw [hidx]

/-! ## The inverse square root of the degree, as a compare and a select -/

/-- "`d > 0` selects `rsqrt d`, else `0`" on one extended real: the compare is the order's, the select reads its bit. -/
theorem dinv_select (d : EReal) :
    Scalar.select (Ideal.cmp .ogt d 0) (Ideal.rsqrt d) (0 : EReal) = if 0 < d then Ideal.rsqrt d else 0 := by
  unfold Scalar.select Ideal.cmp
  by_cases h : (0 : EReal) < d
  · rw [if_pos h]
    show (if BitVec.ofBool (decide ((0 : EReal) < d)) = 1 then Ideal.rsqrt d else 0) = Ideal.rsqrt d
    rw [decide_eq_true h]; rfl
  · rw [if_neg h]
    show (if BitVec.ofBool (decide ((0 : EReal) < d)) = 1 then Ideal.rsqrt d else 0) = 0
    rw [decide_eq_false h]; rfl

/-! ## The per-graph sum -/

/-- One-column rows accumulated at the nodes' graph numbers into zeros, at `(g, 0)`: `0` plus the sum over the nodes
    whose graph number, read signed, is `g`. -/
theorem out_scatter_apply (wf : ScatterDims.WF ⟨2, ![500, 1]⟩ ⟨2, ![50000, 1]⟩ ⟨2, ![50000, 1]⟩ [1] [0] [0] 1)
    (x : FVec Ideal ⟨2, ![500, 1]⟩ .f32) (idx : IVec ⟨2, ![50000, 1]⟩ 32) (upd : FVec Ideal ⟨2, ![50000, 1]⟩ .f32)
    (batch : IVec ⟨1, ![50000]⟩ 32) (hx : ∀ g : Fin 500, x (ix2 g (0 : Fin 1)) = 0)
    (hidx : ∀ v : Fin 50000, idx (ix2 v (0 : Fin 1)) = batch (ix1 v)) (g : Fin 500) :
    Host.scatterAdd (scatterRowsDims 500 50000 1 wf) x idx upd (ix2 g (0 : Fin 1)) =
      0 + ∑ v : Fin 50000, (if (batch (ix1 v)).toInt = (g.val : Int) then upd (ix2 v (0 : Fin 1)) else 0) := by
  rw [scatterAdd_rows_apply wf x idx upd g (0 : Fin 1), hx]
  refine congrArg (fun s => (0 : EReal) + s) (Finset.sum_congr rfl fun v _ => ?_)
  rw [hidx]

/-! ## The input columns side by side -/

/-- 14 columns followed by 2 columns, at `(v, c)`: the first piece at column `c` when `c < 14`, else the second piece
    at column `c − 14`. -/
theorem concat_cols_apply {α : Type} (a : (⟨2, ![50000, 14]⟩ : Shape).Idx → α) (b : (⟨2, ![50000, 2]⟩ : Shape).Idx → α)
    (h : Shape.Concatenates [(⟨2, ![50000, 14]⟩ : Shape), (⟨2, ![50000, 2]⟩ : Shape)] (⟨2, ![50000, 16]⟩ : Shape) (1 : Fin 2))
    (v : Fin 50000) (c : Fin 16) :
    concatenate (⟨2, ![50000, 16]⟩ : Shape) (1 : Fin 2) [⟨(⟨2, ![50000, 14]⟩ : Shape), a⟩, ⟨(⟨2, ![50000, 2]⟩ : Shape), b⟩] h
        (ix2 v c) =
      if hlt : c.val < 14 then a (ix2 v (⟨c.val, hlt⟩ : Fin 14))
      else b (ix2 v (⟨c.val - 14, by have := c.isLt; omega⟩ : Fin 2)) := by
  by_cases hlt : c.val < 14
  · rw [dif_pos hlt]
    refine concatenate_pair_apply_left (1 : Fin 2) a b h (ix2 v c) rfl (ix2 v (⟨c.val, hlt⟩ : Fin 14)) fun d => ?_
    match d with
    | ⟨0, _⟩ => rfl
    | ⟨1, _⟩ => rfl
  · rw [dif_neg hlt]
    refine concatenate_pair_apply_right (1 : Fin 2) a b h (ix2 v c) rfl rfl
      (ix2 v (⟨c.val - 14, by have := c.isLt; omega⟩ : Fin 2)) (fun d hd => ?_) ?_
    · match d with
      | ⟨0, _⟩ => rfl
      | ⟨1, _⟩ => exact absurd rfl hd
    · show (c.val - 14) + 14 = c.val
      omega

end Cert.ReferenceIdeal.RefValue

end
-- ==== Proof.KI.Val0.lean ====
/-
  Region 0's value: the array the encoder leaves.

  At grid point t the body stores, into block t of the output (rows 2000 t … 2000 t + 1999), the product of block t of
  the input rows with the whole weight matrix, plus the bias row on every row. Block t of the input is rows
  2000 t … 2000 t + 1999 of the input array, so entry (r, q) of what is stored at point r / 2000 is the sum over k of
  input (r, k) times weight (k, q), plus bias q: one function of the three arrays, entry by entry. The 25 blocks tile
  the 50000 rows, so after the region the output array is that function everywhere.
-/
import proofs.«131582_j65292092834213_2_alg».proof.Proof.KI.R0
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The encoder's matrix product: which operand entries an output entry reads -/

/-- The left operand is read on its row axis at the output's row, -/
theorem dot0_lhs0 (j : S2000x64.Idx) (q : dot_S2000x16_S16x64_S2000x64_1_0_0_1_n_n.contr.Idx) :
    (dot_S2000x16_S16x64_S2000x64_1_0_0_1_n_n.lhsIdx j q 0).val = (j 0).val := by
  unfold DotDims.lhsIdx
  rw [dif_neg (show ¬(0 : Fin S2000x16.rank) ∈ dot_S2000x16_S16x64_S2000x64_1_0_0_1_n_n.lhsBatch by decide),
    dif_pos (show (0 : Fin S2000x16.rank) ∈ dot_S2000x16_S16x64_S2000x64_1_0_0_1_n_n.lhsNonContracting by decide)]
  rfl
/-- and on its column axis at the contraction index; -/
theorem dot0_lhs1 (j : S2000x64.Idx) (q : dot_S2000x16_S16x64_S2000x64_1_0_0_1_n_n.contr.Idx) :
    (dot_S2000x16_S16x64_S2000x64_1_0_0_1_n_n.lhsIdx j q 1).val = (q ⟨0, by decide⟩).val :=
  dot_S2000x16_S16x64_S2000x64_1_0_0_1_n_n.lhsIdx_val_of_single rfl j q
/-- the right operand on its row axis at the contraction index, -/
theorem dot0_rhs0 (j : S2000x64.Idx) (q : dot_S2000x16_S16x64_S2000x64_1_0_0_1_n_n.contr.Idx) :
    (dot_S2000x16_S16x64_S2000x64_1_0_0_1_n_n.rhsIdx j q 0).val = (q ⟨0, by decide⟩).val :=
  dot_S2000x16_S16x64_S2000x64_1_0_0_1_n_n.rhsIdx_val_of_single rfl j q
/-- and on its column axis at the output's column. -/
theorem dot0_rhs1 (j : S2000x64.Idx) (q : dot_S2000x16_S16x64_S2000x64_1_0_0_1_n_n.contr.Idx) :
    (dot_S2000x16_S16x64_S2000x64_1_0_0_1_n_n.rhsIdx j q 1).val = (j 1).val := by
  unfold DotDims.rhsIdx
  rw [dif_neg (show ¬(1 : Fin S16x64.rank) ∈ dot_S2000x16_S16x64_S2000x64_1_0_0_1_n_n.rhsBatch by decide),
    dif_pos (show (1 : Fin S16x64.rank) ∈ dot_S2000x16_S16x64_S2000x64_1_0_0_1_n_n.rhsNonContracting by decide)]
  rfl

/-- THE BODY'S PAYLOAD AT AN ENTRY. Row `p`, column `q` of what the body stores is the product of row `p` of the feature
    block with column `q` of the weights — the sum over the 16 features — plus entry `q` of the bias row. (On the
    extended reals the roundings to sixteen bits on the way into the product are the identity, and the product
    accumulates into zero.) -/
theorem pay0_apply (x0 : Vec Ideal S2000x16 .f32) (x1 : Vec Ideal S16x64 .f32) (x2 : Vec Ideal S1x64 .f32)
    (p : Fin 2000) (q : Fin 64) :
    k0_pay1 (F := Ideal) x0 x1 x2 (ix2 p q) = (∑ k : Fin 16, x0 (ix2 p k) * x1 (ix2 k q)) + x2 (ix2 0 q) := by
  unfold k0_pay1
  refine (addf_apply _ _ (ix2 p q)).trans ?_
  refine congrArg₂ (· + ·) ?_ ?_
  · refine (Ideal.matmul_constant_zero_apply dot_S2000x16_S16x64_S2000x64_1_0_0_1_n_n none _ _ (ix2 p q)).trans ?_
    rw [← Equiv.sum_comp (contrEquiv1 dot_S2000x16_S16x64_S2000x64_1_0_0_1_n_n 16 rfl rfl).symm]
    refine Finset.sum_congr rfl fun k _ => ?_
    have hk := contrEquiv1_symm_val dot_S2000x16_S16x64_S2000x64_1_0_0_1_n_n 16 rfl rfl k
    refine congrArg₂ (· * ·) ?_ ?_
    · refine (congrFun (shapeCast_self x0 _) _).trans ?_
      refine congrArg x0 (funext fun a => Fin.ext ?_)
      match a with
      | ⟨0, _⟩ => exact dot0_lhs0 _ _
      | ⟨1, _⟩ => exact (dot0_lhs1 _ _).trans hk
    · refine congrArg x1 (funext fun a => Fin.ext ?_)
      match a with
      | ⟨0, _⟩ => exact (dot0_rhs0 _ _).trans hk
      | ⟨1, _⟩ => exact dot0_rhs1 _ _
  · refine (broadcastTo_apply _ _ (ix2 p q) (ix2 0 q) ?_).trans ?_
    · intro a
      match a with
      | ⟨0, _⟩ => show (0 : ℕ) = if (1 : ℕ) = 1 then 0 else _; rw [if_pos rfl]
      | ⟨1, _⟩ => show q.val = if (64 : ℕ) = 1 then 0 else q.val; rw [if_neg (by decide)]
    · exact congrFun (shapeCast_self x2 _) _

/-! ## The array after the region -/

/-- THE ENCODER'S RESULT as one function of the feature array, the weights and the bias row: entry `(r, q)` is the sum
    over the 16 features of feature `(r, k)` times weight `(k, q)`, plus bias `q`. -/
def encG (inp : Vec Ideal S50000x16 .f32) (W : Vec Ideal S16x64 .f32) (b : Vec Ideal S1x64 .f32) : Vec Ideal S50000x64 .f32 :=
  fun i => (∑ k : Fin 16, inp (ix2 (n0 := 50000) (i 0) k) * W (ix2 (n1 := 64) k (i 1))) + b (ix2 (n0 := 1) (n1 := 64) 0 (i 1))

/-- The same at an entry given by its row and column. -/
theorem encG_apply (inp : Vec Ideal S50000x16 .f32) (W : Vec Ideal S16x64 .f32) (b : Vec Ideal S1x64 .f32)
    (r : Fin 50000) (q : Fin 64) :
    encG inp W b (ix2 r q) = (∑ k : Fin 16, inp (ix2 r k) * W (ix2 k q)) + b (ix2 0 q) := rfl

variable (V : (c : Dev nD) → (b : Ref sig .tc) → Buf (Elt Ideal) ((c : Thread nD τ).loc b))

/-- The zero offsets of a whole-block access, however spelt. -/
theorem hz0 : (![0, 0] : Fin 2 → Nat) = fun _ => 0 := funext fun a => by fin_cases a <;> rfl

/-- Where each window's block sits at each grid point: the feature and output blocks at block row `t`, the weights and
    the bias row always at their one block. Decided over the 25 points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `encG` of the three arrays as the region finds them. -/
theorem flushed0_3_eq (c : Dev nD) (t : Fin cfg0.N) :
    (dat0 (F := Ideal) V c).flushed 3 t
      = ((cfg0.win 3).blk t).view.read (Elt Ideal) (encG (V c main_v12) (V c main_arg4) (V c main_v13)) := by
  show (cfg0.win 3).cut (grid0.coords t) ((dat0 V c).after 3 t) = _
  rw [after0_3]
  unfold out0_3
  rw [View.canon_unit_zero hz0]
  simp only [View.ld_unit_zero (S := S2000x16) hz0, View.ld_unit_zero (S := S16x64) hz0, View.ld_unit_zero (S := S1x64) hz0]
  obtain ⟨e0, e1, e2, e3, e4, e5, e6, e7⟩ := idx_facts0 t
  funext y
  obtain ⟨p, q, rfl⟩ : ∃ (p : Fin 2000) (q : Fin 64), y = ix2 p q := ⟨y 0, y 1, eq_ix2 y⟩
  show k0_pay1 (F := Ideal) (iblk0 V c 0 t) (iblk0 V c 1 t) (iblk0 V c 2 t) (ix2 p q)
    = encG (V c main_v12) (V c main_arg4) (V c main_v13) (((cfg0.win 3).blk t).view.emb (ix2 p q))
  refine (pay0_apply _ _ _ p q).trans ?_
  have hrow : (((cfg0.win 3).blk t).view.emb (ix2 p q) : S50000x64.Idx)
      = ix2 (⟨2000 * t.val + p.val, by have ht : t.val < 25 := lt_of_lt_of_eq t.isLt N_0; have := p.isLt; omega⟩ : Fin 50000) q := by
    funext a; apply Fin.ext
    match a with
    | ⟨0, _⟩ => show win0_3.index t (0 : Fin 2) * 2000 + 1 * p.val = 2000 * t.val + p.val; rw [e6]; omega
    | ⟨1, _⟩ => show win0_3.index t (1 : Fin 2) * 64 + 1 * q.val = q.val; rw [e7]; omega
  rw [hrow, encG_apply]
  refine congrArg₂ (· + ·) (Finset.sum_congr rfl fun k _ => congrArg₂ (· * ·) ?_ ?_) ?_
  · show V c main_v12 (((cfg0.win 0).blk t).view.emb (ix2 p k)) = V c main_v12 _
    refine congrArg _ (funext fun a => Fin.ext ?_)
    match a with
    | ⟨0, _⟩ => show win0_0.index t (0 : Fin 2) * 2000 + 1 * p.val = 2000 * t.val + p.val; rw [e0]; omega
    | ⟨1, _⟩ => show win0_0.index t (1 : Fin 2) * 16 + 1 * k.val = k.val; rw [e1]; omega
  · show V c main_arg4 (((cfg0.win 1).blk t).view.emb (ix2 k q)) = V c main_arg4 _
    refine congrArg _ (funext fun a => Fin.ext ?_)
    match a with
    | ⟨0, _⟩ => show win0_1.index t (0 : Fin 2) * 16 + 1 * k.val = k.val; rw [e2]; omega
    | ⟨1, _⟩ => show win0_1.index t (1 : Fin 2) * 64 + 1 * q.val = q.val; rw [e3]; omega
  · show V c main_v13 (((cfg0.win 2).blk t).view.emb (ix2 0 q)) = V c main_v13 _
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * q.val = q.val; rw [e5]; omega

/-- An entry of the output array is in point `t`'s block iff each coordinate is in the block's range on its axis. -/
theorem mem_blk0_3 (t : Fin cfg0.N) (i : S50000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v14).slice (win0_3.rect t)).set ↔ _
  rw [View.set_slice_whole, Rect.mem_set_unit]
  exact Iff.rfl

/-- Every entry of the output array is in some point's block: row `r` in the block of point `r / 2000`. -/
theorem covered0_3 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 25 := N_0
  refine ⟨⟨(i 0).val / 2000, by rw [hN]; omega⟩, flush0_3 _, ?_⟩
  obtain ⟨e0, e1, e2, e3, e4, e5, e6, e7⟩ := idx_facts0 ⟨(i 0).val / 2000, by rw [hN]; omega⟩
  rw [mem_blk0_3]
  intro a
  match a with
  | ⟨0, _⟩ =>
    show win0_3.index _ (0 : Fin 2) * 2000 ≤ (i 0).val ∧ (i 0).val < win0_3.index _ (0 : Fin 2) * 2000 + 2000
    rw [e6]; show (i 0).val / 2000 * 2000 ≤ (i 0).val ∧ (i 0).val < (i 0).val / 2000 * 2000 + 2000; omega
  | ⟨1, _⟩ =>
    show win0_3.index _ (1 : Fin 2) * 64 ≤ (i 1).val ∧ (i 1).val < win0_3.index _ (1 : Fin 2) * 64 + 64
    rw [e7]; omega

/-- THE OUTPUT ARRAY AFTER THE REGION is `encG` of the feature array, the weights and the bias row as the region finds
    them. -/
theorem arr0_3 (c : Dev nD) :
    (dat0 (F := Ideal) V c).arrAt 3 cfg0.N = encG (V c main_v12) (V c main_arg4) (V c main_v13) :=
  (dat0 (F := Ideal) V c).arrAt_eq_of_cover 3 (encG (V c main_v12) (V c main_arg4) (V c main_v13))
    (fun t _ => flushed0_3_eq V c t) covered0_3

end Cert.KernelIdeal.Fr

end
-- ==== Proof.KI.Val11.lean ====
/-
  Region 11's value: the array the decoder leaves.

  At grid point t the body stores, into block t of the output (rows 2000 t … 2000 t + 1999), the product of block t of
  the input rows with the whole weight matrix, plus the bias row on every row. Block t of the input is rows
  2000 t … 2000 t + 1999 of the input array, so entry (r, q) of what is stored at point r / 2000 is the sum over k of
  input (r, k) times weight (k, q), plus bias q: one function of the three arrays, entry by entry. The 25 blocks tile
  the 50000 rows, so after the region the output array is that function everywhere.
-/
import proofs.«131582_j65292092834213_2_alg».proof.Proof.KI.R11
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The decoder's matrix product: which operand entries an output entry reads -/

/-- The left operand is read on its row axis at the output's row, -/
theorem dot11_lhs0 (j : S2000x1.Idx) (q : dot_S2000x64_S64x1_S2000x1_1_0_0_1_n_n.contr.Idx) :
    (dot_S2000x64_S64x1_S2000x1_1_0_0_1_n_n.lhsIdx j q 0).val = (j 0).val := by
  unfold DotDims.lhsIdx
  rw [dif_neg (show ¬(0 : Fin S2000x64.rank) ∈ dot_S2000x64_S64x1_S2000x1_1_0_0_1_n_n.lhsBatch by decide),
    dif_pos (show (0 : Fin S2000x64.rank) ∈ dot_S2000x64_S64x1_S2000x1_1_0_0_1_n_n.lhsNonContracting by decide)]
  rfl
/-- and on its column axis at the contraction index; -/
theorem dot11_lhs1 (j : S2000x1.Idx) (q : dot_S2000x64_S64x1_S2000x1_1_0_0_1_n_n.contr.Idx) :
    (dot_S2000x64_S64x1_S2000x1_1_0_0_1_n_n.lhsIdx j q 1).val = (q ⟨0, by decide⟩).val :=
  dot_S2000x64_S64x1_S2000x1_1_0_0_1_n_n.lhsIdx_val_of_single rfl j q
/-- the right operand on its row axis at the contraction index, -/
theorem dot11_rhs0 (j : S2000x1.Idx) (q : dot_S2000x64_S64x1_S2000x1_1_0_0_1_n_n.contr.Idx) :
    (dot_S2000x64_S64x1_S2000x1_1_0_0_1_n_n.rhsIdx j q 0).val = (q ⟨0, by decide⟩).val :=
  dot_S2000x64_S64x1_S2000x1_1_0_0_1_n_n.rhsIdx_val_of_single rfl j q
/-- and on its column axis at the output's column. -/
theorem dot11_rhs1 (j : S2000x1.Idx) (q : dot_S2000x64_S64x1_S2000x1_1_0_0_1_n_n.contr.Idx) :
    (dot_S2000x64_S64x1_S2000x1_1_0_0_1_n_n.rhsIdx j q 1).val = (j 1).val := by
  unfold DotDims.rhsIdx
  rw [dif_neg (show ¬(1 : Fin S64x1.rank) ∈ dot_S2000x64_S64x1_S2000x1_1_0_0_1_n_n.rhsBatch by decide),
    dif_pos (show (1 : Fin S64x1.rank) ∈ dot_S2000x64_S64x1_S2000x1_1_0_0_1_n_n.rhsNonContracting by decide)]
  rfl

/-- THE BODY'S PAYLOAD AT AN ENTRY. Row `p` (and the one column `q`) of what the body stores is the product of row `p`
    of the state block with the weight column — the sum over the 64 hidden features — plus the one bias entry. (On
    the extended reals the roundings to sixteen bits on the way into the product are the identity, and the product
    accumulates into zero.) -/
theorem pay11_apply (x0 : Vec Ideal S2000x64 .f32) (x1 : Vec Ideal S64x1 .f32) (x2 : Vec Ideal S1x1 .f32)
    (p : Fin 2000) (q : Fin 1) :
    k11_pay1 (F := Ideal) x0 x1 x2 (ix2 p q) = (∑ k : Fin 64, x0 (ix2 p k) * x1 (ix2 k q)) + x2 (ix2 0 q) := by
  unfold k11_pay1
  refine (addf_apply _ _ (ix2 p q)).trans ?_
  refine congrArg₂ (· + ·) ?_ ?_
  · refine (Ideal.matmul_constant_zero_apply dot_S2000x64_S64x1_S2000x1_1_0_0_1_n_n none _ _ (ix2 p q)).trans ?_
    rw [← Equiv.sum_comp (contrEquiv1 dot_S2000x64_S64x1_S2000x1_1_0_0_1_n_n 64 rfl rfl).symm]
    refine Finset.sum_congr rfl fun k _ => ?_
    have hk := contrEquiv1_symm_val dot_S2000x64_S64x1_S2000x1_1_0_0_1_n_n 64 rfl rfl k
    refine congrArg₂ (· * ·) ?_ ?_
    · refine (congrFun (shapeCast_self x0 _) _).trans ?_
      refine congrArg x0 (funext fun a => Fin.ext ?_)
      match a with
      | ⟨0, _⟩ => exact dot11_lhs0 _ _
      | ⟨1, _⟩ => exact (dot11_lhs1 _ _).trans hk
    · refine congrArg x1 (funext fun a => Fin.ext ?_)
      match a with
      | ⟨0, _⟩ => exact (dot11_rhs0 _ _).trans hk
      | ⟨1, _⟩ => exact dot11_rhs1 _ _
  · refine (broadcastTo_apply _ _ (ix2 p q) (ix2 0 q) ?_).trans ?_
    · intro a
      match a with
      | ⟨0, _⟩ => show (0 : ℕ) = if (1 : ℕ) = 1 then 0 else _; rw [if_pos rfl]
      | ⟨1, _⟩ => show q.val = if (1 : ℕ) = 1 then 0 else q.val; rw [if_pos rfl]; exact Fin.val_eq_zero q
    · exact congrFun (shapeCast_self x2 _) _

/-! ## The array after the region -/

/-- THE DECODER'S RESULT as one function of the state array, the weight column and the bias entry: entry `(r, q)` (the
    one column `q`) is the sum over the 64 hidden features of state `(r, k)` times weight `(k, q)`, plus the bias. -/
def decG (inp : Vec Ideal S50000x64 .f32) (W : Vec Ideal S64x1 .f32) (b : Vec Ideal S1x1 .f32) : Vec Ideal S50000x1 .f32 :=
  fun i => (∑ k : Fin 64, inp (ix2 (n0 := 50000) (i 0) k) * W (ix2 (n1 := 1) k (i 1))) + b (ix2 (n0 := 1) (n1 := 1) 0 (i 1))

/-- The same at an entry given by its row and column. -/
theorem decG_apply (inp : Vec Ideal S50000x64 .f32) (W : Vec Ideal S64x1 .f32) (b : Vec Ideal S1x1 .f32)
    (r : Fin 50000) (q : Fin 1) :
    decG inp W b (ix2 r q) = (∑ k : Fin 64, inp (ix2 r k) * W (ix2 k q)) + b (ix2 0 q) := rfl

variable (V : (c : Dev nD) → (b : Ref sig .tc) → Buf (Elt Ideal) ((c : Thread nD τ).loc b))

/-- The zero offsets of a whole-block access, however spelt. -/
theorem hz11 : (![0, 0] : Fin 2 → Nat) = fun _ => 0 := funext fun a => by fin_cases a <;> rfl

/-- Where each window's block sits at each grid point: the state and output blocks at block row `t`, the weight column
    and the bias entry always at their one block. Decided over the 25 points. -/
theorem idx_facts11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- WHAT POINT `t` WRITES BACK is block `t` of `decG` of the three arrays as the region finds them. -/
theorem flushed11_3_eq (c : Dev nD) (t : Fin cfg11.N) :
    (dat11 (F := Ideal) V c).flushed 3 t
      = ((cfg11.win 3).blk t).view.read (Elt Ideal) (decG (V c main_v89_0) (V c main_arg10) (V c main_v90)) := by
  show (cfg11.win 3).cut (grid11.coords t) ((dat11 V c).after 3 t) = _
  rw [after11_3]
  unfold out11_3
  rw [View.canon_unit_zero hz11]
  simp only [View.ld_unit_zero (S := S2000x64) hz11, View.ld_unit_zero (S := S64x1) hz11, View.ld_unit_zero (S := S1x1) hz11]
  obtain ⟨e0, e1, e2, e3, e4, e5, e6, e7⟩ := idx_facts11 t
  funext y
  obtain ⟨p, q, rfl⟩ : ∃ (p : Fin 2000) (q : Fin 1), y = ix2 p q := ⟨y 0, y 1, eq_ix2 y⟩
  show k11_pay1 (F := Ideal) (iblk11 V c 0 t) (iblk11 V c 1 t) (iblk11 V c 2 t) (ix2 p q)
    = decG (V c main_v89_0) (V c main_arg10) (V c main_v90) (((cfg11.win 3).blk t).view.emb (ix2 p q))
  refine (pay11_apply _ _ _ p q).trans ?_
  have hq : q.val = 0 := Fin.val_eq_zero q
  have hrow : (((cfg11.win 3).blk t).view.emb (ix2 p q) : S50000x1.Idx)
      = ix2 (⟨2000 * t.val + p.val, by have ht : t.val < 25 := lt_of_lt_of_eq t.isLt N_11; have := p.isLt; omega⟩ : Fin 50000) q := by
    funext a; apply Fin.ext
    match a with
    | ⟨0, _⟩ => show win11_3.index t (0 : Fin 2) * 2000 + 1 * p.val = 2000 * t.val + p.val; omega
    | ⟨1, _⟩ => show win11_3.index t (1 : Fin 2) * 1 + 1 * q.val = q.val; omega
  rw [hrow, decG_apply]
  refine congrArg₂ (· + ·) (Finset.sum_congr rfl fun k _ => congrArg₂ (· * ·) ?_ ?_) ?_
  · show V c main_v89_0 (((cfg11.win 0).blk t).view.emb (ix2 p k)) = V c main_v89_0 _
    refine congrArg _ (funext fun a => Fin.ext ?_)
    match a with
    | ⟨0, _⟩ => show win11_0.index t (0 : Fin 2) * 2000 + 1 * p.val = 2000 * t.val + p.val; omega
    | ⟨1, _⟩ => show win11_0.index t (1 : Fin 2) * 64 + 1 * k.val = k.val; omega
  · show V c main_arg10 (((cfg11.win 1).blk t).view.emb (ix2 k q)) = V c main_arg10 _
    refine congrArg _ (funext fun a => Fin.ext ?_)
    match a with
    | ⟨0, _⟩ => show win11_1.index t (0 : Fin 2) * 64 + 1 * k.val = k.val; omega
    | ⟨1, _⟩ => show win11_1.index t (1 : Fin 2) * 1 + 1 * q.val = q.val; omega
  · show V c main_v90 (((cfg11.win 2).blk t).view.emb (ix2 0 q)) = V c main_v90 _
    refine congrArg _ (funext fun a => Fin.ext ?_)
    match a with
    | ⟨0, _⟩ => show win11_2.index t (0 : Fin 2) * 1 + 1 * 0 = 0; omega
    | ⟨1, _⟩ => show win11_2.index t (1 : Fin 2) * 1 + 1 * q.val = q.val; omega

/-- An entry of the output array is in point `t`'s block iff each coordinate is in the block's range on its axis. -/
theorem mem_blk11_3 (t : Fin cfg11.N) (i : S50000x1.Idx) :
    i ∈ ((cfg11.win 3).blk t).view.set ↔ ∀ a : Fin 2, win11_3.index t a * S2000x1.size a ≤ (i a).val
      ∧ (i a).val < win11_3.index t a * S2000x1.size a + S2000x1.size a := by
  show i ∈ ((View.whole main_v91).slice (win11_3.rect t)).set ↔ _
  rw [View.set_slice_whole, Rect.mem_set_unit]
  exact Iff.rfl

/-- Every entry of the output array is in some point's block: row `r` in the block of point `r / 2000`. -/
theorem covered11_3 (i : S50000x1.Idx) :
    ∃ t : Fin cfg11.N, (cfg11.win 3).flush t = true ∧ i ∈ ((cfg11.win 3).blk t).view.set := by
  have hi0 : (i 0).val < 50000 := (i 0).isLt
  have hi1 : (i 1).val < 1 := (i 1).isLt
  have hN : cfg11.N = 25 := N_11
  refine ⟨⟨(i 0).val / 2000, by rw [hN]; omega⟩, flush11_3 _, ?_⟩
  obtain ⟨e0, e1, e2, e3, e4, e5, e6, e7⟩ := idx_facts11 ⟨(i 0).val / 2000, by rw [hN]; omega⟩
  rw [mem_blk11_3]
  intro a
  match a with
  | ⟨0, _⟩ =>
    show win11_3.index _ (0 : Fin 2) * 2000 ≤ (i 0).val ∧ (i 0).val < win11_3.index _ (0 : Fin 2) * 2000 + 2000
    rw [e6]; show (i 0).val / 2000 * 2000 ≤ (i 0).val ∧ (i 0).val < (i 0).val / 2000 * 2000 + 2000; omega
  | ⟨1, _⟩ =>
    show win11_3.index _ (1 : Fin 2) * 1 ≤ (i 1).val ∧ (i 1).val < win11_3.index _ (1 : Fin 2) * 1 + 1
    rw [e7]; omega

/-- THE OUTPUT ARRAY AFTER THE REGION is `decG` of the state array, the weight column and the bias entry as the region
    finds them. -/
theorem arr11_3 (c : Dev nD) :
    (dat11 (F := Ideal) V c).arrAt 3 cfg11.N = decG (V c main_v89_0) (V c main_arg10) (V c main_v90) :=
  (dat11 (F := Ideal) V c).arrAt_eq_of_cover 3 (decG (V c main_v89_0) (V c main_arg10) (V c main_v90))
    (fun t _ => flushed11_3_eq V c t) covered11_3

end Cert.KernelIdeal.Fr

end
-- ==== Proof.KI.ValScaled.lean ====
/-
  The scaled matrix product, read at an index on the extended reals: a [2000, 64] row block times the [64, 64] weights
  is, at (p, q), the sum over the 64 shared coordinates of the products; a [2000, 1] column broadcast along the rows
  reads, at (p, q), the entry of row p; and the specification of the whole arrays: entry (r, q) is row r of the
  features times column q of the weights, times the scale of row r.
-/
import proofs.«131582_j65292092834213_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Fr

open Cert.KernelIdeal Cert.KernelIdeal.Gen
open Idealize.ShloMosaic Idealize.ShloMosaic.TcCoe Idealize.SL.Sem
open Idealize.ShloMosaic.ValueIdx
open Idealize.ShloMosaic.Pipeline (Dat)

/-! ## The matrix product of a row block, at an index -/

theorem scaledDotL0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem scaledDotL1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem scaledDotR0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem scaledDotR1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- A [2000, 64] block times a [64, 64] matrix, accumulated into zero, at entry (p, q): the sum over the 64 shared
    coordinates of the products of row p of the block and column q of the matrix. -/
theorem scaled_matmul_apply (a : FVec Ideal S2000x64 .bf16) (b : FVec Ideal S64x64 .bf16) (p : Fin 2000) (q : Fin 64) :
    matmul dot_S2000x64_S64x64_S2000x64_1_0_0_1_n_n none a b (constant S2000x64 .f32 0x00000000#32) (ix2 p q)
      = ∑ k : Fin 64, a (ix2 p k) * b (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact scaledDotL0 _ _
    | ⟨1, _⟩ => exact (scaledDotL1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (scaledDotR0 _ _).trans hk
    | ⟨1, _⟩ => exact scaledDotR1 _ _)
  rw [el, er]

/-- The [2000, 1] scale column broadcast along the rows of a [2000, 64] block reads, at (p, q), the scale of row p. -/
theorem scaled_broadcast_apply (v : FVec Ideal S2000x1 .f32) (p : Fin 2000) (q : Fin 64) :
    broadcastTo S2000x64 v broadcasts_S2000x1_S2000x64 (ix2 p q) = v (ix2 p (0 : Fin 1)) := by
  refine broadcastTo_apply v broadcasts_S2000x1_S2000x64 (ix2 p q) (ix2 p (0 : Fin 1)) fun ax => ?_
  match ax with
  | ⟨0, _⟩ => rfl
  | ⟨1, _⟩ => rfl

/-! ## The specification -/

theorem scaled_hz : (![0, 0] : Fin 2 → Nat) = fun _ => 0 := funext fun a => by fin_cases a <;> rfl

/-- The scaled product of the whole arrays: entry (r, q) is row r of the features times column q of the weights,
    times the scale of row r. -/
def hwsG (X : Vec Ideal S50000x64 .f32) (W : Vec Ideal S64x64 .f32) (dinv : Vec Ideal S50000x1 .f32) : Vec Ideal S50000x64 .bf16 :=
  fun i => (∑ k : Fin 64, X (ix2 (i 0 : Fin 50000) k) * W (ix2 k (i 1 : Fin 64))) * dinv (ix2 (i 0 : Fin 50000) (0 : Fin 1))

/-- The specification at (s, j), coordinates explicit. -/
theorem hwsG_apply (X : Vec Ideal S50000x64 .f32) (W : Vec Ideal S64x64 .f32) (dinv : Vec Ideal S50000x1 .f32) (s : Fin 50000) (j : Fin 64) :
    hwsG X W dinv (ix2 s j) = (∑ k : Fin 64, X (ix2 s k) * W (ix2 k j)) * dinv (ix2 s (0 : Fin 1)) := rfl

end Cert.KernelIdeal.Fr

end
-- ==== Proof.LibColumnBroadcast.lean ====
/-
  A column broadcast across the lanes, read at an index.

  A `[a, 1]` array (one value per row) broadcast to `[a, b]` holds, at `(p, c)`, the value of row `p`: every
  column of the result is the operand's one column.
-/
import Idealize.ShloMosaic.Lib.Pipeline.Value
import Idealize.ShloMosaic.Lib.ValueIdx

noncomputable section

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.KI.Val2.lean ====
/-
  Region 2's value: the two arrays the update leaves.

  At grid point t the body reads block t (rows 2000 t … 2000 t + 1999) of the two states, of the two aggregates and of
  the scale column, and the whole residual weights and bias rows, and stores into block t of its two outputs the new
  first and second states of those rows. Each entry (r, j) of what is stored at point r / 2000 reads row r of the node
  arrays only, so it is one function of the eight arrays, entry by entry (`updX`, `updY`). The 25 blocks tile the
  50000 rows, so after the region each output array is that function everywhere.
-/
import proofs.«131582_j65292092834213_2_alg».proof.Proof.KI.R2
import proofs.«131582_j65292092834213_2_alg».proof.Proof.LibColumnBroadcast
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open scoped BigOperators

/-! ## One step of the coupled update, as a function of whole arrays

A layer keeps two states per node, X and Y. From the aggregated neighbour rows A, the scaled transformed rows H, the
per-node scale dinv, the residual weights Wr and the two bias rows rb and cb it forms, entry by entry,
  conv = dinv * (A + H) + cb,   res = X · Wr + rb,   Δ = 1 * ((max (conv + res) 0 - 1 * Y) - 1 * X),
and leaves  Y' = Y + Δ  and  X' = X + 1 * Y'.  The factors 1 and the 0 are the 32-bit words the body holds, kept as
written; every entry of row r reads row r of the node arrays only. -/

/-- THE NEW SECOND STATE: entry `(r, j)` is `Y (r, j)` plus the increment `Δ (r, j)`. -/
def updY (X Y A : Vec Ideal S50000x64 .f32) (H : Vec Ideal S50000x64 .bf16) (dinv : Vec Ideal S50000x1 .f32)
    (Wr : Vec Ideal S64x64 .f32) (rb cb : Vec Ideal S1x64 .f32) : Vec Ideal S50000x64 .f32 :=
  fun i => Y (ix2 (n0 := 50000) (n1 := 64) (i 0) (i 1)) + Ideal.ofBits .f32 0x3F800000#32 * ((max (((dinv (ix2 (n0 := 50000) (n1 := 1) (i 0) 0) * (A (ix2 (n0 := 50000) (n1 := 64) (i 0) (i 1)) + (H (ix2 (n0 := 50000) (n1 := 64) (i 0) (i 1)) : EReal))) + cb (ix2 (n0 := 1) (n1 := 64) 0 (i 1))) + ((∑ k : Fin 64, X (ix2 (n0 := 50000) (n1 := 64) (i 0) k) * Wr (ix2 (n0 := 64) (n1 := 64) k (i 1))) + rb (ix2 (n0 := 1) (n1 := 64) 0 (i 1)))) (Ideal.ofBits .f32 0x00000000#32) - Ideal.ofBits .f32 0x3F800000#32 * Y (ix2 (n0 := 50000) (n1 := 64) (i 0) (i 1))) - Ideal.ofBits .f32 0x3F800000#32 * X (ix2 (n0 := 50000) (n1 := 64) (i 0) (i 1)))

/-- The same at an entry given by its row and column. -/
theorem updY_apply (X Y A : Vec Ideal S50000x64 .f32) (H : Vec Ideal S50000x64 .bf16) (dinv : Vec Ideal S50000x1 .f32)
    (Wr : Vec Ideal S64x64 .f32) (rb cb : Vec Ideal S1x64 .f32) (r : Fin 50000) (j : Fin 64) :
    updY X Y A H dinv Wr rb cb (ix2 r j) = Y (ix2 r j) + Ideal.ofBits .f32 0x3F800000#32 * ((max (((dinv (ix2 r 0) * (A (ix2 r j) + (H (ix2 r j) : EReal))) + cb (ix2 0 j)) + ((∑ k : Fin 64, X (ix2 r k) * Wr (ix2 k j)) + rb (ix2 0 j))) (Ideal.ofBits .f32 0x00000000#32) - Ideal.ofBits .f32 0x3F800000#32 * Y (ix2 r j)) - Ideal.ofBits .f32 0x3F800000#32 * X (ix2 r j)) := rfl

/-- THE NEW FIRST STATE: entry `(r, j)` is `X (r, j)` plus the unit word times the new second state there. -/
def updX (X Y A : Vec Ideal S50000x64 .f32) (H : Vec Ideal S50000x64 .bf16) (dinv : Vec Ideal S50000x1 .f32)
    (Wr : Vec Ideal S64x64 .f32) (rb cb : Vec Ideal S1x64 .f32) : Vec Ideal S50000x64 .f32 :=
  fun i => X (ix2 (n0 := 50000) (n1 := 64) (i 0) (i 1)) + Ideal.ofBits .f32 0x3F800000#32 * updY X Y A H dinv Wr rb cb (ix2 (n0 := 50000) (n1 := 64) (i 0) (i 1))

/-- The same at an entry given by its row and column. -/
theorem updX_apply (X Y A : Vec Ideal S50000x64 .f32) (H : Vec Ideal S50000x64 .bf16) (dinv : Vec Ideal S50000x1 .f32)
    (Wr : Vec Ideal S64x64 .f32) (rb cb : Vec Ideal S1x64 .f32) (r : Fin 50000) (j : Fin 64) :
    updX X Y A H dinv Wr rb cb (ix2 r j) = X (ix2 r j) + Ideal.ofBits .f32 0x3F800000#32 * updY X Y A H dinv Wr rb cb (ix2 r j) := rfl

/-! ## The residual product: which operand entries an output entry reads -/

/-- The left operand is read on its row axis at the output's row, -/
theorem dot2_lhs0 (j : S2000x64.Idx) (q : dot_S2000x64_S64x64_S2000x64_1_0_0_1_n_n.contr.Idx) :
    (dot_S2000x64_S64x64_S2000x64_1_0_0_1_n_n.lhsIdx j q 0).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
/-- and on its column axis at the contraction index; -/
theorem dot2_lhs1 (j : S2000x64.Idx) (q : dot_S2000x64_S64x64_S2000x64_1_0_0_1_n_n.contr.Idx) :
    (dot_S2000x64_S64x64_S2000x64_1_0_0_1_n_n.lhsIdx j q 1).val = (q ⟨0, by decide⟩).val :=
  dot_S2000x64_S64x64_S2000x64_1_0_0_1_n_n.lhsIdx_val_of_single rfl j q
/-- the right operand on its row axis at the contraction index, -/
theorem dot2_rhs0 (j : S2000x64.Idx) (q : dot_S2000x64_S64x64_S2000x64_1_0_0_1_n_n.contr.Idx) :
    (dot_S2000x64_S64x64_S2000x64_1_0_0_1_n_n.rhsIdx j q 0).val = (q ⟨0, by decide⟩).val :=
  dot_S2000x64_S64x64_S2000x64_1_0_0_1_n_n.rhsIdx_val_of_single rfl j q
/-- and on its column axis at the output's column. -/
theorem dot2_rhs1 (j : S2000x64.Idx) (q : dot_S2000x64_S64x64_S2000x64_1_0_0_1_n_n.contr.Idx) :
    (dot_S2000x64_S64x64_S2000x64_1_0_0_1_n_n.rhsIdx j q 1).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- A bias row broadcast down the 2000 rows reads, at `(p, j)`, the row's entry `j`. -/
theorem row2_apply (v : Vec Ideal S1x64 .f32) (h1 : S1x64.ShapeCasts S1x64) (h2 : S1x64.Broadcasts S2000x64) (p : Fin 2000) (j : Fin 64) :
    broadcastTo S2000x64 (shapeCast S1x64 v h1) h2 (ix2 p j) = v (ix2 0 j) := by
  refine (broadcastTo_apply _ _ (ix2 p j) (ix2 0 j) ?_).trans ?_
  · intro a
    match a with
    | ⟨0, _⟩ => show (0 : ℕ) = if (1 : ℕ) = 1 then 0 else _; rw [if_pos rfl]
    | ⟨1, _⟩ => show j.val = if (64 : ℕ) = 1 then 0 else j.val; rw [if_neg (by decide)]
  · exact congrFun (shapeCast_self v _) _

/-! ## The body's payloads at an entry -/

/-- THE INCREMENT AT AN ENTRY. Row `p`, column `j` of the increment the body forms: the scale of row `p` times the sum of
    the two aggregates there, plus one bias; plus row `p` of the first state times column `j` of the residual weights —
    the sum over the 64 features — plus the other bias; the maximum of that with the zero word, less the unit word times
    each state there, times the unit word. (On the extended reals the changes of format are the identity, and the
    product accumulates into zero.) -/
theorem pay2_5_apply (x0 x1 x2 : Vec Ideal S2000x64 .f32) (x3 : Vec Ideal S2000x64 .bf16) (x4 : Vec Ideal S2000x1 .f32)
    (x5 : Vec Ideal S64x64 .f32) (x6 x7 : Vec Ideal S1x64 .f32) (p : Fin 2000) (j : Fin 64) :
    k2_pay5 (F := Ideal) x0 x1 x2 x3 x4 x5 x6 x7 (ix2 p j) = Ideal.ofBits .f32 0x3F800000#32 * ((max (((x4 (ix2 p 0) * (x2 (ix2 p j) + (x3 (ix2 p j) : EReal))) + x7 (ix2 0 j)) + ((∑ k : Fin 64, x0 (ix2 p k) * x5 (ix2 k j)) + x6 (ix2 0 j))) (Ideal.ofBits .f32 0x00000000#32) - Ideal.ofBits .f32 0x3F800000#32 * x1 (ix2 p j)) - Ideal.ofBits .f32 0x3F800000#32 * x0 (ix2 p j)) := by
  unfold k2_pay5 k2_pay3 k2_pay4
  refine (mulf_apply _ _ (ix2 p j)).trans ?_
  refine congrArg₂ (· * ·) rfl ?_
  refine (subf_apply _ _ (ix2 p j)).trans ?_
  refine congrArg₂ (· - ·) ?_ ?_
  · refine (subf_apply _ _ (ix2 p j)).trans ?_
    refine congrArg₂ (· - ·) ?_ ?_
    · refine (maximumf_apply _ _ (ix2 p j)).trans ?_
      refine congrArg₂ max ?_ rfl
      refine (addf_apply _ _ (ix2 p j)).trans ?_
      refine congrArg₂ (· + ·) ?_ ?_
      · refine (addf_apply _ _ (ix2 p j)).trans ?_
        refine congrArg₂ (· + ·) ?_ (row2_apply x7 _ _ p j)
        refine (mulf_apply _ _ (ix2 p j)).trans ?_
        refine congrArg₂ (· * ·) ?_ ?_
        · refine (broadcastTo_a1_ab_apply (a := 2000) (b := 64) _ _ p j).trans ?_
          exact (congrFun (shapeCast_self _ _) _).trans (congrFun (shapeCast_self x4 _) _)
        · refine (addf_apply _ _ (ix2 p j)).trans ?_
          exact congrArg₂ (· + ·) (congrFun (shapeCast_self x2 _) _) (congrFun (shapeCast_self x3 _) _)
      · refine (addf_apply _ _ (ix2 p j)).trans ?_
        refine congrArg₂ (· + ·) ?_ (row2_apply x6 _ _ p j)
        refine (Ideal.matmul_constant_zero_apply dot_S2000x64_S64x64_S2000x64_1_0_0_1_n_n none _ _ (ix2 p j)).trans ?_
        rw [← Equiv.sum_comp (contrEquiv1 dot_S2000x64_S64x64_S2000x64_1_0_0_1_n_n 64 rfl rfl).symm]
        refine Finset.sum_congr rfl fun k _ => ?_
        have hk := contrEquiv1_symm_val dot_S2000x64_S64x64_S2000x64_1_0_0_1_n_n 64 rfl rfl k
        refine congrArg₂ (· * ·) ?_ ?_
        · refine (congrFun (shapeCast_self x0 _) _).trans ?_
          refine congrArg x0 (funext fun a => Fin.ext ?_)
          match a with
          | ⟨0, _⟩ => exact dot2_lhs0 _ _
          | ⟨1, _⟩ => exact (dot2_lhs1 _ _).trans hk
        · refine congrArg x5 (funext fun a => Fin.ext ?_)
          match a with
          | ⟨0, _⟩ => exact (dot2_rhs0 _ _).trans hk
          | ⟨1, _⟩ => exact dot2_rhs1 _ _
    · refine (mulf_apply _ _ (ix2 p j)).trans ?_
      exact congrArg₂ (· * ·) rfl (congrFun (shapeCast_self x1 _) _)
  · refine (mulf_apply _ _ (ix2 p j)).trans ?_
    exact congrArg₂ (· * ·) rfl (congrFun (shapeCast_self x0 _) _)

/-- WHAT IS STORED INTO THE SECOND OUTPUT at `(p, j)`: the second state there plus the increment. -/
theorem pay2_Y_apply (x0 x1 x2 : Vec Ideal S2000x64 .f32) (x3 : Vec Ideal S2000x64 .bf16) (x4 : Vec Ideal S2000x1 .f32)
    (x5 : Vec Ideal S64x64 .f32) (x6 x7 : Vec Ideal S1x64 .f32) (p : Fin 2000) (j : Fin 64) :
    k2_pay1 (F := Ideal) (k2_pay4 x1) (k2_pay5 x0 x1 x2 x3 x4 x5 x6 x7) (ix2 p j)
      = x1 (ix2 p j) + Ideal.ofBits .f32 0x3F800000#32 * ((max (((x4 (ix2 p 0) * (x2 (ix2 p j) + (x3 (ix2 p j) : EReal))) + x7 (ix2 0 j)) + ((∑ k : Fin 64, x0 (ix2 p k) * x5 (ix2 k j)) + x6 (ix2 0 j))) (Ideal.ofBits .f32 0x00000000#32) - Ideal.ofBits .f32 0x3F800000#32 * x1 (ix2 p j)) - Ideal.ofBits .f32 0x3F800000#32 * x0 (ix2 p j)) := by
  unfold k2_pay1
  refine (addf_apply _ _ (ix2 p j)).trans ?_
  refine congrArg₂ (· + ·) ?_ (pay2_5_apply x0 x1 x2 x3 x4 x5 x6 x7 p j)
  unfold k2_pay4
  exact congrFun (shapeCast_self x1 _) _

/-- WHAT IS STORED INTO THE FIRST OUTPUT at `(p, j)`: the first state there plus the unit word times what is stored
    into the second output there. -/
theorem pay2_X_apply (x0 x1 x2 : Vec Ideal S2000x64 .f32) (x3 : Vec Ideal S2000x64 .bf16) (x4 : Vec Ideal S2000x1 .f32)
    (x5 : Vec Ideal S64x64 .f32) (x6 x7 : Vec Ideal S1x64 .f32) (p : Fin 2000) (j : Fin 64) :
    k2_pay2 (F := Ideal) (k2_pay3 x0) (k2_pay4 x1) (k2_pay5 x0 x1 x2 x3 x4 x5 x6 x7) (ix2 p j)
      = x0 (ix2 p j) + Ideal.ofBits .f32 0x3F800000#32 * (x1 (ix2 p j) + Ideal.ofBits .f32 0x3F800000#32 * ((max (((x4 (ix2 p 0) * (x2 (ix2 p j) + (x3 (ix2 p j) : EReal))) + x7 (ix2 0 j)) + ((∑ k : Fin 64, x0 (ix2 p k) * x5 (ix2 k j)) + x6 (ix2 0 j))) (Ideal.ofBits .f32 0x00000000#32) - Ideal.ofBits .f32 0x3F800000#32 * x1 (ix2 p j)) - Ideal.ofBits .f32 0x3F800000#32 * x0 (ix2 p j))) := by
  unfold k2_pay2
  refine (addf_apply _ _ (ix2 p j)).trans ?_
  refine congrArg₂ (· + ·) ?_ ?_
  · unfold k2_pay3
    exact congrFun (shapeCast_self x0 _) _
  · refine (mulf_apply _ _ (ix2 p j)).trans ?_
    exact congrArg₂ (· * ·) rfl (pay2_Y_apply x0 x1 x2 x3 x4 x5 x6 x7 p j)

/-! ## From a block's entries to the arrays' -/

/-- When every block entry the payload reads at `(p, j)` is the arrays' entry of row `r`, what is stored into the second
    output at `(p, j)` is `updY` of the arrays at `(r, j)`, -/
theorem blockY2 (X Y A : Vec Ideal S50000x64 .f32) (H : Vec Ideal S50000x64 .bf16) (dinv : Vec Ideal S50000x1 .f32)
    (Wr : Vec Ideal S64x64 .f32) (rb cb : Vec Ideal S1x64 .f32)
    (x0 x1 x2 : Vec Ideal S2000x64 .f32) (x3 : Vec Ideal S2000x64 .bf16) (x4 : Vec Ideal S2000x1 .f32)
    (x5 : Vec Ideal S64x64 .f32) (x6 x7 : Vec Ideal S1x64 .f32) (r : Fin 50000) (p : Fin 2000) (j : Fin 64)
    (h0 : ∀ k : Fin 64, x0 (ix2 p k) = X (ix2 r k)) (h1 : x1 (ix2 p j) = Y (ix2 r j)) (h2 : x2 (ix2 p j) = A (ix2 r j))
    (h3 : x3 (ix2 p j) = H (ix2 r j)) (h4 : x4 (ix2 p 0) = dinv (ix2 r 0)) (h5 : ∀ k : Fin 64, x5 (ix2 k j) = Wr (ix2 k j))
    (h6 : x6 (ix2 0 j) = rb (ix2 0 j)) (h7 : x7 (ix2 0 j) = cb (ix2 0 j)) :
    k2_pay1 (F := Ideal) (k2_pay4 x1) (k2_pay5 x0 x1 x2 x3 x4 x5 x6 x7) (ix2 p j) = updY X Y A H dinv Wr rb cb (ix2 r j) := by
  rw [pay2_Y_apply, updY_apply]
  simp only [h0, h1, h2, h3, h4, h5, h6, h7]

/-- and what is stored into the first output there is `updX` of the arrays at `(r, j)`. -/
theorem blockX2 (X Y A : Vec Ideal S50000x64 .f32) (H : Vec Ideal S50000x64 .bf16) (dinv : Vec Ideal S50000x1 .f32)
    (Wr : Vec Ideal S64x64 .f32) (rb cb : Vec Ideal S1x64 .f32)
    (x0 x1 x2 : Vec Ideal S2000x64 .f32) (x3 : Vec Ideal S2000x64 .bf16) (x4 : Vec Ideal S2000x1 .f32)
    (x5 : Vec Ideal S64x64 .f32) (x6 x7 : Vec Ideal S1x64 .f32) (r : Fin 50000) (p : Fin 2000) (j : Fin 64)
    (h0 : ∀ k : Fin 64, x0 (ix2 p k) = X (ix2 r k)) (h1 : x1 (ix2 p j) = Y (ix2 r j)) (h2 : x2 (ix2 p j) = A (ix2 r j))
    (h3 : x3 (ix2 p j) = H (ix2 r j)) (h4 : x4 (ix2 p 0) = dinv (ix2 r 0)) (h5 : ∀ k : Fin 64, x5 (ix2 k j) = Wr (ix2 k j))
    (h6 : x6 (ix2 0 j) = rb (ix2 0 j)) (h7 : x7 (ix2 0 j) = cb (ix2 0 j)) :
    k2_pay2 (F := Ideal) (k2_pay3 x0) (k2_pay4 x1) (k2_pay5 x0 x1 x2 x3 x4 x5 x6 x7) (ix2 p j) = updX X Y A H dinv Wr rb cb (ix2 r j) := by
  rw [pay2_X_apply, updX_apply, updY_apply]
  simp only [h0, h1, h2, h3, h4, h5, h6, h7]

/-! ## The arrays after the region -/

variable (V : (c : Dev nD) → (b : Ref sig .tc) → Buf (Elt Ideal) ((c : Thread nD τ).loc b))

/-- The zero offsets of a whole-block access, however spelt. -/
theorem hz2 : (![0, 0] : Fin 2 → Nat) = fun _ => 0 := funext fun a => by fin_cases a <;> rfl

/-- Where each window's block sits at each grid point: the node arrays' blocks (the states, the aggregates, the scale
    column, the two outputs) at block row `t`, the residual weights and the bias rows always at their one block. Decided
    over the 25 points. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0 :=
  (by decide +kernel : ∀ t : Fin grid2.N, _)

/-- WHAT THE INPUT BLOCKS HOLD at point `t`: entry `(p, ·)` of a node array's block is the array's entry of row
    `2000 t + p`; the residual weights' and the bias rows' one block is the whole array. -/
theorem reads2 (c : Dev nD) (t : Fin cfg2.N) (p : Fin 2000) (j : Fin 64) (r : Fin 50000) (hr : r.val = 2000 * t.val + p.val) :
    (∀ k : Fin 64, (iblk2 V c 0 t : Vec Ideal S2000x64 .f32) (ix2 p k) = (V c main_v14 : Vec Ideal S50000x64 .f32) (ix2 r k))
    ∧ (iblk2 V c 1 t : Vec Ideal S2000x64 .f32) (ix2 p j) = (V c main_v14 : Vec Ideal S50000x64 .f32) (ix2 r j)
    ∧ (iblk2 V c 2 t : Vec Ideal S2000x64 .f32) (ix2 p j) = (V c main_v26 : Vec Ideal S50000x64 .f32) (ix2 r j)
    ∧ (iblk2 V c 3 t : Vec Ideal S2000x64 .bf16) (ix2 p j) = (V c main_v15 : Vec Ideal S50000x64 .bf16) (ix2 r j)
    ∧ (iblk2 V c 4 t : Vec Ideal S2000x1 .f32) (ix2 p 0) = (V c main_v11 : Vec Ideal S50000x1 .f32) (ix2 r 0)
    ∧ (∀ k : Fin 64, (iblk2 V c 5 t : Vec Ideal S64x64 .f32) (ix2 k j) = (V c main_arg8 : Vec Ideal S64x64 .f32) (ix2 k j))
    ∧ (iblk2 V c 6 t : Vec Ideal S1x64 .f32) (ix2 0 j) = (V c main_v27 : Vec Ideal S1x64 .f32) (ix2 0 j)
    ∧ (iblk2 V c 7 t : Vec Ideal S1x64 .f32) (ix2 0 j) = (V c main_v28 : Vec Ideal S1x64 .f32) (ix2 0 j) := by
  obtain ⟨e0r, e0c, e1r, e1c, e2r, e2c, e3r, e3c, e4r, e4c, e5r, e5c, e6r, e6c, e7r, e7c, e8r, e8c, e9r, e9c⟩ := idx_facts2 t
  refine ⟨?_, ?_, ?_, ?_, ?_, ?_, ?_, ?_⟩
  · intro k
    show V c main_v14 (((cfg2.win 0).blk t).view.emb (ix2 p k)) = V c main_v14 _
    refine congrArg _ (funext fun a => Fin.ext ?_)
    match a with
    | ⟨0, _⟩ => show win2_0.index t (0 : Fin 2) * 2000 + 1 * p.val = r.val; rw [e0r]; omega
    | ⟨1, _⟩ => show win2_0.index t (1 : Fin 2) * 64 + 1 * k.val = k.val; rw [e0c]; omega
  · show V c main_v14 (((cfg2.win 1).blk t).view.emb (ix2 p j)) = V c main_v14 _
    refine congrArg _ (funext fun a => Fin.ext ?_)
    match a with
    | ⟨0, _⟩ => show win2_1.index t (0 : Fin 2) * 2000 + 1 * p.val = r.val; rw [e1r]; omega
    | ⟨1, _⟩ => show win2_1.index t (1 : Fin 2) * 64 + 1 * j.val = j.val; rw [e1c]; omega
  · show V c main_v26 (((cfg2.win 2).blk t).view.emb (ix2 p j)) = V c main_v26 _
    refine congrArg _ (funext fun a => Fin.ext ?_)
    match a with
    | ⟨0, _⟩ => show win2_2.index t (0 : Fin 2) * 2000 + 1 * p.val = r.val; rw [e2r]; omega
    | ⟨1, _⟩ => show win2_2.index t (1 : Fin 2) * 64 + 1 * j.val = j.val; rw [e2c]; omega
  · show V c main_v15 (((cfg2.win 3).blk t).view.emb (ix2 p j)) = V c main_v15 _
    refine congrArg _ (funext fun a => Fin.ext ?_)
    match a with
    | ⟨0, _⟩ => show win2_3.index t (0 : Fin 2) * 2000 + 1 * p.val = r.val; rw [e3r]; omega
    | ⟨1, _⟩ => show win2_3.index t (1 : Fin 2) * 64 + 1 * j.val = j.val; rw [e3c]; omega
  · show V c main_v11 (((cfg2.win 4).blk t).view.emb (ix2 p 0)) = V c main_v11 _
    refine congrArg _ (funext fun a => Fin.ext ?_)
    match a with
    | ⟨0, _⟩ => show win2_4.index t (0 : Fin 2) * 2000 + 1 * p.val = r.val; rw [e4r]; omega
    | ⟨1, _⟩ => show win2_4.index t (1 : Fin 2) * 1 + 1 * 0 = 0; rw [e4c]
  · intro k
    show V c main_arg8 (((cfg2.win 5).blk t).view.emb (ix2 k j)) = V c main_arg8 _
    refine congrArg _ (funext fun a => Fin.ext ?_)
    match a with
    | ⟨0, _⟩ => show win2_5.index t (0 : Fin 2) * 64 + 1 * k.val = k.val; rw [e5r]; omega
    | ⟨1, _⟩ => show win2_5.index t (1 : Fin 2) * 64 + 1 * j.val = j.val; rw [e5c]; omega
  · show V c main_v27 (((cfg2.win 6).blk t).view.emb (ix2 0 j)) = V c main_v27 _
    refine congrArg _ (funext fun a => Fin.ext ?_)
    match a with
    | ⟨0, _⟩ => show win2_6.index t (0 : Fin 2) * 1 + 1 * 0 = 0; rw [e6r]
    | ⟨1, _⟩ => show win2_6.index t (1 : Fin 2) * 64 + 1 * j.val = j.val; rw [e6c]; omega
  · show V c main_v28 (((cfg2.win 7).blk t).view.emb (ix2 0 j)) = V c main_v28 _
    refine congrArg _ (funext fun a => Fin.ext ?_)
    match a with
    | ⟨0, _⟩ => show win2_7.index t (0 : Fin 2) * 1 + 1 * 0 = 0; rw [e7r]
    | ⟨1, _⟩ => show win2_7.index t (1 : Fin 2) * 64 + 1 * j.val = j.val; rw [e7c]; omega

/-- WHAT POINT `t` WRITES BACK THROUGH WINDOW 8 is block `t` of `updX` of the eight arrays as the region finds them. -/
theorem flushed2_8_eq (q : Fin cfg2.W → PosShare TreeShare) (c : Dev nD) (t : Fin cfg2.N) :
    (dat2 (F := Ideal) V q c).flushed 8 t
      = ((cfg2.win 8).blk t).view.read (Elt Ideal) (updX (V c main_v14) (V c main_v14) (V c main_v26) (V c main_v15) (V c main_v11) (V c main_arg8) (V c main_v27) (V c main_v28)) := by
  show (cfg2.win 8).cut (grid2.coords t) ((dat2 V q c).after 8 t) = _
  rw [after2_8]
  unfold out2_8
  rw [View.canon_unit_zero hz2]
  simp only [View.ld_unit_zero (S := S2000x64) hz2, View.ld_unit_zero (S := S2000x1) hz2, View.ld_unit_zero (S := S64x64) hz2, View.ld_unit_zero (S := S1x64) hz2]
  obtain ⟨e0r, e0c, e1r, e1c, e2r, e2c, e3r, e3c, e4r, e4c, e5r, e5c, e6r, e6c, e7r, e7c, e8r, e8c, e9r, e9c⟩ := idx_facts2 t
  funext y
  obtain ⟨p, j, rfl⟩ : ∃ (p : Fin 2000) (j : Fin 64), y = ix2 p j := ⟨y 0, y 1, eq_ix2 y⟩
  have hr : 2000 * t.val + p.val < 50000 := by
    have ht : t.val < 25 := lt_of_lt_of_eq t.isLt N_2
    have := p.isLt
    omega
  obtain ⟨h0, h1, h2, h3, h4, h5, h6, h7⟩ := reads2 V c t p j ⟨2000 * t.val + p.val, hr⟩ rfl
  have hrow : (((cfg2.win 8).blk t).view.emb (ix2 p j) : S50000x64.Idx) = ix2 (⟨2000 * t.val + p.val, hr⟩ : Fin 50000) j := by
    funext a; apply Fin.ext
    match a with
    | ⟨0, _⟩ => show win2_8.index t (0 : Fin 2) * 2000 + 1 * p.val = 2000 * t.val + p.val; rw [e8r]; omega
    | ⟨1, _⟩ => show win2_8.index t (1 : Fin 2) * 64 + 1 * j.val = j.val; rw [e8c]; omega
  show k2_pay2 (F := Ideal) (k2_pay3 (iblk2 V c 0 t)) (k2_pay4 (iblk2 V c 1 t)) (k2_pay5 (iblk2 V c 0 t) (iblk2 V c 1 t) (iblk2 V c 2 t) (iblk2 V c 3 t) (iblk2 V c 4 t) (iblk2 V c 5 t) (iblk2 V c 6 t) (iblk2 V c 7 t)) (ix2 p j)
    = updX (V c main_v14) (V c main_v14) (V c main_v26) (V c main_v15) (V c main_v11) (V c main_arg8) (V c main_v27) (V c main_v28) (((cfg2.win 8).blk t).view.emb (ix2 p j))
  rw [hrow]
  exact blockX2 _ _ _ _ _ _ _ _ _ _ _ _ _ _ _ _ _ p j h0 h1 h2 h3 h4 h5 h6 h7

/-- WHAT POINT `t` WRITES BACK THROUGH WINDOW 9 is block `t` of `updY` of the eight arrays as the region finds them. -/
theorem flushed2_9_eq (q : Fin cfg2.W → PosShare TreeShare) (c : Dev nD) (t : Fin cfg2.N) :
    (dat2 (F := Ideal) V q c).flushed 9 t
      = ((cfg2.win 9).blk t).view.read (Elt Ideal) (updY (V c main_v14) (V c main_v14) (V c main_v26) (V c main_v15) (V c main_v11) (V c main_arg8) (V c main_v27) (V c main_v28)) := by
  show (cfg2.win 9).cut (grid2.coords t) ((dat2 V q c).after 9 t) = _
  rw [after2_9]
  unfold out2_9
  rw [View.canon_unit_zero hz2]
  simp only [View.ld_unit_zero (S := S2000x64) hz2, View.ld_unit_zero (S := S2000x1) hz2, View.ld_unit_zero (S := S64x64) hz2, View.ld_unit_zero (S := S1x64) hz2]
  obtain ⟨e0r, e0c, e1r, e1c, e2r, e2c, e3r, e3c, e4r, e4c, e5r, e5c, e6r, e6c, e7r, e7c, e8r, e8c, e9r, e9c⟩ := idx_facts2 t
  funext y
  obtain ⟨p, j, rfl⟩ : ∃ (p : Fin 2000) (j : Fin 64), y = ix2 p j := ⟨y 0, y 1, eq_ix2 y⟩
  have hr : 2000 * t.val + p.val < 50000 := by
    have ht : t.val < 25 := lt_of_lt_of_eq t.isLt N_2
    have := p.isLt
    omega
  obtain ⟨h0, h1, h2, h3, h4, h5, h6, h7⟩ := reads2 V c t p j ⟨2000 * t.val + p.val, hr⟩ rfl
  have hrow : (((cfg2.win 9).blk t).view.emb (ix2 p j) : S50000x64.Idx) = ix2 (⟨2000 * t.val + p.val, hr⟩ : Fin 50000) j := by
    funext a; apply Fin.ext
    match a with
    | ⟨0, _⟩ => show win2_9.index t (0 : Fin 2) * 2000 + 1 * p.val = 2000 * t.val + p.val; rw [e9r]; omega
    | ⟨1, _⟩ => show win2_9.index t (1 : Fin 2) * 64 + 1 * j.val = j.val; rw [e9c]; omega
  show k2_pay1 (F := Ideal) (k2_pay4 (iblk2 V c 1 t)) (k2_pay5 (iblk2 V c 0 t) (iblk2 V c 1 t) (iblk2 V c 2 t) (iblk2 V c 3 t) (iblk2 V c 4 t) (iblk2 V c 5 t) (iblk2 V c 6 t) (iblk2 V c 7 t)) (ix2 p j)
    = updY (V c main_v14) (V c main_v14) (V c main_v26) (V c main_v15) (V c main_v11) (V c main_arg8) (V c main_v27) (V c main_v28) (((cfg2.win 9).blk t).view.emb (ix2 p j))
  rw [hrow]
  exact blockY2 _ _ _ _ _ _ _ _ _ _ _ _ _ _ _ _ _ p j h0 h1 h2 h3 h4 h5 h6 h7

/-- An entry of output 8's array is in point `t`'s block iff each coordinate is in the block's range on its axis. -/
theorem mem_blk2_8 (t : Fin cfg2.N) (i : S50000x64.Idx) :
    i ∈ ((cfg2.win 8).blk t).view.set ↔ ∀ a : Fin 2, win2_8.index t a * S2000x64.size a ≤ (i a).val
      ∧ (i a).val < win2_8.index t a * S2000x64.size a + S2000x64.size a := by
  show i ∈ ((View.whole main_v29_0).slice (win2_8.rect t)).set ↔ _
  rw [View.set_slice_whole, Rect.mem_set_unit]
  exact Iff.rfl

/-- Every entry of output 8's array is in some point's block: row `r` in the block of point `r / 2000`. -/
theorem covered2_8 (i : S50000x64.Idx) :
    ∃ t : Fin cfg2.N, (cfg2.win 8).flush t = true ∧ i ∈ ((cfg2.win 8).blk t).view.set := by
  have hi0 : (i 0).val < 50000 := (i 0).isLt
  have hi1 : (i 1).val < 64 := (i 1).isLt
  have hN : cfg2.N = 25 := N_2
  refine ⟨⟨(i 0).val / 2000, by rw [hN]; omega⟩, flush2_8 _, ?_⟩
  obtain ⟨e0r, e0c, e1r, e1c, e2r, e2c, e3r, e3c, e4r, e4c, e5r, e5c, e6r, e6c, e7r, e7c, e8r, e8c, e9r, e9c⟩ := idx_facts2 ⟨(i 0).val / 2000, by rw [hN]; omega⟩
  rw [mem_blk2_8]
  intro a
  match a with
  | ⟨0, _⟩ =>
    show win2_8.index _ (0 : Fin 2) * 2000 ≤ (i 0).val ∧ (i 0).val < win2_8.index _ (0 : Fin 2) * 2000 + 2000
    rw [e8r]; show (i 0).val / 2000 * 2000 ≤ (i 0).val ∧ (i 0).val < (i 0).val / 2000 * 2000 + 2000; omega
  | ⟨1, _⟩ =>
    show win2_8.index _ (1 : Fin 2) * 64 ≤ (i 1).val ∧ (i 1).val < win2_8.index _ (1 : Fin 2) * 64 + 64
    rw [e8c]; omega

/-- An entry of output 9's array is in point `t`'s block iff each coordinate is in the block's range on its axis. -/
theorem mem_blk2_9 (t : Fin cfg2.N) (i : S50000x64.Idx) :
    i ∈ ((cfg2.win 9).blk t).view.set ↔ ∀ a : Fin 2, win2_9.index t a * S2000x64.size a ≤ (i a).val
      ∧ (i a).val < win2_9.index t a * S2000x64.size a + S2000x64.size a := by
  show i ∈ ((View.whole main_v29_1).slice (win2_9.rect t)).set ↔ _
  rw [View.set_slice_whole, Rect.mem_set_unit]
  exact Iff.rfl

/-- Every entry of output 9's array is in some point's block: row `r` in the block of point `r / 2000`. -/
theorem covered2_9 (i : S50000x64.Idx) :
    ∃ t : Fin cfg2.N, (cfg2.win 9).flush t = true ∧ i ∈ ((cfg2.win 9).blk t).view.set := by
  have hi0 : (i 0).val < 50000 := (i 0).isLt
  have hi1 : (i 1).val < 64 := (i 1).isLt
  have hN : cfg2.N = 25 := N_2
  refine ⟨⟨(i 0).val / 2000, by rw [hN]; omega⟩, flush2_9 _, ?_⟩
  obtain ⟨e0r, e0c, e1r, e1c, e2r, e2c, e3r, e3c, e4r, e4c, e5r, e5c, e6r, e6c, e7r, e7c, e8r, e8c, e9r, e9c⟩ := idx_facts2 ⟨(i 0).val / 2000, by rw [hN]; omega⟩
  rw [mem_blk2_9]
  intro a
  match a with
  | ⟨0, _⟩ =>
    show win2_9.index _ (0 : Fin 2) * 2000 ≤ (i 0).val ∧ (i 0).val < win2_9.index _ (0 : Fin 2) * 2000 + 2000
    rw [e9r]; show (i 0).val / 2000 * 2000 ≤ (i 0).val ∧ (i 0).val < (i 0).val / 2000 * 2000 + 2000; omega
  | ⟨1, _⟩ =>
    show win2_9.index _ (1 : Fin 2) * 64 ≤ (i 1).val ∧ (i 1).val < win2_9.index _ (1 : Fin 2) * 64 + 64
    rw [e9c]; omega

/-- THE FIRST OUTPUT ARRAY AFTER THE REGION is `updX` of the eight arrays as the region finds them. -/
theorem arr2_8 (q : Fin cfg2.W → PosShare TreeShare) (c : Dev nD) :
    (dat2 (F := Ideal) V q c).arrAt 8 cfg2.N = updX (V c main_v14) (V c main_v14) (V c main_v26) (V c main_v15) (V c main_v11) (V c main_arg8) (V c main_v27) (V c main_v28) :=
  (dat2 (F := Ideal) V q c).arrAt_eq_of_cover 8 (updX (V c main_v14) (V c main_v14) (V c main_v26) (V c main_v15) (V c main_v11) (V c main_arg8) (V c main_v27) (V c main_v28))
    (fun t _ => flushed2_8_eq V q c t) covered2_8

/-- THE SECOND OUTPUT ARRAY AFTER THE REGION is `updY` of the same arrays. -/
theorem arr2_9 (q : Fin cfg2.W → PosShare TreeShare) (c : Dev nD) :
    (dat2 (F := Ideal) V q c).arrAt 9 cfg2.N = updY (V c main_v14) (V c main_v14) (V c main_v26) (V c main_v15) (V c main_v11) (V c main_arg8) (V c main_v27) (V c main_v28) :=
  (dat2 (F := Ideal) V q c).arrAt_eq_of_cover 9 (updY (V c main_v14) (V c main_v14) (V c main_v26) (V c main_v15) (V c main_v11) (V c main_arg8) (V c main_v27) (V c main_v28))
    (fun t _ => flushed2_9_eq V q c t) covered2_9

end Cert.KernelIdeal.Fr

end
-- ==== Proof.KI.HostRead.lean ====
/-
  THE KERNEL'S HOST STRETCHES AS PLAIN TERMS, read at an index.

  Between its pipelined regions the kernel's program runs a few whole-array operations: it cuts the edge array into
  its source and destination rows; counts each node's incoming real edges by accumulating ones at the destinations,
  adds one for the self-loop and takes the reciprocal square root (the normalisation factor, kept as a column); lays
  the 14 + 2 input columns side by side; turns each bias vector into a one-row matrix; and, in every layer, reads the
  scaled rows at the edges' sources (a negative source has 50000 added, then the read clamps it into the node range)
  and accumulates them at the edges' destinations into zeros. After the decoder it accumulates the one-column rows at
  the nodes' graph numbers into zeros. Each is written here exactly as the operations compose, over variables, and
  then read at an index in the vocabulary of the specification.
-/
import proofs.«131582_j65292092834213_2_alg».proof.KernelIdeal
import proofs.«131582_j65292092834213_2_alg».proof.Proof.Gen.KernelIdeal
import proofs.«131582_j65292092834213_2_alg».proof.Proof.Bridge
import proofs.«131582_j65292092834213_2_alg».proof.Proof.RefSpecOps
import proofs.«131582_j65292092834213_2_alg».proof.Proof.LibScatterGather1D
import proofs.«131582_j65292092834213_2_alg».proof.Proof.LibGatherRows
import proofs.«131582_j65292092834213_2_alg».proof.Proof.LibScatterAddRows
import proofs.«131582_j65292092834213_2_alg».proof.Proof.KI.Val0
import proofs.«131582_j65292092834213_2_alg».proof.Proof.KI.Val11
import proofs.«131582_j65292092834213_2_alg».proof.Proof.KI.ValScaled
import proofs.«131582_j65292092834213_2_alg».proof.Proof.KI.Val2
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Fr

open Cert.KernelIdeal Cert.KernelIdeal.Gen
open Idealize.ShloMosaic Idealize.ShloMosaic.ValueIdx
open Cert.ReferenceIdeal.RefValue Cert.Lib.ScatterGather1D Cert.KernelIdeal.Hand Cert.Bridge

/-! ## The stretches' results as terms -/

/-- The edges' sources: row 0 of the edge array, as a vector. -/
def srcT (ei : IVec S2x800000 32) : IVec S800000 32 :=
  shapeCast S800000 (extractStridedSlice S1x800000 ![0, 0] ei slices_S2x800000_S1x800000_0_0) shapeCasts_S1x800000_S800000

/-- The edges' destinations: row 1 of the edge array, as a vector. -/
def dstT (ei : IVec S2x800000 32) : IVec S800000 32 :=
  shapeCast S800000 (extractStridedSlice S1x800000 ![1, 0] ei slices_S2x800000_S1x800000_1_0) shapeCasts_S1x800000_S800000

/-- The normalisation factors as a column: ones accumulated at the destinations into zeros, plus ones, reciprocal
    square root, reshaped to one column. -/
def dinv2T (ei : IVec S2x800000 32) : Vec Ideal S50000x1 .f32 :=
  shapeCast S50000x1
    (Host.rsqrt (F := Ideal)
      (addf (F := Ideal)
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 (dstT ei))
          (broadcastInDim S800000 ![] bcast_S_S800000 (constant (F := Ideal) S_ .f32 0x3F800000#32)))
        (broadcastInDim S50000 ![] bcast_S_S50000 (constant (F := Ideal) S_ .f32 0x3F800000#32))))
    shapeCasts_S50000_S50000x1

/-- The 14 feature columns and the 2 position columns side by side. -/
def inpT (x : Vec Ideal S50000x14 .f32) (pos : Vec Ideal S50000x2 .f32) : Vec Ideal S50000x16 .f32 :=
  concatenate S50000x16 1 [⟨S50000x14, x⟩, ⟨S50000x2, pos⟩] concatenates_S50000x14_S50000x2_S50000x16_d1

/-- A bias vector of 64 entries as a one-row matrix. -/
def rowT (b : Vec Ideal S64 .f32) : Vec Ideal S1x64 .f32 := shapeCast S1x64 b shapeCasts_S64_S1x64

/-- The decoder's one bias entry as a one-by-one matrix. -/
def b11T (b : Vec Ideal S1 .f32) : Vec Ideal S1x1 .f32 := shapeCast S1x1 b shapeCasts_S1_S1x1

/-- A layer's raw aggregate: the rows of `H` read at the edges' normalised sources, widened, and accumulated at the
    edges' destinations into zeros. -/
def aggRawT (H : Vec Ideal S50000x64 .bf16) (src dst : IVec S800000 32) : Vec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (extf (F := Ideal) .f32
      (Host.gather gather_S50000x64_S800000x1_S800000x64_1_0_n_n_0_1_164 H
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      bitsLt_bf16_f32)

/-- The per-graph sums: the decoder's one-column rows accumulated at the nodes' graph numbers into zeros, as a
    vector. -/
def outT (Xo : Vec Ideal S50000x1 .f32) (batch : IVec S50000 32) : Vec Ideal S500 .f32 :=
  shapeCast S500
    (Host.scatterAdd (F := Ideal) scatter_S500x1_S50000x1_S50000x1_1_0_0_1
      (broadcastInDim S500x1 ![] bcast_S_S500x1 (constant (F := Ideal) S_ .f32 0x00000000#32))
      (broadcastInDim S50000x1 ![0] bcast_S50000_S50000x1_0 batch) Xo)
    shapeCasts_S500x1_S500

/-! ## Small reads -/

/-- A scalar broadcast to any shape reads the scalar everywhere. -/
theorem bcast_scalar_apply {α : Type} {t : Shape} (h : S_.BroadcastsInDim t ![]) (y : S_.Idx → α) (i : t.Idx) :
    broadcastInDim t ![] h y i = y ix0 :=
  broadcastInDim_apply _ h y i ix0 (fun a => a.elim0)

/-- A vector of 800000 entries laid out as one column reads the vector on each row. -/
theorem col800000_apply {α : Type} (y : S800000.Idx → α) (r : Fin 800000) :
    broadcastInDim S800000x1 ![0] bcast_S800000_S800000x1_0 y (ix2 r (0 : Fin 1)) = y (ix1 r) :=
  broadcastInDim_apply _ bcast_S800000_S800000x1_0 y (ix2 r (0 : Fin 1)) (ix1 r) (fun a => match a with
    | ⟨0, _⟩ => by show r.val = if (800000 : Nat) = 1 then 0 else r.val; rw [if_neg (by decide)])

/-- A vector of 50000 entries laid out as one column likewise. -/
theorem col50000_apply {α : Type} (y : S50000.Idx → α) (r : Fin 50000) :
    broadcastInDim S50000x1 ![0] bcast_S50000_S50000x1_0 y (ix2 r (0 : Fin 1)) = y (ix1 r) :=
  broadcastInDim_apply _ bcast_S50000_S50000x1_0 y (ix2 r (0 : Fin 1)) (ix1 r) (fun a => match a with
    | ⟨0, _⟩ => by show r.val = if (50000 : Nat) = 1 then 0 else r.val; rw [if_neg (by decide)])

/-- The sources vector at edge `e` is the edge array's entry `(0, e)`. -/
theorem srcT_apply (ei : IVec S2x800000 32) (e : Fin 800000) : srcT ei (ix1 e) = srcW ei e := by
  unfold srcT
  refine (shapeCast_apply _ shapeCasts_S1x800000_S800000 (ix1 e) (ix2 (0 : Fin 1) e) ?_).trans ?_
  · rewrite [Shape.rowMajor_val_two, Shape.rowMajor_val_one]; show 0 * 800000 + e.val = e.val; omega
  · exact extractStridedSlice_apply ![0, 0] ei slices_S2x800000_S1x800000_0_0 (ix2 (0 : Fin 1) e) (ix2 (0 : Fin 2) e)
      (fun a => match a with
        | ⟨0, _⟩ => by show (0 : ℕ) = 0 + 0; rfl
        | ⟨1, _⟩ => by show e.val = 0 + e.val; omega)

/-- The destinations vector at edge `e` is the edge array's entry `(1, e)`. -/
theorem dstT_apply (ei : IVec S2x800000 32) (e : Fin 800000) : dstT ei (ix1 e) = dstW ei e := by
  unfold dstT
  refine (shapeCast_apply _ shapeCasts_S1x800000_S800000 (ix1 e) (ix2 (0 : Fin 1) e) ?_).trans ?_
  · rewrite [Shape.rowMajor_val_two, Shape.rowMajor_val_one]; show 0 * 800000 + e.val = e.val; omega
  · exact extractStridedSlice_apply ![1, 0] ei slices_S2x800000_S1x800000_1_0 (ix2 (0 : Fin 1) e) (ix2 (1 : Fin 2) e)
      (fun a => match a with
        | ⟨0, _⟩ => by show (1 : ℕ) = 1 + 0; rfl
        | ⟨1, _⟩ => by show e.val = 0 + e.val; omega)

/-- A one-row matrix made from a vector reads the vector. -/
theorem rowT_apply (b : Vec Ideal S64 .f32) (j : Fin 64) : rowT b (ix2 (0 : Fin 1) j) = b (ix1 j) := by
  unfold rowT
  refine shapeCast_apply _ shapeCasts_S64_S1x64 (ix2 (0 : Fin 1) j) (ix1 j) ?_
  rewrite [Shape.rowMajor_val_two, Shape.rowMajor_val_one]; show j.val = 0 * 64 + j.val; omega

/-- The one-by-one matrix made from the one-entry vector reads that entry. -/
theorem b11T_apply (b : Vec Ideal S1 .f32) : b11T b (ix2 (0 : Fin 1) (0 : Fin 1)) = b (ix1 (0 : Fin 1)) := by
  unfold b11T
  refine shapeCast_apply _ shapeCasts_S1_S1x1 (ix2 (0 : Fin 1) (0 : Fin 1)) (ix1 (0 : Fin 1)) ?_
  rewrite [Shape.rowMajor_val_two, Shape.rowMajor_val_one]; rfl

/-- The input columns: the first 14 are the features', the last 2 the positions'. -/
theorem inpT_apply (x : Vec Ideal S50000x14 .f32) (pos : Vec Ideal S50000x2 .f32) (v : Fin 50000) (c : Fin 16) :
    inpT x pos (ix2 v c) = if hlt : c.val < 14 then x (ix2 v (⟨c.val, hlt⟩ : Fin 14))
      else pos (ix2 v (⟨c.val - 14, by have := c.isLt; omega⟩ : Fin 2)) := by
  unfold inpT
  exact concat_cols_apply x pos concatenates_S50000x14_S50000x2_S50000x16_d1 v c

/-! ## The normalisation factor -/

/-- The reciprocal square root of a sum of two vectors, at an entry. -/
theorem rsqrt_add_apply (a b : FVec Ideal S50000 .f32) (i : S50000.Idx) :
    Host.rsqrt (F := Ideal) (addf (F := Ideal) a b) i = Ideal.rsqrt (a i + b i) := rfl

/-- THE FACTOR COLUMN at node `v` is the kernel's factor of the specification. -/
theorem dinv2T_apply (ei : IVec S2x800000 32) (v : Fin 50000) : dinv2T ei (ix2 v (0 : Fin 1)) = kDinv ei v := by
  unfold dinv2T
  refine (shapeCast_apply _ shapeCasts_S50000_S50000x1 (ix2 v (0 : Fin 1)) (ix1 v) ?_).trans ?_
  · rewrite [Shape.rowMajor_val_two, Shape.rowMajor_val_one]; show v.val = v.val * 1 + 0; omega
  · refine (rsqrt_add_apply _ _ (ix1 v)).trans ?_
    unfold kDinv kDeg
    refine congrArg Ideal.rsqrt (congrArg₂ (· + ·) ?_ ?_)
    · refine (scatterAdd1_apply_rec scatter_S50000_S800000x1_S800000_n_0_0_1 rfl _ _ _ v).trans ?_
      refine congrArg₂ (· + ·) ?_ (Finset.sum_congr rfl fun r _ => ?_)
      · exact (bcast_scalar_apply bcast_S_S50000 _ (ix1 v)).trans Ideal.ofBits_zero_f32
      · rw [col800000_apply, dstT_apply, bcast_scalar_apply]
        rfl
    · exact bcast_scalar_apply bcast_S_S50000 _ (ix1 v)

/-! ## A layer's raw aggregate -/

/-- The normalised source of edge `e`, as the compare, add and select compute it. -/
theorem normSrc_apply (ei : IVec S2x800000 32) (e : Fin 800000) :
    (select (cmpi .slt (srcT ei) (broadcastInDim S800000 ![] bcast_S_S800000 (constantI S_ 32 0#32)))
      (addi (srcT ei) (broadcastInDim S800000 ![] bcast_S_S800000 (constantI S_ 32 50000#32))) (srcT ei)) (ix1 e)
      = normIdx (srcW ei e) := by
  show Scalar.select (IntOp.cmpi .slt (srcT ei (ix1 e)) (broadcastInDim S800000 ![] bcast_S_S800000 (constantI S_ 32 0#32) (ix1 e)))
      (IntOp.addi (srcT ei (ix1 e)) (broadcastInDim S800000 ![] bcast_S_S800000 (constantI S_ 32 50000#32) (ix1 e))) (srcT ei (ix1 e)) = _
  rw [bcast_scalar_apply, bcast_scalar_apply, srcT_apply]
  exact normIdx_select (srcW ei e)

/-- A row of `H` read at a normalised endpoint is the row `rowOf` names: the read's clamp is `rowOf`'s. -/
theorem gather_norm_apply {α : Type} (H : S50000x64.Idx → α) (idx : IVec S800000x1 32) (r : Fin 800000) (j : Fin 64)
    (b : BitVec 32) (hidx : idx (ix2 r (0 : Fin 1)) = normIdx b) :
    Host.gather gather_S50000x64_S800000x1_S800000x64_1_0_n_n_0_1_164 H idx (ix2 r j) = H (ix2 (rowOf b) j) := by
  refine (gather_rows_apply_rec gather_S50000x64_S800000x1_S800000x64_1_0_n_n_0_1_164 rfl (by decide) H idx r j).trans ?_
  refine congrArg (fun k => H (ix2 k j)) (Fin.ext ?_)
  show min (idx (ix2 r 0)).toInt.toNat (50000 - 1) = min (normIdx b).toInt.toNat 49999
  rw [hidx]

/-- THE RAW AGGREGATE at `(v, j)`: zero plus the sum, over the real edges whose destination is `v`, of entry `j` of the
    row of `H` that the edge's source reads. -/
theorem aggRawT_apply (H : Vec Ideal S50000x64 .bf16) (ei : IVec S2x800000 32) (v : Fin 50000) (j : Fin 64) :
    aggRawT H (srcT ei) (dstT ei) (ix2 v j)
      = 0 + ∑ e : Fin 800000, (if (dstW ei e).toInt = (v.val : ℤ) then (H (ix2 (rowOf (srcW ei e)) j) : EReal) else 0) := by
  unfold aggRawT
  refine (scatterAdd_rows_apply_rec scatter_S50000x64_S800000x1_S800000x64_1_0_0_1 rfl _ _ _ v j).trans ?_
  refine congrArg₂ (· + ·) ?_ (Finset.sum_congr rfl fun r _ => ?_)
  · exact (bcast_scalar_apply bcast_S_S50000x64 _ (ix2 v j)).trans Ideal.ofBits_zero_f32
  · rw [col800000_apply, dstT_apply]
    refine if_congr Iff.rfl ?_ rfl
    exact gather_norm_apply H _ r j (srcW ei r) ((col800000_apply _ r).trans (normSrc_apply ei r))

/-! ## The per-graph sums -/

/-- THE RESULT at graph `g`: zero plus the sum, over the nodes whose graph number is `g`, of the node's decoded value. -/
theorem outT_apply (Xo : Vec Ideal S50000x1 .f32) (batch : IVec S50000 32) (g : Fin 500) :
    outT Xo batch (ix1 g)
      = 0 + ∑ v : Fin 50000, (if (batch (ix1 v)).toInt = (g.val : ℤ) then Xo (ix2 v (0 : Fin 1)) else 0) := by
  unfold outT
  refine (shapeCast_apply _ shapeCasts_S500x1_S500 (ix1 g) (ix2 g (0 : Fin 1)) ?_).trans ?_
  · rewrite [Shape.rowMajor_val_two, Shape.rowMajor_val_one]; show g.val * 1 + 0 = g.val; omega
  · refine (scatterAdd_rows_apply_rec scatter_S500x1_S50000x1_S50000x1_1_0_0_1 rfl _ _ _ g (0 : Fin 1)).trans ?_
    refine congrArg₂ (· + ·) ?_ (Finset.sum_congr rfl fun r _ => ?_)
    · exact (bcast_scalar_apply bcast_S_S500x1 _ (ix2 g (0 : Fin 1))).trans Ideal.ofBits_zero_f32
    · rw [col50000_apply]

/-! ## One layer: the update over the stretches' terms is the specification's layer

The layer's two regions compute, from the states `X`, `Y`: the scaled rows `hwsG X W dinv`, then (the host stretch
between them having accumulated the raw aggregate) the update `updX`, `updY`. With the stretches' terms in place of the
arrays these are the kernel's layer of the specification, entry by entry, hence the reference's. -/

/-- The scaled rows over the factor column are the specification's scaled rows. -/
theorem hwsG_dinv2T_apply (ei : IVec S2x800000 32) (X : FVec Ideal ⟨2, ![50000, 64]⟩ .f32) (W : FVec Ideal ⟨2, ![64, 64]⟩ .f32)
    (s : Fin 50000) (j : Fin 64) : (hwsG X W (dinv2T ei) (ix2 s j) : EReal) = kHws ei X W s j := by
  unfold kHws refMatmul
  rw [hwsG_apply, dinv2T_apply]

/-- The raw aggregate of the scaled rows is the specification's. -/
theorem aggRawT_hwsG_apply (ei : IVec S2x800000 32) (X : FVec Ideal ⟨2, ![50000, 64]⟩ .f32) (W : FVec Ideal ⟨2, ![64, 64]⟩ .f32)
    (v : Fin 50000) (j : Fin 64) :
    aggRawT (hwsG X W (dinv2T ei)) (srcT ei) (dstT ei) (ix2 v j) = kAggRaw ei X W v j := by
  rw [aggRawT_apply]
  unfold kAggRaw
  refine congrArg (fun z => 0 + z) (Finset.sum_congr rfl fun e _ => ?_)
  rw [hwsG_dinv2T_apply]

/-- THE UPDATE'S NEW `Y` over the stretches' terms is the kernel's layer of the specification. -/
theorem updY_eq_kLayerY (ei : IVec S2x800000 32) (X Y : FVec Ideal ⟨2, ![50000, 64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32) :
    updY X Y (aggRawT (hwsG X W (dinv2T ei)) (srcT ei) (dstT ei)) (hwsG X W (dinv2T ei)) (dinv2T ei) Wr (rowT br) (rowT b)
      = kLayerY ei X Y W b Wr br := by
  funext i
  obtain ⟨v, j, rfl⟩ : ∃ (v : Fin 50000) (j : Fin 64), i = ix2 v j := ⟨i 0, i 1, eq_ix2 i⟩
  rw [updY_apply, dinv2T_apply, aggRawT_hwsG_apply, hwsG_dinv2T_apply, rowT_apply, rowT_apply, Ideal.ofBits_zero_f32]
  rfl

/-- THE UPDATE'S NEW `X` likewise. -/
theorem updX_eq_kLayerX (ei : IVec S2x800000 32) (X Y : FVec Ideal ⟨2, ![50000, 64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32) :
    updX X Y (aggRawT (hwsG X W (dinv2T ei)) (srcT ei) (dstT ei)) (hwsG X W (dinv2T ei)) (dinv2T ei) Wr (rowT br) (rowT b)
      = kLayerX ei X Y W b Wr br := by
  funext i
  obtain ⟨v, j, rfl⟩ : ∃ (v : Fin 50000) (j : Fin 64), i = ix2 v j := ⟨i 0, i 1, eq_ix2 i⟩
  rw [updX_apply, updY_eq_kLayerY]
  rfl

/-- Hence the reference's new `Y`, -/
theorem updY_eq_refLayerY (ei : IVec S2x800000 32) (X Y : FVec Ideal ⟨2, ![50000, 64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32) :
    updY X Y (aggRawT (hwsG X W (dinv2T ei)) (srcT ei) (dstT ei)) (hwsG X W (dinv2T ei)) (dinv2T ei) Wr (rowT br) (rowT b)
      = refLayerY ei X Y W b Wr br :=
  (updY_eq_kLayerY ei X Y W b Wr br).trans (kLayerY_eq ei X Y W b Wr br)

/-- and the reference's new `X`. -/
theorem updX_eq_refLayerX (ei : IVec S2x800000 32) (X Y : FVec Ideal ⟨2, ![50000, 64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32) :
    updX X Y (aggRawT (hwsG X W (dinv2T ei)) (srcT ei) (dstT ei)) (hwsG X W (dinv2T ei)) (dinv2T ei) Wr (rowT br) (rowT b)
      = refLayerX ei X Y W b Wr br :=
  (updX_eq_kLayerX ei X Y W b Wr br).trans (kLayerX_eq ei X Y W b Wr br)

/-! ## Before and after the layers -/

/-- THE ENCODER over the stretches' terms is the reference's encoder. -/
theorem encG_eq_refEnc (x : FVec Ideal ⟨2, ![50000, 14]⟩ .f32) (pos : FVec Ideal ⟨2, ![50000, 2]⟩ .f32)
    (We : FVec Ideal ⟨2, ![16, 64]⟩ .f32) (be : FVec Ideal ⟨1, ![64]⟩ .f32) :
    encG (inpT x pos) We (rowT be) = refEnc x pos We be := by
  funext i
  obtain ⟨v, j, rfl⟩ : ∃ (v : Fin 50000) (j : Fin 64), i = ix2 v j := ⟨i 0, i 1, eq_ix2 i⟩
  rw [encG_apply, rowT_apply]
  unfold refEnc
  refine congrArg₂ (· + ·) (Finset.sum_congr rfl fun c _ => ?_) rfl
  rw [inpT_apply]

/-- THE DECODER AND THE PER-GRAPH SUMS over the stretches' terms are the reference's. -/
theorem outT_decG_eq_refOut (X : FVec Ideal ⟨2, ![50000, 64]⟩ .f32) (Wd : FVec Ideal ⟨2, ![64, 1]⟩ .f32)
    (bd : FVec Ideal ⟨1, ![1]⟩ .f32) (batch : IVec ⟨1, ![50000]⟩ 32) :
    outT (decG X Wd (b11T bd)) batch = refOut X Wd bd batch := by
  funext g
  obtain ⟨g', rfl⟩ : ∃ g' : Fin 500, g = ix1 g' := ⟨g 0, eq_ix1 g⟩
  rw [outT_apply]
  unfold refOut
  refine congrArg (fun z => 0 + z) (Finset.sum_congr rfl fun v _ => ?_)
  rw [decG_apply, b11T_apply]

/-! ## The whole kernel as one function -/

/-- One layer on the pair of states: the scaled rows, the raw aggregate, the update. -/
def kStep (ei : IVec S2x800000 32) (W : FVec Ideal ⟨2, ![64, 64]⟩ .f32) (b : FVec Ideal ⟨1, ![64]⟩ .f32)
    (Wr : FVec Ideal ⟨2, ![64, 64]⟩ .f32) (br : FVec Ideal ⟨1, ![64]⟩ .f32)
    (p : FVec Ideal ⟨2, ![50000, 64]⟩ .f32 × FVec Ideal ⟨2, ![50000, 64]⟩ .f32) :
    FVec Ideal ⟨2, ![50000, 64]⟩ .f32 × FVec Ideal ⟨2, ![50000, 64]⟩ .f32 :=
  (updX p.1 p.2 (aggRawT (hwsG p.1 W (dinv2T ei)) (srcT ei) (dstT ei)) (hwsG p.1 W (dinv2T ei)) (dinv2T ei) Wr (rowT br) (rowT b),
   updY p.1 p.2 (aggRawT (hwsG p.1 W (dinv2T ei)) (srcT ei) (dstT ei)) (hwsG p.1 W (dinv2T ei)) (dinv2T ei) Wr (rowT br) (rowT b))

/-- One layer of the kernel is one layer of the reference, both new states from the old pair. -/
theorem kStep_eq (ei : IVec S2x800000 32) (W : FVec Ideal ⟨2, ![64, 64]⟩ .f32) (b : FVec Ideal ⟨1, ![64]⟩ .f32)
    (Wr : FVec Ideal ⟨2, ![64, 64]⟩ .f32) (br : FVec Ideal ⟨1, ![64]⟩ .f32)
    (p : FVec Ideal ⟨2, ![50000, 64]⟩ .f32 × FVec Ideal ⟨2, ![50000, 64]⟩ .f32) :
    kStep ei W b Wr br p = (refLayerX ei p.1 p.2 W b Wr br, refLayerY ei p.1 p.2 W b Wr br) := by
  unfold kStep
  rw [updX_eq_refLayerX, updY_eq_refLayerY]

/-- The pair of states after `n` layers, from the encoder's result in both. -/
def kState (x : FVec Ideal ⟨2, ![50000, 14]⟩ .f32) (pos : FVec Ideal ⟨2, ![50000, 2]⟩ .f32) (ei : IVec S2x800000 32)
    (We : FVec Ideal ⟨2, ![16, 64]⟩ .f32) (be : FVec Ideal ⟨1, ![64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32) :
    Nat → FVec Ideal ⟨2, ![50000, 64]⟩ .f32 × FVec Ideal ⟨2, ![50000, 64]⟩ .f32
  | 0 => (encG (inpT x pos) We (rowT be), encG (inpT x pos) We (rowT be))
  | n + 1 => kStep ei W b Wr br (kState x pos ei We be W b Wr br n)

/-- THE WHOLE KERNEL: encoder, five layers, decoder, per-graph sums. -/
def kRes (x : FVec Ideal ⟨2, ![50000, 14]⟩ .f32) (pos : FVec Ideal ⟨2, ![50000, 2]⟩ .f32) (ei : IVec S2x800000 32)
    (batch : IVec ⟨1, ![50000]⟩ 32) (We : FVec Ideal ⟨2, ![16, 64]⟩ .f32) (be : FVec Ideal ⟨1, ![64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32)
    (Wd : FVec Ideal ⟨2, ![64, 1]⟩ .f32) (bd : FVec Ideal ⟨1, ![1]⟩ .f32) : FVec Ideal ⟨1, ![500]⟩ .f32 :=
  outT (decG (kState x pos ei We be W b Wr br 5).1 Wd (b11T bd)) batch

end Cert.KernelIdeal.Fr

end
-- ==== Proof.KI.Val1.lean ====
/-
  The value of region 1: the output array after the region is the scaled product of the arrays it reads. The stored
  value of the body at an index is read on the extended reals, where the product of a row block with the weights is a
  sum over the 64 shared coordinates and the roundings are the identity; each point writes back one row block of the
  specification, and the 25 row blocks cover the array.
-/
import proofs.«131582_j65292092834213_2_alg».proof.Proof.KI.R1
import proofs.«131582_j65292092834213_2_alg».proof.Proof.KI.ValScaled
import Idealize.ShloMosaic.Lib.Pipeline.Value
import Idealize.ShloMosaic.Lib.ValueIdx
import Idealize.ShloMosaic.PureOps.Ideal.Laws

noncomputable section

open scoped BigOperators

namespace Cert.KernelIdeal.Fr

open Cert.KernelIdeal Cert.KernelIdeal.Gen
open Idealize.ShloMosaic Idealize.ShloMosaic.TcCoe Idealize.SL.Sem
open Idealize.ShloMosaic.ValueIdx
open Idealize.ShloMosaic.Pipeline (Dat)

/-- The stored value of region 1 at entry (p, q) of the block: row p of the feature block times column q of the
    weights, times the scale of row p (on the extended reals the roundings to bf16 are the identity). -/
theorem pay1_apply (x0 : Vec Ideal S2000x64 .f32) (x1 : Vec Ideal S64x64 .f32) (x2 : Vec Ideal S2000x1 .f32) (p : Fin 2000) (q : Fin 64) :
    k1_pay1 x0 x1 x2 (ix2 p q) = (∑ k : Fin 64, x0 (ix2 p k) * x1 (ix2 k q)) * x2 (ix2 p (0 : Fin 1)) := by
  unfold k1_pay1
  simp only [shapeCast_self]
  show matmul (F := Ideal) dot_S2000x64_S64x64_S2000x64_1_0_0_1_n_n none (truncf (F := Ideal) .bf16 x0 bitsLt_bf16_f32) (truncf (F := Ideal) .bf16 x1 bitsLt_bf16_f32) (constant S2000x64 .f32 0x00000000#32) (ix2 p q)
      * broadcastTo S2000x64 x2 broadcasts_S2000x1_S2000x64 (ix2 p q) = _
  exact congrArg₂ (· * ·) (scaled_matmul_apply _ _ p q) (scaled_broadcast_apply _ p q)

/-! ## Region 1: from the blocks to the array -/

/-- The stored value at entry (p, q) of a block whose feature rows and scales are rows r of the arrays, and whose
    weights are the weight matrix, is the specification at (r, q). -/
theorem block_value1 (X : Vec Ideal S50000x64 .f32) (W : Vec Ideal S64x64 .f32) (d : Vec Ideal S50000x1 .f32)
    (x0 : Vec Ideal S2000x64 .f32) (x1 : Vec Ideal S64x64 .f32) (x2 : Vec Ideal S2000x1 .f32)
    (p : Fin 2000) (q : Fin 64) (r : Fin 50000)
    (h0 : ∀ k : Fin 64, x0 (ix2 p k) = X (ix2 r k))
    (h1 : ∀ k : Fin 64, x1 (ix2 k q) = W (ix2 k q))
    (h2 : x2 (ix2 p (0 : Fin 1)) = d (ix2 r (0 : Fin 1))) :
    k1_pay1 x0 x1 x2 (ix2 p q) = hwsG X W d (ix2 r q) := by
  rw [pay1_apply, h2]
  show _ = (∑ k : Fin 64, X (ix2 r k) * W (ix2 k q)) * d (ix2 r (0 : Fin 1))
  exact congrArg (· * _) (Finset.sum_congr rfl fun k _ => by rw [h0 k, h1 k])

/-- The index maps over the grid: the feature, scale and output windows are at row block t, the weight window at its
    one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is block t of the specification of the arrays as the region finds them. -/
theorem flushed1_3_eq (c : Dev nD) (t : Fin cfg1.N) :
    (dat1 (F := Ideal) V c).flushed 3 t
      = ((cfg1.win 3).blk t).view.read (Elt Ideal) (hwsG (V c main_v14) (V c main_arg6) (V c main_v11)) := by
  show (cfg1.win 3).cut (grid1.coords t) ((dat1 V c).after 3 t) = _
  rw [after1_3]
  unfold out1_3
  rw [View.canon_unit_zero scaled_hz]
  simp only [View.ld_unit_zero (S := S2000x64) scaled_hz, View.ld_unit_zero (S := S64x64) scaled_hz, View.ld_unit_zero (S := S2000x1) scaled_hz]
  obtain ⟨e00, e01, e10, e11, e20, e21, e30, e31⟩ := idx_facts1 t
  have ht : t.val < 25 := lt_of_lt_of_eq t.isLt N_1
  funext j
  obtain ⟨p, q, rfl⟩ : ∃ (p : Fin 2000) (q : Fin 64), j = ix2 p q := ⟨j 0, j 1, eq_ix2 j⟩
  have hp : p.val < 2000 := p.isLt
  have hemb : ((cfg1.win 3).blk t).view.emb (ix2 p q) = ix2 (⟨t.val * 2000 + p.val, by omega⟩ : Fin 50000) q := by
    funext a; apply Fin.ext
    match a with
    | ⟨0, _⟩ => show win1_3.index t (0 : Fin 2) * 2000 + 1 * p.val = t.val * 2000 + p.val; rw [e30]; omega
    | ⟨1, _⟩ => show win1_3.index t (1 : Fin 2) * 64 + 1 * q.val = q.val; rw [e31]; omega
  show k1_pay1 (iblk1 V c 0 t) (iblk1 V c 1 t) (iblk1 V c 2 t) (ix2 p q)
      = hwsG (V c main_v14) (V c main_arg6) (V c main_v11) (((cfg1.win 3).blk t).view.emb (ix2 p q))
  rw [hemb]
  refine block_value1 _ _ _ _ _ _ p q _ (fun k => ?_) (fun k => ?_) ?_
  · show V c main_v14 (((cfg1.win 0).blk t).view.emb (ix2 p k)) = V c main_v14 (ix2 (⟨t.val * 2000 + p.val, by omega⟩ : Fin 50000) k)
    refine congrArg _ (funext fun a => Fin.ext ?_)
    match a with
    | ⟨0, _⟩ => show win1_0.index t (0 : Fin 2) * 2000 + 1 * p.val = t.val * 2000 + p.val; rw [e00]; omega
    | ⟨1, _⟩ => show win1_0.index t (1 : Fin 2) * 64 + 1 * k.val = k.val; rw [e01]; omega
  · show V c main_arg6 (((cfg1.win 1).blk t).view.emb (ix2 k q)) = V c main_arg6 (ix2 k q)
    refine congrArg _ (funext fun a => Fin.ext ?_)
    match a with
    | ⟨0, _⟩ => show win1_1.index t (0 : Fin 2) * 64 + 1 * k.val = k.val; rw [e10]; omega
    | ⟨1, _⟩ => show win1_1.index t (1 : Fin 2) * 64 + 1 * q.val = q.val; rw [e11]; omega
  · show V c main_v11 (((cfg1.win 2).blk t).view.emb (ix2 p (0 : Fin 1))) = V c main_v11 (ix2 (⟨t.val * 2000 + p.val, by omega⟩ : Fin 50000) (0 : Fin 1))
    refine congrArg _ (funext fun a => Fin.ext ?_)
    match a with
    | ⟨0, _⟩ => show win1_2.index t (0 : Fin 2) * 2000 + 1 * p.val = t.val * 2000 + p.val; rw [e20]; omega
    | ⟨1, _⟩ => show win1_2.index t (1 : Fin 2) * 1 + 1 * 0 = 0; rw [e21]

/-- An index of the output array is in point t's block iff each coordinate is in the block's range on its axis. -/
theorem mem_blk1_3 (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v15).slice (win1_3.rect t)).set ↔ _
  rw [View.set_slice_whole, Rect.mem_set_unit]
  exact Iff.rfl

/-- Every index of the output array is in some point's block: row r is in the block of point r / 2000. -/
theorem covered1_3 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 25 := N_1
  refine ⟨⟨(i 0).val / 2000, by omega⟩, flush1_3 _, ?_⟩
  obtain ⟨-, -, -, -, -, -, e30, e31⟩ := idx_facts1 ⟨(i 0).val / 2000, by omega⟩
  rw [mem_blk1_3]
  intro a
  match a with
  | ⟨0, _⟩ =>
    show win1_3.index _ (0 : Fin 2) * 2000 ≤ (i 0).val ∧ (i 0).val < win1_3.index _ (0 : Fin 2) * 2000 + 2000
    rw [e30]; show (i 0).val / 2000 * 2000 ≤ (i 0).val ∧ (i 0).val < (i 0).val / 2000 * 2000 + 2000; omega
  | ⟨1, _⟩ =>
    show win1_3.index _ (1 : Fin 2) * 64 ≤ (i 1).val ∧ (i 1).val < win1_3.index _ (1 : Fin 2) * 64 + 64
    rw [e31]; omega

/-- The output array after the region: the specification of the feature, weight and scale arrays as the region
    finds them. -/
theorem arr1_3 (c : Dev nD) :
    (dat1 (F := Ideal) V c).arrAt 3 cfg1.N = hwsG (V c main_v14) (V c main_arg6) (V c main_v11) :=
  (dat1 (F := Ideal) V c).arrAt_eq_of_cover 3 (hwsG (V c main_v14) (V c main_arg6) (V c main_v11))
    (fun t _ => flushed1_3_eq V c t) covered1_3

end Cert.KernelIdeal.Fr

end
-- ==== Proof.KI.Val3.lean ====
/-
  The value of region 3: the output array after the region is the scaled product of the arrays it reads. The stored
  value of the body at an index is read on the extended reals, where the product of a row block with the weights is a
  sum over the 64 shared coordinates and the roundings are the identity; each point writes back one row block of the
  specification, and the 25 row blocks cover the array.
-/
import proofs.«131582_j65292092834213_2_alg».proof.Proof.KI.R3
import proofs.«131582_j65292092834213_2_alg».proof.Proof.KI.ValScaled
import Idealize.ShloMosaic.Lib.Pipeline.Value
import Idealize.ShloMosaic.Lib.ValueIdx
import Idealize.ShloMosaic.PureOps.Ideal.Laws

noncomputable section

open scoped BigOperators

namespace Cert.KernelIdeal.Fr

open Cert.KernelIdeal Cert.KernelIdeal.Gen
open Idealize.ShloMosaic Idealize.ShloMosaic.TcCoe Idealize.SL.Sem
open Idealize.ShloMosaic.ValueIdx
open Idealize.ShloMosaic.Pipeline (Dat)

/-- The stored value of region 3 at entry (p, q) of the block: row p of the feature block times column q of the
    weights, times the scale of row p (on the extended reals the roundings to bf16 are the identity). -/
theorem pay3_apply (x0 : Vec Ideal S2000x64 .f32) (x1 : Vec Ideal S64x64 .f32) (x2 : Vec Ideal S2000x1 .f32) (p : Fin 2000) (q : Fin 64) :
    k3_pay1 x0 x1 x2 (ix2 p q) = (∑ k : Fin 64, x0 (ix2 p k) * x1 (ix2 k q)) * x2 (ix2 p (0 : Fin 1)) := by
  unfold k3_pay1
  simp only [shapeCast_self]
  show matmul (F := Ideal) dot_S2000x64_S64x64_S2000x64_1_0_0_1_n_n none (truncf (F := Ideal) .bf16 x0 bitsLt_bf16_f32) (truncf (F := Ideal) .bf16 x1 bitsLt_bf16_f32) (constant S2000x64 .f32 0x00000000#32) (ix2 p q)
      * broadcastTo S2000x64 x2 broadcasts_S2000x1_S2000x64 (ix2 p q) = _
  exact congrArg₂ (· * ·) (scaled_matmul_apply _ _ p q) (scaled_broadcast_apply _ p q)

/-! ## Region 3: from the blocks to the array -/

/-- The stored value at entry (p, q) of a block whose feature rows and scales are rows r of the arrays, and whose
    weights are the weight matrix, is the specification at (r, q). -/
theorem block_value3 (X : Vec Ideal S50000x64 .f32) (W : Vec Ideal S64x64 .f32) (d : Vec Ideal S50000x1 .f32)
    (x0 : Vec Ideal S2000x64 .f32) (x1 : Vec Ideal S64x64 .f32) (x2 : Vec Ideal S2000x1 .f32)
    (p : Fin 2000) (q : Fin 64) (r : Fin 50000)
    (h0 : ∀ k : Fin 64, x0 (ix2 p k) = X (ix2 r k))
    (h1 : ∀ k : Fin 64, x1 (ix2 k q) = W (ix2 k q))
    (h2 : x2 (ix2 p (0 : Fin 1)) = d (ix2 r (0 : Fin 1))) :
    k3_pay1 x0 x1 x2 (ix2 p q) = hwsG X W d (ix2 r q) := by
  rw [pay3_apply, h2]
  show _ = (∑ k : Fin 64, X (ix2 r k) * W (ix2 k q)) * d (ix2 r (0 : Fin 1))
  exact congrArg (· * _) (Finset.sum_congr rfl fun k _ => by rw [h0 k, h1 k])

/-- The index maps over the grid: the feature, scale and output windows are at row block t, the weight window at its
    one block. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- What point t writes back is block t of the specification of the arrays as the region finds them. -/
theorem flushed3_3_eq (c : Dev nD) (t : Fin cfg3.N) :
    (dat3 (F := Ideal) V c).flushed 3 t
      = ((cfg3.win 3).blk t).view.read (Elt Ideal) (hwsG (V c main_v29_0) (V c main_arg6) (V c main_v11)) := by
  show (cfg3.win 3).cut (grid3.coords t) ((dat3 V c).after 3 t) = _
  rw [after3_3]
  unfold out3_3
  rw [View.canon_unit_zero scaled_hz]
  simp only [View.ld_unit_zero (S := S2000x64) scaled_hz, View.ld_unit_zero (S := S64x64) scaled_hz, View.ld_unit_zero (S := S2000x1) scaled_hz]
  obtain ⟨e00, e01, e10, e11, e20, e21, e30, e31⟩ := idx_facts3 t
  have ht : t.val < 25 := lt_of_lt_of_eq t.isLt N_3
  funext j
  obtain ⟨p, q, rfl⟩ : ∃ (p : Fin 2000) (q : Fin 64), j = ix2 p q := ⟨j 0, j 1, eq_ix2 j⟩
  have hp : p.val < 2000 := p.isLt
  have hemb : ((cfg3.win 3).blk t).view.emb (ix2 p q) = ix2 (⟨t.val * 2000 + p.val, by omega⟩ : Fin 50000) q := by
    funext a; apply Fin.ext
    match a with
    | ⟨0, _⟩ => show win3_3.index t (0 : Fin 2) * 2000 + 1 * p.val = t.val * 2000 + p.val; rw [e30]; omega
    | ⟨1, _⟩ => show win3_3.index t (1 : Fin 2) * 64 + 1 * q.val = q.val; rw [e31]; omega
  show k3_pay1 (iblk3 V c 0 t) (iblk3 V c 1 t) (iblk3 V c 2 t) (ix2 p q)
      = hwsG (V c main_v29_0) (V c main_arg6) (V c main_v11) (((cfg3.win 3).blk t).view.emb (ix2 p q))
  rw [hemb]
  refine block_value3 _ _ _ _ _ _ p q _ (fun k => ?_) (fun k => ?_) ?_
  · show V c main_v29_0 (((cfg3.win 0).blk t).view.emb (ix2 p k)) = V c main_v29_0 (ix2 (⟨t.val * 2000 + p.val, by omega⟩ : Fin 50000) k)
    refine congrArg _ (funext fun a => Fin.ext ?_)
    match a with
    | ⟨0, _⟩ => show win3_0.index t (0 : Fin 2) * 2000 + 1 * p.val = t.val * 2000 + p.val; rw [e00]; omega
    | ⟨1, _⟩ => show win3_0.index t (1 : Fin 2) * 64 + 1 * k.val = k.val; rw [e01]; omega
  · show V c main_arg6 (((cfg3.win 1).blk t).view.emb (ix2 k q)) = V c main_arg6 (ix2 k q)
    refine congrArg _ (funext fun a => Fin.ext ?_)
    match a with
    | ⟨0, _⟩ => show win3_1.index t (0 : Fin 2) * 64 + 1 * k.val = k.val; rw [e10]; omega
    | ⟨1, _⟩ => show win3_1.index t (1 : Fin 2) * 64 + 1 * q.val = q.val; rw [e11]; omega
  · show V c main_v11 (((cfg3.win 2).blk t).view.emb (ix2 p (0 : Fin 1))) = V c main_v11 (ix2 (⟨t.val * 2000 + p.val, by omega⟩ : Fin 50000) (0 : Fin 1))
    refine congrArg _ (funext fun a => Fin.ext ?_)
    match a with
    | ⟨0, _⟩ => show win3_2.index t (0 : Fin 2) * 2000 + 1 * p.val = t.val * 2000 + p.val; rw [e20]; omega
    | ⟨1, _⟩ => show win3_2.index t (1 : Fin 2) * 1 + 1 * 0 = 0; rw [e21]

/-- An index of the output array is in point t's block iff each coordinate is in the block's range on its axis. -/
theorem mem_blk3_3 (t : Fin cfg3.N) (i : S50000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v30).slice (win3_3.rect t)).set ↔ _
  rw [View.set_slice_whole, Rect.mem_set_unit]
  exact Iff.rfl

/-- Every index of the output array is in some point's block: row r is in the block of point r / 2000. -/
theorem covered3_3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 25 := N_3
  refine ⟨⟨(i 0).val / 2000, by omega⟩, flush3_3 _, ?_⟩
  obtain ⟨-, -, -, -, -, -, e30, e31⟩ := idx_facts3 ⟨(i 0).val / 2000, by omega⟩
  rw [mem_blk3_3]
  intro a
  match a with
  | ⟨0, _⟩ =>
    show win3_3.index _ (0 : Fin 2) * 2000 ≤ (i 0).val ∧ (i 0).val < win3_3.index _ (0 : Fin 2) * 2000 + 2000
    rw [e30]; show (i 0).val / 2000 * 2000 ≤ (i 0).val ∧ (i 0).val < (i 0).val / 2000 * 2000 + 2000; omega
  | ⟨1, _⟩ =>
    show win3_3.index _ (1 : Fin 2) * 64 ≤ (i 1).val ∧ (i 1).val < win3_3.index _ (1 : Fin 2) * 64 + 64
    rw [e31]; omega

/-- The output array after the region: the specification of the feature, weight and scale arrays as the region
    finds them. -/
theorem arr3_3 (c : Dev nD) :
    (dat3 (F := Ideal) V c).arrAt 3 cfg3.N = hwsG (V c main_v29_0) (V c main_arg6) (V c main_v11) :=
  (dat3 (F := Ideal) V c).arrAt_eq_of_cover 3 (hwsG (V c main_v29_0) (V c main_arg6) (V c main_v11))
    (fun t _ => flushed3_3_eq V c t) covered3_3

end Cert.KernelIdeal.Fr

end
-- ==== Proof.KI.Val5.lean ====
/-
  The value of region 5: the output array after the region is the scaled product of the arrays it reads. The stored
  value of the body at an index is read on the extended reals, where the product of a row block with the weights is a
  sum over the 64 shared coordinates and the roundings are the identity; each point writes back one row block of the
  specification, and the 25 row blocks cover the array.
-/
import proofs.«131582_j65292092834213_2_alg».proof.Proof.KI.R5
import proofs.«131582_j65292092834213_2_alg».proof.Proof.KI.ValScaled
import Idealize.ShloMosaic.Lib.Pipeline.Value
import Idealize.ShloMosaic.Lib.ValueIdx
import Idealize.ShloMosaic.PureOps.Ideal.Laws

noncomputable section

open scoped BigOperators

namespace Cert.KernelIdeal.Fr

open Cert.KernelIdeal Cert.KernelIdeal.Gen
open Idealize.ShloMosaic Idealize.ShloMosaic.TcCoe Idealize.SL.Sem
open Idealize.ShloMosaic.ValueIdx
open Idealize.ShloMosaic.Pipeline (Dat)

/-- The stored value of region 5 at entry (p, q) of the block: row p of the feature block times column q of the
    weights, times the scale of row p (on the extended reals the roundings to bf16 are the identity). -/
theorem pay5_apply (x0 : Vec Ideal S2000x64 .f32) (x1 : Vec Ideal S64x64 .f32) (x2 : Vec Ideal S2000x1 .f32) (p : Fin 2000) (q : Fin 64) :
    k5_pay1 x0 x1 x2 (ix2 p q) = (∑ k : Fin 64, x0 (ix2 p k) * x1 (ix2 k q)) * x2 (ix2 p (0 : Fin 1)) := by
  unfold k5_pay1
  simp only [shapeCast_self]
  show matmul (F := Ideal) dot_S2000x64_S64x64_S2000x64_1_0_0_1_n_n none (truncf (F := Ideal) .bf16 x0 bitsLt_bf16_f32) (truncf (F := Ideal) .bf16 x1 bitsLt_bf16_f32) (constant S2000x64 .f32 0x00000000#32) (ix2 p q)
      * broadcastTo S2000x64 x2 broadcasts_S2000x1_S2000x64 (ix2 p q) = _
  exact congrArg₂ (· * ·) (scaled_matmul_apply _ _ p q) (scaled_broadcast_apply _ p q)

/-! ## Region 5: from the blocks to the array -/

/-- The stored value at entry (p, q) of a block whose feature rows and scales are rows r of the arrays, and whose
    weights are the weight matrix, is the specification at (r, q). -/
theorem block_value5 (X : Vec Ideal S50000x64 .f32) (W : Vec Ideal S64x64 .f32) (d : Vec Ideal S50000x1 .f32)
    (x0 : Vec Ideal S2000x64 .f32) (x1 : Vec Ideal S64x64 .f32) (x2 : Vec Ideal S2000x1 .f32)
    (p : Fin 2000) (q : Fin 64) (r : Fin 50000)
    (h0 : ∀ k : Fin 64, x0 (ix2 p k) = X (ix2 r k))
    (h1 : ∀ k : Fin 64, x1 (ix2 k q) = W (ix2 k q))
    (h2 : x2 (ix2 p (0 : Fin 1)) = d (ix2 r (0 : Fin 1))) :
    k5_pay1 x0 x1 x2 (ix2 p q) = hwsG X W d (ix2 r q) := by
  rw [pay5_apply, h2]
  show _ = (∑ k : Fin 64, X (ix2 r k) * W (ix2 k q)) * d (ix2 r (0 : Fin 1))
  exact congrArg (· * _) (Finset.sum_congr rfl fun k _ => by rw [h0 k, h1 k])

/-- The index maps over the grid: the feature, scale and output windows are at row block t, the weight window at its
    one block. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

/-- What point t writes back is block t of the specification of the arrays as the region finds them. -/
theorem flushed5_3_eq (c : Dev nD) (t : Fin cfg5.N) :
    (dat5 (F := Ideal) V c).flushed 3 t
      = ((cfg5.win 3).blk t).view.read (Elt Ideal) (hwsG (V c main_v44_0) (V c main_arg6) (V c main_v11)) := by
  show (cfg5.win 3).cut (grid5.coords t) ((dat5 V c).after 3 t) = _
  rw [after5_3]
  unfold out5_3
  rw [View.canon_unit_zero scaled_hz]
  simp only [View.ld_unit_zero (S := S2000x64) scaled_hz, View.ld_unit_zero (S := S64x64) scaled_hz, View.ld_unit_zero (S := S2000x1) scaled_hz]
  obtain ⟨e00, e01, e10, e11, e20, e21, e30, e31⟩ := idx_facts5 t
  have ht : t.val < 25 := lt_of_lt_of_eq t.isLt N_5
  funext j
  obtain ⟨p, q, rfl⟩ : ∃ (p : Fin 2000) (q : Fin 64), j = ix2 p q := ⟨j 0, j 1, eq_ix2 j⟩
  have hp : p.val < 2000 := p.isLt
  have hemb : ((cfg5.win 3).blk t).view.emb (ix2 p q) = ix2 (⟨t.val * 2000 + p.val, by omega⟩ : Fin 50000) q := by
    funext a; apply Fin.ext
    match a with
    | ⟨0, _⟩ => show win5_3.index t (0 : Fin 2) * 2000 + 1 * p.val = t.val * 2000 + p.val; rw [e30]; omega
    | ⟨1, _⟩ => show win5_3.index t (1 : Fin 2) * 64 + 1 * q.val = q.val; rw [e31]; omega
  show k5_pay1 (iblk5 V c 0 t) (iblk5 V c 1 t) (iblk5 V c 2 t) (ix2 p q)
      = hwsG (V c main_v44_0) (V c main_arg6) (V c main_v11) (((cfg5.win 3).blk t).view.emb (ix2 p q))
  rw [hemb]
  refine block_value5 _ _ _ _ _ _ p q _ (fun k => ?_) (fun k => ?_) ?_
  · show V c main_v44_0 (((cfg5.win 0).blk t).view.emb (ix2 p k)) = V c main_v44_0 (ix2 (⟨t.val * 2000 + p.val, by omega⟩ : Fin 50000) k)
    refine congrArg _ (funext fun a => Fin.ext ?_)
    match a with
    | ⟨0, _⟩ => show win5_0.index t (0 : Fin 2) * 2000 + 1 * p.val = t.val * 2000 + p.val; rw [e00]; omega
    | ⟨1, _⟩ => show win5_0.index t (1 : Fin 2) * 64 + 1 * k.val = k.val; rw [e01]; omega
  · show V c main_arg6 (((cfg5.win 1).blk t).view.emb (ix2 k q)) = V c main_arg6 (ix2 k q)
    refine congrArg _ (funext fun a => Fin.ext ?_)
    match a with
    | ⟨0, _⟩ => show win5_1.index t (0 : Fin 2) * 64 + 1 * k.val = k.val; rw [e10]; omega
    | ⟨1, _⟩ => show win5_1.index t (1 : Fin 2) * 64 + 1 * q.val = q.val; rw [e11]; omega
  · show V c main_v11 (((cfg5.win 2).blk t).view.emb (ix2 p (0 : Fin 1))) = V c main_v11 (ix2 (⟨t.val * 2000 + p.val, by omega⟩ : Fin 50000) (0 : Fin 1))
    refine congrArg _ (funext fun a => Fin.ext ?_)
    match a with
    | ⟨0, _⟩ => show win5_2.index t (0 : Fin 2) * 2000 + 1 * p.val = t.val * 2000 + p.val; rw [e20]; omega
    | ⟨1, _⟩ => show win5_2.index t (1 : Fin 2) * 1 + 1 * 0 = 0; rw [e21]

/-- An index of the output array is in point t's block iff each coordinate is in the block's range on its axis. -/
theorem mem_blk5_3 (t : Fin cfg5.N) (i : S50000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v45).slice (win5_3.rect t)).set ↔ _
  rw [View.set_slice_whole, Rect.mem_set_unit]
  exact Iff.rfl

/-- Every index of the output array is in some point's block: row r is in the block of point r / 2000. -/
theorem covered5_3 (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 25 := N_5
  refine ⟨⟨(i 0).val / 2000, by omega⟩, flush5_3 _, ?_⟩
  obtain ⟨-, -, -, -, -, -, e30, e31⟩ := idx_facts5 ⟨(i 0).val / 2000, by omega⟩
  rw [mem_blk5_3]
  intro a
  match a with
  | ⟨0, _⟩ =>
    show win5_3.index _ (0 : Fin 2) * 2000 ≤ (i 0).val ∧ (i 0).val < win5_3.index _ (0 : Fin 2) * 2000 + 2000
    rw [e30]; show (i 0).val / 2000 * 2000 ≤ (i 0).val ∧ (i 0).val < (i 0).val / 2000 * 2000 + 2000; omega
  | ⟨1, _⟩ =>
    show win5_3.index _ (1 : Fin 2) * 64 ≤ (i 1).val ∧ (i 1).val < win5_3.index _ (1 : Fin 2) * 64 + 64
    rw [e31]; omega

/-- The output array after the region: the specification of the feature, weight and scale arrays as the region
    finds them. -/
theorem arr5_3 (c : Dev nD) :
    (dat5 (F := Ideal) V c).arrAt 3 cfg5.N = hwsG (V c main_v44_0) (V c main_arg6) (V c main_v11) :=
  (dat5 (F := Ideal) V c).arrAt_eq_of_cover 3 (hwsG (V c main_v44_0) (V c main_arg6) (V c main_v11))
    (fun t _ => flushed5_3_eq V c t) covered5_3

end Cert.KernelIdeal.Fr

end
-- ==== Proof.KI.Val7.lean ====
/-
  The value of region 7: the output array after the region is the scaled product of the arrays it reads. The stored
  value of the body at an index is read on the extended reals, where the product of a row block with the weights is a
  sum over the 64 shared coordinates and the roundings are the identity; each point writes back one row block of the
  specification, and the 25 row blocks cover the array.
-/
import proofs.«131582_j65292092834213_2_alg».proof.Proof.KI.R7
import proofs.«131582_j65292092834213_2_alg».proof.Proof.KI.ValScaled
import Idealize.ShloMosaic.Lib.Pipeline.Value
import Idealize.ShloMosaic.Lib.ValueIdx
import Idealize.ShloMosaic.PureOps.Ideal.Laws

noncomputable section

open scoped BigOperators

namespace Cert.KernelIdeal.Fr

open Cert.KernelIdeal Cert.KernelIdeal.Gen
open Idealize.ShloMosaic Idealize.ShloMosaic.TcCoe Idealize.SL.Sem
open Idealize.ShloMosaic.ValueIdx
open Idealize.ShloMosaic.Pipeline (Dat)

/-- The stored value of region 7 at entry (p, q) of the block: row p of the feature block times column q of the
    weights, times the scale of row p (on the extended reals the roundings to bf16 are the identity). -/
theorem pay7_apply (x0 : Vec Ideal S2000x64 .f32) (x1 : Vec Ideal S64x64 .f32) (x2 : Vec Ideal S2000x1 .f32) (p : Fin 2000) (q : Fin 64) :
    k7_pay1 x0 x1 x2 (ix2 p q) = (∑ k : Fin 64, x0 (ix2 p k) * x1 (ix2 k q)) * x2 (ix2 p (0 : Fin 1)) := by
  unfold k7_pay1
  simp only [shapeCast_self]
  show matmul (F := Ideal) dot_S2000x64_S64x64_S2000x64_1_0_0_1_n_n none (truncf (F := Ideal) .bf16 x0 bitsLt_bf16_f32) (truncf (F := Ideal) .bf16 x1 bitsLt_bf16_f32) (constant S2000x64 .f32 0x00000000#32) (ix2 p q)
      * broadcastTo S2000x64 x2 broadcasts_S2000x1_S2000x64 (ix2 p q) = _
  exact congrArg₂ (· * ·) (scaled_matmul_apply _ _ p q) (scaled_broadcast_apply _ p q)

/-! ## Region 7: from the blocks to the array -/

/-- The stored value at entry (p, q) of a block whose feature rows and scales are rows r of the arrays, and whose
    weights are the weight matrix, is the specification at (r, q). -/
theorem block_value7 (X : Vec Ideal S50000x64 .f32) (W : Vec Ideal S64x64 .f32) (d : Vec Ideal S50000x1 .f32)
    (x0 : Vec Ideal S2000x64 .f32) (x1 : Vec Ideal S64x64 .f32) (x2 : Vec Ideal S2000x1 .f32)
    (p : Fin 2000) (q : Fin 64) (r : Fin 50000)
    (h0 : ∀ k : Fin 64, x0 (ix2 p k) = X (ix2 r k))
    (h1 : ∀ k : Fin 64, x1 (ix2 k q) = W (ix2 k q))
    (h2 : x2 (ix2 p (0 : Fin 1)) = d (ix2 r (0 : Fin 1))) :
    k7_pay1 x0 x1 x2 (ix2 p q) = hwsG X W d (ix2 r q) := by
  rw [pay7_apply, h2]
  show _ = (∑ k : Fin 64, X (ix2 r k) * W (ix2 k q)) * d (ix2 r (0 : Fin 1))
  exact congrArg (· * _) (Finset.sum_congr rfl fun k _ => by rw [h0 k, h1 k])

/-- The index maps over the grid: the feature, scale and output windows are at row block t, the weight window at its
    one block. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

variable (V : (c : Dev nD) → (b : Ref sig .tc) → Buf (Elt Ideal) ((c : Thread nD τ).loc b))

/-- What point t writes back is block t of the specification of the arrays as the region finds them. -/
theorem flushed7_3_eq (c : Dev nD) (t : Fin cfg7.N) :
    (dat7 (F := Ideal) V c).flushed 3 t
      = ((cfg7.win 3).blk t).view.read (Elt Ideal) (hwsG (V c main_v59_0) (V c main_arg6) (V c main_v11)) := by
  show (cfg7.win 3).cut (grid7.coords t) ((dat7 V c).after 3 t) = _
  rw [after7_3]
  unfold out7_3
  rw [View.canon_unit_zero scaled_hz]
  simp only [View.ld_unit_zero (S := S2000x64) scaled_hz, View.ld_unit_zero (S := S64x64) scaled_hz, View.ld_unit_zero (S := S2000x1) scaled_hz]
  obtain ⟨e00, e01, e10, e11, e20, e21, e30, e31⟩ := idx_facts7 t
  have ht : t.val < 25 := lt_of_lt_of_eq t.isLt N_7
  funext j
  obtain ⟨p, q, rfl⟩ : ∃ (p : Fin 2000) (q : Fin 64), j = ix2 p q := ⟨j 0, j 1, eq_ix2 j⟩
  have hp : p.val < 2000 := p.isLt
  have hemb : ((cfg7.win 3).blk t).view.emb (ix2 p q) = ix2 (⟨t.val * 2000 + p.val, by omega⟩ : Fin 50000) q := by
    funext a; apply Fin.ext
    match a with
    | ⟨0, _⟩ => show win7_3.index t (0 : Fin 2) * 2000 + 1 * p.val = t.val * 2000 + p.val; rw [e30]; omega
    | ⟨1, _⟩ => show win7_3.index t (1 : Fin 2) * 64 + 1 * q.val = q.val; rw [e31]; omega
  show k7_pay1 (iblk7 V c 0 t) (iblk7 V c 1 t) (iblk7 V c 2 t) (ix2 p q)
      = hwsG (V c main_v59_0) (V c main_arg6) (V c main_v11) (((cfg7.win 3).blk t).view.emb (ix2 p q))
  rw [hemb]
  refine block_value7 _ _ _ _ _ _ p q _ (fun k => ?_) (fun k => ?_) ?_
  · show V c main_v59_0 (((cfg7.win 0).blk t).view.emb (ix2 p k)) = V c main_v59_0 (ix2 (⟨t.val * 2000 + p.val, by omega⟩ : Fin 50000) k)
    refine congrArg _ (funext fun a => Fin.ext ?_)
    match a with
    | ⟨0, _⟩ => show win7_0.index t (0 : Fin 2) * 2000 + 1 * p.val = t.val * 2000 + p.val; rw [e00]; omega
    | ⟨1, _⟩ => show win7_0.index t (1 : Fin 2) * 64 + 1 * k.val = k.val; rw [e01]; omega
  · show V c main_arg6 (((cfg7.win 1).blk t).view.emb (ix2 k q)) = V c main_arg6 (ix2 k q)
    refine congrArg _ (funext fun a => Fin.ext ?_)
    match a with
    | ⟨0, _⟩ => show win7_1.index t (0 : Fin 2) * 64 + 1 * k.val = k.val; rw [e10]; omega
    | ⟨1, _⟩ => show win7_1.index t (1 : Fin 2) * 64 + 1 * q.val = q.val; rw [e11]; omega
  · show V c main_v11 (((cfg7.win 2).blk t).view.emb (ix2 p (0 : Fin 1))) = V c main_v11 (ix2 (⟨t.val * 2000 + p.val, by omega⟩ : Fin 50000) (0 : Fin 1))
    refine congrArg _ (funext fun a => Fin.ext ?_)
    match a with
    | ⟨0, _⟩ => show win7_2.index t (0 : Fin 2) * 2000 + 1 * p.val = t.val * 2000 + p.val; rw [e20]; omega
    | ⟨1, _⟩ => show win7_2.index t (1 : Fin 2) * 1 + 1 * 0 = 0; rw [e21]

/-- An index of the output array is in point t's block iff each coordinate is in the block's range on its axis. -/
theorem mem_blk7_3 (t : Fin cfg7.N) (i : S50000x64.Idx) :
    i ∈ ((cfg7.win 3).blk t).view.set ↔ ∀ a : Fin 2, win7_3.index t a * S2000x64.size a ≤ (i a).val ∧ (i a).val < win7_3.index t a * S2000x64.size a + S2000x64.size a := by
  show i ∈ ((View.whole main_v60).slice (win7_3.rect t)).set ↔ _
  rw [View.set_slice_whole, Rect.mem_set_unit]
  exact Iff.rfl

/-- Every index of the output array is in some point's block: row r is in the block of point r / 2000. -/
theorem covered7_3 (i : S50000x64.Idx) :
    ∃ t : Fin cfg7.N, (cfg7.win 3).flush t = true ∧ i ∈ ((cfg7.win 3).blk t).view.set := by
  have hi0 : (i 0).val < 50000 := (i 0).isLt
  have hi1 : (i 1).val < 64 := (i 1).isLt
  have hN : cfg7.N = 25 := N_7
  refine ⟨⟨(i 0).val / 2000, by omega⟩, flush7_3 _, ?_⟩
  obtain ⟨-, -, -, -, -, -, e30, e31⟩ := idx_facts7 ⟨(i 0).val / 2000, by omega⟩
  rw [mem_blk7_3]
  intro a
  match a with
  | ⟨0, _⟩ =>
    show win7_3.index _ (0 : Fin 2) * 2000 ≤ (i 0).val ∧ (i 0).val < win7_3.index _ (0 : Fin 2) * 2000 + 2000
    rw [e30]; show (i 0).val / 2000 * 2000 ≤ (i 0).val ∧ (i 0).val < (i 0).val / 2000 * 2000 + 2000; omega
  | ⟨1, _⟩ =>
    show win7_3.index _ (1 : Fin 2) * 64 ≤ (i 1).val ∧ (i 1).val < win7_3.index _ (1 : Fin 2) * 64 + 64
    rw [e31]; omega

/-- The output array after the region: the specification of the feature, weight and scale arrays as the region
    finds them. -/
theorem arr7_3 (c : Dev nD) :
    (dat7 (F := Ideal) V c).arrAt 3 cfg7.N = hwsG (V c main_v59_0) (V c main_arg6) (V c main_v11) :=
  (dat7 (F := Ideal) V c).arrAt_eq_of_cover 3 (hwsG (V c main_v59_0) (V c main_arg6) (V c main_v11))
    (fun t _ => flushed7_3_eq V c t) covered7_3

end Cert.KernelIdeal.Fr

end
-- ==== Proof.KI.Val9.lean ====
/-
  The value of region 9: the output array after the region is the scaled product of the arrays it reads. The stored
  value of the body at an index is read on the extended reals, where the product of a row block with the weights is a
  sum over the 64 shared coordinates and the roundings are the identity; each point writes back one row block of the
  specification, and the 25 row blocks cover the array.
-/
import proofs.«131582_j65292092834213_2_alg».proof.Proof.KI.R9
import proofs.«131582_j65292092834213_2_alg».proof.Proof.KI.ValScaled
import Idealize.ShloMosaic.Lib.Pipeline.Value
import Idealize.ShloMosaic.Lib.ValueIdx
import Idealize.ShloMosaic.PureOps.Ideal.Laws

noncomputable section

open scoped BigOperators

namespace Cert.KernelIdeal.Fr

open Cert.KernelIdeal Cert.KernelIdeal.Gen
open Idealize.ShloMosaic Idealize.ShloMosaic.TcCoe Idealize.SL.Sem
open Idealize.ShloMosaic.ValueIdx
open Idealize.ShloMosaic.Pipeline (Dat)

/-- The stored value of region 9 at entry (p, q) of the block: row p of the feature block times column q of the
    weights, times the scale of row p (on the extended reals the roundings to bf16 are the identity). -/
theorem pay9_apply (x0 : Vec Ideal S2000x64 .f32) (x1 : Vec Ideal S64x64 .f32) (x2 : Vec Ideal S2000x1 .f32) (p : Fin 2000) (q : Fin 64) :
    k9_pay1 x0 x1 x2 (ix2 p q) = (∑ k : Fin 64, x0 (ix2 p k) * x1 (ix2 k q)) * x2 (ix2 p (0 : Fin 1)) := by
  unfold k9_pay1
  simp only [shapeCast_self]
  show matmul (F := Ideal) dot_S2000x64_S64x64_S2000x64_1_0_0_1_n_n none (truncf (F := Ideal) .bf16 x0 bitsLt_bf16_f32) (truncf (F := Ideal) .bf16 x1 bitsLt_bf16_f32) (constant S2000x64 .f32 0x00000000#32) (ix2 p q)
      * broadcastTo S2000x64 x2 broadcasts_S2000x1_S2000x64 (ix2 p q) = _
  exact congrArg₂ (· * ·) (scaled_matmul_apply _ _ p q) (scaled_broadcast_apply _ p q)

/-! ## Region 9: from the blocks to the array -/

/-- The stored value at entry (p, q) of a block whose feature rows and scales are rows r of the arrays, and whose
    weights are the weight matrix, is the specification at (r, q). -/
theorem block_value9 (X : Vec Ideal S50000x64 .f32) (W : Vec Ideal S64x64 .f32) (d : Vec Ideal S50000x1 .f32)
    (x0 : Vec Ideal S2000x64 .f32) (x1 : Vec Ideal S64x64 .f32) (x2 : Vec Ideal S2000x1 .f32)
    (p : Fin 2000) (q : Fin 64) (r : Fin 50000)
    (h0 : ∀ k : Fin 64, x0 (ix2 p k) = X (ix2 r k))
    (h1 : ∀ k : Fin 64, x1 (ix2 k q) = W (ix2 k q))
    (h2 : x2 (ix2 p (0 : Fin 1)) = d (ix2 r (0 : Fin 1))) :
    k9_pay1 x0 x1 x2 (ix2 p q) = hwsG X W d (ix2 r q) := by
  rw [pay9_apply, h2]
  show _ = (∑ k : Fin 64, X (ix2 r k) * W (ix2 k q)) * d (ix2 r (0 : Fin 1))
  exact congrArg (· * _) (Finset.sum_congr rfl fun k _ => by rw [h0 k, h1 k])

/-- The index maps over the grid: the feature, scale and output windows are at row block t, the weight window at its
    one block. -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0 :=
  (by decide +kernel : ∀ t : Fin grid9.N, _)

variable (V : (c : Dev nD) → (b : Ref sig .tc) → Buf (Elt Ideal) ((c : Thread nD τ).loc b))

/-- What point t writes back is block t of the specification of the arrays as the region finds them. -/
theorem flushed9_3_eq (c : Dev nD) (t : Fin cfg9.N) :
    (dat9 (F := Ideal) V c).flushed 3 t
      = ((cfg9.win 3).blk t).view.read (Elt Ideal) (hwsG (V c main_v74_0) (V c main_arg6) (V c main_v11)) := by
  show (cfg9.win 3).cut (grid9.coords t) ((dat9 V c).after 3 t) = _
  rw [after9_3]
  unfold out9_3
  rw [View.canon_unit_zero scaled_hz]
  simp only [View.ld_unit_zero (S := S2000x64) scaled_hz, View.ld_unit_zero (S := S64x64) scaled_hz, View.ld_unit_zero (S := S2000x1) scaled_hz]
  obtain ⟨e00, e01, e10, e11, e20, e21, e30, e31⟩ := idx_facts9 t
  have ht : t.val < 25 := lt_of_lt_of_eq t.isLt N_9
  funext j
  obtain ⟨p, q, rfl⟩ : ∃ (p : Fin 2000) (q : Fin 64), j = ix2 p q := ⟨j 0, j 1, eq_ix2 j⟩
  have hp : p.val < 2000 := p.isLt
  have hemb : ((cfg9.win 3).blk t).view.emb (ix2 p q) = ix2 (⟨t.val * 2000 + p.val, by omega⟩ : Fin 50000) q := by
    funext a; apply Fin.ext
    match a with
    | ⟨0, _⟩ => show win9_3.index t (0 : Fin 2) * 2000 + 1 * p.val = t.val * 2000 + p.val; rw [e30]; omega
    | ⟨1, _⟩ => show win9_3.index t (1 : Fin 2) * 64 + 1 * q.val = q.val; rw [e31]; omega
  show k9_pay1 (iblk9 V c 0 t) (iblk9 V c 1 t) (iblk9 V c 2 t) (ix2 p q)
      = hwsG (V c main_v74_0) (V c main_arg6) (V c main_v11) (((cfg9.win 3).blk t).view.emb (ix2 p q))
  rw [hemb]
  refine block_value9 _ _ _ _ _ _ p q _ (fun k => ?_) (fun k => ?_) ?_
  · show V c main_v74_0 (((cfg9.win 0).blk t).view.emb (ix2 p k)) = V c main_v74_0 (ix2 (⟨t.val * 2000 + p.val, by omega⟩ : Fin 50000) k)
    refine congrArg _ (funext fun a => Fin.ext ?_)
    match a with
    | ⟨0, _⟩ => show win9_0.index t (0 : Fin 2) * 2000 + 1 * p.val = t.val * 2000 + p.val; rw [e00]; omega
    | ⟨1, _⟩ => show win9_0.index t (1 : Fin 2) * 64 + 1 * k.val = k.val; rw [e01]; omega
  · show V c main_arg6 (((cfg9.win 1).blk t).view.emb (ix2 k q)) = V c main_arg6 (ix2 k q)
    refine congrArg _ (funext fun a => Fin.ext ?_)
    match a with
    | ⟨0, _⟩ => show win9_1.index t (0 : Fin 2) * 64 + 1 * k.val = k.val; rw [e10]; omega
    | ⟨1, _⟩ => show win9_1.index t (1 : Fin 2) * 64 + 1 * q.val = q.val; rw [e11]; omega
  · show V c main_v11 (((cfg9.win 2).blk t).view.emb (ix2 p (0 : Fin 1))) = V c main_v11 (ix2 (⟨t.val * 2000 + p.val, by omega⟩ : Fin 50000) (0 : Fin 1))
    refine congrArg _ (funext fun a => Fin.ext ?_)
    match a with
    | ⟨0, _⟩ => show win9_2.index t (0 : Fin 2) * 2000 + 1 * p.val = t.val * 2000 + p.val; rw [e20]; omega
    | ⟨1, _⟩ => show win9_2.index t (1 : Fin 2) * 1 + 1 * 0 = 0; rw [e21]

/-- An index of the output array is in point t's block iff each coordinate is in the block's range on its axis. -/
theorem mem_blk9_3 (t : Fin cfg9.N) (i : S50000x64.Idx) :
    i ∈ ((cfg9.win 3).blk t).view.set ↔ ∀ a : Fin 2, win9_3.index t a * S2000x64.size a ≤ (i a).val ∧ (i a).val < win9_3.index t a * S2000x64.size a + S2000x64.size a := by
  show i ∈ ((View.whole main_v75).slice (win9_3.rect t)).set ↔ _
  rw [View.set_slice_whole, Rect.mem_set_unit]
  exact Iff.rfl

/-- Every index of the output array is in some point's block: row r is in the block of point r / 2000. -/
theorem covered9_3 (i : S50000x64.Idx) :
    ∃ t : Fin cfg9.N, (cfg9.win 3).flush t = true ∧ i ∈ ((cfg9.win 3).blk t).view.set := by
  have hi0 : (i 0).val < 50000 := (i 0).isLt
  have hi1 : (i 1).val < 64 := (i 1).isLt
  have hN : cfg9.N = 25 := N_9
  refine ⟨⟨(i 0).val / 2000, by omega⟩, flush9_3 _, ?_⟩
  obtain ⟨-, -, -, -, -, -, e30, e31⟩ := idx_facts9 ⟨(i 0).val / 2000, by omega⟩
  rw [mem_blk9_3]
  intro a
  match a with
  | ⟨0, _⟩ =>
    show win9_3.index _ (0 : Fin 2) * 2000 ≤ (i 0).val ∧ (i 0).val < win9_3.index _ (0 : Fin 2) * 2000 + 2000
    rw [e30]; show (i 0).val / 2000 * 2000 ≤ (i 0).val ∧ (i 0).val < (i 0).val / 2000 * 2000 + 2000; omega
  | ⟨1, _⟩ =>
    show win9_3.index _ (1 : Fin 2) * 64 ≤ (i 1).val ∧ (i 1).val < win9_3.index _ (1 : Fin 2) * 64 + 64
    rw [e31]; omega

/-- The output array after the region: the specification of the feature, weight and scale arrays as the region
    finds them. -/
theorem arr9_3 (c : Dev nD) :
    (dat9 (F := Ideal) V c).arrAt 3 cfg9.N = hwsG (V c main_v74_0) (V c main_arg6) (V c main_v11) :=
  (dat9 (F := Ideal) V c).arrAt_eq_of_cover 3 (hwsG (V c main_v74_0) (V c main_arg6) (V c main_v11))
    (fun t _ => flushed9_3_eq V c t) covered9_3

end Cert.KernelIdeal.Fr

end
-- ==== Proof.KI.Val4.lean ====
/-
  Region 4's value: the two arrays the update leaves.

  At grid point t the body reads block t (rows 2000 t … 2000 t + 1999) of the two states, of the two aggregates and of
  the scale column, and the whole residual weights and bias rows, and stores into block t of its two outputs the new
  first and second states of those rows. Each entry (r, j) of what is stored at point r / 2000 reads row r of the node
  arrays only, so it is one function of the eight arrays, entry by entry (`updX`, `updY`). The 25 blocks tile the
  50000 rows, so after the region each output array is that function everywhere.
-/
import proofs.«131582_j65292092834213_2_alg».proof.Proof.KI.R4
import proofs.«131582_j65292092834213_2_alg».proof.Proof.KI.Val2
import proofs.«131582_j65292092834213_2_alg».proof.Proof.LibColumnBroadcast
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open scoped BigOperators

/-! ## The residual product: which operand entries an output entry reads -/

/-- The left operand is read on its row axis at the output's row, -/
theorem dot4_lhs0 (j : S2000x64.Idx) (q : dot_S2000x64_S64x64_S2000x64_1_0_0_1_n_n.contr.Idx) :
    (dot_S2000x64_S64x64_S2000x64_1_0_0_1_n_n.lhsIdx j q 0).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
/-- and on its column axis at the contraction index; -/
theorem dot4_lhs1 (j : S2000x64.Idx) (q : dot_S2000x64_S64x64_S2000x64_1_0_0_1_n_n.contr.Idx) :
    (dot_S2000x64_S64x64_S2000x64_1_0_0_1_n_n.lhsIdx j q 1).val = (q ⟨0, by decide⟩).val :=
  dot_S2000x64_S64x64_S2000x64_1_0_0_1_n_n.lhsIdx_val_of_single rfl j q
/-- the right operand on its row axis at the contraction index, -/
theorem dot4_rhs0 (j : S2000x64.Idx) (q : dot_S2000x64_S64x64_S2000x64_1_0_0_1_n_n.contr.Idx) :
    (dot_S2000x64_S64x64_S2000x64_1_0_0_1_n_n.rhsIdx j q 0).val = (q ⟨0, by decide⟩).val :=
  dot_S2000x64_S64x64_S2000x64_1_0_0_1_n_n.rhsIdx_val_of_single rfl j q
/-- and on its column axis at the output's column. -/
theorem dot4_rhs1 (j : S2000x64.Idx) (q : dot_S2000x64_S64x64_S2000x64_1_0_0_1_n_n.contr.Idx) :
    (dot_S2000x64_S64x64_S2000x64_1_0_0_1_n_n.rhsIdx j q 1).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- A bias row broadcast down the 2000 rows reads, at `(p, j)`, the row's entry `j`. -/
theorem row4_apply (v : Vec Ideal S1x64 .f32) (h1 : S1x64.ShapeCasts S1x64) (h2 : S1x64.Broadcasts S2000x64) (p : Fin 2000) (j : Fin 64) :
    broadcastTo S2000x64 (shapeCast S1x64 v h1) h2 (ix2 p j) = v (ix2 0 j) := by
  refine (broadcastTo_apply _ _ (ix2 p j) (ix2 0 j) ?_).trans ?_
  · intro a
    match a with
    | ⟨0, _⟩ => show (0 : ℕ) = if (1 : ℕ) = 1 then 0 else _; rw [if_pos rfl]
    | ⟨1, _⟩ => show j.val = if (64 : ℕ) = 1 then 0 else j.val; rw [if_neg (by decide)]
  · exact congrFun (shapeCast_self v _) _

/-! ## The body's payloads at an entry -/

/-- THE INCREMENT AT AN ENTRY. Row `p`, column `j` of the increment the body forms: the scale of row `p` times the sum of
    the two aggregates there, plus one bias; plus row `p` of the first state times column `j` of the residual weights —
    the sum over the 64 features — plus the other bias; the maximum of that with the zero word, less the unit word times
    each state there, times the unit word. (On the extended reals the changes of format are the identity, and the
    product accumulates into zero.) -/
theorem pay4_5_apply (x0 x1 x2 : Vec Ideal S2000x64 .f32) (x3 : Vec Ideal S2000x64 .bf16) (x4 : Vec Ideal S2000x1 .f32)
    (x5 : Vec Ideal S64x64 .f32) (x6 x7 : Vec Ideal S1x64 .f32) (p : Fin 2000) (j : Fin 64) :
    k4_pay5 (F := Ideal) x0 x1 x2 x3 x4 x5 x6 x7 (ix2 p j) = Ideal.ofBits .f32 0x3F800000#32 * ((max (((x4 (ix2 p 0) * (x2 (ix2 p j) + (x3 (ix2 p j) : EReal))) + x7 (ix2 0 j)) + ((∑ k : Fin 64, x0 (ix2 p k) * x5 (ix2 k j)) + x6 (ix2 0 j))) (Ideal.ofBits .f32 0x00000000#32) - Ideal.ofBits .f32 0x3F800000#32 * x1 (ix2 p j)) - Ideal.ofBits .f32 0x3F800000#32 * x0 (ix2 p j)) := by
  unfold k4_pay5 k4_pay3 k4_pay4
  refine (mulf_apply _ _ (ix2 p j)).trans ?_
  refine congrArg₂ (· * ·) rfl ?_
  refine (subf_apply _ _ (ix2 p j)).trans ?_
  refine congrArg₂ (· - ·) ?_ ?_
  · refine (subf_apply _ _ (ix2 p j)).trans ?_
    refine congrArg₂ (· - ·) ?_ ?_
    · refine (maximumf_apply _ _ (ix2 p j)).trans ?_
      refine congrArg₂ max ?_ rfl
      refine (addf_apply _ _ (ix2 p j)).trans ?_
      refine congrArg₂ (· + ·) ?_ ?_
      · refine (addf_apply _ _ (ix2 p j)).trans ?_
        refine congrArg₂ (· + ·) ?_ (row4_apply x7 _ _ p j)
        refine (mulf_apply _ _ (ix2 p j)).trans ?_
        refine congrArg₂ (· * ·) ?_ ?_
        · refine (broadcastTo_a1_ab_apply (a := 2000) (b := 64) _ _ p j).trans ?_
          exact (congrFun (shapeCast_self _ _) _).trans (congrFun (shapeCast_self x4 _) _)
        · refine (addf_apply _ _ (ix2 p j)).trans ?_
          exact congrArg₂ (· + ·) (congrFun (shapeCast_self x2 _) _) (congrFun (shapeCast_self x3 _) _)
      · refine (addf_apply _ _ (ix2 p j)).trans ?_
        refine congrArg₂ (· + ·) ?_ (row4_apply x6 _ _ p j)
        refine (Ideal.matmul_constant_zero_apply dot_S2000x64_S64x64_S2000x64_1_0_0_1_n_n none _ _ (ix2 p j)).trans ?_
        rw [← Equiv.sum_comp (contrEquiv1 dot_S2000x64_S64x64_S2000x64_1_0_0_1_n_n 64 rfl rfl).symm]
        refine Finset.sum_congr rfl fun k _ => ?_
        have hk := contrEquiv1_symm_val dot_S2000x64_S64x64_S2000x64_1_0_0_1_n_n 64 rfl rfl k
        refine congrArg₂ (· * ·) ?_ ?_
        · refine (congrFun (shapeCast_self x0 _) _).trans ?_
          refine congrArg x0 (funext fun a => Fin.ext ?_)
          match a with
          | ⟨0, _⟩ => exact dot4_lhs0 _ _
          | ⟨1, _⟩ => exact (dot4_lhs1 _ _).trans hk
        · refine congrArg x5 (funext fun a => Fin.ext ?_)
          match a with
          | ⟨0, _⟩ => exact (dot4_rhs0 _ _).trans hk
          | ⟨1, _⟩ => exact dot4_rhs1 _ _
    · refine (mulf_apply _ _ (ix2 p j)).trans ?_
      exact congrArg₂ (· * ·) rfl (congrFun (shapeCast_self x1 _) _)
  · refine (mulf_apply _ _ (ix2 p j)).trans ?_
    exact congrArg₂ (· * ·) rfl (congrFun (shapeCast_self x0 _) _)

/-- WHAT IS STORED INTO THE SECOND OUTPUT at `(p, j)`: the second state there plus the increment. -/
theorem pay4_Y_apply (x0 x1 x2 : Vec Ideal S2000x64 .f32) (x3 : Vec Ideal S2000x64 .bf16) (x4 : Vec Ideal S2000x1 .f32)
    (x5 : Vec Ideal S64x64 .f32) (x6 x7 : Vec Ideal S1x64 .f32) (p : Fin 2000) (j : Fin 64) :
    k4_pay1 (F := Ideal) (k4_pay4 x1) (k4_pay5 x0 x1 x2 x3 x4 x5 x6 x7) (ix2 p j)
      = x1 (ix2 p j) + Ideal.ofBits .f32 0x3F800000#32 * ((max (((x4 (ix2 p 0) * (x2 (ix2 p j) + (x3 (ix2 p j) : EReal))) + x7 (ix2 0 j)) + ((∑ k : Fin 64, x0 (ix2 p k) * x5 (ix2 k j)) + x6 (ix2 0 j))) (Ideal.ofBits .f32 0x00000000#32) - Ideal.ofBits .f32 0x3F800000#32 * x1 (ix2 p j)) - Ideal.ofBits .f32 0x3F800000#32 * x0 (ix2 p j)) := by
  unfold k4_pay1
  refine (addf_apply _ _ (ix2 p j)).trans ?_
  refine congrArg₂ (· + ·) ?_ (pay4_5_apply x0 x1 x2 x3 x4 x5 x6 x7 p j)
  unfold k4_pay4
  exact congrFun (shapeCast_self x1 _) _

/-- WHAT IS STORED INTO THE FIRST OUTPUT at `(p, j)`: the first state there plus the unit word times what is stored
    into the second output there. -/
theorem pay4_X_apply (x0 x1 x2 : Vec Ideal S2000x64 .f32) (x3 : Vec Ideal S2000x64 .bf16) (x4 : Vec Ideal S2000x1 .f32)
    (x5 : Vec Ideal S64x64 .f32) (x6 x7 : Vec Ideal S1x64 .f32) (p : Fin 2000) (j : Fin 64) :
    k4_pay2 (F := Ideal) (k4_pay3 x0) (k4_pay4 x1) (k4_pay5 x0 x1 x2 x3 x4 x5 x6 x7) (ix2 p j)
      = x0 (ix2 p j) + Ideal.ofBits .f32 0x3F800000#32 * (x1 (ix2 p j) + Ideal.ofBits .f32 0x3F800000#32 * ((max (((x4 (ix2 p 0) * (x2 (ix2 p j) + (x3 (ix2 p j) : EReal))) + x7 (ix2 0 j)) + ((∑ k : Fin 64, x0 (ix2 p k) * x5 (ix2 k j)) + x6 (ix2 0 j))) (Ideal.ofBits .f32 0x00000000#32) - Ideal.ofBits .f32 0x3F800000#32 * x1 (ix2 p j)) - Ideal.ofBits .f32 0x3F800000#32 * x0 (ix2 p j))) := by
  unfold k4_pay2
  refine (addf_apply _ _ (ix2 p j)).trans ?_
  refine congrArg₂ (· + ·) ?_ ?_
  · unfold k4_pay3
    exact congrFun (shapeCast_self x0 _) _
  · refine (mulf_apply _ _ (ix2 p j)).trans ?_
    exact congrArg₂ (· * ·) rfl (pay4_Y_apply x0 x1 x2 x3 x4 x5 x6 x7 p j)

/-! ## From a block's entries to the arrays' -/

/-- When every block entry the payload reads at `(p, j)` is the arrays' entry of row `r`, what is stored into the second
    output at `(p, j)` is `updY` of the arrays at `(r, j)`, -/
theorem blockY4 (X Y A : Vec Ideal S50000x64 .f32) (H : Vec Ideal S50000x64 .bf16) (dinv : Vec Ideal S50000x1 .f32)
    (Wr : Vec Ideal S64x64 .f32) (rb cb : Vec Ideal S1x64 .f32)
    (x0 x1 x2 : Vec Ideal S2000x64 .f32) (x3 : Vec Ideal S2000x64 .bf16) (x4 : Vec Ideal S2000x1 .f32)
    (x5 : Vec Ideal S64x64 .f32) (x6 x7 : Vec Ideal S1x64 .f32) (r : Fin 50000) (p : Fin 2000) (j : Fin 64)
    (h0 : ∀ k : Fin 64, x0 (ix2 p k) = X (ix2 r k)) (h1 : x1 (ix2 p j) = Y (ix2 r j)) (h2 : x2 (ix2 p j) = A (ix2 r j))
    (h3 : x3 (ix2 p j) = H (ix2 r j)) (h4 : x4 (ix2 p 0) = dinv (ix2 r 0)) (h5 : ∀ k : Fin 64, x5 (ix2 k j) = Wr (ix2 k j))
    (h6 : x6 (ix2 0 j) = rb (ix2 0 j)) (h7 : x7 (ix2 0 j) = cb (ix2 0 j)) :
    k4_pay1 (F := Ideal) (k4_pay4 x1) (k4_pay5 x0 x1 x2 x3 x4 x5 x6 x7) (ix2 p j) = updY X Y A H dinv Wr rb cb (ix2 r j) := by
  rw [pay4_Y_apply, updY_apply]
  simp only [h0, h1, h2, h3, h4, h5, h6, h7]

/-- and what is stored into the first output there is `updX` of the arrays at `(r, j)`. -/
theorem blockX4 (X Y A : Vec Ideal S50000x64 .f32) (H : Vec Ideal S50000x64 .bf16) (dinv : Vec Ideal S50000x1 .f32)
    (Wr : Vec Ideal S64x64 .f32) (rb cb : Vec Ideal S1x64 .f32)
    (x0 x1 x2 : Vec Ideal S2000x64 .f32) (x3 : Vec Ideal S2000x64 .bf16) (x4 : Vec Ideal S2000x1 .f32)
    (x5 : Vec Ideal S64x64 .f32) (x6 x7 : Vec Ideal S1x64 .f32) (r : Fin 50000) (p : Fin 2000) (j : Fin 64)
    (h0 : ∀ k : Fin 64, x0 (ix2 p k) = X (ix2 r k)) (h1 : x1 (ix2 p j) = Y (ix2 r j)) (h2 : x2 (ix2 p j) = A (ix2 r j))
    (h3 : x3 (ix2 p j) = H (ix2 r j)) (h4 : x4 (ix2 p 0) = dinv (ix2 r 0)) (h5 : ∀ k : Fin 64, x5 (ix2 k j) = Wr (ix2 k j))
    (h6 : x6 (ix2 0 j) = rb (ix2 0 j)) (h7 : x7 (ix2 0 j) = cb (ix2 0 j)) :
    k4_pay2 (F := Ideal) (k4_pay3 x0) (k4_pay4 x1) (k4_pay5 x0 x1 x2 x3 x4 x5 x6 x7) (ix2 p j) = updX X Y A H dinv Wr rb cb (ix2 r j) := by
  rw [pay4_X_apply, updX_apply, updY_apply]
  simp only [h0, h1, h2, h3, h4, h5, h6, h7]

/-! ## The arrays after the region -/

variable (V : (c : Dev nD) → (b : Ref sig .tc) → Buf (Elt Ideal) ((c : Thread nD τ).loc b))

/-- The zero offsets of a whole-block access, however spelt. -/
theorem hz4 : (![0, 0] : Fin 2 → Nat) = fun _ => 0 := funext fun a => by fin_cases a <;> rfl

/-- Where each window's block sits at each grid point: the node arrays' blocks (the states, the aggregates, the scale
    column, the two outputs) at block row `t`, the residual weights and the bias rows always at their one block. Decided
    over the 25 points. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0
    ∧ win4_9.index t (0 : Fin 2) = t.val ∧ win4_9.index t (1 : Fin 2) = 0 :=
  (by decide +kernel : ∀ t : Fin grid4.N, _)

/-- WHAT THE INPUT BLOCKS HOLD at point `t`: entry `(p, ·)` of a node array's block is the array's entry of row
    `2000 t + p`; the residual weights' and the bias rows' one block is the whole array. -/
theorem reads4 (c : Dev nD) (t : Fin cfg4.N) (p : Fin 2000) (j : Fin 64) (r : Fin 50000) (hr : r.val = 2000 * t.val + p.val) :
    (∀ k : Fin 64, (iblk4 V c 0 t : Vec Ideal S2000x64 .f32) (ix2 p k) = (V c main_v29_0 : Vec Ideal S50000x64 .f32) (ix2 r k))
    ∧ (iblk4 V c 1 t : Vec Ideal S2000x64 .f32) (ix2 p j) = (V c main_v29_1 : Vec Ideal S50000x64 .f32) (ix2 r j)
    ∧ (iblk4 V c 2 t : Vec Ideal S2000x64 .f32) (ix2 p j) = (V c main_v41 : Vec Ideal S50000x64 .f32) (ix2 r j)
    ∧ (iblk4 V c 3 t : Vec Ideal S2000x64 .bf16) (ix2 p j) = (V c main_v30 : Vec Ideal S50000x64 .bf16) (ix2 r j)
    ∧ (iblk4 V c 4 t : Vec Ideal S2000x1 .f32) (ix2 p 0) = (V c main_v11 : Vec Ideal S50000x1 .f32) (ix2 r 0)
    ∧ (∀ k : Fin 64, (iblk4 V c 5 t : Vec Ideal S64x64 .f32) (ix2 k j) = (V c main_arg8 : Vec Ideal S64x64 .f32) (ix2 k j))
    ∧ (iblk4 V c 6 t : Vec Ideal S1x64 .f32) (ix2 0 j) = (V c main_v42 : Vec Ideal S1x64 .f32) (ix2 0 j)
    ∧ (iblk4 V c 7 t : Vec Ideal S1x64 .f32) (ix2 0 j) = (V c main_v43 : Vec Ideal S1x64 .f32) (ix2 0 j) := by
  obtain ⟨e0r, e0c, e1r, e1c, e2r, e2c, e3r, e3c, e4r, e4c, e5r, e5c, e6r, e6c, e7r, e7c, e8r, e8c, e9r, e9c⟩ := idx_facts4 t
  refine ⟨?_, ?_, ?_, ?_, ?_, ?_, ?_, ?_⟩
  · intro k
    show V c main_v29_0 (((cfg4.win 0).blk t).view.emb (ix2 p k)) = V c main_v29_0 _
    refine congrArg _ (funext fun a => Fin.ext ?_)
    match a with
    | ⟨0, _⟩ => show win4_0.index t (0 : Fin 2) * 2000 + 1 * p.val = r.val; rw [e0r]; omega
    | ⟨1, _⟩ => show win4_0.index t (1 : Fin 2) * 64 + 1 * k.val = k.val; rw [e0c]; omega
  · show V c main_v29_1 (((cfg4.win 1).blk t).view.emb (ix2 p j)) = V c main_v29_1 _
    refine congrArg _ (funext fun a => Fin.ext ?_)
    match a with
    | ⟨0, _⟩ => show win4_1.index t (0 : Fin 2) * 2000 + 1 * p.val = r.val; rw [e1r]; omega
    | ⟨1, _⟩ => show win4_1.index t (1 : Fin 2) * 64 + 1 * j.val = j.val; rw [e1c]; omega
  · show V c main_v41 (((cfg4.win 2).blk t).view.emb (ix2 p j)) = V c main_v41 _
    refine congrArg _ (funext fun a => Fin.ext ?_)
    match a with
    | ⟨0, _⟩ => show win4_2.index t (0 : Fin 2) * 2000 + 1 * p.val = r.val; rw [e2r]; omega
    | ⟨1, _⟩ => show win4_2.index t (1 : Fin 2) * 64 + 1 * j.val = j.val; rw [e2c]; omega
  · show V c main_v30 (((cfg4.win 3).blk t).view.emb (ix2 p j)) = V c main_v30 _
    refine congrArg _ (funext fun a => Fin.ext ?_)
    match a with
    | ⟨0, _⟩ => show win4_3.index t (0 : Fin 2) * 2000 + 1 * p.val = r.val; rw [e3r]; omega
    | ⟨1, _⟩ => show win4_3.index t (1 : Fin 2) * 64 + 1 * j.val = j.val; rw [e3c]; omega
  · show V c main_v11 (((cfg4.win 4).blk t).view.emb (ix2 p 0)) = V c main_v11 _
    refine congrArg _ (funext fun a => Fin.ext ?_)
    match a with
    | ⟨0, _⟩ => show win4_4.index t (0 : Fin 2) * 2000 + 1 * p.val = r.val; rw [e4r]; omega
    | ⟨1, _⟩ => show win4_4.index t (1 : Fin 2) * 1 + 1 * 0 = 0; rw [e4c]
  · intro k
    show V c main_arg8 (((cfg4.win 5).blk t).view.emb (ix2 k j)) = V c main_arg8 _
    refine congrArg _ (funext fun a => Fin.ext ?_)
    match a with
    | ⟨0, _⟩ => show win4_5.index t (0 : Fin 2) * 64 + 1 * k.val = k.val; rw [e5r]; omega
    | ⟨1, _⟩ => show win4_5.index t (1 : Fin 2) * 64 + 1 * j.val = j.val; rw [e5c]; omega
  · show V c main_v42 (((cfg4.win 6).blk t).view.emb (ix2 0 j)) = V c main_v42 _
    refine congrArg _ (funext fun a => Fin.ext ?_)
    match a with
    | ⟨0, _⟩ => show win4_6.index t (0 : Fin 2) * 1 + 1 * 0 = 0; rw [e6r]
    | ⟨1, _⟩ => show win4_6.index t (1 : Fin 2) * 64 + 1 * j.val = j.val; rw [e6c]; omega
  · show V c main_v43 (((cfg4.win 7).blk t).view.emb (ix2 0 j)) = V c main_v43 _
    refine congrArg _ (funext fun a => Fin.ext ?_)
    match a with
    | ⟨0, _⟩ => show win4_7.index t (0 : Fin 2) * 1 + 1 * 0 = 0; rw [e7r]
    | ⟨1, _⟩ => show win4_7.index t (1 : Fin 2) * 64 + 1 * j.val = j.val; rw [e7c]; omega

/-- WHAT POINT `t` WRITES BACK THROUGH WINDOW 8 is block `t` of `updX` of the eight arrays as the region finds them. -/
theorem flushed4_8_eq (q : Fin cfg4.W → PosShare TreeShare) (c : Dev nD) (t : Fin cfg4.N) :
    (dat4 (F := Ideal) V q c).flushed 8 t
      = ((cfg4.win 8).blk t).view.read (Elt Ideal) (updX (V c main_v29_0) (V c main_v29_1) (V c main_v41) (V c main_v30) (V c main_v11) (V c main_arg8) (V c main_v42) (V c main_v43)) := by
  show (cfg4.win 8).cut (grid4.coords t) ((dat4 V q c).after 8 t) = _
  rw [after4_8]
  unfold out4_8
  rw [View.canon_unit_zero hz4]
  simp only [View.ld_unit_zero (S := S2000x64) hz4, View.ld_unit_zero (S := S2000x1) hz4, View.ld_unit_zero (S := S64x64) hz4, View.ld_unit_zero (S := S1x64) hz4]
  obtain ⟨e0r, e0c, e1r, e1c, e2r, e2c, e3r, e3c, e4r, e4c, e5r, e5c, e6r, e6c, e7r, e7c, e8r, e8c, e9r, e9c⟩ := idx_facts4 t
  funext y
  obtain ⟨p, j, rfl⟩ : ∃ (p : Fin 2000) (j : Fin 64), y = ix2 p j := ⟨y 0, y 1, eq_ix2 y⟩
  have hr : 2000 * t.val + p.val < 50000 := by
    have ht : t.val < 25 := lt_of_lt_of_eq t.isLt N_4
    have := p.isLt
    omega
  obtain ⟨h0, h1, h2, h3, h4, h5, h6, h7⟩ := reads4 V c t p j ⟨2000 * t.val + p.val, hr⟩ rfl
  have hrow : (((cfg4.win 8).blk t).view.emb (ix2 p j) : S50000x64.Idx) = ix2 (⟨2000 * t.val + p.val, hr⟩ : Fin 50000) j := by
    funext a; apply Fin.ext
    match a with
    | ⟨0, _⟩ => show win4_8.index t (0 : Fin 2) * 2000 + 1 * p.val = 2000 * t.val + p.val; rw [e8r]; omega
    | ⟨1, _⟩ => show win4_8.index t (1 : Fin 2) * 64 + 1 * j.val = j.val; rw [e8c]; omega
  show k4_pay2 (F := Ideal) (k4_pay3 (iblk4 V c 0 t)) (k4_pay4 (iblk4 V c 1 t)) (k4_pay5 (iblk4 V c 0 t) (iblk4 V c 1 t) (iblk4 V c 2 t) (iblk4 V c 3 t) (iblk4 V c 4 t) (iblk4 V c 5 t) (iblk4 V c 6 t) (iblk4 V c 7 t)) (ix2 p j)
    = updX (V c main_v29_0) (V c main_v29_1) (V c main_v41) (V c main_v30) (V c main_v11) (V c main_arg8) (V c main_v42) (V c main_v43) (((cfg4.win 8).blk t).view.emb (ix2 p j))
  rw [hrow]
  exact blockX4 _ _ _ _ _ _ _ _ _ _ _ _ _ _ _ _ _ p j h0 h1 h2 h3 h4 h5 h6 h7

/-- WHAT POINT `t` WRITES BACK THROUGH WINDOW 9 is block `t` of `updY` of the eight arrays as the region finds them. -/
theorem flushed4_9_eq (q : Fin cfg4.W → PosShare TreeShare) (c : Dev nD) (t : Fin cfg4.N) :
    (dat4 (F := Ideal) V q c).flushed 9 t
      = ((cfg4.win 9).blk t).view.read (Elt Ideal) (updY (V c main_v29_0) (V c main_v29_1) (V c main_v41) (V c main_v30) (V c main_v11) (V c main_arg8) (V c main_v42) (V c main_v43)) := by
  show (cfg4.win 9).cut (grid4.coords t) ((dat4 V q c).after 9 t) = _
  rw [after4_9]
  unfold out4_9
  rw [View.canon_unit_zero hz4]
  simp only [View.ld_unit_zero (S := S2000x64) hz4, View.ld_unit_zero (S := S2000x1) hz4, View.ld_unit_zero (S := S64x64) hz4, View.ld_unit_zero (S := S1x64) hz4]
  obtain ⟨e0r, e0c, e1r, e1c, e2r, e2c, e3r, e3c, e4r, e4c, e5r, e5c, e6r, e6c, e7r, e7c, e8r, e8c, e9r, e9c⟩ := idx_facts4 t
  funext y
  obtain ⟨p, j, rfl⟩ : ∃ (p : Fin 2000) (j : Fin 64), y = ix2 p j := ⟨y 0, y 1, eq_ix2 y⟩
  have hr : 2000 * t.val + p.val < 50000 := by
    have ht : t.val < 25 := lt_of_lt_of_eq t.isLt N_4
    have := p.isLt
    omega
  obtain ⟨h0, h1, h2, h3, h4, h5, h6, h7⟩ := reads4 V c t p j ⟨2000 * t.val + p.val, hr⟩ rfl
  have hrow : (((cfg4.win 9).blk t).view.emb (ix2 p j) : S50000x64.Idx) = ix2 (⟨2000 * t.val + p.val, hr⟩ : Fin 50000) j := by
    funext a; apply Fin.ext
    match a with
    | ⟨0, _⟩ => show win4_9.index t (0 : Fin 2) * 2000 + 1 * p.val = 2000 * t.val + p.val; rw [e9r]; omega
    | ⟨1, _⟩ => show win4_9.index t (1 : Fin 2) * 64 + 1 * j.val = j.val; rw [e9c]; omega
  show k4_pay1 (F := Ideal) (k4_pay4 (iblk4 V c 1 t)) (k4_pay5 (iblk4 V c 0 t) (iblk4 V c 1 t) (iblk4 V c 2 t) (iblk4 V c 3 t) (iblk4 V c 4 t) (iblk4 V c 5 t) (iblk4 V c 6 t) (iblk4 V c 7 t)) (ix2 p j)
    = updY (V c main_v29_0) (V c main_v29_1) (V c main_v41) (V c main_v30) (V c main_v11) (V c main_arg8) (V c main_v42) (V c main_v43) (((cfg4.win 9).blk t).view.emb (ix2 p j))
  rw [hrow]
  exact blockY4 _ _ _ _ _ _ _ _ _ _ _ _ _ _ _ _ _ p j h0 h1 h2 h3 h4 h5 h6 h7

/-- An entry of output 8's array is in point `t`'s block iff each coordinate is in the block's range on its axis. -/
theorem mem_blk4_8 (t : Fin cfg4.N) (i : S50000x64.Idx) :
    i ∈ ((cfg4.win 8).blk t).view.set ↔ ∀ a : Fin 2, win4_8.index t a * S2000x64.size a ≤ (i a).val
      ∧ (i a).val < win4_8.index t a * S2000x64.size a + S2000x64.size a := by
  show i ∈ ((View.whole main_v44_0).slice (win4_8.rect t)).set ↔ _
  rw [View.set_slice_whole, Rect.mem_set_unit]
  exact Iff.rfl

/-- Every entry of output 8's array is in some point's block: row `r` in the block of point `r / 2000`. -/
theorem covered4_8 (i : S50000x64.Idx) :
    ∃ t : Fin cfg4.N, (cfg4.win 8).flush t = true ∧ i ∈ ((cfg4.win 8).blk t).view.set := by
  have hi0 : (i 0).val < 50000 := (i 0).isLt
  have hi1 : (i 1).val < 64 := (i 1).isLt
  have hN : cfg4.N = 25 := N_4
  refine ⟨⟨(i 0).val / 2000, by rw [hN]; omega⟩, flush4_8 _, ?_⟩
  obtain ⟨e0r, e0c, e1r, e1c, e2r, e2c, e3r, e3c, e4r, e4c, e5r, e5c, e6r, e6c, e7r, e7c, e8r, e8c, e9r, e9c⟩ := idx_facts4 ⟨(i 0).val / 2000, by rw [hN]; omega⟩
  rw [mem_blk4_8]
  intro a
  match a with
  | ⟨0, _⟩ =>
    show win4_8.index _ (0 : Fin 2) * 2000 ≤ (i 0).val ∧ (i 0).val < win4_8.index _ (0 : Fin 2) * 2000 + 2000
    rw [e8r]; show (i 0).val / 2000 * 2000 ≤ (i 0).val ∧ (i 0).val < (i 0).val / 2000 * 2000 + 2000; omega
  | ⟨1, _⟩ =>
    show win4_8.index _ (1 : Fin 2) * 64 ≤ (i 1).val ∧ (i 1).val < win4_8.index _ (1 : Fin 2) * 64 + 64
    rw [e8c]; omega

/-- An entry of output 9's array is in point `t`'s block iff each coordinate is in the block's range on its axis. -/
theorem mem_blk4_9 (t : Fin cfg4.N) (i : S50000x64.Idx) :
    i ∈ ((cfg4.win 9).blk t).view.set ↔ ∀ a : Fin 2, win4_9.index t a * S2000x64.size a ≤ (i a).val
      ∧ (i a).val < win4_9.index t a * S2000x64.size a + S2000x64.size a := by
  show i ∈ ((View.whole main_v44_1).slice (win4_9.rect t)).set ↔ _
  rw [View.set_slice_whole, Rect.mem_set_unit]
  exact Iff.rfl

/-- Every entry of output 9's array is in some point's block: row `r` in the block of point `r / 2000`. -/
theorem covered4_9 (i : S50000x64.Idx) :
    ∃ t : Fin cfg4.N, (cfg4.win 9).flush t = true ∧ i ∈ ((cfg4.win 9).blk t).view.set := by
  have hi0 : (i 0).val < 50000 := (i 0).isLt
  have hi1 : (i 1).val < 64 := (i 1).isLt
  have hN : cfg4.N = 25 := N_4
  refine ⟨⟨(i 0).val / 2000, by rw [hN]; omega⟩, flush4_9 _, ?_⟩
  obtain ⟨e0r, e0c, e1r, e1c, e2r, e2c, e3r, e3c, e4r, e4c, e5r, e5c, e6r, e6c, e7r, e7c, e8r, e8c, e9r, e9c⟩ := idx_facts4 ⟨(i 0).val / 2000, by rw [hN]; omega⟩
  rw [mem_blk4_9]
  intro a
  match a with
  | ⟨0, _⟩ =>
    show win4_9.index _ (0 : Fin 2) * 2000 ≤ (i 0).val ∧ (i 0).val < win4_9.index _ (0 : Fin 2) * 2000 + 2000
    rw [e9r]; show (i 0).val / 2000 * 2000 ≤ (i 0).val ∧ (i 0).val < (i 0).val / 2000 * 2000 + 2000; omega
  | ⟨1, _⟩ =>
    show win4_9.index _ (1 : Fin 2) * 64 ≤ (i 1).val ∧ (i 1).val < win4_9.index _ (1 : Fin 2) * 64 + 64
    rw [e9c]; omega

/-- THE FIRST OUTPUT ARRAY AFTER THE REGION is `updX` of the eight arrays as the region finds them. -/
theorem arr4_8 (q : Fin cfg4.W → PosShare TreeShare) (c : Dev nD) :
    (dat4 (F := Ideal) V q c).arrAt 8 cfg4.N = updX (V c main_v29_0) (V c main_v29_1) (V c main_v41) (V c main_v30) (V c main_v11) (V c main_arg8) (V c main_v42) (V c main_v43) :=
  (dat4 (F := Ideal) V q c).arrAt_eq_of_cover 8 (updX (V c main_v29_0) (V c main_v29_1) (V c main_v41) (V c main_v30) (V c main_v11) (V c main_arg8) (V c main_v42) (V c main_v43))
    (fun t _ => flushed4_8_eq V q c t) covered4_8

/-- THE SECOND OUTPUT ARRAY AFTER THE REGION is `updY` of the same arrays. -/
theorem arr4_9 (q : Fin cfg4.W → PosShare TreeShare) (c : Dev nD) :
    (dat4 (F := Ideal) V q c).arrAt 9 cfg4.N = updY (V c main_v29_0) (V c main_v29_1) (V c main_v41) (V c main_v30) (V c main_v11) (V c main_arg8) (V c main_v42) (V c main_v43) :=
  (dat4 (F := Ideal) V q c).arrAt_eq_of_cover 9 (updY (V c main_v29_0) (V c main_v29_1) (V c main_v41) (V c main_v30) (V c main_v11) (V c main_arg8) (V c main_v42) (V c main_v43))
    (fun t _ => flushed4_9_eq V q c t) covered4_9

end Cert.KernelIdeal.Fr

end
-- ==== Proof.KI.Val6.lean ====
/-
  Region 6's value: the two arrays the update leaves.

  At grid point t the body reads block t (rows 2000 t … 2000 t + 1999) of the two states, of the two aggregates and of
  the scale column, and the whole residual weights and bias rows, and stores into block t of its two outputs the new
  first and second states of those rows. Each entry (r, j) of what is stored at point r / 2000 reads row r of the node
  arrays only, so it is one function of the eight arrays, entry by entry (`updX`, `updY`). The 25 blocks tile the
  50000 rows, so after the region each output array is that function everywhere.
-/
import proofs.«131582_j65292092834213_2_alg».proof.Proof.KI.R6
import proofs.«131582_j65292092834213_2_alg».proof.Proof.KI.Val2
import proofs.«131582_j65292092834213_2_alg».proof.Proof.LibColumnBroadcast
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open scoped BigOperators

/-! ## The residual product: which operand entries an output entry reads -/

/-- The left operand is read on its row axis at the output's row, -/
theorem dot6_lhs0 (j : S2000x64.Idx) (q : dot_S2000x64_S64x64_S2000x64_1_0_0_1_n_n.contr.Idx) :
    (dot_S2000x64_S64x64_S2000x64_1_0_0_1_n_n.lhsIdx j q 0).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
/-- and on its column axis at the contraction index; -/
theorem dot6_lhs1 (j : S2000x64.Idx) (q : dot_S2000x64_S64x64_S2000x64_1_0_0_1_n_n.contr.Idx) :
    (dot_S2000x64_S64x64_S2000x64_1_0_0_1_n_n.lhsIdx j q 1).val = (q ⟨0, by decide⟩).val :=
  dot_S2000x64_S64x64_S2000x64_1_0_0_1_n_n.lhsIdx_val_of_single rfl j q
/-- the right operand on its row axis at the contraction index, -/
theorem dot6_rhs0 (j : S2000x64.Idx) (q : dot_S2000x64_S64x64_S2000x64_1_0_0_1_n_n.contr.Idx) :
    (dot_S2000x64_S64x64_S2000x64_1_0_0_1_n_n.rhsIdx j q 0).val = (q ⟨0, by decide⟩).val :=
  dot_S2000x64_S64x64_S2000x64_1_0_0_1_n_n.rhsIdx_val_of_single rfl j q
/-- and on its column axis at the output's column. -/
theorem dot6_rhs1 (j : S2000x64.Idx) (q : dot_S2000x64_S64x64_S2000x64_1_0_0_1_n_n.contr.Idx) :
    (dot_S2000x64_S64x64_S2000x64_1_0_0_1_n_n.rhsIdx j q 1).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- A bias row broadcast down the 2000 rows reads, at `(p, j)`, the row's entry `j`. -/
theorem row6_apply (v : Vec Ideal S1x64 .f32) (h1 : S1x64.ShapeCasts S1x64) (h2 : S1x64.Broadcasts S2000x64) (p : Fin 2000) (j : Fin 64) :
    broadcastTo S2000x64 (shapeCast S1x64 v h1) h2 (ix2 p j) = v (ix2 0 j) := by
  refine (broadcastTo_apply _ _ (ix2 p j) (ix2 0 j) ?_).trans ?_
  · intro a
    match a with
    | ⟨0, _⟩ => show (0 : ℕ) = if (1 : ℕ) = 1 then 0 else _; rw [if_pos rfl]
    | ⟨1, _⟩ => show j.val = if (64 : ℕ) = 1 then 0 else j.val; rw [if_neg (by decide)]
  · exact congrFun (shapeCast_self v _) _

/-! ## The body's payloads at an entry -/

/-- THE INCREMENT AT AN ENTRY. Row `p`, column `j` of the increment the body forms: the scale of row `p` times the sum of
    the two aggregates there, plus one bias; plus row `p` of the first state times column `j` of the residual weights —
    the sum over the 64 features — plus the other bias; the maximum of that with the zero word, less the unit word times
    each state there, times the unit word. (On the extended reals the changes of format are the identity, and the
    product accumulates into zero.) -/
theorem pay6_5_apply (x0 x1 x2 : Vec Ideal S2000x64 .f32) (x3 : Vec Ideal S2000x64 .bf16) (x4 : Vec Ideal S2000x1 .f32)
    (x5 : Vec Ideal S64x64 .f32) (x6 x7 : Vec Ideal S1x64 .f32) (p : Fin 2000) (j : Fin 64) :
    k6_pay5 (F := Ideal) x0 x1 x2 x3 x4 x5 x6 x7 (ix2 p j) = Ideal.ofBits .f32 0x3F800000#32 * ((max (((x4 (ix2 p 0) * (x2 (ix2 p j) + (x3 (ix2 p j) : EReal))) + x7 (ix2 0 j)) + ((∑ k : Fin 64, x0 (ix2 p k) * x5 (ix2 k j)) + x6 (ix2 0 j))) (Ideal.ofBits .f32 0x00000000#32) - Ideal.ofBits .f32 0x3F800000#32 * x1 (ix2 p j)) - Ideal.ofBits .f32 0x3F800000#32 * x0 (ix2 p j)) := by
  unfold k6_pay5 k6_pay3 k6_pay4
  refine (mulf_apply _ _ (ix2 p j)).trans ?_
  refine congrArg₂ (· * ·) rfl ?_
  refine (subf_apply _ _ (ix2 p j)).trans ?_
  refine congrArg₂ (· - ·) ?_ ?_
  · refine (subf_apply _ _ (ix2 p j)).trans ?_
    refine congrArg₂ (· - ·) ?_ ?_
    · refine (maximumf_apply _ _ (ix2 p j)).trans ?_
      refine congrArg₂ max ?_ rfl
      refine (addf_apply _ _ (ix2 p j)).trans ?_
      refine congrArg₂ (· + ·) ?_ ?_
      · refine (addf_apply _ _ (ix2 p j)).trans ?_
        refine congrArg₂ (· + ·) ?_ (row6_apply x7 _ _ p j)
        refine (mulf_apply _ _ (ix2 p j)).trans ?_
        refine congrArg₂ (· * ·) ?_ ?_
        · refine (broadcastTo_a1_ab_apply (a := 2000) (b := 64) _ _ p j).trans ?_
          exact (congrFun (shapeCast_self _ _) _).trans (congrFun (shapeCast_self x4 _) _)
        · refine (addf_apply _ _ (ix2 p j)).trans ?_
          exact congrArg₂ (· + ·) (congrFun (shapeCast_self x2 _) _) (congrFun (shapeCast_self x3 _) _)
      · refine (addf_apply _ _ (ix2 p j)).trans ?_
        refine congrArg₂ (· + ·) ?_ (row6_apply x6 _ _ p j)
        refine (Ideal.matmul_constant_zero_apply dot_S2000x64_S64x64_S2000x64_1_0_0_1_n_n none _ _ (ix2 p j)).trans ?_
        rw [← Equiv.sum_comp (contrEquiv1 dot_S2000x64_S64x64_S2000x64_1_0_0_1_n_n 64 rfl rfl).symm]
        refine Finset.sum_congr rfl fun k _ => ?_
        have hk := contrEquiv1_symm_val dot_S2000x64_S64x64_S2000x64_1_0_0_1_n_n 64 rfl rfl k
        refine congrArg₂ (· * ·) ?_ ?_
        · refine (congrFun (shapeCast_self x0 _) _).trans ?_
          refine congrArg x0 (funext fun a => Fin.ext ?_)
          match a with
          | ⟨0, _⟩ => exact dot6_lhs0 _ _
          | ⟨1, _⟩ => exact (dot6_lhs1 _ _).trans hk
        · refine congrArg x5 (funext fun a => Fin.ext ?_)
          match a with
          | ⟨0, _⟩ => exact (dot6_rhs0 _ _).trans hk
          | ⟨1, _⟩ => exact dot6_rhs1 _ _
    · refine (mulf_apply _ _ (ix2 p j)).trans ?_
      exact congrArg₂ (· * ·) rfl (congrFun (shapeCast_self x1 _) _)
  · refine (mulf_apply _ _ (ix2 p j)).trans ?_
    exact congrArg₂ (· * ·) rfl (congrFun (shapeCast_self x0 _) _)

/-- WHAT IS STORED INTO THE SECOND OUTPUT at `(p, j)`: the second state there plus the increment. -/
theorem pay6_Y_apply (x0 x1 x2 : Vec Ideal S2000x64 .f32) (x3 : Vec Ideal S2000x64 .bf16) (x4 : Vec Ideal S2000x1 .f32)
    (x5 : Vec Ideal S64x64 .f32) (x6 x7 : Vec Ideal S1x64 .f32) (p : Fin 2000) (j : Fin 64) :
    k6_pay1 (F := Ideal) (k6_pay4 x1) (k6_pay5 x0 x1 x2 x3 x4 x5 x6 x7) (ix2 p j)
      = x1 (ix2 p j) + Ideal.ofBits .f32 0x3F800000#32 * ((max (((x4 (ix2 p 0) * (x2 (ix2 p j) + (x3 (ix2 p j) : EReal))) + x7 (ix2 0 j)) + ((∑ k : Fin 64, x0 (ix2 p k) * x5 (ix2 k j)) + x6 (ix2 0 j))) (Ideal.ofBits .f32 0x00000000#32) - Ideal.ofBits .f32 0x3F800000#32 * x1 (ix2 p j)) - Ideal.ofBits .f32 0x3F800000#32 * x0 (ix2 p j)) := by
  unfold k6_pay1
  refine (addf_apply _ _ (ix2 p j)).trans ?_
  refine congrArg₂ (· + ·) ?_ (pay6_5_apply x0 x1 x2 x3 x4 x5 x6 x7 p j)
  unfold k6_pay4
  exact congrFun (shapeCast_self x1 _) _

/-- WHAT IS STORED INTO THE FIRST OUTPUT at `(p, j)`: the first state there plus the unit word times what is stored
    into the second output there. -/
theorem pay6_X_apply (x0 x1 x2 : Vec Ideal S2000x64 .f32) (x3 : Vec Ideal S2000x64 .bf16) (x4 : Vec Ideal S2000x1 .f32)
    (x5 : Vec Ideal S64x64 .f32) (x6 x7 : Vec Ideal S1x64 .f32) (p : Fin 2000) (j : Fin 64) :
    k6_pay2 (F := Ideal) (k6_pay3 x0) (k6_pay4 x1) (k6_pay5 x0 x1 x2 x3 x4 x5 x6 x7) (ix2 p j)
      = x0 (ix2 p j) + Ideal.ofBits .f32 0x3F800000#32 * (x1 (ix2 p j) + Ideal.ofBits .f32 0x3F800000#32 * ((max (((x4 (ix2 p 0) * (x2 (ix2 p j) + (x3 (ix2 p j) : EReal))) + x7 (ix2 0 j)) + ((∑ k : Fin 64, x0 (ix2 p k) * x5 (ix2 k j)) + x6 (ix2 0 j))) (Ideal.ofBits .f32 0x00000000#32) - Ideal.ofBits .f32 0x3F800000#32 * x1 (ix2 p j)) - Ideal.ofBits .f32 0x3F800000#32 * x0 (ix2 p j))) := by
  unfold k6_pay2
  refine (addf_apply _ _ (ix2 p j)).trans ?_
  refine congrArg₂ (· + ·) ?_ ?_
  · unfold k6_pay3
    exact congrFun (shapeCast_self x0 _) _
  · refine (mulf_apply _ _ (ix2 p j)).trans ?_
    exact congrArg₂ (· * ·) rfl (pay6_Y_apply x0 x1 x2 x3 x4 x5 x6 x7 p j)

/-! ## From a block's entries to the arrays' -/

/-- When every block entry the payload reads at `(p, j)` is the arrays' entry of row `r`, what is stored into the second
    output at `(p, j)` is `updY` of the arrays at `(r, j)`, -/
theorem blockY6 (X Y A : Vec Ideal S50000x64 .f32) (H : Vec Ideal S50000x64 .bf16) (dinv : Vec Ideal S50000x1 .f32)
    (Wr : Vec Ideal S64x64 .f32) (rb cb : Vec Ideal S1x64 .f32)
    (x0 x1 x2 : Vec Ideal S2000x64 .f32) (x3 : Vec Ideal S2000x64 .bf16) (x4 : Vec Ideal S2000x1 .f32)
    (x5 : Vec Ideal S64x64 .f32) (x6 x7 : Vec Ideal S1x64 .f32) (r : Fin 50000) (p : Fin 2000) (j : Fin 64)
    (h0 : ∀ k : Fin 64, x0 (ix2 p k) = X (ix2 r k)) (h1 : x1 (ix2 p j) = Y (ix2 r j)) (h2 : x2 (ix2 p j) = A (ix2 r j))
    (h3 : x3 (ix2 p j) = H (ix2 r j)) (h4 : x4 (ix2 p 0) = dinv (ix2 r 0)) (h5 : ∀ k : Fin 64, x5 (ix2 k j) = Wr (ix2 k j))
    (h6 : x6 (ix2 0 j) = rb (ix2 0 j)) (h7 : x7 (ix2 0 j) = cb (ix2 0 j)) :
    k6_pay1 (F := Ideal) (k6_pay4 x1) (k6_pay5 x0 x1 x2 x3 x4 x5 x6 x7) (ix2 p j) = updY X Y A H dinv Wr rb cb (ix2 r j) := by
  rw [pay6_Y_apply, updY_apply]
  simp only [h0, h1, h2, h3, h4, h5, h6, h7]

/-- and what is stored into the first output there is `updX` of the arrays at `(r, j)`. -/
theorem blockX6 (X Y A : Vec Ideal S50000x64 .f32) (H : Vec Ideal S50000x64 .bf16) (dinv : Vec Ideal S50000x1 .f32)
    (Wr : Vec Ideal S64x64 .f32) (rb cb : Vec Ideal S1x64 .f32)
    (x0 x1 x2 : Vec Ideal S2000x64 .f32) (x3 : Vec Ideal S2000x64 .bf16) (x4 : Vec Ideal S2000x1 .f32)
    (x5 : Vec Ideal S64x64 .f32) (x6 x7 : Vec Ideal S1x64 .f32) (r : Fin 50000) (p : Fin 2000) (j : Fin 64)
    (h0 : ∀ k : Fin 64, x0 (ix2 p k) = X (ix2 r k)) (h1 : x1 (ix2 p j) = Y (ix2 r j)) (h2 : x2 (ix2 p j) = A (ix2 r j))
    (h3 : x3 (ix2 p j) = H (ix2 r j)) (h4 : x4 (ix2 p 0) = dinv (ix2 r 0)) (h5 : ∀ k : Fin 64, x5 (ix2 k j) = Wr (ix2 k j))
    (h6 : x6 (ix2 0 j) = rb (ix2 0 j)) (h7 : x7 (ix2 0 j) = cb (ix2 0 j)) :
    k6_pay2 (F := Ideal) (k6_pay3 x0) (k6_pay4 x1) (k6_pay5 x0 x1 x2 x3 x4 x5 x6 x7) (ix2 p j) = updX X Y A H dinv Wr rb cb (ix2 r j) := by
  rw [pay6_X_apply, updX_apply, updY_apply]
  simp only [h0, h1, h2, h3, h4, h5, h6, h7]

/-! ## The arrays after the region -/

variable (V : (c : Dev nD) → (b : Ref sig .tc) → Buf (Elt Ideal) ((c : Thread nD τ).loc b))

/-- The zero offsets of a whole-block access, however spelt. -/
theorem hz6 : (![0, 0] : Fin 2 → Nat) = fun _ => 0 := funext fun a => by fin_cases a <;> rfl

/-- Where each window's block sits at each grid point: the node arrays' blocks (the states, the aggregates, the scale
    column, the two outputs) at block row `t`, the residual weights and the bias rows always at their one block. Decided
    over the 25 points. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = t.val ∧ win6_8.index t (1 : Fin 2) = 0
    ∧ win6_9.index t (0 : Fin 2) = t.val ∧ win6_9.index t (1 : Fin 2) = 0 :=
  (by decide +kernel : ∀ t : Fin grid6.N, _)

/-- WHAT THE INPUT BLOCKS HOLD at point `t`: entry `(p, ·)` of a node array's block is the array's entry of row
    `2000 t + p`; the residual weights' and the bias rows' one block is the whole array. -/
theorem reads6 (c : Dev nD) (t : Fin cfg6.N) (p : Fin 2000) (j : Fin 64) (r : Fin 50000) (hr : r.val = 2000 * t.val + p.val) :
    (∀ k : Fin 64, (iblk6 V c 0 t : Vec Ideal S2000x64 .f32) (ix2 p k) = (V c main_v44_0 : Vec Ideal S50000x64 .f32) (ix2 r k))
    ∧ (iblk6 V c 1 t : Vec Ideal S2000x64 .f32) (ix2 p j) = (V c main_v44_1 : Vec Ideal S50000x64 .f32) (ix2 r j)
    ∧ (iblk6 V c 2 t : Vec Ideal S2000x64 .f32) (ix2 p j) = (V c main_v56 : Vec Ideal S50000x64 .f32) (ix2 r j)
    ∧ (iblk6 V c 3 t : Vec Ideal S2000x64 .bf16) (ix2 p j) = (V c main_v45 : Vec Ideal S50000x64 .bf16) (ix2 r j)
    ∧ (iblk6 V c 4 t : Vec Ideal S2000x1 .f32) (ix2 p 0) = (V c main_v11 : Vec Ideal S50000x1 .f32) (ix2 r 0)
    ∧ (∀ k : Fin 64, (iblk6 V c 5 t : Vec Ideal S64x64 .f32) (ix2 k j) = (V c main_arg8 : Vec Ideal S64x64 .f32) (ix2 k j))
    ∧ (iblk6 V c 6 t : Vec Ideal S1x64 .f32) (ix2 0 j) = (V c main_v57 : Vec Ideal S1x64 .f32) (ix2 0 j)
    ∧ (iblk6 V c 7 t : Vec Ideal S1x64 .f32) (ix2 0 j) = (V c main_v58 : Vec Ideal S1x64 .f32) (ix2 0 j) := by
  obtain ⟨e0r, e0c, e1r, e1c, e2r, e2c, e3r, e3c, e4r, e4c, e5r, e5c, e6r, e6c, e7r, e7c, e8r, e8c, e9r, e9c⟩ := idx_facts6 t
  refine ⟨?_, ?_, ?_, ?_, ?_, ?_, ?_, ?_⟩
  · intro k
    show V c main_v44_0 (((cfg6.win 0).blk t).view.emb (ix2 p k)) = V c main_v44_0 _
    refine congrArg _ (funext fun a => Fin.ext ?_)
    match a with
    | ⟨0, _⟩ => show win6_0.index t (0 : Fin 2) * 2000 + 1 * p.val = r.val; rw [e0r]; omega
    | ⟨1, _⟩ => show win6_0.index t (1 : Fin 2) * 64 + 1 * k.val = k.val; rw [e0c]; omega
  · show V c main_v44_1 (((cfg6.win 1).blk t).view.emb (ix2 p j)) = V c main_v44_1 _
    refine congrArg _ (funext fun a => Fin.ext ?_)
    match a with
    | ⟨0, _⟩ => show win6_1.index t (0 : Fin 2) * 2000 + 1 * p.val = r.val; rw [e1r]; omega
    | ⟨1, _⟩ => show win6_1.index t (1 : Fin 2) * 64 + 1 * j.val = j.val; rw [e1c]; omega
  · show V c main_v56 (((cfg6.win 2).blk t).view.emb (ix2 p j)) = V c main_v56 _
    refine congrArg _ (funext fun a => Fin.ext ?_)
    match a with
    | ⟨0, _⟩ => show win6_2.index t (0 : Fin 2) * 2000 + 1 * p.val = r.val; rw [e2r]; omega
    | ⟨1, _⟩ => show win6_2.index t (1 : Fin 2) * 64 + 1 * j.val = j.val; rw [e2c]; omega
  · show V c main_v45 (((cfg6.win 3).blk t).view.emb (ix2 p j)) = V c main_v45 _
    refine congrArg _ (funext fun a => Fin.ext ?_)
    match a with
    | ⟨0, _⟩ => show win6_3.index t (0 : Fin 2) * 2000 + 1 * p.val = r.val; rw [e3r]; omega
    | ⟨1, _⟩ => show win6_3.index t (1 : Fin 2) * 64 + 1 * j.val = j.val; rw [e3c]; omega
  · show V c main_v11 (((cfg6.win 4).blk t).view.emb (ix2 p 0)) = V c main_v11 _
    refine congrArg _ (funext fun a => Fin.ext ?_)
    match a with
    | ⟨0, _⟩ => show win6_4.index t (0 : Fin 2) * 2000 + 1 * p.val = r.val; rw [e4r]; omega
    | ⟨1, _⟩ => show win6_4.index t (1 : Fin 2) * 1 + 1 * 0 = 0; rw [e4c]
  · intro k
    show V c main_arg8 (((cfg6.win 5).blk t).view.emb (ix2 k j)) = V c main_arg8 _
    refine congrArg _ (funext fun a => Fin.ext ?_)
    match a with
    | ⟨0, _⟩ => show win6_5.index t (0 : Fin 2) * 64 + 1 * k.val = k.val; rw [e5r]; omega
    | ⟨1, _⟩ => show win6_5.index t (1 : Fin 2) * 64 + 1 * j.val = j.val; rw [e5c]; omega
  · show V c main_v57 (((cfg6.win 6).blk t).view.emb (ix2 0 j)) = V c main_v57 _
    refine congrArg _ (funext fun a => Fin.ext ?_)
    match a with
    | ⟨0, _⟩ => show win6_6.index t (0 : Fin 2) * 1 + 1 * 0 = 0; rw [e6r]
    | ⟨1, _⟩ => show win6_6.index t (1 : Fin 2) * 64 + 1 * j.val = j.val; rw [e6c]; omega
  · show V c main_v58 (((cfg6.win 7).blk t).view.emb (ix2 0 j)) = V c main_v58 _
    refine congrArg _ (funext fun a => Fin.ext ?_)
    match a with
    | ⟨0, _⟩ => show win6_7.index t (0 : Fin 2) * 1 + 1 * 0 = 0; rw [e7r]
    | ⟨1, _⟩ => show win6_7.index t (1 : Fin 2) * 64 + 1 * j.val = j.val; rw [e7c]; omega

/-- WHAT POINT `t` WRITES BACK THROUGH WINDOW 8 is block `t` of `updX` of the eight arrays as the region finds them. -/
theorem flushed6_8_eq (q : Fin cfg6.W → PosShare TreeShare) (c : Dev nD) (t : Fin cfg6.N) :
    (dat6 (F := Ideal) V q c).flushed 8 t
      = ((cfg6.win 8).blk t).view.read (Elt Ideal) (updX (V c main_v44_0) (V c main_v44_1) (V c main_v56) (V c main_v45) (V c main_v11) (V c main_arg8) (V c main_v57) (V c main_v58)) := by
  show (cfg6.win 8).cut (grid6.coords t) ((dat6 V q c).after 8 t) = _
  rw [after6_8]
  unfold out6_8
  rw [View.canon_unit_zero hz6]
  simp only [View.ld_unit_zero (S := S2000x64) hz6, View.ld_unit_zero (S := S2000x1) hz6, View.ld_unit_zero (S := S64x64) hz6, View.ld_unit_zero (S := S1x64) hz6]
  obtain ⟨e0r, e0c, e1r, e1c, e2r, e2c, e3r, e3c, e4r, e4c, e5r, e5c, e6r, e6c, e7r, e7c, e8r, e8c, e9r, e9c⟩ := idx_facts6 t
  funext y
  obtain ⟨p, j, rfl⟩ : ∃ (p : Fin 2000) (j : Fin 64), y = ix2 p j := ⟨y 0, y 1, eq_ix2 y⟩
  have hr : 2000 * t.val + p.val < 50000 := by
    have ht : t.val < 25 := lt_of_lt_of_eq t.isLt N_6
    have := p.isLt
    omega
  obtain ⟨h0, h1, h2, h3, h4, h5, h6, h7⟩ := reads6 V c t p j ⟨2000 * t.val + p.val, hr⟩ rfl
  have hrow : (((cfg6.win 8).blk t).view.emb (ix2 p j) : S50000x64.Idx) = ix2 (⟨2000 * t.val + p.val, hr⟩ : Fin 50000) j := by
    funext a; apply Fin.ext
    match a with
    | ⟨0, _⟩ => show win6_8.index t (0 : Fin 2) * 2000 + 1 * p.val = 2000 * t.val + p.val; rw [e8r]; omega
    | ⟨1, _⟩ => show win6_8.index t (1 : Fin 2) * 64 + 1 * j.val = j.val; rw [e8c]; omega
  show k6_pay2 (F := Ideal) (k6_pay3 (iblk6 V c 0 t)) (k6_pay4 (iblk6 V c 1 t)) (k6_pay5 (iblk6 V c 0 t) (iblk6 V c 1 t) (iblk6 V c 2 t) (iblk6 V c 3 t) (iblk6 V c 4 t) (iblk6 V c 5 t) (iblk6 V c 6 t) (iblk6 V c 7 t)) (ix2 p j)
    = updX (V c main_v44_0) (V c main_v44_1) (V c main_v56) (V c main_v45) (V c main_v11) (V c main_arg8) (V c main_v57) (V c main_v58) (((cfg6.win 8).blk t).view.emb (ix2 p j))
  rw [hrow]
  exact blockX6 _ _ _ _ _ _ _ _ _ _ _ _ _ _ _ _ _ p j h0 h1 h2 h3 h4 h5 h6 h7

/-- WHAT POINT `t` WRITES BACK THROUGH WINDOW 9 is block `t` of `updY` of the eight arrays as the region finds them. -/
theorem flushed6_9_eq (q : Fin cfg6.W → PosShare TreeShare) (c : Dev nD) (t : Fin cfg6.N) :
    (dat6 (F := Ideal) V q c).flushed 9 t
      = ((cfg6.win 9).blk t).view.read (Elt Ideal) (updY (V c main_v44_0) (V c main_v44_1) (V c main_v56) (V c main_v45) (V c main_v11) (V c main_arg8) (V c main_v57) (V c main_v58)) := by
  show (cfg6.win 9).cut (grid6.coords t) ((dat6 V q c).after 9 t) = _
  rw [after6_9]
  unfold out6_9
  rw [View.canon_unit_zero hz6]
  simp only [View.ld_unit_zero (S := S2000x64) hz6, View.ld_unit_zero (S := S2000x1) hz6, View.ld_unit_zero (S := S64x64) hz6, View.ld_unit_zero (S := S1x64) hz6]
  obtain ⟨e0r, e0c, e1r, e1c, e2r, e2c, e3r, e3c, e4r, e4c, e5r, e5c, e6r, e6c, e7r, e7c, e8r, e8c, e9r, e9c⟩ := idx_facts6 t
  funext y
  obtain ⟨p, j, rfl⟩ : ∃ (p : Fin 2000) (j : Fin 64), y = ix2 p j := ⟨y 0, y 1, eq_ix2 y⟩
  have hr : 2000 * t.val + p.val < 50000 := by
    have ht : t.val < 25 := lt_of_lt_of_eq t.isLt N_6
    have := p.isLt
    omega
  obtain ⟨h0, h1, h2, h3, h4, h5, h6, h7⟩ := reads6 V c t p j ⟨2000 * t.val + p.val, hr⟩ rfl
  have hrow : (((cfg6.win 9).blk t).view.emb (ix2 p j) : S50000x64.Idx) = ix2 (⟨2000 * t.val + p.val, hr⟩ : Fin 50000) j := by
    funext a; apply Fin.ext
    match a with
    | ⟨0, _⟩ => show win6_9.index t (0 : Fin 2) * 2000 + 1 * p.val = 2000 * t.val + p.val; rw [e9r]; omega
    | ⟨1, _⟩ => show win6_9.index t (1 : Fin 2) * 64 + 1 * j.val = j.val; rw [e9c]; omega
  show k6_pay1 (F := Ideal) (k6_pay4 (iblk6 V c 1 t)) (k6_pay5 (iblk6 V c 0 t) (iblk6 V c 1 t) (iblk6 V c 2 t) (iblk6 V c 3 t) (iblk6 V c 4 t) (iblk6 V c 5 t) (iblk6 V c 6 t) (iblk6 V c 7 t)) (ix2 p j)
    = updY (V c main_v44_0) (V c main_v44_1) (V c main_v56) (V c main_v45) (V c main_v11) (V c main_arg8) (V c main_v57) (V c main_v58) (((cfg6.win 9).blk t).view.emb (ix2 p j))
  rw [hrow]
  exact blockY6 _ _ _ _ _ _ _ _ _ _ _ _ _ _ _ _ _ p j h0 h1 h2 h3 h4 h5 h6 h7

/-- An entry of output 8's array is in point `t`'s block iff each coordinate is in the block's range on its axis. -/
theorem mem_blk6_8 (t : Fin cfg6.N) (i : S50000x64.Idx) :
    i ∈ ((cfg6.win 8).blk t).view.set ↔ ∀ a : Fin 2, win6_8.index t a * S2000x64.size a ≤ (i a).val
      ∧ (i a).val < win6_8.index t a * S2000x64.size a + S2000x64.size a := by
  show i ∈ ((View.whole main_v59_0).slice (win6_8.rect t)).set ↔ _
  rw [View.set_slice_whole, Rect.mem_set_unit]
  exact Iff.rfl

/-- Every entry of output 8's array is in some point's block: row `r` in the block of point `r / 2000`. -/
theorem covered6_8 (i : S50000x64.Idx) :
    ∃ t : Fin cfg6.N, (cfg6.win 8).flush t = true ∧ i ∈ ((cfg6.win 8).blk t).view.set := by
  have hi0 : (i 0).val < 50000 := (i 0).isLt
  have hi1 : (i 1).val < 64 := (i 1).isLt
  have hN : cfg6.N = 25 := N_6
  refine ⟨⟨(i 0).val / 2000, by rw [hN]; omega⟩, flush6_8 _, ?_⟩
  obtain ⟨e0r, e0c, e1r, e1c, e2r, e2c, e3r, e3c, e4r, e4c, e5r, e5c, e6r, e6c, e7r, e7c, e8r, e8c, e9r, e9c⟩ := idx_facts6 ⟨(i 0).val / 2000, by rw [hN]; omega⟩
  rw [mem_blk6_8]
  intro a
  match a with
  | ⟨0, _⟩ =>
    show win6_8.index _ (0 : Fin 2) * 2000 ≤ (i 0).val ∧ (i 0).val < win6_8.index _ (0 : Fin 2) * 2000 + 2000
    rw [e8r]; show (i 0).val / 2000 * 2000 ≤ (i 0).val ∧ (i 0).val < (i 0).val / 2000 * 2000 + 2000; omega
  | ⟨1, _⟩ =>
    show win6_8.index _ (1 : Fin 2) * 64 ≤ (i 1).val ∧ (i 1).val < win6_8.index _ (1 : Fin 2) * 64 + 64
    rw [e8c]; omega

/-- An entry of output 9's array is in point `t`'s block iff each coordinate is in the block's range on its axis. -/
theorem mem_blk6_9 (t : Fin cfg6.N) (i : S50000x64.Idx) :
    i ∈ ((cfg6.win 9).blk t).view.set ↔ ∀ a : Fin 2, win6_9.index t a * S2000x64.size a ≤ (i a).val
      ∧ (i a).val < win6_9.index t a * S2000x64.size a + S2000x64.size a := by
  show i ∈ ((View.whole main_v59_1).slice (win6_9.rect t)).set ↔ _
  rw [View.set_slice_whole, Rect.mem_set_unit]
  exact Iff.rfl

/-- Every entry of output 9's array is in some point's block: row `r` in the block of point `r / 2000`. -/
theorem covered6_9 (i : S50000x64.Idx) :
    ∃ t : Fin cfg6.N, (cfg6.win 9).flush t = true ∧ i ∈ ((cfg6.win 9).blk t).view.set := by
  have hi0 : (i 0).val < 50000 := (i 0).isLt
  have hi1 : (i 1).val < 64 := (i 1).isLt
  have hN : cfg6.N = 25 := N_6
  refine ⟨⟨(i 0).val / 2000, by rw [hN]; omega⟩, flush6_9 _, ?_⟩
  obtain ⟨e0r, e0c, e1r, e1c, e2r, e2c, e3r, e3c, e4r, e4c, e5r, e5c, e6r, e6c, e7r, e7c, e8r, e8c, e9r, e9c⟩ := idx_facts6 ⟨(i 0).val / 2000, by rw [hN]; omega⟩
  rw [mem_blk6_9]
  intro a
  match a with
  | ⟨0, _⟩ =>
    show win6_9.index _ (0 : Fin 2) * 2000 ≤ (i 0).val ∧ (i 0).val < win6_9.index _ (0 : Fin 2) * 2000 + 2000
    rw [e9r]; show (i 0).val / 2000 * 2000 ≤ (i 0).val ∧ (i 0).val < (i 0).val / 2000 * 2000 + 2000; omega
  | ⟨1, _⟩ =>
    show win6_9.index _ (1 : Fin 2) * 64 ≤ (i 1).val ∧ (i 1).val < win6_9.index _ (1 : Fin 2) * 64 + 64
    rw [e9c]; omega

/-- THE FIRST OUTPUT ARRAY AFTER THE REGION is `updX` of the eight arrays as the region finds them. -/
theorem arr6_8 (q : Fin cfg6.W → PosShare TreeShare) (c : Dev nD) :
    (dat6 (F := Ideal) V q c).arrAt 8 cfg6.N = updX (V c main_v44_0) (V c main_v44_1) (V c main_v56) (V c main_v45) (V c main_v11) (V c main_arg8) (V c main_v57) (V c main_v58) :=
  (dat6 (F := Ideal) V q c).arrAt_eq_of_cover 8 (updX (V c main_v44_0) (V c main_v44_1) (V c main_v56) (V c main_v45) (V c main_v11) (V c main_arg8) (V c main_v57) (V c main_v58))
    (fun t _ => flushed6_8_eq V q c t) covered6_8

/-- THE SECOND OUTPUT ARRAY AFTER THE REGION is `updY` of the same arrays. -/
theorem arr6_9 (q : Fin cfg6.W → PosShare TreeShare) (c : Dev nD) :
    (dat6 (F := Ideal) V q c).arrAt 9 cfg6.N = updY (V c main_v44_0) (V c main_v44_1) (V c main_v56) (V c main_v45) (V c main_v11) (V c main_arg8) (V c main_v57) (V c main_v58) :=
  (dat6 (F := Ideal) V q c).arrAt_eq_of_cover 9 (updY (V c main_v44_0) (V c main_v44_1) (V c main_v56) (V c main_v45) (V c main_v11) (V c main_arg8) (V c main_v57) (V c main_v58))
    (fun t _ => flushed6_9_eq V q c t) covered6_9

end Cert.KernelIdeal.Fr

end
-- ==== Proof.KI.Val8.lean ====
/-
  Region 8's value: the two arrays the update leaves.

  At grid point t the body reads block t (rows 2000 t … 2000 t + 1999) of the two states, of the two aggregates and of
  the scale column, and the whole residual weights and bias rows, and stores into block t of its two outputs the new
  first and second states of those rows. Each entry (r, j) of what is stored at point r / 2000 reads row r of the node
  arrays only, so it is one function of the eight arrays, entry by entry (`updX`, `updY`). The 25 blocks tile the
  50000 rows, so after the region each output array is that function everywhere.
-/
import proofs.«131582_j65292092834213_2_alg».proof.Proof.KI.R8
import proofs.«131582_j65292092834213_2_alg».proof.Proof.KI.Val2
import proofs.«131582_j65292092834213_2_alg».proof.Proof.LibColumnBroadcast
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open scoped BigOperators

/-! ## The residual product: which operand entries an output entry reads -/

/-- The left operand is read on its row axis at the output's row, -/
theorem dot8_lhs0 (j : S2000x64.Idx) (q : dot_S2000x64_S64x64_S2000x64_1_0_0_1_n_n.contr.Idx) :
    (dot_S2000x64_S64x64_S2000x64_1_0_0_1_n_n.lhsIdx j q 0).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
/-- and on its column axis at the contraction index; -/
theorem dot8_lhs1 (j : S2000x64.Idx) (q : dot_S2000x64_S64x64_S2000x64_1_0_0_1_n_n.contr.Idx) :
    (dot_S2000x64_S64x64_S2000x64_1_0_0_1_n_n.lhsIdx j q 1).val = (q ⟨0, by decide⟩).val :=
  dot_S2000x64_S64x64_S2000x64_1_0_0_1_n_n.lhsIdx_val_of_single rfl j q
/-- the right operand on its row axis at the contraction index, -/
theorem dot8_rhs0 (j : S2000x64.Idx) (q : dot_S2000x64_S64x64_S2000x64_1_0_0_1_n_n.contr.Idx) :
    (dot_S2000x64_S64x64_S2000x64_1_0_0_1_n_n.rhsIdx j q 0).val = (q ⟨0, by decide⟩).val :=
  dot_S2000x64_S64x64_S2000x64_1_0_0_1_n_n.rhsIdx_val_of_single rfl j q
/-- and on its column axis at the output's column. -/
theorem dot8_rhs1 (j : S2000x64.Idx) (q : dot_S2000x64_S64x64_S2000x64_1_0_0_1_n_n.contr.Idx) :
    (dot_S2000x64_S64x64_S2000x64_1_0_0_1_n_n.rhsIdx j q 1).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- A bias row broadcast down the 2000 rows reads, at `(p, j)`, the row's entry `j`. -/
theorem row8_apply (v : Vec Ideal S1x64 .f32) (h1 : S1x64.ShapeCasts S1x64) (h2 : S1x64.Broadcasts S2000x64) (p : Fin 2000) (j : Fin 64) :
    broadcastTo S2000x64 (shapeCast S1x64 v h1) h2 (ix2 p j) = v (ix2 0 j) := by
  refine (broadcastTo_apply _ _ (ix2 p j) (ix2 0 j) ?_).trans ?_
  · intro a
    match a with
    | ⟨0, _⟩ => show (0 : ℕ) = if (1 : ℕ) = 1 then 0 else _; rw [if_pos rfl]
    | ⟨1, _⟩ => show j.val = if (64 : ℕ) = 1 then 0 else j.val; rw [if_neg (by decide)]
  · exact congrFun (shapeCast_self v _) _

/-! ## The body's payloads at an entry -/

/-- THE INCREMENT AT AN ENTRY. Row `p`, column `j` of the increment the body forms: the scale of row `p` times the sum of
    the two aggregates there, plus one bias; plus row `p` of the first state times column `j` of the residual weights —
    the sum over the 64 features — plus the other bias; the maximum of that with the zero word, less the unit word times
    each state there, times the unit word. (On the extended reals the changes of format are the identity, and the
    product accumulates into zero.) -/
theorem pay8_5_apply (x0 x1 x2 : Vec Ideal S2000x64 .f32) (x3 : Vec Ideal S2000x64 .bf16) (x4 : Vec Ideal S2000x1 .f32)
    (x5 : Vec Ideal S64x64 .f32) (x6 x7 : Vec Ideal S1x64 .f32) (p : Fin 2000) (j : Fin 64) :
    k8_pay5 (F := Ideal) x0 x1 x2 x3 x4 x5 x6 x7 (ix2 p j) = Ideal.ofBits .f32 0x3F800000#32 * ((max (((x4 (ix2 p 0) * (x2 (ix2 p j) + (x3 (ix2 p j) : EReal))) + x7 (ix2 0 j)) + ((∑ k : Fin 64, x0 (ix2 p k) * x5 (ix2 k j)) + x6 (ix2 0 j))) (Ideal.ofBits .f32 0x00000000#32) - Ideal.ofBits .f32 0x3F800000#32 * x1 (ix2 p j)) - Ideal.ofBits .f32 0x3F800000#32 * x0 (ix2 p j)) := by
  unfold k8_pay5 k8_pay3 k8_pay4
  refine (mulf_apply _ _ (ix2 p j)).trans ?_
  refine congrArg₂ (· * ·) rfl ?_
  refine (subf_apply _ _ (ix2 p j)).trans ?_
  refine congrArg₂ (· - ·) ?_ ?_
  · refine (subf_apply _ _ (ix2 p j)).trans ?_
    refine congrArg₂ (· - ·) ?_ ?_
    · refine (maximumf_apply _ _ (ix2 p j)).trans ?_
      refine congrArg₂ max ?_ rfl
      refine (addf_apply _ _ (ix2 p j)).trans ?_
      refine congrArg₂ (· + ·) ?_ ?_
      · refine (addf_apply _ _ (ix2 p j)).trans ?_
        refine congrArg₂ (· + ·) ?_ (row8_apply x7 _ _ p j)
        refine (mulf_apply _ _ (ix2 p j)).trans ?_
        refine congrArg₂ (· * ·) ?_ ?_
        · refine (broadcastTo_a1_ab_apply (a := 2000) (b := 64) _ _ p j).trans ?_
          exact (congrFun (shapeCast_self _ _) _).trans (congrFun (shapeCast_self x4 _) _)
        · refine (addf_apply _ _ (ix2 p j)).trans ?_
          exact congrArg₂ (· + ·) (congrFun (shapeCast_self x2 _) _) (congrFun (shapeCast_self x3 _) _)
      · refine (addf_apply _ _ (ix2 p j)).trans ?_
        refine congrArg₂ (· + ·) ?_ (row8_apply x6 _ _ p j)
        refine (Ideal.matmul_constant_zero_apply dot_S2000x64_S64x64_S2000x64_1_0_0_1_n_n none _ _ (ix2 p j)).trans ?_
        rw [← Equiv.sum_comp (contrEquiv1 dot_S2000x64_S64x64_S2000x64_1_0_0_1_n_n 64 rfl rfl).symm]
        refine Finset.sum_congr rfl fun k _ => ?_
        have hk := contrEquiv1_symm_val dot_S2000x64_S64x64_S2000x64_1_0_0_1_n_n 64 rfl rfl k
        refine congrArg₂ (· * ·) ?_ ?_
        · refine (congrFun (shapeCast_self x0 _) _).trans ?_
          refine congrArg x0 (funext fun a => Fin.ext ?_)
          match a with
          | ⟨0, _⟩ => exact dot8_lhs0 _ _
          | ⟨1, _⟩ => exact (dot8_lhs1 _ _).trans hk
        · refine congrArg x5 (funext fun a => Fin.ext ?_)
          match a with
          | ⟨0, _⟩ => exact (dot8_rhs0 _ _).trans hk
          | ⟨1, _⟩ => exact dot8_rhs1 _ _
    · refine (mulf_apply _ _ (ix2 p j)).trans ?_
      exact congrArg₂ (· * ·) rfl (congrFun (shapeCast_self x1 _) _)
  · refine (mulf_apply _ _ (ix2 p j)).trans ?_
    exact congrArg₂ (· * ·) rfl (congrFun (shapeCast_self x0 _) _)

/-- WHAT IS STORED INTO THE SECOND OUTPUT at `(p, j)`: the second state there plus the increment. -/
theorem pay8_Y_apply (x0 x1 x2 : Vec Ideal S2000x64 .f32) (x3 : Vec Ideal S2000x64 .bf16) (x4 : Vec Ideal S2000x1 .f32)
    (x5 : Vec Ideal S64x64 .f32) (x6 x7 : Vec Ideal S1x64 .f32) (p : Fin 2000) (j : Fin 64) :
    k8_pay1 (F := Ideal) (k8_pay4 x1) (k8_pay5 x0 x1 x2 x3 x4 x5 x6 x7) (ix2 p j)
      = x1 (ix2 p j) + Ideal.ofBits .f32 0x3F800000#32 * ((max (((x4 (ix2 p 0) * (x2 (ix2 p j) + (x3 (ix2 p j) : EReal))) + x7 (ix2 0 j)) + ((∑ k : Fin 64, x0 (ix2 p k) * x5 (ix2 k j)) + x6 (ix2 0 j))) (Ideal.ofBits .f32 0x00000000#32) - Ideal.ofBits .f32 0x3F800000#32 * x1 (ix2 p j)) - Ideal.ofBits .f32 0x3F800000#32 * x0 (ix2 p j)) := by
  unfold k8_pay1
  refine (addf_apply _ _ (ix2 p j)).trans ?_
  refine congrArg₂ (· + ·) ?_ (pay8_5_apply x0 x1 x2 x3 x4 x5 x6 x7 p j)
  unfold k8_pay4
  exact congrFun (shapeCast_self x1 _) _

/-- WHAT IS STORED INTO THE FIRST OUTPUT at `(p, j)`: the first state there plus the unit word times what is stored
    into the second output there. -/
theorem pay8_X_apply (x0 x1 x2 : Vec Ideal S2000x64 .f32) (x3 : Vec Ideal S2000x64 .bf16) (x4 : Vec Ideal S2000x1 .f32)
    (x5 : Vec Ideal S64x64 .f32) (x6 x7 : Vec Ideal S1x64 .f32) (p : Fin 2000) (j : Fin 64) :
    k8_pay2 (F := Ideal) (k8_pay3 x0) (k8_pay4 x1) (k8_pay5 x0 x1 x2 x3 x4 x5 x6 x7) (ix2 p j)
      = x0 (ix2 p j) + Ideal.ofBits .f32 0x3F800000#32 * (x1 (ix2 p j) + Ideal.ofBits .f32 0x3F800000#32 * ((max (((x4 (ix2 p 0) * (x2 (ix2 p j) + (x3 (ix2 p j) : EReal))) + x7 (ix2 0 j)) + ((∑ k : Fin 64, x0 (ix2 p k) * x5 (ix2 k j)) + x6 (ix2 0 j))) (Ideal.ofBits .f32 0x00000000#32) - Ideal.ofBits .f32 0x3F800000#32 * x1 (ix2 p j)) - Ideal.ofBits .f32 0x3F800000#32 * x0 (ix2 p j))) := by
  unfold k8_pay2
  refine (addf_apply _ _ (ix2 p j)).trans ?_
  refine congrArg₂ (· + ·) ?_ ?_
  · unfold k8_pay3
    exact congrFun (shapeCast_self x0 _) _
  · refine (mulf_apply _ _ (ix2 p j)).trans ?_
    exact congrArg₂ (· * ·) rfl (pay8_Y_apply x0 x1 x2 x3 x4 x5 x6 x7 p j)

/-! ## From a block's entries to the arrays' -/

/-- When every block entry the payload reads at `(p, j)` is the arrays' entry of row `r`, what is stored into the second
    output at `(p, j)` is `updY` of the arrays at `(r, j)`, -/
theorem blockY8 (X Y A : Vec Ideal S50000x64 .f32) (H : Vec Ideal S50000x64 .bf16) (dinv : Vec Ideal S50000x1 .f32)
    (Wr : Vec Ideal S64x64 .f32) (rb cb : Vec Ideal S1x64 .f32)
    (x0 x1 x2 : Vec Ideal S2000x64 .f32) (x3 : Vec Ideal S2000x64 .bf16) (x4 : Vec Ideal S2000x1 .f32)
    (x5 : Vec Ideal S64x64 .f32) (x6 x7 : Vec Ideal S1x64 .f32) (r : Fin 50000) (p : Fin 2000) (j : Fin 64)
    (h0 : ∀ k : Fin 64, x0 (ix2 p k) = X (ix2 r k)) (h1 : x1 (ix2 p j) = Y (ix2 r j)) (h2 : x2 (ix2 p j) = A (ix2 r j))
    (h3 : x3 (ix2 p j) = H (ix2 r j)) (h4 : x4 (ix2 p 0) = dinv (ix2 r 0)) (h5 : ∀ k : Fin 64, x5 (ix2 k j) = Wr (ix2 k j))
    (h6 : x6 (ix2 0 j) = rb (ix2 0 j)) (h7 : x7 (ix2 0 j) = cb (ix2 0 j)) :
    k8_pay1 (F := Ideal) (k8_pay4 x1) (k8_pay5 x0 x1 x2 x3 x4 x5 x6 x7) (ix2 p j) = updY X Y A H dinv Wr rb cb (ix2 r j) := by
  rw [pay8_Y_apply, updY_apply]
  simp only [h0, h1, h2, h3, h4, h5, h6, h7]

/-- and what is stored into the first output there is `updX` of the arrays at `(r, j)`. -/
theorem blockX8 (X Y A : Vec Ideal S50000x64 .f32) (H : Vec Ideal S50000x64 .bf16) (dinv : Vec Ideal S50000x1 .f32)
    (Wr : Vec Ideal S64x64 .f32) (rb cb : Vec Ideal S1x64 .f32)
    (x0 x1 x2 : Vec Ideal S2000x64 .f32) (x3 : Vec Ideal S2000x64 .bf16) (x4 : Vec Ideal S2000x1 .f32)
    (x5 : Vec Ideal S64x64 .f32) (x6 x7 : Vec Ideal S1x64 .f32) (r : Fin 50000) (p : Fin 2000) (j : Fin 64)
    (h0 : ∀ k : Fin 64, x0 (ix2 p k) = X (ix2 r k)) (h1 : x1 (ix2 p j) = Y (ix2 r j)) (h2 : x2 (ix2 p j) = A (ix2 r j))
    (h3 : x3 (ix2 p j) = H (ix2 r j)) (h4 : x4 (ix2 p 0) = dinv (ix2 r 0)) (h5 : ∀ k : Fin 64, x5 (ix2 k j) = Wr (ix2 k j))
    (h6 : x6 (ix2 0 j) = rb (ix2 0 j)) (h7 : x7 (ix2 0 j) = cb (ix2 0 j)) :
    k8_pay2 (F := Ideal) (k8_pay3 x0) (k8_pay4 x1) (k8_pay5 x0 x1 x2 x3 x4 x5 x6 x7) (ix2 p j) = updX X Y A H dinv Wr rb cb (ix2 r j) := by
  rw [pay8_X_apply, updX_apply, updY_apply]
  simp only [h0, h1, h2, h3, h4, h5, h6, h7]

/-! ## The arrays after the region -/

variable (V : (c : Dev nD) → (b : Ref sig .tc) → Buf (Elt Ideal) ((c : Thread nD τ).loc b))

/-- The zero offsets of a whole-block access, however spelt. -/
theorem hz8 : (![0, 0] : Fin 2 → Nat) = fun _ => 0 := funext fun a => by fin_cases a <;> rfl

/-- Where each window's block sits at each grid point: the node arrays' blocks (the states, the aggregates, the scale
    column, the two outputs) at block row `t`, the residual weights and the bias rows always at their one block. Decided
    over the 25 points. -/
theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0
    ∧ win8_8.index t (0 : Fin 2) = t.val ∧ win8_8.index t (1 : Fin 2) = 0
    ∧ win8_9.index t (0 : Fin 2) = t.val ∧ win8_9.index t (1 : Fin 2) = 0 :=
  (by decide +kernel : ∀ t : Fin grid8.N, _)

/-- WHAT THE INPUT BLOCKS HOLD at point `t`: entry `(p, ·)` of a node array's block is the array's entry of row
    `2000 t + p`; the residual weights' and the bias rows' one block is the whole array. -/
theorem reads8 (c : Dev nD) (t : Fin cfg8.N) (p : Fin 2000) (j : Fin 64) (r : Fin 50000) (hr : r.val = 2000 * t.val + p.val) :
    (∀ k : Fin 64, (iblk8 V c 0 t : Vec Ideal S2000x64 .f32) (ix2 p k) = (V c main_v59_0 : Vec Ideal S50000x64 .f32) (ix2 r k))
    ∧ (iblk8 V c 1 t : Vec Ideal S2000x64 .f32) (ix2 p j) = (V c main_v59_1 : Vec Ideal S50000x64 .f32) (ix2 r j)
    ∧ (iblk8 V c 2 t : Vec Ideal S2000x64 .f32) (ix2 p j) = (V c main_v71 : Vec Ideal S50000x64 .f32) (ix2 r j)
    ∧ (iblk8 V c 3 t : Vec Ideal S2000x64 .bf16) (ix2 p j) = (V c main_v60 : Vec Ideal S50000x64 .bf16) (ix2 r j)
    ∧ (iblk8 V c 4 t : Vec Ideal S2000x1 .f32) (ix2 p 0) = (V c main_v11 : Vec Ideal S50000x1 .f32) (ix2 r 0)
    ∧ (∀ k : Fin 64, (iblk8 V c 5 t : Vec Ideal S64x64 .f32) (ix2 k j) = (V c main_arg8 : Vec Ideal S64x64 .f32) (ix2 k j))
    ∧ (iblk8 V c 6 t : Vec Ideal S1x64 .f32) (ix2 0 j) = (V c main_v72 : Vec Ideal S1x64 .f32) (ix2 0 j)
    ∧ (iblk8 V c 7 t : Vec Ideal S1x64 .f32) (ix2 0 j) = (V c main_v73 : Vec Ideal S1x64 .f32) (ix2 0 j) := by
  obtain ⟨e0r, e0c, e1r, e1c, e2r, e2c, e3r, e3c, e4r, e4c, e5r, e5c, e6r, e6c, e7r, e7c, e8r, e8c, e9r, e9c⟩ := idx_facts8 t
  refine ⟨?_, ?_, ?_, ?_, ?_, ?_, ?_, ?_⟩
  · intro k
    show V c main_v59_0 (((cfg8.win 0).blk t).view.emb (ix2 p k)) = V c main_v59_0 _
    refine congrArg _ (funext fun a => Fin.ext ?_)
    match a with
    | ⟨0, _⟩ => show win8_0.index t (0 : Fin 2) * 2000 + 1 * p.val = r.val; rw [e0r]; omega
    | ⟨1, _⟩ => show win8_0.index t (1 : Fin 2) * 64 + 1 * k.val = k.val; rw [e0c]; omega
  · show V c main_v59_1 (((cfg8.win 1).blk t).view.emb (ix2 p j)) = V c main_v59_1 _
    refine congrArg _ (funext fun a => Fin.ext ?_)
    match a with
    | ⟨0, _⟩ => show win8_1.index t (0 : Fin 2) * 2000 + 1 * p.val = r.val; rw [e1r]; omega
    | ⟨1, _⟩ => show win8_1.index t (1 : Fin 2) * 64 + 1 * j.val = j.val; rw [e1c]; omega
  · show V c main_v71 (((cfg8.win 2).blk t).view.emb (ix2 p j)) = V c main_v71 _
    refine congrArg _ (funext fun a => Fin.ext ?_)
    match a with
    | ⟨0, _⟩ => show win8_2.index t (0 : Fin 2) * 2000 + 1 * p.val = r.val; rw [e2r]; omega
    | ⟨1, _⟩ => show win8_2.index t (1 : Fin 2) * 64 + 1 * j.val = j.val; rw [e2c]; omega
  · show V c main_v60 (((cfg8.win 3).blk t).view.emb (ix2 p j)) = V c main_v60 _
    refine congrArg _ (funext fun a => Fin.ext ?_)
    match a with
    | ⟨0, _⟩ => show win8_3.index t (0 : Fin 2) * 2000 + 1 * p.val = r.val; rw [e3r]; omega
    | ⟨1, _⟩ => show win8_3.index t (1 : Fin 2) * 64 + 1 * j.val = j.val; rw [e3c]; omega
  · show V c main_v11 (((cfg8.win 4).blk t).view.emb (ix2 p 0)) = V c main_v11 _
    refine congrArg _ (funext fun a => Fin.ext ?_)
    match a with
    | ⟨0, _⟩ => show win8_4.index t (0 : Fin 2) * 2000 + 1 * p.val = r.val; rw [e4r]; omega
    | ⟨1, _⟩ => show win8_4.index t (1 : Fin 2) * 1 + 1 * 0 = 0; rw [e4c]
  · intro k
    show V c main_arg8 (((cfg8.win 5).blk t).view.emb (ix2 k j)) = V c main_arg8 _
    refine congrArg _ (funext fun a => Fin.ext ?_)
    match a with
    | ⟨0, _⟩ => show win8_5.index t (0 : Fin 2) * 64 + 1 * k.val = k.val; rw [e5r]; omega
    | ⟨1, _⟩ => show win8_5.index t (1 : Fin 2) * 64 + 1 * j.val = j.val; rw [e5c]; omega
  · show V c main_v72 (((cfg8.win 6).blk t).view.emb (ix2 0 j)) = V c main_v72 _
    refine congrArg _ (funext fun a => Fin.ext ?_)
    match a with
    | ⟨0, _⟩ => show win8_6.index t (0 : Fin 2) * 1 + 1 * 0 = 0; rw [e6r]
    | ⟨1, _⟩ => show win8_6.index t (1 : Fin 2) * 64 + 1 * j.val = j.val; rw [e6c]; omega
  · show V c main_v73 (((cfg8.win 7).blk t).view.emb (ix2 0 j)) = V c main_v73 _
    refine congrArg _ (funext fun a => Fin.ext ?_)
    match a with
    | ⟨0, _⟩ => show win8_7.index t (0 : Fin 2) * 1 + 1 * 0 = 0; rw [e7r]
    | ⟨1, _⟩ => show win8_7.index t (1 : Fin 2) * 64 + 1 * j.val = j.val; rw [e7c]; omega

/-- WHAT POINT `t` WRITES BACK THROUGH WINDOW 8 is block `t` of `updX` of the eight arrays as the region finds them. -/
theorem flushed8_8_eq (q : Fin cfg8.W → PosShare TreeShare) (c : Dev nD) (t : Fin cfg8.N) :
    (dat8 (F := Ideal) V q c).flushed 8 t
      = ((cfg8.win 8).blk t).view.read (Elt Ideal) (updX (V c main_v59_0) (V c main_v59_1) (V c main_v71) (V c main_v60) (V c main_v11) (V c main_arg8) (V c main_v72) (V c main_v73)) := by
  show (cfg8.win 8).cut (grid8.coords t) ((dat8 V q c).after 8 t) = _
  rw [after8_8]
  unfold out8_8
  rw [View.canon_unit_zero hz8]
  simp only [View.ld_unit_zero (S := S2000x64) hz8, View.ld_unit_zero (S := S2000x1) hz8, View.ld_unit_zero (S := S64x64) hz8, View.ld_unit_zero (S := S1x64) hz8]
  obtain ⟨e0r, e0c, e1r, e1c, e2r, e2c, e3r, e3c, e4r, e4c, e5r, e5c, e6r, e6c, e7r, e7c, e8r, e8c, e9r, e9c⟩ := idx_facts8 t
  funext y
  obtain ⟨p, j, rfl⟩ : ∃ (p : Fin 2000) (j : Fin 64), y = ix2 p j := ⟨y 0, y 1, eq_ix2 y⟩
  have hr : 2000 * t.val + p.val < 50000 := by
    have ht : t.val < 25 := lt_of_lt_of_eq t.isLt N_8
    have := p.isLt
    omega
  obtain ⟨h0, h1, h2, h3, h4, h5, h6, h7⟩ := reads8 V c t p j ⟨2000 * t.val + p.val, hr⟩ rfl
  have hrow : (((cfg8.win 8).blk t).view.emb (ix2 p j) : S50000x64.Idx) = ix2 (⟨2000 * t.val + p.val, hr⟩ : Fin 50000) j := by
    funext a; apply Fin.ext
    match a with
    | ⟨0, _⟩ => show win8_8.index t (0 : Fin 2) * 2000 + 1 * p.val = 2000 * t.val + p.val; rw [e8r]; omega
    | ⟨1, _⟩ => show win8_8.index t (1 : Fin 2) * 64 + 1 * j.val = j.val; rw [e8c]; omega
  show k8_pay2 (F := Ideal) (k8_pay3 (iblk8 V c 0 t)) (k8_pay4 (iblk8 V c 1 t)) (k8_pay5 (iblk8 V c 0 t) (iblk8 V c 1 t) (iblk8 V c 2 t) (iblk8 V c 3 t) (iblk8 V c 4 t) (iblk8 V c 5 t) (iblk8 V c 6 t) (iblk8 V c 7 t)) (ix2 p j)
    = updX (V c main_v59_0) (V c main_v59_1) (V c main_v71) (V c main_v60) (V c main_v11) (V c main_arg8) (V c main_v72) (V c main_v73) (((cfg8.win 8).blk t).view.emb (ix2 p j))
  rw [hrow]
  exact blockX8 _ _ _ _ _ _ _ _ _ _ _ _ _ _ _ _ _ p j h0 h1 h2 h3 h4 h5 h6 h7

/-- WHAT POINT `t` WRITES BACK THROUGH WINDOW 9 is block `t` of `updY` of the eight arrays as the region finds them. -/
theorem flushed8_9_eq (q : Fin cfg8.W → PosShare TreeShare) (c : Dev nD) (t : Fin cfg8.N) :
    (dat8 (F := Ideal) V q c).flushed 9 t
      = ((cfg8.win 9).blk t).view.read (Elt Ideal) (updY (V c main_v59_0) (V c main_v59_1) (V c main_v71) (V c main_v60) (V c main_v11) (V c main_arg8) (V c main_v72) (V c main_v73)) := by
  show (cfg8.win 9).cut (grid8.coords t) ((dat8 V q c).after 9 t) = _
  rw [after8_9]
  unfold out8_9
  rw [View.canon_unit_zero hz8]
  simp only [View.ld_unit_zero (S := S2000x64) hz8, View.ld_unit_zero (S := S2000x1) hz8, View.ld_unit_zero (S := S64x64) hz8, View.ld_unit_zero (S := S1x64) hz8]
  obtain ⟨e0r, e0c, e1r, e1c, e2r, e2c, e3r, e3c, e4r, e4c, e5r, e5c, e6r, e6c, e7r, e7c, e8r, e8c, e9r, e9c⟩ := idx_facts8 t
  funext y
  obtain ⟨p, j, rfl⟩ : ∃ (p : Fin 2000) (j : Fin 64), y = ix2 p j := ⟨y 0, y 1, eq_ix2 y⟩
  have hr : 2000 * t.val + p.val < 50000 := by
    have ht : t.val < 25 := lt_of_lt_of_eq t.isLt N_8
    have := p.isLt
    omega
  obtain ⟨h0, h1, h2, h3, h4, h5, h6, h7⟩ := reads8 V c t p j ⟨2000 * t.val + p.val, hr⟩ rfl
  have hrow : (((cfg8.win 9).blk t).view.emb (ix2 p j) : S50000x64.Idx) = ix2 (⟨2000 * t.val + p.val, hr⟩ : Fin 50000) j := by
    funext a; apply Fin.ext
    match a with
    | ⟨0, _⟩ => show win8_9.index t (0 : Fin 2) * 2000 + 1 * p.val = 2000 * t.val + p.val; rw [e9r]; omega
    | ⟨1, _⟩ => show win8_9.index t (1 : Fin 2) * 64 + 1 * j.val = j.val; rw [e9c]; omega
  show k8_pay1 (F := Ideal) (k8_pay4 (iblk8 V c 1 t)) (k8_pay5 (iblk8 V c 0 t) (iblk8 V c 1 t) (iblk8 V c 2 t) (iblk8 V c 3 t) (iblk8 V c 4 t) (iblk8 V c 5 t) (iblk8 V c 6 t) (iblk8 V c 7 t)) (ix2 p j)
    = updY (V c main_v59_0) (V c main_v59_1) (V c main_v71) (V c main_v60) (V c main_v11) (V c main_arg8) (V c main_v72) (V c main_v73) (((cfg8.win 9).blk t).view.emb (ix2 p j))
  rw [hrow]
  exact blockY8 _ _ _ _ _ _ _ _ _ _ _ _ _ _ _ _ _ p j h0 h1 h2 h3 h4 h5 h6 h7

/-- An entry of output 8's array is in point `t`'s block iff each coordinate is in the block's range on its axis. -/
theorem mem_blk8_8 (t : Fin cfg8.N) (i : S50000x64.Idx) :
    i ∈ ((cfg8.win 8).blk t).view.set ↔ ∀ a : Fin 2, win8_8.index t a * S2000x64.size a ≤ (i a).val
      ∧ (i a).val < win8_8.index t a * S2000x64.size a + S2000x64.size a := by
  show i ∈ ((View.whole main_v74_0).slice (win8_8.rect t)).set ↔ _
  rw [View.set_slice_whole, Rect.mem_set_unit]
  exact Iff.rfl

/-- Every entry of output 8's array is in some point's block: row `r` in the block of point `r / 2000`. -/
theorem covered8_8 (i : S50000x64.Idx) :
    ∃ t : Fin cfg8.N, (cfg8.win 8).flush t = true ∧ i ∈ ((cfg8.win 8).blk t).view.set := by
  have hi0 : (i 0).val < 50000 := (i 0).isLt
  have hi1 : (i 1).val < 64 := (i 1).isLt
  have hN : cfg8.N = 25 := N_8
  refine ⟨⟨(i 0).val / 2000, by rw [hN]; omega⟩, flush8_8 _, ?_⟩
  obtain ⟨e0r, e0c, e1r, e1c, e2r, e2c, e3r, e3c, e4r, e4c, e5r, e5c, e6r, e6c, e7r, e7c, e8r, e8c, e9r, e9c⟩ := idx_facts8 ⟨(i 0).val / 2000, by rw [hN]; omega⟩
  rw [mem_blk8_8]
  intro a
  match a with
  | ⟨0, _⟩ =>
    show win8_8.index _ (0 : Fin 2) * 2000 ≤ (i 0).val ∧ (i 0).val < win8_8.index _ (0 : Fin 2) * 2000 + 2000
    rw [e8r]; show (i 0).val / 2000 * 2000 ≤ (i 0).val ∧ (i 0).val < (i 0).val / 2000 * 2000 + 2000; omega
  | ⟨1, _⟩ =>
    show win8_8.index _ (1 : Fin 2) * 64 ≤ (i 1).val ∧ (i 1).val < win8_8.index _ (1 : Fin 2) * 64 + 64
    rw [e8c]; omega

/-- An entry of output 9's array is in point `t`'s block iff each coordinate is in the block's range on its axis. -/
theorem mem_blk8_9 (t : Fin cfg8.N) (i : S50000x64.Idx) :
    i ∈ ((cfg8.win 9).blk t).view.set ↔ ∀ a : Fin 2, win8_9.index t a * S2000x64.size a ≤ (i a).val
      ∧ (i a).val < win8_9.index t a * S2000x64.size a + S2000x64.size a := by
  show i ∈ ((View.whole main_v74_1).slice (win8_9.rect t)).set ↔ _
  rw [View.set_slice_whole, Rect.mem_set_unit]
  exact Iff.rfl

/-- Every entry of output 9's array is in some point's block: row `r` in the block of point `r / 2000`. -/
theorem covered8_9 (i : S50000x64.Idx) :
    ∃ t : Fin cfg8.N, (cfg8.win 9).flush t = true ∧ i ∈ ((cfg8.win 9).blk t).view.set := by
  have hi0 : (i 0).val < 50000 := (i 0).isLt
  have hi1 : (i 1).val < 64 := (i 1).isLt
  have hN : cfg8.N = 25 := N_8
  refine ⟨⟨(i 0).val / 2000, by rw [hN]; omega⟩, flush8_9 _, ?_⟩
  obtain ⟨e0r, e0c, e1r, e1c, e2r, e2c, e3r, e3c, e4r, e4c, e5r, e5c, e6r, e6c, e7r, e7c, e8r, e8c, e9r, e9c⟩ := idx_facts8 ⟨(i 0).val / 2000, by rw [hN]; omega⟩
  rw [mem_blk8_9]
  intro a
  match a with
  | ⟨0, _⟩ =>
    show win8_9.index _ (0 : Fin 2) * 2000 ≤ (i 0).val ∧ (i 0).val < win8_9.index _ (0 : Fin 2) * 2000 + 2000
    rw [e9r]; show (i 0).val / 2000 * 2000 ≤ (i 0).val ∧ (i 0).val < (i 0).val / 2000 * 2000 + 2000; omega
  | ⟨1, _⟩ =>
    show win8_9.index _ (1 : Fin 2) * 64 ≤ (i 1).val ∧ (i 1).val < win8_9.index _ (1 : Fin 2) * 64 + 64
    rw [e9c]; omega

/-- THE FIRST OUTPUT ARRAY AFTER THE REGION is `updX` of the eight arrays as the region finds them. -/
theorem arr8_8 (q : Fin cfg8.W → PosShare TreeShare) (c : Dev nD) :
    (dat8 (F := Ideal) V q c).arrAt 8 cfg8.N = updX (V c main_v59_0) (V c main_v59_1) (V c main_v71) (V c main_v60) (V c main_v11) (V c main_arg8) (V c main_v72) (V c main_v73) :=
  (dat8 (F := Ideal) V q c).arrAt_eq_of_cover 8 (updX (V c main_v59_0) (V c main_v59_1) (V c main_v71) (V c main_v60) (V c main_v11) (V c main_arg8) (V c main_v72) (V c main_v73))
    (fun t _ => flushed8_8_eq V q c t) covered8_8

/-- THE SECOND OUTPUT ARRAY AFTER THE REGION is `updY` of the same arrays. -/
theorem arr8_9 (q : Fin cfg8.W → PosShare TreeShare) (c : Dev nD) :
    (dat8 (F := Ideal) V q c).arrAt 9 cfg8.N = updY (V c main_v59_0) (V c main_v59_1) (V c main_v71) (V c main_v60) (V c main_v11) (V c main_arg8) (V c main_v72) (V c main_v73) :=
  (dat8 (F := Ideal) V q c).arrAt_eq_of_cover 9 (updY (V c main_v59_0) (V c main_v59_1) (V c main_v71) (V c main_v60) (V c main_v11) (V c main_arg8) (V c main_v72) (V c main_v73))
    (fun t _ => flushed8_9_eq V q c t) covered8_9

end Cert.KernelIdeal.Fr

end
-- ==== Proof.KI.Val10.lean ====
/-
  Region 10's value: the two arrays the update leaves.

  At grid point t the body reads block t (rows 2000 t … 2000 t + 1999) of the two states, of the two aggregates and of
  the scale column, and the whole residual weights and bias rows, and stores into block t of its two outputs the new
  first and second states of those rows. Each entry (r, j) of what is stored at point r / 2000 reads row r of the node
  arrays only, so it is one function of the eight arrays, entry by entry (`updX`, `updY`). The 25 blocks tile the
  50000 rows, so after the region each output array is that function everywhere.
-/
import proofs.«131582_j65292092834213_2_alg».proof.Proof.KI.R10
import proofs.«131582_j65292092834213_2_alg».proof.Proof.KI.Val2
import proofs.«131582_j65292092834213_2_alg».proof.Proof.LibColumnBroadcast
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open scoped BigOperators

/-! ## The residual product: which operand entries an output entry reads -/

/-- The left operand is read on its row axis at the output's row, -/
theorem dot10_lhs0 (j : S2000x64.Idx) (q : dot_S2000x64_S64x64_S2000x64_1_0_0_1_n_n.contr.Idx) :
    (dot_S2000x64_S64x64_S2000x64_1_0_0_1_n_n.lhsIdx j q 0).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
/-- and on its column axis at the contraction index; -/
theorem dot10_lhs1 (j : S2000x64.Idx) (q : dot_S2000x64_S64x64_S2000x64_1_0_0_1_n_n.contr.Idx) :
    (dot_S2000x64_S64x64_S2000x64_1_0_0_1_n_n.lhsIdx j q 1).val = (q ⟨0, by decide⟩).val :=
  dot_S2000x64_S64x64_S2000x64_1_0_0_1_n_n.lhsIdx_val_of_single rfl j q
/-- the right operand on its row axis at the contraction index, -/
theorem dot10_rhs0 (j : S2000x64.Idx) (q : dot_S2000x64_S64x64_S2000x64_1_0_0_1_n_n.contr.Idx) :
    (dot_S2000x64_S64x64_S2000x64_1_0_0_1_n_n.rhsIdx j q 0).val = (q ⟨0, by decide⟩).val :=
  dot_S2000x64_S64x64_S2000x64_1_0_0_1_n_n.rhsIdx_val_of_single rfl j q
/-- and on its column axis at the output's column. -/
theorem dot10_rhs1 (j : S2000x64.Idx) (q : dot_S2000x64_S64x64_S2000x64_1_0_0_1_n_n.contr.Idx) :
    (dot_S2000x64_S64x64_S2000x64_1_0_0_1_n_n.rhsIdx j q 1).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- A bias row broadcast down the 2000 rows reads, at `(p, j)`, the row's entry `j`. -/
theorem row10_apply (v : Vec Ideal S1x64 .f32) (h1 : S1x64.ShapeCasts S1x64) (h2 : S1x64.Broadcasts S2000x64) (p : Fin 2000) (j : Fin 64) :
    broadcastTo S2000x64 (shapeCast S1x64 v h1) h2 (ix2 p j) = v (ix2 0 j) := by
  refine (broadcastTo_apply _ _ (ix2 p j) (ix2 0 j) ?_).trans ?_
  · intro a
    match a with
    | ⟨0, _⟩ => show (0 : ℕ) = if (1 : ℕ) = 1 then 0 else _; rw [if_pos rfl]
    | ⟨1, _⟩ => show j.val = if (64 : ℕ) = 1 then 0 else j.val; rw [if_neg (by decide)]
  · exact congrFun (shapeCast_self v _) _

/-! ## The body's payloads at an entry -/

/-- THE INCREMENT AT AN ENTRY. Row `p`, column `j` of the increment the body forms: the scale of row `p` times the sum of
    the two aggregates there, plus one bias; plus row `p` of the first state times column `j` of the residual weights —
    the sum over the 64 features — plus the other bias; the maximum of that with the zero word, less the unit word times
    each state there, times the unit word. (On the extended reals the changes of format are the identity, and the
    product accumulates into zero.) -/
theorem pay10_5_apply (x0 x1 x2 : Vec Ideal S2000x64 .f32) (x3 : Vec Ideal S2000x64 .bf16) (x4 : Vec Ideal S2000x1 .f32)
    (x5 : Vec Ideal S64x64 .f32) (x6 x7 : Vec Ideal S1x64 .f32) (p : Fin 2000) (j : Fin 64) :
    k10_pay5 (F := Ideal) x0 x1 x2 x3 x4 x5 x6 x7 (ix2 p j) = Ideal.ofBits .f32 0x3F800000#32 * ((max (((x4 (ix2 p 0) * (x2 (ix2 p j) + (x3 (ix2 p j) : EReal))) + x7 (ix2 0 j)) + ((∑ k : Fin 64, x0 (ix2 p k) * x5 (ix2 k j)) + x6 (ix2 0 j))) (Ideal.ofBits .f32 0x00000000#32) - Ideal.ofBits .f32 0x3F800000#32 * x1 (ix2 p j)) - Ideal.ofBits .f32 0x3F800000#32 * x0 (ix2 p j)) := by
  unfold k10_pay5 k10_pay3 k10_pay4
  refine (mulf_apply _ _ (ix2 p j)).trans ?_
  refine congrArg₂ (· * ·) rfl ?_
  refine (subf_apply _ _ (ix2 p j)).trans ?_
  refine congrArg₂ (· - ·) ?_ ?_
  · refine (subf_apply _ _ (ix2 p j)).trans ?_
    refine congrArg₂ (· - ·) ?_ ?_
    · refine (maximumf_apply _ _ (ix2 p j)).trans ?_
      refine congrArg₂ max ?_ rfl
      refine (addf_apply _ _ (ix2 p j)).trans ?_
      refine congrArg₂ (· + ·) ?_ ?_
      · refine (addf_apply _ _ (ix2 p j)).trans ?_
        refine congrArg₂ (· + ·) ?_ (row10_apply x7 _ _ p j)
        refine (mulf_apply _ _ (ix2 p j)).trans ?_
        refine congrArg₂ (· * ·) ?_ ?_
        · refine (broadcastTo_a1_ab_apply (a := 2000) (b := 64) _ _ p j).trans ?_
          exact (congrFun (shapeCast_self _ _) _).trans (congrFun (shapeCast_self x4 _) _)
        · refine (addf_apply _ _ (ix2 p j)).trans ?_
          exact congrArg₂ (· + ·) (congrFun (shapeCast_self x2 _) _) (congrFun (shapeCast_self x3 _) _)
      · refine (addf_apply _ _ (ix2 p j)).trans ?_
        refine congrArg₂ (· + ·) ?_ (row10_apply x6 _ _ p j)
        refine (Ideal.matmul_constant_zero_apply dot_S2000x64_S64x64_S2000x64_1_0_0_1_n_n none _ _ (ix2 p j)).trans ?_
        rw [← Equiv.sum_comp (contrEquiv1 dot_S2000x64_S64x64_S2000x64_1_0_0_1_n_n 64 rfl rfl).symm]
        refine Finset.sum_congr rfl fun k _ => ?_
        have hk := contrEquiv1_symm_val dot_S2000x64_S64x64_S2000x64_1_0_0_1_n_n 64 rfl rfl k
        refine congrArg₂ (· * ·) ?_ ?_
        · refine (congrFun (shapeCast_self x0 _) _).trans ?_
          refine congrArg x0 (funext fun a => Fin.ext ?_)
          match a with
          | ⟨0, _⟩ => exact dot10_lhs0 _ _
          | ⟨1, _⟩ => exact (dot10_lhs1 _ _).trans hk
        · refine congrArg x5 (funext fun a => Fin.ext ?_)
          match a with
          | ⟨0, _⟩ => exact (dot10_rhs0 _ _).trans hk
          | ⟨1, _⟩ => exact dot10_rhs1 _ _
    · refine (mulf_apply _ _ (ix2 p j)).trans ?_
      exact congrArg₂ (· * ·) rfl (congrFun (shapeCast_self x1 _) _)
  · refine (mulf_apply _ _ (ix2 p j)).trans ?_
    exact congrArg₂ (· * ·) rfl (congrFun (shapeCast_self x0 _) _)

/-- WHAT IS STORED INTO THE SECOND OUTPUT at `(p, j)`: the second state there plus the increment. -/
theorem pay10_Y_apply (x0 x1 x2 : Vec Ideal S2000x64 .f32) (x3 : Vec Ideal S2000x64 .bf16) (x4 : Vec Ideal S2000x1 .f32)
    (x5 : Vec Ideal S64x64 .f32) (x6 x7 : Vec Ideal S1x64 .f32) (p : Fin 2000) (j : Fin 64) :
    k10_pay1 (F := Ideal) (k10_pay4 x1) (k10_pay5 x0 x1 x2 x3 x4 x5 x6 x7) (ix2 p j)
      = x1 (ix2 p j) + Ideal.ofBits .f32 0x3F800000#32 * ((max (((x4 (ix2 p 0) * (x2 (ix2 p j) + (x3 (ix2 p j) : EReal))) + x7 (ix2 0 j)) + ((∑ k : Fin 64, x0 (ix2 p k) * x5 (ix2 k j)) + x6 (ix2 0 j))) (Ideal.ofBits .f32 0x00000000#32) - Ideal.ofBits .f32 0x3F800000#32 * x1 (ix2 p j)) - Ideal.ofBits .f32 0x3F800000#32 * x0 (ix2 p j)) := by
  unfold k10_pay1
  refine (addf_apply _ _ (ix2 p j)).trans ?_
  refine congrArg₂ (· + ·) ?_ (pay10_5_apply x0 x1 x2 x3 x4 x5 x6 x7 p j)
  unfold k10_pay4
  exact congrFun (shapeCast_self x1 _) _

/-- WHAT IS STORED INTO THE FIRST OUTPUT at `(p, j)`: the first state there plus the unit word times what is stored
    into the second output there. -/
theorem pay10_X_apply (x0 x1 x2 : Vec Ideal S2000x64 .f32) (x3 : Vec Ideal S2000x64 .bf16) (x4 : Vec Ideal S2000x1 .f32)
    (x5 : Vec Ideal S64x64 .f32) (x6 x7 : Vec Ideal S1x64 .f32) (p : Fin 2000) (j : Fin 64) :
    k10_pay2 (F := Ideal) (k10_pay3 x0) (k10_pay4 x1) (k10_pay5 x0 x1 x2 x3 x4 x5 x6 x7) (ix2 p j)
      = x0 (ix2 p j) + Ideal.ofBits .f32 0x3F800000#32 * (x1 (ix2 p j) + Ideal.ofBits .f32 0x3F800000#32 * ((max (((x4 (ix2 p 0) * (x2 (ix2 p j) + (x3 (ix2 p j) : EReal))) + x7 (ix2 0 j)) + ((∑ k : Fin 64, x0 (ix2 p k) * x5 (ix2 k j)) + x6 (ix2 0 j))) (Ideal.ofBits .f32 0x00000000#32) - Ideal.ofBits .f32 0x3F800000#32 * x1 (ix2 p j)) - Ideal.ofBits .f32 0x3F800000#32 * x0 (ix2 p j))) := by
  unfold k10_pay2
  refine (addf_apply _ _ (ix2 p j)).trans ?_
  refine congrArg₂ (· + ·) ?_ ?_
  · unfold k10_pay3
    exact congrFun (shapeCast_self x0 _) _
  · refine (mulf_apply _ _ (ix2 p j)).trans ?_
    exact congrArg₂ (· * ·) rfl (pay10_Y_apply x0 x1 x2 x3 x4 x5 x6 x7 p j)

/-! ## From a block's entries to the arrays' -/

/-- When every block entry the payload reads at `(p, j)` is the arrays' entry of row `r`, what is stored into the second
    output at `(p, j)` is `updY` of the arrays at `(r, j)`, -/
theorem blockY10 (X Y A : Vec Ideal S50000x64 .f32) (H : Vec Ideal S50000x64 .bf16) (dinv : Vec Ideal S50000x1 .f32)
    (Wr : Vec Ideal S64x64 .f32) (rb cb : Vec Ideal S1x64 .f32)
    (x0 x1 x2 : Vec Ideal S2000x64 .f32) (x3 : Vec Ideal S2000x64 .bf16) (x4 : Vec Ideal S2000x1 .f32)
    (x5 : Vec Ideal S64x64 .f32) (x6 x7 : Vec Ideal S1x64 .f32) (r : Fin 50000) (p : Fin 2000) (j : Fin 64)
    (h0 : ∀ k : Fin 64, x0 (ix2 p k) = X (ix2 r k)) (h1 : x1 (ix2 p j) = Y (ix2 r j)) (h2 : x2 (ix2 p j) = A (ix2 r j))
    (h3 : x3 (ix2 p j) = H (ix2 r j)) (h4 : x4 (ix2 p 0) = dinv (ix2 r 0)) (h5 : ∀ k : Fin 64, x5 (ix2 k j) = Wr (ix2 k j))
    (h6 : x6 (ix2 0 j) = rb (ix2 0 j)) (h7 : x7 (ix2 0 j) = cb (ix2 0 j)) :
    k10_pay1 (F := Ideal) (k10_pay4 x1) (k10_pay5 x0 x1 x2 x3 x4 x5 x6 x7) (ix2 p j) = updY X Y A H dinv Wr rb cb (ix2 r j) := by
  rw [pay10_Y_apply, updY_apply]
  simp only [h0, h1, h2, h3, h4, h5, h6, h7]

/-- and what is stored into the first output there is `updX` of the arrays at `(r, j)`. -/
theorem blockX10 (X Y A : Vec Ideal S50000x64 .f32) (H : Vec Ideal S50000x64 .bf16) (dinv : Vec Ideal S50000x1 .f32)
    (Wr : Vec Ideal S64x64 .f32) (rb cb : Vec Ideal S1x64 .f32)
    (x0 x1 x2 : Vec Ideal S2000x64 .f32) (x3 : Vec Ideal S2000x64 .bf16) (x4 : Vec Ideal S2000x1 .f32)
    (x5 : Vec Ideal S64x64 .f32) (x6 x7 : Vec Ideal S1x64 .f32) (r : Fin 50000) (p : Fin 2000) (j : Fin 64)
    (h0 : ∀ k : Fin 64, x0 (ix2 p k) = X (ix2 r k)) (h1 : x1 (ix2 p j) = Y (ix2 r j)) (h2 : x2 (ix2 p j) = A (ix2 r j))
    (h3 : x3 (ix2 p j) = H (ix2 r j)) (h4 : x4 (ix2 p 0) = dinv (ix2 r 0)) (h5 : ∀ k : Fin 64, x5 (ix2 k j) = Wr (ix2 k j))
    (h6 : x6 (ix2 0 j) = rb (ix2 0 j)) (h7 : x7 (ix2 0 j) = cb (ix2 0 j)) :
    k10_pay2 (F := Ideal) (k10_pay3 x0) (k10_pay4 x1) (k10_pay5 x0 x1 x2 x3 x4 x5 x6 x7) (ix2 p j) = updX X Y A H dinv Wr rb cb (ix2 r j) := by
  rw [pay10_X_apply, updX_apply, updY_apply]
  simp only [h0, h1, h2, h3, h4, h5, h6, h7]

/-! ## The arrays after the region -/

variable (V : (c : Dev nD) → (b : Ref sig .tc) → Buf (Elt Ideal) ((c : Thread nD τ).loc b))

/-- The zero offsets of a whole-block access, however spelt. -/
theorem hz10 : (![0, 0] : Fin 2 → Nat) = fun _ => 0 := funext fun a => by fin_cases a <;> rfl

/-- Where each window's block sits at each grid point: the node arrays' blocks (the states, the aggregates, the scale
    column, the two outputs) at block row `t`, the residual weights and the bias rows always at their one block. Decided
    over the 25 points. -/
theorem idx_facts10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0
    ∧ win10_4.index t (0 : Fin 2) = t.val ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = 0 ∧ win10_7.index t (1 : Fin 2) = 0
    ∧ win10_8.index t (0 : Fin 2) = t.val ∧ win10_8.index t (1 : Fin 2) = 0
    ∧ win10_9.index t (0 : Fin 2) = t.val ∧ win10_9.index t (1 : Fin 2) = 0 :=
  (by decide +kernel : ∀ t : Fin grid10.N, _)

/-- WHAT THE INPUT BLOCKS HOLD at point `t`: entry `(p, ·)` of a node array's block is the array's entry of row
    `2000 t + p`; the residual weights' and the bias rows' one block is the whole array. -/
theorem reads10 (c : Dev nD) (t : Fin cfg10.N) (p : Fin 2000) (j : Fin 64) (r : Fin 50000) (hr : r.val = 2000 * t.val + p.val) :
    (∀ k : Fin 64, (iblk10 V c 0 t : Vec Ideal S2000x64 .f32) (ix2 p k) = (V c main_v74_0 : Vec Ideal S50000x64 .f32) (ix2 r k))
    ∧ (iblk10 V c 1 t : Vec Ideal S2000x64 .f32) (ix2 p j) = (V c main_v74_1 : Vec Ideal S50000x64 .f32) (ix2 r j)
    ∧ (iblk10 V c 2 t : Vec Ideal S2000x64 .f32) (ix2 p j) = (V c main_v86 : Vec Ideal S50000x64 .f32) (ix2 r j)
    ∧ (iblk10 V c 3 t : Vec Ideal S2000x64 .bf16) (ix2 p j) = (V c main_v75 : Vec Ideal S50000x64 .bf16) (ix2 r j)
    ∧ (iblk10 V c 4 t : Vec Ideal S2000x1 .f32) (ix2 p 0) = (V c main_v11 : Vec Ideal S50000x1 .f32) (ix2 r 0)
    ∧ (∀ k : Fin 64, (iblk10 V c 5 t : Vec Ideal S64x64 .f32) (ix2 k j) = (V c main_arg8 : Vec Ideal S64x64 .f32) (ix2 k j))
    ∧ (iblk10 V c 6 t : Vec Ideal S1x64 .f32) (ix2 0 j) = (V c main_v87 : Vec Ideal S1x64 .f32) (ix2 0 j)
    ∧ (iblk10 V c 7 t : Vec Ideal S1x64 .f32) (ix2 0 j) = (V c main_v88 : Vec Ideal S1x64 .f32) (ix2 0 j) := by
  obtain ⟨e0r, e0c, e1r, e1c, e2r, e2c, e3r, e3c, e4r, e4c, e5r, e5c, e6r, e6c, e7r, e7c, e8r, e8c, e9r, e9c⟩ := idx_facts10 t
  refine ⟨?_, ?_, ?_, ?_, ?_, ?_, ?_, ?_⟩
  · intro k
    show V c main_v74_0 (((cfg10.win 0).blk t).view.emb (ix2 p k)) = V c main_v74_0 _
    refine congrArg _ (funext fun a => Fin.ext ?_)
    match a with
    | ⟨0, _⟩ => show win10_0.index t (0 : Fin 2) * 2000 + 1 * p.val = r.val; rw [e0r]; omega
    | ⟨1, _⟩ => show win10_0.index t (1 : Fin 2) * 64 + 1 * k.val = k.val; rw [e0c]; omega
  · show V c main_v74_1 (((cfg10.win 1).blk t).view.emb (ix2 p j)) = V c main_v74_1 _
    refine congrArg _ (funext fun a => Fin.ext ?_)
    match a with
    | ⟨0, _⟩ => show win10_1.index t (0 : Fin 2) * 2000 + 1 * p.val = r.val; rw [e1r]; omega
    | ⟨1, _⟩ => show win10_1.index t (1 : Fin 2) * 64 + 1 * j.val = j.val; rw [e1c]; omega
  · show V c main_v86 (((cfg10.win 2).blk t).view.emb (ix2 p j)) = V c main_v86 _
    refine congrArg _ (funext fun a => Fin.ext ?_)
    match a with
    | ⟨0, _⟩ => show win10_2.index t (0 : Fin 2) * 2000 + 1 * p.val = r.val; rw [e2r]; omega
    | ⟨1, _⟩ => show win10_2.index t (1 : Fin 2) * 64 + 1 * j.val = j.val; rw [e2c]; omega
  · show V c main_v75 (((cfg10.win 3).blk t).view.emb (ix2 p j)) = V c main_v75 _
    refine congrArg _ (funext fun a => Fin.ext ?_)
    match a with
    | ⟨0, _⟩ => show win10_3.index t (0 : Fin 2) * 2000 + 1 * p.val = r.val; rw [e3r]; omega
    | ⟨1, _⟩ => show win10_3.index t (1 : Fin 2) * 64 + 1 * j.val = j.val; rw [e3c]; omega
  · show V c main_v11 (((cfg10.win 4).blk t).view.emb (ix2 p 0)) = V c main_v11 _
    refine congrArg _ (funext fun a => Fin.ext ?_)
    match a with
    | ⟨0, _⟩ => show win10_4.index t (0 : Fin 2) * 2000 + 1 * p.val = r.val; rw [e4r]; omega
    | ⟨1, _⟩ => show win10_4.index t (1 : Fin 2) * 1 + 1 * 0 = 0; rw [e4c]
  · intro k
    show V c main_arg8 (((cfg10.win 5).blk t).view.emb (ix2 k j)) = V c main_arg8 _
    refine congrArg _ (funext fun a => Fin.ext ?_)
    match a with
    | ⟨0, _⟩ => show win10_5.index t (0 : Fin 2) * 64 + 1 * k.val = k.val; rw [e5r]; omega
    | ⟨1, _⟩ => show win10_5.index t (1 : Fin 2) * 64 + 1 * j.val = j.val; rw [e5c]; omega
  · show V c main_v87 (((cfg10.win 6).blk t).view.emb (ix2 0 j)) = V c main_v87 _
    refine congrArg _ (funext fun a => Fin.ext ?_)
    match a with
    | ⟨0, _⟩ => show win10_6.index t (0 : Fin 2) * 1 + 1 * 0 = 0; rw [e6r]
    | ⟨1, _⟩ => show win10_6.index t (1 : Fin 2) * 64 + 1 * j.val = j.val; rw [e6c]; omega
  · show V c main_v88 (((cfg10.win 7).blk t).view.emb (ix2 0 j)) = V c main_v88 _
    refine congrArg _ (funext fun a => Fin.ext ?_)
    match a with
    | ⟨0, _⟩ => show win10_7.index t (0 : Fin 2) * 1 + 1 * 0 = 0; rw [e7r]
    | ⟨1, _⟩ => show win10_7.index t (1 : Fin 2) * 64 + 1 * j.val = j.val; rw [e7c]; omega

/-- WHAT POINT `t` WRITES BACK THROUGH WINDOW 8 is block `t` of `updX` of the eight arrays as the region finds them. -/
theorem flushed10_8_eq (q : Fin cfg10.W → PosShare TreeShare) (c : Dev nD) (t : Fin cfg10.N) :
    (dat10 (F := Ideal) V q c).flushed 8 t
      = ((cfg10.win 8).blk t).view.read (Elt Ideal) (updX (V c main_v74_0) (V c main_v74_1) (V c main_v86) (V c main_v75) (V c main_v11) (V c main_arg8) (V c main_v87) (V c main_v88)) := by
  show (cfg10.win 8).cut (grid10.coords t) ((dat10 V q c).after 8 t) = _
  rw [after10_8]
  unfold out10_8
  rw [View.canon_unit_zero hz10]
  simp only [View.ld_unit_zero (S := S2000x64) hz10, View.ld_unit_zero (S := S2000x1) hz10, View.ld_unit_zero (S := S64x64) hz10, View.ld_unit_zero (S := S1x64) hz10]
  obtain ⟨e0r, e0c, e1r, e1c, e2r, e2c, e3r, e3c, e4r, e4c, e5r, e5c, e6r, e6c, e7r, e7c, e8r, e8c, e9r, e9c⟩ := idx_facts10 t
  funext y
  obtain ⟨p, j, rfl⟩ : ∃ (p : Fin 2000) (j : Fin 64), y = ix2 p j := ⟨y 0, y 1, eq_ix2 y⟩
  have hr : 2000 * t.val + p.val < 50000 := by
    have ht : t.val < 25 := lt_of_lt_of_eq t.isLt N_10
    have := p.isLt
    omega
  obtain ⟨h0, h1, h2, h3, h4, h5, h6, h7⟩ := reads10 V c t p j ⟨2000 * t.val + p.val, hr⟩ rfl
  have hrow : (((cfg10.win 8).blk t).view.emb (ix2 p j) : S50000x64.Idx) = ix2 (⟨2000 * t.val + p.val, hr⟩ : Fin 50000) j := by
    funext a; apply Fin.ext
    match a with
    | ⟨0, _⟩ => show win10_8.index t (0 : Fin 2) * 2000 + 1 * p.val = 2000 * t.val + p.val; rw [e8r]; omega
    | ⟨1, _⟩ => show win10_8.index t (1 : Fin 2) * 64 + 1 * j.val = j.val; rw [e8c]; omega
  show k10_pay2 (F := Ideal) (k10_pay3 (iblk10 V c 0 t)) (k10_pay4 (iblk10 V c 1 t)) (k10_pay5 (iblk10 V c 0 t) (iblk10 V c 1 t) (iblk10 V c 2 t) (iblk10 V c 3 t) (iblk10 V c 4 t) (iblk10 V c 5 t) (iblk10 V c 6 t) (iblk10 V c 7 t)) (ix2 p j)
    = updX (V c main_v74_0) (V c main_v74_1) (V c main_v86) (V c main_v75) (V c main_v11) (V c main_arg8) (V c main_v87) (V c main_v88) (((cfg10.win 8).blk t).view.emb (ix2 p j))
  rw [hrow]
  exact blockX10 _ _ _ _ _ _ _ _ _ _ _ _ _ _ _ _ _ p j h0 h1 h2 h3 h4 h5 h6 h7

/-- WHAT POINT `t` WRITES BACK THROUGH WINDOW 9 is block `t` of `updY` of the eight arrays as the region finds them. -/
theorem flushed10_9_eq (q : Fin cfg10.W → PosShare TreeShare) (c : Dev nD) (t : Fin cfg10.N) :
    (dat10 (F := Ideal) V q c).flushed 9 t
      = ((cfg10.win 9).blk t).view.read (Elt Ideal) (updY (V c main_v74_0) (V c main_v74_1) (V c main_v86) (V c main_v75) (V c main_v11) (V c main_arg8) (V c main_v87) (V c main_v88)) := by
  show (cfg10.win 9).cut (grid10.coords t) ((dat10 V q c).after 9 t) = _
  rw [after10_9]
  unfold out10_9
  rw [View.canon_unit_zero hz10]
  simp only [View.ld_unit_zero (S := S2000x64) hz10, View.ld_unit_zero (S := S2000x1) hz10, View.ld_unit_zero (S := S64x64) hz10, View.ld_unit_zero (S := S1x64) hz10]
  obtain ⟨e0r, e0c, e1r, e1c, e2r, e2c, e3r, e3c, e4r, e4c, e5r, e5c, e6r, e6c, e7r, e7c, e8r, e8c, e9r, e9c⟩ := idx_facts10 t
  funext y
  obtain ⟨p, j, rfl⟩ : ∃ (p : Fin 2000) (j : Fin 64), y = ix2 p j := ⟨y 0, y 1, eq_ix2 y⟩
  have hr : 2000 * t.val + p.val < 50000 := by
    have ht : t.val < 25 := lt_of_lt_of_eq t.isLt N_10
    have := p.isLt
    omega
  obtain ⟨h0, h1, h2, h3, h4, h5, h6, h7⟩ := reads10 V c t p j ⟨2000 * t.val + p.val, hr⟩ rfl
  have hrow : (((cfg10.win 9).blk t).view.emb (ix2 p j) : S50000x64.Idx) = ix2 (⟨2000 * t.val + p.val, hr⟩ : Fin 50000) j := by
    funext a; apply Fin.ext
    match a with
    | ⟨0, _⟩ => show win10_9.index t (0 : Fin 2) * 2000 + 1 * p.val = 2000 * t.val + p.val; rw [e9r]; omega
    | ⟨1, _⟩ => show win10_9.index t (1 : Fin 2) * 64 + 1 * j.val = j.val; rw [e9c]; omega
  show k10_pay1 (F := Ideal) (k10_pay4 (iblk10 V c 1 t)) (k10_pay5 (iblk10 V c 0 t) (iblk10 V c 1 t) (iblk10 V c 2 t) (iblk10 V c 3 t) (iblk10 V c 4 t) (iblk10 V c 5 t) (iblk10 V c 6 t) (iblk10 V c 7 t)) (ix2 p j)
    = updY (V c main_v74_0) (V c main_v74_1) (V c main_v86) (V c main_v75) (V c main_v11) (V c main_arg8) (V c main_v87) (V c main_v88) (((cfg10.win 9).blk t).view.emb (ix2 p j))
  rw [hrow]
  exact blockY10 _ _ _ _ _ _ _ _ _ _ _ _ _ _ _ _ _ p j h0 h1 h2 h3 h4 h5 h6 h7

/-- An entry of output 8's array is in point `t`'s block iff each coordinate is in the block's range on its axis. -/
theorem mem_blk10_8 (t : Fin cfg10.N) (i : S50000x64.Idx) :
    i ∈ ((cfg10.win 8).blk t).view.set ↔ ∀ a : Fin 2, win10_8.index t a * S2000x64.size a ≤ (i a).val
      ∧ (i a).val < win10_8.index t a * S2000x64.size a + S2000x64.size a := by
  show i ∈ ((View.whole main_v89_0).slice (win10_8.rect t)).set ↔ _
  rw [View.set_slice_whole, Rect.mem_set_unit]
  exact Iff.rfl

/-- Every entry of output 8's array is in some point's block: row `r` in the block of point `r / 2000`. -/
theorem covered10_8 (i : S50000x64.Idx) :
    ∃ t : Fin cfg10.N, (cfg10.win 8).flush t = true ∧ i ∈ ((cfg10.win 8).blk t).view.set := by
  have hi0 : (i 0).val < 50000 := (i 0).isLt
  have hi1 : (i 1).val < 64 := (i 1).isLt
  have hN : cfg10.N = 25 := N_10
  refine ⟨⟨(i 0).val / 2000, by rw [hN]; omega⟩, flush10_8 _, ?_⟩
  obtain ⟨e0r, e0c, e1r, e1c, e2r, e2c, e3r, e3c, e4r, e4c, e5r, e5c, e6r, e6c, e7r, e7c, e8r, e8c, e9r, e9c⟩ := idx_facts10 ⟨(i 0).val / 2000, by rw [hN]; omega⟩
  rw [mem_blk10_8]
  intro a
  match a with
  | ⟨0, _⟩ =>
    show win10_8.index _ (0 : Fin 2) * 2000 ≤ (i 0).val ∧ (i 0).val < win10_8.index _ (0 : Fin 2) * 2000 + 2000
    rw [e8r]; show (i 0).val / 2000 * 2000 ≤ (i 0).val ∧ (i 0).val < (i 0).val / 2000 * 2000 + 2000; omega
  | ⟨1, _⟩ =>
    show win10_8.index _ (1 : Fin 2) * 64 ≤ (i 1).val ∧ (i 1).val < win10_8.index _ (1 : Fin 2) * 64 + 64
    rw [e8c]; omega

/-- An entry of output 9's array is in point `t`'s block iff each coordinate is in the block's range on its axis. -/
theorem mem_blk10_9 (t : Fin cfg10.N) (i : S50000x64.Idx) :
    i ∈ ((cfg10.win 9).blk t).view.set ↔ ∀ a : Fin 2, win10_9.index t a * S2000x64.size a ≤ (i a).val
      ∧ (i a).val < win10_9.index t a * S2000x64.size a + S2000x64.size a := by
  show i ∈ ((View.whole main_v89_1).slice (win10_9.rect t)).set ↔ _
  rw [View.set_slice_whole, Rect.mem_set_unit]
  exact Iff.rfl

/-- Every entry of output 9's array is in some point's block: row `r` in the block of point `r / 2000`. -/
theorem covered10_9 (i : S50000x64.Idx) :
    ∃ t : Fin cfg10.N, (cfg10.win 9).flush t = true ∧ i ∈ ((cfg10.win 9).blk t).view.set := by
  have hi0 : (i 0).val < 50000 := (i 0).isLt
  have hi1 : (i 1).val < 64 := (i 1).isLt
  have hN : cfg10.N = 25 := N_10
  refine ⟨⟨(i 0).val / 2000, by rw [hN]; omega⟩, flush10_9 _, ?_⟩
  obtain ⟨e0r, e0c, e1r, e1c, e2r, e2c, e3r, e3c, e4r, e4c, e5r, e5c, e6r, e6c, e7r, e7c, e8r, e8c, e9r, e9c⟩ := idx_facts10 ⟨(i 0).val / 2000, by rw [hN]; omega⟩
  rw [mem_blk10_9]
  intro a
  match a with
  | ⟨0, _⟩ =>
    show win10_9.index _ (0 : Fin 2) * 2000 ≤ (i 0).val ∧ (i 0).val < win10_9.index _ (0 : Fin 2) * 2000 + 2000
    rw [e9r]; show (i 0).val / 2000 * 2000 ≤ (i 0).val ∧ (i 0).val < (i 0).val / 2000 * 2000 + 2000; omega
  | ⟨1, _⟩ =>
    show win10_9.index _ (1 : Fin 2) * 64 ≤ (i 1).val ∧ (i 1).val < win10_9.index _ (1 : Fin 2) * 64 + 64
    rw [e9c]; omega

/-- THE FIRST OUTPUT ARRAY AFTER THE REGION is `updX` of the eight arrays as the region finds them. -/
theorem arr10_8 (q : Fin cfg10.W → PosShare TreeShare) (c : Dev nD) :
    (dat10 (F := Ideal) V q c).arrAt 8 cfg10.N = updX (V c main_v74_0) (V c main_v74_1) (V c main_v86) (V c main_v75) (V c main_v11) (V c main_arg8) (V c main_v87) (V c main_v88) :=
  (dat10 (F := Ideal) V q c).arrAt_eq_of_cover 8 (updX (V c main_v74_0) (V c main_v74_1) (V c main_v86) (V c main_v75) (V c main_v11) (V c main_arg8) (V c main_v87) (V c main_v88))
    (fun t _ => flushed10_8_eq V q c t) covered10_8

/-- THE SECOND OUTPUT ARRAY AFTER THE REGION is `updY` of the same arrays. -/
theorem arr10_9 (q : Fin cfg10.W → PosShare TreeShare) (c : Dev nD) :
    (dat10 (F := Ideal) V q c).arrAt 9 cfg10.N = updY (V c main_v74_0) (V c main_v74_1) (V c main_v86) (V c main_v75) (V c main_v11) (V c main_arg8) (V c main_v87) (V c main_v88) :=
  (dat10 (F := Ideal) V q c).arrAt_eq_of_cover 9 (updY (V c main_v74_0) (V c main_v74_1) (V c main_v86) (V c main_v75) (V c main_v11) (V c main_arg8) (V c main_v87) (V c main_v88))
    (fun t _ => flushed10_9_eq V q c t) covered10_9

end Cert.KernelIdeal.Fr

end
-- ==== Proof.KI.KVal.lean ====
/-
  What each buffer the kernel program computes holds at the boundary after it is computed, as a pure function of the
  argument arrays at launch: the host stretches' operations composed, each region's output array in closed form, each
  operand traced back through the items that do not write it. The last one is the result.
-/
import proofs.«131582_j65292092834213_2_alg».proof.Proof.Gen.KernelIdeal.Launch
import proofs.«131582_j65292092834213_2_alg».proof.Proof.Gen.KernelIdeal.Skeleton
import proofs.«131582_j65292092834213_2_alg».proof.Proof.Gen.KernelIdeal.Points
import proofs.«131582_j65292092834213_2_alg».proof.Proof.KI.Wdefs
import proofs.«131582_j65292092834213_2_alg».proof.Proof.KI.HostRead
import proofs.«131582_j65292092834213_2_alg».proof.Proof.KI.Val1
import proofs.«131582_j65292092834213_2_alg».proof.Proof.KI.Val3
import proofs.«131582_j65292092834213_2_alg».proof.Proof.KI.Val5
import proofs.«131582_j65292092834213_2_alg».proof.Proof.KI.Val7
import proofs.«131582_j65292092834213_2_alg».proof.Proof.KI.Val9
import proofs.«131582_j65292092834213_2_alg».proof.Proof.KI.Val4
import proofs.«131582_j65292092834213_2_alg».proof.Proof.KI.Val6
import proofs.«131582_j65292092834213_2_alg».proof.Proof.KI.Val8
import proofs.«131582_j65292092834213_2_alg».proof.Proof.KI.Val10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Bridge Cert.ReferenceIdeal.RefValue

variable (m : (ℓ : Loc nD τ sig) → Buf (Elt Ideal) ℓ) (ρ : Dev nD → PrngReg)

/-- An argument array's launch contents on core `c`. -/
abbrev argv (c : Dev nD) (r : Ref sig .tc) : Buf (Elt Ideal) ((c : Thread nD τ).loc r) := m ((c : Thread nD τ).loc r)

/-- The node states after `n` layers, on core `c`'s argument arrays. -/
abbrev kX (c : Dev nD) (n : Nat) := (kState (argv m c main_arg0) (argv m c main_arg1) (argv m c main_arg2) (argv m c main_arg4) (argv m c main_arg5) (argv m c main_arg6) (argv m c main_arg7) (argv m c main_arg8) (argv m c main_arg9) n).1
abbrev kY (c : Dev nD) (n : Nat) := (kState (argv m c main_arg0) (argv m c main_arg1) (argv m c main_arg2) (argv m c main_arg4) (argv m c main_arg5) (argv m c main_arg6) (argv m c main_arg7) (argv m c main_arg8) (argv m c main_arg9) n).2

theorem val_arg0 (c : Dev nD) : W0 m ρ c (Proc.devRef .tc main_arg0) = (argv m c main_arg0) := rfl
theorem val_arg1 (c : Dev nD) : W0 m ρ c (Proc.devRef .tc main_arg1) = (argv m c main_arg1) := rfl
theorem val_arg2 (c : Dev nD) : W0 m ρ c (Proc.devRef .tc main_arg2) = (argv m c main_arg2) := rfl
theorem val_arg3 (c : Dev nD) : W0 m ρ c (Proc.devRef .tc main_arg3) = (argv m c main_arg3) := rfl
theorem val_arg4 (c : Dev nD) : W0 m ρ c (Proc.devRef .tc main_arg4) = (argv m c main_arg4) := rfl
theorem val_arg5 (c : Dev nD) : W0 m ρ c (Proc.devRef .tc main_arg5) = (argv m c main_arg5) := rfl
theorem val_arg6 (c : Dev nD) : W0 m ρ c (Proc.devRef .tc main_arg6) = (argv m c main_arg6) := rfl
theorem val_arg7 (c : Dev nD) : W0 m ρ c (Proc.devRef .tc main_arg7) = (argv m c main_arg7) := rfl
theorem val_arg8 (c : Dev nD) : W0 m ρ c (Proc.devRef .tc main_arg8) = (argv m c main_arg8) := rfl
theorem val_arg9 (c : Dev nD) : W0 m ρ c (Proc.devRef .tc main_arg9) = (argv m c main_arg9) := rfl
theorem val_arg10 (c : Dev nD) : W0 m ρ c (Proc.devRef .tc main_arg10) = (argv m c main_arg10) := rfl
theorem val_arg11 (c : Dev nD) : W0 m ρ c (Proc.devRef .tc main_arg11) = (argv m c main_arg11) := rfl
theorem val_v1 (c : Dev nD) : W1 m ρ c (Proc.devRef .tc main_v1) = srcT (argv m c main_arg2) := by
  show StableHlo.after hostOps0 (W0 m ρ c) (Proc.devRef .tc main_v1) = _
  after_results; rfl
theorem val_v3 (c : Dev nD) : W1 m ρ c (Proc.devRef .tc main_v3) = dstT (argv m c main_arg2) := by
  show StableHlo.after hostOps0 (W0 m ρ c) (Proc.devRef .tc main_v3) = _
  after_results; rfl
theorem val_v11 (c : Dev nD) : W1 m ρ c (Proc.devRef .tc main_v11) = dinv2T (argv m c main_arg2) := by
  show StableHlo.after hostOps0 (W0 m ρ c) (Proc.devRef .tc main_v11) = _
  after_results; rfl
theorem val_v12 (c : Dev nD) : W1 m ρ c (Proc.devRef .tc main_v12) = inpT (argv m c main_arg0) (argv m c main_arg1) := by
  show StableHlo.after hostOps0 (W0 m ρ c) (Proc.devRef .tc main_v12) = _
  after_results; rfl
theorem val_v13 (c : Dev nD) : W1 m ρ c (Proc.devRef .tc main_v13) = rowT (argv m c main_arg5) := by
  show StableHlo.after hostOps0 (W0 m ρ c) (Proc.devRef .tc main_v13) = _
  after_results; rfl
theorem keep_arg4_0_1 (c : Dev nD) : W1 m ρ c (Proc.devRef .tc main_arg4) = W0 m ρ c (Proc.devRef .tc main_arg4) :=
  calc W1 m ρ c (Proc.devRef .tc main_arg4)
    _ = W0 m ρ c (Proc.devRef .tc main_arg4) := StableHlo.after_of_writes_sub hostOps0 _ hostOps0_writes (by decide : main_arg4 ∉ hostOps0_W)

theorem val_v14 (c : Dev nD) : W2 m ρ c (Proc.devRef .tc main_v14) = (kX m c 0) := by
  have h1 : Vw1 m ρ c main_v12 = inpT (argv m c main_arg0) (argv m c main_arg1) := (val_v12 m ρ c)
  have h2 : Vw1 m ρ c main_arg4 = (argv m c main_arg4) := ((keep_arg4_0_1 m ρ c).trans (val_arg4 m ρ c))
  have h3 : Vw1 m ρ c main_v13 = rowT (argv m c main_arg5) := (val_v13 m ρ c)
  exact (W2_arr m ρ c 3).trans ((arr0_3 (Vw1 m ρ) c).trans (by rw [h1, h2, h3]; rfl))
theorem keep_arg6_0_2 (c : Dev nD) : W2 m ρ c (Proc.devRef .tc main_arg6) = W0 m ρ c (Proc.devRef .tc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)

theorem keep_v11_1_2 (c : Dev nD) : W2 m ρ c (Proc.devRef .tc main_v11) = W1 m ρ c (Proc.devRef .tc main_v11) :=
  calc W2 m ρ c (Proc.devRef .tc main_v11)
    _ = W1 m ρ c (Proc.devRef .tc main_v11) := W2_of_ne m ρ c main_v11 (by decide)

theorem val_v15 (c : Dev nD) : W3 m ρ c (Proc.devRef .tc main_v15) = (hwsG (kX m c 0) (argv m c main_arg6) (dinv2T (argv m c main_arg2))) := by
  have h1 : Vw2 m ρ c main_v14 = (kX m c 0) := (val_v14 m ρ c)
  have h2 : Vw2 m ρ c main_arg6 = (argv m c main_arg6) := ((keep_arg6_0_2 m ρ c).trans (val_arg6 m ρ c))
  have h3 : Vw2 m ρ c main_v11 = dinv2T (argv m c main_arg2) := ((keep_v11_1_2 m ρ c).trans (val_v11 m ρ c))
  exact (W3_arr m ρ c 3).trans ((arr1_3 (Vw2 m ρ) c).trans (by rw [h1, h2, h3]))
theorem keep_v1_1_3 (c : Dev nD) : W3 m ρ c (Proc.devRef .tc main_v1) = W1 m ρ c (Proc.devRef .tc main_v1) :=
  calc W3 m ρ c (Proc.devRef .tc main_v1)
    _ = W2 m ρ c (Proc.devRef .tc main_v1) := W3_of_ne m ρ c main_v1 (by decide)
    _ = W1 m ρ c (Proc.devRef .tc main_v1) := W2_of_ne m ρ c main_v1 (by decide)

theorem keep_v3_1_3 (c : Dev nD) : W3 m ρ c (Proc.devRef .tc main_v3) = W1 m ρ c (Proc.devRef .tc main_v3) :=
  calc W3 m ρ c (Proc.devRef .tc main_v3)
    _ = W2 m ρ c (Proc.devRef .tc main_v3) := W3_of_ne m ρ c main_v3 (by decide)
    _ = W1 m ρ c (Proc.devRef .tc main_v3) := W2_of_ne m ρ c main_v3 (by decide)

theorem keep_arg9_0_3 (c : Dev nD) : W3 m ρ c (Proc.devRef .tc main_arg9) = W0 m ρ c (Proc.devRef .tc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)

theorem keep_arg7_0_3 (c : Dev nD) : W3 m ρ c (Proc.devRef .tc main_arg7) = W0 m ρ c (Proc.devRef .tc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)

set_option maxHeartbeats 4000000 in
theorem val_v26 (c : Dev nD) : W4 m ρ c (Proc.devRef .tc main_v26) = (aggRawT (hwsG (kX m c 0) (argv m c main_arg6) (dinv2T (argv m c main_arg2))) (srcT (argv m c main_arg2)) (dstT (argv m c main_arg2))) := by
  have e : W4 m ρ c (Proc.devRef .tc main_v26) = aggRawT (W3 m ρ c (Proc.devRef .tc main_v15)) (W3 m ρ c (Proc.devRef .tc main_v1)) (W3 m ρ c (Proc.devRef .tc main_v3)) := by
    show StableHlo.after hostOps2 (W3 m ρ c) (Proc.devRef .tc main_v26) = _
    after_results; rfl
  rw [e, (val_v15 m ρ c), ((keep_v1_1_3 m ρ c).trans (val_v1 m ρ c)), ((keep_v3_1_3 m ρ c).trans (val_v3 m ρ c))]
set_option maxHeartbeats 4000000 in
theorem val_v27 (c : Dev nD) : W4 m ρ c (Proc.devRef .tc main_v27) = rowT (argv m c main_arg9) := by
  have e : W4 m ρ c (Proc.devRef .tc main_v27) = rowT (W3 m ρ c (Proc.devRef .tc main_arg9)) := by
    show StableHlo.after hostOps2 (W3 m ρ c) (Proc.devRef .tc main_v27) = _
    after_results; rfl
  rw [e, ((keep_arg9_0_3 m ρ c).trans (val_arg9 m ρ c))]
set_option maxHeartbeats 4000000 in
theorem val_v28 (c : Dev nD) : W4 m ρ c (Proc.devRef .tc main_v28) = rowT (argv m c main_arg7) := by
  have e : W4 m ρ c (Proc.devRef .tc main_v28) = rowT (W3 m ρ c (Proc.devRef .tc main_arg7)) := by
    show StableHlo.after hostOps2 (W3 m ρ c) (Proc.devRef .tc main_v28) = _
    after_results; rfl
  rw [e, ((keep_arg7_0_3 m ρ c).trans (val_arg7 m ρ c))]
theorem keep_v14_2_4 (c : Dev nD) : W4 m ρ c (Proc.devRef .tc main_v14) = W2 m ρ c (Proc.devRef .tc main_v14) :=
  calc W4 m ρ c (Proc.devRef .tc main_v14)
    _ = W3 m ρ c (Proc.devRef .tc main_v14) := StableHlo.after_of_writes_sub hostOps2 _ hostOps2_writes (by decide : main_v14 ∉ hostOps2_W)
    _ = W2 m ρ c (Proc.devRef .tc main_v14) := (W3_arr m ρ c 0).trans (((dat1 (Vw2 m ρ) c).arrAt_in 0 rfl _).trans (A_eq1 (Vw2 m ρ) c 0))

theorem keep_v15_3_4 (c : Dev nD) : W4 m ρ c (Proc.devRef .tc main_v15) = W3 m ρ c (Proc.devRef .tc main_v15) :=
  calc W4 m ρ c (Proc.devRef .tc main_v15)
    _ = W3 m ρ c (Proc.devRef .tc main_v15) := StableHlo.after_of_writes_sub hostOps2 _ hostOps2_writes (by decide : main_v15 ∉ hostOps2_W)

theorem keep_v11_1_4 (c : Dev nD) : W4 m ρ c (Proc.devRef .tc main_v11) = W1 m ρ c (Proc.devRef .tc main_v11) :=
  calc W4 m ρ c (Proc.devRef .tc main_v11)
    _ = W3 m ρ c (Proc.devRef .tc main_v11) := StableHlo.after_of_writes_sub hostOps2 _ hostOps2_writes (by decide : main_v11 ∉ hostOps2_W)
    _ = W2 m ρ c (Proc.devRef .tc main_v11) := (W3_arr m ρ c 2).trans (((dat1 (Vw2 m ρ) c).arrAt_in 2 rfl _).trans (A_eq1 (Vw2 m ρ) c 2))
    _ = W1 m ρ c (Proc.devRef .tc main_v11) := W2_of_ne m ρ c main_v11 (by decide)

theorem keep_arg8_0_4 (c : Dev nD) : W4 m ρ c (Proc.devRef .tc main_arg8) = W0 m ρ c (Proc.devRef .tc main_arg8) :=
  calc W4 m ρ c (Proc.devRef .tc main_arg8)
    _ = W3 m ρ c (Proc.devRef .tc main_arg8) := StableHlo.after_of_writes_sub hostOps2 _ hostOps2_writes (by decide : main_arg8 ∉ hostOps2_W)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)

theorem val_v29_0 (c : Dev nD) : W5 m ρ c (Proc.devRef .tc main_v29_0) = (kX m c 1) := by
  have h0 : Vw4 m ρ c main_v14 = (kX m c 0) := ((keep_v14_2_4 m ρ c).trans (val_v14 m ρ c))
  have h1 : Vw4 m ρ c main_v14 = (kX m c 0) := ((keep_v14_2_4 m ρ c).trans (val_v14 m ρ c))
  have h2 : Vw4 m ρ c main_v26 = (aggRawT (hwsG (kX m c 0) (argv m c main_arg6) (dinv2T (argv m c main_arg2))) (srcT (argv m c main_arg2)) (dstT (argv m c main_arg2))) := (val_v26 m ρ c)
  have h3 : Vw4 m ρ c main_v15 = (hwsG (kX m c 0) (argv m c main_arg6) (dinv2T (argv m c main_arg2))) := ((keep_v15_3_4 m ρ c).trans (val_v15 m ρ c))
  have h4 : Vw4 m ρ c main_v11 = (dinv2T (argv m c main_arg2)) := ((keep_v11_1_4 m ρ c).trans (val_v11 m ρ c))
  have h5 : Vw4 m ρ c main_arg8 = (argv m c main_arg8) := ((keep_arg8_0_4 m ρ c).trans (val_arg8 m ρ c))
  have h6 : Vw4 m ρ c main_v27 = (rowT (argv m c main_arg9)) := (val_v27 m ρ c)
  have h7 : Vw4 m ρ c main_v28 = (rowT (argv m c main_arg7)) := (val_v28 m ρ c)
  exact (W5_out0 m ρ c).trans ((arr2_8 (Vw4 m ρ) q2 c).trans (by rw [h0, h2, h3, h4, h5, h6, h7]; rfl))
theorem val_v29_1 (c : Dev nD) : W5 m ρ c (Proc.devRef .tc main_v29_1) = (kY m c 1) := by
  have h0 : Vw4 m ρ c main_v14 = (kX m c 0) := ((keep_v14_2_4 m ρ c).trans (val_v14 m ρ c))
  have h1 : Vw4 m ρ c main_v14 = (kX m c 0) := ((keep_v14_2_4 m ρ c).trans (val_v14 m ρ c))
  have h2 : Vw4 m ρ c main_v26 = (aggRawT (hwsG (kX m c 0) (argv m c main_arg6) (dinv2T (argv m c main_arg2))) (srcT (argv m c main_arg2)) (dstT (argv m c main_arg2))) := (val_v26 m ρ c)
  have h3 : Vw4 m ρ c main_v15 = (hwsG (kX m c 0) (argv m c main_arg6) (dinv2T (argv m c main_arg2))) := ((keep_v15_3_4 m ρ c).trans (val_v15 m ρ c))
  have h4 : Vw4 m ρ c main_v11 = (dinv2T (argv m c main_arg2)) := ((keep_v11_1_4 m ρ c).trans (val_v11 m ρ c))
  have h5 : Vw4 m ρ c main_arg8 = (argv m c main_arg8) := ((keep_arg8_0_4 m ρ c).trans (val_arg8 m ρ c))
  have h6 : Vw4 m ρ c main_v27 = (rowT (argv m c main_arg9)) := (val_v27 m ρ c)
  have h7 : Vw4 m ρ c main_v28 = (rowT (argv m c main_arg7)) := (val_v28 m ρ c)
  exact (W5_out1 m ρ c).trans ((arr2_9 (Vw4 m ρ) q2 c).trans (by rw [h0, h2, h3, h4, h5, h6, h7]; rfl))
theorem keep_arg6_0_5 (c : Dev nD) : W5 m ρ c (Proc.devRef .tc main_arg6) = W0 m ρ c (Proc.devRef .tc main_arg6) :=
  calc W5 m ρ c (Proc.devRef .tc main_arg6)
    _ = W4 m ρ c (Proc.devRef .tc main_arg6) := W5_of_ne m ρ c main_arg6 (by decide) (by decide)
    _ = W3 m ρ c (Proc.devRef .tc main_arg6) := StableHlo.after_of_writes_sub hostOps2 _ hostOps2_writes (by decide : main_arg6 ∉ hostOps2_W)
    _ = W2 m ρ c (Proc.devRef .tc main_arg6) := (W3_arr m ρ c 1).trans (((dat1 (Vw2 m ρ) c).arrAt_in 1 rfl _).trans (A_eq1 (Vw2 m ρ) c 1))
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)

theorem keep_v11_1_5 (c : Dev nD) : W5 m ρ c (Proc.devRef .tc main_v11) = W1 m ρ c (Proc.devRef .tc main_v11) :=
  calc W5 m ρ c (Proc.devRef .tc main_v11)
    _ = W4 m ρ c (Proc.devRef .tc main_v11) := W5_of_ne m ρ c main_v11 (by decide) (by decide)
    _ = W3 m ρ c (Proc.devRef .tc main_v11) := StableHlo.after_of_writes_sub hostOps2 _ hostOps2_writes (by decide : main_v11 ∉ hostOps2_W)
    _ = W2 m ρ c (Proc.devRef .tc main_v11) := (W3_arr m ρ c 2).trans (((dat1 (Vw2 m ρ) c).arrAt_in 2 rfl _).trans (A_eq1 (Vw2 m ρ) c 2))
    _ = W1 m ρ c (Proc.devRef .tc main_v11) := W2_of_ne m ρ c main_v11 (by decide)

theorem val_v30 (c : Dev nD) : W6 m ρ c (Proc.devRef .tc main_v30) = (hwsG (kX m c 1) (argv m c main_arg6) (dinv2T (argv m c main_arg2))) := by
  have h1 : Vw5 m ρ c main_v29_0 = (kX m c 1) := (val_v29_0 m ρ c)
  have h2 : Vw5 m ρ c main_arg6 = (argv m c main_arg6) := ((keep_arg6_0_5 m ρ c).trans (val_arg6 m ρ c))
  have h3 : Vw5 m ρ c main_v11 = dinv2T (argv m c main_arg2) := ((keep_v11_1_5 m ρ c).trans (val_v11 m ρ c))
  exact (W6_arr m ρ c 3).trans ((arr3_3 (Vw5 m ρ) c).trans (by rw [h1, h2, h3]))
theorem keep_v1_1_6 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := W5_of_ne m ρ c main_v1 (by decide) (by decide)
    _ = W3 m ρ c (Proc.devRef .tc main_v1) := StableHlo.after_of_writes_sub hostOps2 _ hostOps2_writes (by decide : main_v1 ∉ hostOps2_W)
    _ = W2 m ρ c (Proc.devRef .tc main_v1) := W3_of_ne m ρ c main_v1 (by decide)
    _ = W1 m ρ c (Proc.devRef .tc main_v1) := W2_of_ne m ρ c main_v1 (by decide)

theorem keep_v3_1_6 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := W5_of_ne m ρ c main_v3 (by decide) (by decide)
    _ = W3 m ρ c (Proc.devRef .tc main_v3) := StableHlo.after_of_writes_sub hostOps2 _ hostOps2_writes (by decide : main_v3 ∉ hostOps2_W)
    _ = W2 m ρ c (Proc.devRef .tc main_v3) := W3_of_ne m ρ c main_v3 (by decide)
    _ = W1 m ρ c (Proc.devRef .tc main_v3) := W2_of_ne m ρ c main_v3 (by decide)

theorem keep_arg9_0_6 (c : Dev nD) : W6 m ρ c (Proc.devRef .tc main_arg9) = W0 m ρ c (Proc.devRef .tc main_arg9) :=
  calc W6 m ρ c (Proc.devRef .tc main_arg9)
    _ = W5 m ρ c (Proc.devRef .tc main_arg9) := W6_of_ne m ρ c main_arg9 (by decide)
    _ = W4 m ρ c (Proc.devRef .tc main_arg9) := W5_of_ne m ρ c main_arg9 (by decide) (by decide)
    _ = W3 m ρ c (Proc.devRef .tc main_arg9) := StableHlo.after_of_writes_sub hostOps2 _ hostOps2_writes (by decide : main_arg9 ∉ hostOps2_W)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)

theorem keep_arg7_0_6 (c : Dev nD) : W6 m ρ c (Proc.devRef .tc main_arg7) = W0 m ρ c (Proc.devRef .tc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of_ne m ρ c main_arg7 (by decide) (by decide)
    _ = W3 m ρ c (Proc.devRef .tc main_arg7) := StableHlo.after_of_writes_sub hostOps2 _ hostOps2_writes (by decide : main_arg7 ∉ hostOps2_W)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)

set_option maxHeartbeats 4000000 in
theorem val_v41 (c : Dev nD) : W7 m ρ c (Proc.devRef .tc main_v41) = (aggRawT (hwsG (kX m c 1) (argv m c main_arg6) (dinv2T (argv m c main_arg2))) (srcT (argv m c main_arg2)) (dstT (argv m c main_arg2))) := by
  have e : W7 m ρ c (Proc.devRef .tc main_v41) = aggRawT (W6 m ρ c (Proc.devRef .tc main_v30)) (W6 m ρ c (Proc.devRef .tc main_v1)) (W6 m ρ c (Proc.devRef .tc main_v3)) := by
    show StableHlo.after hostOps4 (W6 m ρ c) (Proc.devRef .tc main_v41) = _
    after_results; rfl
  rw [e, (val_v30 m ρ c), ((keep_v1_1_6 m ρ c).trans (val_v1 m ρ c)), ((keep_v3_1_6 m ρ c).trans (val_v3 m ρ c))]
set_option maxHeartbeats 4000000 in
theorem val_v42 (c : Dev nD) : W7 m ρ c (Proc.devRef .tc main_v42) = rowT (argv m c main_arg9) := by
  have e : W7 m ρ c (Proc.devRef .tc main_v42) = rowT (W6 m ρ c (Proc.devRef .tc main_arg9)) := by
    show StableHlo.after hostOps4 (W6 m ρ c) (Proc.devRef .tc main_v42) = _
    after_results; rfl
  rw [e, ((keep_arg9_0_6 m ρ c).trans (val_arg9 m ρ c))]
set_option maxHeartbeats 4000000 in
theorem val_v43 (c : Dev nD) : W7 m ρ c (Proc.devRef .tc main_v43) = rowT (argv m c main_arg7) := by
  have e : W7 m ρ c (Proc.devRef .tc main_v43) = rowT (W6 m ρ c (Proc.devRef .tc main_arg7)) := by
    show StableHlo.after hostOps4 (W6 m ρ c) (Proc.devRef .tc main_v43) = _
    after_results; rfl
  rw [e, ((keep_arg7_0_6 m ρ c).trans (val_arg7 m ρ c))]
theorem keep_v29_0_5_7 (c : Dev nD) : W7 m ρ c (Proc.devRef .tc main_v29_0) = W5 m ρ c (Proc.devRef .tc main_v29_0) :=
  calc W7 m ρ c (Proc.devRef .tc main_v29_0)
    _ = W6 m ρ c (Proc.devRef .tc main_v29_0) := StableHlo.after_of_writes_sub hostOps4 _ hostOps4_writes (by decide : main_v29_0 ∉ hostOps4_W)
    _ = W5 m ρ c (Proc.devRef .tc main_v29_0) := (W6_arr m ρ c 0).trans (((dat3 (Vw5 m ρ) c).arrAt_in 0 rfl _).trans (A_eq3 (Vw5 m ρ) c 0))

theorem keep_v29_1_5_7 (c : Dev nD) : W7 m ρ c (Proc.devRef .tc main_v29_1) = W5 m ρ c (Proc.devRef .tc main_v29_1) :=
  calc W7 m ρ c (Proc.devRef .tc main_v29_1)
    _ = W6 m ρ c (Proc.devRef .tc main_v29_1) := StableHlo.after_of_writes_sub hostOps4 _ hostOps4_writes (by decide : main_v29_1 ∉ hostOps4_W)
    _ = W5 m ρ c (Proc.devRef .tc main_v29_1) := W6_of_ne m ρ c main_v29_1 (by decide)

theorem keep_v30_6_7 (c : Dev nD) : W7 m ρ c (Proc.devRef .tc main_v30) = W6 m ρ c (Proc.devRef .tc main_v30) :=
  calc W7 m ρ c (Proc.devRef .tc main_v30)
    _ = W6 m ρ c (Proc.devRef .tc main_v30) := StableHlo.after_of_writes_sub hostOps4 _ hostOps4_writes (by decide : main_v30 ∉ hostOps4_W)

theorem keep_v11_1_7 (c : Dev nD) : W7 m ρ c (Proc.devRef .tc main_v11) = W1 m ρ c (Proc.devRef .tc main_v11) :=
  calc W7 m ρ c (Proc.devRef .tc main_v11)
    _ = W6 m ρ c (Proc.devRef .tc main_v11) := StableHlo.after_of_writes_sub hostOps4 _ hostOps4_writes (by decide : main_v11 ∉ hostOps4_W)
    _ = W5 m ρ c (Proc.devRef .tc main_v11) := (W6_arr m ρ c 2).trans (((dat3 (Vw5 m ρ) c).arrAt_in 2 rfl _).trans (A_eq3 (Vw5 m ρ) c 2))
    _ = W4 m ρ c (Proc.devRef .tc main_v11) := W5_of_ne m ρ c main_v11 (by decide) (by decide)
    _ = W3 m ρ c (Proc.devRef .tc main_v11) := StableHlo.after_of_writes_sub hostOps2 _ hostOps2_writes (by decide : main_v11 ∉ hostOps2_W)
    _ = W2 m ρ c (Proc.devRef .tc main_v11) := (W3_arr m ρ c 2).trans (((dat1 (Vw2 m ρ) c).arrAt_in 2 rfl _).trans (A_eq1 (Vw2 m ρ) c 2))
    _ = W1 m ρ c (Proc.devRef .tc main_v11) := W2_of_ne m ρ c main_v11 (by decide)

theorem keep_arg8_0_7 (c : Dev nD) : W7 m ρ c (Proc.devRef .tc main_arg8) = W0 m ρ c (Proc.devRef .tc main_arg8) :=
  calc W7 m ρ c (Proc.devRef .tc main_arg8)
    _ = W6 m ρ c (Proc.devRef .tc main_arg8) := StableHlo.after_of_writes_sub hostOps4 _ hostOps4_writes (by decide : main_arg8 ∉ hostOps4_W)
    _ = W5 m ρ c (Proc.devRef .tc main_arg8) := W6_of_ne m ρ c main_arg8 (by decide)
    _ = W4 m ρ c (Proc.devRef .tc main_arg8) := W5_of_ne m ρ c main_arg8 (by decide) (by decide)
    _ = W3 m ρ c (Proc.devRef .tc main_arg8) := StableHlo.after_of_writes_sub hostOps2 _ hostOps2_writes (by decide : main_arg8 ∉ hostOps2_W)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)

theorem val_v44_0 (c : Dev nD) : W8 m ρ c (Proc.devRef .tc main_v44_0) = (kX m c 2) := by
  have h0 : Vw7 m ρ c main_v29_0 = (kX m c 1) := ((keep_v29_0_5_7 m ρ c).trans (val_v29_0 m ρ c))
  have h1 : Vw7 m ρ c main_v29_1 = (kY m c 1) := ((keep_v29_1_5_7 m ρ c).trans (val_v29_1 m ρ c))
  have h2 : Vw7 m ρ c main_v41 = (aggRawT (hwsG (kX m c 1) (argv m c main_arg6) (dinv2T (argv m c main_arg2))) (srcT (argv m c main_arg2)) (dstT (argv m c main_arg2))) := (val_v41 m ρ c)
  have h3 : Vw7 m ρ c main_v30 = (hwsG (kX m c 1) (argv m c main_arg6) (dinv2T (argv m c main_arg2))) := ((keep_v30_6_7 m ρ c).trans (val_v30 m ρ c))
  have h4 : Vw7 m ρ c main_v11 = (dinv2T (argv m c main_arg2)) := ((keep_v11_1_7 m ρ c).trans (val_v11 m ρ c))
  have h5 : Vw7 m ρ c main_arg8 = (argv m c main_arg8) := ((keep_arg8_0_7 m ρ c).trans (val_arg8 m ρ c))
  have h6 : Vw7 m ρ c main_v42 = (rowT (argv m c main_arg9)) := (val_v42 m ρ c)
  have h7 : Vw7 m ρ c main_v43 = (rowT (argv m c main_arg7)) := (val_v43 m ρ c)
  exact (W8_arr m ρ c 8).trans ((arr4_8 (Vw7 m ρ) (fun _ => fullShare) c).trans (by rw [h0, h1, h2, h3, h4, h5, h6, h7]; rfl))
theorem val_v44_1 (c : Dev nD) : W8 m ρ c (Proc.devRef .tc main_v44_1) = (kY m c 2) := by
  have h0 : Vw7 m ρ c main_v29_0 = (kX m c 1) := ((keep_v29_0_5_7 m ρ c).trans (val_v29_0 m ρ c))
  have h1 : Vw7 m ρ c main_v29_1 = (kY m c 1) := ((keep_v29_1_5_7 m ρ c).trans (val_v29_1 m ρ c))
  have h2 : Vw7 m ρ c main_v41 = (aggRawT (hwsG (kX m c 1) (argv m c main_arg6) (dinv2T (argv m c main_arg2))) (srcT (argv m c main_arg2)) (dstT (argv m c main_arg2))) := (val_v41 m ρ c)
  have h3 : Vw7 m ρ c main_v30 = (hwsG (kX m c 1) (argv m c main_arg6) (dinv2T (argv m c main_arg2))) := ((keep_v30_6_7 m ρ c).trans (val_v30 m ρ c))
  have h4 : Vw7 m ρ c main_v11 = (dinv2T (argv m c main_arg2)) := ((keep_v11_1_7 m ρ c).trans (val_v11 m ρ c))
  have h5 : Vw7 m ρ c main_arg8 = (argv m c main_arg8) := ((keep_arg8_0_7 m ρ c).trans (val_arg8 m ρ c))
  have h6 : Vw7 m ρ c main_v42 = (rowT (argv m c main_arg9)) := (val_v42 m ρ c)
  have h7 : Vw7 m ρ c main_v43 = (rowT (argv m c main_arg7)) := (val_v43 m ρ c)
  exact (W8_arr m ρ c 9).trans ((arr4_9 (Vw7 m ρ) (fun _ => fullShare) c).trans (by rw [h0, h1, h2, h3, h4, h5, h6, h7]; rfl))
theorem keep_arg6_0_8 (c : Dev nD) : W8 m ρ c (Proc.devRef .tc main_arg6) = W0 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps4 _ hostOps4_writes (by decide : main_arg6 ∉ hostOps4_W)
    _ = W5 m ρ c (Proc.devRef .tc main_arg6) := (W6_arr m ρ c 1).trans (((dat3 (Vw5 m ρ) c).arrAt_in 1 rfl _).trans (A_eq3 (Vw5 m ρ) c 1))
    _ = W4 m ρ c (Proc.devRef .tc main_arg6) := W5_of_ne m ρ c main_arg6 (by decide) (by decide)
    _ = W3 m ρ c (Proc.devRef .tc main_arg6) := StableHlo.after_of_writes_sub hostOps2 _ hostOps2_writes (by decide : main_arg6 ∉ hostOps2_W)
    _ = W2 m ρ c (Proc.devRef .tc main_arg6) := (W3_arr m ρ c 1).trans (((dat1 (Vw2 m ρ) c).arrAt_in 1 rfl _).trans (A_eq1 (Vw2 m ρ) c 1))
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)

theorem keep_v11_1_8 (c : Dev nD) : W8 m ρ c (Proc.devRef .tc main_v11) = W1 m ρ c (Proc.devRef .tc main_v11) :=
  calc W8 m ρ c (Proc.devRef .tc main_v11)
    _ = W7 m ρ c (Proc.devRef .tc main_v11) := (W8_arr m ρ c 4).trans (((dat4 (Vw7 m ρ) (fun _ => fullShare) c).arrAt_in 4 rfl _).trans (A_eq4 (Vw7 m ρ) (fun _ => fullShare) c 4))
    _ = W6 m ρ c (Proc.devRef .tc main_v11) := StableHlo.after_of_writes_sub hostOps4 _ hostOps4_writes (by decide : main_v11 ∉ hostOps4_W)
    _ = W5 m ρ c (Proc.devRef .tc main_v11) := (W6_arr m ρ c 2).trans (((dat3 (Vw5 m ρ) c).arrAt_in 2 rfl _).trans (A_eq3 (Vw5 m ρ) c 2))
    _ = W4 m ρ c (Proc.devRef .tc main_v11) := W5_of_ne m ρ c main_v11 (by decide) (by decide)
    _ = W3 m ρ c (Proc.devRef .tc main_v11) := StableHlo.after_of_writes_sub hostOps2 _ hostOps2_writes (by decide : main_v11 ∉ hostOps2_W)
    _ = W2 m ρ c (Proc.devRef .tc main_v11) := (W3_arr m ρ c 2).trans (((dat1 (Vw2 m ρ) c).arrAt_in 2 rfl _).trans (A_eq1 (Vw2 m ρ) c 2))
    _ = W1 m ρ c (Proc.devRef .tc main_v11) := W2_of_ne m ρ c main_v11 (by decide)

theorem val_v45 (c : Dev nD) : W9 m ρ c (Proc.devRef .tc main_v45) = (hwsG (kX m c 2) (argv m c main_arg6) (dinv2T (argv m c main_arg2))) := by
  have h1 : Vw8 m ρ c main_v44_0 = (kX m c 2) := (val_v44_0 m ρ c)
  have h2 : Vw8 m ρ c main_arg6 = (argv m c main_arg6) := ((keep_arg6_0_8 m ρ c).trans (val_arg6 m ρ c))
  have h3 : Vw8 m ρ c main_v11 = dinv2T (argv m c main_arg2) := ((keep_v11_1_8 m ρ c).trans (val_v11 m ρ c))
  exact (W9_arr m ρ c 3).trans ((arr5_3 (Vw8 m ρ) c).trans (by rw [h1, h2, h3]))
theorem keep_v1_1_9 (c : Dev nD) : W9 m ρ c (Proc.devRef .tc main_v1) = W1 m ρ c (Proc.devRef .tc main_v1) :=
  calc W9 m ρ c (Proc.devRef .tc main_v1)
    _ = W8 m ρ c (Proc.devRef .tc main_v1) := W9_of_ne m ρ c main_v1 (by decide)
    _ = W7 m ρ c (Proc.devRef .tc main_v1) := W8_of_ne m ρ c main_v1 (by decide)
    _ = W6 m ρ c (Proc.devRef .tc main_v1) := StableHlo.after_of_writes_sub hostOps4 _ hostOps4_writes (by decide : main_v1 ∉ hostOps4_W)
    _ = W5 m ρ c (Proc.devRef .tc main_v1) := W6_of_ne m ρ c main_v1 (by decide)
    _ = W4 m ρ c (Proc.devRef .tc main_v1) := W5_of_ne m ρ c main_v1 (by decide) (by decide)
    _ = W3 m ρ c (Proc.devRef .tc main_v1) := StableHlo.after_of_writes_sub hostOps2 _ hostOps2_writes (by decide : main_v1 ∉ hostOps2_W)
    _ = W2 m ρ c (Proc.devRef .tc main_v1) := W3_of_ne m ρ c main_v1 (by decide)
    _ = W1 m ρ c (Proc.devRef .tc main_v1) := W2_of_ne m ρ c main_v1 (by decide)

theorem keep_v3_1_9 (c : Dev nD) : W9 m ρ c (Proc.devRef .tc main_v3) = W1 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_writes_sub hostOps4 _ hostOps4_writes (by decide : main_v3 ∉ hostOps4_W)
    _ = W5 m ρ c (Proc.devRef .tc main_v3) := W6_of_ne m ρ c main_v3 (by decide)
    _ = W4 m ρ c (Proc.devRef .tc main_v3) := W5_of_ne m ρ c main_v3 (by decide) (by decide)
    _ = W3 m ρ c (Proc.devRef .tc main_v3) := StableHlo.after_of_writes_sub hostOps2 _ hostOps2_writes (by decide : main_v3 ∉ hostOps2_W)
    _ = W2 m ρ c (Proc.devRef .tc main_v3) := W3_of_ne m ρ c main_v3 (by decide)
    _ = W1 m ρ c (Proc.devRef .tc main_v3) := W2_of_ne m ρ c main_v3 (by decide)

theorem keep_arg9_0_9 (c : Dev nD) : W9 m ρ c (Proc.devRef .tc main_arg9) = W0 m ρ c (Proc.devRef .tc main_arg9) :=
  calc W9 m ρ c (Proc.devRef .tc main_arg9)
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := StableHlo.after_of_writes_sub hostOps4 _ hostOps4_writes (by decide : main_arg9 ∉ hostOps4_W)
    _ = W5 m ρ c (Proc.devRef .tc main_arg9) := W6_of_ne m ρ c main_arg9 (by decide)
    _ = W4 m ρ c (Proc.devRef .tc main_arg9) := W5_of_ne m ρ c main_arg9 (by decide) (by decide)
    _ = W3 m ρ c (Proc.devRef .tc main_arg9) := StableHlo.after_of_writes_sub hostOps2 _ hostOps2_writes (by decide : main_arg9 ∉ hostOps2_W)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)

theorem keep_arg7_0_9 (c : Dev nD) : W9 m ρ c (Proc.devRef .tc main_arg7) = W0 m ρ c (Proc.devRef .tc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_writes_sub hostOps4 _ hostOps4_writes (by decide : main_arg7 ∉ hostOps4_W)
    _ = W5 m ρ c (Proc.devRef .tc main_arg7) := W6_of_ne m ρ c main_arg7 (by decide)
    _ = W4 m ρ c (Proc.devRef .tc main_arg7) := W5_of_ne m ρ c main_arg7 (by decide) (by decide)
    _ = W3 m ρ c (Proc.devRef .tc main_arg7) := StableHlo.after_of_writes_sub hostOps2 _ hostOps2_writes (by decide : main_arg7 ∉ hostOps2_W)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)

set_option maxHeartbeats 4000000 in
theorem val_v56 (c : Dev nD) : W10 m ρ c (Proc.devRef .tc main_v56) = (aggRawT (hwsG (kX m c 2) (argv m c main_arg6) (dinv2T (argv m c main_arg2))) (srcT (argv m c main_arg2)) (dstT (argv m c main_arg2))) := by
  have e : W10 m ρ c (Proc.devRef .tc main_v56) = aggRawT (W9 m ρ c (Proc.devRef .tc main_v45)) (W9 m ρ c (Proc.devRef .tc main_v1)) (W9 m ρ c (Proc.devRef .tc main_v3)) := by
    show StableHlo.after hostOps6 (W9 m ρ c) (Proc.devRef .tc main_v56) = _
    after_results; rfl
  rw [e, (val_v45 m ρ c), ((keep_v1_1_9 m ρ c).trans (val_v1 m ρ c)), ((keep_v3_1_9 m ρ c).trans (val_v3 m ρ c))]
set_option maxHeartbeats 4000000 in
theorem val_v57 (c : Dev nD) : W10 m ρ c (Proc.devRef .tc main_v57) = rowT (argv m c main_arg9) := by
  have e : W10 m ρ c (Proc.devRef .tc main_v57) = rowT (W9 m ρ c (Proc.devRef .tc main_arg9)) := by
    show StableHlo.after hostOps6 (W9 m ρ c) (Proc.devRef .tc main_v57) = _
    after_results; rfl
  rw [e, ((keep_arg9_0_9 m ρ c).trans (val_arg9 m ρ c))]
set_option maxHeartbeats 4000000 in
theorem val_v58 (c : Dev nD) : W10 m ρ c (Proc.devRef .tc main_v58) = rowT (argv m c main_arg7) := by
  have e : W10 m ρ c (Proc.devRef .tc main_v58) = rowT (W9 m ρ c (Proc.devRef .tc main_arg7)) := by
    show StableHlo.after hostOps6 (W9 m ρ c) (Proc.devRef .tc main_v58) = _
    after_results; rfl
  rw [e, ((keep_arg7_0_9 m ρ c).trans (val_arg7 m ρ c))]
theorem keep_v44_0_8_10 (c : Dev nD) : W10 m ρ c (Proc.devRef .tc main_v44_0) = W8 m ρ c (Proc.devRef .tc main_v44_0) :=
  calc W10 m ρ c (Proc.devRef .tc main_v44_0)
    _ = W9 m ρ c (Proc.devRef .tc main_v44_0) := StableHlo.after_of_writes_sub hostOps6 _ hostOps6_writes (by decide : main_v44_0 ∉ hostOps6_W)
    _ = W8 m ρ c (Proc.devRef .tc main_v44_0) := (W9_arr m ρ c 0).trans (((dat5 (Vw8 m ρ) c).arrAt_in 0 rfl _).trans (A_eq5 (Vw8 m ρ) c 0))

theorem keep_v44_1_8_10 (c : Dev nD) : W10 m ρ c (Proc.devRef .tc main_v44_1) = W8 m ρ c (Proc.devRef .tc main_v44_1) :=
  calc W10 m ρ c (Proc.devRef .tc main_v44_1)
    _ = W9 m ρ c (Proc.devRef .tc main_v44_1) := StableHlo.after_of_writes_sub hostOps6 _ hostOps6_writes (by decide : main_v44_1 ∉ hostOps6_W)
    _ = W8 m ρ c (Proc.devRef .tc main_v44_1) := W9_of_ne m ρ c main_v44_1 (by decide)

theorem keep_v45_9_10 (c : Dev nD) : W10 m ρ c (Proc.devRef .tc main_v45) = W9 m ρ c (Proc.devRef .tc main_v45) :=
  calc W10 m ρ c (Proc.devRef .tc main_v45)
    _ = W9 m ρ c (Proc.devRef .tc main_v45) := StableHlo.after_of_writes_sub hostOps6 _ hostOps6_writes (by decide : main_v45 ∉ hostOps6_W)

theorem keep_v11_1_10 (c : Dev nD) : W10 m ρ c (Proc.devRef .tc main_v11) = W1 m ρ c (Proc.devRef .tc main_v11) :=
  calc W10 m ρ c (Proc.devRef .tc main_v11)
    _ = W9 m ρ c (Proc.devRef .tc main_v11) := StableHlo.after_of_writes_sub hostOps6 _ hostOps6_writes (by decide : main_v11 ∉ hostOps6_W)
    _ = W8 m ρ c (Proc.devRef .tc main_v11) := (W9_arr m ρ c 2).trans (((dat5 (Vw8 m ρ) c).arrAt_in 2 rfl _).trans (A_eq5 (Vw8 m ρ) c 2))
    _ = W7 m ρ c (Proc.devRef .tc main_v11) := (W8_arr m ρ c 4).trans (((dat4 (Vw7 m ρ) (fun _ => fullShare) c).arrAt_in 4 rfl _).trans (A_eq4 (Vw7 m ρ) (fun _ => fullShare) c 4))
    _ = W6 m ρ c (Proc.devRef .tc main_v11) := StableHlo.after_of_writes_sub hostOps4 _ hostOps4_writes (by decide : main_v11 ∉ hostOps4_W)
    _ = W5 m ρ c (Proc.devRef .tc main_v11) := (W6_arr m ρ c 2).trans (((dat3 (Vw5 m ρ) c).arrAt_in 2 rfl _).trans (A_eq3 (Vw5 m ρ) c 2))
    _ = W4 m ρ c (Proc.devRef .tc main_v11) := W5_of_ne m ρ c main_v11 (by decide) (by decide)
    _ = W3 m ρ c (Proc.devRef .tc main_v11) := StableHlo.after_of_writes_sub hostOps2 _ hostOps2_writes (by decide : main_v11 ∉ hostOps2_W)
    _ = W2 m ρ c (Proc.devRef .tc main_v11) := (W3_arr m ρ c 2).trans (((dat1 (Vw2 m ρ) c).arrAt_in 2 rfl _).trans (A_eq1 (Vw2 m ρ) c 2))
    _ = W1 m ρ c (Proc.devRef .tc main_v11) := W2_of_ne m ρ c main_v11 (by decide)

theorem keep_arg8_0_10 (c : Dev nD) : W10 m ρ c (Proc.devRef .tc main_arg8) = W0 m ρ c (Proc.devRef .tc main_arg8) :=
  calc W10 m ρ c (Proc.devRef .tc main_arg8)
    _ = W9 m ρ c (Proc.devRef .tc main_arg8) := StableHlo.after_of_writes_sub hostOps6 _ hostOps6_writes (by decide : main_arg8 ∉ hostOps6_W)
    _ = W8 m ρ c (Proc.devRef .tc main_arg8) := W9_of_ne m ρ c main_arg8 (by decide)
    _ = W7 m ρ c (Proc.devRef .tc main_arg8) := (W8_arr m ρ c 5).trans (((dat4 (Vw7 m ρ) (fun _ => fullShare) c).arrAt_in 5 rfl _).trans (A_eq4 (Vw7 m ρ) (fun _ => fullShare) c 5))
    _ = W6 m ρ c (Proc.devRef .tc main_arg8) := StableHlo.after_of_writes_sub hostOps4 _ hostOps4_writes (by decide : main_arg8 ∉ hostOps4_W)
    _ = W5 m ρ c (Proc.devRef .tc main_arg8) := W6_of_ne m ρ c main_arg8 (by decide)
    _ = W4 m ρ c (Proc.devRef .tc main_arg8) := W5_of_ne m ρ c main_arg8 (by decide) (by decide)
    _ = W3 m ρ c (Proc.devRef .tc main_arg8) := StableHlo.after_of_writes_sub hostOps2 _ hostOps2_writes (by decide : main_arg8 ∉ hostOps2_W)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)

theorem val_v59_0 (c : Dev nD) : W11 m ρ c (Proc.devRef .tc main_v59_0) = (kX m c 3) := by
  have h0 : Vw10 m ρ c main_v44_0 = (kX m c 2) := ((keep_v44_0_8_10 m ρ c).trans (val_v44_0 m ρ c))
  have h1 : Vw10 m ρ c main_v44_1 = (kY m c 2) := ((keep_v44_1_8_10 m ρ c).trans (val_v44_1 m ρ c))
  have h2 : Vw10 m ρ c main_v56 = (aggRawT (hwsG (kX m c 2) (argv m c main_arg6) (dinv2T (argv m c main_arg2))) (srcT (argv m c main_arg2)) (dstT (argv m c main_arg2))) := (val_v56 m ρ c)
  have h3 : Vw10 m ρ c main_v45 = (hwsG (kX m c 2) (argv m c main_arg6) (dinv2T (argv m c main_arg2))) := ((keep_v45_9_10 m ρ c).trans (val_v45 m ρ c))
  have h4 : Vw10 m ρ c main_v11 = (dinv2T (argv m c main_arg2)) := ((keep_v11_1_10 m ρ c).trans (val_v11 m ρ c))
  have h5 : Vw10 m ρ c main_arg8 = (argv m c main_arg8) := ((keep_arg8_0_10 m ρ c).trans (val_arg8 m ρ c))
  have h6 : Vw10 m ρ c main_v57 = (rowT (argv m c main_arg9)) := (val_v57 m ρ c)
  have h7 : Vw10 m ρ c main_v58 = (rowT (argv m c main_arg7)) := (val_v58 m ρ c)
  exact (W11_arr m ρ c 8).trans ((arr6_8 (Vw10 m ρ) (fun _ => fullShare) c).trans (by rw [h0, h1, h2, h3, h4, h5, h6, h7]; rfl))
theorem val_v59_1 (c : Dev nD) : W11 m ρ c (Proc.devRef .tc main_v59_1) = (kY m c 3) := by
  have h0 : Vw10 m ρ c main_v44_0 = (kX m c 2) := ((keep_v44_0_8_10 m ρ c).trans (val_v44_0 m ρ c))
  have h1 : Vw10 m ρ c main_v44_1 = (kY m c 2) := ((keep_v44_1_8_10 m ρ c).trans (val_v44_1 m ρ c))
  have h2 : Vw10 m ρ c main_v56 = (aggRawT (hwsG (kX m c 2) (argv m c main_arg6) (dinv2T (argv m c main_arg2))) (srcT (argv m c main_arg2)) (dstT (argv m c main_arg2))) := (val_v56 m ρ c)
  have h3 : Vw10 m ρ c main_v45 = (hwsG (kX m c 2) (argv m c main_arg6) (dinv2T (argv m c main_arg2))) := ((keep_v45_9_10 m ρ c).trans (val_v45 m ρ c))
  have h4 : Vw10 m ρ c main_v11 = (dinv2T (argv m c main_arg2)) := ((keep_v11_1_10 m ρ c).trans (val_v11 m ρ c))
  have h5 : Vw10 m ρ c main_arg8 = (argv m c main_arg8) := ((keep_arg8_0_10 m ρ c).trans (val_arg8 m ρ c))
  have h6 : Vw10 m ρ c main_v57 = (rowT (argv m c main_arg9)) := (val_v57 m ρ c)
  have h7 : Vw10 m ρ c main_v58 = (rowT (argv m c main_arg7)) := (val_v58 m ρ c)
  exact (W11_arr m ρ c 9).trans ((arr6_9 (Vw10 m ρ) (fun _ => fullShare) c).trans (by rw [h0, h1, h2, h3, h4, h5, h6, h7]; rfl))
theorem keep_arg6_0_11 (c : Dev nD) : W11 m ρ c (Proc.devRef .tc main_arg6) = W0 m ρ c (Proc.devRef .tc main_arg6) :=
  calc W11 m ρ c (Proc.devRef .tc main_arg6)
    _ = W10 m ρ c (Proc.devRef .tc main_arg6) := W11_of_ne m ρ c main_arg6 (by decide)
    _ = W9 m ρ c (Proc.devRef .tc main_arg6) := StableHlo.after_of_writes_sub hostOps6 _ hostOps6_writes (by decide : main_arg6 ∉ hostOps6_W)
    _ = W8 m ρ c (Proc.devRef .tc main_arg6) := (W9_arr m ρ c 1).trans (((dat5 (Vw8 m ρ) c).arrAt_in 1 rfl _).trans (A_eq5 (Vw8 m ρ) c 1))
    _ = W7 m ρ c (Proc.devRef .tc main_arg6) := W8_of_ne m ρ c main_arg6 (by decide)
    _ = W6 m ρ c (Proc.devRef .tc main_arg6) := StableHlo.after_of_writes_sub hostOps4 _ hostOps4_writes (by decide : main_arg6 ∉ hostOps4_W)
    _ = W5 m ρ c (Proc.devRef .tc main_arg6) := (W6_arr m ρ c 1).trans (((dat3 (Vw5 m ρ) c).arrAt_in 1 rfl _).trans (A_eq3 (Vw5 m ρ) c 1))
    _ = W4 m ρ c (Proc.devRef .tc main_arg6) := W5_of_ne m ρ c main_arg6 (by decide) (by decide)
    _ = W3 m ρ c (Proc.devRef .tc main_arg6) := StableHlo.after_of_writes_sub hostOps2 _ hostOps2_writes (by decide : main_arg6 ∉ hostOps2_W)
    _ = W2 m ρ c (Proc.devRef .tc main_arg6) := (W3_arr m ρ c 1).trans (((dat1 (Vw2 m ρ) c).arrAt_in 1 rfl _).trans (A_eq1 (Vw2 m ρ) c 1))
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)

theorem keep_v11_1_11 (c : Dev nD) : W11 m ρ c (Proc.devRef .tc main_v11) = W1 m ρ c (Proc.devRef .tc main_v11) :=
  calc W11 m ρ c (Proc.devRef .tc main_v11)
    _ = W10 m ρ c (Proc.devRef .tc main_v11) := (W11_arr m ρ c 4).trans (((dat6 (Vw10 m ρ) (fun _ => fullShare) c).arrAt_in 4 rfl _).trans (A_eq6 (Vw10 m ρ) (fun _ => fullShare) c 4))
    _ = W9 m ρ c (Proc.devRef .tc main_v11) := StableHlo.after_of_writes_sub hostOps6 _ hostOps6_writes (by decide : main_v11 ∉ hostOps6_W)
    _ = W8 m ρ c (Proc.devRef .tc main_v11) := (W9_arr m ρ c 2).trans (((dat5 (Vw8 m ρ) c).arrAt_in 2 rfl _).trans (A_eq5 (Vw8 m ρ) c 2))
    _ = W7 m ρ c (Proc.devRef .tc main_v11) := (W8_arr m ρ c 4).trans (((dat4 (Vw7 m ρ) (fun _ => fullShare) c).arrAt_in 4 rfl _).trans (A_eq4 (Vw7 m ρ) (fun _ => fullShare) c 4))
    _ = W6 m ρ c (Proc.devRef .tc main_v11) := StableHlo.after_of_writes_sub hostOps4 _ hostOps4_writes (by decide : main_v11 ∉ hostOps4_W)
    _ = W5 m ρ c (Proc.devRef .tc main_v11) := (W6_arr m ρ c 2).trans (((dat3 (Vw5 m ρ) c).arrAt_in 2 rfl _).trans (A_eq3 (Vw5 m ρ) c 2))
    _ = W4 m ρ c (Proc.devRef .tc main_v11) := W5_of_ne m ρ c main_v11 (by decide) (by decide)
    _ = W3 m ρ c (Proc.devRef .tc main_v11) := StableHlo.after_of_writes_sub hostOps2 _ hostOps2_writes (by decide : main_v11 ∉ hostOps2_W)
    _ = W2 m ρ c (Proc.devRef .tc main_v11) := (W3_arr m ρ c 2).trans (((dat1 (Vw2 m ρ) c).arrAt_in 2 rfl _).trans (A_eq1 (Vw2 m ρ) c 2))
    _ = W1 m ρ c (Proc.devRef .tc main_v11) := W2_of_ne m ρ c main_v11 (by decide)

theorem val_v60 (c : Dev nD) : W12 m ρ c (Proc.devRef .tc main_v60) = (hwsG (kX m c 3) (argv m c main_arg6) (dinv2T (argv m c main_arg2))) := by
  have h1 : Vw11 m ρ c main_v59_0 = (kX m c 3) := (val_v59_0 m ρ c)
  have h2 : Vw11 m ρ c main_arg6 = (argv m c main_arg6) := ((keep_arg6_0_11 m ρ c).trans (val_arg6 m ρ c))
  have h3 : Vw11 m ρ c main_v11 = dinv2T (argv m c main_arg2) := ((keep_v11_1_11 m ρ c).trans (val_v11 m ρ c))
  exact (W12_arr m ρ c 3).trans ((arr7_3 (Vw11 m ρ) c).trans (by rw [h1, h2, h3]))
theorem keep_v1_1_12 (c : Dev nD) : W12 m ρ c (Proc.devRef .tc main_v1) = W1 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := W11_of_ne m ρ c main_v1 (by decide)
    _ = W9 m ρ c (Proc.devRef .tc main_v1) := StableHlo.after_of_writes_sub hostOps6 _ hostOps6_writes (by decide : main_v1 ∉ hostOps6_W)
    _ = W8 m ρ c (Proc.devRef .tc main_v1) := W9_of_ne m ρ c main_v1 (by decide)
    _ = W7 m ρ c (Proc.devRef .tc main_v1) := W8_of_ne m ρ c main_v1 (by decide)
    _ = W6 m ρ c (Proc.devRef .tc main_v1) := StableHlo.after_of_writes_sub hostOps4 _ hostOps4_writes (by decide : main_v1 ∉ hostOps4_W)
    _ = W5 m ρ c (Proc.devRef .tc main_v1) := W6_of_ne m ρ c main_v1 (by decide)
    _ = W4 m ρ c (Proc.devRef .tc main_v1) := W5_of_ne m ρ c main_v1 (by decide) (by decide)
    _ = W3 m ρ c (Proc.devRef .tc main_v1) := StableHlo.after_of_writes_sub hostOps2 _ hostOps2_writes (by decide : main_v1 ∉ hostOps2_W)
    _ = W2 m ρ c (Proc.devRef .tc main_v1) := W3_of_ne m ρ c main_v1 (by decide)
    _ = W1 m ρ c (Proc.devRef .tc main_v1) := W2_of_ne m ρ c main_v1 (by decide)

theorem keep_v3_1_12 (c : Dev nD) : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := StableHlo.after_of_writes_sub hostOps6 _ hostOps6_writes (by decide : main_v3 ∉ hostOps6_W)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_writes_sub hostOps4 _ hostOps4_writes (by decide : main_v3 ∉ hostOps4_W)
    _ = W5 m ρ c (Proc.devRef .tc main_v3) := W6_of_ne m ρ c main_v3 (by decide)
    _ = W4 m ρ c (Proc.devRef .tc main_v3) := W5_of_ne m ρ c main_v3 (by decide) (by decide)
    _ = W3 m ρ c (Proc.devRef .tc main_v3) := StableHlo.after_of_writes_sub hostOps2 _ hostOps2_writes (by decide : main_v3 ∉ hostOps2_W)
    _ = W2 m ρ c (Proc.devRef .tc main_v3) := W3_of_ne m ρ c main_v3 (by decide)
    _ = W1 m ρ c (Proc.devRef .tc main_v3) := W2_of_ne m ρ c main_v3 (by decide)

theorem keep_arg9_0_12 (c : Dev nD) : W12 m ρ c (Proc.devRef .tc main_arg9) = W0 m ρ c (Proc.devRef .tc main_arg9) :=
  calc W12 m ρ c (Proc.devRef .tc main_arg9)
    _ = W11 m ρ c (Proc.devRef .tc main_arg9) := W12_of_ne m ρ c main_arg9 (by decide)
    _ = W10 m ρ c (Proc.devRef .tc main_arg9) := W11_of_ne m ρ c main_arg9 (by decide)
    _ = W9 m ρ c (Proc.devRef .tc main_arg9) := StableHlo.after_of_writes_sub hostOps6 _ hostOps6_writes (by decide : main_arg9 ∉ hostOps6_W)
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := StableHlo.after_of_writes_sub hostOps4 _ hostOps4_writes (by decide : main_arg9 ∉ hostOps4_W)
    _ = W5 m ρ c (Proc.devRef .tc main_arg9) := W6_of_ne m ρ c main_arg9 (by decide)
    _ = W4 m ρ c (Proc.devRef .tc main_arg9) := W5_of_ne m ρ c main_arg9 (by decide) (by decide)
    _ = W3 m ρ c (Proc.devRef .tc main_arg9) := StableHlo.after_of_writes_sub hostOps2 _ hostOps2_writes (by decide : main_arg9 ∉ hostOps2_W)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)

theorem keep_arg7_0_12 (c : Dev nD) : W12 m ρ c (Proc.devRef .tc main_arg7) = W0 m ρ c (Proc.devRef .tc main_arg7) :=
  calc W12 m ρ c (Proc.devRef .tc main_arg7)
    _ = W11 m ρ c (Proc.devRef .tc main_arg7) := W12_of_ne m ρ c main_arg7 (by decide)
    _ = W10 m ρ c (Proc.devRef .tc main_arg7) := W11_of_ne m ρ c main_arg7 (by decide)
    _ = W9 m ρ c (Proc.devRef .tc main_arg7) := StableHlo.after_of_writes_sub hostOps6 _ hostOps6_writes (by decide : main_arg7 ∉ hostOps6_W)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_writes_sub hostOps4 _ hostOps4_writes (by decide : main_arg7 ∉ hostOps4_W)
    _ = W5 m ρ c (Proc.devRef .tc main_arg7) := W6_of_ne m ρ c main_arg7 (by decide)
    _ = W4 m ρ c (Proc.devRef .tc main_arg7) := W5_of_ne m ρ c main_arg7 (by decide) (by decide)
    _ = W3 m ρ c (Proc.devRef .tc main_arg7) := StableHlo.after_of_writes_sub hostOps2 _ hostOps2_writes (by decide : main_arg7 ∉ hostOps2_W)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)

set_option maxHeartbeats 4000000 in
theorem val_v71 (c : Dev nD) : W13 m ρ c (Proc.devRef .tc main_v71) = (aggRawT (hwsG (kX m c 3) (argv m c main_arg6) (dinv2T (argv m c main_arg2))) (srcT (argv m c main_arg2)) (dstT (argv m c main_arg2))) := by
  have e : W13 m ρ c (Proc.devRef .tc main_v71) = aggRawT (W12 m ρ c (Proc.devRef .tc main_v60)) (W12 m ρ c (Proc.devRef .tc main_v1)) (W12 m ρ c (Proc.devRef .tc main_v3)) := by
    show StableHlo.after hostOps8 (W12 m ρ c) (Proc.devRef .tc main_v71) = _
    after_results; rfl
  rw [e, (val_v60 m ρ c), ((keep_v1_1_12 m ρ c).trans (val_v1 m ρ c)), ((keep_v3_1_12 m ρ c).trans (val_v3 m ρ c))]
set_option maxHeartbeats 4000000 in
theorem val_v72 (c : Dev nD) : W13 m ρ c (Proc.devRef .tc main_v72) = rowT (argv m c main_arg9) := by
  have e : W13 m ρ c (Proc.devRef .tc main_v72) = rowT (W12 m ρ c (Proc.devRef .tc main_arg9)) := by
    show StableHlo.after hostOps8 (W12 m ρ c) (Proc.devRef .tc main_v72) = _
    after_results; rfl
  rw [e, ((keep_arg9_0_12 m ρ c).trans (val_arg9 m ρ c))]
set_option maxHeartbeats 4000000 in
theorem val_v73 (c : Dev nD) : W13 m ρ c (Proc.devRef .tc main_v73) = rowT (argv m c main_arg7) := by
  have e : W13 m ρ c (Proc.devRef .tc main_v73) = rowT (W12 m ρ c (Proc.devRef .tc main_arg7)) := by
    show StableHlo.after hostOps8 (W12 m ρ c) (Proc.devRef .tc main_v73) = _
    after_results; rfl
  rw [e, ((keep_arg7_0_12 m ρ c).trans (val_arg7 m ρ c))]
theorem keep_v59_0_11_13 (c : Dev nD) : W13 m ρ c (Proc.devRef .tc main_v59_0) = W11 m ρ c (Proc.devRef .tc main_v59_0) :=
  calc W13 m ρ c (Proc.devRef .tc main_v59_0)
    _ = W12 m ρ c (Proc.devRef .tc main_v59_0) := StableHlo.after_of_writes_sub hostOps8 _ hostOps8_writes (by decide : main_v59_0 ∉ hostOps8_W)
    _ = W11 m ρ c (Proc.devRef .tc main_v59_0) := (W12_arr m ρ c 0).trans (((dat7 (Vw11 m ρ) c).arrAt_in 0 rfl _).trans (A_eq7 (Vw11 m ρ) c 0))

theorem keep_v59_1_11_13 (c : Dev nD) : W13 m ρ c (Proc.devRef .tc main_v59_1) = W11 m ρ c (Proc.devRef .tc main_v59_1) :=
  calc W13 m ρ c (Proc.devRef .tc main_v59_1)
    _ = W12 m ρ c (Proc.devRef .tc main_v59_1) := StableHlo.after_of_writes_sub hostOps8 _ hostOps8_writes (by decide : main_v59_1 ∉ hostOps8_W)
    _ = W11 m ρ c (Proc.devRef .tc main_v59_1) := W12_of_ne m ρ c main_v59_1 (by decide)

theorem keep_v60_12_13 (c : Dev nD) : W13 m ρ c (Proc.devRef .tc main_v60) = W12 m ρ c (Proc.devRef .tc main_v60) :=
  calc W13 m ρ c (Proc.devRef .tc main_v60)
    _ = W12 m ρ c (Proc.devRef .tc main_v60) := StableHlo.after_of_writes_sub hostOps8 _ hostOps8_writes (by decide : main_v60 ∉ hostOps8_W)

theorem keep_v11_1_13 (c : Dev nD) : W13 m ρ c (Proc.devRef .tc main_v11) = W1 m ρ c (Proc.devRef .tc main_v11) :=
  calc W13 m ρ c (Proc.devRef .tc main_v11)
    _ = W12 m ρ c (Proc.devRef .tc main_v11) := StableHlo.after_of_writes_sub hostOps8 _ hostOps8_writes (by decide : main_v11 ∉ hostOps8_W)
    _ = W11 m ρ c (Proc.devRef .tc main_v11) := (W12_arr m ρ c 2).trans (((dat7 (Vw11 m ρ) c).arrAt_in 2 rfl _).trans (A_eq7 (Vw11 m ρ) c 2))
    _ = W10 m ρ c (Proc.devRef .tc main_v11) := (W11_arr m ρ c 4).trans (((dat6 (Vw10 m ρ) (fun _ => fullShare) c).arrAt_in 4 rfl _).trans (A_eq6 (Vw10 m ρ) (fun _ => fullShare) c 4))
    _ = W9 m ρ c (Proc.devRef .tc main_v11) := StableHlo.after_of_writes_sub hostOps6 _ hostOps6_writes (by decide : main_v11 ∉ hostOps6_W)
    _ = W8 m ρ c (Proc.devRef .tc main_v11) := (W9_arr m ρ c 2).trans (((dat5 (Vw8 m ρ) c).arrAt_in 2 rfl _).trans (A_eq5 (Vw8 m ρ) c 2))
    _ = W7 m ρ c (Proc.devRef .tc main_v11) := (W8_arr m ρ c 4).trans (((dat4 (Vw7 m ρ) (fun _ => fullShare) c).arrAt_in 4 rfl _).trans (A_eq4 (Vw7 m ρ) (fun _ => fullShare) c 4))
    _ = W6 m ρ c (Proc.devRef .tc main_v11) := StableHlo.after_of_writes_sub hostOps4 _ hostOps4_writes (by decide : main_v11 ∉ hostOps4_W)
    _ = W5 m ρ c (Proc.devRef .tc main_v11) := (W6_arr m ρ c 2).trans (((dat3 (Vw5 m ρ) c).arrAt_in 2 rfl _).trans (A_eq3 (Vw5 m ρ) c 2))
    _ = W4 m ρ c (Proc.devRef .tc main_v11) := W5_of_ne m ρ c main_v11 (by decide) (by decide)
    _ = W3 m ρ c (Proc.devRef .tc main_v11) := StableHlo.after_of_writes_sub hostOps2 _ hostOps2_writes (by decide : main_v11 ∉ hostOps2_W)
    _ = W2 m ρ c (Proc.devRef .tc main_v11) := (W3_arr m ρ c 2).trans (((dat1 (Vw2 m ρ) c).arrAt_in 2 rfl _).trans (A_eq1 (Vw2 m ρ) c 2))
    _ = W1 m ρ c (Proc.devRef .tc main_v11) := W2_of_ne m ρ c main_v11 (by decide)

theorem keep_arg8_0_13 (c : Dev nD) : W13 m ρ c (Proc.devRef .tc main_arg8) = W0 m ρ c (Proc.devRef .tc main_arg8) :=
  calc W13 m ρ c (Proc.devRef .tc main_arg8)
    _ = W12 m ρ c (Proc.devRef .tc main_arg8) := StableHlo.after_of_writes_sub hostOps8 _ hostOps8_writes (by decide : main_arg8 ∉ hostOps8_W)
    _ = W11 m ρ c (Proc.devRef .tc main_arg8) := W12_of_ne m ρ c main_arg8 (by decide)
    _ = W10 m ρ c (Proc.devRef .tc main_arg8) := (W11_arr m ρ c 5).trans (((dat6 (Vw10 m ρ) (fun _ => fullShare) c).arrAt_in 5 rfl _).trans (A_eq6 (Vw10 m ρ) (fun _ => fullShare) c 5))
    _ = W9 m ρ c (Proc.devRef .tc main_arg8) := StableHlo.after_of_writes_sub hostOps6 _ hostOps6_writes (by decide : main_arg8 ∉ hostOps6_W)
    _ = W8 m ρ c (Proc.devRef .tc main_arg8) := W9_of_ne m ρ c main_arg8 (by decide)
    _ = W7 m ρ c (Proc.devRef .tc main_arg8) := (W8_arr m ρ c 5).trans (((dat4 (Vw7 m ρ) (fun _ => fullShare) c).arrAt_in 5 rfl _).trans (A_eq4 (Vw7 m ρ) (fun _ => fullShare) c 5))
    _ = W6 m ρ c (Proc.devRef .tc main_arg8) := StableHlo.after_of_writes_sub hostOps4 _ hostOps4_writes (by decide : main_arg8 ∉ hostOps4_W)
    _ = W5 m ρ c (Proc.devRef .tc main_arg8) := W6_of_ne m ρ c main_arg8 (by decide)
    _ = W4 m ρ c (Proc.devRef .tc main_arg8) := W5_of_ne m ρ c main_arg8 (by decide) (by decide)
    _ = W3 m ρ c (Proc.devRef .tc main_arg8) := StableHlo.after_of_writes_sub hostOps2 _ hostOps2_writes (by decide : main_arg8 ∉ hostOps2_W)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)

theorem val_v74_0 (c : Dev nD) : W14 m ρ c (Proc.devRef .tc main_v74_0) = (kX m c 4) := by
  have h0 : Vw13 m ρ c main_v59_0 = (kX m c 3) := ((keep_v59_0_11_13 m ρ c).trans (val_v59_0 m ρ c))
  have h1 : Vw13 m ρ c main_v59_1 = (kY m c 3) := ((keep_v59_1_11_13 m ρ c).trans (val_v59_1 m ρ c))
  have h2 : Vw13 m ρ c main_v71 = (aggRawT (hwsG (kX m c 3) (argv m c main_arg6) (dinv2T (argv m c main_arg2))) (srcT (argv m c main_arg2)) (dstT (argv m c main_arg2))) := (val_v71 m ρ c)
  have h3 : Vw13 m ρ c main_v60 = (hwsG (kX m c 3) (argv m c main_arg6) (dinv2T (argv m c main_arg2))) := ((keep_v60_12_13 m ρ c).trans (val_v60 m ρ c))
  have h4 : Vw13 m ρ c main_v11 = (dinv2T (argv m c main_arg2)) := ((keep_v11_1_13 m ρ c).trans (val_v11 m ρ c))
  have h5 : Vw13 m ρ c main_arg8 = (argv m c main_arg8) := ((keep_arg8_0_13 m ρ c).trans (val_arg8 m ρ c))
  have h6 : Vw13 m ρ c main_v72 = (rowT (argv m c main_arg9)) := (val_v72 m ρ c)
  have h7 : Vw13 m ρ c main_v73 = (rowT (argv m c main_arg7)) := (val_v73 m ρ c)
  exact (W14_arr m ρ c 8).trans ((arr8_8 (Vw13 m ρ) (fun _ => fullShare) c).trans (by rw [h0, h1, h2, h3, h4, h5, h6, h7]; rfl))
theorem val_v74_1 (c : Dev nD) : W14 m ρ c (Proc.devRef .tc main_v74_1) = (kY m c 4) := by
  have h0 : Vw13 m ρ c main_v59_0 = (kX m c 3) := ((keep_v59_0_11_13 m ρ c).trans (val_v59_0 m ρ c))
  have h1 : Vw13 m ρ c main_v59_1 = (kY m c 3) := ((keep_v59_1_11_13 m ρ c).trans (val_v59_1 m ρ c))
  have h2 : Vw13 m ρ c main_v71 = (aggRawT (hwsG (kX m c 3) (argv m c main_arg6) (dinv2T (argv m c main_arg2))) (srcT (argv m c main_arg2)) (dstT (argv m c main_arg2))) := (val_v71 m ρ c)
  have h3 : Vw13 m ρ c main_v60 = (hwsG (kX m c 3) (argv m c main_arg6) (dinv2T (argv m c main_arg2))) := ((keep_v60_12_13 m ρ c).trans (val_v60 m ρ c))
  have h4 : Vw13 m ρ c main_v11 = (dinv2T (argv m c main_arg2)) := ((keep_v11_1_13 m ρ c).trans (val_v11 m ρ c))
  have h5 : Vw13 m ρ c main_arg8 = (argv m c main_arg8) := ((keep_arg8_0_13 m ρ c).trans (val_arg8 m ρ c))
  have h6 : Vw13 m ρ c main_v72 = (rowT (argv m c main_arg9)) := (val_v72 m ρ c)
  have h7 : Vw13 m ρ c main_v73 = (rowT (argv m c main_arg7)) := (val_v73 m ρ c)
  exact (W14_arr m ρ c 9).trans ((arr8_9 (Vw13 m ρ) (fun _ => fullShare) c).trans (by rw [h0, h1, h2, h3, h4, h5, h6, h7]; rfl))
theorem keep_arg6_0_14 (c : Dev nD) : W14 m ρ c (Proc.devRef .tc main_arg6) = W0 m ρ c (Proc.devRef .tc main_arg6) :=
  calc W14 m ρ c (Proc.devRef .tc main_arg6)
    _ = W13 m ρ c (Proc.devRef .tc main_arg6) := W14_of_ne m ρ c main_arg6 (by decide)
    _ = W12 m ρ c (Proc.devRef .tc main_arg6) := StableHlo.after_of_writes_sub hostOps8 _ hostOps8_writes (by decide : main_arg6 ∉ hostOps8_W)
    _ = W11 m ρ c (Proc.devRef .tc main_arg6) := (W12_arr m ρ c 1).trans (((dat7 (Vw11 m ρ) c).arrAt_in 1 rfl _).trans (A_eq7 (Vw11 m ρ) c 1))
    _ = W10 m ρ c (Proc.devRef .tc main_arg6) := W11_of_ne m ρ c main_arg6 (by decide)
    _ = W9 m ρ c (Proc.devRef .tc main_arg6) := StableHlo.after_of_writes_sub hostOps6 _ hostOps6_writes (by decide : main_arg6 ∉ hostOps6_W)
    _ = W8 m ρ c (Proc.devRef .tc main_arg6) := (W9_arr m ρ c 1).trans (((dat5 (Vw8 m ρ) c).arrAt_in 1 rfl _).trans (A_eq5 (Vw8 m ρ) c 1))
    _ = W7 m ρ c (Proc.devRef .tc main_arg6) := W8_of_ne m ρ c main_arg6 (by decide)
    _ = W6 m ρ c (Proc.devRef .tc main_arg6) := StableHlo.after_of_writes_sub hostOps4 _ hostOps4_writes (by decide : main_arg6 ∉ hostOps4_W)
    _ = W5 m ρ c (Proc.devRef .tc main_arg6) := (W6_arr m ρ c 1).trans (((dat3 (Vw5 m ρ) c).arrAt_in 1 rfl _).trans (A_eq3 (Vw5 m ρ) c 1))
    _ = W4 m ρ c (Proc.devRef .tc main_arg6) := W5_of_ne m ρ c main_arg6 (by decide) (by decide)
    _ = W3 m ρ c (Proc.devRef .tc main_arg6) := StableHlo.after_of_writes_sub hostOps2 _ hostOps2_writes (by decide : main_arg6 ∉ hostOps2_W)
    _ = W2 m ρ c (Proc.devRef .tc main_arg6) := (W3_arr m ρ c 1).trans (((dat1 (Vw2 m ρ) c).arrAt_in 1 rfl _).trans (A_eq1 (Vw2 m ρ) c 1))
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)

theorem keep_v11_1_14 (c : Dev nD) : W14 m ρ c (Proc.devRef .tc main_v11) = W1 m ρ c (Proc.devRef .tc main_v11) :=
  calc W14 m ρ c (Proc.devRef .tc main_v11)
    _ = W13 m ρ c (Proc.devRef .tc main_v11) := (W14_arr m ρ c 4).trans (((dat8 (Vw13 m ρ) (fun _ => fullShare) c).arrAt_in 4 rfl _).trans (A_eq8 (Vw13 m ρ) (fun _ => fullShare) c 4))
    _ = W12 m ρ c (Proc.devRef .tc main_v11) := StableHlo.after_of_writes_sub hostOps8 _ hostOps8_writes (by decide : main_v11 ∉ hostOps8_W)
    _ = W11 m ρ c (Proc.devRef .tc main_v11) := (W12_arr m ρ c 2).trans (((dat7 (Vw11 m ρ) c).arrAt_in 2 rfl _).trans (A_eq7 (Vw11 m ρ) c 2))
    _ = W10 m ρ c (Proc.devRef .tc main_v11) := (W11_arr m ρ c 4).trans (((dat6 (Vw10 m ρ) (fun _ => fullShare) c).arrAt_in 4 rfl _).trans (A_eq6 (Vw10 m ρ) (fun _ => fullShare) c 4))
    _ = W9 m ρ c (Proc.devRef .tc main_v11) := StableHlo.after_of_writes_sub hostOps6 _ hostOps6_writes (by decide : main_v11 ∉ hostOps6_W)
    _ = W8 m ρ c (Proc.devRef .tc main_v11) := (W9_arr m ρ c 2).trans (((dat5 (Vw8 m ρ) c).arrAt_in 2 rfl _).trans (A_eq5 (Vw8 m ρ) c 2))
    _ = W7 m ρ c (Proc.devRef .tc main_v11) := (W8_arr m ρ c 4).trans (((dat4 (Vw7 m ρ) (fun _ => fullShare) c).arrAt_in 4 rfl _).trans (A_eq4 (Vw7 m ρ) (fun _ => fullShare) c 4))
    _ = W6 m ρ c (Proc.devRef .tc main_v11) := StableHlo.after_of_writes_sub hostOps4 _ hostOps4_writes (by decide : main_v11 ∉ hostOps4_W)
    _ = W5 m ρ c (Proc.devRef .tc main_v11) := (W6_arr m ρ c 2).trans (((dat3 (Vw5 m ρ) c).arrAt_in 2 rfl _).trans (A_eq3 (Vw5 m ρ) c 2))
    _ = W4 m ρ c (Proc.devRef .tc main_v11) := W5_of_ne m ρ c main_v11 (by decide) (by decide)
    _ = W3 m ρ c (Proc.devRef .tc main_v11) := StableHlo.after_of_writes_sub hostOps2 _ hostOps2_writes (by decide : main_v11 ∉ hostOps2_W)
    _ = W2 m ρ c (Proc.devRef .tc main_v11) := (W3_arr m ρ c 2).trans (((dat1 (Vw2 m ρ) c).arrAt_in 2 rfl _).trans (A_eq1 (Vw2 m ρ) c 2))
    _ = W1 m ρ c (Proc.devRef .tc main_v11) := W2_of_ne m ρ c main_v11 (by decide)

theorem val_v75 (c : Dev nD) : W15 m ρ c (Proc.devRef .tc main_v75) = (hwsG (kX m c 4) (argv m c main_arg6) (dinv2T (argv m c main_arg2))) := by
  have h1 : Vw14 m ρ c main_v74_0 = (kX m c 4) := (val_v74_0 m ρ c)
  have h2 : Vw14 m ρ c main_arg6 = (argv m c main_arg6) := ((keep_arg6_0_14 m ρ c).trans (val_arg6 m ρ c))
  have h3 : Vw14 m ρ c main_v11 = dinv2T (argv m c main_arg2) := ((keep_v11_1_14 m ρ c).trans (val_v11 m ρ c))
  exact (W15_arr m ρ c 3).trans ((arr9_3 (Vw14 m ρ) c).trans (by rw [h1, h2, h3]))
theorem keep_v1_1_15 (c : Dev nD) : W15 m ρ c (Proc.devRef .tc main_v1) = W1 m ρ c (Proc.devRef .tc main_v1) :=
  calc W15 m ρ c (Proc.devRef .tc main_v1)
    _ = W14 m ρ c (Proc.devRef .tc main_v1) := W15_of_ne m ρ c main_v1 (by decide)
    _ = W13 m ρ c (Proc.devRef .tc main_v1) := W14_of_ne m ρ c main_v1 (by decide)
    _ = W12 m ρ c (Proc.devRef .tc main_v1) := StableHlo.after_of_writes_sub hostOps8 _ hostOps8_writes (by decide : main_v1 ∉ hostOps8_W)
    _ = W11 m ρ c (Proc.devRef .tc main_v1) := W12_of_ne m ρ c main_v1 (by decide)
    _ = W10 m ρ c (Proc.devRef .tc main_v1) := W11_of_ne m ρ c main_v1 (by decide)
    _ = W9 m ρ c (Proc.devRef .tc main_v1) := StableHlo.after_of_writes_sub hostOps6 _ hostOps6_writes (by decide : main_v1 ∉ hostOps6_W)
    _ = W8 m ρ c (Proc.devRef .tc main_v1) := W9_of_ne m ρ c main_v1 (by decide)
    _ = W7 m ρ c (Proc.devRef .tc main_v1) := W8_of_ne m ρ c main_v1 (by decide)
    _ = W6 m ρ c (Proc.devRef .tc main_v1) := StableHlo.after_of_writes_sub hostOps4 _ hostOps4_writes (by decide : main_v1 ∉ hostOps4_W)
    _ = W5 m ρ c (Proc.devRef .tc main_v1) := W6_of_ne m ρ c main_v1 (by decide)
    _ = W4 m ρ c (Proc.devRef .tc main_v1) := W5_of_ne m ρ c main_v1 (by decide) (by decide)
    _ = W3 m ρ c (Proc.devRef .tc main_v1) := StableHlo.after_of_writes_sub hostOps2 _ hostOps2_writes (by decide : main_v1 ∉ hostOps2_W)
    _ = W2 m ρ c (Proc.devRef .tc main_v1) := W3_of_ne m ρ c main_v1 (by decide)
    _ = W1 m ρ c (Proc.devRef .tc main_v1) := W2_of_ne m ρ c main_v1 (by decide)

theorem keep_v3_1_15 (c : Dev nD) : W15 m ρ c (Proc.devRef .tc main_v3) = W1 m ρ c (Proc.devRef .tc main_v3) :=
  calc W15 m ρ c (Proc.devRef .tc main_v3)
    _ = W14 m ρ c (Proc.devRef .tc main_v3) := W15_of_ne m ρ c main_v3 (by decide)
    _ = W13 m ρ c (Proc.devRef .tc main_v3) := W14_of_ne m ρ c main_v3 (by decide)
    _ = W12 m ρ c (Proc.devRef .tc main_v3) := StableHlo.after_of_writes_sub hostOps8 _ hostOps8_writes (by decide : main_v3 ∉ hostOps8_W)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := StableHlo.after_of_writes_sub hostOps6 _ hostOps6_writes (by decide : main_v3 ∉ hostOps6_W)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_writes_sub hostOps4 _ hostOps4_writes (by decide : main_v3 ∉ hostOps4_W)
    _ = W5 m ρ c (Proc.devRef .tc main_v3) := W6_of_ne m ρ c main_v3 (by decide)
    _ = W4 m ρ c (Proc.devRef .tc main_v3) := W5_of_ne m ρ c main_v3 (by decide) (by decide)
    _ = W3 m ρ c (Proc.devRef .tc main_v3) := StableHlo.after_of_writes_sub hostOps2 _ hostOps2_writes (by decide : main_v3 ∉ hostOps2_W)
    _ = W2 m ρ c (Proc.devRef .tc main_v3) := W3_of_ne m ρ c main_v3 (by decide)
    _ = W1 m ρ c (Proc.devRef .tc main_v3) := W2_of_ne m ρ c main_v3 (by decide)

theorem keep_arg9_0_15 (c : Dev nD) : W15 m ρ c (Proc.devRef .tc main_arg9) = W0 m ρ c (Proc.devRef .tc main_arg9) :=
  calc W15 m ρ c (Proc.devRef .tc main_arg9)
    _ = W14 m ρ c (Proc.devRef .tc main_arg9) := W15_of_ne m ρ c main_arg9 (by decide)
    _ = W13 m ρ c (Proc.devRef .tc main_arg9) := W14_of_ne m ρ c main_arg9 (by decide)
    _ = W12 m ρ c (Proc.devRef .tc main_arg9) := StableHlo.after_of_writes_sub hostOps8 _ hostOps8_writes (by decide : main_arg9 ∉ hostOps8_W)
    _ = W11 m ρ c (Proc.devRef .tc main_arg9) := W12_of_ne m ρ c main_arg9 (by decide)
    _ = W10 m ρ c (Proc.devRef .tc main_arg9) := W11_of_ne m ρ c main_arg9 (by decide)
    _ = W9 m ρ c (Proc.devRef .tc main_arg9) := StableHlo.after_of_writes_sub hostOps6 _ hostOps6_writes (by decide : main_arg9 ∉ hostOps6_W)
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := StableHlo.after_of_writes_sub hostOps4 _ hostOps4_writes (by decide : main_arg9 ∉ hostOps4_W)
    _ = W5 m ρ c (Proc.devRef .tc main_arg9) := W6_of_ne m ρ c main_arg9 (by decide)
    _ = W4 m ρ c (Proc.devRef .tc main_arg9) := W5_of_ne m ρ c main_arg9 (by decide) (by decide)
    _ = W3 m ρ c (Proc.devRef .tc main_arg9) := StableHlo.after_of_writes_sub hostOps2 _ hostOps2_writes (by decide : main_arg9 ∉ hostOps2_W)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)

theorem keep_arg7_0_15 (c : Dev nD) : W15 m ρ c (Proc.devRef .tc main_arg7) = W0 m ρ c (Proc.devRef .tc main_arg7) :=
  calc W15 m ρ c (Proc.devRef .tc main_arg7)
    _ = W14 m ρ c (Proc.devRef .tc main_arg7) := W15_of_ne m ρ c main_arg7 (by decide)
    _ = W13 m ρ c (Proc.devRef .tc main_arg7) := W14_of_ne m ρ c main_arg7 (by decide)
    _ = W12 m ρ c (Proc.devRef .tc main_arg7) := StableHlo.after_of_writes_sub hostOps8 _ hostOps8_writes (by decide : main_arg7 ∉ hostOps8_W)
    _ = W11 m ρ c (Proc.devRef .tc main_arg7) := W12_of_ne m ρ c main_arg7 (by decide)
    _ = W10 m ρ c (Proc.devRef .tc main_arg7) := W11_of_ne m ρ c main_arg7 (by decide)
    _ = W9 m ρ c (Proc.devRef .tc main_arg7) := StableHlo.after_of_writes_sub hostOps6 _ hostOps6_writes (by decide : main_arg7 ∉ hostOps6_W)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_writes_sub hostOps4 _ hostOps4_writes (by decide : main_arg7 ∉ hostOps4_W)
    _ = W5 m ρ c (Proc.devRef .tc main_arg7) := W6_of_ne m ρ c main_arg7 (by decide)
    _ = W4 m ρ c (Proc.devRef .tc main_arg7) := W5_of_ne m ρ c main_arg7 (by decide) (by decide)
    _ = W3 m ρ c (Proc.devRef .tc main_arg7) := StableHlo.after_of_writes_sub hostOps2 _ hostOps2_writes (by decide : main_arg7 ∉ hostOps2_W)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)

set_option maxHeartbeats 4000000 in
theorem val_v86 (c : Dev nD) : W16 m ρ c (Proc.devRef .tc main_v86) = (aggRawT (hwsG (kX m c 4) (argv m c main_arg6) (dinv2T (argv m c main_arg2))) (srcT (argv m c main_arg2)) (dstT (argv m c main_arg2))) := by
  have e : W16 m ρ c (Proc.devRef .tc main_v86) = aggRawT (W15 m ρ c (Proc.devRef .tc main_v75)) (W15 m ρ c (Proc.devRef .tc main_v1)) (W15 m ρ c (Proc.devRef .tc main_v3)) := by
    show StableHlo.after hostOps10 (W15 m ρ c) (Proc.devRef .tc main_v86) = _
    after_results; rfl
  rw [e, (val_v75 m ρ c), ((keep_v1_1_15 m ρ c).trans (val_v1 m ρ c)), ((keep_v3_1_15 m ρ c).trans (val_v3 m ρ c))]
set_option maxHeartbeats 4000000 in
theorem val_v87 (c : Dev nD) : W16 m ρ c (Proc.devRef .tc main_v87) = rowT (argv m c main_arg9) := by
  have e : W16 m ρ c (Proc.devRef .tc main_v87) = rowT (W15 m ρ c (Proc.devRef .tc main_arg9)) := by
    show StableHlo.after hostOps10 (W15 m ρ c) (Proc.devRef .tc main_v87) = _
    after_results; rfl
  rw [e, ((keep_arg9_0_15 m ρ c).trans (val_arg9 m ρ c))]
set_option maxHeartbeats 4000000 in
theorem val_v88 (c : Dev nD) : W16 m ρ c (Proc.devRef .tc main_v88) = rowT (argv m c main_arg7) := by
  have e : W16 m ρ c (Proc.devRef .tc main_v88) = rowT (W15 m ρ c (Proc.devRef .tc main_arg7)) := by
    show StableHlo.after hostOps10 (W15 m ρ c) (Proc.devRef .tc main_v88) = _
    after_results; rfl
  rw [e, ((keep_arg7_0_15 m ρ c).trans (val_arg7 m ρ c))]
theorem keep_v74_0_14_16 (c : Dev nD) : W16 m ρ c (Proc.devRef .tc main_v74_0) = W14 m ρ c (Proc.devRef .tc main_v74_0) :=
  calc W16 m ρ c (Proc.devRef .tc main_v74_0)
    _ = W15 m ρ c (Proc.devRef .tc main_v74_0) := StableHlo.after_of_writes_sub hostOps10 _ hostOps10_writes (by decide : main_v74_0 ∉ hostOps10_W)
    _ = W14 m ρ c (Proc.devRef .tc main_v74_0) := (W15_arr m ρ c 0).trans (((dat9 (Vw14 m ρ) c).arrAt_in 0 rfl _).trans (A_eq9 (Vw14 m ρ) c 0))

theorem keep_v74_1_14_16 (c : Dev nD) : W16 m ρ c (Proc.devRef .tc main_v74_1) = W14 m ρ c (Proc.devRef .tc main_v74_1) :=
  calc W16 m ρ c (Proc.devRef .tc main_v74_1)
    _ = W15 m ρ c (Proc.devRef .tc main_v74_1) := StableHlo.after_of_writes_sub hostOps10 _ hostOps10_writes (by decide : main_v74_1 ∉ hostOps10_W)
    _ = W14 m ρ c (Proc.devRef .tc main_v74_1) := W15_of_ne m ρ c main_v74_1 (by decide)

theorem keep_v75_15_16 (c : Dev nD) : W16 m ρ c (Proc.devRef .tc main_v75) = W15 m ρ c (Proc.devRef .tc main_v75) :=
  calc W16 m ρ c (Proc.devRef .tc main_v75)
    _ = W15 m ρ c (Proc.devRef .tc main_v75) := StableHlo.after_of_writes_sub hostOps10 _ hostOps10_writes (by decide : main_v75 ∉ hostOps10_W)

theorem keep_v11_1_16 (c : Dev nD) : W16 m ρ c (Proc.devRef .tc main_v11) = W1 m ρ c (Proc.devRef .tc main_v11) :=
  calc W16 m ρ c (Proc.devRef .tc main_v11)
    _ = W15 m ρ c (Proc.devRef .tc main_v11) := StableHlo.after_of_writes_sub hostOps10 _ hostOps10_writes (by decide : main_v11 ∉ hostOps10_W)
    _ = W14 m ρ c (Proc.devRef .tc main_v11) := (W15_arr m ρ c 2).trans (((dat9 (Vw14 m ρ) c).arrAt_in 2 rfl _).trans (A_eq9 (Vw14 m ρ) c 2))
    _ = W13 m ρ c (Proc.devRef .tc main_v11) := (W14_arr m ρ c 4).trans (((dat8 (Vw13 m ρ) (fun _ => fullShare) c).arrAt_in 4 rfl _).trans (A_eq8 (Vw13 m ρ) (fun _ => fullShare) c 4))
    _ = W12 m ρ c (Proc.devRef .tc main_v11) := StableHlo.after_of_writes_sub hostOps8 _ hostOps8_writes (by decide : main_v11 ∉ hostOps8_W)
    _ = W11 m ρ c (Proc.devRef .tc main_v11) := (W12_arr m ρ c 2).trans (((dat7 (Vw11 m ρ) c).arrAt_in 2 rfl _).trans (A_eq7 (Vw11 m ρ) c 2))
    _ = W10 m ρ c (Proc.devRef .tc main_v11) := (W11_arr m ρ c 4).trans (((dat6 (Vw10 m ρ) (fun _ => fullShare) c).arrAt_in 4 rfl _).trans (A_eq6 (Vw10 m ρ) (fun _ => fullShare) c 4))
    _ = W9 m ρ c (Proc.devRef .tc main_v11) := StableHlo.after_of_writes_sub hostOps6 _ hostOps6_writes (by decide : main_v11 ∉ hostOps6_W)
    _ = W8 m ρ c (Proc.devRef .tc main_v11) := (W9_arr m ρ c 2).trans (((dat5 (Vw8 m ρ) c).arrAt_in 2 rfl _).trans (A_eq5 (Vw8 m ρ) c 2))
    _ = W7 m ρ c (Proc.devRef .tc main_v11) := (W8_arr m ρ c 4).trans (((dat4 (Vw7 m ρ) (fun _ => fullShare) c).arrAt_in 4 rfl _).trans (A_eq4 (Vw7 m ρ) (fun _ => fullShare) c 4))
    _ = W6 m ρ c (Proc.devRef .tc main_v11) := StableHlo.after_of_writes_sub hostOps4 _ hostOps4_writes (by decide : main_v11 ∉ hostOps4_W)
    _ = W5 m ρ c (Proc.devRef .tc main_v11) := (W6_arr m ρ c 2).trans (((dat3 (Vw5 m ρ) c).arrAt_in 2 rfl _).trans (A_eq3 (Vw5 m ρ) c 2))
    _ = W4 m ρ c (Proc.devRef .tc main_v11) := W5_of_ne m ρ c main_v11 (by decide) (by decide)
    _ = W3 m ρ c (Proc.devRef .tc main_v11) := StableHlo.after_of_writes_sub hostOps2 _ hostOps2_writes (by decide : main_v11 ∉ hostOps2_W)
    _ = W2 m ρ c (Proc.devRef .tc main_v11) := (W3_arr m ρ c 2).trans (((dat1 (Vw2 m ρ) c).arrAt_in 2 rfl _).trans (A_eq1 (Vw2 m ρ) c 2))
    _ = W1 m ρ c (Proc.devRef .tc main_v11) := W2_of_ne m ρ c main_v11 (by decide)

theorem keep_arg8_0_16 (c : Dev nD) : W16 m ρ c (Proc.devRef .tc main_arg8) = W0 m ρ c (Proc.devRef .tc main_arg8) :=
  calc W16 m ρ c (Proc.devRef .tc main_arg8)
    _ = W15 m ρ c (Proc.devRef .tc main_arg8) := StableHlo.after_of_writes_sub hostOps10 _ hostOps10_writes (by decide : main_arg8 ∉ hostOps10_W)
    _ = W14 m ρ c (Proc.devRef .tc main_arg8) := W15_of_ne m ρ c main_arg8 (by decide)
    _ = W13 m ρ c (Proc.devRef .tc main_arg8) := (W14_arr m ρ c 5).trans (((dat8 (Vw13 m ρ) (fun _ => fullShare) c).arrAt_in 5 rfl _).trans (A_eq8 (Vw13 m ρ) (fun _ => fullShare) c 5))
    _ = W12 m ρ c (Proc.devRef .tc main_arg8) := StableHlo.after_of_writes_sub hostOps8 _ hostOps8_writes (by decide : main_arg8 ∉ hostOps8_W)
    _ = W11 m ρ c (Proc.devRef .tc main_arg8) := W12_of_ne m ρ c main_arg8 (by decide)
    _ = W10 m ρ c (Proc.devRef .tc main_arg8) := (W11_arr m ρ c 5).trans (((dat6 (Vw10 m ρ) (fun _ => fullShare) c).arrAt_in 5 rfl _).trans (A_eq6 (Vw10 m ρ) (fun _ => fullShare) c 5))
    _ = W9 m ρ c (Proc.devRef .tc main_arg8) := StableHlo.after_of_writes_sub hostOps6 _ hostOps6_writes (by decide : main_arg8 ∉ hostOps6_W)
    _ = W8 m ρ c (Proc.devRef .tc main_arg8) := W9_of_ne m ρ c main_arg8 (by decide)
    _ = W7 m ρ c (Proc.devRef .tc main_arg8) := (W8_arr m ρ c 5).trans (((dat4 (Vw7 m ρ) (fun _ => fullShare) c).arrAt_in 5 rfl _).trans (A_eq4 (Vw7 m ρ) (fun _ => fullShare) c 5))
    _ = W6 m ρ c (Proc.devRef .tc main_arg8) := StableHlo.after_of_writes_sub hostOps4 _ hostOps4_writes (by decide : main_arg8 ∉ hostOps4_W)
    _ = W5 m ρ c (Proc.devRef .tc main_arg8) := W6_of_ne m ρ c main_arg8 (by decide)
    _ = W4 m ρ c (Proc.devRef .tc main_arg8) := W5_of_ne m ρ c main_arg8 (by decide) (by decide)
    _ = W3 m ρ c (Proc.devRef .tc main_arg8) := StableHlo.after_of_writes_sub hostOps2 _ hostOps2_writes (by decide : main_arg8 ∉ hostOps2_W)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)

theorem val_v89_0 (c : Dev nD) : W17 m ρ c (Proc.devRef .tc main_v89_0) = (kX m c 5) := by
  have h0 : Vw16 m ρ c main_v74_0 = (kX m c 4) := ((keep_v74_0_14_16 m ρ c).trans (val_v74_0 m ρ c))
  have h1 : Vw16 m ρ c main_v74_1 = (kY m c 4) := ((keep_v74_1_14_16 m ρ c).trans (val_v74_1 m ρ c))
  have h2 : Vw16 m ρ c main_v86 = (aggRawT (hwsG (kX m c 4) (argv m c main_arg6) (dinv2T (argv m c main_arg2))) (srcT (argv m c main_arg2)) (dstT (argv m c main_arg2))) := (val_v86 m ρ c)
  have h3 : Vw16 m ρ c main_v75 = (hwsG (kX m c 4) (argv m c main_arg6) (dinv2T (argv m c main_arg2))) := ((keep_v75_15_16 m ρ c).trans (val_v75 m ρ c))
  have h4 : Vw16 m ρ c main_v11 = (dinv2T (argv m c main_arg2)) := ((keep_v11_1_16 m ρ c).trans (val_v11 m ρ c))
  have h5 : Vw16 m ρ c main_arg8 = (argv m c main_arg8) := ((keep_arg8_0_16 m ρ c).trans (val_arg8 m ρ c))
  have h6 : Vw16 m ρ c main_v87 = (rowT (argv m c main_arg9)) := (val_v87 m ρ c)
  have h7 : Vw16 m ρ c main_v88 = (rowT (argv m c main_arg7)) := (val_v88 m ρ c)
  exact (W17_arr m ρ c 8).trans ((arr10_8 (Vw16 m ρ) (fun _ => fullShare) c).trans (by rw [h0, h1, h2, h3, h4, h5, h6, h7]; rfl))
theorem val_v89_1 (c : Dev nD) : W17 m ρ c (Proc.devRef .tc main_v89_1) = (kY m c 5) := by
  have h0 : Vw16 m ρ c main_v74_0 = (kX m c 4) := ((keep_v74_0_14_16 m ρ c).trans (val_v74_0 m ρ c))
  have h1 : Vw16 m ρ c main_v74_1 = (kY m c 4) := ((keep_v74_1_14_16 m ρ c).trans (val_v74_1 m ρ c))
  have h2 : Vw16 m ρ c main_v86 = (aggRawT (hwsG (kX m c 4) (argv m c main_arg6) (dinv2T (argv m c main_arg2))) (srcT (argv m c main_arg2)) (dstT (argv m c main_arg2))) := (val_v86 m ρ c)
  have h3 : Vw16 m ρ c main_v75 = (hwsG (kX m c 4) (argv m c main_arg6) (dinv2T (argv m c main_arg2))) := ((keep_v75_15_16 m ρ c).trans (val_v75 m ρ c))
  have h4 : Vw16 m ρ c main_v11 = (dinv2T (argv m c main_arg2)) := ((keep_v11_1_16 m ρ c).trans (val_v11 m ρ c))
  have h5 : Vw16 m ρ c main_arg8 = (argv m c main_arg8) := ((keep_arg8_0_16 m ρ c).trans (val_arg8 m ρ c))
  have h6 : Vw16 m ρ c main_v87 = (rowT (argv m c main_arg9)) := (val_v87 m ρ c)
  have h7 : Vw16 m ρ c main_v88 = (rowT (argv m c main_arg7)) := (val_v88 m ρ c)
  exact (W17_arr m ρ c 9).trans ((arr10_9 (Vw16 m ρ) (fun _ => fullShare) c).trans (by rw [h0, h1, h2, h3, h4, h5, h6, h7]; rfl))
theorem keep_arg11_0_17 (c : Dev nD) : W17 m ρ c (Proc.devRef .tc main_arg11) = W0 m ρ c (Proc.devRef .tc main_arg11) :=
  calc W17 m ρ c (Proc.devRef .tc main_arg11)
    _ = W16 m ρ c (Proc.devRef .tc main_arg11) := W17_of_ne m ρ c main_arg11 (by decide)
    _ = W15 m ρ c (Proc.devRef .tc main_arg11) := StableHlo.after_of_writes_sub hostOps10 _ hostOps10_writes (by decide : main_arg11 ∉ hostOps10_W)
    _ = W14 m ρ c (Proc.devRef .tc main_arg11) := W15_of_ne m ρ c main_arg11 (by decide)
    _ = W13 m ρ c (Proc.devRef .tc main_arg11) := W14_of_ne m ρ c main_arg11 (by decide)
    _ = W12 m ρ c (Proc.devRef .tc main_arg11) := StableHlo.after_of_writes_sub hostOps8 _ hostOps8_writes (by decide : main_arg11 ∉ hostOps8_W)
    _ = W11 m ρ c (Proc.devRef .tc main_arg11) := W12_of_ne m ρ c main_arg11 (by decide)
    _ = W10 m ρ c (Proc.devRef .tc main_arg11) := W11_of_ne m ρ c main_arg11 (by decide)
    _ = W9 m ρ c (Proc.devRef .tc main_arg11) := StableHlo.after_of_writes_sub hostOps6 _ hostOps6_writes (by decide : main_arg11 ∉ hostOps6_W)
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := StableHlo.after_of_writes_sub hostOps4 _ hostOps4_writes (by decide : main_arg11 ∉ hostOps4_W)
    _ = W5 m ρ c (Proc.devRef .tc main_arg11) := W6_of_ne m ρ c main_arg11 (by decide)
    _ = W4 m ρ c (Proc.devRef .tc main_arg11) := W5_of_ne m ρ c main_arg11 (by decide) (by decide)
    _ = W3 m ρ c (Proc.devRef .tc main_arg11) := StableHlo.after_of_writes_sub hostOps2 _ hostOps2_writes (by decide : main_arg11 ∉ hostOps2_W)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)

set_option maxHeartbeats 4000000 in
theorem val_v90 (c : Dev nD) : W18 m ρ c (Proc.devRef .tc main_v90) = b11T (argv m c main_arg11) := by
  have e : W18 m ρ c (Proc.devRef .tc main_v90) = b11T (W17 m ρ c (Proc.devRef .tc main_arg11)) := by
    show StableHlo.after hostOps11 (W17 m ρ c) (Proc.devRef .tc main_v90) = _
    after_results; rfl
  rw [e, ((keep_arg11_0_17 m ρ c).trans (val_arg11 m ρ c))]
theorem keep_v89_0_17_18 (c : Dev nD) : W18 m ρ c (Proc.devRef .tc main_v89_0) = W17 m ρ c (Proc.devRef .tc main_v89_0) :=
  calc W18 m ρ c (Proc.devRef .tc main_v89_0)
    _ = W17 m ρ c (Proc.devRef .tc main_v89_0) := StableHlo.after_of_writes_sub hostOps11 _ hostOps11_writes (by decide : main_v89_0 ∉ hostOps11_W)

theorem keep_arg10_0_18 (c : Dev nD) : W18 m ρ c (Proc.devRef .tc main_arg10) = W0 m ρ c (Proc.devRef .tc main_arg10) :=
  calc W18 m ρ c (Proc.devRef .tc main_arg10)
    _ = W17 m ρ c (Proc.devRef .tc main_arg10) := StableHlo.after_of_writes_sub hostOps11 _ hostOps11_writes (by decide : main_arg10 ∉ hostOps11_W)
    _ = W16 m ρ c (Proc.devRef .tc main_arg10) := W17_of_ne m ρ c main_arg10 (by decide)
    _ = W15 m ρ c (Proc.devRef .tc main_arg10) := StableHlo.after_of_writes_sub hostOps10 _ hostOps10_writes (by decide : main_arg10 ∉ hostOps10_W)
    _ = W14 m ρ c (Proc.devRef .tc main_arg10) := W15_of_ne m ρ c main_arg10 (by decide)
    _ = W13 m ρ c (Proc.devRef .tc main_arg10) := W14_of_ne m ρ c main_arg10 (by decide)
    _ = W12 m ρ c (Proc.devRef .tc main_arg10) := StableHlo.after_of_writes_sub hostOps8 _ hostOps8_writes (by decide : main_arg10 ∉ hostOps8_W)
    _ = W11 m ρ c (Proc.devRef .tc main_arg10) := W12_of_ne m ρ c main_arg10 (by decide)
    _ = W10 m ρ c (Proc.devRef .tc main_arg10) := W11_of_ne m ρ c main_arg10 (by decide)
    _ = W9 m ρ c (Proc.devRef .tc main_arg10) := StableHlo.after_of_writes_sub hostOps6 _ hostOps6_writes (by decide : main_arg10 ∉ hostOps6_W)
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := StableHlo.after_of_writes_sub hostOps4 _ hostOps4_writes (by decide : main_arg10 ∉ hostOps4_W)
    _ = W5 m ρ c (Proc.devRef .tc main_arg10) := W6_of_ne m ρ c main_arg10 (by decide)
    _ = W4 m ρ c (Proc.devRef .tc main_arg10) := W5_of_ne m ρ c main_arg10 (by decide) (by decide)
    _ = W3 m ρ c (Proc.devRef .tc main_arg10) := StableHlo.after_of_writes_sub hostOps2 _ hostOps2_writes (by decide : main_arg10 ∉ hostOps2_W)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)

theorem val_v91 (c : Dev nD) : W19 m ρ c (Proc.devRef .tc main_v91) = decG (kX m c 5) (argv m c main_arg10) (b11T (argv m c main_arg11)) := by
  have h1 : Vw18 m ρ c main_v89_0 = (kX m c 5) := ((keep_v89_0_17_18 m ρ c).trans (val_v89_0 m ρ c))
  have h2 : Vw18 m ρ c main_arg10 = (argv m c main_arg10) := ((keep_arg10_0_18 m ρ c).trans (val_arg10 m ρ c))
  have h3 : Vw18 m ρ c main_v90 = b11T (argv m c main_arg11) := (val_v90 m ρ c)
  exact (W19_arr m ρ c 3).trans ((arr11_3 (Vw18 m ρ) c).trans (by rw [h1, h2, h3]))
theorem keep_arg3_0_19 (c : Dev nD) : W19 m ρ c (Proc.devRef .tc main_arg3) = W0 m ρ c (Proc.devRef .tc main_arg3) :=
  calc W19 m ρ c (Proc.devRef .tc main_arg3)
    _ = W18 m ρ c (Proc.devRef .tc main_arg3) := W19_of_ne m ρ c main_arg3 (by decide)
    _ = W17 m ρ c (Proc.devRef .tc main_arg3) := StableHlo.after_of_writes_sub hostOps11 _ hostOps11_writes (by decide : main_arg3 ∉ hostOps11_W)
    _ = W16 m ρ c (Proc.devRef .tc main_arg3) := W17_of_ne m ρ c main_arg3 (by decide)
    _ = W15 m ρ c (Proc.devRef .tc main_arg3) := StableHlo.after_of_writes_sub hostOps10 _ hostOps10_writes (by decide : main_arg3 ∉ hostOps10_W)
    _ = W14 m ρ c (Proc.devRef .tc main_arg3) := W15_of_ne m ρ c main_arg3 (by decide)
    _ = W13 m ρ c (Proc.devRef .tc main_arg3) := W14_of_ne m ρ c main_arg3 (by decide)
    _ = W12 m ρ c (Proc.devRef .tc main_arg3) := StableHlo.after_of_writes_sub hostOps8 _ hostOps8_writes (by decide : main_arg3 ∉ hostOps8_W)
    _ = W11 m ρ c (Proc.devRef .tc main_arg3) := W12_of_ne m ρ c main_arg3 (by decide)
    _ = W10 m ρ c (Proc.devRef .tc main_arg3) := W11_of_ne m ρ c main_arg3 (by decide)
    _ = W9 m ρ c (Proc.devRef .tc main_arg3) := StableHlo.after_of_writes_sub hostOps6 _ hostOps6_writes (by decide : main_arg3 ∉ hostOps6_W)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := StableHlo.after_of_writes_sub hostOps4 _ hostOps4_writes (by decide : main_arg3 ∉ hostOps4_W)
    _ = W5 m ρ c (Proc.devRef .tc main_arg3) := W6_of_ne m ρ c main_arg3 (by decide)
    _ = W4 m ρ c (Proc.devRef .tc main_arg3) := W5_of_ne m ρ c main_arg3 (by decide) (by decide)
    _ = W3 m ρ c (Proc.devRef .tc main_arg3) := StableHlo.after_of_writes_sub hostOps2 _ hostOps2_writes (by decide : main_arg3 ∉ hostOps2_W)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)

set_option maxHeartbeats 4000000 in
/-- The result buffer at the end: the kernel's whole function of the argument arrays. -/
theorem val_v95 (c : Dev nD) : W20 m ρ c (Proc.devRef .tc main_v95)
    = kRes (argv m c main_arg0) (argv m c main_arg1) (argv m c main_arg2) (argv m c main_arg3) (argv m c main_arg4) (argv m c main_arg5) (argv m c main_arg6) (argv m c main_arg7) (argv m c main_arg8) (argv m c main_arg9) (argv m c main_arg10) (argv m c main_arg11) := by
  have e : W20 m ρ c (Proc.devRef .tc main_v95) = outT (W19 m ρ c (Proc.devRef .tc main_v91)) (W19 m ρ c (Proc.devRef .tc main_arg3)) := by
    show StableHlo.after hostOps12 (W19 m ρ c) (Proc.devRef .tc main_v95) = _
    after_results; rfl
  rw [e, (val_v91 m ρ c), ((keep_arg3_0_19 m ρ c).trans (val_arg3 m ρ c))]; rfl

end Cert.KernelIdeal.Fr

end
-- ==== Proof.RefRes.lean ====
/-
  THE WHOLE REFERENCE AS ONE FUNCTION of its twelve argument arrays, over the extended reals.

  The state is the pair `(X, Y)` of node feature arrays. It starts at `(enc, enc)`, the encoder's output twice; one
  step replaces `(X, Y)` by `(refLayerX … X Y …, refLayerY … X Y …)`, both computed from the OLD pair, with the same four
  weight arrays in every step; after five steps the first component is decoded and summed per graph (`refOut`).
  `refState … n` is the state after `n` steps, so `refState … (n + 1) = refStep … (refState … n)` holds by definition.
-/
import proofs.«131582_j65292092834213_2_alg».proof.Proof.RefSpecDefs

noncomputable section

namespace Cert.ReferenceIdeal.RefValue

open Idealize.ShloMosaic Idealize.ShloMosaic.ValueIdx

/-- One layer on the pair `(X, Y)`: both new arrays are computed from the old pair. -/
def refStep (ei : IVec ⟨2, ![2, 800000]⟩ 32) (W : FVec Ideal ⟨2, ![64, 64]⟩ .f32) (b : FVec Ideal ⟨1, ![64]⟩ .f32)
    (Wr : FVec Ideal ⟨2, ![64, 64]⟩ .f32) (br : FVec Ideal ⟨1, ![64]⟩ .f32)
    (p : FVec Ideal ⟨2, ![50000, 64]⟩ .f32 × FVec Ideal ⟨2, ![50000, 64]⟩ .f32) :
    FVec Ideal ⟨2, ![50000, 64]⟩ .f32 × FVec Ideal ⟨2, ![50000, 64]⟩ .f32 :=
  (refLayerX ei p.1 p.2 W b Wr br, refLayerY ei p.1 p.2 W b Wr br)

/-- The pair `(X, Y)` after `n` layers, from the encoder's output twice. -/
def refState (x : FVec Ideal ⟨2, ![50000, 14]⟩ .f32) (pos : FVec Ideal ⟨2, ![50000, 2]⟩ .f32)
    (ei : IVec ⟨2, ![2, 800000]⟩ 32) (We : FVec Ideal ⟨2, ![16, 64]⟩ .f32) (be : FVec Ideal ⟨1, ![64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32) :
    Nat → FVec Ideal ⟨2, ![50000, 64]⟩ .f32 × FVec Ideal ⟨2, ![50000, 64]⟩ .f32
  | 0 => (refEnc x pos We be, refEnc x pos We be)
  | n + 1 => refStep ei W b Wr br (refState x pos ei We be W b Wr br n)

/-- The reference's result: five layers, then the decoder and the per-graph sum. -/
def refRes (x : FVec Ideal ⟨2, ![50000, 14]⟩ .f32) (pos : FVec Ideal ⟨2, ![50000, 2]⟩ .f32)
    (ei : IVec ⟨2, ![2, 800000]⟩ 32) (batch : IVec ⟨1, ![50000]⟩ 32)
    (We : FVec Ideal ⟨2, ![16, 64]⟩ .f32) (be : FVec Ideal ⟨1, ![64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32)
    (Wd : FVec Ideal ⟨2, ![64, 1]⟩ .f32) (bd : FVec Ideal ⟨1, ![1]⟩ .f32) : FVec Ideal ⟨1, ![500]⟩ .f32 :=
  refOut (refState x pos ei We be W b Wr br 5).1 Wd bd batch

/-- One more layer is one more step (by definition). -/
theorem refState_succ (x : FVec Ideal ⟨2, ![50000, 14]⟩ .f32) (pos : FVec Ideal ⟨2, ![50000, 2]⟩ .f32)
    (ei : IVec ⟨2, ![2, 800000]⟩ 32) (We : FVec Ideal ⟨2, ![16, 64]⟩ .f32) (be : FVec Ideal ⟨1, ![64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32) (n : Nat) :
    refState x pos ei We be W b Wr br (n + 1) = refStep ei W b Wr br (refState x pos ei We be W b Wr br n) := rfl

end Cert.ReferenceIdeal.RefValue

end
-- ==== Proof.KI.KernelRes.lean ====
/-
  THE WHOLE KERNEL IS THE WHOLE REFERENCE.

  Both are a fold of one layer over a pair of node-state arrays that starts at the encoder's result twice, followed by
  the decoder and the per-graph sums. The encoders agree, one layer of the kernel is one layer of the reference on any
  pair, and the decoders with their sums agree on any state; so the states agree after every number of layers and the
  results agree.
-/
import proofs.«131582_j65292092834213_2_alg».proof.Proof.KI.HostRead
import proofs.«131582_j65292092834213_2_alg».proof.Proof.RefRes

noncomputable section

namespace Cert.KernelIdeal.Fr

open Cert.KernelIdeal
open Idealize.ShloMosaic Idealize.ShloMosaic.ValueIdx
open Cert.ReferenceIdeal.RefValue

/-- THE STATES AGREE after every number of layers: the encoder's results agree, and one layer of the kernel is one
    layer of the reference. -/
theorem kState_eq (x : FVec Ideal ⟨2, ![50000, 14]⟩ .f32) (pos : FVec Ideal ⟨2, ![50000, 2]⟩ .f32) (ei : IVec S2x800000 32)
    (We : FVec Ideal ⟨2, ![16, 64]⟩ .f32) (be : FVec Ideal ⟨1, ![64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32) (n : Nat) :
    kState x pos ei We be W b Wr br n = refState x pos ei We be W b Wr br n := by
  induction n with
  | zero =>
    show (encG (inpT x pos) We (rowT be), encG (inpT x pos) We (rowT be)) = (refEnc x pos We be, refEnc x pos We be)
    rw [encG_eq_refEnc]
  | succ n ih =>
    show kStep ei W b Wr br (kState x pos ei We be W b Wr br n) = refStep ei W b Wr br (refState x pos ei We be W b Wr br n)
    rw [ih, kStep_eq]
    rfl

/-- THE WHOLE KERNEL IS THE WHOLE REFERENCE, as functions of the twelve argument arrays. -/
theorem kRes_eq (x : FVec Ideal ⟨2, ![50000, 14]⟩ .f32) (pos : FVec Ideal ⟨2, ![50000, 2]⟩ .f32) (ei : IVec S2x800000 32)
    (batch : IVec ⟨1, ![50000]⟩ 32) (We : FVec Ideal ⟨2, ![16, 64]⟩ .f32) (be : FVec Ideal ⟨1, ![64]⟩ .f32)
    (W : FVec Ideal ⟨2, ![64, 64]⟩ .f32) (b : FVec Ideal ⟨1, ![64]⟩ .f32)
    (Wr : FVec Ideal ⟨2, ![64, 64]⟩ .f32) (br : FVec Ideal ⟨1, ![64]⟩ .f32)
    (Wd : FVec Ideal ⟨2, ![64, 1]⟩ .f32) (bd : FVec Ideal ⟨1, ![1]⟩ .f32) :
    kRes x pos ei batch We be W b Wr br Wd bd = refRes x pos ei batch We be W b Wr br Wd bd := by
  unfold kRes refRes
  rw [kState_eq, outT_decG_eq_refOut]

end Cert.KernelIdeal.Fr

end
-- ==== Proof.RefSpecEnds.lean ====
/-
  THE TWO ENDS OF THE REFERENCE: the encoder before the layers and the decoder with the per-graph sum after them.

  `enc_stage`: the encoder's stage is `refEnc` of the arguments — the 14 + 2 input columns side by side, times the
  encoder matrix, plus its bias. `tail_stage`: whatever array `Z` the last layer's features are, the result is
  `refOut Z` — each node's features contracted with the decoder column plus its bias, summed over the nodes of each
  graph; the one-column array the sum is accumulated in is read back as a vector.
-/
import proofs.«131582_j65292092834213_2_alg».proof.Proof.RefReadP
import proofs.«131582_j65292092834213_2_alg».proof.Proof.RefSpecOps

noncomputable section

open scoped BigOperators

namespace Cert.ReferenceIdeal.RefValue

open Idealize.ShloMosaic Idealize.ShloMosaic.ValueIdx Cert.ReferenceIdeal Cert.ReferenceIdeal.ReadP
open Cert.Lib.ScatterGather1D Cert.KernelIdeal.Hand

variable (x0 : (⟨S50000x14, .f32⟩ : BufTy).Contents (Elt Ideal)) (x1 : (⟨S50000x2, .f32⟩ : BufTy).Contents (Elt Ideal))
  (x2 : (⟨S2x800000, .i32⟩ : BufTy).Contents (Elt Ideal)) (x3 : (⟨S50000, .i32⟩ : BufTy).Contents (Elt Ideal))
  (x4 : (⟨S16x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal)) (x8 : (⟨S64x64, .f32⟩ : BufTy).Contents (Elt Ideal))
  (x9 : (⟨S64, .f32⟩ : BufTy).Contents (Elt Ideal)) (x10 : (⟨S64x1, .f32⟩ : BufTy).Contents (Elt Ideal))
  (x11 : (⟨S1, .f32⟩ : BufTy).Contents (Elt Ideal))

/-- The encoder's stage: the input columns side by side, times the encoder matrix, plus its bias. -/
theorem enc_stage : val_main_v8 (F := Ideal) x0 x1 x4 x5 = refEnc x0 x1 x4 x5 := by
  funext i
  obtain ⟨v, j, rfl⟩ : ∃ (v : Fin 50000) (j : Fin 64), i = ix2 v j := ⟨i 0, i 1, eq_ix2 i⟩
  rw [val_main_v8_apply, val_main_v7_apply, val_main_v6_apply, val_main_v5_apply, Ideal.addf_def]
  unfold refEnc
  refine congrArg₂ (fun s t : EReal => s + t) (Finset.sum_congr rfl fun c _ => ?_) (congrArg x5 ?_)
  · refine congrArg₂ (fun s t : EReal => s * t) ?_ (congrArg x4 ?_)
    · have hl : lidx_main_v5 (ix2 v j) c = ix2 v c :=
        funext fun a => Fin.ext (by match a with | ⟨0, _⟩ => rfl | ⟨1, _⟩ => rfl)
      rw [hl]
      unfold val_main_v4
      exact concat_cols_apply x0 x1 _ v c
    · funext a; refine Fin.ext ?_; match a with | ⟨0, _⟩ => rfl | ⟨1, _⟩ => rfl
  · funext a; match a with | ⟨0, _⟩ => rfl

/-- The decoder and the per-graph sum: with the last layer's features `Z`, the result is `refOut Z`. -/
theorem tail_stage (Z : FVec Ideal ⟨2, ![50000, 64]⟩ .f32)
    (hZ : val_main_v313 (F := Ideal) x0 x1 x2 x4 x5 x6 x7 x8 x9 = Z) :
    val_main_v321 (F := Ideal) x0 x1 x2 x3 x4 x5 x6 x7 x8 x9 x10 x11 = refOut Z x10 x11 x3 := by
  funext i
  obtain ⟨g, rfl⟩ : ∃ g : Fin 500, i = ix1 g := ⟨i 0, eq_ix1 i⟩
  have hi : idx_main_v321 (ix1 g) = ix2 g (0 : Fin 1) :=
    funext fun a => Fin.ext (by match a with | ⟨0, _⟩ => exact Nat.div_one _ | ⟨1, _⟩ => rfl)
  rw [val_main_v321_apply, hi]
  unfold val_main_v320
  refine (out_scatter_apply Facts₀.scatter_S500x1_S50000x1_S50000x1_1_0_0_1_wf _ _ _ x3 (fun g => ?_) (fun v => ?_) g).trans ?_
  · rw [val_main_v318_apply, val_main_cst_73_apply]; exact Ideal.ofBits_zero_f32
  · rw [val_main_v319_apply]
    exact congrArg x3 (funext fun a => by match a with | ⟨0, _⟩ => rfl)
  · unfold refOut
    refine congrArg (fun s => (0 : EReal) + s) (Finset.sum_congr rfl fun v _ => ?_)
    refine congrArg (fun t : EReal => if (x3 (ix1 v)).toInt = (g.val : Int) then t else 0) ?_
    rw [val_main_v317_apply, val_main_v316_apply, val_main_v315_apply, val_main_v314_apply, Ideal.addf_def, hZ]
    refine congrArg₂ (fun s t : EReal => s + t) (Finset.sum_congr rfl fun c _ => ?_) (congrArg x11 ?_)
    · refine congrArg₂ (fun s t : EReal => s * t) (congrArg Z ?_) (congrArg x10 ?_)
      · funext a; refine Fin.ext ?_; match a with | ⟨0, _⟩ => rfl | ⟨1, _⟩ => rfl
      · funext a; refine Fin.ext ?_; match a with | ⟨0, _⟩ => rfl | ⟨1, _⟩ => rfl
    · funext a; match a with | ⟨0, _⟩ => rfl

end Cert.ReferenceIdeal.RefValue

end
-- ==== Proof.RefSpec0.lean ====
/-
  LAYER 0 OF THE REFERENCE IS THE SPECIFICATION'S LAYER: the stages its operations write, read index by index, are
  `refLayerY` and `refLayerX` of the layer's inputs.

  The ladder, each rung over the arguments as variables and each read at an index built from literal coordinates:
  the edge lists with self-loops, the degree, its inverse square root, the edge normalisation, the transformed
  features, the message along an edge, the aggregation, the residual map, the cut-off sum, then the two updates.
  A position of the [850000, 1] index arrays is position r of the flat edge list (the idx lemmas).
-/
import proofs.«131582_j65292092834213_2_alg».proof.Proof.RefReadP
import proofs.«131582_j65292092834213_2_alg».proof.Proof.RefSpecOps

noncomputable section

open scoped BigOperators

namespace Cert.ReferenceIdeal.RefValue

open Idealize.ShloMosaic Idealize.ShloMosaic.ValueIdx Cert.ReferenceIdeal Cert.ReferenceIdeal.ReadP
open Cert.Lib.ScatterGather1D Cert.KernelIdeal.Hand

-- the arguments of @main the layers depend on, at the ideal instance
variable (x0 : (⟨S50000x14, .f32⟩ : BufTy).Contents (Elt Ideal)) (x1 : (⟨S50000x2, .f32⟩ : BufTy).Contents (Elt Ideal))
  (x2 : (⟨S2x800000, .i32⟩ : BufTy).Contents (Elt Ideal)) (x4 : (⟨S16x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal)) (x8 : (⟨S64x64, .f32⟩ : BufTy).Contents (Elt Ideal))
  (x9 : (⟨S64, .f32⟩ : BufTy).Contents (Elt Ideal))

/-! ## Positions of the index arrays -/

theorem idx14_0 (r : Fin 850000) : idx_main_v14 (ix2 r (0 : Fin 1)) = ix1 r := funext fun a => by match a with | ⟨0, _⟩ => rfl
theorem idx26_0 (r : Fin 850000) : idx_main_v26 (ix2 r (0 : Fin 1)) = ix1 r := funext fun a => by match a with | ⟨0, _⟩ => rfl
theorem idx33_0 (r : Fin 850000) : idx_main_v33 (ix2 r (0 : Fin 1)) = ix1 r := funext fun a => by match a with | ⟨0, _⟩ => rfl
theorem idx41_0 (r : Fin 850000) : idx_main_v41 (ix2 r (0 : Fin 1)) = ix1 r := funext fun a => by match a with | ⟨0, _⟩ => rfl
theorem idx47_0 (r : Fin 850000) : idx_main_v47 (ix2 r (0 : Fin 1)) = ix1 r := funext fun a => by match a with | ⟨0, _⟩ => rfl
theorem idx4443_0 (r : Fin 850000) (j : Fin 64) : idx_main_v43 (idx_main_v44 (ix2 r j)) = ix1 r :=
  funext fun a => by match a with | ⟨0, _⟩ => rfl
theorem idx5049_0 (v : Fin 50000) (j : Fin 64) : idx_main_v49 (idx_main_v50 (ix2 v j)) = ix1 j :=
  funext fun a => by match a with | ⟨0, _⟩ => rfl
theorem idx5453_0 (v : Fin 50000) (j : Fin 64) : idx_main_v53 (idx_main_v54 (ix2 v j)) = ix1 j :=
  funext fun a => by match a with | ⟨0, _⟩ => rfl

/-! ## The edge lists -/

/-- Row 0 of the edge array, flattened. -/
theorem stage_src_0 (e : Fin 800000) : val_main_v1 (F := Ideal) x2 (ix1 e) = x2 (ix2 (0 : Fin 2) e) := by
  rw [val_main_v1_apply, val_main_v0_apply]
  refine congrArg x2 (funext fun a => Fin.ext ?_)
  match a with
  | ⟨0, _⟩ => rfl
  | ⟨1, _⟩ => exact Nat.mod_eq_of_lt e.isLt

/-- Row 1 of the edge array, flattened. -/
theorem stage_dst_0 (e : Fin 800000) : val_main_v3 (F := Ideal) x2 (ix1 e) = x2 (ix2 (1 : Fin 2) e) := by
  rw [val_main_v3_apply, val_main_v2_apply]
  refine congrArg x2 (funext fun a => Fin.ext ?_)
  match a with
  | ⟨0, _⟩ => rfl
  | ⟨1, _⟩ => exact Nat.mod_eq_of_lt e.isLt

/-- The sources with self-loops. -/
theorem stage_src2_0 (r : Fin 850000) : val_main_v10 (F := Ideal) x2 (ix1 r) = src2 x2 r := by
  unfold val_main_v10
  exact concat_src2 x2 _ _ _ (fun e => stage_src_0 x2 e) (fun v => val_main_v9_apply (F := Ideal) (ix1 v)) r

/-- The targets with self-loops. -/
theorem stage_dst2_0 (r : Fin 850000) : val_main_v11 (F := Ideal) x2 (ix1 r) = dst2 x2 r := by
  unfold val_main_v11
  exact concat_dst2 x2 _ _ _ (fun e => stage_dst_0 x2 e) (fun v => val_main_v9_apply (F := Ideal) (ix1 v)) r

/-- An endpoint normalised for reading, as the compare, the add and the select compute it: the sources. -/
theorem stage_normSrc_0 (r : Fin 850000) :
    Scalar.select (IntOp.cmpi .slt (val_main_v10 (F := Ideal) x2 (ix1 r)) 0#32) (IntOp.addi (val_main_v10 (F := Ideal) x2 (ix1 r)) 50000#32) (val_main_v10 (F := Ideal) x2 (ix1 r)) =
      normIdx (src2 x2 r) := by
  rw [stage_src2_0, normIdx_select]

/-- The same for the targets. -/
theorem stage_normDst_0 (r : Fin 850000) :
    Scalar.select (IntOp.cmpi .slt (val_main_v11 (F := Ideal) x2 (ix1 r)) 0#32) (IntOp.addi (val_main_v11 (F := Ideal) x2 (ix1 r)) 50000#32) (val_main_v11 (F := Ideal) x2 (ix1 r)) =
      normIdx (dst2 x2 r) := by
  rw [stage_dst2_0, normIdx_select]

/-! ## The degree and its inverse square root -/

theorem stage_deg_0 (v : Fin 50000) : val_main_v15 (F := Ideal) x2 (ix1 v) = refDeg x2 v := by
  unfold val_main_v15
  refine deg_apply x2 Facts₀.scatter_S50000_S850000x1_S850000_n_0_0_1_wf _ _ _ (fun v => ?_) (fun r => ?_) (fun r => ?_) v
  · rw [val_main_v13_apply, val_main_cst_0_apply]; exact Ideal.ofBits_zero_f32
  · rw [val_main_v14_apply, idx14_0]; exact stage_dst2_0 x2 r
  · rw [val_main_v12_apply, val_main_cst_apply]; rfl

theorem stage_dinv_0 (v : Fin 50000) : val_main_v19 (F := Ideal) x2 (ix1 v) = refDinv x2 v := by
  rw [val_main_v19_apply, val_main_v17_apply, val_main_v18_apply, stage_deg_0, val_main_v16_apply, val_main_cst_1_apply,
    val_main_call0_v1_apply, val_main_call0_v0_apply, val_main_cst_2_apply]
  simp only [Ideal.ofBits_def, Ideal.ofBits_zero_f32, Ideal.hostUnary_rsqrt_def]
  exact dinv_select (refDeg x2 v)

/-! ## The edge normalisation, the message and the aggregation -/

theorem stage_norm_0 (r : Fin 850000) : val_main_v35 (F := Ideal) x2 (ix1 r) = refNorm x2 r := by
  have hs : val_main_v26 (F := Ideal) x2 (ix2 r (0 : Fin 1)) = normIdx (src2 x2 r) := by
    rw [val_main_v26_apply, idx26_0, val_main_v25_apply, val_main_v22_apply, val_main_v24_apply, val_main_v21_apply, val_main_c_apply, val_main_v23_apply, val_main_c_3_apply]
    exact stage_normSrc_0 x2 r
  have hd : val_main_v33 (F := Ideal) x2 (ix2 r (0 : Fin 1)) = normIdx (dst2 x2 r) := by
    rw [val_main_v33_apply, idx33_0, val_main_v32_apply, val_main_v29_apply, val_main_v31_apply, val_main_v28_apply, val_main_c_4_apply, val_main_v30_apply, val_main_c_5_apply]
    exact stage_normDst_0 x2 r
  rw [val_main_v35_apply]
  unfold refNorm
  refine congrArg₂ (fun s t : EReal => s * t) ?_ ?_
  · unfold val_main_v27
    exact (gather_node_apply Facts₀.gather_S50000_S850000x1_S850000_n_0_n_n_0_1_1_wf _ _ r (src2 x2 r) hs).trans
      (stage_dinv_0 x2 (rowOf (src2 x2 r)))
  · unfold val_main_v34
    exact (gather_node_apply Facts₀.gather_S50000_S850000x1_S850000_n_0_n_n_0_1_1_wf _ _ r (dst2 x2 r) hd).trans
      (stage_dinv_0 x2 (rowOf (dst2 x2 r)))

theorem stage_hW_0 (v : Fin 50000) (j : Fin 64) : val_main_v20 (F := Ideal) x0 x1 x4 x5 x6 (ix2 v j) = refMatmul (val_main_v8 (F := Ideal) x0 x1 x4 x5) x6 v j := by
  rw [val_main_v20_apply]
  unfold refMatmul
  refine Finset.sum_congr rfl fun c _ => ?_
  refine congrArg₂ (fun s t : EReal => s * t) (congrArg (val_main_v8 (F := Ideal) x0 x1 x4 x5) ?_) (congrArg x6 ?_)
  · funext a; refine Fin.ext ?_; match a with | ⟨0, _⟩ => rfl | ⟨1, _⟩ => rfl
  · funext a; refine Fin.ext ?_; match a with | ⟨0, _⟩ => rfl | ⟨1, _⟩ => rfl

/-- The transformed features of an edge's source. -/
theorem stage_srcRow_0 (r : Fin 850000) (j : Fin 64) :
    val_main_v42 (F := Ideal) x0 x1 x2 x4 x5 x6 (ix2 r j) = refMatmul (val_main_v8 (F := Ideal) x0 x1 x4 x5) x6 (rowOf (src2 x2 r)) j := by
  have hs : val_main_v41 (F := Ideal) x2 (ix2 r (0 : Fin 1)) = normIdx (src2 x2 r) := by
    rw [val_main_v41_apply, idx41_0, val_main_v40_apply, val_main_v37_apply, val_main_v39_apply, val_main_v36_apply, val_main_c_6_apply, val_main_v38_apply, val_main_c_7_apply]
    exact stage_normSrc_0 x2 r
  unfold val_main_v42
  exact (gather_row_apply Facts₀.gather_S50000x64_S850000x1_S850000x64_1_0_n_n_0_1_164_wf _ _ r j (src2 x2 r) hs).trans
    (by rw [stage_hW_0])

/-- The message along an edge. -/
theorem stage_msg_0 (r : Fin 850000) (j : Fin 64) : val_main_v45 (F := Ideal) x0 x1 x2 x4 x5 x6 (ix2 r j) = refMsg x2 (val_main_v8 (F := Ideal) x0 x1 x4 x5) x6 r j := by
  rw [val_main_v45_apply, val_main_v44_apply, val_main_v43_apply, idx4443_0, Ideal.mulf_def, stage_srcRow_0, stage_norm_0]
  rfl

/-- The aggregation with its bias. -/
theorem stage_agg_0 (v : Fin 50000) (j : Fin 64) : val_main_v51 (F := Ideal) x0 x1 x2 x4 x5 x6 x7 (ix2 v j) = refAgg x2 (val_main_v8 (F := Ideal) x0 x1 x4 x5) x6 x7 v j := by
  rw [val_main_v51_apply, val_main_v50_apply, val_main_v49_apply, idx5049_0]
  unfold refAgg
  refine congrArg₂ (fun s t : EReal => s + t) ?_ rfl
  unfold val_main_v48
  refine (agg_apply x2 Facts₀.scatter_S50000x64_S850000x1_S850000x64_1_0_0_1_wf _ _ _ (fun v j => ?_) (fun r => ?_) v j).trans ?_
  · rw [val_main_v46_apply, val_main_cst_8_apply]; exact Ideal.ofBits_zero_f32
  · rw [val_main_v47_apply, idx47_0]; exact stage_dst2_0 x2 r
  · refine congrArg (fun s => (0 : EReal) + s) (Finset.sum_congr rfl fun r _ => ?_)
    rw [stage_msg_0]

/-- The residual map of the features. -/
theorem stage_res_0 (v : Fin 50000) (j : Fin 64) : val_main_v55 (F := Ideal) x0 x1 x4 x5 x8 x9 (ix2 v j) = refMatmul (val_main_v8 (F := Ideal) x0 x1 x4 x5) x8 v j + x9 (ix1 j) := by
  rw [val_main_v55_apply, val_main_v54_apply, val_main_v53_apply, idx5453_0, val_main_v52_apply]
  refine congrArg₂ (fun s t : EReal => s + t) ?_ rfl
  unfold refMatmul
  refine Finset.sum_congr rfl fun c _ => ?_
  refine congrArg₂ (fun s t : EReal => s * t) (congrArg (val_main_v8 (F := Ideal) x0 x1 x4 x5) ?_) (congrArg x8 ?_)
  · funext a; refine Fin.ext ?_; match a with | ⟨0, _⟩ => rfl | ⟨1, _⟩ => rfl
  · funext a; refine Fin.ext ?_; match a with | ⟨0, _⟩ => rfl | ⟨1, _⟩ => rfl

/-- The cut-off sum. -/
theorem stage_relu_0 (v : Fin 50000) (j : Fin 64) : val_main_v57 (F := Ideal) x0 x1 x2 x4 x5 x6 x7 x8 x9 (ix2 v j) = refRelu x2 (val_main_v8 (F := Ideal) x0 x1 x4 x5) x6 x7 x8 x9 v j := by
  rw [val_main_v57_apply, val_main_v56_apply, stage_agg_0, stage_res_0, val_main_call1_v0_apply, val_main_call1_cst_apply]
  simp only [Ideal.ofBits_def, Ideal.ofBits_zero_f32, Ideal.maximumf_def, Ideal.addf_def]
  rfl

/-! ## The two updates -/

/-- LAYER 0's new Y. -/
theorem layer0_Y : val_main_v66 (F := Ideal) x0 x1 x2 x4 x5 x6 x7 x8 x9 = refLayerY x2 (val_main_v8 (F := Ideal) x0 x1 x4 x5) (val_main_v8 (F := Ideal) x0 x1 x4 x5) x6 x7 x8 x9 := by
  funext i
  obtain ⟨v, j, rfl⟩ : ∃ (v : Fin 50000) (j : Fin 64), i = ix2 v j := ⟨i 0, i 1, eq_ix2 i⟩
  rw [val_main_v66_apply, val_main_v65_apply, val_main_v63_apply, val_main_v60_apply, stage_relu_0, val_main_v59_apply, val_main_v62_apply,
    val_main_v58_apply, val_main_v61_apply, val_main_v64_apply, val_main_cst_9_apply, val_main_cst_10_apply, val_main_cst_11_apply]
  simp only [Ideal.ofBits_def, Ideal.addf_def, Ideal.subf_def, Ideal.mulf_def]
  rfl

/-- LAYER 0's new X. -/
theorem layer0_X : val_main_v69 (F := Ideal) x0 x1 x2 x4 x5 x6 x7 x8 x9 = refLayerX x2 (val_main_v8 (F := Ideal) x0 x1 x4 x5) (val_main_v8 (F := Ideal) x0 x1 x4 x5) x6 x7 x8 x9 := by
  funext i
  rw [val_main_v69_apply, val_main_v68_apply, val_main_v67_apply, val_main_cst_12_apply, layer0_Y]
  simp only [Ideal.ofBits_def, Ideal.addf_def, Ideal.mulf_def]
  rfl

end Cert.ReferenceIdeal.RefValue

end
-- ==== Proof.RefSpec1.lean ====
/-
  LAYER 1 OF THE REFERENCE IS THE SPECIFICATION'S LAYER: the stages its operations write, read index by index, are
  `refLayerY` and `refLayerX` of the layer's inputs.

  The ladder, each rung over the arguments as variables and each read at an index built from literal coordinates:
  the edge lists with self-loops, the degree, its inverse square root, the edge normalisation, the transformed
  features, the message along an edge, the aggregation, the residual map, the cut-off sum, then the two updates.
  A position of the [850000, 1] index arrays is position r of the flat edge list (the idx lemmas).
-/
import proofs.«131582_j65292092834213_2_alg».proof.Proof.RefReadP
import proofs.«131582_j65292092834213_2_alg».proof.Proof.RefSpecOps

noncomputable section

open scoped BigOperators

namespace Cert.ReferenceIdeal.RefValue

open Idealize.ShloMosaic Idealize.ShloMosaic.ValueIdx Cert.ReferenceIdeal Cert.ReferenceIdeal.ReadP
open Cert.Lib.ScatterGather1D Cert.KernelIdeal.Hand

-- the arguments of @main the layers depend on, at the ideal instance
variable (x0 : (⟨S50000x14, .f32⟩ : BufTy).Contents (Elt Ideal)) (x1 : (⟨S50000x2, .f32⟩ : BufTy).Contents (Elt Ideal))
  (x2 : (⟨S2x800000, .i32⟩ : BufTy).Contents (Elt Ideal)) (x4 : (⟨S16x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal)) (x8 : (⟨S64x64, .f32⟩ : BufTy).Contents (Elt Ideal))
  (x9 : (⟨S64, .f32⟩ : BufTy).Contents (Elt Ideal))

/-! ## Positions of the index arrays -/

theorem idx14_1 (r : Fin 850000) : idx_main_v75 (ix2 r (0 : Fin 1)) = ix1 r := funext fun a => by match a with | ⟨0, _⟩ => rfl
theorem idx26_1 (r : Fin 850000) : idx_main_v87 (ix2 r (0 : Fin 1)) = ix1 r := funext fun a => by match a with | ⟨0, _⟩ => rfl
theorem idx33_1 (r : Fin 850000) : idx_main_v94 (ix2 r (0 : Fin 1)) = ix1 r := funext fun a => by match a with | ⟨0, _⟩ => rfl
theorem idx41_1 (r : Fin 850000) : idx_main_v102 (ix2 r (0 : Fin 1)) = ix1 r := funext fun a => by match a with | ⟨0, _⟩ => rfl
theorem idx47_1 (r : Fin 850000) : idx_main_v108 (ix2 r (0 : Fin 1)) = ix1 r := funext fun a => by match a with | ⟨0, _⟩ => rfl
theorem idx4443_1 (r : Fin 850000) (j : Fin 64) : idx_main_v104 (idx_main_v105 (ix2 r j)) = ix1 r :=
  funext fun a => by match a with | ⟨0, _⟩ => rfl
theorem idx5049_1 (v : Fin 50000) (j : Fin 64) : idx_main_v110 (idx_main_v111 (ix2 v j)) = ix1 j :=
  funext fun a => by match a with | ⟨0, _⟩ => rfl
theorem idx5453_1 (v : Fin 50000) (j : Fin 64) : idx_main_v114 (idx_main_v115 (ix2 v j)) = ix1 j :=
  funext fun a => by match a with | ⟨0, _⟩ => rfl

/-! ## The edge lists -/

/-- Row 0 of the edge array, flattened. -/
theorem stage_src_1 (e : Fin 800000) : val_main_v1 (F := Ideal) x2 (ix1 e) = x2 (ix2 (0 : Fin 2) e) := by
  rw [val_main_v1_apply, val_main_v0_apply]
  refine congrArg x2 (funext fun a => Fin.ext ?_)
  match a with
  | ⟨0, _⟩ => rfl
  | ⟨1, _⟩ => exact Nat.mod_eq_of_lt e.isLt

/-- Row 1 of the edge array, flattened. -/
theorem stage_dst_1 (e : Fin 800000) : val_main_v3 (F := Ideal) x2 (ix1 e) = x2 (ix2 (1 : Fin 2) e) := by
  rw [val_main_v3_apply, val_main_v2_apply]
  refine congrArg x2 (funext fun a => Fin.ext ?_)
  match a with
  | ⟨0, _⟩ => rfl
  | ⟨1, _⟩ => exact Nat.mod_eq_of_lt e.isLt

/-- The sources with self-loops. -/
theorem stage_src2_1 (r : Fin 850000) : val_main_v71 (F := Ideal) x2 (ix1 r) = src2 x2 r := by
  unfold val_main_v71
  exact concat_src2 x2 _ _ _ (fun e => stage_src_1 x2 e) (fun v => val_main_v70_apply (F := Ideal) (ix1 v)) r

/-- The targets with self-loops. -/
theorem stage_dst2_1 (r : Fin 850000) : val_main_v72 (F := Ideal) x2 (ix1 r) = dst2 x2 r := by
  unfold val_main_v72
  exact concat_dst2 x2 _ _ _ (fun e => stage_dst_1 x2 e) (fun v => val_main_v70_apply (F := Ideal) (ix1 v)) r

/-- An endpoint normalised for reading, as the compare, the add and the select compute it: the sources. -/
theorem stage_normSrc_1 (r : Fin 850000) :
    Scalar.select (IntOp.cmpi .slt (val_main_v71 (F := Ideal) x2 (ix1 r)) 0#32) (IntOp.addi (val_main_v71 (F := Ideal) x2 (ix1 r)) 50000#32) (val_main_v71 (F := Ideal) x2 (ix1 r)) =
      normIdx (src2 x2 r) := by
  rw [stage_src2_1, normIdx_select]

/-- The same for the targets. -/
theorem stage_normDst_1 (r : Fin 850000) :
    Scalar.select (IntOp.cmpi .slt (val_main_v72 (F := Ideal) x2 (ix1 r)) 0#32) (IntOp.addi (val_main_v72 (F := Ideal) x2 (ix1 r)) 50000#32) (val_main_v72 (F := Ideal) x2 (ix1 r)) =
      normIdx (dst2 x2 r) := by
  rw [stage_dst2_1, normIdx_select]

/-! ## The degree and its inverse square root -/

theorem stage_deg_1 (v : Fin 50000) : val_main_v76 (F := Ideal) x2 (ix1 v) = refDeg x2 v := by
  unfold val_main_v76
  refine deg_apply x2 Facts₀.scatter_S50000_S850000x1_S850000_n_0_0_1_wf _ _ _ (fun v => ?_) (fun r => ?_) (fun r => ?_) v
  · rw [val_main_v74_apply, val_main_cst_14_apply]; exact Ideal.ofBits_zero_f32
  · rw [val_main_v75_apply, idx14_1]; exact stage_dst2_1 x2 r
  · rw [val_main_v73_apply, val_main_cst_13_apply]; rfl

theorem stage_dinv_1 (v : Fin 50000) : val_main_v80 (F := Ideal) x2 (ix1 v) = refDinv x2 v := by
  rw [val_main_v80_apply, val_main_v78_apply, val_main_v79_apply, stage_deg_1, val_main_v77_apply, val_main_cst_15_apply,
    val_main_call2_v1_apply, val_main_call2_v0_apply, val_main_cst_16_apply]
  simp only [Ideal.ofBits_def, Ideal.ofBits_zero_f32, Ideal.hostUnary_rsqrt_def]
  exact dinv_select (refDeg x2 v)

/-! ## The edge normalisation, the message and the aggregation -/

theorem stage_norm_1 (r : Fin 850000) : val_main_v96 (F := Ideal) x2 (ix1 r) = refNorm x2 r := by
  have hs : val_main_v87 (F := Ideal) x2 (ix2 r (0 : Fin 1)) = normIdx (src2 x2 r) := by
    rw [val_main_v87_apply, idx26_1, val_main_v86_apply, val_main_v83_apply, val_main_v85_apply, val_main_v82_apply, val_main_c_17_apply, val_main_v84_apply, val_main_c_18_apply]
    exact stage_normSrc_1 x2 r
  have hd : val_main_v94 (F := Ideal) x2 (ix2 r (0 : Fin 1)) = normIdx (dst2 x2 r) := by
    rw [val_main_v94_apply, idx33_1, val_main_v93_apply, val_main_v90_apply, val_main_v92_apply, val_main_v89_apply, val_main_c_19_apply, val_main_v91_apply, val_main_c_20_apply]
    exact stage_normDst_1 x2 r
  rw [val_main_v96_apply]
  unfold refNorm
  refine congrArg₂ (fun s t : EReal => s * t) ?_ ?_
  · unfold val_main_v88
    exact (gather_node_apply Facts₀.gather_S50000_S850000x1_S850000_n_0_n_n_0_1_1_wf _ _ r (src2 x2 r) hs).trans
      (stage_dinv_1 x2 (rowOf (src2 x2 r)))
  · unfold val_main_v95
    exact (gather_node_apply Facts₀.gather_S50000_S850000x1_S850000_n_0_n_n_0_1_1_wf _ _ r (dst2 x2 r) hd).trans
      (stage_dinv_1 x2 (rowOf (dst2 x2 r)))

theorem stage_hW_1 (v : Fin 50000) (j : Fin 64) : val_main_v81 (F := Ideal) x0 x1 x2 x4 x5 x6 x7 x8 x9 (ix2 v j) = refMatmul (val_main_v69 (F := Ideal) x0 x1 x2 x4 x5 x6 x7 x8 x9) x6 v j := by
  rw [val_main_v81_apply]
  unfold refMatmul
  refine Finset.sum_congr rfl fun c _ => ?_
  refine congrArg₂ (fun s t : EReal => s * t) (congrArg (val_main_v69 (F := Ideal) x0 x1 x2 x4 x5 x6 x7 x8 x9) ?_) (congrArg x6 ?_)
  · funext a; refine Fin.ext ?_; match a with | ⟨0, _⟩ => rfl | ⟨1, _⟩ => rfl
  · funext a; refine Fin.ext ?_; match a with | ⟨0, _⟩ => rfl | ⟨1, _⟩ => rfl

/-- The transformed features of an edge's source. -/
theorem stage_srcRow_1 (r : Fin 850000) (j : Fin 64) :
    val_main_v103 (F := Ideal) x0 x1 x2 x4 x5 x6 x7 x8 x9 (ix2 r j) = refMatmul (val_main_v69 (F := Ideal) x0 x1 x2 x4 x5 x6 x7 x8 x9) x6 (rowOf (src2 x2 r)) j := by
  have hs : val_main_v102 (F := Ideal) x2 (ix2 r (0 : Fin 1)) = normIdx (src2 x2 r) := by
    rw [val_main_v102_apply, idx41_1, val_main_v101_apply, val_main_v98_apply, val_main_v100_apply, val_main_v97_apply, val_main_c_21_apply, val_main_v99_apply, val_main_c_22_apply]
    exact stage_normSrc_1 x2 r
  unfold val_main_v103
  exact (gather_row_apply Facts₀.gather_S50000x64_S850000x1_S850000x64_1_0_n_n_0_1_164_wf _ _ r j (src2 x2 r) hs).trans
    (by rw [stage_hW_1])

/-- The message along an edge. -/
theorem stage_msg_1 (r : Fin 850000) (j : Fin 64) : val_main_v106 (F := Ideal) x0 x1 x2 x4 x5 x6 x7 x8 x9 (ix2 r j) = refMsg x2 (val_main_v69 (F := Ideal) x0 x1 x2 x4 x5 x6 x7 x8 x9) x6 r j := by
  rw [val_main_v106_apply, val_main_v105_apply, val_main_v104_apply, idx4443_1, Ideal.mulf_def, stage_srcRow_1, stage_norm_1]
  rfl

/-- The aggregation with its bias. -/
theorem stage_agg_1 (v : Fin 50000) (j : Fin 64) : val_main_v112 (F := Ideal) x0 x1 x2 x4 x5 x6 x7 x8 x9 (ix2 v j) = refAgg x2 (val_main_v69 (F := Ideal) x0 x1 x2 x4 x5 x6 x7 x8 x9) x6 x7 v j := by
  rw [val_main_v112_apply, val_main_v111_apply, val_main_v110_apply, idx5049_1]
  unfold refAgg
  refine congrArg₂ (fun s t : EReal => s + t) ?_ rfl
  unfold val_main_v109
  refine (agg_apply x2 Facts₀.scatter_S50000x64_S850000x1_S850000x64_1_0_0_1_wf _ _ _ (fun v j => ?_) (fun r => ?_) v j).trans ?_
  · rw [val_main_v107_apply, val_main_cst_23_apply]; exact Ideal.ofBits_zero_f32
  · rw [val_main_v108_apply, idx47_1]; exact stage_dst2_1 x2 r
  · refine congrArg (fun s => (0 : EReal) + s) (Finset.sum_congr rfl fun r _ => ?_)
    rw [stage_msg_1]

/-- The residual map of the features. -/
theorem stage_res_1 (v : Fin 50000) (j : Fin 64) : val_main_v116 (F := Ideal) x0 x1 x2 x4 x5 x6 x7 x8 x9 (ix2 v j) = refMatmul (val_main_v69 (F := Ideal) x0 x1 x2 x4 x5 x6 x7 x8 x9) x8 v j + x9 (ix1 j) := by
  rw [val_main_v116_apply, val_main_v115_apply, val_main_v114_apply, idx5453_1, val_main_v113_apply]
  refine congrArg₂ (fun s t : EReal => s + t) ?_ rfl
  unfold refMatmul
  refine Finset.sum_congr rfl fun c _ => ?_
  refine congrArg₂ (fun s t : EReal => s * t) (congrArg (val_main_v69 (F := Ideal) x0 x1 x2 x4 x5 x6 x7 x8 x9) ?_) (congrArg x8 ?_)
  · funext a; refine Fin.ext ?_; match a with | ⟨0, _⟩ => rfl | ⟨1, _⟩ => rfl
  · funext a; refine Fin.ext ?_; match a with | ⟨0, _⟩ => rfl | ⟨1, _⟩ => rfl

/-- The cut-off sum. -/
theorem stage_relu_1 (v : Fin 50000) (j : Fin 64) : val_main_v118 (F := Ideal) x0 x1 x2 x4 x5 x6 x7 x8 x9 (ix2 v j) = refRelu x2 (val_main_v69 (F := Ideal) x0 x1 x2 x4 x5 x6 x7 x8 x9) x6 x7 x8 x9 v j := by
  rw [val_main_v118_apply, val_main_v117_apply, stage_agg_1, stage_res_1, val_main_call3_v0_apply, val_main_call3_cst_apply]
  simp only [Ideal.ofBits_def, Ideal.ofBits_zero_f32, Ideal.maximumf_def, Ideal.addf_def]
  rfl

/-! ## The two updates -/

/-- LAYER 1's new Y. -/
theorem layer1_Y : val_main_v127 (F := Ideal) x0 x1 x2 x4 x5 x6 x7 x8 x9 = refLayerY x2 (val_main_v69 (F := Ideal) x0 x1 x2 x4 x5 x6 x7 x8 x9) (val_main_v66 (F := Ideal) x0 x1 x2 x4 x5 x6 x7 x8 x9) x6 x7 x8 x9 := by
  funext i
  obtain ⟨v, j, rfl⟩ : ∃ (v : Fin 50000) (j : Fin 64), i = ix2 v j := ⟨i 0, i 1, eq_ix2 i⟩
  rw [val_main_v127_apply, val_main_v126_apply, val_main_v124_apply, val_main_v121_apply, stage_relu_1, val_main_v120_apply, val_main_v123_apply,
    val_main_v119_apply, val_main_v122_apply, val_main_v125_apply, val_main_cst_24_apply, val_main_cst_25_apply, val_main_cst_26_apply]
  simp only [Ideal.ofBits_def, Ideal.addf_def, Ideal.subf_def, Ideal.mulf_def]
  rfl

/-- LAYER 1's new X. -/
theorem layer1_X : val_main_v130 (F := Ideal) x0 x1 x2 x4 x5 x6 x7 x8 x9 = refLayerX x2 (val_main_v69 (F := Ideal) x0 x1 x2 x4 x5 x6 x7 x8 x9) (val_main_v66 (F := Ideal) x0 x1 x2 x4 x5 x6 x7 x8 x9) x6 x7 x8 x9 := by
  funext i
  rw [val_main_v130_apply, val_main_v129_apply, val_main_v128_apply, val_main_cst_27_apply, layer1_Y]
  simp only [Ideal.ofBits_def, Ideal.addf_def, Ideal.mulf_def]
  rfl

end Cert.ReferenceIdeal.RefValue

end
-- ==== Proof.RefSpec2.lean ====
/-
  LAYER 2 OF THE REFERENCE IS THE SPECIFICATION'S LAYER: the stages its operations write, read index by index, are
  `refLayerY` and `refLayerX` of the layer's inputs.

  The ladder, each rung over the arguments as variables and each read at an index built from literal coordinates:
  the edge lists with self-loops, the degree, its inverse square root, the edge normalisation, the transformed
  features, the message along an edge, the aggregation, the residual map, the cut-off sum, then the two updates.
  A position of the [850000, 1] index arrays is position r of the flat edge list (the idx lemmas).
-/
import proofs.«131582_j65292092834213_2_alg».proof.Proof.RefReadP
import proofs.«131582_j65292092834213_2_alg».proof.Proof.RefSpecOps

noncomputable section

open scoped BigOperators

namespace Cert.ReferenceIdeal.RefValue

open Idealize.ShloMosaic Idealize.ShloMosaic.ValueIdx Cert.ReferenceIdeal Cert.ReferenceIdeal.ReadP
open Cert.Lib.ScatterGather1D Cert.KernelIdeal.Hand

-- the arguments of @main the layers depend on, at the ideal instance
variable (x0 : (⟨S50000x14, .f32⟩ : BufTy).Contents (Elt Ideal)) (x1 : (⟨S50000x2, .f32⟩ : BufTy).Contents (Elt Ideal))
  (x2 : (⟨S2x800000, .i32⟩ : BufTy).Contents (Elt Ideal)) (x4 : (⟨S16x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal)) (x8 : (⟨S64x64, .f32⟩ : BufTy).Contents (Elt Ideal))
  (x9 : (⟨S64, .f32⟩ : BufTy).Contents (Elt Ideal))

/-! ## Positions of the index arrays -/

theorem idx14_2 (r : Fin 850000) : idx_main_v136 (ix2 r (0 : Fin 1)) = ix1 r := funext fun a => by match a with | ⟨0, _⟩ => rfl
theorem idx26_2 (r : Fin 850000) : idx_main_v148 (ix2 r (0 : Fin 1)) = ix1 r := funext fun a => by match a with | ⟨0, _⟩ => rfl
theorem idx33_2 (r : Fin 850000) : idx_main_v155 (ix2 r (0 : Fin 1)) = ix1 r := funext fun a => by match a with | ⟨0, _⟩ => rfl
theorem idx41_2 (r : Fin 850000) : idx_main_v163 (ix2 r (0 : Fin 1)) = ix1 r := funext fun a => by match a with | ⟨0, _⟩ => rfl
theorem idx47_2 (r : Fin 850000) : idx_main_v169 (ix2 r (0 : Fin 1)) = ix1 r := funext fun a => by match a with | ⟨0, _⟩ => rfl
theorem idx4443_2 (r : Fin 850000) (j : Fin 64) : idx_main_v165 (idx_main_v166 (ix2 r j)) = ix1 r :=
  funext fun a => by match a with | ⟨0, _⟩ => rfl
theorem idx5049_2 (v : Fin 50000) (j : Fin 64) : idx_main_v171 (idx_main_v172 (ix2 v j)) = ix1 j :=
  funext fun a => by match a with | ⟨0, _⟩ => rfl
theorem idx5453_2 (v : Fin 50000) (j : Fin 64) : idx_main_v175 (idx_main_v176 (ix2 v j)) = ix1 j :=
  funext fun a => by match a with | ⟨0, _⟩ => rfl

/-! ## The edge lists -/

/-- Row 0 of the edge array, flattened. -/
theorem stage_src_2 (e : Fin 800000) : val_main_v1 (F := Ideal) x2 (ix1 e) = x2 (ix2 (0 : Fin 2) e) := by
  rw [val_main_v1_apply, val_main_v0_apply]
  refine congrArg x2 (funext fun a => Fin.ext ?_)
  match a with
  | ⟨0, _⟩ => rfl
  | ⟨1, _⟩ => exact Nat.mod_eq_of_lt e.isLt

/-- Row 1 of the edge array, flattened. -/
theorem stage_dst_2 (e : Fin 800000) : val_main_v3 (F := Ideal) x2 (ix1 e) = x2 (ix2 (1 : Fin 2) e) := by
  rw [val_main_v3_apply, val_main_v2_apply]
  refine congrArg x2 (funext fun a => Fin.ext ?_)
  match a with
  | ⟨0, _⟩ => rfl
  | ⟨1, _⟩ => exact Nat.mod_eq_of_lt e.isLt

/-- The sources with self-loops. -/
theorem stage_src2_2 (r : Fin 850000) : val_main_v132 (F := Ideal) x2 (ix1 r) = src2 x2 r := by
  unfold val_main_v132
  exact concat_src2 x2 _ _ _ (fun e => stage_src_2 x2 e) (fun v => val_main_v131_apply (F := Ideal) (ix1 v)) r

/-- The targets with self-loops. -/
theorem stage_dst2_2 (r : Fin 850000) : val_main_v133 (F := Ideal) x2 (ix1 r) = dst2 x2 r := by
  unfold val_main_v133
  exact concat_dst2 x2 _ _ _ (fun e => stage_dst_2 x2 e) (fun v => val_main_v131_apply (F := Ideal) (ix1 v)) r

/-- An endpoint normalised for reading, as the compare, the add and the select compute it: the sources. -/
theorem stage_normSrc_2 (r : Fin 850000) :
    Scalar.select (IntOp.cmpi .slt (val_main_v132 (F := Ideal) x2 (ix1 r)) 0#32) (IntOp.addi (val_main_v132 (F := Ideal) x2 (ix1 r)) 50000#32) (val_main_v132 (F := Ideal) x2 (ix1 r)) =
      normIdx (src2 x2 r) := by
  rw [stage_src2_2, normIdx_select]

/-- The same for the targets. -/
theorem stage_normDst_2 (r : Fin 850000) :
    Scalar.select (IntOp.cmpi .slt (val_main_v133 (F := Ideal) x2 (ix1 r)) 0#32) (IntOp.addi (val_main_v133 (F := Ideal) x2 (ix1 r)) 50000#32) (val_main_v133 (F := Ideal) x2 (ix1 r)) =
      normIdx (dst2 x2 r) := by
  rw [stage_dst2_2, normIdx_select]

/-! ## The degree and its inverse square root -/

theorem stage_deg_2 (v : Fin 50000) : val_main_v137 (F := Ideal) x2 (ix1 v) = refDeg x2 v := by
  unfold val_main_v137
  refine deg_apply x2 Facts₀.scatter_S50000_S850000x1_S850000_n_0_0_1_wf _ _ _ (fun v => ?_) (fun r => ?_) (fun r => ?_) v
  · rw [val_main_v135_apply, val_main_cst_29_apply]; exact Ideal.ofBits_zero_f32
  · rw [val_main_v136_apply, idx14_2]; exact stage_dst2_2 x2 r
  · rw [val_main_v134_apply, val_main_cst_28_apply]; rfl

theorem stage_dinv_2 (v : Fin 50000) : val_main_v141 (F := Ideal) x2 (ix1 v) = refDinv x2 v := by
  rw [val_main_v141_apply, val_main_v139_apply, val_main_v140_apply, stage_deg_2, val_main_v138_apply, val_main_cst_30_apply,
    val_main_call4_v1_apply, val_main_call4_v0_apply, val_main_cst_31_apply]
  simp only [Ideal.ofBits_def, Ideal.ofBits_zero_f32, Ideal.hostUnary_rsqrt_def]
  exact dinv_select (refDeg x2 v)

/-! ## The edge normalisation, the message and the aggregation -/

theorem stage_norm_2 (r : Fin 850000) : val_main_v157 (F := Ideal) x2 (ix1 r) = refNorm x2 r := by
  have hs : val_main_v148 (F := Ideal) x2 (ix2 r (0 : Fin 1)) = normIdx (src2 x2 r) := by
    rw [val_main_v148_apply, idx26_2, val_main_v147_apply, val_main_v144_apply, val_main_v146_apply, val_main_v143_apply, val_main_c_32_apply, val_main_v145_apply, val_main_c_33_apply]
    exact stage_normSrc_2 x2 r
  have hd : val_main_v155 (F := Ideal) x2 (ix2 r (0 : Fin 1)) = normIdx (dst2 x2 r) := by
    rw [val_main_v155_apply, idx33_2, val_main_v154_apply, val_main_v151_apply, val_main_v153_apply, val_main_v150_apply, val_main_c_34_apply, val_main_v152_apply, val_main_c_35_apply]
    exact stage_normDst_2 x2 r
  rw [val_main_v157_apply]
  unfold refNorm
  refine congrArg₂ (fun s t : EReal => s * t) ?_ ?_
  · unfold val_main_v149
    exact (gather_node_apply Facts₀.gather_S50000_S850000x1_S850000_n_0_n_n_0_1_1_wf _ _ r (src2 x2 r) hs).trans
      (stage_dinv_2 x2 (rowOf (src2 x2 r)))
  · unfold val_main_v156
    exact (gather_node_apply Facts₀.gather_S50000_S850000x1_S850000_n_0_n_n_0_1_1_wf _ _ r (dst2 x2 r) hd).trans
      (stage_dinv_2 x2 (rowOf (dst2 x2 r)))

theorem stage_hW_2 (v : Fin 50000) (j : Fin 64) : val_main_v142 (F := Ideal) x0 x1 x2 x4 x5 x6 x7 x8 x9 (ix2 v j) = refMatmul (val_main_v130 (F := Ideal) x0 x1 x2 x4 x5 x6 x7 x8 x9) x6 v j := by
  rw [val_main_v142_apply]
  unfold refMatmul
  refine Finset.sum_congr rfl fun c _ => ?_
  refine congrArg₂ (fun s t : EReal => s * t) (congrArg (val_main_v130 (F := Ideal) x0 x1 x2 x4 x5 x6 x7 x8 x9) ?_) (congrArg x6 ?_)
  · funext a; refine Fin.ext ?_; match a with | ⟨0, _⟩ => rfl | ⟨1, _⟩ => rfl
  · funext a; refine Fin.ext ?_; match a with | ⟨0, _⟩ => rfl | ⟨1, _⟩ => rfl

/-- The transformed features of an edge's source. -/
theorem stage_srcRow_2 (r : Fin 850000) (j : Fin 64) :
    val_main_v164 (F := Ideal) x0 x1 x2 x4 x5 x6 x7 x8 x9 (ix2 r j) = refMatmul (val_main_v130 (F := Ideal) x0 x1 x2 x4 x5 x6 x7 x8 x9) x6 (rowOf (src2 x2 r)) j := by
  have hs : val_main_v163 (F := Ideal) x2 (ix2 r (0 : Fin 1)) = normIdx (src2 x2 r) := by
    rw [val_main_v163_apply, idx41_2, val_main_v162_apply, val_main_v159_apply, val_main_v161_apply, val_main_v158_apply, val_main_c_36_apply, val_main_v160_apply, val_main_c_37_apply]
    exact stage_normSrc_2 x2 r
  unfold val_main_v164
  exact (gather_row_apply Facts₀.gather_S50000x64_S850000x1_S850000x64_1_0_n_n_0_1_164_wf _ _ r j (src2 x2 r) hs).trans
    (by rw [stage_hW_2])

/-- The message along an edge. -/
theorem stage_msg_2 (r : Fin 850000) (j : Fin 64) : val_main_v167 (F := Ideal) x0 x1 x2 x4 x5 x6 x7 x8 x9 (ix2 r j) = refMsg x2 (val_main_v130 (F := Ideal) x0 x1 x2 x4 x5 x6 x7 x8 x9) x6 r j := by
  rw [val_main_v167_apply, val_main_v166_apply, val_main_v165_apply, idx4443_2, Ideal.mulf_def, stage_srcRow_2, stage_norm_2]
  rfl

/-- The aggregation with its bias. -/
theorem stage_agg_2 (v : Fin 50000) (j : Fin 64) : val_main_v173 (F := Ideal) x0 x1 x2 x4 x5 x6 x7 x8 x9 (ix2 v j) = refAgg x2 (val_main_v130 (F := Ideal) x0 x1 x2 x4 x5 x6 x7 x8 x9) x6 x7 v j := by
  rw [val_main_v173_apply, val_main_v172_apply, val_main_v171_apply, idx5049_2]
  unfold refAgg
  refine congrArg₂ (fun s t : EReal => s + t) ?_ rfl
  unfold val_main_v170
  refine (agg_apply x2 Facts₀.scatter_S50000x64_S850000x1_S850000x64_1_0_0_1_wf _ _ _ (fun v j => ?_) (fun r => ?_) v j).trans ?_
  · rw [val_main_v168_apply, val_main_cst_38_apply]; exact Ideal.ofBits_zero_f32
  · rw [val_main_v169_apply, idx47_2]; exact stage_dst2_2 x2 r
  · refine congrArg (fun s => (0 : EReal) + s) (Finset.sum_congr rfl fun r _ => ?_)
    rw [stage_msg_2]

/-- The residual map of the features. -/
theorem stage_res_2 (v : Fin 50000) (j : Fin 64) : val_main_v177 (F := Ideal) x0 x1 x2 x4 x5 x6 x7 x8 x9 (ix2 v j) = refMatmul (val_main_v130 (F := Ideal) x0 x1 x2 x4 x5 x6 x7 x8 x9) x8 v j + x9 (ix1 j) := by
  rw [val_main_v177_apply, val_main_v176_apply, val_main_v175_apply, idx5453_2, val_main_v174_apply]
  refine congrArg₂ (fun s t : EReal => s + t) ?_ rfl
  unfold refMatmul
  refine Finset.sum_congr rfl fun c _ => ?_
  refine congrArg₂ (fun s t : EReal => s * t) (congrArg (val_main_v130 (F := Ideal) x0 x1 x2 x4 x5 x6 x7 x8 x9) ?_) (congrArg x8 ?_)
  · funext a; refine Fin.ext ?_; match a with | ⟨0, _⟩ => rfl | ⟨1, _⟩ => rfl
  · funext a; refine Fin.ext ?_; match a with | ⟨0, _⟩ => rfl | ⟨1, _⟩ => rfl

/-- The cut-off sum. -/
theorem stage_relu_2 (v : Fin 50000) (j : Fin 64) : val_main_v179 (F := Ideal) x0 x1 x2 x4 x5 x6 x7 x8 x9 (ix2 v j) = refRelu x2 (val_main_v130 (F := Ideal) x0 x1 x2 x4 x5 x6 x7 x8 x9) x6 x7 x8 x9 v j := by
  rw [val_main_v179_apply, val_main_v178_apply, stage_agg_2, stage_res_2, val_main_call5_v0_apply, val_main_call5_cst_apply]
  simp only [Ideal.ofBits_def, Ideal.ofBits_zero_f32, Ideal.maximumf_def, Ideal.addf_def]
  rfl

/-! ## The two updates -/

/-- LAYER 2's new Y. -/
theorem layer2_Y : val_main_v188 (F := Ideal) x0 x1 x2 x4 x5 x6 x7 x8 x9 = refLayerY x2 (val_main_v130 (F := Ideal) x0 x1 x2 x4 x5 x6 x7 x8 x9) (val_main_v127 (F := Ideal) x0 x1 x2 x4 x5 x6 x7 x8 x9) x6 x7 x8 x9 := by
  funext i
  obtain ⟨v, j, rfl⟩ : ∃ (v : Fin 50000) (j : Fin 64), i = ix2 v j := ⟨i 0, i 1, eq_ix2 i⟩
  rw [val_main_v188_apply, val_main_v187_apply, val_main_v185_apply, val_main_v182_apply, stage_relu_2, val_main_v181_apply, val_main_v184_apply,
    val_main_v180_apply, val_main_v183_apply, val_main_v186_apply, val_main_cst_39_apply, val_main_cst_40_apply, val_main_cst_41_apply]
  simp only [Ideal.ofBits_def, Ideal.addf_def, Ideal.subf_def, Ideal.mulf_def]
  rfl

/-- LAYER 2's new X. -/
theorem layer2_X : val_main_v191 (F := Ideal) x0 x1 x2 x4 x5 x6 x7 x8 x9 = refLayerX x2 (val_main_v130 (F := Ideal) x0 x1 x2 x4 x5 x6 x7 x8 x9) (val_main_v127 (F := Ideal) x0 x1 x2 x4 x5 x6 x7 x8 x9) x6 x7 x8 x9 := by
  funext i
  rw [val_main_v191_apply, val_main_v190_apply, val_main_v189_apply, val_main_cst_42_apply, layer2_Y]
  simp only [Ideal.ofBits_def, Ideal.addf_def, Ideal.mulf_def]
  rfl

end Cert.ReferenceIdeal.RefValue

end
-- ==== Proof.RefSpec3.lean ====
/-
  LAYER 3 OF THE REFERENCE IS THE SPECIFICATION'S LAYER: the stages its operations write, read index by index, are
  `refLayerY` and `refLayerX` of the layer's inputs.

  The ladder, each rung over the arguments as variables and each read at an index built from literal coordinates:
  the edge lists with self-loops, the degree, its inverse square root, the edge normalisation, the transformed
  features, the message along an edge, the aggregation, the residual map, the cut-off sum, then the two updates.
  A position of the [850000, 1] index arrays is position r of the flat edge list (the idx lemmas).
-/
import proofs.«131582_j65292092834213_2_alg».proof.Proof.RefReadP
import proofs.«131582_j65292092834213_2_alg».proof.Proof.RefSpecOps

noncomputable section

open scoped BigOperators

namespace Cert.ReferenceIdeal.RefValue

open Idealize.ShloMosaic Idealize.ShloMosaic.ValueIdx Cert.ReferenceIdeal Cert.ReferenceIdeal.ReadP
open Cert.Lib.ScatterGather1D Cert.KernelIdeal.Hand

-- the arguments of @main the layers depend on, at the ideal instance
variable (x0 : (⟨S50000x14, .f32⟩ : BufTy).Contents (Elt Ideal)) (x1 : (⟨S50000x2, .f32⟩ : BufTy).Contents (Elt Ideal))
  (x2 : (⟨S2x800000, .i32⟩ : BufTy).Contents (Elt Ideal)) (x4 : (⟨S16x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal)) (x8 : (⟨S64x64, .f32⟩ : BufTy).Contents (Elt Ideal))
  (x9 : (⟨S64, .f32⟩ : BufTy).Contents (Elt Ideal))

/-! ## Positions of the index arrays -/

theorem idx14_3 (r : Fin 850000) : idx_main_v197 (ix2 r (0 : Fin 1)) = ix1 r := funext fun a => by match a with | ⟨0, _⟩ => rfl
theorem idx26_3 (r : Fin 850000) : idx_main_v209 (ix2 r (0 : Fin 1)) = ix1 r := funext fun a => by match a with | ⟨0, _⟩ => rfl
theorem idx33_3 (r : Fin 850000) : idx_main_v216 (ix2 r (0 : Fin 1)) = ix1 r := funext fun a => by match a with | ⟨0, _⟩ => rfl
theorem idx41_3 (r : Fin 850000) : idx_main_v224 (ix2 r (0 : Fin 1)) = ix1 r := funext fun a => by match a with | ⟨0, _⟩ => rfl
theorem idx47_3 (r : Fin 850000) : idx_main_v230 (ix2 r (0 : Fin 1)) = ix1 r := funext fun a => by match a with | ⟨0, _⟩ => rfl
theorem idx4443_3 (r : Fin 850000) (j : Fin 64) : idx_main_v226 (idx_main_v227 (ix2 r j)) = ix1 r :=
  funext fun a => by match a with | ⟨0, _⟩ => rfl
theorem idx5049_3 (v : Fin 50000) (j : Fin 64) : idx_main_v232 (idx_main_v233 (ix2 v j)) = ix1 j :=
  funext fun a => by match a with | ⟨0, _⟩ => rfl
theorem idx5453_3 (v : Fin 50000) (j : Fin 64) : idx_main_v236 (idx_main_v237 (ix2 v j)) = ix1 j :=
  funext fun a => by match a with | ⟨0, _⟩ => rfl

/-! ## The edge lists -/

/-- Row 0 of the edge array, flattened. -/
theorem stage_src_3 (e : Fin 800000) : val_main_v1 (F := Ideal) x2 (ix1 e) = x2 (ix2 (0 : Fin 2) e) := by
  rw [val_main_v1_apply, val_main_v0_apply]
  refine congrArg x2 (funext fun a => Fin.ext ?_)
  match a with
  | ⟨0, _⟩ => rfl
  | ⟨1, _⟩ => exact Nat.mod_eq_of_lt e.isLt

/-- Row 1 of the edge array, flattened. -/
theorem stage_dst_3 (e : Fin 800000) : val_main_v3 (F := Ideal) x2 (ix1 e) = x2 (ix2 (1 : Fin 2) e) := by
  rw [val_main_v3_apply, val_main_v2_apply]
  refine congrArg x2 (funext fun a => Fin.ext ?_)
  match a with
  | ⟨0, _⟩ => rfl
  | ⟨1, _⟩ => exact Nat.mod_eq_of_lt e.isLt

/-- The sources with self-loops. -/
theorem stage_src2_3 (r : Fin 850000) : val_main_v193 (F := Ideal) x2 (ix1 r) = src2 x2 r := by
  unfold val_main_v193
  exact concat_src2 x2 _ _ _ (fun e => stage_src_3 x2 e) (fun v => val_main_v192_apply (F := Ideal) (ix1 v)) r

/-- The targets with self-loops. -/
theorem stage_dst2_3 (r : Fin 850000) : val_main_v194 (F := Ideal) x2 (ix1 r) = dst2 x2 r := by
  unfold val_main_v194
  exact concat_dst2 x2 _ _ _ (fun e => stage_dst_3 x2 e) (fun v => val_main_v192_apply (F := Ideal) (ix1 v)) r

/-- An endpoint normalised for reading, as the compare, the add and the select compute it: the sources. -/
theorem stage_normSrc_3 (r : Fin 850000) :
    Scalar.select (IntOp.cmpi .slt (val_main_v193 (F := Ideal) x2 (ix1 r)) 0#32) (IntOp.addi (val_main_v193 (F := Ideal) x2 (ix1 r)) 50000#32) (val_main_v193 (F := Ideal) x2 (ix1 r)) =
      normIdx (src2 x2 r) := by
  rw [stage_src2_3, normIdx_select]

/-- The same for the targets. -/
theorem stage_normDst_3 (r : Fin 850000) :
    Scalar.select (IntOp.cmpi .slt (val_main_v194 (F := Ideal) x2 (ix1 r)) 0#32) (IntOp.addi (val_main_v194 (F := Ideal) x2 (ix1 r)) 50000#32) (val_main_v194 (F := Ideal) x2 (ix1 r)) =
      normIdx (dst2 x2 r) := by
  rw [stage_dst2_3, normIdx_select]

/-! ## The degree and its inverse square root -/

theorem stage_deg_3 (v : Fin 50000) : val_main_v198 (F := Ideal) x2 (ix1 v) = refDeg x2 v := by
  unfold val_main_v198
  refine deg_apply x2 Facts₀.scatter_S50000_S850000x1_S850000_n_0_0_1_wf _ _ _ (fun v => ?_) (fun r => ?_) (fun r => ?_) v
  · rw [val_main_v196_apply, val_main_cst_44_apply]; exact Ideal.ofBits_zero_f32
  · rw [val_main_v197_apply, idx14_3]; exact stage_dst2_3 x2 r
  · rw [val_main_v195_apply, val_main_cst_43_apply]; rfl

theorem stage_dinv_3 (v : Fin 50000) : val_main_v202 (F := Ideal) x2 (ix1 v) = refDinv x2 v := by
  rw [val_main_v202_apply, val_main_v200_apply, val_main_v201_apply, stage_deg_3, val_main_v199_apply, val_main_cst_45_apply,
    val_main_call6_v1_apply, val_main_call6_v0_apply, val_main_cst_46_apply]
  simp only [Ideal.ofBits_def, Ideal.ofBits_zero_f32, Ideal.hostUnary_rsqrt_def]
  exact dinv_select (refDeg x2 v)

/-! ## The edge normalisation, the message and the aggregation -/

theorem stage_norm_3 (r : Fin 850000) : val_main_v218 (F := Ideal) x2 (ix1 r) = refNorm x2 r := by
  have hs : val_main_v209 (F := Ideal) x2 (ix2 r (0 : Fin 1)) = normIdx (src2 x2 r) := by
    rw [val_main_v209_apply, idx26_3, val_main_v208_apply, val_main_v205_apply, val_main_v207_apply, val_main_v204_apply, val_main_c_47_apply, val_main_v206_apply, val_main_c_48_apply]
    exact stage_normSrc_3 x2 r
  have hd : val_main_v216 (F := Ideal) x2 (ix2 r (0 : Fin 1)) = normIdx (dst2 x2 r) := by
    rw [val_main_v216_apply, idx33_3, val_main_v215_apply, val_main_v212_apply, val_main_v214_apply, val_main_v211_apply, val_main_c_49_apply, val_main_v213_apply, val_main_c_50_apply]
    exact stage_normDst_3 x2 r
  rw [val_main_v218_apply]
  unfold refNorm
  refine congrArg₂ (fun s t : EReal => s * t) ?_ ?_
  · unfold val_main_v210
    exact (gather_node_apply Facts₀.gather_S50000_S850000x1_S850000_n_0_n_n_0_1_1_wf _ _ r (src2 x2 r) hs).trans
      (stage_dinv_3 x2 (rowOf (src2 x2 r)))
  · unfold val_main_v217
    exact (gather_node_apply Facts₀.gather_S50000_S850000x1_S850000_n_0_n_n_0_1_1_wf _ _ r (dst2 x2 r) hd).trans
      (stage_dinv_3 x2 (rowOf (dst2 x2 r)))

theorem stage_hW_3 (v : Fin 50000) (j : Fin 64) : val_main_v203 (F := Ideal) x0 x1 x2 x4 x5 x6 x7 x8 x9 (ix2 v j) = refMatmul (val_main_v191 (F := Ideal) x0 x1 x2 x4 x5 x6 x7 x8 x9) x6 v j := by
  rw [val_main_v203_apply]
  unfold refMatmul
  refine Finset.sum_congr rfl fun c _ => ?_
  refine congrArg₂ (fun s t : EReal => s * t) (congrArg (val_main_v191 (F := Ideal) x0 x1 x2 x4 x5 x6 x7 x8 x9) ?_) (congrArg x6 ?_)
  · funext a; refine Fin.ext ?_; match a with | ⟨0, _⟩ => rfl | ⟨1, _⟩ => rfl
  · funext a; refine Fin.ext ?_; match a with | ⟨0, _⟩ => rfl | ⟨1, _⟩ => rfl

/-- The transformed features of an edge's source. -/
theorem stage_srcRow_3 (r : Fin 850000) (j : Fin 64) :
    val_main_v225 (F := Ideal) x0 x1 x2 x4 x5 x6 x7 x8 x9 (ix2 r j) = refMatmul (val_main_v191 (F := Ideal) x0 x1 x2 x4 x5 x6 x7 x8 x9) x6 (rowOf (src2 x2 r)) j := by
  have hs : val_main_v224 (F := Ideal) x2 (ix2 r (0 : Fin 1)) = normIdx (src2 x2 r) := by
    rw [val_main_v224_apply, idx41_3, val_main_v223_apply, val_main_v220_apply, val_main_v222_apply, val_main_v219_apply, val_main_c_51_apply, val_main_v221_apply, val_main_c_52_apply]
    exact stage_normSrc_3 x2 r
  unfold val_main_v225
  exact (gather_row_apply Facts₀.gather_S50000x64_S850000x1_S850000x64_1_0_n_n_0_1_164_wf _ _ r j (src2 x2 r) hs).trans
    (by rw [stage_hW_3])

/-- The message along an edge. -/
theorem stage_msg_3 (r : Fin 850000) (j : Fin 64) : val_main_v228 (F := Ideal) x0 x1 x2 x4 x5 x6 x7 x8 x9 (ix2 r j) = refMsg x2 (val_main_v191 (F := Ideal) x0 x1 x2 x4 x5 x6 x7 x8 x9) x6 r j := by
  rw [val_main_v228_apply, val_main_v227_apply, val_main_v226_apply, idx4443_3, Ideal.mulf_def, stage_srcRow_3, stage_norm_3]
  rfl

/-- The aggregation with its bias. -/
theorem stage_agg_3 (v : Fin 50000) (j : Fin 64) : val_main_v234 (F := Ideal) x0 x1 x2 x4 x5 x6 x7 x8 x9 (ix2 v j) = refAgg x2 (val_main_v191 (F := Ideal) x0 x1 x2 x4 x5 x6 x7 x8 x9) x6 x7 v j := by
  rw [val_main_v234_apply, val_main_v233_apply, val_main_v232_apply, idx5049_3]
  unfold refAgg
  refine congrArg₂ (fun s t : EReal => s + t) ?_ rfl
  unfold val_main_v231
  refine (agg_apply x2 Facts₀.scatter_S50000x64_S850000x1_S850000x64_1_0_0_1_wf _ _ _ (fun v j => ?_) (fun r => ?_) v j).trans ?_
  · rw [val_main_v229_apply, val_main_cst_53_apply]; exact Ideal.ofBits_zero_f32
  · rw [val_main_v230_apply, idx47_3]; exact stage_dst2_3 x2 r
  · refine congrArg (fun s => (0 : EReal) + s) (Finset.sum_congr rfl fun r _ => ?_)
    rw [stage_msg_3]

/-- The residual map of the features. -/
theorem stage_res_3 (v : Fin 50000) (j : Fin 64) : val_main_v238 (F := Ideal) x0 x1 x2 x4 x5 x6 x7 x8 x9 (ix2 v j) = refMatmul (val_main_v191 (F := Ideal) x0 x1 x2 x4 x5 x6 x7 x8 x9) x8 v j + x9 (ix1 j) := by
  rw [val_main_v238_apply, val_main_v237_apply, val_main_v236_apply, idx5453_3, val_main_v235_apply]
  refine congrArg₂ (fun s t : EReal => s + t) ?_ rfl
  unfold refMatmul
  refine Finset.sum_congr rfl fun c _ => ?_
  refine congrArg₂ (fun s t : EReal => s * t) (congrArg (val_main_v191 (F := Ideal) x0 x1 x2 x4 x5 x6 x7 x8 x9) ?_) (congrArg x8 ?_)
  · funext a; refine Fin.ext ?_; match a with | ⟨0, _⟩ => rfl | ⟨1, _⟩ => rfl
  · funext a; refine Fin.ext ?_; match a with | ⟨0, _⟩ => rfl | ⟨1, _⟩ => rfl

/-- The cut-off sum. -/
theorem stage_relu_3 (v : Fin 50000) (j : Fin 64) : val_main_v240 (F := Ideal) x0 x1 x2 x4 x5 x6 x7 x8 x9 (ix2 v j) = refRelu x2 (val_main_v191 (F := Ideal) x0 x1 x2 x4 x5 x6 x7 x8 x9) x6 x7 x8 x9 v j := by
  rw [val_main_v240_apply, val_main_v239_apply, stage_agg_3, stage_res_3, val_main_call7_v0_apply, val_main_call7_cst_apply]
  simp only [Ideal.ofBits_def, Ideal.ofBits_zero_f32, Ideal.maximumf_def, Ideal.addf_def]
  rfl

/-! ## The two updates -/

/-- LAYER 3's new Y. -/
theorem layer3_Y : val_main_v249 (F := Ideal) x0 x1 x2 x4 x5 x6 x7 x8 x9 = refLayerY x2 (val_main_v191 (F := Ideal) x0 x1 x2 x4 x5 x6 x7 x8 x9) (val_main_v188 (F := Ideal) x0 x1 x2 x4 x5 x6 x7 x8 x9) x6 x7 x8 x9 := by
  funext i
  obtain ⟨v, j, rfl⟩ : ∃ (v : Fin 50000) (j : Fin 64), i = ix2 v j := ⟨i 0, i 1, eq_ix2 i⟩
  rw [val_main_v249_apply, val_main_v248_apply, val_main_v246_apply, val_main_v243_apply, stage_relu_3, val_main_v242_apply, val_main_v245_apply,
    val_main_v241_apply, val_main_v244_apply, val_main_v247_apply, val_main_cst_54_apply, val_main_cst_55_apply, val_main_cst_56_apply]
  simp only [Ideal.ofBits_def, Ideal.addf_def, Ideal.subf_def, Ideal.mulf_def]
  rfl

/-- LAYER 3's new X. -/
theorem layer3_X : val_main_v252 (F := Ideal) x0 x1 x2 x4 x5 x6 x7 x8 x9 = refLayerX x2 (val_main_v191 (F := Ideal) x0 x1 x2 x4 x5 x6 x7 x8 x9) (val_main_v188 (F := Ideal) x0 x1 x2 x4 x5 x6 x7 x8 x9) x6 x7 x8 x9 := by
  funext i
  rw [val_main_v252_apply, val_main_v251_apply, val_main_v250_apply, val_main_cst_57_apply, layer3_Y]
  simp only [Ideal.ofBits_def, Ideal.addf_def, Ideal.mulf_def]
  rfl

end Cert.ReferenceIdeal.RefValue

end
-- ==== Proof.RefSpec4.lean ====
/-
  LAYER 4 OF THE REFERENCE IS THE SPECIFICATION'S LAYER: the stages its operations write, read index by index, are
  `refLayerY` and `refLayerX` of the layer's inputs.

  The ladder, each rung over the arguments as variables and each read at an index built from literal coordinates:
  the edge lists with self-loops, the degree, its inverse square root, the edge normalisation, the transformed
  features, the message along an edge, the aggregation, the residual map, the cut-off sum, then the two updates.
  A position of the [850000, 1] index arrays is position r of the flat edge list (the idx lemmas).
-/
import proofs.«131582_j65292092834213_2_alg».proof.Proof.RefReadP
import proofs.«131582_j65292092834213_2_alg».proof.Proof.RefSpecOps

noncomputable section

open scoped BigOperators

namespace Cert.ReferenceIdeal.RefValue

open Idealize.ShloMosaic Idealize.ShloMosaic.ValueIdx Cert.ReferenceIdeal Cert.ReferenceIdeal.ReadP
open Cert.Lib.ScatterGather1D Cert.KernelIdeal.Hand

-- the arguments of @main the layers depend on, at the ideal instance
variable (x0 : (⟨S50000x14, .f32⟩ : BufTy).Contents (Elt Ideal)) (x1 : (⟨S50000x2, .f32⟩ : BufTy).Contents (Elt Ideal))
  (x2 : (⟨S2x800000, .i32⟩ : BufTy).Contents (Elt Ideal)) (x4 : (⟨S16x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal)) (x8 : (⟨S64x64, .f32⟩ : BufTy).Contents (Elt Ideal))
  (x9 : (⟨S64, .f32⟩ : BufTy).Contents (Elt Ideal))

/-! ## Positions of the index arrays -/

theorem idx14_4 (r : Fin 850000) : idx_main_v258 (ix2 r (0 : Fin 1)) = ix1 r := funext fun a => by match a with | ⟨0, _⟩ => rfl
theorem idx26_4 (r : Fin 850000) : idx_main_v270 (ix2 r (0 : Fin 1)) = ix1 r := funext fun a => by match a with | ⟨0, _⟩ => rfl
theorem idx33_4 (r : Fin 850000) : idx_main_v277 (ix2 r (0 : Fin 1)) = ix1 r := funext fun a => by match a with | ⟨0, _⟩ => rfl
theorem idx41_4 (r : Fin 850000) : idx_main_v285 (ix2 r (0 : Fin 1)) = ix1 r := funext fun a => by match a with | ⟨0, _⟩ => rfl
theorem idx47_4 (r : Fin 850000) : idx_main_v291 (ix2 r (0 : Fin 1)) = ix1 r := funext fun a => by match a with | ⟨0, _⟩ => rfl
theorem idx4443_4 (r : Fin 850000) (j : Fin 64) : idx_main_v287 (idx_main_v288 (ix2 r j)) = ix1 r :=
  funext fun a => by match a with | ⟨0, _⟩ => rfl
theorem idx5049_4 (v : Fin 50000) (j : Fin 64) : idx_main_v293 (idx_main_v294 (ix2 v j)) = ix1 j :=
  funext fun a => by match a with | ⟨0, _⟩ => rfl
theorem idx5453_4 (v : Fin 50000) (j : Fin 64) : idx_main_v297 (idx_main_v298 (ix2 v j)) = ix1 j :=
  funext fun a => by match a with | ⟨0, _⟩ => rfl

/-! ## The edge lists -/

/-- Row 0 of the edge array, flattened. -/
theorem stage_src_4 (e : Fin 800000) : val_main_v1 (F := Ideal) x2 (ix1 e) = x2 (ix2 (0 : Fin 2) e) := by
  rw [val_main_v1_apply, val_main_v0_apply]
  refine congrArg x2 (funext fun a => Fin.ext ?_)
  match a with
  | ⟨0, _⟩ => rfl
  | ⟨1, _⟩ => exact Nat.mod_eq_of_lt e.isLt

/-- Row 1 of the edge array, flattened. -/
theorem stage_dst_4 (e : Fin 800000) : val_main_v3 (F := Ideal) x2 (ix1 e) = x2 (ix2 (1 : Fin 2) e) := by
  rw [val_main_v3_apply, val_main_v2_apply]
  refine congrArg x2 (funext fun a => Fin.ext ?_)
  match a with
  | ⟨0, _⟩ => rfl
  | ⟨1, _⟩ => exact Nat.mod_eq_of_lt e.isLt

/-- The sources with self-loops. -/
theorem stage_src2_4 (r : Fin 850000) : val_main_v254 (F := Ideal) x2 (ix1 r) = src2 x2 r := by
  unfold val_main_v254
  exact concat_src2 x2 _ _ _ (fun e => stage_src_4 x2 e) (fun v => val_main_v253_apply (F := Ideal) (ix1 v)) r

/-- The targets with self-loops. -/
theorem stage_dst2_4 (r : Fin 850000) : val_main_v255 (F := Ideal) x2 (ix1 r) = dst2 x2 r := by
  unfold val_main_v255
  exact concat_dst2 x2 _ _ _ (fun e => stage_dst_4 x2 e) (fun v => val_main_v253_apply (F := Ideal) (ix1 v)) r

/-- An endpoint normalised for reading, as the compare, the add and the select compute it: the sources. -/
theorem stage_normSrc_4 (r : Fin 850000) :
    Scalar.select (IntOp.cmpi .slt (val_main_v254 (F := Ideal) x2 (ix1 r)) 0#32) (IntOp.addi (val_main_v254 (F := Ideal) x2 (ix1 r)) 50000#32) (val_main_v254 (F := Ideal) x2 (ix1 r)) =
      normIdx (src2 x2 r) := by
  rw [stage_src2_4, normIdx_select]

/-- The same for the targets. -/
theorem stage_normDst_4 (r : Fin 850000) :
    Scalar.select (IntOp.cmpi .slt (val_main_v255 (F := Ideal) x2 (ix1 r)) 0#32) (IntOp.addi (val_main_v255 (F := Ideal) x2 (ix1 r)) 50000#32) (val_main_v255 (F := Ideal) x2 (ix1 r)) =
      normIdx (dst2 x2 r) := by
  rw [stage_dst2_4, normIdx_select]

/-! ## The degree and its inverse square root -/

theorem stage_deg_4 (v : Fin 50000) : val_main_v259 (F := Ideal) x2 (ix1 v) = refDeg x2 v := by
  unfold val_main_v259
  refine deg_apply x2 Facts₀.scatter_S50000_S850000x1_S850000_n_0_0_1_wf _ _ _ (fun v => ?_) (fun r => ?_) (fun r => ?_) v
  · rw [val_main_v257_apply, val_main_cst_59_apply]; exact Ideal.ofBits_zero_f32
  · rw [val_main_v258_apply, idx14_4]; exact stage_dst2_4 x2 r
  · rw [val_main_v256_apply, val_main_cst_58_apply]; rfl

theorem stage_dinv_4 (v : Fin 50000) : val_main_v263 (F := Ideal) x2 (ix1 v) = refDinv x2 v := by
  rw [val_main_v263_apply, val_main_v261_apply, val_main_v262_apply, stage_deg_4, val_main_v260_apply, val_main_cst_60_apply,
    val_main_call8_v1_apply, val_main_call8_v0_apply, val_main_cst_61_apply]
  simp only [Ideal.ofBits_def, Ideal.ofBits_zero_f32, Ideal.hostUnary_rsqrt_def]
  exact dinv_select (refDeg x2 v)

/-! ## The edge normalisation, the message and the aggregation -/

theorem stage_norm_4 (r : Fin 850000) : val_main_v279 (F := Ideal) x2 (ix1 r) = refNorm x2 r := by
  have hs : val_main_v270 (F := Ideal) x2 (ix2 r (0 : Fin 1)) = normIdx (src2 x2 r) := by
    rw [val_main_v270_apply, idx26_4, val_main_v269_apply, val_main_v266_apply, val_main_v268_apply, val_main_v265_apply, val_main_c_62_apply, val_main_v267_apply, val_main_c_63_apply]
    exact stage_normSrc_4 x2 r
  have hd : val_main_v277 (F := Ideal) x2 (ix2 r (0 : Fin 1)) = normIdx (dst2 x2 r) := by
    rw [val_main_v277_apply, idx33_4, val_main_v276_apply, val_main_v273_apply, val_main_v275_apply, val_main_v272_apply, val_main_c_64_apply, val_main_v274_apply, val_main_c_65_apply]
    exact stage_normDst_4 x2 r
  rw [val_main_v279_apply]
  unfold refNorm
  refine congrArg₂ (fun s t : EReal => s * t) ?_ ?_
  · unfold val_main_v271
    exact (gather_node_apply Facts₀.gather_S50000_S850000x1_S850000_n_0_n_n_0_1_1_wf _ _ r (src2 x2 r) hs).trans
      (stage_dinv_4 x2 (rowOf (src2 x2 r)))
  · unfold val_main_v278
    exact (gather_node_apply Facts₀.gather_S50000_S850000x1_S850000_n_0_n_n_0_1_1_wf _ _ r (dst2 x2 r) hd).trans
      (stage_dinv_4 x2 (rowOf (dst2 x2 r)))

theorem stage_hW_4 (v : Fin 50000) (j : Fin 64) : val_main_v264 (F := Ideal) x0 x1 x2 x4 x5 x6 x7 x8 x9 (ix2 v j) = refMatmul (val_main_v252 (F := Ideal) x0 x1 x2 x4 x5 x6 x7 x8 x9) x6 v j := by
  rw [val_main_v264_apply]
  unfold refMatmul
  refine Finset.sum_congr rfl fun c _ => ?_
  refine congrArg₂ (fun s t : EReal => s * t) (congrArg (val_main_v252 (F := Ideal) x0 x1 x2 x4 x5 x6 x7 x8 x9) ?_) (congrArg x6 ?_)
  · funext a; refine Fin.ext ?_; match a with | ⟨0, _⟩ => rfl | ⟨1, _⟩ => rfl
  · funext a; refine Fin.ext ?_; match a with | ⟨0, _⟩ => rfl | ⟨1, _⟩ => rfl

/-- The transformed features of an edge's source. -/
theorem stage_srcRow_4 (r : Fin 850000) (j : Fin 64) :
    val_main_v286 (F := Ideal) x0 x1 x2 x4 x5 x6 x7 x8 x9 (ix2 r j) = refMatmul (val_main_v252 (F := Ideal) x0 x1 x2 x4 x5 x6 x7 x8 x9) x6 (rowOf (src2 x2 r)) j := by
  have hs : val_main_v285 (F := Ideal) x2 (ix2 r (0 : Fin 1)) = normIdx (src2 x2 r) := by
    rw [val_main_v285_apply, idx41_4, val_main_v284_apply, val_main_v281_apply, val_main_v283_apply, val_main_v280_apply, val_main_c_66_apply, val_main_v282_apply, val_main_c_67_apply]
    exact stage_normSrc_4 x2 r
  unfold val_main_v286
  exact (gather_row_apply Facts₀.gather_S50000x64_S850000x1_S850000x64_1_0_n_n_0_1_164_wf _ _ r j (src2 x2 r) hs).trans
    (by rw [stage_hW_4])

/-- The message along an edge. -/
theorem stage_msg_4 (r : Fin 850000) (j : Fin 64) : val_main_v289 (F := Ideal) x0 x1 x2 x4 x5 x6 x7 x8 x9 (ix2 r j) = refMsg x2 (val_main_v252 (F := Ideal) x0 x1 x2 x4 x5 x6 x7 x8 x9) x6 r j := by
  rw [val_main_v289_apply, val_main_v288_apply, val_main_v287_apply, idx4443_4, Ideal.mulf_def, stage_srcRow_4, stage_norm_4]
  rfl

/-- The aggregation with its bias. -/
theorem stage_agg_4 (v : Fin 50000) (j : Fin 64) : val_main_v295 (F := Ideal) x0 x1 x2 x4 x5 x6 x7 x8 x9 (ix2 v j) = refAgg x2 (val_main_v252 (F := Ideal) x0 x1 x2 x4 x5 x6 x7 x8 x9) x6 x7 v j := by
  rw [val_main_v295_apply, val_main_v294_apply, val_main_v293_apply, idx5049_4]
  unfold refAgg
  refine congrArg₂ (fun s t : EReal => s + t) ?_ rfl
  unfold val_main_v292
  refine (agg_apply x2 Facts₀.scatter_S50000x64_S850000x1_S850000x64_1_0_0_1_wf _ _ _ (fun v j => ?_) (fun r => ?_) v j).trans ?_
  · rw [val_main_v290_apply, val_main_cst_68_apply]; exact Ideal.ofBits_zero_f32
  · rw [val_main_v291_apply, idx47_4]; exact stage_dst2_4 x2 r
  · refine congrArg (fun s => (0 : EReal) + s) (Finset.sum_congr rfl fun r _ => ?_)
    rw [stage_msg_4]

/-- The residual map of the features. -/
theorem stage_res_4 (v : Fin 50000) (j : Fin 64) : val_main_v299 (F := Ideal) x0 x1 x2 x4 x5 x6 x7 x8 x9 (ix2 v j) = refMatmul (val_main_v252 (F := Ideal) x0 x1 x2 x4 x5 x6 x7 x8 x9) x8 v j + x9 (ix1 j) := by
  rw [val_main_v299_apply, val_main_v298_apply, val_main_v297_apply, idx5453_4, val_main_v296_apply]
  refine congrArg₂ (fun s t : EReal => s + t) ?_ rfl
  unfold refMatmul
  refine Finset.sum_congr rfl fun c _ => ?_
  refine congrArg₂ (fun s t : EReal => s * t) (congrArg (val_main_v252 (F := Ideal) x0 x1 x2 x4 x5 x6 x7 x8 x9) ?_) (congrArg x8 ?_)
  · funext a; refine Fin.ext ?_; match a with | ⟨0, _⟩ => rfl | ⟨1, _⟩ => rfl
  · funext a; refine Fin.ext ?_; match a with | ⟨0, _⟩ => rfl | ⟨1, _⟩ => rfl

/-- The cut-off sum. -/
theorem stage_relu_4 (v : Fin 50000) (j : Fin 64) : val_main_v301 (F := Ideal) x0 x1 x2 x4 x5 x6 x7 x8 x9 (ix2 v j) = refRelu x2 (val_main_v252 (F := Ideal) x0 x1 x2 x4 x5 x6 x7 x8 x9) x6 x7 x8 x9 v j := by
  rw [val_main_v301_apply, val_main_v300_apply, stage_agg_4, stage_res_4, val_main_call9_v0_apply, val_main_call9_cst_apply]
  simp only [Ideal.ofBits_def, Ideal.ofBits_zero_f32, Ideal.maximumf_def, Ideal.addf_def]
  rfl

/-! ## The two updates -/

/-- LAYER 4's new Y. -/
theorem layer4_Y : val_main_v310 (F := Ideal) x0 x1 x2 x4 x5 x6 x7 x8 x9 = refLayerY x2 (val_main_v252 (F := Ideal) x0 x1 x2 x4 x5 x6 x7 x8 x9) (val_main_v249 (F := Ideal) x0 x1 x2 x4 x5 x6 x7 x8 x9) x6 x7 x8 x9 := by
  funext i
  obtain ⟨v, j, rfl⟩ : ∃ (v : Fin 50000) (j : Fin 64), i = ix2 v j := ⟨i 0, i 1, eq_ix2 i⟩
  rw [val_main_v310_apply, val_main_v309_apply, val_main_v307_apply, val_main_v304_apply, stage_relu_4, val_main_v303_apply, val_main_v306_apply,
    val_main_v302_apply, val_main_v305_apply, val_main_v308_apply, val_main_cst_69_apply, val_main_cst_70_apply, val_main_cst_71_apply]
  simp only [Ideal.ofBits_def, Ideal.addf_def, Ideal.subf_def, Ideal.mulf_def]
  rfl

/-- LAYER 4's new X. -/
theorem layer4_X : val_main_v313 (F := Ideal) x0 x1 x2 x4 x5 x6 x7 x8 x9 = refLayerX x2 (val_main_v252 (F := Ideal) x0 x1 x2 x4 x5 x6 x7 x8 x9) (val_main_v249 (F := Ideal) x0 x1 x2 x4 x5 x6 x7 x8 x9) x6 x7 x8 x9 := by
  funext i
  rw [val_main_v313_apply, val_main_v312_apply, val_main_v311_apply, val_main_cst_72_apply, layer4_Y]
  simp only [Ideal.ofBits_def, Ideal.addf_def, Ideal.mulf_def]
  rfl

end Cert.ReferenceIdeal.RefValue

end
-- ==== Proof.RefSpec.lean ====
/-
  THE REFERENCE'S RESULT IS `refRes` OF ITS ARGUMENTS.

  The encoder's stage is `refEnc` (`enc_stage`); each layer's two stages are `refLayerX` / `refLayerY` of the
  previous layer's (the layer modules), so after layer `L` the pair of stages is `refState … (L + 1)`, by unfolding
  one step of the state's definition; the result is `refOut` of the last layer's features (`tail_stage`), which is
  `refRes` by its definition.
-/
import proofs.«131582_j65292092834213_2_alg».proof.Proof.RefRes
import proofs.«131582_j65292092834213_2_alg».proof.Proof.RefSpecEnds
import proofs.«131582_j65292092834213_2_alg».proof.Proof.RefSpec0
import proofs.«131582_j65292092834213_2_alg».proof.Proof.RefSpec1
import proofs.«131582_j65292092834213_2_alg».proof.Proof.RefSpec2
import proofs.«131582_j65292092834213_2_alg».proof.Proof.RefSpec3
import proofs.«131582_j65292092834213_2_alg».proof.Proof.RefSpec4

noncomputable section

namespace Cert.ReferenceIdeal.RefValue

open Idealize.ShloMosaic Idealize.ShloMosaic.ValueIdx Cert.ReferenceIdeal Cert.ReferenceIdeal.ReadP

variable (x0 : (⟨S50000x14, .f32⟩ : BufTy).Contents (Elt Ideal)) (x1 : (⟨S50000x2, .f32⟩ : BufTy).Contents (Elt Ideal))
  (x2 : (⟨S2x800000, .i32⟩ : BufTy).Contents (Elt Ideal)) (x3 : (⟨S50000, .i32⟩ : BufTy).Contents (Elt Ideal))
  (x4 : (⟨S16x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal)) (x8 : (⟨S64x64, .f32⟩ : BufTy).Contents (Elt Ideal))
  (x9 : (⟨S64, .f32⟩ : BufTy).Contents (Elt Ideal)) (x10 : (⟨S64x1, .f32⟩ : BufTy).Contents (Elt Ideal))
  (x11 : (⟨S1, .f32⟩ : BufTy).Contents (Elt Ideal))

/-! ## The state after each layer -/

/-- After layer 0. -/
theorem state0_X : val_main_v69 (F := Ideal) x0 x1 x2 x4 x5 x6 x7 x8 x9 = (refState x0 x1 x2 x4 x5 x6 x7 x8 x9 1).1 :=
  (layer0_X x0 x1 x2 x4 x5 x6 x7 x8 x9).trans (congrArg (fun e => refLayerX x2 e e x6 x7 x8 x9) (enc_stage x0 x1 x4 x5))
theorem state0_Y : val_main_v66 (F := Ideal) x0 x1 x2 x4 x5 x6 x7 x8 x9 = (refState x0 x1 x2 x4 x5 x6 x7 x8 x9 1).2 :=
  (layer0_Y x0 x1 x2 x4 x5 x6 x7 x8 x9).trans (congrArg (fun e => refLayerY x2 e e x6 x7 x8 x9) (enc_stage x0 x1 x4 x5))

/-- After layer 1. -/
theorem state1_X : val_main_v130 (F := Ideal) x0 x1 x2 x4 x5 x6 x7 x8 x9 = (refState x0 x1 x2 x4 x5 x6 x7 x8 x9 2).1 :=
  (layer1_X x0 x1 x2 x4 x5 x6 x7 x8 x9).trans
    (congrArg₂ (fun X Y => refLayerX x2 X Y x6 x7 x8 x9) (state0_X x0 x1 x2 x4 x5 x6 x7 x8 x9) (state0_Y x0 x1 x2 x4 x5 x6 x7 x8 x9))
theorem state1_Y : val_main_v127 (F := Ideal) x0 x1 x2 x4 x5 x6 x7 x8 x9 = (refState x0 x1 x2 x4 x5 x6 x7 x8 x9 2).2 :=
  (layer1_Y x0 x1 x2 x4 x5 x6 x7 x8 x9).trans
    (congrArg₂ (fun X Y => refLayerY x2 X Y x6 x7 x8 x9) (state0_X x0 x1 x2 x4 x5 x6 x7 x8 x9) (state0_Y x0 x1 x2 x4 x5 x6 x7 x8 x9))

/-- After layer 2. -/
theorem state2_X : val_main_v191 (F := Ideal) x0 x1 x2 x4 x5 x6 x7 x8 x9 = (refState x0 x1 x2 x4 x5 x6 x7 x8 x9 3).1 :=
  (layer2_X x0 x1 x2 x4 x5 x6 x7 x8 x9).trans
    (congrArg₂ (fun X Y => refLayerX x2 X Y x6 x7 x8 x9) (state1_X x0 x1 x2 x4 x5 x6 x7 x8 x9) (state1_Y x0 x1 x2 x4 x5 x6 x7 x8 x9))
theorem state2_Y : val_main_v188 (F := Ideal) x0 x1 x2 x4 x5 x6 x7 x8 x9 = (refState x0 x1 x2 x4 x5 x6 x7 x8 x9 3).2 :=
  (layer2_Y x0 x1 x2 x4 x5 x6 x7 x8 x9).trans
    (congrArg₂ (fun X Y => refLayerY x2 X Y x6 x7 x8 x9) (state1_X x0 x1 x2 x4 x5 x6 x7 x8 x9) (state1_Y x0 x1 x2 x4 x5 x6 x7 x8 x9))

/-- After layer 3. -/
theorem state3_X : val_main_v252 (F := Ideal) x0 x1 x2 x4 x5 x6 x7 x8 x9 = (refState x0 x1 x2 x4 x5 x6 x7 x8 x9 4).1 :=
  (layer3_X x0 x1 x2 x4 x5 x6 x7 x8 x9).trans
    (congrArg₂ (fun X Y => refLayerX x2 X Y x6 x7 x8 x9) (state2_X x0 x1 x2 x4 x5 x6 x7 x8 x9) (state2_Y x0 x1 x2 x4 x5 x6 x7 x8 x9))
theorem state3_Y : val_main_v249 (F := Ideal) x0 x1 x2 x4 x5 x6 x7 x8 x9 = (refState x0 x1 x2 x4 x5 x6 x7 x8 x9 4).2 :=
  (layer3_Y x0 x1 x2 x4 x5 x6 x7 x8 x9).trans
    (congrArg₂ (fun X Y => refLayerY x2 X Y x6 x7 x8 x9) (state2_X x0 x1 x2 x4 x5 x6 x7 x8 x9) (state2_Y x0 x1 x2 x4 x5 x6 x7 x8 x9))

/-- After layer 4. -/
theorem state4_X : val_main_v313 (F := Ideal) x0 x1 x2 x4 x5 x6 x7 x8 x9 = (refState x0 x1 x2 x4 x5 x6 x7 x8 x9 5).1 :=
  (layer4_X x0 x1 x2 x4 x5 x6 x7 x8 x9).trans
    (congrArg₂ (fun X Y => refLayerX x2 X Y x6 x7 x8 x9) (state3_X x0 x1 x2 x4 x5 x6 x7 x8 x9) (state3_Y x0 x1 x2 x4 x5 x6 x7 x8 x9))
theorem state4_Y : val_main_v310 (F := Ideal) x0 x1 x2 x4 x5 x6 x7 x8 x9 = (refState x0 x1 x2 x4 x5 x6 x7 x8 x9 5).2 :=
  (layer4_Y x0 x1 x2 x4 x5 x6 x7 x8 x9).trans
    (congrArg₂ (fun X Y => refLayerY x2 X Y x6 x7 x8 x9) (state3_X x0 x1 x2 x4 x5 x6 x7 x8 x9) (state3_Y x0 x1 x2 x4 x5 x6 x7 x8 x9))

/-! ## The result -/

/-- The reference's result is `refRes` of its twelve arguments. -/
theorem result :
    val_main_v321 (F := Ideal) x0 x1 x2 x3 x4 x5 x6 x7 x8 x9 x10 x11 = refRes x0 x1 x2 x3 x4 x5 x6 x7 x8 x9 x10 x11 :=
  tail_stage x0 x1 x2 x3 x4 x5 x6 x7 x8 x9 x10 x11 _ (state4_X x0 x1 x2 x4 x5 x6 x7 x8 x9)

end Cert.ReferenceIdeal.RefValue

end
-- ==== Proof.RefRunCV.lean ====
/-
  The reference program's value. Chunk by chunk, from any contents that hold what the chunk reads of the earlier ones
  (the edge arrays, the previous layer's two states, the weights), the chunk's outputs are their stages of the
  arguments; the arguments and the edge arrays pass through the chunks that do not write them. Composed over the six
  chunks, the result buffer after the whole line is the result's stage of the twelve arguments' launch contents.
-/
import proofs.«131582_j65292092834213_2_alg».proof.Proof.RefRunC
import proofs.«131582_j65292092834213_2_alg».proof.Proof.RefReadP
import Idealize.ShloMosaic.Lib.StableHlo.Run

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-! ## Chunk A: the encoder and the first layer, from the arguments -/

set_option maxHeartbeats 4000000 in
/-- Chunk A from any contents: the edge sources. -/
theorem chunkA_v1 (V0 : Valuation τ sig (Elt F)) :
    after (opsA (F := F)) V0 (Proc.devRef .tc main_v1) = ReadP.val_main_v1 (F := F) (V0 (Proc.devRef .tc main_arg2)) := by
  after_results_simp
  rfl
set_option maxHeartbeats 4000000 in
/-- The edge targets. -/
theorem chunkA_v3 (V0 : Valuation τ sig (Elt F)) :
    after (opsA (F := F)) V0 (Proc.devRef .tc main_v3) = ReadP.val_main_v3 (F := F) (V0 (Proc.devRef .tc main_arg2)) := by
  after_results_simp
  rfl
set_option maxHeartbeats 4000000 in
/-- The first layer's node state. -/
theorem chunkA_v69 (V0 : Valuation τ sig (Elt F)) :
    after (opsA (F := F)) V0 (Proc.devRef .tc main_v69) = ReadP.val_main_v69 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  after_results_simp
  rfl
set_option maxHeartbeats 4000000 in
/-- The first layer's second state. -/
theorem chunkA_v66 (V0 : Valuation τ sig (Elt F)) :
    after (opsA (F := F)) V0 (Proc.devRef .tc main_v66) = ReadP.val_main_v66 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  after_results_simp
  rfl

/-! ## The second to fifth layers -/

set_option maxHeartbeats 4000000 in
/-- Chunk B from any contents that hold the edge arrays, the previous layer's two states and the weights: the layer's new node state. -/
theorem chunkB_v130 (V : Valuation τ sig (Elt F)) (x0 : (⟨S50000x14, .f32⟩ : BufTy).Contents (Elt F)) (x1 : (⟨S50000x2, .f32⟩ : BufTy).Contents (Elt F)) (x2 : (⟨S2x800000, .i32⟩ : BufTy).Contents (Elt F)) (x4 : (⟨S16x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F))
    (h1 : V (Proc.devRef .tc main_v1) = ReadP.val_main_v1 (F := F) x2) (h3 : V (Proc.devRef .tc main_v3) = ReadP.val_main_v3 (F := F) x2)
    (hX : V (Proc.devRef .tc main_v69) = ReadP.val_main_v69 (F := F) x0 x1 x2 x4 x5 x6 x7 x8 x9)
    (hY : V (Proc.devRef .tc main_v66) = ReadP.val_main_v66 (F := F) x0 x1 x2 x4 x5 x6 x7 x8 x9)
    (h6 : V (Proc.devRef .tc main_arg6) = x6) (h7 : V (Proc.devRef .tc main_arg7) = x7)
    (h8 : V (Proc.devRef .tc main_arg8) = x8) (h9 : V (Proc.devRef .tc main_arg9) = x9) :
    after (opsB (F := F)) V (Proc.devRef .tc main_v130) = ReadP.val_main_v130 (F := F) x0 x1 x2 x4 x5 x6 x7 x8 x9 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h1, h3, hX, hY, h6, h7, h8, h9]
  rfl
set_option maxHeartbeats 4000000 in
/-- Chunk B from any contents that hold the edge arrays, the previous layer's two states and the weights: the layer's new second state. -/
theorem chunkB_v127 (V : Valuation τ sig (Elt F)) (x0 : (⟨S50000x14, .f32⟩ : BufTy).Contents (Elt F)) (x1 : (⟨S50000x2, .f32⟩ : BufTy).Contents (Elt F)) (x2 : (⟨S2x800000, .i32⟩ : BufTy).Contents (Elt F)) (x4 : (⟨S16x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F))
    (h1 : V (Proc.devRef .tc main_v1) = ReadP.val_main_v1 (F := F) x2) (h3 : V (Proc.devRef .tc main_v3) = ReadP.val_main_v3 (F := F) x2)
    (hX : V (Proc.devRef .tc main_v69) = ReadP.val_main_v69 (F := F) x0 x1 x2 x4 x5 x6 x7 x8 x9)
    (hY : V (Proc.devRef .tc main_v66) = ReadP.val_main_v66 (F := F) x0 x1 x2 x4 x5 x6 x7 x8 x9)
    (h6 : V (Proc.devRef .tc main_arg6) = x6) (h7 : V (Proc.devRef .tc main_arg7) = x7)
    (h8 : V (Proc.devRef .tc main_arg8) = x8) (h9 : V (Proc.devRef .tc main_arg9) = x9) :
    after (opsB (F := F)) V (Proc.devRef .tc main_v127) = ReadP.val_main_v127 (F := F) x0 x1 x2 x4 x5 x6 x7 x8 x9 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h1, h3, hX, hY, h6, h7, h8, h9]
  rfl

set_option maxHeartbeats 4000000 in
/-- Chunk C from any contents that hold the edge arrays, the previous layer's two states and the weights: the layer's new node state. -/
theorem chunkC_v191 (V : Valuation τ sig (Elt F)) (x0 : (⟨S50000x14, .f32⟩ : BufTy).Contents (Elt F)) (x1 : (⟨S50000x2, .f32⟩ : BufTy).Contents (Elt F)) (x2 : (⟨S2x800000, .i32⟩ : BufTy).Contents (Elt F)) (x4 : (⟨S16x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F))
    (h1 : V (Proc.devRef .tc main_v1) = ReadP.val_main_v1 (F := F) x2) (h3 : V (Proc.devRef .tc main_v3) = ReadP.val_main_v3 (F := F) x2)
    (hX : V (Proc.devRef .tc main_v130) = ReadP.val_main_v130 (F := F) x0 x1 x2 x4 x5 x6 x7 x8 x9)
    (hY : V (Proc.devRef .tc main_v127) = ReadP.val_main_v127 (F := F) x0 x1 x2 x4 x5 x6 x7 x8 x9)
    (h6 : V (Proc.devRef .tc main_arg6) = x6) (h7 : V (Proc.devRef .tc main_arg7) = x7)
    (h8 : V (Proc.devRef .tc main_arg8) = x8) (h9 : V (Proc.devRef .tc main_arg9) = x9) :
    after (opsC (F := F)) V (Proc.devRef .tc main_v191) = ReadP.val_main_v191 (F := F) x0 x1 x2 x4 x5 x6 x7 x8 x9 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h1, h3, hX, hY, h6, h7, h8, h9]
  rfl
set_option maxHeartbeats 4000000 in
/-- Chunk C from any contents that hold the edge arrays, the previous layer's two states and the weights: the layer's new second state. -/
theorem chunkC_v188 (V : Valuation τ sig (Elt F)) (x0 : (⟨S50000x14, .f32⟩ : BufTy).Contents (Elt F)) (x1 : (⟨S50000x2, .f32⟩ : BufTy).Contents (Elt F)) (x2 : (⟨S2x800000, .i32⟩ : BufTy).Contents (Elt F)) (x4 : (⟨S16x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F))
    (h1 : V (Proc.devRef .tc main_v1) = ReadP.val_main_v1 (F := F) x2) (h3 : V (Proc.devRef .tc main_v3) = ReadP.val_main_v3 (F := F) x2)
    (hX : V (Proc.devRef .tc main_v130) = ReadP.val_main_v130 (F := F) x0 x1 x2 x4 x5 x6 x7 x8 x9)
    (hY : V (Proc.devRef .tc main_v127) = ReadP.val_main_v127 (F := F) x0 x1 x2 x4 x5 x6 x7 x8 x9)
    (h6 : V (Proc.devRef .tc main_arg6) = x6) (h7 : V (Proc.devRef .tc main_arg7) = x7)
    (h8 : V (Proc.devRef .tc main_arg8) = x8) (h9 : V (Proc.devRef .tc main_arg9) = x9) :
    after (opsC (F := F)) V (Proc.devRef .tc main_v188) = ReadP.val_main_v188 (F := F) x0 x1 x2 x4 x5 x6 x7 x8 x9 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h1, h3, hX, hY, h6, h7, h8, h9]
  rfl

set_option maxHeartbeats 4000000 in
/-- Chunk D from any contents that hold the edge arrays, the previous layer's two states and the weights: the layer's new node state. -/
theorem chunkD_v252 (V : Valuation τ sig (Elt F)) (x0 : (⟨S50000x14, .f32⟩ : BufTy).Contents (Elt F)) (x1 : (⟨S50000x2, .f32⟩ : BufTy).Contents (Elt F)) (x2 : (⟨S2x800000, .i32⟩ : BufTy).Contents (Elt F)) (x4 : (⟨S16x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F))
    (h1 : V (Proc.devRef .tc main_v1) = ReadP.val_main_v1 (F := F) x2) (h3 : V (Proc.devRef .tc main_v3) = ReadP.val_main_v3 (F := F) x2)
    (hX : V (Proc.devRef .tc main_v191) = ReadP.val_main_v191 (F := F) x0 x1 x2 x4 x5 x6 x7 x8 x9)
    (hY : V (Proc.devRef .tc main_v188) = ReadP.val_main_v188 (F := F) x0 x1 x2 x4 x5 x6 x7 x8 x9)
    (h6 : V (Proc.devRef .tc main_arg6) = x6) (h7 : V (Proc.devRef .tc main_arg7) = x7)
    (h8 : V (Proc.devRef .tc main_arg8) = x8) (h9 : V (Proc.devRef .tc main_arg9) = x9) :
    after (opsD (F := F)) V (Proc.devRef .tc main_v252) = ReadP.val_main_v252 (F := F) x0 x1 x2 x4 x5 x6 x7 x8 x9 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h1, h3, hX, hY, h6, h7, h8, h9]
  rfl
set_option maxHeartbeats 4000000 in
/-- Chunk D from any contents that hold the edge arrays, the previous layer's two states and the weights: the layer's new second state. -/
theorem chunkD_v249 (V : Valuation τ sig (Elt F)) (x0 : (⟨S50000x14, .f32⟩ : BufTy).Contents (Elt F)) (x1 : (⟨S50000x2, .f32⟩ : BufTy).Contents (Elt F)) (x2 : (⟨S2x800000, .i32⟩ : BufTy).Contents (Elt F)) (x4 : (⟨S16x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F))
    (h1 : V (Proc.devRef .tc main_v1) = ReadP.val_main_v1 (F := F) x2) (h3 : V (Proc.devRef .tc main_v3) = ReadP.val_main_v3 (F := F) x2)
    (hX : V (Proc.devRef .tc main_v191) = ReadP.val_main_v191 (F := F) x0 x1 x2 x4 x5 x6 x7 x8 x9)
    (hY : V (Proc.devRef .tc main_v188) = ReadP.val_main_v188 (F := F) x0 x1 x2 x4 x5 x6 x7 x8 x9)
    (h6 : V (Proc.devRef .tc main_arg6) = x6) (h7 : V (Proc.devRef .tc main_arg7) = x7)
    (h8 : V (Proc.devRef .tc main_arg8) = x8) (h9 : V (Proc.devRef .tc main_arg9) = x9) :
    after (opsD (F := F)) V (Proc.devRef .tc main_v249) = ReadP.val_main_v249 (F := F) x0 x1 x2 x4 x5 x6 x7 x8 x9 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h1, h3, hX, hY, h6, h7, h8, h9]
  rfl

set_option maxHeartbeats 4000000 in
/-- Chunk E from any contents that hold the edge arrays, the previous layer's two states and the weights: the layer's new node state. -/
theorem chunkE_v313 (V : Valuation τ sig (Elt F)) (x0 : (⟨S50000x14, .f32⟩ : BufTy).Contents (Elt F)) (x1 : (⟨S50000x2, .f32⟩ : BufTy).Contents (Elt F)) (x2 : (⟨S2x800000, .i32⟩ : BufTy).Contents (Elt F)) (x4 : (⟨S16x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F))
    (h1 : V (Proc.devRef .tc main_v1) = ReadP.val_main_v1 (F := F) x2) (h3 : V (Proc.devRef .tc main_v3) = ReadP.val_main_v3 (F := F) x2)
    (hX : V (Proc.devRef .tc main_v252) = ReadP.val_main_v252 (F := F) x0 x1 x2 x4 x5 x6 x7 x8 x9)
    (hY : V (Proc.devRef .tc main_v249) = ReadP.val_main_v249 (F := F) x0 x1 x2 x4 x5 x6 x7 x8 x9)
    (h6 : V (Proc.devRef .tc main_arg6) = x6) (h7 : V (Proc.devRef .tc main_arg7) = x7)
    (h8 : V (Proc.devRef .tc main_arg8) = x8) (h9 : V (Proc.devRef .tc main_arg9) = x9) :
    after (opsE (F := F)) V (Proc.devRef .tc main_v313) = ReadP.val_main_v313 (F := F) x0 x1 x2 x4 x5 x6 x7 x8 x9 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h1, h3, hX, hY, h6, h7, h8, h9]
  rfl
set_option maxHeartbeats 4000000 in
/-- Chunk E from any contents that hold the edge arrays, the previous layer's two states and the weights: the layer's new second state. -/
theorem chunkE_v310 (V : Valuation τ sig (Elt F)) (x0 : (⟨S50000x14, .f32⟩ : BufTy).Contents (Elt F)) (x1 : (⟨S50000x2, .f32⟩ : BufTy).Contents (Elt F)) (x2 : (⟨S2x800000, .i32⟩ : BufTy).Contents (Elt F)) (x4 : (⟨S16x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F))
    (h1 : V (Proc.devRef .tc main_v1) = ReadP.val_main_v1 (F := F) x2) (h3 : V (Proc.devRef .tc main_v3) = ReadP.val_main_v3 (F := F) x2)
    (hX : V (Proc.devRef .tc main_v252) = ReadP.val_main_v252 (F := F) x0 x1 x2 x4 x5 x6 x7 x8 x9)
    (hY : V (Proc.devRef .tc main_v249) = ReadP.val_main_v249 (F := F) x0 x1 x2 x4 x5 x6 x7 x8 x9)
    (h6 : V (Proc.devRef .tc main_arg6) = x6) (h7 : V (Proc.devRef .tc main_arg7) = x7)
    (h8 : V (Proc.devRef .tc main_arg8) = x8) (h9 : V (Proc.devRef .tc main_arg9) = x9) :
    after (opsE (F := F)) V (Proc.devRef .tc main_v310) = ReadP.val_main_v310 (F := F) x0 x1 x2 x4 x5 x6 x7 x8 x9 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h1, h3, hX, hY, h6, h7, h8, h9]
  rfl

/-! ## The decoder -/

set_option maxHeartbeats 4000000 in
/-- The decoder's chunk: from contents holding the last layer's features and the three arguments it reads, the result
    buffer ends at the result's stage. -/
theorem chunkZ_v321 (V : Valuation τ sig (Elt F))
    (x0 : (⟨S50000x14, .f32⟩ : BufTy).Contents (Elt F)) (x1 : (⟨S50000x2, .f32⟩ : BufTy).Contents (Elt F))
    (x2 : (⟨S2x800000, .i32⟩ : BufTy).Contents (Elt F)) (x3 : (⟨S50000, .i32⟩ : BufTy).Contents (Elt F))
    (x4 : (⟨S16x64, .f32⟩ : BufTy).Contents (Elt F)) (x5 : (⟨S64, .f32⟩ : BufTy).Contents (Elt F))
    (x6 : (⟨S64x64, .f32⟩ : BufTy).Contents (Elt F)) (x7 : (⟨S64, .f32⟩ : BufTy).Contents (Elt F))
    (x8 : (⟨S64x64, .f32⟩ : BufTy).Contents (Elt F)) (x9 : (⟨S64, .f32⟩ : BufTy).Contents (Elt F))
    (x10 : (⟨S64x1, .f32⟩ : BufTy).Contents (Elt F)) (x11 : (⟨S1, .f32⟩ : BufTy).Contents (Elt F))
    (hX : V (Proc.devRef .tc main_v313) = ReadP.val_main_v313 (F := F) x0 x1 x2 x4 x5 x6 x7 x8 x9)
    (h3 : V (Proc.devRef .tc main_arg3) = x3) (h10 : V (Proc.devRef .tc main_arg10) = x10)
    (h11 : V (Proc.devRef .tc main_arg11) = x11) :
    after (opsZ (F := F)) V (Proc.devRef .tc main_v321) =
      ReadP.val_main_v321 (F := F) x0 x1 x2 x3 x4 x5 x6 x7 x8 x9 x10 x11 := by
  after_results_simp
  simp only [hX, h3, h10, h11]
  rfl

/-! ## The whole line -/

/-- The result buffer after the whole line, from any start contents: the result's stage of the twelve arguments. -/
theorem after_ops_v321 (V0 : Valuation τ sig (Elt F)) :
    after (ops (F := F)) V0 (Proc.devRef .tc main_v321) = ReadP.val_main_v321 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  show after (opsA ++ (opsB ++ (opsC ++ (opsD ++ (opsE ++ opsZ))))) V0 _ = _
  rw [after_concat, after_concat, after_concat, after_concat, after_concat]
  -- chunk A
  have p1 := chunkA_v1 V0
  have p3 := chunkA_v3 V0
  have pX := chunkA_v69 V0
  have pY := chunkA_v66 V0
  have pK : ∀ r : Ref sig .tc, r ∉ WA → after (opsA (F := F)) V0 (Proc.devRef .tc r) = V0 (Proc.devRef .tc r) :=
    fun r h => after_of_writes_sub opsA V0 opsA_writes h
  generalize after (opsA (F := F)) V0 = VA at p1 p3 pX pY pK ⊢
  -- chunk B
  have q1 := (after_of_writes_sub (opsB (F := F)) VA opsB_writes (show main_v1 ∉ WB by decide)).trans p1
  have q3 := (after_of_writes_sub (opsB (F := F)) VA opsB_writes (show main_v3 ∉ WB by decide)).trans p3
  have qX := chunkB_v130 VA _ _ _ _ _ _ _ _ _ p1 p3 pX pY (pK main_arg6 (by decide)) (pK main_arg7 (by decide)) (pK main_arg8 (by decide)) (pK main_arg9 (by decide))
  have qY := chunkB_v127 VA _ _ _ _ _ _ _ _ _ p1 p3 pX pY (pK main_arg6 (by decide)) (pK main_arg7 (by decide)) (pK main_arg8 (by decide)) (pK main_arg9 (by decide))
  have qK : ∀ r : Ref sig .tc, r ∉ WA → r ∉ WB → after (opsB (F := F)) VA (Proc.devRef .tc r) = V0 (Proc.devRef .tc r) :=
    fun r h0 h => (after_of_writes_sub (opsB (F := F)) VA opsB_writes h).trans (pK r h0)
  clear p1 p3 pX pY pK
  generalize after (opsB (F := F)) VA = VB at q1 q3 qX qY qK ⊢
  have p1 := q1; have p3 := q3; have pX := qX; have pY := qY; have pK := qK
  clear q1 q3 qX qY qK
  -- chunk C
  have q1 := (after_of_writes_sub (opsC (F := F)) VB opsC_writes (show main_v1 ∉ WC by decide)).trans p1
  have q3 := (after_of_writes_sub (opsC (F := F)) VB opsC_writes (show main_v3 ∉ WC by decide)).trans p3
  have qX := chunkC_v191 VB _ _ _ _ _ _ _ _ _ p1 p3 pX pY (pK main_arg6 (by decide) (by decide)) (pK main_arg7 (by decide) (by decide)) (pK main_arg8 (by decide) (by decide)) (pK main_arg9 (by decide) (by decide))
  have qY := chunkC_v188 VB _ _ _ _ _ _ _ _ _ p1 p3 pX pY (pK main_arg6 (by decide) (by decide)) (pK main_arg7 (by decide) (by decide)) (pK main_arg8 (by decide) (by decide)) (pK main_arg9 (by decide) (by decide))
  have qK : ∀ r : Ref sig .tc, r ∉ WA → r ∉ WB → r ∉ WC → after (opsC (F := F)) VB (Proc.devRef .tc r) = V0 (Proc.devRef .tc r) :=
    fun r h0 h1 h => (after_of_writes_sub (opsC (F := F)) VB opsC_writes h).trans (pK r h0 h1)
  clear p1 p3 pX pY pK
  generalize after (opsC (F := F)) VB = VC at q1 q3 qX qY qK ⊢
  have p1 := q1; have p3 := q3; have pX := qX; have pY := qY; have pK := qK
  clear q1 q3 qX qY qK
  -- chunk D
  have q1 := (after_of_writes_sub (opsD (F := F)) VC opsD_writes (show main_v1 ∉ WD by decide)).trans p1
  have q3 := (after_of_writes_sub (opsD (F := F)) VC opsD_writes (show main_v3 ∉ WD by decide)).trans p3
  have qX := chunkD_v252 VC _ _ _ _ _ _ _ _ _ p1 p3 pX pY (pK main_arg6 (by decide) (by decide) (by decide)) (pK main_arg7 (by decide) (by decide) (by decide)) (pK main_arg8 (by decide) (by decide) (by decide)) (pK main_arg9 (by decide) (by decide) (by decide))
  have qY := chunkD_v249 VC _ _ _ _ _ _ _ _ _ p1 p3 pX pY (pK main_arg6 (by decide) (by decide) (by decide)) (pK main_arg7 (by decide) (by decide) (by decide)) (pK main_arg8 (by decide) (by decide) (by decide)) (pK main_arg9 (by decide) (by decide) (by decide))
  have qK : ∀ r : Ref sig .tc, r ∉ WA → r ∉ WB → r ∉ WC → r ∉ WD → after (opsD (F := F)) VC (Proc.devRef .tc r) = V0 (Proc.devRef .tc r) :=
    fun r h0 h1 h2 h => (after_of_writes_sub (opsD (F := F)) VC opsD_writes h).trans (pK r h0 h1 h2)
  clear p1 p3 pX pY pK
  generalize after (opsD (F := F)) VC = VD at q1 q3 qX qY qK ⊢
  have p1 := q1; have p3 := q3; have pX := qX; have pY := qY; have pK := qK
  clear q1 q3 qX qY qK
  -- chunk E
  have q1 := (after_of_writes_sub (opsE (F := F)) VD opsE_writes (show main_v1 ∉ WE by decide)).trans p1
  have q3 := (after_of_writes_sub (opsE (F := F)) VD opsE_writes (show main_v3 ∉ WE by decide)).trans p3
  have qX := chunkE_v313 VD _ _ _ _ _ _ _ _ _ p1 p3 pX pY (pK main_arg6 (by decide) (by decide) (by decide) (by decide)) (pK main_arg7 (by decide) (by decide) (by decide) (by decide)) (pK main_arg8 (by decide) (by decide) (by decide) (by decide)) (pK main_arg9 (by decide) (by decide) (by decide) (by decide))
  have qY := chunkE_v310 VD _ _ _ _ _ _ _ _ _ p1 p3 pX pY (pK main_arg6 (by decide) (by decide) (by decide) (by decide)) (pK main_arg7 (by decide) (by decide) (by decide) (by decide)) (pK main_arg8 (by decide) (by decide) (by decide) (by decide)) (pK main_arg9 (by decide) (by decide) (by decide) (by decide))
  have qK : ∀ r : Ref sig .tc, r ∉ WA → r ∉ WB → r ∉ WC → r ∉ WD → r ∉ WE → after (opsE (F := F)) VD (Proc.devRef .tc r) = V0 (Proc.devRef .tc r) :=
    fun r h0 h1 h2 h3 h => (after_of_writes_sub (opsE (F := F)) VD opsE_writes h).trans (pK r h0 h1 h2 h3)
  clear p1 p3 pX pY pK
  generalize after (opsE (F := F)) VD = VE at q1 q3 qX qY qK ⊢
  have p1 := q1; have p3 := q3; have pX := qX; have pY := qY; have pK := qK
  clear q1 q3 qX qY qK
  -- the decoder
  exact chunkZ_v321 VE _ _ _ _ _ _ _ _ _ _ _ _ pX (pK main_arg3 (by decide) (by decide) (by decide) (by decide) (by decide)) (pK main_arg10 (by decide) (by decide) (by decide) (by decide) (by decide)) (pK main_arg11 (by decide) (by decide) (by decide) (by decide) (by decide))

/-! ## The run -/

/-- On every device, for any float values, from any memory with zero counters: every weakly fair execution of @main
    terminates with the result at the result's stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v321) = ReadP.val_main_v321 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v321).trans (after_ops_v321 _),
      (h c main_arg0).trans (arg_kept _ main_arg0 (by decide)),
      (h c main_arg1).trans (arg_kept _ main_arg1 (by decide)),
      (h c main_arg2).trans (arg_kept _ main_arg2 (by decide)),
      (h c main_arg3).trans (arg_kept _ main_arg3 (by decide)),
      (h c main_arg4).trans (arg_kept _ main_arg4 (by decide)),
      (h c main_arg5).trans (arg_kept _ main_arg5 (by decide)),
      (h c main_arg6).trans (arg_kept _ main_arg6 (by decide)),
      (h c main_arg7).trans (arg_kept _ main_arg7 (by decide)),
      (h c main_arg8).trans (arg_kept _ main_arg8 (by decide)),
      (h c main_arg9).trans (arg_kept _ main_arg9 (by decide)),
      (h c main_arg10).trans (arg_kept _ main_arg10 (by decide)),
      (h c main_arg11).trans (arg_kept _ main_arg11 (by decide))⟩)
    (run_after m ρ)

end Cert.ReferenceIdeal.RunC

end
-- ==== Proof.Algebraic.lean ====
/-
  The algebraic claim. The kernel program's run ends with its result buffer at the kernel's whole function of the argument
  arrays, the reference's run with its result at the reference's; the two functions are equal (layer by layer the kernel's
  aggregation with the destination's inverse square-root degree factored out is the reference's sum over edges and
  self-loops), and the two memories agree on the arguments.
-/
import proofs.«131582_j65292092834213_2_alg».proof.Defs
import proofs.«131582_j65292092834213_2_alg».proof.Proof.Gen.KernelIdeal
import proofs.«131582_j65292092834213_2_alg».proof.Proof.Gen.ReferenceIdeal
import proofs.«131582_j65292092834213_2_alg».proof.Proof.Gen.Pre_finite_inputs
import proofs.«131582_j65292092834213_2_alg».proof.Proof.KI.Main
import proofs.«131582_j65292092834213_2_alg».proof.Proof.KI.KVal
import proofs.«131582_j65292092834213_2_alg».proof.Proof.KI.KernelRes
import proofs.«131582_j65292092834213_2_alg».proof.Proof.RefSpec
import proofs.«131582_j65292092834213_2_alg».proof.Proof.RefRunCV

set_option maxRecDepth 16384

noncomputable section

namespace Cert.Proof.Alg

open Idealize.ShloMosaic Idealize.ShloMosaic.TcCoe Idealize.SL.Sem
open Cert.KernelIdeal.Fr

set_option maxHeartbeats 4000000 in
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => W20 m ρ c (Proc.devRef .tc Cert.KernelIdeal.main_v95), ?_, ?_⟩
  · exact (θ_run (Cert.KernelIdeal.defs (F := Ideal)) _ _).mono (fun r h c =>
      ⟨h c _ (mem_uc Cert.KernelIdeal.main_v95 (by decide)),
       (h c _ (mem_uc Cert.KernelIdeal.main_arg0 (by decide))).trans (W20_main_arg0 m ρ c),
       (h c _ (mem_uc Cert.KernelIdeal.main_arg1 (by decide))).trans (W20_main_arg1 m ρ c),
       (h c _ (mem_uc Cert.KernelIdeal.main_arg2 (by decide))).trans (W20_main_arg2 m ρ c),
       (h c _ (mem_uc Cert.KernelIdeal.main_arg3 (by decide))).trans (W20_main_arg3 m ρ c),
       (h c _ (mem_uc Cert.KernelIdeal.main_arg4 (by decide))).trans (W20_main_arg4 m ρ c),
       (h c _ (mem_uc Cert.KernelIdeal.main_arg5 (by decide))).trans (W20_main_arg5 m ρ c),
       (h c _ (mem_uc Cert.KernelIdeal.main_arg6 (by decide))).trans (W20_main_arg6 m ρ c),
       (h c _ (mem_uc Cert.KernelIdeal.main_arg7 (by decide))).trans (W20_main_arg7 m ρ c),
       (h c _ (mem_uc Cert.KernelIdeal.main_arg8 (by decide))).trans (W20_main_arg8 m ρ c),
       (h c _ (mem_uc Cert.KernelIdeal.main_arg9 (by decide))).trans (W20_main_arg9 m ρ c),
       (h c _ (mem_uc Cert.KernelIdeal.main_arg10 (by decide))).trans (W20_main_arg10 m ρ c),
       (h c _ (mem_uc Cert.KernelIdeal.main_arg11 (by decide))).trans (W20_main_arg11 m ρ c)⟩) (run_all m ρ)
  · refine (θ_run (Cert.ReferenceIdeal.defs (F := Ideal)) _ _).mono (fun r h c => ⟨(h c).1.trans ?_, (h c).2⟩)
      (Cert.ReferenceIdeal.RunC.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    show _ = W20 m ρ c (Proc.devRef .tc Cert.KernelIdeal.main_v95)
    rw [val_v95 m ρ c, kRes_eq]
    exact Cert.ReferenceIdeal.RefValue.result ..

end Cert.Proof.Alg

end
-- ==== Proof.lean ====
/-
  The five claims. Both kernel programs run their twenty items (eight stretches of host operations, twelve kernel
  regions of 25 grid points each) to the end and leave every argument array as launched: each region's body is run at a
  generic grid point, the regions are chained through the contents of the unscoped buffers between them, and the one
  array that region 2 reads through two windows is split into two half shares at entry and joined at exit. The
  reference's frame is its run with the result dropped. The ideal pass rewrote nothing, so `preserves` is trivial.
  The algebraic claim: at the ideal instance the kernel's five layers compute, node by node, the same numbers as the
  reference's — the kernel factors the destination's inverse square-root degree out of the aggregation sum and adds the
  self-loop term separately, which is distributivity of multiplication by a nonnegative real over sums of extended reals.
-/
import proofs.«131582_j65292092834213_2_alg».proof.Defs
import proofs.«131582_j65292092834213_2_alg».proof.Proof.Gen.Kernel
import proofs.«131582_j65292092834213_2_alg».proof.Proof.Gen.KernelIdeal
import proofs.«131582_j65292092834213_2_alg».proof.Proof.Gen.ReferenceIdeal
import proofs.«131582_j65292092834213_2_alg».proof.Proof.Gen.Pre_finite_inputs
import proofs.«131582_j65292092834213_2_alg».proof.Proof.K.Main
import proofs.«131582_j65292092834213_2_alg».proof.Proof.KI.Main
import proofs.«131582_j65292092834213_2_alg».proof.Proof.RefRunC
import proofs.«131582_j65292092834213_2_alg».proof.Proof.Algebraic
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.RunC.run_frame (F := Ideal) m ρ

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Alg.algebraic⟩

end Cert.Proof

end
